-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S256x16 .f32) (main_arg9 : FVec F S16 .f32) (main_v33 : IVec S_ 1) : IVec S_ 1 :=
  let main_v34 : FVec F S256x16 .f32 := Host.absf main_arg8
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg5 : FVec F S256x256 .f32) (main_arg6 : FVec F S256 .f32) (main_arg7 : FVec F S256 .f32) (main_arg8 : FVec F S256x16 .f32) (main_arg9 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S128x256 .f32) (main_arg3 : FVec F S256 .f32) (main_arg4 : FVec F S256 .f32) (main_arg5 : FVec F S256x256 .f32) (main_arg6 : FVec F S256 .f32) (main_arg7 : FVec F S256 .f32) (main_arg8 : FVec F S256x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x320000 : Shape := ⟨2, ![1, 320000]⟩
abbrev S320000 : Shape := ⟨1, ![320000]⟩
abbrev S128x10000 : Shape := ⟨2, ![128, 10000]⟩
abbrev S_ : Shape := ⟨0, ![]⟩
abbrev S128x10240 : Shape := ⟨2, ![128, 10240]⟩
abbrev S1310720 : Shape := ⟨1, ![1310720]⟩
abbrev S40960 : Shape := ⟨1, ![40960]⟩
abbrev S2000 : Shape := ⟨1, ![2000]⟩
abbrev S256x128 : Shape := ⟨2, ![256, 128]⟩
abbrev S256x1 : Shape := ⟨2, ![256, 1]⟩
abbrev S256x10240 : Shape := ⟨2, ![256, 10240]⟩
abbrev S128x2048 : Shape := ⟨2, ![128, 2048]⟩
abbrev S256x2048 : Shape := ⟨2, ![256, 2048]⟩
abbrev S2621440 : Shape := ⟨1, ![2621440]⟩
abbrev S1x16 : Shape := ⟨2, ![1, 16]⟩
abbrev S1 : Shape := ⟨1, ![1]⟩
abbrev S1x1 : Shape := ⟨2, ![1, 1]⟩

abbrev nBuf : Table → Nat
  | .hbm => 34
  | .local .tc .vmem => 16
  | .local .scVector .vmem => 8
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256x16, .f32⟩
  | .hbm, ⟨9, _⟩ => ⟨S16, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S128x10000, .f32⟩
  | .hbm, ⟨15, _⟩ => ⟨S_, .i32⟩
  | .hbm, ⟨16, _⟩ => ⟨S_, .f32⟩
  | .hbm, ⟨17, _⟩ => ⟨S128x10240, .f32⟩
  | .hbm, ⟨18, _⟩ => ⟨S1310720, .f32⟩
  | .hbm, ⟨19, _⟩ => ⟨S1310720, .f32⟩
  | .hbm, ⟨20, _⟩ => ⟨S128x10240, .f32⟩
  | .hbm, ⟨21, _⟩ => ⟨S256x128, .f32⟩
  | .hbm, ⟨22, _⟩ => ⟨S256x1, .f32⟩
  | .hbm, ⟨23, _⟩ => ⟨S256x1, .f32⟩
  | .hbm, ⟨24, _⟩ => ⟨S256x10240, .f32⟩
  | .hbm, ⟨25, _⟩ => ⟨S2621440, .f32⟩
  | .hbm, ⟨26, _⟩ => ⟨S2621440, .f32⟩
  | .hbm, ⟨27, _⟩ => ⟨S256x10240, .f32⟩
  | .hbm, ⟨28, _⟩ => ⟨S256x256, .f32⟩
  | .hbm, ⟨29, _⟩ => ⟨S256x1, .f32⟩
  | .hbm, ⟨30, _⟩ => ⟨S256x1, .f32⟩
  | .hbm, ⟨31, _⟩ => ⟨S1x16, .f32⟩
  | .hbm, ⟨32, _⟩ => ⟨S1x16, .f32⟩
  | .hbm, ⟨33, _⟩ => ⟨S16, .f32⟩
  | .local .tc .vmem, ⟨0, _⟩ => ⟨S128x2048, .f32⟩
  | .local .tc .vmem, ⟨1, _⟩ => ⟨S128x2048, .f32⟩
  | .local .tc .vmem, ⟨2, _⟩ => ⟨S256x128, .f32⟩
  | .local .tc .vmem, ⟨3, _⟩ => ⟨S256x1, .f32⟩
  | .local .tc .vmem, ⟨4, _⟩ => ⟨S256x1, .f32⟩
  | .local .tc .vmem, ⟨5, _⟩ => ⟨S256x2048, .f32⟩
  | .local .tc .vmem, ⟨6, _⟩ => ⟨S256x2048, .f32⟩
  | .local .tc .vmem, ⟨7, _⟩ => ⟨S256x2048, .f32⟩
  | .local .tc .vmem, ⟨8, _⟩ => ⟨S256x2048, .f32⟩
  | .local .tc .vmem, ⟨9, _⟩ => ⟨S256x256, .f32⟩
  | .local .tc .vmem, ⟨10, _⟩ => ⟨S256x1, .f32⟩
  | .local .tc .vmem, ⟨11, _⟩ => ⟨S256x1, .f32⟩
  | .local .tc .vmem, ⟨12, _⟩ => ⟨S256x16, .f32⟩
  | .local .tc .vmem, ⟨13, _⟩ => ⟨S1x16, .f32⟩
  | .local .tc .vmem, ⟨14, _⟩ => ⟨S1x16, .f32⟩
  | .local .tc .vmem, ⟨15, _⟩ => ⟨S256x1, .f32⟩
  | .local .scVector .vmem, ⟨0, _⟩ => ⟨S40960, .f32⟩
  | .local .scVector .vmem, ⟨1, _⟩ => ⟨S40960, .f32⟩
  | .local .scVector .vmem, ⟨2, _⟩ => ⟨S2000, .i32⟩
  | .local .scVector .vmem, ⟨3, _⟩ => ⟨S2000, .i32⟩
  | .local .scVector .vmem, ⟨4, _⟩ => ⟨S40960, .f32⟩
  | .local .scVector .vmem, ⟨5, _⟩ => ⟨S40960, .f32⟩
  | .local .scVector .vmem, ⟨6, _⟩ => ⟨S2000, .i32⟩
  | .local .scVector .vmem, ⟨7, _⟩ => ⟨S2000, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v6_scv : Ref sig .scVector := ⟨.hbm, 18, rfl⟩
abbrev main_v1_scv : Ref sig .scVector := ⟨.hbm, 11, rfl⟩
abbrev main_v3_scv : Ref sig .scVector := ⟨.hbm, 13, rfl⟩
abbrev main_v7_scv : Ref sig .scVector := ⟨.hbm, 19, rfl⟩
abbrev main_v13_scv : Ref sig .scVector := ⟨.hbm, 25, rfl⟩
abbrev main_v14_scv : Ref sig .scVector := ⟨.hbm, 26, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc3_stg0_0 : Ref sig .tc := ⟨.vmem, 7, rfl⟩
abbrev cc3_stg0_1 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_scratch0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi c0_i32 v2
  let c10240_i32 : BitVec 32 := 10240#32
  let v4 : BitVec 32 := Scalar.muli v3 c10240_i32
  ![v4.toNat]
@[reducible] def k0_t1_loop : Scf.Loop 32 :=
  let c0_i32_1 : BitVec 32 := 0#32
  let c2560_i32 : BitVec 32 := 2560#32
  let v5 : BitVec 32 := Scalar.addi c0_i32_1 c2560_i32
  let c1_i32 : BitVec 32 := 1#32
  ⟨c0_i32_1, v5, c1_i32⟩
def k0_off2 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v10 : BitVec 32 := Scalar.muli arg10 c16_i32
  let v11 : Index := Scalar.indexCast v10
  ![v11.toNat]
@[reducible] def k0_t2_loop : Scf.Loop 32 :=
  let c0_i32_4 : BitVec 32 := 0#32
  let c160_i32 : BitVec 32 := 160#32
  let v7 : BitVec 32 := Scalar.addi c0_i32_4 c160_i32
  let c1_i32_5 : BitVec 32 := 1#32
  ⟨c0_i32_4, v7, c1_i32_5⟩
def k0_off3 (k0_t2 : Fin k0_t2_loop.trips) : Fin 1 → Nat :=
  let c0_i32_4 : BitVec 32 := 0#32
  let c1_i32_5 : BitVec 32 := 1#32
  let arg10 : BitVec 32 := Scf.iv c0_i32_4 c1_i32_5 k0_t2
  let c2000_i32 : BitVec 32 := 2000#32
  let v9 : BitVec 32 := Scalar.muli arg10 c2000_i32
  ![v9.toNat]
@[reducible] def k0_t3_loop : Scf.Loop 32 :=
  let c0_i32_9 : BitVec 32 := 0#32
  let c125_i32 : BitVec 32 := 125#32
  let v11 : BitVec 32 := Scalar.addi c0_i32_9 c125_i32
  let c1_i32_10 : BitVec 32 := 1#32
  ⟨c0_i32_9, v11, c1_i32_10⟩
def k0_off4 (k0_t3 : Fin k0_t3_loop.trips) : Fin 1 → Nat :=
  let c0_i32_9 : BitVec 32 := 0#32
  let c1_i32_10 : BitVec 32 := 1#32
  let arg12 : BitVec 32 := Scf.iv c0_i32_9 c1_i32_10 k0_t3
  let c16_i32 : BitVec 32 := 16#32
  let v13 : BitVec 32 := Scalar.muli arg12 c16_i32
  let v14 : Index := Scalar.indexCast v13
  ![v14.toNat]

def k0_chk1 (v20 : IVec S16 32) : Prop :=
  (∀ a x, ((![v20] : Fin 1 → IVec S16 32) a x).toNat < S40960.size a)
instance k0_chk1.dec : ∀ (v20 : IVec S16 32), Decidable (k0_chk1 v20) := fun v20 => decidable_of_iff' _ (Iff.of_eq (k0_chk1.eq_1 v20))
theorem k0_idx1_inb : ∀ (v20 : IVec S16 32) (k0_hw1 : k0_chk1 v20), ∀ a x, ((![v20] : Fin 1 → IVec S16 32) a x).toNat < S40960.size a := fun v20 k0_hw1 => k0_hw1

def k0_chk2 (v23 : IVec S16 32) : Prop :=
  (∀ a x, ((![v23] : Fin 1 → IVec S16 32) a x).toNat < S40960.size a)
instance k0_chk2.dec : ∀ (v23 : IVec S16 32), Decidable (k0_chk2 v23) := fun v23 => decidable_of_iff' _ (Iff.of_eq (k0_chk2.eq_1 v23))
theorem k0_idx2_inb : ∀ (v23 : IVec S16 32) (k0_hw2 : k0_chk2 v23), ∀ a x, ((![v23] : Fin 1 → IVec S16 32) a x).toNat < S40960.size a := fun v23 k0_hw2 => k0_hw2

def k0_chk3 (v25 : IVec S16 32) : Prop :=
  (∀ a x, ((![v25] : Fin 1 → IVec S16 32) a x).toNat < S40960.size a)
instance k0_chk3.dec : ∀ (v25 : IVec S16 32), Decidable (k0_chk3 v25) := fun v25 => decidable_of_iff' _ (Iff.of_eq (k0_chk3.eq_1 v25))
theorem k0_idx3_inb : ∀ (v25 : IVec S16 32) (k0_hw3 : k0_chk3 v25), ∀ a x, ((![v25] : Fin 1 → IVec S16 32) a x).toNat < S40960.size a := fun v25 k0_hw3 => k0_hw3

def k0_chk4 (v28 : IVec S16 32) : Prop :=
  (∀ a x, ((![v28] : Fin 1 → IVec S16 32) a x).toNat < S40960.size a)
instance k0_chk4.dec : ∀ (v28 : IVec S16 32), Decidable (k0_chk4 v28) := fun v28 => decidable_of_iff' _ (Iff.of_eq (k0_chk4.eq_1 v28))
theorem k0_idx4_inb : ∀ (v28 : IVec S16 32) (k0_hw4 : k0_chk4 v28), ∀ a x, ((![v28] : Fin 1 → IVec S16 32) a x).toNat < S40960.size a := fun v28 k0_hw4 => k0_hw4

def k0_chk5 (v30 : IVec S16 32) : Prop :=
  (∀ a x, ((![v30] : Fin 1 → IVec S16 32) a x).toNat < S40960.size a)
instance k0_chk5.dec : ∀ (v30 : IVec S16 32), Decidable (k0_chk5 v30) := fun v30 => decidable_of_iff' _ (Iff.of_eq (k0_chk5.eq_1 v30))
theorem k0_idx5_inb : ∀ (v30 : IVec S16 32) (k0_hw5 : k0_chk5 v30), ∀ a x, ((![v30] : Fin 1 → IVec S16 32) a x).toNat < S40960.size a := fun v30 k0_hw5 => k0_hw5

def k0_chk6 (v33 : IVec S16 32) : Prop :=
  (∀ a x, ((![v33] : Fin 1 → IVec S16 32) a x).toNat < S40960.size a)
instance k0_chk6.dec : ∀ (v33 : IVec S16 32), Decidable (k0_chk6 v33) := fun v33 => decidable_of_iff' _ (Iff.of_eq (k0_chk6.eq_1 v33))
theorem k0_idx6_inb : ∀ (v33 : IVec S16 32) (k0_hw6 : k0_chk6 v33), ∀ a x, ((![v33] : Fin 1 → IVec S16 32) a x).toNat < S40960.size a := fun v33 k0_hw6 => k0_hw6

def k0_chk7 (v35 : IVec S16 32) : Prop :=
  (∀ a x, ((![v35] : Fin 1 → IVec S16 32) a x).toNat < S40960.size a)
instance k0_chk7.dec : ∀ (v35 : IVec S16 32), Decidable (k0_chk7 v35) := fun v35 => decidable_of_iff' _ (Iff.of_eq (k0_chk7.eq_1 v35))
theorem k0_idx7_inb : ∀ (v35 : IVec S16 32) (k0_hw7 : k0_chk7 v35), ∀ a x, ((![v35] : Fin 1 → IVec S16 32) a x).toNat < S40960.size a := fun v35 k0_hw7 => k0_hw7

def k0_chk8 (v38 : IVec S16 32) : Prop :=
  (∀ a x, ((![v38] : Fin 1 → IVec S16 32) a x).toNat < S40960.size a)
instance k0_chk8.dec : ∀ (v38 : IVec S16 32), Decidable (k0_chk8 v38) := fun v38 => decidable_of_iff' _ (Iff.of_eq (k0_chk8.eq_1 v38))
theorem k0_idx8_inb : ∀ (v38 : IVec S16 32) (k0_hw8 : k0_chk8 v38), ∀ a x, ((![v38] : Fin 1 → IVec S16 32) a x).toNat < S40960.size a := fun v38 k0_hw8 => k0_hw8
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi c0_i32 v2
  let c10240_i32 : BitVec 32 := 10240#32
  let v4 : BitVec 32 := Scalar.muli v3 c10240_i32
  ![v4.toNat]
@[reducible] def k2_t1_loop : Scf.Loop 32 :=
  let c0_i32_1 : BitVec 32 := 0#32
  let c2560_i32 : BitVec 32 := 2560#32
  let v5 : BitVec 32 := Scalar.addi c0_i32_1 c2560_i32
  let c1_i32 : BitVec 32 := 1#32
  ⟨c0_i32_1, v5, c1_i32⟩
def k2_off2 (k2_t1 : Fin k2_t1_loop.trips) : Fin 1 → Nat :=
  let c0_i32_1 : BitVec 32 := 0#32
  let c1_i32 : BitVec 32 := 1#32
  let arg10 : BitVec 32 := Scf.iv c0_i32_1 c1_i32 k2_t1
  let c16_i32 : BitVec 32 := 16#32
  let v17 : BitVec 32 := Scalar.muli arg10 c16_i32
  let v18 : Index := Scalar.indexCast v17
  ![v18.toNat]
@[reducible] def k2_t2_loop : Scf.Loop 32 :=
  let c0_i32_4 : BitVec 32 := 0#32
  let c160_i32 : BitVec 32 := 160#32
  let v7 : BitVec 32 := Scalar.addi c0_i32_4 c160_i32
  let c1_i32_5 : BitVec 32 := 1#32
  ⟨c0_i32_4, v7, c1_i32_5⟩
def k2_off3 (k2_t2 : Fin k2_t2_loop.trips) : Fin 1 → Nat :=
  let c0_i32_4 : BitVec 32 := 0#32
  let c1_i32_5 : BitVec 32 := 1#32
  let arg10 : BitVec 32 := Scf.iv c0_i32_4 c1_i32_5 k2_t2
  let c2000_i32 : BitVec 32 := 2000#32
  let v16 : BitVec 32 := Scalar.muli arg10 c2000_i32
  ![v16.toNat]
@[reducible] def k2_t3_loop : Scf.Loop 32 :=
  let c0_i32_21 : BitVec 32 := 0#32
  let c125_i32 : BitVec 32 := 125#32
  let v18 : BitVec 32 := Scalar.addi c0_i32_21 c125_i32
  let c1_i32_22 : BitVec 32 := 1#32
  ⟨c0_i32_21, v18, c1_i32_22⟩
def k2_off4 (k2_t3 : Fin k2_t3_loop.trips) : Fin 1 → Nat :=
  let c0_i32_21 : BitVec 32 := 0#32
  let c1_i32_22 : BitVec 32 := 1#32
  let arg12 : BitVec 32 := Scf.iv c0_i32_21 c1_i32_22 k2_t3
  let c16_i32 : BitVec 32 := 16#32
  let v20 : BitVec 32 := Scalar.muli arg12 c16_i32
  let v21 : Index := Scalar.indexCast v20
  ![v21.toNat]

def k2_chk1 (v27 : IVec S16 32) : Prop :=
  (∀ a x, ((![v27] : Fin 1 → IVec S16 32) a x).toNat < S40960.size a)
instance k2_chk1.dec : ∀ (v27 : IVec S16 32), Decidable (k2_chk1 v27) := fun v27 => decidable_of_iff' _ (Iff.of_eq (k2_chk1.eq_1 v27))
theorem k2_idx1_inb : ∀ (v27 : IVec S16 32) (k2_hw1 : k2_chk1 v27), ∀ a x, ((![v27] : Fin 1 → IVec S16 32) a x).toNat < S40960.size a := fun v27 k2_hw1 => k2_hw1

def k2_chk2 (v30 : IVec S16 32) : Prop :=
  (∀ a x, ((![v30] : Fin 1 → IVec S16 32) a x).toNat < S40960.size a)
instance k2_chk2.dec : ∀ (v30 : IVec S16 32), Decidable (k2_chk2 v30) := fun v30 => decidable_of_iff' _ (Iff.of_eq (k2_chk2.eq_1 v30))
theorem k2_idx2_inb : ∀ (v30 : IVec S16 32) (k2_hw2 : k2_chk2 v30), ∀ a x, ((![v30] : Fin 1 → IVec S16 32) a x).toNat < S40960.size a := fun v30 k2_hw2 => k2_hw2

def k2_chk3 (v32 : IVec S16 32) : Prop :=
  (∀ a x, ((![v32] : Fin 1 → IVec S16 32) a x).toNat < S40960.size a)
instance k2_chk3.dec : ∀ (v32 : IVec S16 32), Decidable (k2_chk3 v32) := fun v32 => decidable_of_iff' _ (Iff.of_eq (k2_chk3.eq_1 v32))
theorem k2_idx3_inb : ∀ (v32 : IVec S16 32) (k2_hw3 : k2_chk3 v32), ∀ a x, ((![v32] : Fin 1 → IVec S16 32) a x).toNat < S40960.size a := fun v32 k2_hw3 => k2_hw3

def k2_chk4 (v35 : IVec S16 32) : Prop :=
  (∀ a x, ((![v35] : Fin 1 → IVec S16 32) a x).toNat < S40960.size a)
instance k2_chk4.dec : ∀ (v35 : IVec S16 32), Decidable (k2_chk4 v35) := fun v35 => decidable_of_iff' _ (Iff.of_eq (k2_chk4.eq_1 v35))
theorem k2_idx4_inb : ∀ (v35 : IVec S16 32) (k2_hw4 : k2_chk4 v35), ∀ a x, ((![v35] : Fin 1 → IVec S16 32) a x).toNat < S40960.size a := fun v35 k2_hw4 => k2_hw4

def k2_chk5 (v37 : IVec S16 32) : Prop :=
  (∀ a x, ((![v37] : Fin 1 → IVec S16 32) a x).toNat < S40960.size a)
instance k2_chk5.dec : ∀ (v37 : IVec S16 32), Decidable (k2_chk5 v37) := fun v37 => decidable_of_iff' _ (Iff.of_eq (k2_chk5.eq_1 v37))
theorem k2_idx5_inb : ∀ (v37 : IVec S16 32) (k2_hw5 : k2_chk5 v37), ∀ a x, ((![v37] : Fin 1 → IVec S16 32) a x).toNat < S40960.size a := fun v37 k2_hw5 => k2_hw5

def k2_chk6 (v40 : IVec S16 32) : Prop :=
  (∀ a x, ((![v40] : Fin 1 → IVec S16 32) a x).toNat < S40960.size a)
instance k2_chk6.dec : ∀ (v40 : IVec S16 32), Decidable (k2_chk6 v40) := fun v40 => decidable_of_iff' _ (Iff.of_eq (k2_chk6.eq_1 v40))
theorem k2_idx6_inb : ∀ (v40 : IVec S16 32) (k2_hw6 : k2_chk6 v40), ∀ a x, ((![v40] : Fin 1 → IVec S16 32) a x).toNat < S40960.size a := fun v40 k2_hw6 => k2_hw6

def k2_chk7 (v42 : IVec S16 32) : Prop :=
  (∀ a x, ((![v42] : Fin 1 → IVec S16 32) a x).toNat < S40960.size a)
instance k2_chk7.dec : ∀ (v42 : IVec S16 32), Decidable (k2_chk7 v42) := fun v42 => decidable_of_iff' _ (Iff.of_eq (k2_chk7.eq_1 v42))
theorem k2_idx7_inb : ∀ (v42 : IVec S16 32) (k2_hw7 : k2_chk7 v42), ∀ a x, ((![v42] : Fin 1 → IVec S16 32) a x).toNat < S40960.size a := fun v42 k2_hw7 => k2_hw7

def k2_chk8 (v45 : IVec S16 32) : Prop :=
  (∀ a x, ((![v45] : Fin 1 → IVec S16 32) a x).toNat < S40960.size a)
instance k2_chk8.dec : ∀ (v45 : IVec S16 32), Decidable (k2_chk8 v45) := fun v45 => decidable_of_iff' _ (Iff.of_eq (k2_chk8.eq_1 v45))
theorem k2_idx8_inb : ∀ (v45 : IVec S16 32) (k2_hw8 : k2_chk8 v45), ∀ a x, ((![v45] : Fin 1 → IVec S16 32) a x).toNat < S40960.size a := fun v45 k2_hw8 => k2_hw8
@[reducible] def k2_t4_loop : Scf.Loop 32 :=
  let c0_i32_10 : BitVec 32 := 0#32
  let c2560_i32_11 : BitVec 32 := 2560#32
  let v12 : BitVec 32 := Scalar.addi c0_i32_10 c2560_i32_11
  let c1_i32_12 : BitVec 32 := 1#32
  ⟨c0_i32_10, v12, c1_i32_12⟩
def k2_off5 (k2_t4 : Fin k2_t4_loop.trips) : Fin 1 → Nat :=
  let c0_i32_10 : BitVec 32 := 0#32
  let c1_i32_12 : BitVec 32 := 1#32
  let arg10 : BitVec 32 := Scf.iv c0_i32_10 c1_i32_12 k2_t4
  let c16_i32 : BitVec 32 := 16#32
  let v17 : BitVec 32 := Scalar.muli arg10 c16_i32
  let v18 : Index := Scalar.indexCast v17
  ![v18.toNat]
@[reducible] def k2_t5_loop : Scf.Loop 32 :=
  let c0_i32_15 : BitVec 32 := 0#32
  let c160_i32_16 : BitVec 32 := 160#32
  let v14 : BitVec 32 := Scalar.addi c0_i32_15 c160_i32_16
  let c1_i32_17 : BitVec 32 := 1#32
  ⟨c0_i32_15, v14, c1_i32_17⟩
def k2_off6 (k2_t5 : Fin k2_t5_loop.trips) : Fin 1 → Nat :=
  let c0_i32_15 : BitVec 32 := 0#32
  let c1_i32_17 : BitVec 32 := 1#32
  let arg10 : BitVec 32 := Scf.iv c0_i32_15 c1_i32_17 k2_t5
  let c2000_i32 : BitVec 32 := 2000#32
  let v16 : BitVec 32 := Scalar.muli arg10 c2000_i32
  ![v16.toNat]
@[reducible] def k2_t6_loop : Scf.Loop 32 :=
  let c0_i32_21 : BitVec 32 := 0#32
  let c125_i32 : BitVec 32 := 125#32
  let v18 : BitVec 32 := Scalar.addi c0_i32_21 c125_i32
  let c1_i32_22 : BitVec 32 := 1#32
  ⟨c0_i32_21, v18, c1_i32_22⟩
def k2_off7 (k2_t6 : Fin k2_t6_loop.trips) : Fin 1 → Nat :=
  let c0_i32_21 : BitVec 32 := 0#32
  let c1_i32_22 : BitVec 32 := 1#32
  let arg12 : BitVec 32 := Scf.iv c0_i32_21 c1_i32_22 k2_t6
  let c16_i32 : BitVec 32 := 16#32
  let v20 : BitVec 32 := Scalar.muli arg12 c16_i32
  let v21 : Index := Scalar.indexCast v20
  ![v21.toNat]

def k2_chk9 (v27 : IVec S16 32) : Prop :=
  (∀ a x, ((![v27] : Fin 1 → IVec S16 32) a x).toNat < S40960.size a)
instance k2_chk9.dec : ∀ (v27 : IVec S16 32), Decidable (k2_chk9 v27) := fun v27 => decidable_of_iff' _ (Iff.of_eq (k2_chk9.eq_1 v27))
theorem k2_idx9_inb : ∀ (v27 : IVec S16 32) (k2_hw9 : k2_chk9 v27), ∀ a x, ((![v27] : Fin 1 → IVec S16 32) a x).toNat < S40960.size a := fun v27 k2_hw9 => k2_hw9

def k2_chk10 (v30 : IVec S16 32) : Prop :=
  (∀ a x, ((![v30] : Fin 1 → IVec S16 32) a x).toNat < S40960.size a)
instance k2_chk10.dec : ∀ (v30 : IVec S16 32), Decidable (k2_chk10 v30) := fun v30 => decidable_of_iff' _ (Iff.of_eq (k2_chk10.eq_1 v30))
theorem k2_idx10_inb : ∀ (v30 : IVec S16 32) (k2_hw10 : k2_chk10 v30), ∀ a x, ((![v30] : Fin 1 → IVec S16 32) a x).toNat < S40960.size a := fun v30 k2_hw10 => k2_hw10

def k2_chk11 (v32 : IVec S16 32) : Prop :=
  (∀ a x, ((![v32] : Fin 1 → IVec S16 32) a x).toNat < S40960.size a)
instance k2_chk11.dec : ∀ (v32 : IVec S16 32), Decidable (k2_chk11 v32) := fun v32 => decidable_of_iff' _ (Iff.of_eq (k2_chk11.eq_1 v32))
theorem k2_idx11_inb : ∀ (v32 : IVec S16 32) (k2_hw11 : k2_chk11 v32), ∀ a x, ((![v32] : Fin 1 → IVec S16 32) a x).toNat < S40960.size a := fun v32 k2_hw11 => k2_hw11

def k2_chk12 (v35 : IVec S16 32) : Prop :=
  (∀ a x, ((![v35] : Fin 1 → IVec S16 32) a x).toNat < S40960.size a)
instance k2_chk12.dec : ∀ (v35 : IVec S16 32), Decidable (k2_chk12 v35) := fun v35 => decidable_of_iff' _ (Iff.of_eq (k2_chk12.eq_1 v35))
theorem k2_idx12_inb : ∀ (v35 : IVec S16 32) (k2_hw12 : k2_chk12 v35), ∀ a x, ((![v35] : Fin 1 → IVec S16 32) a x).toNat < S40960.size a := fun v35 k2_hw12 => k2_hw12

def k2_chk13 (v37 : IVec S16 32) : Prop :=
  (∀ a x, ((![v37] : Fin 1 → IVec S16 32) a x).toNat < S40960.size a)
instance k2_chk13.dec : ∀ (v37 : IVec S16 32), Decidable (k2_chk13 v37) := fun v37 => decidable_of_iff' _ (Iff.of_eq (k2_chk13.eq_1 v37))
theorem k2_idx13_inb : ∀ (v37 : IVec S16 32) (k2_hw13 : k2_chk13 v37), ∀ a x, ((![v37] : Fin 1 → IVec S16 32) a x).toNat < S40960.size a := fun v37 k2_hw13 => k2_hw13

def k2_chk14 (v40 : IVec S16 32) : Prop :=
  (∀ a x, ((![v40] : Fin 1 → IVec S16 32) a x).toNat < S40960.size a)
instance k2_chk14.dec : ∀ (v40 : IVec S16 32), Decidable (k2_chk14 v40) := fun v40 => decidable_of_iff' _ (Iff.of_eq (k2_chk14.eq_1 v40))
theorem k2_idx14_inb : ∀ (v40 : IVec S16 32) (k2_hw14 : k2_chk14 v40), ∀ a x, ((![v40] : Fin 1 → IVec S16 32) a x).toNat < S40960.size a := fun v40 k2_hw14 => k2_hw14

def k2_chk15 (v42 : IVec S16 32) : Prop :=
  (∀ a x, ((![v42] : Fin 1 → IVec S16 32) a x).toNat < S40960.size a)
instance k2_chk15.dec : ∀ (v42 : IVec S16 32), Decidable (k2_chk15 v42) := fun v42 => decidable_of_iff' _ (Iff.of_eq (k2_chk15.eq_1 v42))
theorem k2_idx15_inb : ∀ (v42 : IVec S16 32) (k2_hw15 : k2_chk15 v42), ∀ a x, ((![v42] : Fin 1 → IVec S16 32) a x).toNat < S40960.size a := fun v42 k2_hw15 => k2_hw15

def k2_chk16 (v45 : IVec S16 32) : Prop :=
  (∀ a x, ((![v45] : Fin 1 → IVec S16 32) a x).toNat < S40960.size a)
instance k2_chk16.dec : ∀ (v45 : IVec S16 32), Decidable (k2_chk16 v45) := fun v45 => decidable_of_iff' _ (Iff.of_eq (k2_chk16.eq_1 v45))
theorem k2_idx16_inb : ∀ (v45 : IVec S16 32) (k2_hw16 : k2_chk16 v45), ∀ a x, ((![v45] : Fin 1 → IVec S16 32) a x).toNat < S40960.size a := fun v45 k2_hw16 => k2_hw16
abbrev grid3 : Pipeline.Grid := ⟨1, ![5], ![false]⟩

def k3_cond3 (i : grid3.Coords) : BitVec 1 :=
  let arg0 : BitVec 32 := BitVec.ofNat 32 (i 0).val
  let c4_i32 : BitVec 32 := 4#32
  let v32 : BitVec 1 := Scalar.cmpi .eq arg0 c4_i32
  let v33 : BitVec 32 := Scalar.extui v32
  let c0_i32_13 : BitVec 32 := 0#32
  let v34 : BitVec 1 := Scalar.cmpi .ne v33 c0_i32_13
  v34

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S10000x128_S128x10000_1_0 : S10000x128.Transposes [1, 0] S128x10000
  pads_S128x10000_S128x10240_000_02400 : S128x10000.Pads (![0, 0] : Fin 2 → Nat) ![0, 240] ![0, 0] S128x10240
  h_S_ : 0 < S_.numel
  shapeCasts_S128x10240_S1310720 : S128x10240.ShapeCasts S1310720
  h_S16 : 0 < S16.numel
  h_S40960 : 0 < S40960.numel
  shapeCasts_S1310720_S128x10240 : S1310720.ShapeCasts S128x10240
  transposes_S128x256_S256x128_1_0 : S128x256.Transposes [1, 0] S256x128
  shapeCasts_S256_S256x1 : S256.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  shapeCasts_S256x10240_S2621440 : S256x10240.ShapeCasts S2621440
  shapeCasts_S2621440_S256x10240 : S2621440.ShapeCasts S256x10240
  transposes_S256x256_S256x256_1_0 : S256x256.Transposes [1, 0] S256x256
  shapeCasts_S16_S1x16 : S16.ShapeCasts S1x16
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x2048_S256x2048 : S256x2048.ShapeCasts S256x2048
  iota_S256x2048_d1_w32 : S256x2048.Iotas .tc 32 [1]
  reduces_S256x2048_S256 : S256x2048.Reduces [1] S256
  inb_S256x16_S256x16_0_0 : ∀ a, (![0, 0] : Fin 2 → Nat) a + S256x16.size a ≤ S256x16.size a
  h_S256x16 : 0 < S256x16.numel
  broadcasts_S256x1_S256x16 : S256x1.Broadcasts S256x16
  reduces_S256x16_S16 : S256x16.Reduces [0] S16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  reduces_S1x16_S1 : S1x16.Reduces [1] S1
  shapeCasts_S1_S1x1 : S1.ShapeCasts S1x1
  broadcasts_S1x1_S1x16 : S1x1.Broadcasts S1x16
  shapeCasts_S1x16_S16 : S1x16.ShapeCasts S16
  dot_S256x128_S128x2048_S256x2048_1_0_0_1_n_n_wf : DotDims.WF S256x128 S128x2048 S256x2048 [1] [0] [0] [1] [] []
  dot_S256x256_S256x2048_S256x2048_1_0_0_1_n_n_wf : DotDims.WF S256x256 S256x2048 S256x2048 [1] [0] [0] [1] [] []
  hcc0_scoped0 : 0 + S_.numel ≤ 27
  hcc0_scoped1 : 1 + S_.numel ≤ 27
  hcc0_scoped2 : 2 + S_.numel ≤ 27
  hcc0_scoped3 : 3 + S_.numel ≤ 27
  hcc2_scoped0 : 11 + S_.numel ≤ 27
  hcc2_scoped1 : 12 + S_.numel ≤ 27
  hcc2_scoped2 : 13 + S_.numel ≤ 27
  hcc2_scoped3 : 14 + S_.numel ≤ 27
  hcc2_scoped4 : 15 + S_.numel ≤ 27
  hcc2_scoped5 : 16 + S_.numel ≤ 27
  hcc2_scoped6 : 17 + S_.numel ≤ 27
  hcc2_scoped7 : 18 + S_.numel ≤ 27
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S40960.size a ≤ S1310720.size a
  k0_t1_ok : k0_t1_loop.OK
  k0_off2_inb : ∀ k0_t1 : Fin k0_t1_loop.trips, ∀ a, (k0_off2 k0_t1) a + S16.size a ≤ S40960.size a
  k0_t2_ok : k0_t2_loop.OK
  k0_off3_inb : ∀ k0_t2 : Fin k0_t2_loop.trips, ∀ a, (k0_off3 k0_t2) a + S2000.size a ≤ S320000.size a
  k0_t3_ok : k0_t3_loop.OK
  k0_off4_inb : ∀ k0_t3 : Fin k0_t3_loop.trips, ∀ a, (k0_off4 k0_t3) a + S16.size a ≤ S2000.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x10240.size a
  hwx1_0 : ∀ i : grid1.Coords, EltTy.bits .f32 = 32 ∨ (Rect.block (s := S128x10240) S128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S256x10240.size a
  hwx1_4 : ∀ i : grid1.Coords, EltTy.bits .f32 = 32 ∨ (Rect.block (s := S256x10240) S256x2048.size (cc1_transform_4 i) (hinb1_4 i)).WholeWords (EltTy.packing .f32)
  hcore2 : grid2.bound 0 ≤ τ.nSC
  hsub2 : grid2.bound 1 ≤ τ.nSub
  k2_off1_inb : ∀ i : grid2.Coords, ∀ (r : Fin 2), ∀ a, (k2_off1 i (BitVec.ofNat 32 (128 * r.val))) a + S40960.size a ≤ S2621440.size a
  k2_t1_ok : k2_t1_loop.OK
  k2_off2_inb : ∀ k2_t1 : Fin k2_t1_loop.trips, ∀ a, (k2_off2 k2_t1) a + S16.size a ≤ S40960.size a
  k2_t2_ok : k2_t2_loop.OK
  k2_off3_inb : ∀ k2_t2 : Fin k2_t2_loop.trips, ∀ a, (k2_off3 k2_t2) a + S2000.size a ≤ S320000.size a
  k2_t3_ok : k2_t3_loop.OK
  k2_off4_inb : ∀ k2_t3 : Fin k2_t3_loop.trips, ∀ a, (k2_off4 k2_t3) a + S16.size a ≤ S2000.size a
  k2_t4_ok : k2_t4_loop.OK
  k2_off5_inb : ∀ k2_t4 : Fin k2_t4_loop.trips, ∀ a, (k2_off5 k2_t4) a + S16.size a ≤ S40960.size a
  k2_t5_ok : k2_t5_loop.OK
  k2_off6_inb : ∀ k2_t5 : Fin k2_t5_loop.trips, ∀ a, (k2_off6 k2_t5) a + S2000.size a ≤ S320000.size a
  k2_t6_ok : k2_t6_loop.OK
  k2_off7_inb : ∀ k2_t6 : Fin k2_t6_loop.trips, ∀ a, (k2_off7 k2_t6) a + S16.size a ≤ S2000.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S256x10240.size a
  hwx3_0 : ∀ i : grid3.Coords, EltTy.bits .f32 = 32 ∨ (Rect.block (s := S256x10240) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S256x1.size a
  hwx3_2 : ∀ i : grid3.Coords, EltTy.bits .f32 = 32 ∨ (Rect.block (s := S256x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x16.size a ≤ S256x16.size a
  hwx3_4 : ∀ i : grid3.Coords, EltTy.bits .f32 = 32 ∨ (Rect.block (s := S256x16) S256x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc2_scoped0 : DmaSems sig S_ := SemArray.consecutive 11 S_ hcc2_scoped0
abbrev cc2_scoped1 : DmaSems sig S_ := SemArray.consecutive 12 S_ hcc2_scoped1
abbrev cc2_scoped2 : DmaSems sig S_ := SemArray.consecutive 13 S_ hcc2_scoped2
abbrev cc2_scoped3 : DmaSems sig S_ := SemArray.consecutive 14 S_ hcc2_scoped3
abbrev cc2_scoped4 : DmaSems sig S_ := SemArray.consecutive 15 S_ hcc2_scoped4
abbrev cc2_scoped5 : DmaSems sig S_ := SemArray.consecutive 16 S_ hcc2_scoped5
abbrev cc2_scoped6 : DmaSems sig S_ := SemArray.consecutive 17 S_ hcc2_scoped6
abbrev cc2_scoped7 : DmaSems sig S_ := SemArray.consecutive 18 S_ hcc2_scoped7
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win1_0 : Pipeline.Window sig grid1 :=
  Pipeline.Window.ofSpec (Memref.whole main_v8) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win3_0 : Pipeline.Window sig grid3 :=
  Pipeline.Window.ofSpec (Memref.whole main_v15) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S256x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S256x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v20) S1x16.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x256 : Shape := ⟨2, ![320000, 256]⟩
abbrev S10000x256 : Shape := ⟨2, ![10000, 256]⟩
abbrev S1x256 : Shape := ⟨2, ![1, 256]⟩

abbrev nBuf : Space → Nat
  | .hbm => 107
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256x16, .f32⟩
  | .hbm, ⟨9, _⟩ => ⟨S16, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S1, .i32⟩
  | .hbm, ⟨23, _⟩ => ⟨S_, .i32⟩
  | .hbm, ⟨24, _⟩ => ⟨S320000x1, .i32⟩
  | .hbm, ⟨25, _⟩ => ⟨S320000x1, .i1⟩
  | .hbm, ⟨26, _⟩ => ⟨S1x1, .i32⟩
  | .hbm, ⟨27, _⟩ => ⟨S320000x1, .i32⟩
  | .hbm, ⟨28, _⟩ => ⟨S320000x1, .i1⟩
  | .hbm, ⟨29, _⟩ => ⟨S320000x1, .i1⟩
  | .hbm, ⟨30, _⟩ => ⟨S_, .i1⟩
  | .hbm, ⟨31, _⟩ => ⟨S320000, .i1⟩
  | .hbm, ⟨32, _⟩ => ⟨S320000x128, .f32⟩
  | .hbm, ⟨33, _⟩ => ⟨S320000x128, .i1⟩
  | .hbm, ⟨34, _⟩ => ⟨S_, .f32⟩
  | .hbm, ⟨35, _⟩ => ⟨S320000x128, .f32⟩
  | .hbm, ⟨36, _⟩ => ⟨S320000x128, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S1x256, .f32⟩
  | .hbm, ⟨43, _⟩ => ⟨S10000x256, .f32⟩
  | .hbm, ⟨44, _⟩ => ⟨S10000x256, .f32⟩
  | .hbm, ⟨45, _⟩ => ⟨S_, .f32⟩
  | .hbm, ⟨46, _⟩ => ⟨S10000x256, .f32⟩
  | .hbm, ⟨47, _⟩ => ⟨S10000x256, .i1⟩
  | .hbm, ⟨48, _⟩ => ⟨S1x256, .f32⟩
  | .hbm, ⟨49, _⟩ => ⟨S10000x256, .f32⟩
  | .hbm, ⟨50, _⟩ => ⟨S10000x256, .f32⟩
  | .hbm, ⟨51, _⟩ => ⟨S10000x256, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S1, .i32⟩
  | .hbm, ⟨61, _⟩ => ⟨S_, .i32⟩
  | .hbm, ⟨62, _⟩ => ⟨S320000x1, .i32⟩
  | .hbm, ⟨63, _⟩ => ⟨S320000x1, .i1⟩
  | .hbm, ⟨64, _⟩ => ⟨S1x1, .i32⟩
  | .hbm, ⟨65, _⟩ => ⟨S320000x1, .i32⟩
  | .hbm, ⟨66, _⟩ => ⟨S320000x1, .i1⟩
  | .hbm, ⟨67, _⟩ => ⟨S320000x1, .i1⟩
  | .hbm, ⟨68, _⟩ => ⟨S_, .i1⟩
  | .hbm, ⟨69, _⟩ => ⟨S320000, .i1⟩
  | .hbm, ⟨70, _⟩ => ⟨S320000x256, .f32⟩
  | .hbm, ⟨71, _⟩ => ⟨S320000x256, .i1⟩
  | .hbm, ⟨72, _⟩ => ⟨S_, .f32⟩
  | .hbm, ⟨73, _⟩ => ⟨S320000x256, .f32⟩
  | .hbm, ⟨74, _⟩ => ⟨S320000x256, .f32⟩
  | .hbm, ⟨75, _⟩ => ⟨S320000x256, .f32⟩
  | .hbm, ⟨76, _⟩ => ⟨S_, .f32⟩
  | .hbm, ⟨77, _⟩ => ⟨S10000x256, .f32⟩
  | .hbm, ⟨78, _⟩ => ⟨S320000x1, .i32⟩
  | .hbm, ⟨79, _⟩ => ⟨S10000x256, .f32⟩
  | .hbm, ⟨80, _⟩ => ⟨S1x256, .f32⟩
  | .hbm, ⟨81, _⟩ => ⟨S10000x256, .f32⟩
  | .hbm, ⟨82, _⟩ => ⟨S10000x256, .f32⟩
  | .hbm, ⟨83, _⟩ => ⟨S_, .f32⟩
  | .hbm, ⟨84, _⟩ => ⟨S10000x256, .f32⟩
  | .hbm, ⟨85, _⟩ => ⟨S10000x256, .i1⟩
  | .hbm, ⟨86, _⟩ => ⟨S1x256, .f32⟩
  | .hbm, ⟨87, _⟩ => ⟨S10000x256, .f32⟩
  | .hbm, ⟨88, _⟩ => ⟨S10000x256, .f32⟩
  | .hbm, ⟨89, _⟩ => ⟨S10000x256, .f32⟩
  | .hbm, ⟨90, _⟩ => ⟨S_, .f32⟩
  | .hbm, ⟨91, _⟩ => ⟨S256, .f32⟩
  | .hbm, ⟨92, _⟩ => ⟨S16, .f32⟩
  | .hbm, ⟨93, _⟩ => ⟨S16, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1, .f32⟩
  | .hbm, ⟨99, _⟩ => ⟨S16, .f32⟩
  | .hbm, ⟨100, _⟩ => ⟨S16, .f32⟩
  | .hbm, ⟨101, _⟩ => ⟨S16, .f32⟩
  | .hbm, ⟨102, _⟩ => ⟨S_, .f32⟩
  | .hbm, ⟨103, _⟩ => ⟨S_, .f32⟩
  | .hbm, ⟨104, _⟩ => ⟨S1, .f32⟩
  | .hbm, ⟨105, _⟩ => ⟨S16, .f32⟩
  | .hbm, ⟨106, _⟩ => ⟨S16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v18 : Ref sig .tc := ⟨.hbm, 74, rfl⟩
abbrev main_v19 : Ref sig .tc := ⟨.hbm, 75, rfl⟩
abbrev main_cst_1 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_cst_2 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_3 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_cst_4 : Ref sig .tc := ⟨.hbm, 94, rfl⟩
abbrev main_v35 : Ref sig .tc := ⟨.hbm, 95, rfl⟩
abbrev main_cst_5 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_6 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S320000_S320000x256_0 : S320000.BroadcastsInDim S320000x256 (![0] : Fin 1 → Fin S320000x256.rank)
  bcast_S_S320000x256 : S_.BroadcastsInDim S320000x256 (![] : Fin 0 → Fin S320000x256.rank)
  reducesTo_S10000x256_S256_d0 : S10000x256.ReducesTo [0] S256
  reducesTo_S16_S_d0 : S16.ReducesTo [0] S_
  bcast_S_S1 : S_.BroadcastsInDim S1 (![] : Fin 0 → Fin S1.rank)
  bcast_S1_S16_0 : S1.BroadcastsInDim S16 (![0] : Fin 1 → Fin S16.rank)
  gather_S10000x128_S320000x1_S320000x128_1_0_n_n_0_1_1128_wf : GatherDims.WF S10000x128 S320000x1 S320000x128 [1] [0] [] [0] [] 1 ![1, 128]
  dot_S320000x128_S128x256_S320000x256_1_0_0_1_n_n_wf : DotDims.WF S320000x128 S128x256 S320000x256 [1] [0] [0] [1] [] []
  scatter_S10000x256_S320000x1_S320000x256_1_0_0_1_wf : ScatterDims.WF S10000x256 S320000x1 S320000x256 [1] [0] [0] 1
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []
  dot_S256_S256x16_S16_0_0_n_1_n_n_wf : DotDims.WF S256 S256x16 S16 [0] [0] [] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S256_S256x16_S16_0_0_n_1_n_n : DotDims S256 S256x16 S16 where
  lhsContracting := [0]
  rhsContracting := [0]
  lhsNonContracting := []
  rhsNonContracting := [1]
  lhsBatch := []
  rhsBatch := []
  wf := dot_S256_S256x16_S16_0_0_n_1_n_n_wf

class Facts : Prop extends Facts₀ where

variable [Facts]
-- ==== Proof.RefRun.lean ====
/-
  The reference program's @main read as ONE straight line of host operations: the four outlined functions
  (the two index look-ups with their clamping select, the two elementwise selects) are listed inline at their call
  sites over the buffers each call names, so that the whole program is a list of ninety-seven operations, each
  writing a buffer of its own. From that list: the program runs to its end from any memory, every argument array
  is left as it was (no operation writes one), and the result array ends at the fold of the operations over the
  launch contents.
-/
import proofs.«211848_g47218870452992_cont_8to1c4_747_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order; a called function's operations stand at its call site, over that call's buffers
    (its arguments the caller's buffers, typed). -/
abbrev ops : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.TRef.nullary main_call0.c (constantI S_ 32 0#32),
    StableHlo.TRef.unary main_call0.c main_call0.v0 (broadcastInDim S320000 ![] bcast_S_S320000),
    StableHlo.TRef.binary (StableHlo.TRef.of main_v1 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (StableHlo.TRef.of main_v1 : StableHlo.TRef sig ⟨S320000, .i32⟩) main_call0.v2 main_call0.v3 addi,
    StableHlo.TRef.ternary main_call0.v1 main_call0.v3 (StableHlo.TRef.of main_v1 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (StableHlo.TRef.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.binary main_v4 main_arg2 main_v5 ((fun l r => Host.dotGeneral dot_S320000x128_S128x256_S320000x256_1_0_0_1_n_n none l r) : (⟨S320000x128, .f32⟩ : BufTy).Contents (Elt F) → (⟨S128x256, .f32⟩ : BufTy).Contents (Elt F) → (⟨S320000x256, .f32⟩ : BufTy).Contents (Elt F)),
    StableHlo.nullary main_cst (constant S_ .f32 0x00000000#32),
    StableHlo.unary main_cst main_v6 (broadcastInDim S10000x256 ![] bcast_S_S10000x256 : (⟨S_, .f32⟩ : BufTy).Contents (Elt F) → (⟨S10000x256, .f32⟩ : BufTy).Contents (Elt F)),
    StableHlo.unary main_v3 main_v7 (broadcastInDim S320000x1 ![0] bcast_S320000_S320000x1_0 : (⟨S320000, .i32⟩ : BufTy).Contents (Elt F) → (⟨S320000x1, .i32⟩ : BufTy).Contents (Elt F)),
    StableHlo.ternary main_v6 main_v7 main_v5 main_v8 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_arg3 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S10000x256 ![0, 1] bcast_S1x256_S10000x256_0_1 : (⟨S1x256, .f32⟩ : BufTy).Contents (Elt F) → (⟨S10000x256, .f32⟩ : BufTy).Contents (Elt F)),
    StableHlo.binary main_v8 main_v10 main_v11 (addf : (⟨S10000x256, .f32⟩ : BufTy).Contents (Elt F) → (⟨S10000x256, .f32⟩ : BufTy).Contents (Elt F) → (⟨S10000x256, .f32⟩ : BufTy).Contents (Elt F)),
    StableHlo.nullary main_cst_0 (constant S_ .f32 0x00000000#32),
    StableHlo.unary main_cst_0 main_v12 (broadcastInDim S10000x256 ![] bcast_S_S10000x256 : (⟨S_, .f32⟩ : BufTy).Contents (Elt F) → (⟨S10000x256, .f32⟩ : BufTy).Contents (Elt F)),
    StableHlo.binary main_v11 main_v12 main_v13 (cmpf .oge : (⟨S10000x256, .f32⟩ : BufTy).Contents (Elt F) → (⟨S10000x256, .f32⟩ : BufTy).Contents (Elt F) → (⟨S10000x256, .i1⟩ : BufTy).Contents (Elt F)),
    StableHlo.unary main_arg4 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S10000x256 ![0, 1] bcast_S1x256_S10000x256_0_1 : (⟨S1x256, .f32⟩ : BufTy).Contents (Elt F) → (⟨S10000x256, .f32⟩ : BufTy).Contents (Elt F)),
    StableHlo.binary main_v15 main_v11 main_v16 (mulf : (⟨S10000x256, .f32⟩ : BufTy).Contents (Elt F) → (⟨S10000x256, .f32⟩ : BufTy).Contents (Elt F) → (⟨S10000x256, .f32⟩ : BufTy).Contents (Elt F)),
    StableHlo.TRef.ternary (StableHlo.TRef.of main_v13 : StableHlo.TRef sig ⟨S10000x256, .i1⟩) (StableHlo.TRef.of main_v11 : StableHlo.TRef sig ⟨S10000x256, .f32⟩) (StableHlo.TRef.of main_v16 : StableHlo.TRef sig ⟨S10000x256, .f32⟩) main_call1.v0 select,
    StableHlo.TRef.nullary main_call2.c (constantI S_ 32 0#32),
    StableHlo.TRef.unary main_call2.c main_call2.v0 (broadcastInDim S320000 ![] bcast_S_S320000),
    StableHlo.TRef.binary (StableHlo.TRef.of main_v1 : StableHlo.TRef sig ⟨S320000, .i32⟩) main_call2.v0 main_call2.v1 (cmpi .slt),
    StableHlo.TRef.nullary main_call2.c_0 (constantI S_ 32 10000#32),
    StableHlo.TRef.unary main_call2.c_0 main_call2.v2 (broadcastInDim S320000 ![] bcast_S_S320000),
    StableHlo.TRef.binary (StableHlo.TRef.of main_v1 : StableHlo.TRef sig ⟨S320000, .i32⟩) main_call2.v2 main_call2.v3 addi,
    StableHlo.TRef.ternary main_call2.v1 main_call2.v3 (StableHlo.TRef.of main_v1 : StableHlo.TRef sig ⟨S320000, .i32⟩) main_call2.call0.v0 select,
    StableHlo.TRef.unary main_call2.call0.v0 main_call2.v5 (broadcastInDim S320000x1 ![0] bcast_S320000_S320000x1_0),
    StableHlo.TRef.nullary main_call2.c_1 (constantI S1 32 9999#32),
    StableHlo.TRef.nullary main_call2.c_2 (constantI S_ 32 0#32),
    StableHlo.TRef.unary main_call2.c_2 main_call2.v6 (broadcastInDim S320000x1 ![] bcast_S_S320000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S320000x1 ![0, 1] bcast_S1x1_S320000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S320000x1_S320000_d1 h_S_),
    StableHlo.TRef.binary (StableHlo.TRef.of main_v17 : StableHlo.TRef sig ⟨S10000x256, .f32⟩) main_call2.v5 main_call2.v13 (fun x i => Host.gather gather_S10000x256_S320000x1_S320000x256_1_0_n_n_0_1_1256 x i),
    StableHlo.TRef.unary main_call2.v12 main_call2.v14 (broadcastInDim S320000x256 ![0] bcast_S320000_S320000x256_0),
    StableHlo.TRef.nullary main_call2.cst (constant S_ .f32 0x7FC00000#32),
    StableHlo.TRef.unary main_call2.cst main_call2.v15 (broadcastInDim S320000x256 ![] bcast_S_S320000x256),
    StableHlo.TRef.ternary main_call2.v14 main_call2.v13 main_call2.v15 main_call2.v16 select,
    StableHlo.binary main_v18 main_arg5 main_v19 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.nullary main_cst_1 (constant S_ .f32 0x00000000#32),
    StableHlo.unary main_cst_1 main_v20 (broadcastInDim S10000x256 ![] bcast_S_S10000x256 : (⟨S_, .f32⟩ : BufTy).Contents (Elt F) → (⟨S10000x256, .f32⟩ : BufTy).Contents (Elt F)),
    StableHlo.unary main_v3 main_v21 (broadcastInDim S320000x1 ![0] bcast_S320000_S320000x1_0 : (⟨S320000, .i32⟩ : BufTy).Contents (Elt F) → (⟨S320000x1, .i32⟩ : BufTy).Contents (Elt F)),
    StableHlo.ternary main_v20 main_v21 main_v19 main_v22 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_arg6 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S10000x256 ![0, 1] bcast_S1x256_S10000x256_0_1 : (⟨S1x256, .f32⟩ : BufTy).Contents (Elt F) → (⟨S10000x256, .f32⟩ : BufTy).Contents (Elt F)),
    StableHlo.binary main_v22 main_v24 main_v25 (addf : (⟨S10000x256, .f32⟩ : BufTy).Contents (Elt F) → (⟨S10000x256, .f32⟩ : BufTy).Contents (Elt F) → (⟨S10000x256, .f32⟩ : BufTy).Contents (Elt F)),
    StableHlo.nullary main_cst_2 (constant S_ .f32 0x00000000#32),
    StableHlo.unary main_cst_2 main_v26 (broadcastInDim S10000x256 ![] bcast_S_S10000x256 : (⟨S_, .f32⟩ : BufTy).Contents (Elt F) → (⟨S10000x256, .f32⟩ : BufTy).Contents (Elt F)),
    StableHlo.binary main_v25 main_v26 main_v27 (cmpf .oge : (⟨S10000x256, .f32⟩ : BufTy).Contents (Elt F) → (⟨S10000x256, .f32⟩ : BufTy).Contents (Elt F) → (⟨S10000x256, .i1⟩ : BufTy).Contents (Elt F)),
    StableHlo.unary main_arg7 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S10000x256 ![0, 1] bcast_S1x256_S10000x256_0_1 : (⟨S1x256, .f32⟩ : BufTy).Contents (Elt F) → (⟨S10000x256, .f32⟩ : BufTy).Contents (Elt F)),
    StableHlo.binary main_v29 main_v25 main_v30 (mulf : (⟨S10000x256, .f32⟩ : BufTy).Contents (Elt F) → (⟨S10000x256, .f32⟩ : BufTy).Contents (Elt F) → (⟨S10000x256, .f32⟩ : BufTy).Contents (Elt F)),
    StableHlo.TRef.ternary (StableHlo.TRef.of main_v27 : StableHlo.TRef sig ⟨S10000x256, .i1⟩) (StableHlo.TRef.of main_v25 : StableHlo.TRef sig ⟨S10000x256, .f32⟩) (StableHlo.TRef.of main_v30 : StableHlo.TRef sig ⟨S10000x256, .f32⟩) main_call3.v0 select,
    StableHlo.nullary main_cst_3 (constant S_ .f32 0x00000000#32),
    StableHlo.binary main_v31 main_cst_3 main_v32 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.binary main_v32 main_arg8 main_v33 ((fun l r => Host.dotGeneral dot_S256_S256x16_S16_0_0_n_1_n_n none l r) : (⟨S256, .f32⟩ : BufTy).Contents (Elt F) → (⟨S256x16, .f32⟩ : BufTy).Contents (Elt F) → (⟨S16, .f32⟩ : BufTy).Contents (Elt F)),
    StableHlo.binary main_v33 main_arg9 main_v34 (addf : (⟨S16, .f32⟩ : BufTy).Contents (Elt F) → (⟨S16, .f32⟩ : BufTy).Contents (Elt F) → (⟨S16, .f32⟩ : BufTy).Contents (Elt F)),
    StableHlo.nullary main_cst_4 (constant S_ .f32 0xFF800000#32),
    StableHlo.binary main_v34 main_cst_4 main_v35 ((fun x v => Host.reduce FloatOps.maximumf x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_5 (constant S_ .f32 0xFF800000#32),
    StableHlo.binary main_cst_5 main_v35 main_v36 (maximumf : (⟨S_, .f32⟩ : BufTy).Contents (Elt F) → (⟨S_, .f32⟩ : BufTy).Contents (Elt F) → (⟨S_, .f32⟩ : BufTy).Contents (Elt F)),
    StableHlo.unary main_v36 main_v37 (broadcastInDim S1 ![] bcast_S_S1 : (⟨S_, .f32⟩ : BufTy).Contents (Elt F) → (⟨S1, .f32⟩ : BufTy).Contents (Elt F)),
    StableHlo.unary main_v37 main_v38 (broadcastInDim S16 ![0] bcast_S1_S16_0 : (⟨S1, .f32⟩ : BufTy).Contents (Elt F) → (⟨S16, .f32⟩ : BufTy).Contents (Elt F)),
    StableHlo.binary main_v34 main_v38 main_v39 (subf : (⟨S16, .f32⟩ : BufTy).Contents (Elt F) → (⟨S16, .f32⟩ : BufTy).Contents (Elt F) → (⟨S16, .f32⟩ : BufTy).Contents (Elt F)),
    StableHlo.unary main_v39 main_v40 (Host.exp : (⟨S16, .f32⟩ : BufTy).Contents (Elt F) → (⟨S16, .f32⟩ : BufTy).Contents (Elt F)),
    StableHlo.nullary main_cst_6 (constant S_ .f32 0x00000000#32),
    StableHlo.binary main_v40 main_cst_6 main_v41 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.unary main_v41 main_v42 (broadcastInDim S1 ![] bcast_S_S1 : (⟨S_, .f32⟩ : BufTy).Contents (Elt F) → (⟨S1, .f32⟩ : BufTy).Contents (Elt F)),
    StableHlo.unary main_v42 main_v43 (broadcastInDim S16 ![0] bcast_S1_S16_0 : (⟨S1, .f32⟩ : BufTy).Contents (Elt F) → (⟨S16, .f32⟩ : BufTy).Contents (Elt F)),
    StableHlo.binary main_v40 main_v43 main_v44 (Host.divf : (⟨S16, .f32⟩ : BufTy).Contents (Elt F) → (⟨S16, .f32⟩ : BufTy).Contents (Elt F) → (⟨S16, .f32⟩ : BufTy).Contents (Elt F)) ]

-- the two sides are evaluated to one chain of ninety-seven steps: more than the default budget, nothing else
set_option maxHeartbeats 2000000 in
/-- @main is that straight line: sequencing is grafting, so with each function's definition opened at its call the
    two sides are one chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    binary_bufs_sub .., ternary_bufs_sub .., nullary_bufs_sub .., binary_bufs_sub .., binary_bufs_sub .., binary_bufs_sub ..,
    nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

/-- The buffers the line writes: each operation's one result buffer, in order. None is an argument array. -/
abbrev written : List (Ref sig .tc) :=
  [ main_v0, main_v1, main_v2, main_v3, main_call0.c.ref, main_call0.v0.ref, main_call0.v1.ref, main_call0.c_0.ref,
    main_call0.v2.ref, main_call0.v3.ref, main_call0.call0.v0.ref, main_call0.v5.ref, main_call0.c_1.ref, main_call0.c_2.ref, main_call0.v6.ref, main_call0.v7.ref,
    main_call0.v8.ref, main_call0.v9.ref, main_call0.v10.ref, main_call0.v11.ref, main_call0.c_3.ref, main_call0.v12.ref, main_call0.v13.ref, main_call0.v14.ref,
    main_call0.cst.ref, main_call0.v15.ref, main_call0.v16.ref, main_v5, main_cst, main_v6, main_v7, main_v8,
    main_v9, main_v10, main_v11, main_cst_0, main_v12, main_v13, main_v14, main_v15,
    main_v16, main_call1.v0.ref, main_call2.c.ref, main_call2.v0.ref, main_call2.v1.ref, main_call2.c_0.ref, main_call2.v2.ref, main_call2.v3.ref,
    main_call2.call0.v0.ref, main_call2.v5.ref, main_call2.c_1.ref, main_call2.c_2.ref, main_call2.v6.ref, main_call2.v7.ref, main_call2.v8.ref, main_call2.v9.ref,
    main_call2.v10.ref, main_call2.v11.ref, main_call2.c_3.ref, main_call2.v12.ref, main_call2.v13.ref, main_call2.v14.ref, main_call2.cst.ref, main_call2.v15.ref,
    main_call2.v16.ref, main_v19, main_cst_1, main_v20, main_v21, main_v22, main_v23, main_v24,
    main_v25, main_cst_2, main_v26, main_v27, main_v28, main_v29, main_v30, main_call3.v0.ref,
    main_cst_3, main_v32, main_v33, main_v34, main_cst_4, main_v35, main_cst_5, main_v36,
    main_v37, main_v38, main_v39, main_v40, main_cst_6, main_v41, main_v42, main_v43,
    main_v44 ]

/-- An operation whose one written buffer is in a list writes inside that list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Each operation writes its own result buffer and nothing else, and that buffer is in `written`. -/
theorem ops_writes : (ops : List (HloOp τ sig (Elt F))).Forall fun op =>
    op.writes ⊆ ((written).map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_call0.c.ref rfl (by decide), writes_sub_of_mem main_call0.v0.ref rfl (by decide),
    writes_sub_of_mem main_call0.v1.ref rfl (by decide), writes_sub_of_mem main_call0.c_0.ref rfl (by decide), writes_sub_of_mem main_call0.v2.ref rfl (by decide),
    writes_sub_of_mem main_call0.v3.ref rfl (by decide), writes_sub_of_mem main_call0.call0.v0.ref rfl (by decide), writes_sub_of_mem main_call0.v5.ref rfl (by decide),
    writes_sub_of_mem main_call0.c_1.ref rfl (by decide), writes_sub_of_mem main_call0.c_2.ref rfl (by decide), writes_sub_of_mem main_call0.v6.ref rfl (by decide),
    writes_sub_of_mem main_call0.v7.ref rfl (by decide), writes_sub_of_mem main_call0.v8.ref rfl (by decide), writes_sub_of_mem main_call0.v9.ref rfl (by decide),
    writes_sub_of_mem main_call0.v10.ref rfl (by decide), writes_sub_of_mem main_call0.v11.ref rfl (by decide), writes_sub_of_mem main_call0.c_3.ref rfl (by decide),
    writes_sub_of_mem main_call0.v12.ref rfl (by decide), writes_sub_of_mem main_call0.v13.ref rfl (by decide), writes_sub_of_mem main_call0.v14.ref rfl (by decide),
    writes_sub_of_mem main_call0.cst.ref rfl (by decide), writes_sub_of_mem main_call0.v15.ref rfl (by decide), writes_sub_of_mem main_call0.v16.ref rfl (by decide),
    writes_sub_of_mem main_v5 rfl (by decide), writes_sub_of_mem main_cst rfl (by decide), writes_sub_of_mem main_v6 rfl (by decide),
    writes_sub_of_mem main_v7 rfl (by decide), writes_sub_of_mem main_v8 rfl (by decide), writes_sub_of_mem main_v9 rfl (by decide),
    writes_sub_of_mem main_v10 rfl (by decide), writes_sub_of_mem main_v11 rfl (by decide), writes_sub_of_mem main_cst_0 rfl (by decide),
    writes_sub_of_mem main_v12 rfl (by decide), writes_sub_of_mem main_v13 rfl (by decide), writes_sub_of_mem main_v14 rfl (by decide),
    writes_sub_of_mem main_v15 rfl (by decide), writes_sub_of_mem main_v16 rfl (by decide), writes_sub_of_mem main_call1.v0.ref rfl (by decide),
    writes_sub_of_mem main_call2.c.ref rfl (by decide), writes_sub_of_mem main_call2.v0.ref rfl (by decide), writes_sub_of_mem main_call2.v1.ref rfl (by decide),
    writes_sub_of_mem main_call2.c_0.ref rfl (by decide), writes_sub_of_mem main_call2.v2.ref rfl (by decide), writes_sub_of_mem main_call2.v3.ref rfl (by decide),
    writes_sub_of_mem main_call2.call0.v0.ref rfl (by decide), writes_sub_of_mem main_call2.v5.ref rfl (by decide), writes_sub_of_mem main_call2.c_1.ref rfl (by decide),
    writes_sub_of_mem main_call2.c_2.ref rfl (by decide), writes_sub_of_mem main_call2.v6.ref rfl (by decide), writes_sub_of_mem main_call2.v7.ref rfl (by decide),
    writes_sub_of_mem main_call2.v8.ref rfl (by decide), writes_sub_of_mem main_call2.v9.ref rfl (by decide), writes_sub_of_mem main_call2.v10.ref rfl (by decide),
    writes_sub_of_mem main_call2.v11.ref rfl (by decide), writes_sub_of_mem main_call2.c_3.ref rfl (by decide), writes_sub_of_mem main_call2.v12.ref rfl (by decide),
    writes_sub_of_mem main_call2.v13.ref rfl (by decide), writes_sub_of_mem main_call2.v14.ref rfl (by decide), writes_sub_of_mem main_call2.cst.ref rfl (by decide),
    writes_sub_of_mem main_call2.v15.ref rfl (by decide), writes_sub_of_mem main_call2.v16.ref rfl (by decide), writes_sub_of_mem main_v19 rfl (by decide),
    writes_sub_of_mem main_cst_1 rfl (by decide), writes_sub_of_mem main_v20 rfl (by decide), writes_sub_of_mem main_v21 rfl (by decide),
    writes_sub_of_mem main_v22 rfl (by decide), writes_sub_of_mem main_v23 rfl (by decide), writes_sub_of_mem main_v24 rfl (by decide),
    writes_sub_of_mem main_v25 rfl (by decide), writes_sub_of_mem main_cst_2 rfl (by decide), writes_sub_of_mem main_v26 rfl (by decide),
    writes_sub_of_mem main_v27 rfl (by decide), writes_sub_of_mem main_v28 rfl (by decide), writes_sub_of_mem main_v29 rfl (by decide),
    writes_sub_of_mem main_v30 rfl (by decide), writes_sub_of_mem main_call3.v0.ref rfl (by decide), writes_sub_of_mem main_cst_3 rfl (by decide),
    writes_sub_of_mem main_v32 rfl (by decide), writes_sub_of_mem main_v33 rfl (by decide), writes_sub_of_mem main_v34 rfl (by decide),
    writes_sub_of_mem main_cst_4 rfl (by decide), writes_sub_of_mem main_v35 rfl (by decide), writes_sub_of_mem main_cst_5 rfl (by decide),
    writes_sub_of_mem main_v36 rfl (by decide), writes_sub_of_mem main_v37 rfl (by decide), writes_sub_of_mem main_v38 rfl (by decide),
    writes_sub_of_mem main_v39 rfl (by decide), writes_sub_of_mem main_v40 rfl (by decide), writes_sub_of_mem main_cst_6 rfl (by decide),
    writes_sub_of_mem main_v41 rfl (by decide), writes_sub_of_mem main_v42 rfl (by decide), writes_sub_of_mem main_v43 rfl (by decide),
    writes_sub_of_mem main_v44 rfl (by decide)⟩

/-- A buffer that is not a result buffer of the line holds after it what it held before. -/
theorem after_ops_of_not_written (V : Valuation τ sig (Elt F)) {r : Ref sig .tc} (hr : r ∉ written) :
    after ops V (Proc.devRef .tc r) = V (Proc.devRef .tc r) :=
  after_of_writes_sub ops V ops_writes hr

/-- The reference's result array as one function of the device's launch contents: the fold of the ninety-seven
    operations, read at the last operation's buffer. -/
def res (V : Valuation τ sig (Elt F)) : (⟨S16, .f32⟩ : BufTy).Contents (Elt F) :=
  after ops V (Proc.devRef .tc main_v44)

/-- On every device, for any float values, from any memory with zero counters: every weakly fair execution of
    @main terminates with the result array at `res` of the launch contents and the ten argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = res (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v44,
      (h c main_arg0).trans (after_ops_of_not_written _ (by decide)),
      (h c main_arg1).trans (after_ops_of_not_written _ (by decide)),
      (h c main_arg2).trans (after_ops_of_not_written _ (by decide)),
      (h c main_arg3).trans (after_ops_of_not_written _ (by decide)),
      (h c main_arg4).trans (after_ops_of_not_written _ (by decide)),
      (h c main_arg5).trans (after_ops_of_not_written _ (by decide)),
      (h c main_arg6).trans (after_ops_of_not_written _ (by decide)),
      (h c main_arg7).trans (after_ops_of_not_written _ (by decide)),
      (h c main_arg8).trans (after_ops_of_not_written _ (by decide)),
      (h c main_arg9).trans (after_ops_of_not_written _ (by decide))⟩)
    (run_seq scopedRefs_eq scopedSems_eq defs main (fun _ => ops) main_eq (fun _ => ops_sub) m ρ)

end Cert.ReferenceIdeal.HandRun

end
-- ==== Proof.RefFrame.lean ====
/-
  The reference's frame claim: the reference program runs to its end from any memory and leaves its ten argument
  arrays as they were. It is the run of the reference's straight line of host operations with the statement about
  the result array dropped; the precondition on the inputs is not used.
-/
import proofs.«211848_g47218870452992_cont_8to1c4_747_2_alg».proof.Defs
import proofs.«211848_g47218870452992_cont_8to1c4_747_2_alg».proof.Proof.RefRun
import proofs.«211848_g47218870452992_cont_8to1c4_747_2_alg».proof.Proof.Gen.Pre_input_domain

noncomputable section

namespace Cert.Proof.RefClaims

open Idealize.ShloMosaic Idealize.SL.Sem

/-- The reference terminates without fault from any memory and every argument array ends unchanged: no operation
    of its line writes an argument buffer. -/
theorem frame_ri : Cert.frame_ReferenceIdeal := fun m ρ _ =>
  (θ_run Cert.ReferenceIdeal.defs _ _).mono (fun _ h c => (h c).2) (Cert.ReferenceIdeal.HandRun.run (F := Ideal) m ρ)

end Cert.Proof.RefClaims

end
-- ==== Proof.KICommon.lean ====
/-
  The launch vocabulary of `KernelIdeal`: the program as the SparseCore launch theorem sees it (two vector-subcore calls,
  two TensorCore pipelines), and the resource algebra its proof lives in — the handshakes' rounds, the pipelines'
  staging cells' rounds, and the local transfers' counters, side by side.
-/
import proofs.«211848_g47218870452992_cont_8to1c4_747_2_alg».proof.Proof.Gen.KernelIdeal
import proofs.«211848_g47218870452992_cont_8to1c4_747_2_alg».proof.Proof.Gen.KernelIdeal.Skeleton
import proofs.«211848_g47218870452992_cont_8to1c4_747_2_alg».proof.Proof.Gen.KernelIdeal.Launch
import proofs.«211848_g47218870452992_cont_8to1c4_747_2_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernels' own. -/
abbrev ΛP : Labels := Pipeline.Sig Λ₀ (Fin 2) fun p => (pcfgs (F := F) p).Adm
/-- The two SparseCore calls. -/
abbrev K : SparseCore.Cfg τ sig (ΛP (F := F)) 2 := sc (F := F)
theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl
/-- The body table under the launch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, staging cells and the local transfers' counters side by side. -/
abbrev UU : Type := UH × (UP × Counters)

/-- The handshakes' component. -/
abbrev EH : Emb UH (MT nD τ sig (HIx 2) (Elt F) ℕ UU ℕ) := embL
/-- The staging cells' component. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

end Cert.Proof.KernelIdealL

end
-- ==== Proof.KIMain.lean ====
/-
  @main on the TensorCore as five stretches of host operations around its four calls — the first aggregation on the
  SparseCores, the first layer on the TensorCore, the second aggregation, the head — each stretch a list (the padding's two
  operations inline where @main calls it), so that a stretch runs by the host block rule and each call by its own.
-/
import proofs.«211848_g47218870452992_cont_8to1c4_747_2_alg».proof.Proof.KICommon

noncomputable section

namespace Cert.Proof.KernelIdealL

open Cert.KernelIdeal Cert.KernelIdeal.Gen
open Idealize.ShloMosaic Idealize.ShloMosaic.TcCoe Idealize.SL.Sem Idealize.ShloMosaic.StableHlo

variable {F : FTy → Type} [FloatOps F]

/-- Before the first aggregation: the edge list's two rows, the features transposed, padded to 10240 columns and flattened. -/
abbrev ops1 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg0 main_v4 ((transpose S128x10000 [1, 0] · transposes_S10000x128_S128x10000_1_0) : (⟨S10000x128, .f32⟩ : BufTy).Contents (Elt F) → (⟨S128x10000, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v4 : StableHlo.TRef sig ⟨S128x10000, .f32⟩) main_call0.v0 main_call0.v1 (fun x v => pad S128x10240 ![0, 0] ![0, 240] ![0, 0] x v pads_S128x10000_S128x10240_000_02400 h_S_),
    StableHlo.reshape main_v5 main_v6 rfl shapeCasts_S128x10240_S1310720 ]

/-- Between the first aggregation and the first layer: the sums as a matrix, the layer's weights transposed, its bias and slope as columns. -/
abbrev ops2 : List (HloOp τ sig (Elt F)) :=
  [ StableHlo.reshape main_v7 main_v8 rfl shapeCasts_S1310720_S128x10240,
    StableHlo.unary main_arg2 main_v9 ((transpose S256x128 [1, 0] · transposes_S128x256_S256x128_1_0) : (⟨S128x256, .f32⟩ : BufTy).Contents (Elt F) → (⟨S256x128, .f32⟩ : BufTy).Contents (Elt F)),
    StableHlo.reshape main_arg3 main_v10 rfl shapeCasts_S256_S256x1,
    StableHlo.reshape main_arg4 main_v11 rfl shapeCasts_S256_S256x1 ]

/-- Between the first layer and the second aggregation: the layer's output flattened. -/
abbrev ops3 : List (HloOp τ sig (Elt F)) :=
  [ StableHlo.reshape main_v12 main_v13 rfl shapeCasts_S256x10240_S2621440 ]

/-- Between the second aggregation and the head: the sums as a matrix, the second layer's weights transposed, its bias and slope as columns, the head's bias as a row. -/
abbrev ops4 : List (HloOp τ sig (Elt F)) :=
  [ StableHlo.reshape main_v14 main_v15 rfl shapeCasts_S2621440_S256x10240,
    StableHlo.unary main_arg5 main_v16 ((transpose S256x256 [1, 0] · transposes_S256x256_S256x256_1_0) : (⟨S256x256, .f32⟩ : BufTy).Contents (Elt F) → (⟨S256x256, .f32⟩ : BufTy).Contents (Elt F)),
    StableHlo.reshape main_arg6 main_v17 rfl shapeCasts_S256_S256x1,
    StableHlo.reshape main_arg7 main_v18 rfl shapeCasts_S256_S256x1,
    StableHlo.reshape main_arg9 main_v19 rfl shapeCasts_S16_S1x16 ]

/-- After the head: its one row as a vector. -/
abbrev ops5 : List (HloOp τ sig (Elt F)) :=
  [ StableHlo.reshape main_v20 main_v21 rfl shapeCasts_S1x16_S16 ]

set_option maxRecDepth 4096 in
/-- @main is those stretches around its calls. -/
theorem main_eq (d : Dev nD) : main (F := F) d =
    (seq ops1 >>= fun _ => sc.run d 0 >>= fun _ => seq ops2 >>= fun _ =>
      Prog.lift (.customCall (SparseCore.inner (Pipeline.entry 0)) ()) >>= fun _ => seq ops3 >>= fun _ => sc.run d 1 >>= fun _ =>
      seq ops4 >>= fun _ => Prog.lift (.customCall (SparseCore.inner (Pipeline.entry 1)) ()) >>= fun _ => seq ops5) := rfl

end Cert.Proof.KernelIdealL

end
-- ==== Proof.KIPay.lean ====
/-
  What the two SparseCore calls' handshakes carry: each tile's share of the call's operands — the stretch of the table it
  aggregates and the stretch of the result it writes, held outright at contents not stated, and a read token of the edge
  sources and of the edge destinations at their contents — out with the go signal and back, unchanged in shape, with
  taskDone. A SparseCore's payload is its sixteen tiles' together, so the split between the two is the identity.
-/
import proofs.«211848_g47218870452992_cont_8to1c4_747_2_alg».proof.Proof.KICommon

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- A buffer of the TensorCore's, as a location of device `d`. -/
abbrev tLoc (b : Ref sig .tc) (d : Dev nD) : Loc nD τ sig := (SparseCore.T d).loc b

/-! ## A tile's coordinates, thread and number -/

def coordsV0 (c : Fin (grid0.bound 0)) (s : Fin (grid0.bound 1)) : grid0.Coords :=
  fun | 0 => c | 1 => s | ⟨_ + 2, h⟩ => absurd h (Nat.not_lt.2 (Nat.le_add_left _ _))
def coordsV2 (c : Fin (grid2.bound 0)) (s : Fin (grid2.bound 1)) : grid2.Coords :=
  fun | 0 => c | 1 => s | ⟨_ + 2, h⟩ => absurd h (Nat.not_lt.2 (Nat.le_add_left _ _))

abbrev thr0 (d : Dev nD) (L : grid0.Coords) : Thread nD τ := V d ((L 0).castLE hcore0) ((L 1).castLE hsub0)
abbrev thr2 (d : Dev nD) (L : grid2.Coords) : Thread nD τ := V d ((L 0).castLE hcore2) ((L 1).castLE hsub2)

/-- The tile's number among the 32: subcore · 2 + core, as the kernel computes it. -/
def wid0 (L : grid0.Coords) : Fin 32 := ⟨(L 1).val * 2 + (L 0).val, by have h0 : (L 0).val < 2 := (L 0).isLt; have h1 : (L 1).val < 16 := (L 1).isLt; omega⟩
def wid2 (L : grid2.Coords) : Fin 32 := ⟨(L 1).val * 2 + (L 0).val, by have h0 : (L 0).val < 2 := (L 0).isLt; have h1 : (L 1).val < 16 := (L 1).isLt; omega⟩

/-! ## The operands as the tiles address them -/

abbrev tblW0 : Memref sig .scVector .hbm S1310720 .f32 := Memref.whole main_v6_scv
abbrev resW0 : Memref sig .scVector .hbm S1310720 .f32 := Memref.whole main_v7_scv
abbrev tblW1 : Memref sig .scVector .hbm S2621440 .f32 := Memref.whole main_v13_scv
abbrev resW1 : Memref sig .scVector .hbm S2621440 .f32 := Memref.whole main_v14_scv
abbrev srcM : Memref sig .scVector .hbm S320000 .i32 := Memref.whole main_v1_scv
abbrev dstM : Memref sig .scVector .hbm S320000 .i32 := Memref.whole main_v3_scv

/-- The four rows a tile aggregates in the first call, as its body slices them; and where it writes their sums. -/
abbrev tblS0 (L : grid0.Coords) : Memref sig .scVector .hbm S40960 .f32 := tblW0.slice (Rect.unit (s := S1310720) (k0_off1 L) S40960.size (k0_off1_inb L)) (fun _ => rfl)
abbrev resS0 (L : grid0.Coords) : Memref sig .scVector .hbm S40960 .f32 := resW0.slice (Rect.unit (s := S1310720) (k0_off1 L) S40960.size (k0_off1_inb L)) (fun _ => rfl)
/-- In the second call a tile aggregates two stretches of four rows (`r = 0, 1`). -/
abbrev tblS1 (L : grid2.Coords) (r : Fin 2) : Memref sig .scVector .hbm S40960 .f32 :=
  tblW1.slice (Rect.unit (s := S2621440) (k2_off1 L (BitVec.ofNat 32 (128 * r.val))) S40960.size (k2_off1_inb L r)) (fun _ => rfl)
abbrev resS1 (L : grid2.Coords) (r : Fin 2) : Memref sig .scVector .hbm S40960 .f32 :=
  resW1.slice (Rect.unit (s := S2621440) (k2_off1 L (BitVec.ofNat 32 (128 * r.val))) S40960.size (k2_off1_inb L r)) (fun _ => rfl)

/-- The indices of the stretch a tile works on: in the first call, and (two of them) in the second. -/
def set0 (L : grid0.Coords) : Finset S1310720.Idx := (tblS0 L).view.set
def set1 (L : grid2.Coords) (r : Fin 2) : Finset S2621440.Idx := (tblS1 L r).view.set
theorem set0_tbl (L : grid0.Coords) : (tblS0 L).view.set = set0 L := rfl
theorem set0_res (L : grid0.Coords) : (resS0 L).view.set = set0 L := rfl
theorem set1_tbl (L : grid2.Coords) (r : Fin 2) : (tblS1 L r).view.set = set1 L r := rfl
theorem set1_res (L : grid2.Coords) (r : Fin 2) : (resS1 L r).view.set = set1 L r := rfl

variable [FloatOps F]

/-! ## A tile's share of a call's operands -/

section Res

-- the edge sources and destinations as the calls find them (what @main's slices of `edge_index` hold)
variable (srcC : (d : Dev nD) → Buf (Elt F) (tLoc main_v1 d)) (dstC : (d : Dev nD) → Buf (Elt F) (tLoc main_v3 d))

/-- The read token of tile number `w`. -/
abbrev tok (w : Fin 32) : PosShare TreeShare := Transfers.shareTok fullShare 32 w

def tileRes0 (d : Dev nD) (L : grid0.Coords) : sProp 𝕄 :=
  iprop((∃ ft, tLoc main_v6 d ↦[set0 L]{fullShare} ft)
    ∗ (tLoc main_v1 d ↦{tok (wid0 L)} srcC d) ∗ (tLoc main_v3 d ↦{tok (wid0 L)} dstC d)
    ∗ ∃ fo, tLoc main_v7 d ↦[set0 L]{fullShare} fo)

def tileRes1 (d : Dev nD) (L : grid2.Coords) : sProp 𝕄 :=
  iprop((∃ ft, tLoc main_v13 d ↦[set1 L 0]{fullShare} ft)
    ∗ (∃ ft, tLoc main_v13 d ↦[set1 L 1]{fullShare} ft)
    ∗ (tLoc main_v1 d ↦{tok (wid2 L)} srcC d) ∗ (tLoc main_v3 d ↦{tok (wid2 L)} dstC d)
    ∗ (∃ fo, tLoc main_v14 d ↦[set1 L 0]{fullShare} fo)
    ∗ ∃ fo, tLoc main_v14 d ↦[set1 L 1]{fullShare} fo)

instance tileRes0_storable (d : Dev nD) (L : grid0.Coords) : BI.Storable (upEmb : UEmb _ 𝕄) (tileRes0 srcC dstC d L) := by
  unfold tileRes0; infer_instance
instance tileRes1_storable (d : Dev nD) (L : grid2.Coords) : BI.Storable (upEmb : UEmb _ 𝕄) (tileRes1 srcC dstC d L) := by
  unfold tileRes1; infer_instance

/-- The coordinates of task `(c, i)` of each call's grid. -/
def L0 (c : Fin ((K (F := F)).nCore 0)) (i : Fin ((K (F := F)).nSub 0)) : grid0.Coords := coordsV0 ⟨c.val, c.isLt⟩ ⟨i.val, i.isLt⟩
def L1 (c : Fin ((K (F := F)).nCore 1)) (i : Fin ((K (F := F)).nSub 1)) : grid2.Coords := coordsV2 ⟨c.val, c.isLt⟩ ⟨i.val, i.isLt⟩

/-- What the handshakes carry. -/
def P : (K (F := F)).Pay (nD := nD) (Val := Elt F) (Name := ℕ) (U := UU) where
  st := fun q d c => match q with
    | 0 => bigSep Finset.univ fun i : Fin ((K (F := F)).nSub 0) => tileRes0 srcC dstC d (L0 c i)
    | 1 => bigSep Finset.univ fun i : Fin ((K (F := F)).nSub 1) => tileRes1 srcC dstC d (L1 c i)
  dn := fun q d c => match q with
    | 0 => bigSep Finset.univ fun i : Fin ((K (F := F)).nSub 0) => tileRes0 srcC dstC d (L0 c i)
    | 1 => bigSep Finset.univ fun i : Fin ((K (F := F)).nSub 1) => tileRes1 srcC dstC d (L1 c i)
  go := fun q d c i => match q with
    | 0 => tileRes0 srcC dstC d (L0 c i)
    | 1 => tileRes1 srcC dstC d (L1 c i)
  td := fun q d c i => match q with
    | 0 => tileRes0 srcC dstC d (L0 c i)
    | 1 => tileRes1 srcC dstC d (L1 c i)
  x := fun _ _ => iprop(emp)

instance P_storable : (P (F := F) srcC dstC).IsStorable where
  st q d c := match q with
    | 0 => (inferInstance : BI.Storable (upEmb : UEmb _ 𝕄) (bigSep Finset.univ fun i : Fin ((K (F := F)).nSub 0) => tileRes0 srcC dstC d (L0 c i)))
    | 1 => (inferInstance : BI.Storable (upEmb : UEmb _ 𝕄) (bigSep Finset.univ fun i : Fin ((K (F := F)).nSub 1) => tileRes1 srcC dstC d (L1 c i)))
  dn q d c := match q with
    | 0 => (inferInstance : BI.Storable (upEmb : UEmb _ 𝕄) (bigSep Finset.univ fun i : Fin ((K (F := F)).nSub 0) => tileRes0 srcC dstC d (L0 c i)))
    | 1 => (inferInstance : BI.Storable (upEmb : UEmb _ 𝕄) (bigSep Finset.univ fun i : Fin ((K (F := F)).nSub 1) => tileRes1 srcC dstC d (L1 c i)))
  go q d c i := match q with
    | 0 => (inferInstance : BI.Storable (upEmb : UEmb _ 𝕄) (tileRes0 srcC dstC d (L0 c i)))
    | 1 => (inferInstance : BI.Storable (upEmb : UEmb _ 𝕄) (tileRes1 srcC dstC d (L1 c i)))
  td q d c i := match q with
    | 0 => (inferInstance : BI.Storable (upEmb : UEmb _ 𝕄) (tileRes0 srcC dstC d (L0 c i)))
    | 1 => (inferInstance : BI.Storable (upEmb : UEmb _ 𝕄) (tileRes1 srcC dstC d (L1 c i)))

omit [FloatOps F] in
theorem split_id (A : sProp 𝕄) : A ⊢ |={Set.univ}=> iprop(A ∗ (A -∗ A)) := by
  iintro H; imodintro
  isplitl [H]; · iexact H
  iintro H; iexact H

/-- A SparseCore's operands are its tiles' shares and its results theirs: nothing to move. -/
theorem vecSplit (q : Fin 2) : (K (F := F)).VecSplit' (P srcC dstC) q := by
  intro d c
  match q with
  | 0 => exact split_id _
  | 1 => exact split_id _

end Res

end Cert.Proof.KernelIdealL

end
-- ==== Proof.KILaunch.lean ====
/-
  The launch of the program: the launch element of the ghost state (the handshakes' rounds; every pipeline's staging
  cells funded for the region that will run it; the transfers' counters at nothing), how the final memory is read
  (the ten argument arrays held whole at their launch contents), and the launch theorem applied — from each call's task
  proved as one tile's obligation and @main proved on the TensorCore to every weakly fair execution of all 35 threads
  terminating with the arguments unchanged.
-/
import proofs.«211848_g47218870452992_cont_8to1c4_747_2_alg».proof.Proof.KIPay
import Idealize.ShloMosaic.Lib.Pipeline.Frame

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))
variable (m : (ℓ : Loc nD τ sig) → Buf (Elt F) ℓ) (ρ : Dev nD → PrngReg)

/-! ## The launch element -/

/-- Neither pipeline has a prefetched table. -/
abbrev adm : (p : Fin 2) → (pcfgs (F := F) p).Adm := fun p => (cfgs p).toPCfg_adm

/-- The handshakes' rounds, the staging cells' rounds, no transfer counted. -/
def u₀ : UU :=
  (initOf (K (F := F)).hsCells (K (F := F)).hsToks, (initOf (Pipeline.cells cfgs cellOf_inj) (Pipeline.launchToks cfgs cellOf_inj), 1))

/-- What @main's proof on device `d` starts from beside the launch's deal: each pipeline's staging cells' ghost state and
    duty tokens, for the region that runs it to allocate its invariants from. -/
def G (d : Dev nD) : sProp 𝕄 :=
  iprop((bigSep Finset.univ fun p : Fin 2 => Pipeline.cellsGhost cfgs (EP (F := F)) p d)
    ∗ bigSep Finset.univ fun p : Fin 2 => (Pipeline.toksInit cfgs (EP (F := F)) p d : sProp 𝕄))

omit [FloatOps F] in
theorem bigSep_emp' {I : Type} (s : Finset I) : (bigSep s fun _ => iprop(emp)) = (iprop(emp) : sProp 𝕄) := bigSep_emp_const s

omit [FloatOps F] in
/-- The staging cells' component is the left half of the right component. -/
theorem own_EP (x : UP) :
    (BI.own (((Emb.inl : Emb UP (UP × Counters)).trans (embR : Emb (UP × Counters) 𝕄)) x) : sProp 𝕄) ⊢ BI.own ((EP (F := F)) x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P srcC dstC).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (own_EP (F := F) _) $$ HP
  imod (Pipeline.fund_ghost cfgs (EP (F := F)) cellOf_inj) $$ HP' with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## What the claim reads at the end -/

/-- The ten argument arrays. -/
def argRefs : Finset (DevRef τ sig) :=
  {Proc.devRef .tc main_arg0, Proc.devRef .tc main_arg1, Proc.devRef .tc main_arg2, Proc.devRef .tc main_arg3, Proc.devRef .tc main_arg4,
   Proc.devRef .tc main_arg5, Proc.devRef .tc main_arg6, Proc.devRef .tc main_arg7, Proc.devRef .tc main_arg8, Proc.devRef .tc main_arg9}

/-- What @main leaves the claim: the arguments, whole, at their launch contents. -/
def FIN (d : Dev nD) : sProp 𝕄 := StableHlo.held (T d) argRefs (StableHlo.launchContents m d)

def fq (d : Dev nD) (s' : Phys nD τ sig (Elt F)) : Prop := ∀ b ∈ argRefs, s'.mem.mem ((d, b) : Loc nD τ sig) = m (d, b)

theorem hfin (d : Dev nD) (s' : Phys nD τ sig (Elt F)) : iprop(FIN m d ∗ SI s') ⊢ (⌜fq m d s'⌝ : sProp 𝕄) := by
  unfold FIN StableHlo.held
  iintro H
  ihave H' := (pointsTo_read_all argRefs (fun b => ((d, b) : Loc nD τ sig)) (fun b => m (d, b)) s') $$ H
  icases H' with ⟨%h, -⟩
  ipureintro; exact h

/-- The frame's post: on every device each argument array reads as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem hQ (s' : Phys nD τ sig (Elt F)) (h : ∀ d, fq m d s') : QC m (⟨⟩, s'.mem) := fun c =>
  ⟨h c (Proc.devRef .tc main_arg0) (by decide), h c (Proc.devRef .tc main_arg1) (by decide), h c (Proc.devRef .tc main_arg2) (by decide),
   h c (Proc.devRef .tc main_arg3) (by decide), h c (Proc.devRef .tc main_arg4) (by decide), h c (Proc.devRef .tc main_arg5) (by decide),
   h c (Proc.devRef .tc main_arg6) (by decide), h c (Proc.devRef .tc main_arg7) (by decide), h c (Proc.devRef .tc main_arg8) (by decide),
   h c (Proc.devRef .tc main_arg9) (by decide)⟩

/-! ## The launch theorem applied -/

/-- From one tile's task at each call and @main on the TensorCore: every weakly fair execution of the device's threads
    terminates, nothing faulting, and the argument arrays end as launched. -/
theorem run_of [∀ e, Nonempty (Elt F e)]
    (htile0 : (K (F := F)).TileObl (D (F := F)) 𝒱 (P srcC dstC) v₀ 0) (htile1 : (K (F := F)).TileObl (D (F := F)) 𝒱 (P srcC dstC) v₀ 1)
    (hmain : ∀ (κ : GSem nD τ sig → ℕ) (d : Dev nD),
      iprop((K (F := F)).ctx EH (P srcC dstC) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P srcC dstC) facts v₀
    (fun q hq => match q with | 0 => nomatch hq | 1 => nomatch hq)
    (fun q _ => match q with | 0 => htile0 | 1 => htile1)
    (fun q _ => SparseCore.Cfg.VecSplit.of_plain (vecSplit srcC dstC q))
    m ρ main (G (F := F)) (FIN m) (u₀ (F := F)) (sep_elim_left.trans (hu₀ srcC dstC)) hmain (fq m) (hfin m) (QC m) (hQ m)

end Cert.Proof.KernelIdealL

end
-- ==== Proof.KIInv.lean ====
/-
  What @main's proof carries from one step to the next on the TensorCore: every unscoped buffer held whole, at contents
  not stated except where the run needs them — the ten arguments and the two rows of the edge list, which no later step
  writes, at what they hold after the first stretch. A host stretch that writes none of those keeps the invariant.
-/
import proofs.«211848_g47218870452992_cont_8to1c4_747_2_alg».proof.Proof.KIMain
import proofs.«211848_g47218870452992_cont_8to1c4_747_2_alg».proof.Proof.KILaunch

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The stretches' side facts -/

theorem ops1_sub : (ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub .., StableHlo.reshape_bufs_sub ..⟩
theorem ops1_fresh : (ops1 : List (HloOp τ sig (Elt F))).Forall fun op => op.fresh = ∅ := by
  simp only [List.Forall]; repeat' constructor
/-- The references stretch 1 writes. -/
abbrev ops1_W : List (Ref sig .tc) := [main_v0, main_v1, main_v2, main_v3, main_v4, main_c, main_call0_v0, main_v5, main_v6]
theorem ops1_writes : (ops1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops2_sub : (ops2 : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub ..⟩
theorem ops2_fresh : (ops2 : List (HloOp τ sig (Elt F))).Forall fun op => op.fresh = ∅ := by
  simp only [List.Forall]; repeat' constructor
/-- The references stretch 2 writes. -/
abbrev ops2_W : List (Ref sig .tc) := [main_v8, main_v9, main_v10, main_v11]
theorem ops2_writes : (ops2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops3_sub : (ops3 : List (HloOp τ sig (Elt F))).Forall fun op => op.bufs ⊆ StableHlo.tcRefs τ sig :=
  StableHlo.reshape_bufs_sub ..
theorem ops3_fresh : (ops3 : List (HloOp τ sig (Elt F))).Forall fun op => op.fresh = ∅ := by
  simp only [List.Forall]; repeat' constructor
/-- The references stretch 3 writes. -/
abbrev ops3_W : List (Ref sig .tc) := [main_v13]
theorem ops3_writes : (ops3 : List (HloOp τ sig (Elt F))).Forall fun op => op.writes ⊆ (ops3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops4_sub : (ops4 : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub .., StableHlo.reshape_bufs_sub ..⟩
theorem ops4_fresh : (ops4 : List (HloOp τ sig (Elt F))).Forall fun op => op.fresh = ∅ := by
  simp only [List.Forall]; repeat' constructor
/-- The references stretch 4 writes. -/
abbrev ops4_W : List (Ref sig .tc) := [main_v15, main_v16, main_v17, main_v18, main_v19]
theorem ops4_writes : (ops4 : List (HloOp τ sig (Elt F))).Forall fun op => op.writes ⊆ (ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops5_sub : (ops5 : List (HloOp τ sig (Elt F))).Forall fun op => op.bufs ⊆ StableHlo.tcRefs τ sig :=
  StableHlo.reshape_bufs_sub ..
theorem ops5_fresh : (ops5 : List (HloOp τ sig (Elt F))).Forall fun op => op.fresh = ∅ := by
  simp only [List.Forall]; repeat' constructor
/-- The references stretch 5 writes. -/
abbrev ops5_W : List (Ref sig .tc) := [main_v21]
theorem ops5_writes : (ops5 : List (HloOp τ sig (Elt F))).Forall fun op => op.writes ⊆ (ops5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The invariant -/

variable (m : (ℓ : Loc nD τ sig) → Buf (Elt F) ℓ)

/-- The references whose contents the run needs to the end: the arguments, and the edge sources and destinations. -/
abbrev keepR : List (Ref sig .tc) :=
  [main_arg0, main_arg1, main_arg2, main_arg3, main_arg4, main_arg5, main_arg6, main_arg7, main_arg8, main_arg9, main_v1, main_v3]

/-- The device's buffers after the first stretch. -/
def W1 (d : Dev nD) : Valuation τ sig (Elt F) := StableHlo.after ops1 (StableHlo.launchContents m d)

/-- The edge sources and destinations, as both aggregations find them. -/
def srcC (d : Dev nD) : Buf (Elt F) (tLoc main_v1 d) := W1 m d (Proc.devRef .tc main_v1)
def dstC (d : Dev nD) : Buf (Elt F) (tLoc main_v3 d) := W1 m d (Proc.devRef .tc main_v3)

/-- Every unscoped buffer of the TensorCore held whole, the kept ones at their contents after the first stretch. -/
def Inv (d : Dev nD) : sProp 𝕄 :=
  iprop(∃ W : Valuation τ sig (Elt F), ⌜∀ r ∈ keepR, W (Proc.devRef .tc r) = W1 m d (Proc.devRef .tc r)⌝ ∗ StableHlo.held (T d) (Pipeline.ucRefs τ sig) W)

/-- The arguments are as launched after the first stretch: it writes none of them. -/
theorem W1_arg (d : Dev nD) (r : Ref sig .tc) (h : r ∉ ops1_W) : W1 m d (Proc.devRef .tc r) = m (d, Proc.devRef .tc r) :=
  StableHlo.after_of_writes_sub ops1 _ ops1_writes h

variable {Λ : Labels} {defs : Defs nD τ sig (Elt F) Λ} (𝒱' : Variants) (bd : Option 𝒱'.V)

/-- A stretch of host operations that writes no kept reference runs from the invariant to the invariant. -/
theorem inv_stretch (d : Dev nD) (ops : List (HloOp τ sig (Elt F))) (Wl : List (Ref sig .tc))
    (hsub : ops.Forall fun op => op.bufs ⊆ StableHlo.tcRefs τ sig) (hfresh : ops.Forall fun op => op.fresh = ∅)
    (hwr : ops.Forall fun op => op.writes ⊆ (Wl.map (Proc.devRef (τ := τ) .tc)).toFinset) (hk : ∀ r ∈ keepR, r ∉ Wl)
    {β : Type} (k : PUnit → Prog (TpuEff nD τ sig (Elt F) Λ .tc) β) {Kp : β → sProp 𝕄} :
    iprop(boundary (d.tc : Thread nD τ) ∗ Inv m d)
      ⊢ iprop(((boundary (d.tc : Thread nD τ) ∗ Inv m d) -∗ wp frame (wpE defs 𝒱' d.tc bd) Set.univ (k ⟨⟩) Kp)
        -∗ wp frame (wpE defs 𝒱' d.tc bd) Set.univ (StableHlo.seq ops >>= k) Kp) := by
  unfold Inv
  iintro ⟨Hb, %W, %hW, Hh⟩ Hk
  iapply (StableHlo.wp_seq (defs := defs) 𝒱' bd Set.univ d (Pipeline.ucRefs τ sig) k ops
    (fun op h => Pipeline.sub_ucRefs op ((List.forall_iff_forall_mem.mp hsub) op h))
    (fun op h => (List.forall_iff_forall_mem.mp hfresh) op h) W) $$ [Hb Hh]
  · isplitl [Hb]; · iexact Hb
    iexact Hh
  iintro ⟨Hb, Hh⟩
  iapply Hk
  isplitl [Hb]; · iexact Hb
  iexists (StableHlo.after ops W); isplitr
  · ipureintro; intro r hr
    rw [StableHlo.after_of_writes_sub ops W hwr (hk r hr)]; exact hW r hr
  · iexact Hh

end Cert.Proof.KernelIdealL

end
-- ==== Proof.KIHmain.lean ====
/-
  @main on the TensorCore, step by step: each host stretch by the host block rule, each aggregation by the call rule —
  the tiles' shares dealt out of the invariant's buffers and collected back into it —, each TensorCore layer by its
  region's step; the invariant carried throughout, and at the end the arguments read out of it as launched.
  The dealing and collecting around each aggregation and the two regions' steps are taken as stated here.
-/
import proofs.«211848_g47218870452992_cont_8to1c4_747_2_alg».proof.Proof.KIInv

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-- What rides beside the buffers: the TensorCore's own protocol's semaphores at zero, the generator register at some state. -/
def Aux (d : Dev nD) : sProp 𝕄 := iprop((K (F := F)).tcSems0 d ∗ ∃ r, prngReg d r)

/-- Pipeline `p`'s staging cells' ghost state and duty tokens on device `d`. -/
def ghost (p : Fin 2) (d : Dev nD) : sProp 𝕄 :=
  iprop(Pipeline.cellsGhost cfgs (EP (F := F)) p d ∗ (Pipeline.toksInit cfgs (EP (F := F)) p d : sProp 𝕄))

omit [FloatOps F] in
theorem G_split (d : Dev nD) : (G (F := F) d : sProp 𝕄) ⊢ iprop(ghost (F := F) 0 d ∗ ghost (F := F) 1 d) := by
  unfold G ghost
  rw [show (Finset.univ : Finset (Fin 2)) = {0, 1} by decide, SparseCore.bigSep_insert' (by decide), bigSep_singleton,
    SparseCore.bigSep_insert' (by decide), bigSep_singleton]
  iintro ⟨⟨Hg0, Hg1⟩, Ht0, Ht1⟩
  isplitl [Hg0 Ht0]
  · isplitl [Hg0] <;> iassumption
  · isplitl [Hg1] <;> iassumption

/-- The arguments are read out of the invariant as launched. -/
theorem inv_fin (d : Dev nD) : (Inv m d : sProp 𝕄) ⊢ FIN m d := by
  unfold Inv FIN
  iintro ⟨%W, %hW, Hh⟩
  have hsub : argRefs ⊆ Pipeline.ucRefs τ sig := by decide
  have hc : ∀ b ∈ argRefs, W b = StableHlo.launchContents m d b := by
    intro b hb
    simp only [argRefs, Finset.mem_insert, Finset.mem_singleton] at hb
    rcases hb with rfl | rfl | rfl | rfl | rfl | rfl | rfl | rfl | rfl | rfl <;>
      exact (hW _ (by decide)).trans (W1_arg m d _ (by decide))
  ihave H2 := (Entails.of_eq (StableHlo.held_sub_split (T d) hsub W)) $$ Hh
  icases H2 with ⟨Ha, -⟩
  ihave Ha' := (Entails.of_eq (StableHlo.held_congr (T d) hc)) $$ Ha
  iexact Ha'

omit [FloatOps F] in
/-- The launch's unscoped buffers are the unscoped references held at the launch contents. -/
theorem launch_held (d : Dev nD) :
    (unscopedBufs d (fun b => m ((SparseCore.T d).loc b)) : sProp 𝕄) = StableHlo.held (SparseCore.T d) (Pipeline.ucRefs τ sig) (StableHlo.launchContents m d) :=
  Pipeline.unscopedBufs_held d (StableHlo.launchContents m d)

theorem hmain (Rest0 Rest1 : Dev nD → sProp 𝕄)
  (hdeal0 : ∀ d, (Inv m d : sProp 𝕄) ⊢ iprop((bigSep Finset.univ fun c : Fin ((K (F := F)).nCore 0) => (P (srcC m) (dstC m)).st 0 d c) ∗ Rest0 d))
  (hcoll0 : ∀ d, iprop((bigSep Finset.univ fun c : Fin ((K (F := F)).nCore 0) => (P (srcC m) (dstC m)).dn 0 d c) ∗ Rest0 d) ⊢ (Inv m d : sProp 𝕄))
  (hdeal1 : ∀ d, (Inv m d : sProp 𝕄) ⊢ iprop((bigSep Finset.univ fun c : Fin ((K (F := F)).nCore 1) => (P (srcC m) (dstC m)).st 1 d c) ∗ Rest1 d))
  (hcoll1 : ∀ d, iprop((bigSep Finset.univ fun c : Fin ((K (F := F)).nCore 1) => (P (srcC m) (dstC m)).dn 1 d c) ∗ Rest1 d) ⊢ (Inv m d : sProp 𝕄))
  (hreg0 : ∀ (κ : GSem nD τ sig → ℕ) (d : Dev nD) (Φ : PUnit → sProp 𝕄),
    iprop((K (F := F)).ctx EH (P (srcC m) (dstC m)) κ ∗ (K (F := F)).tcSt EH d 1 ∗ boundary (T d) ∗ Inv m d ∗ Aux (F := F) d ∗ ghost (F := F) 0 d
        ∗ (((K (F := F)).tcSt EH d 1 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 0)) ())) Φ)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ)
    (κ : GSem nD τ sig → ℕ) (d : Dev nD) :
    iprop((K (F := F)).ctx EH (P (srcC m) (dstC m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rewrite [main_eq]
  iintro ⟨#Hctx, Hst, ⟨Hb, Hh, Hsems, Hprng⟩, HG⟩
  ihave Hh := (Entails.of_eq (launch_held (F := F) m d)) $$ Hh
  ihave HG' := (G_split (F := F) d) $$ HG
  icases HG' with ⟨Hg0, Hg1⟩
  -- stretch 1, from the launch contents: it establishes the invariant
  iapply (StableHlo.wp_seq (defs := (K (F := F)).defs (D (F := F))) 𝒱 none Set.univ d (Pipeline.ucRefs τ sig) _ ops1
    (fun op h => Pipeline.sub_ucRefs op ((List.forall_iff_forall_mem.mp ops1_sub) op h))
    (fun op h => (List.forall_iff_forall_mem.mp ops1_fresh) op h) (StableHlo.launchContents m d)) $$ [Hb Hh]
  · isplitl [Hb]; · iexact Hb
    iexact Hh
  iintro ⟨Hb, Hh⟩
  ihave HI := (show (StableHlo.held (T d) (Pipeline.ucRefs τ sig) (StableHlo.after ops1 (StableHlo.launchContents m d)) : sProp 𝕄) ⊢ Inv m d from by
    unfold Inv; iintro H; iexists (W1 m d); isplitr
    · ipureintro; exact fun _ _ => rfl
    · iexact H) $$ Hh
  -- the first aggregation
  rw [wp_bind]
  ihave Hd := (hdeal0 d) $$ HI
  icases Hd with ⟨Hops, Hrest⟩
  iapply ((K (F := F)).wp_run (D (F := F)) 𝒱 (EH := EH) (P := P (srcC m) (dstC m)) κ d 0) $$ [Hst Hops Hb Hrest Hsems Hprng Hg0 Hg1]
  isplitr; · iexact Hctx
  isplitl [Hst]; · iexact Hst
  isplitl [Hops]; · iexact Hops
  iintro ⟨Hst, Hdn⟩
  ihave HI := (hcoll0 d) $$ [Hdn Hrest]
  · isplitl [Hdn] <;> iassumption
  -- stretch 2
  iapply (inv_stretch (defs := (K (F := F)).defs (D (F := F))) m 𝒱 none d ops2 ops2_W ops2_sub ops2_fresh ops2_writes (by decide)) $$ [Hb HI]
  · isplitl [Hb] <;> iassumption
  iintro ⟨Hb, HI⟩
  -- the first layer
  rw [wp_bind]
  iapply (hreg0 κ d) $$ [Hst Hb HI Hsems Hprng Hg0 Hg1]
  isplitr; · iexact Hctx
  isplitl [Hst]; · iexact Hst
  isplitl [Hb]; · iexact Hb
  isplitl [HI]; · iexact HI
  isplitl [Hsems Hprng]
  · unfold Aux; isplitl [Hsems]; · iexact Hsems
    iexists _; iexact Hprng
  isplitl [Hg0]; · iexact Hg0
  iintro ⟨Hst, Hb, HI, Haux⟩
  -- stretch 3
  iapply (inv_stretch (defs := (K (F := F)).defs (D (F := F))) m 𝒱 none d ops3 ops3_W ops3_sub ops3_fresh ops3_writes (by decide)) $$ [Hb HI]
  · isplitl [Hb] <;> iassumption
  iintro ⟨Hb, HI⟩
  -- the second aggregation
  rw [wp_bind]
  ihave Hd := (hdeal1 d) $$ HI
  icases Hd with ⟨Hops, Hrest⟩
  iapply ((K (F := F)).wp_run (D (F := F)) 𝒱 (EH := EH) (P := P (srcC m) (dstC m)) κ d 1) $$ [Hst Hops Hb Hrest Haux Hg1]
  isplitr; · iexact Hctx
  isplitl [Hst]; · iexact Hst
  isplitl [Hops]; · iexact Hops
  iintro ⟨Hst, Hdn⟩
  ihave HI := (hcoll1 d) $$ [Hdn Hrest]
  · isplitl [Hdn] <;> iassumption
  -- stretch 4
  iapply (inv_stretch (defs := (K (F := F)).defs (D (F := F))) m 𝒱 none d ops4 ops4_W ops4_sub ops4_fresh ops4_writes (by decide)) $$ [Hb HI]
  · isplitl [Hb] <;> iassumption
  iintro ⟨Hb, HI⟩
  -- the head
  rw [wp_bind]
  iapply (hreg1 κ d) $$ [Hst Hb HI Haux Hg1]
  isplitr; · iexact Hctx
  isplitl [Hst]; · iexact Hst
  isplitl [Hb]; · iexact Hb
  isplitl [HI]; · iexact HI
  isplitl [Haux]; · iexact Haux
  isplitl [Hg1]; · iexact Hg1
  iintro ⟨Hst, Hb, HI, Haux⟩
  -- stretch 5, and the return
  rw [show (StableHlo.seq ops5 : Prog (TpuEff nD τ sig (Elt F) _ .tc) PUnit) = StableHlo.seq ops5 >>= pure from (bind_pure _).symm]
  iapply (inv_stretch (defs := (K (F := F)).defs (D (F := F))) m 𝒱 none d ops5 ops5_W ops5_sub ops5_fresh ops5_writes (by decide)) $$ [Hb HI]
  · isplitl [Hb] <;> iassumption
  iintro ⟨Hb, HI⟩
  rw [wp_pure]; imodintro
  isplitl [Hst]; · iexact Hst
  iapply (inv_fin m d); iexact HI

end Cert.Proof.KernelIdealL

end
-- ==== Proof.KITile0.lean ====
/-
  One tile's task of the first aggregation call, run once at a symbolic tile.

  The tile copies its four rows of the table (a contiguous stretch of 4 · 10240 words) into its table scratch, fills its
  accumulator with zeros sixteen words at a time, and then, chunk by chunk of 2000 edges, copies the chunk's sources and
  destinations into two index scratches and, group by group of sixteen edges and row by row, adds the table scratch's
  word at (source + 10240 · row) onto the accumulator's word at (destination + 10240 · row); at the end it copies the
  accumulator out to its stretch of the result.

  Every copy is started and awaited at once on a semaphore of its own, so the transfers need no schedule: each is a step
  of the symbolic run, its wait admissible because the tile owes nothing at the kernels' index. The three counted loops
  go by invariants: the zero-fill holds the accumulator at some contents; the chunk loop holds the two edge lists at
  their read shares, the four scratches at some contents and the chunk semaphores at zero; the group loop holds the two
  index scratches at words that all name nodes (below 10000) and the float scratches at some contents. The one fact about
  data the run needs is that each index the body computes, a node number plus a row's start (at most 3 · 10240), is
  below 4 · 10240: what a chunk's copy lands in an index scratch are words of the edge lists, which name nodes. An
  indexed load is a load of the whole table scratch, an indexed add-store a load and a store of the whole accumulator.
-/
import proofs.«211848_g47218870452992_cont_8to1c4_747_2_alg».proof.Proof.KICommon

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV0 (L : grid0.Coords) : Fin τ.nSC := (L 0).castLE hcore0
abbrev jV0 (L : grid0.Coords) : Fin τ.nSub := (L 1).castLE hsub0
abbrev tabW0 : Memref sig .scVector .hbm S1310720 .f32 := Memref.whole main_v6_scv
abbrev srcW : Memref sig .scVector .hbm S320000 .i32 := Memref.whole main_v1_scv
abbrev dstW : Memref sig .scVector .hbm S320000 .i32 := Memref.whole main_v3_scv
abbrev outW0 : Memref sig .scVector .hbm S1310720 .f32 := Memref.whole main_v7_scv
abbrev tabSl0 (L : grid0.Coords) : Memref sig .scVector .hbm S40960 .f32 := tabW0.slice (Rect.unit (s := S1310720) (k0_off1 L) S40960.size (k0_off1_inb L)) (fun _ => rfl)
abbrev outSl0 (L : grid0.Coords) : Memref sig .scVector .hbm S40960 .f32 := outW0.slice (Rect.unit (s := S1310720) (k0_off1 L) S40960.size (k0_off1_inb L)) (fun _ => rfl)

/-! ## The tile's scratch and semaphores among its own -/

abbrev t0cell0 (d : Dev nD) (L : grid0.Coords) : GSem nD τ sig := (V d (cV0 L) (jV0 L), .dma cc0_scoped0.sem)
abbrev t0cell1 (d : Dev nD) (L : grid0.Coords) : GSem nD τ sig := (V d (cV0 L) (jV0 L), .dma cc0_scoped1.sem)
abbrev t0cell2 (d : Dev nD) (L : grid0.Coords) : GSem nD τ sig := (V d (cV0 L) (jV0 L), .dma cc0_scoped2.sem)
abbrev t0cell3 (d : Dev nD) (L : grid0.Coords) : GSem nD τ sig := (V d (cV0 L) (jV0 L), .dma cc0_scoped3.sem)

omit [FloatOps F] in
theorem ownSems0_T0 (d : Dev nD) (L : grid0.Coords) :
    (ownSems0 (V d (cV0 L) (jV0 L)) : sProp 𝕄)
      = iprop(semVal (t0cell0 d L) 0 ∗ semVal (t0cell1 d L) 0 ∗ semVal (t0cell2 d L) 0 ∗ semVal (t0cell3 d L) 0
          ∗ bigSep (((((ownCells (V d (cV0 L) (jV0 L))).erase (t0cell0 d L)).erase (t0cell1 d L)).erase (t0cell2 d L)).erase (t0cell3 d L))
              fun g => semVal g 0) := by
  unfold SparseCore.Cfg.ownSems0
  rw [SparseCore.bigSep_erase' ((mem_ownCells (g := t0cell0 d L)).mpr ⟨rfl, by
      show (SemLoc.dma cc0_scoped0.sem : SemLoc sig).isScoped .scVector = true; decide⟩),
    SparseCore.bigSep_erase' (Finset.mem_erase.mpr ⟨by simp [t0cell0, t0cell1]; decide, (mem_ownCells (g := t0cell1 d L)).mpr ⟨rfl, by
      show (SemLoc.dma cc0_scoped1.sem : SemLoc sig).isScoped .scVector = true; decide⟩⟩),
    SparseCore.bigSep_erase' (Finset.mem_erase.mpr ⟨by simp [t0cell1, t0cell2]; decide, Finset.mem_erase.mpr ⟨by simp [t0cell0, t0cell2]; decide,
      (mem_ownCells (g := t0cell2 d L)).mpr ⟨rfl, by show (SemLoc.dma cc0_scoped2.sem : SemLoc sig).isScoped .scVector = true; decide⟩⟩⟩),
    SparseCore.bigSep_erase' (Finset.mem_erase.mpr ⟨by simp [t0cell2, t0cell3]; decide, Finset.mem_erase.mpr ⟨by simp [t0cell1, t0cell3]; decide, Finset.mem_erase.mpr ⟨by simp [t0cell0, t0cell3]; decide,
      (mem_ownCells (g := t0cell3 d L)).mpr ⟨rfl, by show (SemLoc.dma cc0_scoped3.sem : SemLoc sig).isScoped .scVector = true; decide⟩⟩⟩⟩)]

omit [FloatOps F] in
theorem ownBufs_T0 (d : Dev nD) (L : grid0.Coords) :
    (ownBufs (V d (cV0 L) (jV0 L)) : sProp 𝕄)
      = iprop((∃ f, (V d (cV0 L) (jV0 L)).loc cc0_scratch0 ↦{fullShare} f) ∗ (∃ f, (V d (cV0 L) (jV0 L)).loc cc0_scratch1 ↦{fullShare} f)
          ∗ (∃ f, (V d (cV0 L) (jV0 L)).loc cc0_scratch2 ↦{fullShare} f) ∗ (∃ f, (V d (cV0 L) (jV0 L)).loc cc0_scratch3 ↦{fullShare} f)
          ∗ bigSep (((((ownRefs (τ := τ) (.scVector (cV0 L) (jV0 L))).erase ((Proc.scVector (cV0 L) (jV0 L)).devRef cc0_scratch0)).erase
              ((Proc.scVector (cV0 L) (jV0 L)).devRef cc0_scratch1)).erase ((Proc.scVector (cV0 L) (jV0 L)).devRef cc0_scratch2)).erase ((Proc.scVector (cV0 L) (jV0 L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV0 L) (jV0 L))
    (b := (Proc.scVector (cV0 L) (jV0 L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV0 L) (jV0 L)) (b := (Proc.scVector (cV0 L) (jV0 L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV0 L) (jV0 L)) (b := (Proc.scVector (cV0 L) (jV0 L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV0 L) (jV0 L)) (b := (Proc.scVector (cV0 L) (jV0 L)).devRef cc0_scratch3) rfl⟩⟩⟩)]

abbrev t0sc0 : Memref sig .scVector .vmem S40960 .f32 := Memref.whole cc0_scratch0
abbrev t0sc1 : Memref sig .scVector .vmem S40960 .f32 := Memref.whole cc0_scratch1
abbrev t0sc2 : Memref sig .scVector .vmem S2000 .i32 := Memref.whole cc0_scratch2
abbrev t0sc3 : Memref sig .scVector .vmem S2000 .i32 := Memref.whole cc0_scratch3

/-! ## The scratch as the body's memrefs address it -/

omit [FloatOps F] in
theorem pts_t0sc0 (d : Dev nD) (L : grid0.Coords) (f : Buf (Elt F) ((V d (cV0 L) (jV0 L)).loc cc0_scratch0)) :
    (((Memref.whole cc0_scratch0 : Memref sig .scVector .vmem S40960 .f32)).view.loc (V d (cV0 L) (jV0 L)) ↦{fullShare} f : sProp 𝕄) = (V d (cV0 L) (jV0 L)).loc cc0_scratch0 ↦{fullShare} f := rfl
omit [FloatOps F] in
theorem pts_t0sc1 (d : Dev nD) (L : grid0.Coords) (f : Buf (Elt F) ((V d (cV0 L) (jV0 L)).loc cc0_scratch1)) :
    (((Memref.whole cc0_scratch1 : Memref sig .scVector .vmem S40960 .f32)).view.loc (V d (cV0 L) (jV0 L)) ↦{fullShare} f : sProp 𝕄) = (V d (cV0 L) (jV0 L)).loc cc0_scratch1 ↦{fullShare} f := rfl
omit [FloatOps F] in
theorem pts_t0sc2 (d : Dev nD) (L : grid0.Coords) (f : Buf (Elt F) ((V d (cV0 L) (jV0 L)).loc cc0_scratch2)) :
    (((Memref.whole cc0_scratch2 : Memref sig .scVector .vmem S2000 .i32)).view.loc (V d (cV0 L) (jV0 L)) ↦{fullShare} f : sProp 𝕄) = (V d (cV0 L) (jV0 L)).loc cc0_scratch2 ↦{fullShare} f := rfl
omit [FloatOps F] in
theorem pts_t0sc3 (d : Dev nD) (L : grid0.Coords) (f : Buf (Elt F) ((V d (cV0 L) (jV0 L)).loc cc0_scratch3)) :
    (((Memref.whole cc0_scratch3 : Memref sig .scVector .vmem S2000 .i32)).view.loc (V d (cV0 L) (jV0 L)) ↦{fullShare} f : sProp 𝕄) = (V d (cV0 L) (jV0 L)).loc cc0_scratch3 ↦{fullShare} f := rfl

/-! ## The loops' invariants -/

/-- The zero-fill: the accumulator at some contents. -/
def t0inv1 (d : Dev nD) (L : grid0.Coords) (_ : Nat) (_ : BitVec 32) : sProp 𝕄 :=
  iprop(∃ f, t0sc1.view.loc (V d (cV0 L) (jV0 L)) ↦{fullShare} f)

/-- A chunk's groups: the two index scratches at words that name nodes, the table scratch and the accumulator at some contents. -/
def t0inv3 (d : Dev nD) (L : grid0.Coords) (_ : Nat) (_ : BitVec 32) : sProp 𝕄 :=
  iprop((∃ g, ⌜∀ j, (g j).toNat < 10000⌝ ∗ t0sc2.view.loc (V d (cV0 L) (jV0 L)) ↦{fullShare} g)
    ∗ (∃ g, ⌜∀ j, (g j).toNat < 10000⌝ ∗ t0sc3.view.loc (V d (cV0 L) (jV0 L)) ↦{fullShare} g)
    ∗ (∃ f, t0sc0.view.loc (V d (cV0 L) (jV0 L)) ↦{fullShare} f) ∗ (∃ f, t0sc1.view.loc (V d (cV0 L) (jV0 L)) ↦{fullShare} f))

/-- The chunks: the edge lists at their read shares, the four scratches at some contents, the two chunk semaphores at zero, and what the tile owes. -/
def t0inv2 (d : Dev nD) (L : grid0.Coords) (q : PosShare TreeShare) (fs : Buf (Elt F) (srcW.view.loc (V d (cV0 L) (jV0 L)))) (fd : Buf (Elt F) (dstW.view.loc (V d (cV0 L) (jV0 L))))
    (O : CellTallies nD τ sig (HIx 2)) (W : Waits sig (HIx 2)) (_ : Nat) (_ : BitVec 32) : sProp 𝕄 :=
  iprop(Transfers.MayWaits (V d (cV0 L) (jV0 L)) (none : HIx 2) O
    ∗ (srcW.view.loc (V d (cV0 L) (jV0 L)) ↦{q} fs) ∗ (dstW.view.loc (V d (cV0 L) (jV0 L)) ↦{q} fd)
    ∗ (∃ f, t0sc0.view.loc (V d (cV0 L) (jV0 L)) ↦{fullShare} f) ∗ (∃ f, t0sc1.view.loc (V d (cV0 L) (jV0 L)) ↦{fullShare} f)
    ∗ (∃ f, t0sc2.view.loc (V d (cV0 L) (jV0 L)) ↦{fullShare} f) ∗ (∃ f, t0sc3.view.loc (V d (cV0 L) (jV0 L)) ↦{fullShare} f)
    ∗ semVal (V d (cV0 L) (jV0 L), SemLoc.dma cc0_scoped1.sem) 0 ∗ semVal (V d (cV0 L) (jV0 L), SemLoc.dma cc0_scoped2.sem) 0
    ∗ ∃ W', ⌜∀ p ∈ W', p ∈ W ∨ p.2 = none⌝ ∗ owes (V d (cV0 L) (jV0 L)) O W')

/-! ## The checks: an index word below 10000, offset by a row's start, is inside the four rows -/

theorem idx_lt (v : IVec S16 32) (c : BitVec 32) (hc : c.toNat ≤ 30720) (hv : ∀ x, (v x).toNat < 10000) :
    ∀ a x, ((![addi v (broadcast S16 c)] : Fin 1 → IVec S16 32) a x).toNat < S40960.size a := by
  intro a x
  obtain rfl : a = 0 := Subsingleton.elim _ _
  show (v x + c).toNat < 40960
  have := hv x
  rw [BitVec.toNat_add]
  omega

/-- A group's sixteen words, loaded from an index scratch whose words all name nodes, name nodes. -/
theorem t0rd2_lt (d : Dev nD) (L : grid0.Coords) (g : Buf (Elt F) (t0sc2.view.loc (V d (cV0 L) (jV0 L)))) (hg : ∀ j, (g j).toNat < 10000) (k : Fin k0_t3_loop.trips) :
    ∀ x, (t0sc2.view.readAt (Elt F) (Rect.unit (s := S2000) (k0_off4 k) S16.size (k0_off4_inb k)).toLoadRect g x).toNat < 10000 := fun _ => hg _
theorem t0rd3_lt (d : Dev nD) (L : grid0.Coords) (g : Buf (Elt F) (t0sc3.view.loc (V d (cV0 L) (jV0 L)))) (hg : ∀ j, (g j).toNat < 10000) (k : Fin k0_t3_loop.trips) :
    ∀ x, (t0sc3.view.readAt (Elt F) (Rect.unit (s := S2000) (k0_off4 k) S16.size (k0_off4_inb k)).toLoadRect g x).toNat < 10000 := fun _ => hg _

theorem t0chk1_of (v : Vec F S16 .i32) (hv : ∀ x, (v x).toNat < 10000) : k0_chk1 (k0_pay2 (F := F) v) := idx_lt v 0#32 (by decide) hv
theorem t0chk2_of (v : Vec F S16 .i32) (hv : ∀ x, (v x).toNat < 10000) : k0_chk2 (k0_pay3 (F := F) v) := idx_lt v 0#32 (by decide) hv
theorem t0chk3_of (v : Vec F S16 .i32) (hv : ∀ x, (v x).toNat < 10000) : k0_chk3 (k0_pay4 (F := F) v) := idx_lt v 10240#32 (by decide) hv
theorem t0chk4_of (v : Vec F S16 .i32) (hv : ∀ x, (v x).toNat < 10000) : k0_chk4 (k0_pay5 (F := F) v) := idx_lt v 10240#32 (by decide) hv
theorem t0chk5_of (v : Vec F S16 .i32) (hv : ∀ x, (v x).toNat < 10000) : k0_chk5 (k0_pay6 (F := F) v) := idx_lt v 20480#32 (by decide) hv
theorem t0chk6_of (v : Vec F S16 .i32) (hv : ∀ x, (v x).toNat < 10000) : k0_chk6 (k0_pay7 (F := F) v) := idx_lt v 20480#32 (by decide) hv
theorem t0chk7_of (v : Vec F S16 .i32) (hv : ∀ x, (v x).toNat < 10000) : k0_chk7 (k0_pay8 (F := F) v) := idx_lt v 30720#32 (by decide) hv
theorem t0chk8_of (v : Vec F S16 .i32) (hv : ∀ x, (v x).toNat < 10000) : k0_chk8 (k0_pay9 (F := F) v) := idx_lt v 30720#32 (by decide) hv

/-- An index scratch overwritten whole by words that name nodes holds words that name nodes. -/
theorem t0land2 (d : Dev nD) (L : grid0.Coords) (i : Buf (Elt F) (t0sc2.view.loc (V d (cV0 L) (jV0 L)))) (w : Vec F S2000 .i32) (hw : ∀ x, (w x).toNat < 10000) :
    (t0sc2.view.loc (V d (cV0 L) (jV0 L)) ↦{fullShare} View.write (Elt F) (Memref.whole cc0_scratch2).view i w Finset.univ : sProp 𝕄)
      ⊢ ∃ g, ⌜∀ j, (g j).toNat < 10000⌝ ∗ t0sc2.view.loc (V d (cV0 L) (jV0 L)) ↦{fullShare} g := by
  have e : View.write (Elt F) (Memref.whole cc0_scratch2).view i w Finset.univ = w := View.write_whole_univ _ _ _
  iintro H
  iexists (View.write (Elt F) (Memref.whole cc0_scratch2).view i w Finset.univ); isplitr
  · ipureintro; intro j
    rw [e]; exact hw j
  · iexact H
theorem t0land3 (d : Dev nD) (L : grid0.Coords) (i : Buf (Elt F) (t0sc3.view.loc (V d (cV0 L) (jV0 L)))) (w : Vec F S2000 .i32) (hw : ∀ x, (w x).toNat < 10000) :
    (t0sc3.view.loc (V d (cV0 L) (jV0 L)) ↦{fullShare} View.write (Elt F) (Memref.whole cc0_scratch3).view i w Finset.univ : sProp 𝕄)
      ⊢ ∃ g, ⌜∀ j, (g j).toNat < 10000⌝ ∗ t0sc3.view.loc (V d (cV0 L) (jV0 L)) ↦{fullShare} g := by
  have e : View.write (Elt F) (Memref.whole cc0_scratch3).view i w Finset.univ = w := View.write_whole_univ _ _ _
  iintro H
  iexists (View.write (Elt F) (Memref.whole cc0_scratch3).view i w Finset.univ); isplitr
  · ipureintro; intro j
    rw [e]; exact hw j
  · iexact H

theorem tile_body0 (d : Dev nD) (L : grid0.Coords) (hF : (K (F := F)).Facts) (q : PosShare TreeShare)
    (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L)))) (fo : Buf (Elt F) ((outSl0 L).view.loc (V d (cV0 L) (jV0 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
            ∗ ((outSl0 L).view.loc (V d (cV0 L) (jV0 L)) ↦[(outSl0 L).view.set]{fullShare} fo))
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop((((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
              ∗ ∃ f, (outSl0 L).view.loc (V d (cV0 L) (jV0 L)) ↦[(outSl0 L).view.set]{fullShare} f)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [cc0_body_eq_skeleton]; unfold cc0_body_skel
  rw [(K (F := F)).scopedBufs_V hF d (cV0 L) (jV0 L), SparseCore.Cfg.scopedSems0_V (Val := Elt F) d (cV0 L) (jV0 L), ownSems0_T0, ownBufs_T0]
  iintro ⟨#Hlv, -, ⟨Ht, Hs, Hd, Ho⟩, ⟨⟨%f0, H0⟩, ⟨%f1, H1⟩, ⟨%f2, H2⟩, ⟨%f3, H3⟩, Hbufs⟩, ⟨Hsem0, Hsem1, Hsem2, Hsem3, Hsems⟩, HO⟩
  ihave Hmw := ((K (F := F)).mayWaits_none (thr := V d (cV0 L) (jV0 L)) hO) $$ Hlv
  ihave H0' := (Entails.of_eq (pts_t0sc0 (F := F) d L _).symm) $$ H0
  ihave H1' := (Entails.of_eq (pts_t0sc1 (F := F) d L _).symm) $$ H1
  ihave H2' := (Entails.of_eq (pts_t0sc2 (F := F) d L _).symm) $$ H2
  ihave H3' := (Entails.of_eq (pts_t0sc3 (F := F) d L _).symm) $$ H3
  -- the table's four rows into the table scratch
  sl_exec
  -- the zero-fill
  sl_for (t0inv1 (F := F) d L) $$ [H1']
  case region =>
    intro k _
    unfold t0inv1
    iintro ⟨%f, H⟩
    sl_exec
    sl_step
    iexists _; iexact H
  · unfold t0inv1; iexists _; iexact H1'
  iintro %_ HI
  unfold t0inv1
  icases HI with ⟨%f1', H1'⟩
  -- the chunks
  sl_for (t0inv2 (F := F) d L q fs fd O W) $$ [Hmw Hs Hd H0' H1' H2' H3' Hsem1 Hsem2 HO]
  case region =>
    intro k _
    unfold t0inv2
    iintro ⟨#Hmw, Hs, Hd, ⟨%t0, H0⟩, ⟨%a1, H1⟩, ⟨%i2, H2⟩, ⟨%i3, H3⟩, Hsem1, Hsem2, %W', %hW', HO⟩
    -- the chunk's sources and destinations into the two index scratches
    sl_exec
    ihave H2 := (t0land2 (F := F) d L _ _ ?hw2) $$ H2
    case hw2 => exact fun _ => hs _
    ihave H3 := (t0land3 (F := F) d L _ _ ?hw3) $$ H3
    case hw3 => exact fun _ => hd _
    -- the chunk's groups
    sl_for (t0inv3 (F := F) d L) $$ [H2 H3 H0 H1]
    case region =>
      intro kk _
      unfold t0inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t0inv3
      isplitl [H2]; · iexact H2
      isplitl [H3]; · iexact H3
      isplitl [H0]; · iexists _; iexact H0
      iexists _; iexact H1
    iintro %_ HI
    unfold t0inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem1]; · iexact Hsem1
    isplitl [Hsem2]; · iexact Hsem2
    iexists (insert (SemLoc.dma cc0_scoped2.sem, (default : HIx 2)) (insert (SemLoc.dma cc0_scoped1.sem, (default : HIx 2)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold t0inv2
    isplitr; · iexact Hmw
    isplitl [Hs]; · iexact Hs
    isplitl [Hd]; · iexact Hd
    isplitl [H0']; · iexists _; iexact H0'
    isplitl [H1']; · iexists _; iexact H1'
    isplitl [H2']; · iexists _; iexact H2'
    isplitl [H3']; · iexists _; iexact H3'
    isplitl [Hsem1]; · iexact Hsem1
    isplitl [Hsem2]; · iexact Hsem2
    iexists (insert (SemLoc.dma cc0_scoped0.sem, (default : HIx 2)) W); isplitr
    · ipureintro; intro p hp
      rcases Finset.mem_insert.mp hp with hp | hp
      · exact .inr (hp ▸ rfl)
      · exact .inl hp
    · iexact HO
  iintro %_ HI
  unfold t0inv2
  icases HI with ⟨-, Hs, Hd, ⟨%t0, H0⟩, ⟨%a1, H1⟩, ⟨%i2, H2⟩, ⟨%i3, H3⟩, Hsem1, Hsem2, %W', %hW', HO⟩
  -- the accumulator out to the tile's stretch of the result
  sl_exec
  sl_step
  isplitl [Ht Hs Hd Ho]
  · isplitl [Ht]; · iexact Ht
    isplitl [Hs]; · iexact Hs
    isplitl [Hd]; · iexact Hd
    iexists _; iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 2)) W'); isplitr
  · ipureintro; intro p hp
    rcases Finset.mem_insert.mp hp with hp | hp
    · exact .inr (hp ▸ rfl)
    · exact hW' p hp
  · iexact HO

end Cert.Proof.KernelIdealL

end
-- ==== Proof.KITile1.lean ====
/-
  One tile's task of the second aggregation call, run once at a symbolic tile.

  The task is the first call's, done twice: the table has 256 rows and a tile aggregates two stretches of four rows, one
  after the other, through the same four scratches. For each stretch it copies the stretch's 4 · 10240 words into its table
  scratch, fills its accumulator with zeros, and, chunk by chunk of 2000 edges, copies the chunk's sources and
  destinations into two index scratches and, group by group of sixteen edges and row by row, adds the table scratch's
  word at (source + 10240 · row) onto the accumulator's word at (destination + 10240 · row); then it copies the
  accumulator out to the stretch of the result. The second stretch's copy-in and zero-fill close the first half of the
  printed body; the second stretch's chunks and copy-out follow it.

  Every copy is started and awaited at once on a semaphore of its own (eight in all), so the transfers need no schedule.
  The six counted loops go by three invariants: a zero-fill holds the accumulator at some contents; a chunk loop, on
  its pass's two semaphores, holds the two edge lists at their read shares, the four scratches at some contents and
  the two semaphores at zero; a group loop holds the two index scratches at words that all name nodes (below 10000)
  and the float scratches at some contents. Each index the body computes, a node number plus a row's start (at most
  3 · 10240), is below 4 · 10240, because what a chunk's copy lands in an index scratch are words of the edge lists.
  An indexed load is a load of the whole table scratch, an indexed add-store a load and a store of the whole accumulator.
-/
import proofs.«211848_g47218870452992_cont_8to1c4_747_2_alg».proof.Proof.KITile0

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV1 (L : grid2.Coords) : Fin τ.nSC := (L 0).castLE hcore2
abbrev jV1 (L : grid2.Coords) : Fin τ.nSub := (L 1).castLE hsub2
abbrev tabW1 : Memref sig .scVector .hbm S2621440 .f32 := Memref.whole main_v13_scv
abbrev outW1 : Memref sig .scVector .hbm S2621440 .f32 := Memref.whole main_v14_scv
abbrev tabSl1a (L : grid2.Coords) : Memref sig .scVector .hbm S40960 .f32 := tabW1.slice (Rect.unit (s := S2621440) (k2_off1 L 0#32) S40960.size (k2_off1_inb L 0)) (fun _ => rfl)
abbrev tabSl1b (L : grid2.Coords) : Memref sig .scVector .hbm S40960 .f32 := tabW1.slice (Rect.unit (s := S2621440) (k2_off1 L 128#32) S40960.size (k2_off1_inb L 1)) (fun _ => rfl)
abbrev outSl1a (L : grid2.Coords) : Memref sig .scVector .hbm S40960 .f32 := outW1.slice (Rect.unit (s := S2621440) (k2_off1 L 0#32) S40960.size (k2_off1_inb L 0)) (fun _ => rfl)
abbrev outSl1b (L : grid2.Coords) : Memref sig .scVector .hbm S40960 .f32 := outW1.slice (Rect.unit (s := S2621440) (k2_off1 L 128#32) S40960.size (k2_off1_inb L 1)) (fun _ => rfl)

/-! ## The tile's scratch and semaphores among its own -/

abbrev t1cell0 (d : Dev nD) (L : grid2.Coords) : GSem nD τ sig := (V d (cV1 L) (jV1 L), .dma cc2_scoped0.sem)
abbrev t1cell1 (d : Dev nD) (L : grid2.Coords) : GSem nD τ sig := (V d (cV1 L) (jV1 L), .dma cc2_scoped1.sem)
abbrev t1cell2 (d : Dev nD) (L : grid2.Coords) : GSem nD τ sig := (V d (cV1 L) (jV1 L), .dma cc2_scoped2.sem)
abbrev t1cell3 (d : Dev nD) (L : grid2.Coords) : GSem nD τ sig := (V d (cV1 L) (jV1 L), .dma cc2_scoped3.sem)
abbrev t1cell4 (d : Dev nD) (L : grid2.Coords) : GSem nD τ sig := (V d (cV1 L) (jV1 L), .dma cc2_scoped4.sem)
abbrev t1cell5 (d : Dev nD) (L : grid2.Coords) : GSem nD τ sig := (V d (cV1 L) (jV1 L), .dma cc2_scoped5.sem)
abbrev t1cell6 (d : Dev nD) (L : grid2.Coords) : GSem nD τ sig := (V d (cV1 L) (jV1 L), .dma cc2_scoped6.sem)
abbrev t1cell7 (d : Dev nD) (L : grid2.Coords) : GSem nD τ sig := (V d (cV1 L) (jV1 L), .dma cc2_scoped7.sem)

omit [FloatOps F] in
theorem ownSems0_T1 (d : Dev nD) (L : grid2.Coords) :
    (ownSems0 (V d (cV1 L) (jV1 L)) : sProp 𝕄)
      = iprop(semVal (t1cell0 d L) 0 ∗ semVal (t1cell1 d L) 0 ∗ semVal (t1cell2 d L) 0 ∗ semVal (t1cell3 d L) 0 ∗ semVal (t1cell4 d L) 0 ∗ semVal (t1cell5 d L) 0 ∗ semVal (t1cell6 d L) 0 ∗ semVal (t1cell7 d L) 0
          ∗ bigSep (((((((((ownCells (V d (cV1 L) (jV1 L))).erase (t1cell0 d L)).erase (t1cell1 d L)).erase (t1cell2 d L)).erase (t1cell3 d L)).erase (t1cell4 d L)).erase (t1cell5 d L)).erase (t1cell6 d L)).erase (t1cell7 d L))
              fun g => semVal g 0) := by
  unfold SparseCore.Cfg.ownSems0
  rw [SparseCore.bigSep_erase' ((mem_ownCells (g := t1cell0 d L)).mpr ⟨rfl, by show (SemLoc.dma cc2_scoped0.sem : SemLoc sig).isScoped .scVector = true; decide⟩),
    SparseCore.bigSep_erase' (Finset.mem_erase.mpr ⟨by simp [t1cell0, t1cell1]; decide, (mem_ownCells (g := t1cell1 d L)).mpr ⟨rfl, by show (SemLoc.dma cc2_scoped1.sem : SemLoc sig).isScoped .scVector = true; decide⟩⟩),
    SparseCore.bigSep_erase' (Finset.mem_erase.mpr ⟨by simp [t1cell1, t1cell2]; decide, Finset.mem_erase.mpr ⟨by simp [t1cell0, t1cell2]; decide, (mem_ownCells (g := t1cell2 d L)).mpr ⟨rfl, by show (SemLoc.dma cc2_scoped2.sem : SemLoc sig).isScoped .scVector = true; decide⟩⟩⟩),
    SparseCore.bigSep_erase' (Finset.mem_erase.mpr ⟨by simp [t1cell2, t1cell3]; decide, Finset.mem_erase.mpr ⟨by simp [t1cell1, t1cell3]; decide, Finset.mem_erase.mpr ⟨by simp [t1cell0, t1cell3]; decide, (mem_ownCells (g := t1cell3 d L)).mpr ⟨rfl, by show (SemLoc.dma cc2_scoped3.sem : SemLoc sig).isScoped .scVector = true; decide⟩⟩⟩⟩),
    SparseCore.bigSep_erase' (Finset.mem_erase.mpr ⟨by simp [t1cell3, t1cell4]; decide, Finset.mem_erase.mpr ⟨by simp [t1cell2, t1cell4]; decide, Finset.mem_erase.mpr ⟨by simp [t1cell1, t1cell4]; decide, Finset.mem_erase.mpr ⟨by simp [t1cell0, t1cell4]; decide, (mem_ownCells (g := t1cell4 d L)).mpr ⟨rfl, by show (SemLoc.dma cc2_scoped4.sem : SemLoc sig).isScoped .scVector = true; decide⟩⟩⟩⟩⟩),
    SparseCore.bigSep_erase' (Finset.mem_erase.mpr ⟨by simp [t1cell4, t1cell5]; decide, Finset.mem_erase.mpr ⟨by simp [t1cell3, t1cell5]; decide, Finset.mem_erase.mpr ⟨by simp [t1cell2, t1cell5]; decide, Finset.mem_erase.mpr ⟨by simp [t1cell1, t1cell5]; decide, Finset.mem_erase.mpr ⟨by simp [t1cell0, t1cell5]; decide, (mem_ownCells (g := t1cell5 d L)).mpr ⟨rfl, by show (SemLoc.dma cc2_scoped5.sem : SemLoc sig).isScoped .scVector = true; decide⟩⟩⟩⟩⟩⟩),
    SparseCore.bigSep_erase' (Finset.mem_erase.mpr ⟨by simp [t1cell5, t1cell6]; decide, Finset.mem_erase.mpr ⟨by simp [t1cell4, t1cell6]; decide, Finset.mem_erase.mpr ⟨by simp [t1cell3, t1cell6]; decide, Finset.mem_erase.mpr ⟨by simp [t1cell2, t1cell6]; decide, Finset.mem_erase.mpr ⟨by simp [t1cell1, t1cell6]; decide, Finset.mem_erase.mpr ⟨by simp [t1cell0, t1cell6]; decide, (mem_ownCells (g := t1cell6 d L)).mpr ⟨rfl, by show (SemLoc.dma cc2_scoped6.sem : SemLoc sig).isScoped .scVector = true; decide⟩⟩⟩⟩⟩⟩⟩),
    SparseCore.bigSep_erase' (Finset.mem_erase.mpr ⟨by simp [t1cell6, t1cell7]; decide, Finset.mem_erase.mpr ⟨by simp [t1cell5, t1cell7]; decide, Finset.mem_erase.mpr ⟨by simp [t1cell4, t1cell7]; decide, Finset.mem_erase.mpr ⟨by simp [t1cell3, t1cell7]; decide, Finset.mem_erase.mpr ⟨by simp [t1cell2, t1cell7]; decide, Finset.mem_erase.mpr ⟨by simp [t1cell1, t1cell7]; decide, Finset.mem_erase.mpr ⟨by simp [t1cell0, t1cell7]; decide, (mem_ownCells (g := t1cell7 d L)).mpr ⟨rfl, by show (SemLoc.dma cc2_scoped7.sem : SemLoc sig).isScoped .scVector = true; decide⟩⟩⟩⟩⟩⟩⟩⟩)]

omit [FloatOps F] in
theorem ownBufs_T1 (d : Dev nD) (L : grid2.Coords) :
    (ownBufs (V d (cV1 L) (jV1 L)) : sProp 𝕄)
      = iprop((∃ f, (V d (cV1 L) (jV1 L)).loc cc2_scratch0 ↦{fullShare} f) ∗ (∃ f, (V d (cV1 L) (jV1 L)).loc cc2_scratch1 ↦{fullShare} f) ∗ (∃ f, (V d (cV1 L) (jV1 L)).loc cc2_scratch2 ↦{fullShare} f) ∗ (∃ f, (V d (cV1 L) (jV1 L)).loc cc2_scratch3 ↦{fullShare} f)
          ∗ bigSep (((((ownRefs (τ := τ) (.scVector (cV1 L) (jV1 L))).erase ((Proc.scVector (cV1 L) (jV1 L)).devRef cc2_scratch0)).erase ((Proc.scVector (cV1 L) (jV1 L)).devRef cc2_scratch1)).erase ((Proc.scVector (cV1 L) (jV1 L)).devRef cc2_scratch2)).erase ((Proc.scVector (cV1 L) (jV1 L)).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV1 L) (jV1 L)) (b := (Proc.scVector (cV1 L) (jV1 L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV1 L) (jV1 L)) (b := (Proc.scVector (cV1 L) (jV1 L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV1 L) (jV1 L)) (b := (Proc.scVector (cV1 L) (jV1 L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV1 L) (jV1 L)) (b := (Proc.scVector (cV1 L) (jV1 L)).devRef cc2_scratch3) rfl⟩⟩⟩)]

abbrev t1sc0 : Memref sig .scVector .vmem S40960 .f32 := Memref.whole cc2_scratch0
abbrev t1sc1 : Memref sig .scVector .vmem S40960 .f32 := Memref.whole cc2_scratch1
abbrev t1sc2 : Memref sig .scVector .vmem S2000 .i32 := Memref.whole cc2_scratch2
abbrev t1sc3 : Memref sig .scVector .vmem S2000 .i32 := Memref.whole cc2_scratch3

/-! ## The scratch as the body's memrefs address it -/

omit [FloatOps F] in
theorem pts_t1sc0 (d : Dev nD) (L : grid2.Coords) (f : Buf (Elt F) ((V d (cV1 L) (jV1 L)).loc cc2_scratch0)) :
    (t1sc0.view.loc (V d (cV1 L) (jV1 L)) ↦{fullShare} f : sProp 𝕄) = (V d (cV1 L) (jV1 L)).loc cc2_scratch0 ↦{fullShare} f := rfl
omit [FloatOps F] in
theorem pts_t1sc1 (d : Dev nD) (L : grid2.Coords) (f : Buf (Elt F) ((V d (cV1 L) (jV1 L)).loc cc2_scratch1)) :
    (t1sc1.view.loc (V d (cV1 L) (jV1 L)) ↦{fullShare} f : sProp 𝕄) = (V d (cV1 L) (jV1 L)).loc cc2_scratch1 ↦{fullShare} f := rfl
omit [FloatOps F] in
theorem pts_t1sc2 (d : Dev nD) (L : grid2.Coords) (f : Buf (Elt F) ((V d (cV1 L) (jV1 L)).loc cc2_scratch2)) :
    (t1sc2.view.loc (V d (cV1 L) (jV1 L)) ↦{fullShare} f : sProp 𝕄) = (V d (cV1 L) (jV1 L)).loc cc2_scratch2 ↦{fullShare} f := rfl
omit [FloatOps F] in
theorem pts_t1sc3 (d : Dev nD) (L : grid2.Coords) (f : Buf (Elt F) ((V d (cV1 L) (jV1 L)).loc cc2_scratch3)) :
    (t1sc3.view.loc (V d (cV1 L) (jV1 L)) ↦{fullShare} f : sProp 𝕄) = (V d (cV1 L) (jV1 L)).loc cc2_scratch3 ↦{fullShare} f := rfl

/-! ## The loops' invariants -/

/-- A zero-fill: the accumulator at some contents. -/
def t1inv1 (d : Dev nD) (L : grid2.Coords) (_ : Nat) (_ : BitVec 32) : sProp 𝕄 :=
  iprop(∃ f, t1sc1.view.loc (V d (cV1 L) (jV1 L)) ↦{fullShare} f)

/-- A chunk's groups: the two index scratches at words that name nodes, the table scratch and the accumulator at some contents. -/
def t1inv3 (d : Dev nD) (L : grid2.Coords) (_ : Nat) (_ : BitVec 32) : sProp 𝕄 :=
  iprop((∃ g, ⌜∀ j, (g j).toNat < 10000⌝ ∗ t1sc2.view.loc (V d (cV1 L) (jV1 L)) ↦{fullShare} g)
    ∗ (∃ g, ⌜∀ j, (g j).toNat < 10000⌝ ∗ t1sc3.view.loc (V d (cV1 L) (jV1 L)) ↦{fullShare} g)
    ∗ (∃ f, t1sc0.view.loc (V d (cV1 L) (jV1 L)) ↦{fullShare} f) ∗ (∃ f, t1sc1.view.loc (V d (cV1 L) (jV1 L)) ↦{fullShare} f))

/-- A pass's chunks, on the pass's two chunk semaphores: the edge lists at their read shares, the four scratches at some contents, the two
    semaphores at zero, and what the tile owes. -/
def t1inv2 (d : Dev nD) (L : grid2.Coords) (q : PosShare TreeShare) (fs : Buf (Elt F) (srcW.view.loc (V d (cV1 L) (jV1 L)))) (fd : Buf (Elt F) (dstW.view.loc (V d (cV1 L) (jV1 L))))
    (O : CellTallies nD τ sig (HIx 2)) (W : Waits sig (HIx 2)) (sa sb : DmaSem sig) (_ : Nat) (_ : BitVec 32) : sProp 𝕄 :=
  iprop(Transfers.MayWaits (V d (cV1 L) (jV1 L)) (none : HIx 2) O
    ∗ (srcW.view.loc (V d (cV1 L) (jV1 L)) ↦{q} fs) ∗ (dstW.view.loc (V d (cV1 L) (jV1 L)) ↦{q} fd)
    ∗ (∃ f, t1sc0.view.loc (V d (cV1 L) (jV1 L)) ↦{fullShare} f) ∗ (∃ f, t1sc1.view.loc (V d (cV1 L) (jV1 L)) ↦{fullShare} f)
    ∗ (∃ f, t1sc2.view.loc (V d (cV1 L) (jV1 L)) ↦{fullShare} f) ∗ (∃ f, t1sc3.view.loc (V d (cV1 L) (jV1 L)) ↦{fullShare} f)
    ∗ semVal (V d (cV1 L) (jV1 L), SemLoc.dma sa) 0 ∗ semVal (V d (cV1 L) (jV1 L), SemLoc.dma sb) 0
    ∗ ∃ W', ⌜∀ p ∈ W', p ∈ W ∨ p.2 = none⌝ ∗ owes (V d (cV1 L) (jV1 L)) O W')

/-- One more wait at the kernels' index keeps the record of waits within the bound. -/
theorem waits_step {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with hp | hp
  · exact .inr (hp ▸ rfl)
  · exact h p hp

/-! ## The checks -/

/-- A group's sixteen words, loaded from an index scratch whose words all name nodes, name nodes (in either pass). -/
theorem t1rd2a_lt (d : Dev nD) (L : grid2.Coords) (g : Buf (Elt F) (t1sc2.view.loc (V d (cV1 L) (jV1 L)))) (hg : ∀ j, (g j).toNat < 10000) (k : Fin k2_t3_loop.trips) :
    ∀ x, (t1sc2.view.readAt (Elt F) (Rect.unit (s := S2000) (k2_off4 k) S16.size (k2_off4_inb k)).toLoadRect g x).toNat < 10000 := fun _ => hg _
theorem t1rd3a_lt (d : Dev nD) (L : grid2.Coords) (g : Buf (Elt F) (t1sc3.view.loc (V d (cV1 L) (jV1 L)))) (hg : ∀ j, (g j).toNat < 10000) (k : Fin k2_t3_loop.trips) :
    ∀ x, (t1sc3.view.readAt (Elt F) (Rect.unit (s := S2000) (k2_off4 k) S16.size (k2_off4_inb k)).toLoadRect g x).toNat < 10000 := fun _ => hg _
theorem t1rd2b_lt (d : Dev nD) (L : grid2.Coords) (g : Buf (Elt F) (t1sc2.view.loc (V d (cV1 L) (jV1 L)))) (hg : ∀ j, (g j).toNat < 10000) (k : Fin k2_t6_loop.trips) :
    ∀ x, (t1sc2.view.readAt (Elt F) (Rect.unit (s := S2000) (k2_off7 k) S16.size (k2_off7_inb k)).toLoadRect g x).toNat < 10000 := fun _ => hg _
theorem t1rd3b_lt (d : Dev nD) (L : grid2.Coords) (g : Buf (Elt F) (t1sc3.view.loc (V d (cV1 L) (jV1 L)))) (hg : ∀ j, (g j).toNat < 10000) (k : Fin k2_t6_loop.trips) :
    ∀ x, (t1sc3.view.readAt (Elt F) (Rect.unit (s := S2000) (k2_off7 k) S16.size (k2_off7_inb k)).toLoadRect g x).toNat < 10000 := fun _ => hg _

theorem t1chk1_of (v : Vec F S16 .i32) (hv : ∀ x, (v x).toNat < 10000) : k2_chk1 (k2_pay10 (F := F) v) := idx_lt v 0#32 (by decide) hv
theorem t1chk2_of (v : Vec F S16 .i32) (hv : ∀ x, (v x).toNat < 10000) : k2_chk2 (k2_pay11 (F := F) v) := idx_lt v 0#32 (by decide) hv
theorem t1chk3_of (v : Vec F S16 .i32) (hv : ∀ x, (v x).toNat < 10000) : k2_chk3 (k2_pay12 (F := F) v) := idx_lt v 10240#32 (by decide) hv
theorem t1chk4_of (v : Vec F S16 .i32) (hv : ∀ x, (v x).toNat < 10000) : k2_chk4 (k2_pay13 (F := F) v) := idx_lt v 10240#32 (by decide) hv
theorem t1chk5_of (v : Vec F S16 .i32) (hv : ∀ x, (v x).toNat < 10000) : k2_chk5 (k2_pay14 (F := F) v) := idx_lt v 20480#32 (by decide) hv
theorem t1chk6_of (v : Vec F S16 .i32) (hv : ∀ x, (v x).toNat < 10000) : k2_chk6 (k2_pay15 (F := F) v) := idx_lt v 20480#32 (by decide) hv
theorem t1chk7_of (v : Vec F S16 .i32) (hv : ∀ x, (v x).toNat < 10000) : k2_chk7 (k2_pay16 (F := F) v) := idx_lt v 30720#32 (by decide) hv
theorem t1chk8_of (v : Vec F S16 .i32) (hv : ∀ x, (v x).toNat < 10000) : k2_chk8 (k2_pay17 (F := F) v) := idx_lt v 30720#32 (by decide) hv
theorem t1chk9_of (v : Vec F S16 .i32) (hv : ∀ x, (v x).toNat < 10000) : k2_chk9 (k2_pay1 (F := F) v) := idx_lt v 0#32 (by decide) hv
theorem t1chk10_of (v : Vec F S16 .i32) (hv : ∀ x, (v x).toNat < 10000) : k2_chk10 (k2_pay2 (F := F) v) := idx_lt v 0#32 (by decide) hv
theorem t1chk11_of (v : Vec F S16 .i32) (hv : ∀ x, (v x).toNat < 10000) : k2_chk11 (k2_pay3 (F := F) v) := idx_lt v 10240#32 (by decide) hv
theorem t1chk12_of (v : Vec F S16 .i32) (hv : ∀ x, (v x).toNat < 10000) : k2_chk12 (k2_pay4 (F := F) v) := idx_lt v 10240#32 (by decide) hv
theorem t1chk13_of (v : Vec F S16 .i32) (hv : ∀ x, (v x).toNat < 10000) : k2_chk13 (k2_pay5 (F := F) v) := idx_lt v 20480#32 (by decide) hv
theorem t1chk14_of (v : Vec F S16 .i32) (hv : ∀ x, (v x).toNat < 10000) : k2_chk14 (k2_pay6 (F := F) v) := idx_lt v 20480#32 (by decide) hv
theorem t1chk15_of (v : Vec F S16 .i32) (hv : ∀ x, (v x).toNat < 10000) : k2_chk15 (k2_pay7 (F := F) v) := idx_lt v 30720#32 (by decide) hv
theorem t1chk16_of (v : Vec F S16 .i32) (hv : ∀ x, (v x).toNat < 10000) : k2_chk16 (k2_pay8 (F := F) v) := idx_lt v 30720#32 (by decide) hv

/-- An index scratch overwritten whole by words that name nodes holds words that name nodes. -/
theorem t1land2 (d : Dev nD) (L : grid2.Coords) (i : Buf (Elt F) (t1sc2.view.loc (V d (cV1 L) (jV1 L)))) (w : Vec F S2000 .i32) (hw : ∀ x, (w x).toNat < 10000) :
    (t1sc2.view.loc (V d (cV1 L) (jV1 L)) ↦{fullShare} View.write (Elt F) (Memref.whole cc2_scratch2).view i w Finset.univ : sProp 𝕄)
      ⊢ ∃ g, ⌜∀ j, (g j).toNat < 10000⌝ ∗ t1sc2.view.loc (V d (cV1 L) (jV1 L)) ↦{fullShare} g := by
  have e : View.write (Elt F) (Memref.whole cc2_scratch2).view i w Finset.univ = w := View.write_whole_univ _ _ _
  iintro H
  iexists (View.write (Elt F) (Memref.whole cc2_scratch2).view i w Finset.univ); isplitr
  · ipureintro; intro j
    rw [e]; exact hw j
  · iexact H
theorem t1land3 (d : Dev nD) (L : grid2.Coords) (i : Buf (Elt F) (t1sc3.view.loc (V d (cV1 L) (jV1 L)))) (w : Vec F S2000 .i32) (hw : ∀ x, (w x).toNat < 10000) :
    (t1sc3.view.loc (V d (cV1 L) (jV1 L)) ↦{fullShare} View.write (Elt F) (Memref.whole cc2_scratch3).view i w Finset.univ : sProp 𝕄)
      ⊢ ∃ g, ⌜∀ j, (g j).toNat < 10000⌝ ∗ t1sc3.view.loc (V d (cV1 L) (jV1 L)) ↦{fullShare} g := by
  have e : View.write (Elt F) (Memref.whole cc2_scratch3).view i w Finset.univ = w := View.write_whole_univ _ _ _
  iintro H
  iexists (View.write (Elt F) (Memref.whole cc2_scratch3).view i w Finset.univ); isplitr
  · ipureintro; intro j
    rw [e]; exact hw j
  · iexact H

theorem tile_body1 (d : Dev nD) (L : grid2.Coords) (hF : (K (F := F)).Facts) (q : PosShare TreeShare)
    (fta : Buf (Elt F) ((tabSl1a L).view.loc (V d (cV1 L) (jV1 L)))) (ftb : Buf (Elt F) ((tabSl1b L).view.loc (V d (cV1 L) (jV1 L))))
    (fs : Buf (Elt F) (srcW.view.loc (V d (cV1 L) (jV1 L)))) (fd : Buf (Elt F) (dstW.view.loc (V d (cV1 L) (jV1 L))))
    (foa : Buf (Elt F) ((outSl1a L).view.loc (V d (cV1 L) (jV1 L)))) (fob : Buf (Elt F) ((outSl1b L).view.loc (V d (cV1 L) (jV1 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
            ∗ ((outSl1a L).view.loc (V d (cV1 L) (jV1 L)) ↦[(outSl1a L).view.set]{fullShare} foa) ∗ ((outSl1b L).view.loc (V d (cV1 L) (jV1 L)) ↦[(outSl1b L).view.set]{fullShare} fob))
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop((((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
              ∗ (∃ f, ((outSl1a L).view.loc (V d (cV1 L) (jV1 L)) ↦[(outSl1a L).view.set]{fullShare} f)) ∗ ∃ f, ((outSl1b L).view.loc (V d (cV1 L) (jV1 L)) ↦[(outSl1b L).view.set]{fullShare} f))
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc2_body_eq_skeleton]; unfold cc2_body_skel
  rw [(K (F := F)).scopedBufs_V hF d (cV1 L) (jV1 L), SparseCore.Cfg.scopedSems0_V (Val := Elt F) d (cV1 L) (jV1 L), ownSems0_T1, ownBufs_T1]
  iintro ⟨#Hlv, -, ⟨Hta, Htb, Hs, Hd, Hoa, Hob⟩, ⟨⟨%f0, H0⟩, ⟨%f1, H1⟩, ⟨%f2, H2⟩, ⟨%f3, H3⟩, Hbufs⟩, ⟨Hsem0, Hsem1, Hsem2, Hsem3, Hsem4, Hsem5, Hsem6, Hsem7, Hsems⟩, HO⟩
  ihave Hmw := ((K (F := F)).mayWaits_none (thr := V d (cV1 L) (jV1 L)) hO) $$ Hlv
  ihave H0 := (Entails.of_eq (pts_t1sc0 (F := F) d L _).symm) $$ H0
  ihave H1 := (Entails.of_eq (pts_t1sc1 (F := F) d L _).symm) $$ H1
  ihave H2 := (Entails.of_eq (pts_t1sc2 (F := F) d L _).symm) $$ H2
  ihave H3 := (Entails.of_eq (pts_t1sc3 (F := F) d L _).symm) $$ H3
  -- the first pass: the first stretch's four rows into the table scratch
  sl_exec
  -- its zero-fill
  sl_for (t1inv1 (F := F) d L) $$ [H1]
  case region =>
    intro k _
    unfold t1inv1
    iintro ⟨%f, H⟩
    sl_exec
    sl_step
    iexists _; iexact H
  · unfold t1inv1; iexists _; iexact H1
  iintro %_ HI
  unfold t1inv1
  icases HI with ⟨%f1', H1⟩
  -- its chunks
  sl_for (t1inv2 (F := F) d L q fs fd O W cc2_scoped1.sem cc2_scoped2.sem) $$ [Hmw Hs Hd H0 H1 H2 H3 Hsem1 Hsem2 HO]
  case region =>
    intro k _
    unfold t1inv2
    iintro ⟨#Hmw, Hs, Hd, ⟨%t0, H0⟩, ⟨%a1, H1⟩, ⟨%i2, H2⟩, ⟨%i3, H3⟩, Hsa, Hsb, %W', %hW', HO⟩
    -- the chunk's sources and destinations into the two index scratches
    sl_exec
    ihave H2 := (t1land2 (F := F) d L _ _ ?hw2) $$ H2
    case hw2 => exact fun _ => hs _
    ihave H3 := (t1land3 (F := F) d L _ _ ?hw3) $$ H3
    case hw3 => exact fun _ => hd _
    -- the chunk's groups
    sl_for (t1inv3 (F := F) d L) $$ [H2 H3 H0 H1]
    case region =>
      intro kk _
      unfold t1inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t1inv3
      isplitl [H2]; · iexact H2
      isplitl [H3]; · iexact H3
      isplitl [H0]; · iexists _; iexact H0
      iexists _; iexact H1
    iintro %_ HI
    unfold t1inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsa]; · iexact Hsa
    isplitl [Hsb]; · iexact Hsb
    iexists (insert (SemLoc.dma cc2_scoped2.sem, (default : HIx 2)) (insert (SemLoc.dma cc2_scoped1.sem, (default : HIx 2)) W')); isplitr
    · ipureintro; exact waits_step (waits_step hW' _) _
    · iexact HO
  · unfold t1inv2
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem1]; · iexact Hsem1
    isplitl [Hsem2]; · iexact Hsem2
    iexists (insert (SemLoc.dma cc2_scoped0.sem, (default : HIx 2)) W); isplitr
    · ipureintro; exact waits_step (fun p hp => .inl hp) _
    · iexact HO
  iintro %_ HI
  unfold t1inv2
  icases HI with ⟨-, Hs, Hd, ⟨%t0, H0⟩, ⟨%a1, H1⟩, ⟨%i2, H2⟩, ⟨%i3, H3⟩, Hsem1, Hsem2, %W', %hW', HO⟩
  -- the accumulator out to the first stretch of the result; the second pass: the second stretch's four rows into the table scratch
  sl_exec
  -- its zero-fill
  sl_for (t1inv1 (F := F) d L) $$ [H1]
  case region =>
    intro k _
    unfold t1inv1
    iintro ⟨%f, H⟩
    sl_exec
    sl_step
    iexists _; iexact H
  · unfold t1inv1; iexists _; iexact H1
  iintro %_ HI
  unfold t1inv1
  icases HI with ⟨%f1', H1⟩
  -- the part's return
  sl_exec
  -- its chunks
  sl_for (t1inv2 (F := F) d L q fs fd O W cc2_scoped5.sem cc2_scoped6.sem) $$ [Hmw Hs Hd H0 H1 H2 H3 Hsem5 Hsem6 HO]
  case region =>
    intro k _
    unfold t1inv2
    iintro ⟨#Hmw, Hs, Hd, ⟨%t0, H0⟩, ⟨%a1, H1⟩, ⟨%i2, H2⟩, ⟨%i3, H3⟩, Hsa, Hsb, %W', %hW', HO⟩
    -- the chunk's sources and destinations into the two index scratches
    sl_exec
    ihave H2 := (t1land2 (F := F) d L _ _ ?hw2) $$ H2
    case hw2 => exact fun _ => hs _
    ihave H3 := (t1land3 (F := F) d L _ _ ?hw3) $$ H3
    case hw3 => exact fun _ => hd _
    -- the chunk's groups
    sl_for (t1inv3 (F := F) d L) $$ [H2 H3 H0 H1]
    case region =>
      intro kk _
      unfold t1inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t1inv3
      isplitl [H2]; · iexact H2
      isplitl [H3]; · iexact H3
      isplitl [H0]; · iexists _; iexact H0
      iexists _; iexact H1
    iintro %_ HI
    unfold t1inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsa]; · iexact Hsa
    isplitl [Hsb]; · iexact Hsb
    iexists (insert (SemLoc.dma cc2_scoped6.sem, (default : HIx 2)) (insert (SemLoc.dma cc2_scoped5.sem, (default : HIx 2)) W')); isplitr
    · ipureintro; exact waits_step (waits_step hW' _) _
    · iexact HO
  · unfold t1inv2
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem5]; · iexact Hsem5
    isplitl [Hsem6]; · iexact Hsem6
    iexists (insert (SemLoc.dma cc2_scoped4.sem, (default : HIx 2)) (insert (SemLoc.dma cc2_scoped3.sem, (default : HIx 2)) W')); isplitr
    · ipureintro; exact waits_step (waits_step hW' _) _
    · iexact HO
  iintro %_ HI
  unfold t1inv2
  icases HI with ⟨-, Hs, Hd, ⟨%t0, H0⟩, ⟨%a1, H1⟩, ⟨%i2, H2⟩, ⟨%i3, H3⟩, Hsem5, Hsem6, %W', %hW', HO⟩
  -- the accumulator out to the second stretch of the result
  sl_exec
  sl_step
  isplitl [Hta Htb Hs Hd Hoa Hob]
  · isplitl [Hta]; · iexact Hta
    isplitl [Htb]; · iexact Htb
    isplitl [Hs]; · iexact Hs
    isplitl [Hd]; · iexact Hd
    isplitl [Hoa]; · iexists _; iexact Hoa
    iexists _; iexact Hob
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsem4 Hsem5 Hsem6 Hsem7 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    iexact Hsems
  iexists (insert (SemLoc.dma cc2_scoped7.sem, (default : HIx 2)) W'); isplitr
  · ipureintro; exact waits_step hW' _
  · iexact HO

end Cert.Proof.KernelIdealL

end
-- ==== Proof.KIObl0.lean ====
/-
  The first aggregation's task as the launch theorem's obligation: one tile's body, proved at a symbolic tile over the
  operands as the tile addresses them, restated over the tile's share as the handshake carries it (the same buffers, named
  from the TensorCore's side), at the tile the call's grid names.
-/
import proofs.«211848_g47218870452992_cont_8to1c4_747_2_alg».proof.Proof.KITile0
import proofs.«211848_g47218870452992_cont_8to1c4_747_2_alg».proof.Proof.KIPay

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))

/-- The body table's row for a vector subcore at the first call. -/
theorem defs₀_vector0 (c : Fin τ.nSC) (s : Fin τ.nSub) :
    defs₀ (F := F) (.scVector c s) 0 ()
      = SparseCore.onTile hcore0 hsub0 (fun c s => cc0_body (coordsV0 c s)
          tabW0 (Memref.isWhole_whole _) srcW (Memref.isWhole_whole _) dstW (Memref.isWhole_whole _) outW0 (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          cc0_scoped0 cc0_scoped1 cc0_scoped2 cc0_scoped3) ⟨⟩ c s := rfl

omit [FloatOps F] in
/-- A tile's stretch of the table, and of the result, named from either side. -/
theorem pts_tab0 (d : Dev nD) (L : grid0.Coords) (q : PosShare TreeShare) (f : Buf (Elt F) (tLoc main_v6 d)) :
    ((tabSl0 L).view.loc (V d (cV0 L) (jV0 L)) ↦[(tabSl0 L).view.set]{q} f : sProp 𝕄) = (tLoc main_v6 d ↦[set0 L]{q} f) := rfl
omit [FloatOps F] in
theorem pts_out0 (d : Dev nD) (L : grid0.Coords) (q : PosShare TreeShare) (f : Buf (Elt F) (tLoc main_v7 d)) :
    ((outSl0 L).view.loc (V d (cV0 L) (jV0 L)) ↦[(outSl0 L).view.set]{q} f : sProp 𝕄) = (tLoc main_v7 d ↦[set0 L]{q} f) := rfl
omit [FloatOps F] in
theorem obl_post0 {thr : Thread nD τ} {A B C : sProp 𝕄} {O : CellTallies nD τ sig (HIx 2)} {W : Waits sig (HIx 2)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (0 : Fin 2)⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task of the first aggregation, over its share as the handshake carries it. -/
theorem tileTask0 (hs : ∀ d j, ((srcC d) j).toNat < 10000) (hd : ∀ d j, ((dstC d) j).toNat < 10000)
    (d : Dev nD) (L : grid0.Coords) (O : CellTallies nD τ sig (HIx 2)) (W : Waits sig (HIx 2)) (hO : ∀ g, O g none = 0) :
    (iprop(levAts (K (F := F)).L (K (F := F)).lev ∗ emp ∗ tileRes0 srcC dstC d L
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop(tileRes0 srcC dstC d L ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  unfold tileRes0
  iintro ⟨Hlv, -, ⟨⟨%ft, Ht⟩, Hs, Hd, ⟨%fo, Ho⟩⟩, Hsb, Hss, HO⟩
  iapply (wp_mono frame _ _ (fun _ => (show
      (iprop((((tabSl0 L).view.loc (V d (cV0 L) (jV0 L)) ↦[(tabSl0 L).view.set]{fullShare} ft) ∗ (srcW.view.loc (V d (cV0 L) (jV0 L)) ↦{tok (wid0 L)} srcC d) ∗ (dstW.view.loc (V d (cV0 L) (jV0 L)) ↦{tok (wid0 L)} dstC d)
            ∗ ∃ f, (outSl0 L).view.loc (V d (cV0 L) (jV0 L)) ↦[(outSl0 L).view.set]{fullShare} f)
          ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') : sProp 𝕄)
      ⊢ iprop(((∃ ft, tLoc main_v6 d ↦[set0 L]{fullShare} ft) ∗ (tLoc main_v1 d ↦{tok (wid0 L)} srcC d) ∗ (tLoc main_v3 d ↦{tok (wid0 L)} dstC d)
            ∗ ∃ fo, tLoc main_v7 d ↦[set0 L]{fullShare} fo)
          ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') from by
    iintro ⟨⟨Ht, Hs, Hd, Ho⟩, Hrest⟩
    isplitl [Ht Hs Hd Ho]
    · isplitl [Ht]; · iexists ft; iexact Ht
      isplitl [Hs]; · iexact Hs
      isplitl [Hd]; · iexact Hd
      iexact Ho
    · iexact Hrest)))
  iapply (tile_body0 (F := F) d L facts (tok (wid0 L)) ft (srcC d) (dstC d) fo (hs d) (hd d) O W hO) $$ [Hlv Ht Hs Hd Ho Hsb Hss HO]
  isplitl [Hlv]; · iexact Hlv
  isplitr; · iempintro
  isplitl [Ht Hs Hd Ho]
  · isplitl [Ht]; · iexact Ht
    isplitl [Hs]; · iexact Hs
    isplitl [Hd]; · iexact Hd
    iexact Ho
  isplitl [Hsb]; · iexact Hsb
  isplitl [Hss]; · iexact Hss
  iexact HO

/-- The launch theorem's obligation at the first call. -/
theorem tileObl0 (hs : ∀ d j, ((srcC d) j).toNat < 10000) (hd : ∀ d j, ((dstC d) j).toNat < 10000) :
    (K (F := F)).TileObl (D (F := F)) 𝒱 (P srcC dstC) v₀ 0 := by
  intro d c i O W hO _ _
  simp only [show (P srcC dstC).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tileTask0 srcC dstC hs hd d (L0 c i) O W hO).trans (wp_mono frame _ _ fun _ => obl_post0)

end Cert.Proof.KernelIdealL

end
-- ==== Proof.KIObl1.lean ====
/-
  The second aggregation's task as the launch theorem's obligation: one tile's body — two stretches of four rows —, proved
  at a symbolic tile over the operands as the tile addresses them, restated over the tile's share as the handshake carries
  it, at the tile the call's grid names.
-/
import proofs.«211848_g47218870452992_cont_8to1c4_747_2_alg».proof.Proof.KITile1
import proofs.«211848_g47218870452992_cont_8to1c4_747_2_alg».proof.Proof.KIObl0

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))

/-- The body table's row for a vector subcore at the second call. -/
theorem defs₀_vector1 (c : Fin τ.nSC) (s : Fin τ.nSub) :
    defs₀ (F := F) (.scVector c s) 2 ()
      = SparseCore.onTile hcore2 hsub2 (fun c s => cc2_body (coordsV2 c s)
          tabW1 (Memref.isWhole_whole _) srcW (Memref.isWhole_whole _) dstW (Memref.isWhole_whole _) outW1 (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _)
          cc2_scoped0 cc2_scoped1 cc2_scoped2 cc2_scoped3 cc2_scoped4 cc2_scoped5 cc2_scoped6 cc2_scoped7) ⟨⟩ c s := rfl

omit [FloatOps F] in
theorem obl_post1 {thr : Thread nD τ} {A B C : sProp 𝕄} {O : CellTallies nD τ sig (HIx 2)} {W : Waits sig (HIx 2)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (1 : Fin 2)⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task of the second aggregation, over its share as the handshake carries it. -/
theorem tileTask1 (hs : ∀ d j, ((srcC d) j).toNat < 10000) (hd : ∀ d j, ((dstC d) j).toNat < 10000)
    (d : Dev nD) (L : grid2.Coords) (O : CellTallies nD τ sig (HIx 2)) (W : Waits sig (HIx 2)) (hO : ∀ g, O g none = 0) :
    (iprop(levAts (K (F := F)).L (K (F := F)).lev ∗ emp ∗ tileRes1 srcC dstC d L
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop(tileRes1 srcC dstC d L ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  unfold tileRes1
  iintro ⟨Hlv, -, ⟨⟨%fta, Hta⟩, ⟨%ftb, Htb⟩, Hs, Hd, ⟨%foa, Hoa⟩, ⟨%fob, Hob⟩⟩, Hsb, Hss, HO⟩
  iapply (wp_mono frame _ _ (fun _ => (show
      (iprop((((tabSl1a L).view.loc (V d (cV1 L) (jV1 L)) ↦[(tabSl1a L).view.set]{fullShare} fta) ∗ ((tabSl1b L).view.loc (V d (cV1 L) (jV1 L)) ↦[(tabSl1b L).view.set]{fullShare} ftb)
            ∗ (srcW.view.loc (V d (cV1 L) (jV1 L)) ↦{tok (wid2 L)} srcC d) ∗ (dstW.view.loc (V d (cV1 L) (jV1 L)) ↦{tok (wid2 L)} dstC d)
            ∗ (∃ f, (outSl1a L).view.loc (V d (cV1 L) (jV1 L)) ↦[(outSl1a L).view.set]{fullShare} f) ∗ ∃ f, (outSl1b L).view.loc (V d (cV1 L) (jV1 L)) ↦[(outSl1b L).view.set]{fullShare} f)
          ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') : sProp 𝕄)
      ⊢ iprop(((∃ ft, tLoc main_v13 d ↦[set1 L 0]{fullShare} ft) ∗ (∃ ft, tLoc main_v13 d ↦[set1 L 1]{fullShare} ft)
            ∗ (tLoc main_v1 d ↦{tok (wid2 L)} srcC d) ∗ (tLoc main_v3 d ↦{tok (wid2 L)} dstC d)
            ∗ (∃ fo, tLoc main_v14 d ↦[set1 L 0]{fullShare} fo) ∗ ∃ fo, tLoc main_v14 d ↦[set1 L 1]{fullShare} fo)
          ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') from by
    iintro ⟨⟨Hta, Htb, Hs, Hd, Hoa, Hob⟩, Hrest⟩
    isplitl [Hta Htb Hs Hd Hoa Hob]
    · isplitl [Hta]; · iexists fta; iexact Hta
      isplitl [Htb]; · iexists ftb; iexact Htb
      isplitl [Hs]; · iexact Hs
      isplitl [Hd]; · iexact Hd
      isplitl [Hoa]; · iexact Hoa
      iexact Hob
    · iexact Hrest)))
  iapply (tile_body1 (F := F) d L facts (tok (wid2 L)) fta ftb (srcC d) (dstC d) foa fob (hs d) (hd d) O W hO) $$ [Hlv Hta Htb Hs Hd Hoa Hob Hsb Hss HO]
  isplitl [Hlv]; · iexact Hlv
  isplitr; · iempintro
  isplitl [Hta Htb Hs Hd Hoa Hob]
  · isplitl [Hta]; · iexact Hta
    isplitl [Htb]; · iexact Htb
    isplitl [Hs]; · iexact Hs
    isplitl [Hd]; · iexact Hd
    isplitl [Hoa]; · iexact Hoa
    iexact Hob
  isplitl [Hsb]; · iexact Hsb
  isplitl [Hss]; · iexact Hss
  iexact HO

/-- The launch theorem's obligation at the second call. -/
theorem tileObl1 (hs : ∀ d j, ((srcC d) j).toNat < 10000) (hd : ∀ d j, ((dstC d) j).toNat < 10000) :
    (K (F := F)).TileObl (D (F := F)) 𝒱 (P srcC dstC) v₀ 1 := by
  intro d c i O W hO _ _
  simp only [show (P srcC dstC).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tileTask1 srcC dstC hs hd d (L1 c i) O W hO).trans (wp_mono frame _ _ fun _ => obl_post1)

end Cert.Proof.KernelIdealL

end
-- ==== Proof.KIPre.lean ====
/-
  From the precondition to what the aggregations need of the edge list. The precondition says every float input is
  finite and every word of the edge list lies in [0, 9999] (an `all` of the elementwise comparisons, conjoined); the two
  rows of the edge list that @main slices out before the first aggregation are words of it, so every edge source and
  every edge destination, read as a natural number, is below 10000: each names a node.
-/
import proofs.«211848_g47218870452992_cont_8to1c4_747_2_alg».proof.Proof.KIInv
import proofs.«211848_g47218870452992_cont_8to1c4_747_2_alg».proof.Pre_input_domain
import Idealize.ShloMosaic.Lib.ReduceAll
import Idealize.ShloMosaic.Lib.Affine

set_option Elab.async false

noncomputable section

namespace Cert.Proof.KernelIdealL

open Cert.KernelIdeal Cert.KernelIdeal.Gen
open Idealize.ShloMosaic Idealize.ShloMosaic.TcCoe Idealize.SL.Sem Idealize.ShloMosaic.StableHlo

variable {F : FTy → Type} [FloatOps F]

/-- A word between 0 and 9999 as a signed number is below 10000 as a natural number. -/
theorem word_lt (v : BitVec 32) (e : IntOp.andi (IntOp.cmpi .sge v 0#32) (IntOp.cmpi .sle v 9999#32) = 1#1) : v.toNat < 10000 := by
  obtain ⟨h0, h1⟩ := IntOp.andi_eq_one.mp e
  have h0' := IntOp.cmpi_sge.mp h0
  have h1' := IntOp.cmpi_sle.mp h1
  have z0 : (0#32 : BitVec 32).toInt = 0 := by decide
  have z1 : (9999#32 : BitVec 32).toInt = 9999 := by decide
  rw [z0] at h0'; rw [z1] at h1'
  rw [BitVec.toInt_eq_toNat_cond] at h0' h1'
  have := v.isLt
  split at h0' <;> omega

instance : Subsingleton S_.Idx := ⟨fun a b => funext fun d => d.elim0⟩

variable [hP : Cert.Pre_input_domain.Facts]

/-- The precondition, at any reading of the floats: on every device the printed predicate of the argument arrays is all ones. -/
def PreG (m : (ℓ : Loc nD τ sig) → Buf (Elt F) ℓ) : Prop :=
  ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

/-- Every word of the edge list is in range: the predicate's last conjunct, an `all` over the list. -/
theorem edge_lt (m : (ℓ : Loc nD τ sig) → Buf (Elt F) ℓ) (h : PreG m) (c : Dev nD) (i : S2x320000.Idx) :
    (m ((c.tc : Thread nD τ).loc main_arg1) i).toNat < 10000 := by
  unfold PreG at h
  have e := congrFun (h c) (fun a : Fin 0 => a.elim0)
  simp only [Cert.Pre_input_domain.fn, Cert.Pre_input_domain.fn_part1, Cert.Pre_input_domain.fn_part2] at e
  have e2 := (IntOp.andi_eq_one.mp e).2
  have e3 := Host.reduce_andi_all _ _ _ _ _ e2 i
  simp only [andi, cmpi, broadcastInDim, constantI] at e3
  exact word_lt _ e3

variable (m : (ℓ : Loc nD τ sig) → Buf (Elt F) ℓ)

/-- The edge sources are the edge list's first row. -/
theorem srcC_eq (d : Dev nD) : srcC m d = fun i =>
    shapeCast S320000 (extractStridedSlice S1x320000 ![0, 0] (m ((d.tc : Thread nD τ).loc main_arg1)) slices_S2x320000_S1x320000_0_0) shapeCasts_S1x320000_S320000 i := by
  unfold srcC W1; after_results; rfl
/-- The edge destinations are its second row. -/
theorem dstC_eq (d : Dev nD) : dstC m d = fun i =>
    shapeCast S320000 (extractStridedSlice S1x320000 ![1, 0] (m ((d.tc : Thread nD τ).loc main_arg1)) slices_S2x320000_S1x320000_1_0) shapeCasts_S1x320000_S320000 i := by
  unfold dstC W1; after_results; rfl

/-- Every edge source names a node, -/
theorem src_lt (h : PreG m) (d : Dev nD) (j : S320000.Idx) : ((srcC m d) j).toNat < 10000 := by
  rw [srcC_eq]; exact edge_lt m h d _
/-- and every edge destination. -/
theorem dst_lt (h : PreG m) (d : Dev nD) (j : S320000.Idx) : ((dstC m d) j).toNat < 10000 := by
  rw [dstC_eq]; exact edge_lt m h d _

end Cert.Proof.KernelIdealL

end
-- ==== Proof.KIFrame.lean ====
/-
  The kernel's run assembled: from the precondition (every edge endpoint names a node), each aggregation's task proved as
  one tile's obligation, and @main proved on the TensorCore, the launch theorem gives that every weakly fair execution of
  the device's 35 threads terminates, nothing faulting, with the ten argument arrays as launched. What @main's proof takes
  as stated — the dealing and collecting around each aggregation, the two TensorCore regions' steps — enters here as it does
  there.
-/
import proofs.«211848_g47218870452992_cont_8to1c4_747_2_alg».proof.Proof.KIHmain
import proofs.«211848_g47218870452992_cont_8to1c4_747_2_alg».proof.Proof.KIObl1
import proofs.«211848_g47218870452992_cont_8to1c4_747_2_alg».proof.Proof.KIPre

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The program's run from a launch memory satisfying the precondition. -/
theorem run_main [∀ e, Nonempty (Elt F e)] [hP : Cert.Pre_input_domain.Facts]
    (m : (ℓ : Loc nD τ sig) → Buf (Elt F) ℓ) (ρ : Dev nD → PrngReg) (hpre : PreG m)
    (Rest0 Rest1 : Dev nD → sProp 𝕄)
  (hdeal0 : ∀ d, (Inv m d : sProp 𝕄) ⊢ iprop((bigSep Finset.univ fun c : Fin ((K (F := F)).nCore 0) => (P (srcC m) (dstC m)).st 0 d c) ∗ Rest0 d))
  (hcoll0 : ∀ d, iprop((bigSep Finset.univ fun c : Fin ((K (F := F)).nCore 0) => (P (srcC m) (dstC m)).dn 0 d c) ∗ Rest0 d) ⊢ (Inv m d : sProp 𝕄))
  (hdeal1 : ∀ d, (Inv m d : sProp 𝕄) ⊢ iprop((bigSep Finset.univ fun c : Fin ((K (F := F)).nCore 1) => (P (srcC m) (dstC m)).st 1 d c) ∗ Rest1 d))
  (hcoll1 : ∀ d, iprop((bigSep Finset.univ fun c : Fin ((K (F := F)).nCore 1) => (P (srcC m) (dstC m)).dn 1 d c) ∗ Rest1 d) ⊢ (Inv m d : sProp 𝕄))
  (hreg0 : ∀ (κ : GSem nD τ sig → ℕ) (d : Dev nD) (Φ : PUnit → sProp 𝕄),
    iprop((K (F := F)).ctx EH (P (srcC m) (dstC m)) κ ∗ (K (F := F)).tcSt EH d 1 ∗ boundary (T d) ∗ Inv m d ∗ Aux (F := F) d ∗ ghost (F := F) 0 d
        ∗ (((K (F := F)).tcSt EH d 1 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 0)) ())) Φ)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ) :
    θ_run (Cert.KernelIdeal.defs (F := F)) (Cert.KernelIdeal.threads (F := F)) ⟨m, fun _ => 0, ρ⟩ (QC m) :=
  run_of (srcC m) (dstC m) m ρ
    (tileObl0 (srcC m) (dstC m) (src_lt m hpre) (dst_lt m hpre)) (tileObl1 (srcC m) (dstC m) (src_lt m hpre) (dst_lt m hpre))
    (hmain m ρ Rest0 Rest1 hdeal0 hcoll0 hdeal1 hcoll1 hreg0 hreg1)

end Cert.Proof.KernelIdealL

end
-- ==== Proof.KBCommon.lean ====
/-
  The launch vocabulary of `Kernel`: the program as the SparseCore launch theorem sees it (two vector-subcore calls,
  two TensorCore pipelines), and the resource algebra its proof lives in — the handshakes' rounds, the pipelines'
  staging cells' rounds, and the local transfers' counters, side by side.
-/
import proofs.«211848_g47218870452992_cont_8to1c4_747_2_alg».proof.Proof.Gen.Kernel
import proofs.«211848_g47218870452992_cont_8to1c4_747_2_alg».proof.Proof.Gen.Kernel.Skeleton
import proofs.«211848_g47218870452992_cont_8to1c4_747_2_alg».proof.Proof.Gen.Kernel.Launch
import proofs.«211848_g47218870452992_cont_8to1c4_747_2_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernels' own. -/
abbrev ΛP : Labels := Pipeline.Sig Λ₀ (Fin 2) fun p => (pcfgs (F := F) p).Adm
/-- The two SparseCore calls. -/
abbrev K : SparseCore.Cfg τ sig (ΛP (F := F)) 2 := sc (F := F)
theorem nCore_eq (q : Fin 2) : (K (F := F)).nCore q = 2 := by
  match q with
  | 0 => rfl
  | 1 => rfl
theorem nSub_eq (q : Fin 2) : (K (F := F)).nSub q = 16 := by
  match q with
  | 0 => rfl
  | 1 => rfl
/-- The body table under the launch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, staging cells and the local transfers' counters side by side. -/
abbrev UU : Type := UH × (UP × Counters)

/-- The handshakes' component. -/
abbrev EH : Emb UH (MT nD τ sig (HIx 2) (Elt F) ℕ UU ℕ) := embL
/-- The staging cells' component. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP (MT nD τ sig (HIx 2) (Elt F) ℕ UU ℕ)).LandsIn (upEmb : UEmb _ (MT nD τ sig (HIx 2) (Elt F) ℕ UU ℕ)) := by
  unfold EP embR; infer_instance

end Cert.Proof.KernelL

end
-- ==== Proof.KBMain.lean ====
/-
  @main on the TensorCore as five stretches of host operations around its four calls — the first aggregation on the
  SparseCores, the first layer on the TensorCore, the second aggregation, the head — each stretch a list (the padding's two
  operations inline where @main calls it), so that a stretch runs by the host block rule and each call by its own.
-/
import proofs.«211848_g47218870452992_cont_8to1c4_747_2_alg».proof.Proof.KBCommon

noncomputable section

namespace Cert.Proof.KernelL

open Cert.Kernel Cert.Kernel.Gen
open Idealize.ShloMosaic Idealize.ShloMosaic.TcCoe Idealize.SL.Sem Idealize.ShloMosaic.StableHlo

variable {F : FTy → Type} [FloatOps F]

/-- Before the first aggregation: the edge list's two rows, the features transposed, padded to 10240 columns and flattened. -/
abbrev ops1 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg0 main_v4 ((transpose S128x10000 [1, 0] · transposes_S10000x128_S128x10000_1_0) : (⟨S10000x128, .f32⟩ : BufTy).Contents (Elt F) → (⟨S128x10000, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v4 : StableHlo.TRef sig ⟨S128x10000, .f32⟩) main_call0.v0 main_call0.v1 (fun x v => pad S128x10240 ![0, 0] ![0, 240] ![0, 0] x v pads_S128x10000_S128x10240_000_02400 h_S_),
    StableHlo.reshape main_v5 main_v6 rfl shapeCasts_S128x10240_S1310720 ]

/-- Between the first aggregation and the first layer: the sums as a matrix, the layer's weights transposed, its bias and slope as columns. -/
abbrev ops2 : List (HloOp τ sig (Elt F)) :=
  [ StableHlo.reshape main_v7 main_v8 rfl shapeCasts_S1310720_S128x10240,
    StableHlo.unary main_arg2 main_v9 ((transpose S256x128 [1, 0] · transposes_S128x256_S256x128_1_0) : (⟨S128x256, .f32⟩ : BufTy).Contents (Elt F) → (⟨S256x128, .f32⟩ : BufTy).Contents (Elt F)),
    StableHlo.reshape main_arg3 main_v10 rfl shapeCasts_S256_S256x1,
    StableHlo.reshape main_arg4 main_v11 rfl shapeCasts_S256_S256x1 ]

/-- Between the first layer and the second aggregation: the layer's output flattened. -/
abbrev ops3 : List (HloOp τ sig (Elt F)) :=
  [ StableHlo.reshape main_v12 main_v13 rfl shapeCasts_S256x10240_S2621440 ]

/-- Between the second aggregation and the head: the sums as a matrix, the second layer's weights transposed, its bias and slope as columns, the head's bias as a row. -/
abbrev ops4 : List (HloOp τ sig (Elt F)) :=
  [ StableHlo.reshape main_v14 main_v15 rfl shapeCasts_S2621440_S256x10240,
    StableHlo.unary main_arg5 main_v16 ((transpose S256x256 [1, 0] · transposes_S256x256_S256x256_1_0) : (⟨S256x256, .f32⟩ : BufTy).Contents (Elt F) → (⟨S256x256, .f32⟩ : BufTy).Contents (Elt F)),
    StableHlo.reshape main_arg6 main_v17 rfl shapeCasts_S256_S256x1,
    StableHlo.reshape main_arg7 main_v18 rfl shapeCasts_S256_S256x1,
    StableHlo.reshape main_arg9 main_v19 rfl shapeCasts_S16_S1x16 ]

/-- After the head: its one row as a vector. -/
abbrev ops5 : List (HloOp τ sig (Elt F)) :=
  [ StableHlo.reshape main_v20 main_v21 rfl shapeCasts_S1x16_S16 ]

set_option maxRecDepth 4096 in
/-- @main is those stretches around its calls. -/
theorem main_eq (d : Dev nD) : main (F := F) d =
    (seq ops1 >>= fun _ => sc.run d 0 >>= fun _ => seq ops2 >>= fun _ =>
      Prog.lift (.customCall (SparseCore.inner (Pipeline.entry 0)) ()) >>= fun _ => seq ops3 >>= fun _ => sc.run d 1 >>= fun _ =>
      seq ops4 >>= fun _ => Prog.lift (.customCall (SparseCore.inner (Pipeline.entry 1)) ()) >>= fun _ => seq ops5) := rfl

end Cert.Proof.KernelL

end
-- ==== Proof.KBPay.lean ====
/-
  What the two SparseCore calls' handshakes carry: each tile's share of the call's operands — the stretch of the table it
  aggregates and the stretch of the result it writes, held outright at contents not stated, and a read token of the edge
  sources and of the edge destinations at their contents — out with the go signal and back, unchanged in shape, with
  taskDone. A SparseCore's payload is its sixteen tiles' together, so the split between the two is the identity.
-/
import proofs.«211848_g47218870452992_cont_8to1c4_747_2_alg».proof.Proof.KBCommon

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- A buffer of the TensorCore's, as a location of device `d`. -/
abbrev tLoc (b : Ref sig .tc) (d : Dev nD) : Loc nD τ sig := (SparseCore.T d).loc b

/-! ## A tile's coordinates, thread and number -/

def coordsV0 (c : Fin (grid0.bound 0)) (s : Fin (grid0.bound 1)) : grid0.Coords :=
  fun | 0 => c | 1 => s | ⟨_ + 2, h⟩ => absurd h (Nat.not_lt.2 (Nat.le_add_left _ _))
def coordsV2 (c : Fin (grid2.bound 0)) (s : Fin (grid2.bound 1)) : grid2.Coords :=
  fun | 0 => c | 1 => s | ⟨_ + 2, h⟩ => absurd h (Nat.not_lt.2 (Nat.le_add_left _ _))

abbrev thr0 (d : Dev nD) (L : grid0.Coords) : Thread nD τ := V d ((L 0).castLE hcore0) ((L 1).castLE hsub0)
abbrev thr2 (d : Dev nD) (L : grid2.Coords) : Thread nD τ := V d ((L 0).castLE hcore2) ((L 1).castLE hsub2)

/-- The tile's number among the 32: subcore · 2 + core, as the kernel computes it. -/
def wid0 (L : grid0.Coords) : Fin 32 := ⟨(L 1).val * 2 + (L 0).val, by have h0 : (L 0).val < 2 := (L 0).isLt; have h1 : (L 1).val < 16 := (L 1).isLt; omega⟩
def wid2 (L : grid2.Coords) : Fin 32 := ⟨(L 1).val * 2 + (L 0).val, by have h0 : (L 0).val < 2 := (L 0).isLt; have h1 : (L 1).val < 16 := (L 1).isLt; omega⟩

/-! ## The operands as the tiles address them -/

abbrev tblW0 : Memref sig .scVector .hbm S1310720 .f32 := Memref.whole main_v6_scv
abbrev resW0 : Memref sig .scVector .hbm S1310720 .f32 := Memref.whole main_v7_scv
abbrev tblW1 : Memref sig .scVector .hbm S2621440 .f32 := Memref.whole main_v13_scv
abbrev resW1 : Memref sig .scVector .hbm S2621440 .f32 := Memref.whole main_v14_scv
abbrev srcM : Memref sig .scVector .hbm S320000 .i32 := Memref.whole main_v1_scv
abbrev dstM : Memref sig .scVector .hbm S320000 .i32 := Memref.whole main_v3_scv

/-- The four rows a tile aggregates in the first call, as its body slices them; and where it writes their sums. -/
abbrev tblS0 (L : grid0.Coords) : Memref sig .scVector .hbm S40960 .f32 := tblW0.slice (Rect.unit (s := S1310720) (k0_off1 L) S40960.size (k0_off1_inb L)) (fun _ => rfl)
abbrev resS0 (L : grid0.Coords) : Memref sig .scVector .hbm S40960 .f32 := resW0.slice (Rect.unit (s := S1310720) (k0_off1 L) S40960.size (k0_off1_inb L)) (fun _ => rfl)
/-- In the second call a tile aggregates two stretches of four rows (`r = 0, 1`). -/
abbrev tblS1 (L : grid2.Coords) (r : Fin 2) : Memref sig .scVector .hbm S40960 .f32 :=
  tblW1.slice (Rect.unit (s := S2621440) (k2_off1 L (BitVec.ofNat 32 (128 * r.val))) S40960.size (k2_off1_inb L r)) (fun _ => rfl)
abbrev resS1 (L : grid2.Coords) (r : Fin 2) : Memref sig .scVector .hbm S40960 .f32 :=
  resW1.slice (Rect.unit (s := S2621440) (k2_off1 L (BitVec.ofNat 32 (128 * r.val))) S40960.size (k2_off1_inb L r)) (fun _ => rfl)

/-- The indices of the stretch a tile works on: in the first call, and (two of them) in the second. -/
def set0 (L : grid0.Coords) : Finset S1310720.Idx := (tblS0 L).view.set
def set1 (L : grid2.Coords) (r : Fin 2) : Finset S2621440.Idx := (tblS1 L r).view.set
theorem set0_tbl (L : grid0.Coords) : (tblS0 L).view.set = set0 L := rfl
theorem set0_res (L : grid0.Coords) : (resS0 L).view.set = set0 L := rfl
theorem set1_tbl (L : grid2.Coords) (r : Fin 2) : (tblS1 L r).view.set = set1 L r := rfl
theorem set1_res (L : grid2.Coords) (r : Fin 2) : (resS1 L r).view.set = set1 L r := rfl

variable [FloatOps F]

/-! ## A tile's share of a call's operands -/

section Res

-- the edge sources and destinations as the calls find them (what @main's slices of `edge_index` hold)
variable (srcC : (d : Dev nD) → Buf (Elt F) (tLoc main_v1 d)) (dstC : (d : Dev nD) → Buf (Elt F) (tLoc main_v3 d))

/-- The read token of tile number `w`. -/
abbrev tok (w : Fin 32) : PosShare TreeShare := Transfers.shareTok fullShare 32 w

def tileRes0 (d : Dev nD) (L : grid0.Coords) : sProp 𝕄 :=
  iprop((∃ ft, tLoc main_v6 d ↦[set0 L]{fullShare} ft)
    ∗ (tLoc main_v1 d ↦{tok (wid0 L)} srcC d) ∗ (tLoc main_v3 d ↦{tok (wid0 L)} dstC d)
    ∗ ∃ fo, tLoc main_v7 d ↦[set0 L]{fullShare} fo)

def tileRes1 (d : Dev nD) (L : grid2.Coords) : sProp 𝕄 :=
  iprop((∃ ft, tLoc main_v13 d ↦[set1 L 0]{fullShare} ft)
    ∗ (∃ ft, tLoc main_v13 d ↦[set1 L 1]{fullShare} ft)
    ∗ (tLoc main_v1 d ↦{tok (wid2 L)} srcC d) ∗ (tLoc main_v3 d ↦{tok (wid2 L)} dstC d)
    ∗ (∃ fo, tLoc main_v14 d ↦[set1 L 0]{fullShare} fo)
    ∗ ∃ fo, tLoc main_v14 d ↦[set1 L 1]{fullShare} fo)

instance tileRes0_storable (d : Dev nD) (L : grid0.Coords) : BI.Storable (upEmb : UEmb _ 𝕄) (tileRes0 srcC dstC d L) := by
  unfold tileRes0; infer_instance
instance tileRes1_storable (d : Dev nD) (L : grid2.Coords) : BI.Storable (upEmb : UEmb _ 𝕄) (tileRes1 srcC dstC d L) := by
  unfold tileRes1; infer_instance

/-- The coordinates of task `(c, i)` of each call's grid. -/
def L0 (c : Fin ((K (F := F)).nCore 0)) (i : Fin ((K (F := F)).nSub 0)) : grid0.Coords := coordsV0 ⟨c.val, c.isLt⟩ ⟨i.val, i.isLt⟩
def L1 (c : Fin ((K (F := F)).nCore 1)) (i : Fin ((K (F := F)).nSub 1)) : grid2.Coords := coordsV2 ⟨c.val, c.isLt⟩ ⟨i.val, i.isLt⟩

/-- What the handshakes carry. -/
def P : (K (F := F)).Pay (nD := nD) (Val := Elt F) (Name := ℕ) (U := UU) where
  st := fun q d c => match q with
    | 0 => bigSep Finset.univ fun i : Fin ((K (F := F)).nSub 0) => tileRes0 srcC dstC d (L0 c i)
    | 1 => bigSep Finset.univ fun i : Fin ((K (F := F)).nSub 1) => tileRes1 srcC dstC d (L1 c i)
  dn := fun q d c => match q with
    | 0 => bigSep Finset.univ fun i : Fin ((K (F := F)).nSub 0) => tileRes0 srcC dstC d (L0 c i)
    | 1 => bigSep Finset.univ fun i : Fin ((K (F := F)).nSub 1) => tileRes1 srcC dstC d (L1 c i)
  go := fun q d c i => match q with
    | 0 => tileRes0 srcC dstC d (L0 c i)
    | 1 => tileRes1 srcC dstC d (L1 c i)
  td := fun q d c i => match q with
    | 0 => tileRes0 srcC dstC d (L0 c i)
    | 1 => tileRes1 srcC dstC d (L1 c i)
  x := fun _ _ => iprop(emp)

instance P_storable : (P (F := F) srcC dstC).IsStorable where
  st q d c := match q with
    | 0 => (inferInstance : BI.Storable (upEmb : UEmb _ 𝕄) (bigSep Finset.univ fun i : Fin ((K (F := F)).nSub 0) => tileRes0 srcC dstC d (L0 c i)))
    | 1 => (inferInstance : BI.Storable (upEmb : UEmb _ 𝕄) (bigSep Finset.univ fun i : Fin ((K (F := F)).nSub 1) => tileRes1 srcC dstC d (L1 c i)))
  dn q d c := match q with
    | 0 => (inferInstance : BI.Storable (upEmb : UEmb _ 𝕄) (bigSep Finset.univ fun i : Fin ((K (F := F)).nSub 0) => tileRes0 srcC dstC d (L0 c i)))
    | 1 => (inferInstance : BI.Storable (upEmb : UEmb _ 𝕄) (bigSep Finset.univ fun i : Fin ((K (F := F)).nSub 1) => tileRes1 srcC dstC d (L1 c i)))
  go q d c i := match q with
    | 0 => (inferInstance : BI.Storable (upEmb : UEmb _ 𝕄) (tileRes0 srcC dstC d (L0 c i)))
    | 1 => (inferInstance : BI.Storable (upEmb : UEmb _ 𝕄) (tileRes1 srcC dstC d (L1 c i)))
  td q d c i := match q with
    | 0 => (inferInstance : BI.Storable (upEmb : UEmb _ 𝕄) (tileRes0 srcC dstC d (L0 c i)))
    | 1 => (inferInstance : BI.Storable (upEmb : UEmb _ 𝕄) (tileRes1 srcC dstC d (L1 c i)))

omit [FloatOps F] in
theorem split_id (A : sProp 𝕄) : A ⊢ |={Set.univ}=> iprop(A ∗ (A -∗ A)) := by
  iintro H; imodintro
  isplitl [H]; · iexact H
  iintro H; iexact H

/-- A SparseCore's operands are its tiles' shares and its results theirs: nothing to move. -/
theorem vecSplit (q : Fin 2) : (K (F := F)).VecSplit' (P srcC dstC) q := by
  intro d c
  match q with
  | 0 => exact split_id _
  | 1 => exact split_id _

end Res

end Cert.Proof.KernelL

end
-- ==== Proof.KBLaunch.lean ====
/-
  The launch of the program: the launch element of the ghost state (the handshakes' rounds; every pipeline's staging
  cells funded for the region that will run it; the transfers' counters at nothing), how the final memory is read
  (the ten argument arrays held whole at their launch contents), and the launch theorem applied — from each call's task
  proved as one tile's obligation and @main proved on the TensorCore to every weakly fair execution of all 35 threads
  terminating with the arguments unchanged.
-/
import proofs.«211848_g47218870452992_cont_8to1c4_747_2_alg».proof.Proof.KBPay
import Idealize.ShloMosaic.Lib.Pipeline.Frame

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))
variable (m : (ℓ : Loc nD τ sig) → Buf (Elt F) ℓ) (ρ : Dev nD → PrngReg)

/-! ## The launch element -/

/-- Neither pipeline has a prefetched table. -/
abbrev adm : (p : Fin 2) → (pcfgs (F := F) p).Adm := fun p => (cfgs p).toPCfg_adm

/-- The handshakes' rounds, the staging cells' rounds, no transfer counted. -/
def u₀ : UU :=
  (initOf (K (F := F)).hsCells (K (F := F)).hsToks, (initOf (Pipeline.cells cfgs cellOf_inj) (Pipeline.launchToks cfgs cellOf_inj), 1))

/-- What @main's proof on device `d` starts from beside the launch's deal: each pipeline's staging cells' ghost state and
    duty tokens, for the region that runs it to allocate its invariants from. -/
def G (d : Dev nD) : sProp 𝕄 :=
  iprop((bigSep Finset.univ fun p : Fin 2 => Pipeline.cellsGhost cfgs (EP (F := F)) p d)
    ∗ bigSep Finset.univ fun p : Fin 2 => (Pipeline.toksInit cfgs (EP (F := F)) p d : sProp 𝕄))

omit [FloatOps F] in
theorem bigSep_emp' {I : Type} (s : Finset I) : (bigSep s fun _ => iprop(emp)) = (iprop(emp) : sProp 𝕄) := bigSep_emp_const s

omit [FloatOps F] in
/-- The staging cells' component is the left half of the right component. -/
theorem own_EP (x : UP) :
    (BI.own (((Emb.inl : Emb UP (UP × Counters)).trans (embR : Emb (UP × Counters) 𝕄)) x) : sProp 𝕄) ⊢ BI.own ((EP (F := F)) x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P srcC dstC).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (own_EP (F := F) _) $$ HP
  imod (Pipeline.fund_ghost cfgs (EP (F := F)) cellOf_inj) $$ HP' with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## What the claim reads at the end -/

/-- The ten argument arrays. -/
def argRefs : Finset (DevRef τ sig) :=
  {Proc.devRef .tc main_arg0, Proc.devRef .tc main_arg1, Proc.devRef .tc main_arg2, Proc.devRef .tc main_arg3, Proc.devRef .tc main_arg4,
   Proc.devRef .tc main_arg5, Proc.devRef .tc main_arg6, Proc.devRef .tc main_arg7, Proc.devRef .tc main_arg8, Proc.devRef .tc main_arg9}

/-- What @main leaves the claim: the arguments, whole, at their launch contents. -/
def FIN (d : Dev nD) : sProp 𝕄 := StableHlo.held (T d) argRefs (StableHlo.launchContents m d)

def fq (d : Dev nD) (s' : Phys nD τ sig (Elt F)) : Prop := ∀ b ∈ argRefs, s'.mem.mem ((d, b) : Loc nD τ sig) = m (d, b)

theorem hfin (d : Dev nD) (s' : Phys nD τ sig (Elt F)) : iprop(FIN m d ∗ SI s') ⊢ (⌜fq m d s'⌝ : sProp 𝕄) := by
  unfold FIN StableHlo.held
  iintro H
  ihave H' := (pointsTo_read_all argRefs (fun b => ((d, b) : Loc nD τ sig)) (fun b => m (d, b)) s') $$ H
  icases H' with ⟨%h, -⟩
  ipureintro; exact h

/-- The frame's post: on every device each argument array reads as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem hQ (s' : Phys nD τ sig (Elt F)) (h : ∀ d, fq m d s') : QC m (⟨⟩, s'.mem) := fun c =>
  ⟨h c (Proc.devRef .tc main_arg0) (by decide), h c (Proc.devRef .tc main_arg1) (by decide), h c (Proc.devRef .tc main_arg2) (by decide),
   h c (Proc.devRef .tc main_arg3) (by decide), h c (Proc.devRef .tc main_arg4) (by decide), h c (Proc.devRef .tc main_arg5) (by decide),
   h c (Proc.devRef .tc main_arg6) (by decide), h c (Proc.devRef .tc main_arg7) (by decide), h c (Proc.devRef .tc main_arg8) (by decide),
   h c (Proc.devRef .tc main_arg9) (by decide)⟩

/-! ## The launch theorem applied -/

/-- From one tile's task at each call and @main on the TensorCore: every weakly fair execution of the device's threads
    terminates, nothing faulting, and the argument arrays end as launched. -/
theorem run_of [∀ e, Nonempty (Elt F e)]
    (htile0 : (K (F := F)).TileObl (D (F := F)) 𝒱 (P srcC dstC) v₀ 0) (htile1 : (K (F := F)).TileObl (D (F := F)) 𝒱 (P srcC dstC) v₀ 1)
    (hmain : ∀ (κ : GSem nD τ sig → ℕ) (d : Dev nD),
      iprop((K (F := F)).ctx EH (P srcC dstC) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P srcC dstC) facts v₀
    (fun q hq => match q with | 0 => nomatch hq | 1 => nomatch hq)
    (fun q _ => match q with | 0 => htile0 | 1 => htile1)
    (fun q _ => SparseCore.Cfg.VecSplit.of_plain (vecSplit srcC dstC q))
    m ρ main (G (F := F)) (FIN m) (u₀ (F := F)) (sep_elim_left.trans (hu₀ srcC dstC)) hmain (fq m) (hfin m) (QC m) (hQ m)

end Cert.Proof.KernelL

end
-- ==== Proof.KBInv.lean ====
/-
  What @main's proof carries from one step to the next on the TensorCore: every unscoped buffer held whole, at contents
  not stated except where the run needs them — the ten arguments and the two rows of the edge list, which no later step
  writes, at what they hold after the first stretch. A host stretch that writes none of those keeps the invariant.
-/
import proofs.«211848_g47218870452992_cont_8to1c4_747_2_alg».proof.Proof.KBMain
import proofs.«211848_g47218870452992_cont_8to1c4_747_2_alg».proof.Proof.KBLaunch

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The stretches' side facts -/

theorem ops1_sub : (ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub .., StableHlo.reshape_bufs_sub ..⟩
theorem ops1_fresh : (ops1 : List (HloOp τ sig (Elt F))).Forall fun op => op.fresh = ∅ := by
  simp only [List.Forall]; repeat' constructor
/-- The references stretch 1 writes. -/
abbrev ops1_W : List (Ref sig .tc) := [main_v0, main_v1, main_v2, main_v3, main_v4, main_c, main_call0_v0, main_v5, main_v6]
theorem ops1_writes : (ops1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops2_sub : (ops2 : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub ..⟩
theorem ops2_fresh : (ops2 : List (HloOp τ sig (Elt F))).Forall fun op => op.fresh = ∅ := by
  simp only [List.Forall]; repeat' constructor
/-- The references stretch 2 writes. -/
abbrev ops2_W : List (Ref sig .tc) := [main_v8, main_v9, main_v10, main_v11]
theorem ops2_writes : (ops2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops3_sub : (ops3 : List (HloOp τ sig (Elt F))).Forall fun op => op.bufs ⊆ StableHlo.tcRefs τ sig :=
  StableHlo.reshape_bufs_sub ..
theorem ops3_fresh : (ops3 : List (HloOp τ sig (Elt F))).Forall fun op => op.fresh = ∅ := by
  simp only [List.Forall]; repeat' constructor
/-- The references stretch 3 writes. -/
abbrev ops3_W : List (Ref sig .tc) := [main_v13]
theorem ops3_writes : (ops3 : List (HloOp τ sig (Elt F))).Forall fun op => op.writes ⊆ (ops3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops4_sub : (ops4 : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub .., StableHlo.reshape_bufs_sub ..⟩
theorem ops4_fresh : (ops4 : List (HloOp τ sig (Elt F))).Forall fun op => op.fresh = ∅ := by
  simp only [List.Forall]; repeat' constructor
/-- The references stretch 4 writes. -/
abbrev ops4_W : List (Ref sig .tc) := [main_v15, main_v16, main_v17, main_v18, main_v19]
theorem ops4_writes : (ops4 : List (HloOp τ sig (Elt F))).Forall fun op => op.writes ⊆ (ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops5_sub : (ops5 : List (HloOp τ sig (Elt F))).Forall fun op => op.bufs ⊆ StableHlo.tcRefs τ sig :=
  StableHlo.reshape_bufs_sub ..
theorem ops5_fresh : (ops5 : List (HloOp τ sig (Elt F))).Forall fun op => op.fresh = ∅ := by
  simp only [List.Forall]; repeat' constructor
/-- The references stretch 5 writes. -/
abbrev ops5_W : List (Ref sig .tc) := [main_v21]
theorem ops5_writes : (ops5 : List (HloOp τ sig (Elt F))).Forall fun op => op.writes ⊆ (ops5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The invariant -/

variable (m : (ℓ : Loc nD τ sig) → Buf (Elt F) ℓ)

/-- The references whose contents the run needs to the end: the arguments, and the edge sources and destinations. -/
abbrev keepR : List (Ref sig .tc) :=
  [main_arg0, main_arg1, main_arg2, main_arg3, main_arg4, main_arg5, main_arg6, main_arg7, main_arg8, main_arg9, main_v1, main_v3]

/-- The device's buffers after the first stretch. -/
def W1 (d : Dev nD) : Valuation τ sig (Elt F) := StableHlo.after ops1 (StableHlo.launchContents m d)

/-- The edge sources and destinations, as both aggregations find them. -/
def srcC (d : Dev nD) : Buf (Elt F) (tLoc main_v1 d) := W1 m d (Proc.devRef .tc main_v1)
def dstC (d : Dev nD) : Buf (Elt F) (tLoc main_v3 d) := W1 m d (Proc.devRef .tc main_v3)

/-- Every unscoped buffer of the TensorCore held whole, the kept ones at their contents after the first stretch. -/
def Inv (d : Dev nD) : sProp 𝕄 :=
  iprop(∃ W : Valuation τ sig (Elt F), ⌜∀ r ∈ keepR, W (Proc.devRef .tc r) = W1 m d (Proc.devRef .tc r)⌝ ∗ StableHlo.held (T d) (Pipeline.ucRefs τ sig) W)

/-- The arguments are as launched after the first stretch: it writes none of them. -/
theorem W1_arg (d : Dev nD) (r : Ref sig .tc) (h : r ∉ ops1_W) : W1 m d (Proc.devRef .tc r) = m (d, Proc.devRef .tc r) :=
  StableHlo.after_of_writes_sub ops1 _ ops1_writes h

variable {Λ : Labels} {defs : Defs nD τ sig (Elt F) Λ} (𝒱' : Variants) (bd : Option 𝒱'.V)

/-- A stretch of host operations that writes no kept reference runs from the invariant to the invariant. -/
theorem inv_stretch (d : Dev nD) (ops : List (HloOp τ sig (Elt F))) (Wl : List (Ref sig .tc))
    (hsub : ops.Forall fun op => op.bufs ⊆ StableHlo.tcRefs τ sig) (hfresh : ops.Forall fun op => op.fresh = ∅)
    (hwr : ops.Forall fun op => op.writes ⊆ (Wl.map (Proc.devRef (τ := τ) .tc)).toFinset) (hk : ∀ r ∈ keepR, r ∉ Wl)
    {β : Type} (k : PUnit → Prog (TpuEff nD τ sig (Elt F) Λ .tc) β) {Kp : β → sProp 𝕄} :
    iprop(boundary (d.tc : Thread nD τ) ∗ Inv m d)
      ⊢ iprop(((boundary (d.tc : Thread nD τ) ∗ Inv m d) -∗ wp frame (wpE defs 𝒱' d.tc bd) Set.univ (k ⟨⟩) Kp)
        -∗ wp frame (wpE defs 𝒱' d.tc bd) Set.univ (StableHlo.seq ops >>= k) Kp) := by
  unfold Inv
  iintro ⟨Hb, %W, %hW, Hh⟩ Hk
  iapply (StableHlo.wp_seq (defs := defs) 𝒱' bd Set.univ d (Pipeline.ucRefs τ sig) k ops
    (fun op h => Pipeline.sub_ucRefs op ((List.forall_iff_forall_mem.mp hsub) op h))
    (fun op h => (List.forall_iff_forall_mem.mp hfresh) op h) W) $$ [Hb Hh]
  · isplitl [Hb]; · iexact Hb
    iexact Hh
  iintro ⟨Hb, Hh⟩
  iapply Hk
  isplitl [Hb]; · iexact Hb
  iexists (StableHlo.after ops W); isplitr
  · ipureintro; intro r hr
    rw [StableHlo.after_of_writes_sub ops W hwr (hk r hr)]; exact hW r hr
  · iexact Hh

end Cert.Proof.KernelL

end
-- ==== Proof.KBHmain.lean ====
/-
  @main on the TensorCore, step by step: each host stretch by the host block rule, each aggregation by the call rule —
  the tiles' shares dealt out of the invariant's buffers and collected back into it —, each TensorCore layer by its
  region's step; the invariant carried throughout, and at the end the arguments read out of it as launched.
  The dealing and collecting around each aggregation and the two regions' steps are taken as stated here.
-/
import proofs.«211848_g47218870452992_cont_8to1c4_747_2_alg».proof.Proof.KBInv

set_option Elab.async false

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-- What rides beside the buffers: the TensorCore's own protocol's semaphores at zero, the generator register at some state. -/
def Aux (d : Dev nD) : sProp 𝕄 := iprop((K (F := F)).tcSems0 d ∗ ∃ r, prngReg d r)

/-- Pipeline `p`'s staging cells' ghost state and duty tokens on device `d`. -/
def ghost (p : Fin 2) (d : Dev nD) : sProp 𝕄 :=
  iprop(Pipeline.cellsGhost cfgs (EP (F := F)) p d ∗ (Pipeline.toksInit cfgs (EP (F := F)) p d : sProp 𝕄))

omit [FloatOps F] in
theorem G_split (d : Dev nD) : (G (F := F) d : sProp 𝕄) ⊢ iprop(ghost (F := F) 0 d ∗ ghost (F := F) 1 d) := by
  unfold G ghost
  rw [show (Finset.univ : Finset (Fin 2)) = {0, 1} by decide, SparseCore.bigSep_insert' (by decide), bigSep_singleton,
    SparseCore.bigSep_insert' (by decide), bigSep_singleton]
  iintro ⟨⟨Hg0, Hg1⟩, Ht0, Ht1⟩
  isplitl [Hg0 Ht0]
  · isplitl [Hg0] <;> iassumption
  · isplitl [Hg1] <;> iassumption

/-- The arguments are read out of the invariant as launched. -/
theorem inv_fin (d : Dev nD) : (Inv m d : sProp 𝕄) ⊢ FIN m d := by
  unfold Inv FIN
  iintro ⟨%W, %hW, Hh⟩
  have hsub : argRefs ⊆ Pipeline.ucRefs τ sig := by decide
  have hc : ∀ b ∈ argRefs, W b = StableHlo.launchContents m d b := by
    intro b hb
    simp only [argRefs, Finset.mem_insert, Finset.mem_singleton] at hb
    rcases hb with rfl | rfl | rfl | rfl | rfl | rfl | rfl | rfl | rfl | rfl <;>
      exact (hW _ (by decide)).trans (W1_arg m d _ (by decide))
  ihave H2 := (Entails.of_eq (StableHlo.held_sub_split (T d) hsub W)) $$ Hh
  icases H2 with ⟨Ha, -⟩
  ihave Ha' := (Entails.of_eq (StableHlo.held_congr (T d) hc)) $$ Ha
  iexact Ha'

omit [FloatOps F] in
/-- The launch's unscoped buffers are the unscoped references held at the launch contents. -/
theorem launch_held (d : Dev nD) :
    (unscopedBufs d (fun b => m ((SparseCore.T d).loc b)) : sProp 𝕄) = StableHlo.held (SparseCore.T d) (Pipeline.ucRefs τ sig) (StableHlo.launchContents m d) :=
  Pipeline.unscopedBufs_held d (StableHlo.launchContents m d)

theorem hmain (Rest0 Rest1 : Dev nD → sProp 𝕄)
  (hdeal0 : ∀ d, (Inv m d : sProp 𝕄) ⊢ iprop((bigSep Finset.univ fun c : Fin ((K (F := F)).nCore 0) => (P (srcC m) (dstC m)).st 0 d c) ∗ Rest0 d))
  (hcoll0 : ∀ d, iprop((bigSep Finset.univ fun c : Fin ((K (F := F)).nCore 0) => (P (srcC m) (dstC m)).dn 0 d c) ∗ Rest0 d) ⊢ (Inv m d : sProp 𝕄))
  (hdeal1 : ∀ d, (Inv m d : sProp 𝕄) ⊢ iprop((bigSep Finset.univ fun c : Fin ((K (F := F)).nCore 1) => (P (srcC m) (dstC m)).st 1 d c) ∗ Rest1 d))
  (hcoll1 : ∀ d, iprop((bigSep Finset.univ fun c : Fin ((K (F := F)).nCore 1) => (P (srcC m) (dstC m)).dn 1 d c) ∗ Rest1 d) ⊢ (Inv m d : sProp 𝕄))
  (hreg0 : ∀ (κ : GSem nD τ sig → ℕ) (d : Dev nD) (Φ : PUnit → sProp 𝕄),
    iprop((K (F := F)).ctx EH (P (srcC m) (dstC m)) κ ∗ (K (F := F)).tcSt EH d 1 ∗ boundary (T d) ∗ Inv m d ∗ Aux (F := F) d ∗ ghost (F := F) 0 d
        ∗ (((K (F := F)).tcSt EH d 1 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 0)) ())) Φ)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ)
    (κ : GSem nD τ sig → ℕ) (d : Dev nD) :
    iprop((K (F := F)).ctx EH (P (srcC m) (dstC m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rewrite [main_eq]
  iintro ⟨#Hctx, Hst, ⟨Hb, Hh, Hsems, Hprng⟩, HG⟩
  ihave Hh := (Entails.of_eq (launch_held (F := F) m d)) $$ Hh
  ihave HG' := (G_split (F := F) d) $$ HG
  icases HG' with ⟨Hg0, Hg1⟩
  -- stretch 1, from the launch contents: it establishes the invariant
  iapply (StableHlo.wp_seq (defs := (K (F := F)).defs (D (F := F))) 𝒱 none Set.univ d (Pipeline.ucRefs τ sig) _ ops1
    (fun op h => Pipeline.sub_ucRefs op ((List.forall_iff_forall_mem.mp ops1_sub) op h))
    (fun op h => (List.forall_iff_forall_mem.mp ops1_fresh) op h) (StableHlo.launchContents m d)) $$ [Hb Hh]
  · isplitl [Hb]; · iexact Hb
    iexact Hh
  iintro ⟨Hb, Hh⟩
  ihave HI := (show (StableHlo.held (T d) (Pipeline.ucRefs τ sig) (StableHlo.after ops1 (StableHlo.launchContents m d)) : sProp 𝕄) ⊢ Inv m d from by
    unfold Inv; iintro H; iexists (W1 m d); isplitr
    · ipureintro; exact fun _ _ => rfl
    · iexact H) $$ Hh
  -- the first aggregation
  rw [wp_bind]
  ihave Hd := (hdeal0 d) $$ HI
  icases Hd with ⟨Hops, Hrest⟩
  iapply ((K (F := F)).wp_run (D (F := F)) 𝒱 (EH := EH) (P := P (srcC m) (dstC m)) κ d 0) $$ [Hst Hops Hb Hrest Hsems Hprng Hg0 Hg1]
  isplitr; · iexact Hctx
  isplitl [Hst]; · iexact Hst
  isplitl [Hops]; · iexact Hops
  iintro ⟨Hst, Hdn⟩
  ihave HI := (hcoll0 d) $$ [Hdn Hrest]
  · isplitl [Hdn] <;> iassumption
  -- stretch 2
  iapply (inv_stretch (defs := (K (F := F)).defs (D (F := F))) m 𝒱 none d ops2 ops2_W ops2_sub ops2_fresh ops2_writes (by decide)) $$ [Hb HI]
  · isplitl [Hb] <;> iassumption
  iintro ⟨Hb, HI⟩
  -- the first layer
  rw [wp_bind]
  iapply (hreg0 κ d) $$ [Hst Hb HI Hsems Hprng Hg0 Hg1]
  isplitr; · iexact Hctx
  isplitl [Hst]; · iexact Hst
  isplitl [Hb]; · iexact Hb
  isplitl [HI]; · iexact HI
  isplitl [Hsems Hprng]
  · unfold Aux; isplitl [Hsems]; · iexact Hsems
    iexists _; iexact Hprng
  isplitl [Hg0]; · iexact Hg0
  iintro ⟨Hst, Hb, HI, Haux⟩
  -- stretch 3
  iapply (inv_stretch (defs := (K (F := F)).defs (D (F := F))) m 𝒱 none d ops3 ops3_W ops3_sub ops3_fresh ops3_writes (by decide)) $$ [Hb HI]
  · isplitl [Hb] <;> iassumption
  iintro ⟨Hb, HI⟩
  -- the second aggregation
  rw [wp_bind]
  ihave Hd := (hdeal1 d) $$ HI
  icases Hd with ⟨Hops, Hrest⟩
  iapply ((K (F := F)).wp_run (D (F := F)) 𝒱 (EH := EH) (P := P (srcC m) (dstC m)) κ d 1) $$ [Hst Hops Hb Hrest Haux Hg1]
  isplitr; · iexact Hctx
  isplitl [Hst]; · iexact Hst
  isplitl [Hops]; · iexact Hops
  iintro ⟨Hst, Hdn⟩
  ihave HI := (hcoll1 d) $$ [Hdn Hrest]
  · isplitl [Hdn] <;> iassumption
  -- stretch 4
  iapply (inv_stretch (defs := (K (F := F)).defs (D (F := F))) m 𝒱 none d ops4 ops4_W ops4_sub ops4_fresh ops4_writes (by decide)) $$ [Hb HI]
  · isplitl [Hb] <;> iassumption
  iintro ⟨Hb, HI⟩
  -- the head
  rw [wp_bind]
  iapply (hreg1 κ d) $$ [Hst Hb HI Haux Hg1]
  isplitr; · iexact Hctx
  isplitl [Hst]; · iexact Hst
  isplitl [Hb]; · iexact Hb
  isplitl [HI]; · iexact HI
  isplitl [Haux]; · iexact Haux
  isplitl [Hg1]; · iexact Hg1
  iintro ⟨Hst, Hb, HI, Haux⟩
  -- stretch 5, and the return
  rw [show (StableHlo.seq ops5 : Prog (TpuEff nD τ sig (Elt F) _ .tc) PUnit) = StableHlo.seq ops5 >>= pure from (bind_pure _).symm]
  iapply (inv_stretch (defs := (K (F := F)).defs (D (F := F))) m 𝒱 none d ops5 ops5_W ops5_sub ops5_fresh ops5_writes (by decide)) $$ [Hb HI]
  · isplitl [Hb] <;> iassumption
  iintro ⟨Hb, HI⟩
  rw [wp_pure]; imodintro
  isplitl [Hst]; · iexact Hst
  iapply (inv_fin m d); iexact HI

end Cert.Proof.KernelL

end
-- ==== Proof.KBTile0.lean ====
/-
  One tile's task of the first aggregation call, run once at a symbolic tile.

  The tile copies its four rows of the table (a contiguous stretch of 4 · 10240 words) into its table scratch, fills its
  accumulator with zeros sixteen words at a time, and then, chunk by chunk of 2000 edges, copies the chunk's sources and
  destinations into two index scratches and, group by group of sixteen edges and row by row, adds the table scratch's
  word at (source + 10240 · row) onto the accumulator's word at (destination + 10240 · row); at the end it copies the
  accumulator out to its stretch of the result.

  Every copy is started and awaited at once on a semaphore of its own, so the transfers need no schedule: each is a step
  of the symbolic run, its wait admissible because the tile owes nothing at the kernels' index. The three counted loops
  go by invariants: the zero-fill holds the accumulator at some contents; the chunk loop holds the two edge lists at
  their read shares, the four scratches at some contents and the chunk semaphores at zero; the group loop holds the two
  index scratches at words that all name nodes (below 10000) and the float scratches at some contents. The one fact about
  data the run needs is that each index the body computes, a node number plus a row's start (at most 3 · 10240), is
  below 4 · 10240: what a chunk's copy lands in an index scratch are words of the edge lists, which name nodes. An
  indexed load is a load of the whole table scratch, an indexed add-store a load and a store of the whole accumulator.
-/
import proofs.«211848_g47218870452992_cont_8to1c4_747_2_alg».proof.Proof.KBCommon

noncomputable section

namespace Cert.Proof.KernelL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV0 (L : grid0.Coords) : Fin τ.nSC := (L 0).castLE hcore0
abbrev jV0 (L : grid0.Coords) : Fin τ.nSub := (L 1).castLE hsub0
abbrev tabW0 : Memref sig .scVector .hbm S1310720 .f32 := Memref.whole main_v6_scv
abbrev srcW : Memref sig .scVector .hbm S320000 .i32 := Memref.whole main_v1_scv
abbrev dstW : Memref sig .scVector .hbm S320000 .i32 := Memref.whole main_v3_scv
abbrev outW0 : Memref sig .scVector .hbm S1310720 .f32 := Memref.whole main_v7_scv
abbrev tabSl0 (L : grid0.Coords) : Memref sig .scVector .hbm S40960 .f32 := tabW0.slice (Rect.unit (s := S1310720) (k0_off1 L) S40960.size (k0_off1_inb L)) (fun _ => rfl)
abbrev outSl0 (L : grid0.Coords) : Memref sig .scVector .hbm S40960 .f32 := outW0.slice (Rect.unit (s := S1310720) (k0_off1 L) S40960.size (k0_off1_inb L)) (fun _ => rfl)

/-! ## The tile's scratch and semaphores among its own -/

abbrev t0cell0 (d : Dev nD) (L : grid0.Coords) : GSem nD τ sig := (V d (cV0 L) (jV0 L), .dma cc0_scoped0.sem)
abbrev t0cell1 (d : Dev nD) (L : grid0.Coords) : GSem nD τ sig := (V d (cV0 L) (jV0 L), .dma cc0_scoped1.sem)
abbrev t0cell2 (d : Dev nD) (L : grid0.Coords) : GSem nD τ sig := (V d (cV0 L) (jV0 L), .dma cc0_scoped2.sem)
abbrev t0cell3 (d : Dev nD) (L : grid0.Coords) : GSem nD τ sig := (V d (cV0 L) (jV0 L), .dma cc0_scoped3.sem)

omit [FloatOps F] in
theorem ownSems0_T0 (d : Dev nD) (L : grid0.Coords) :
    (ownSems0 (V d (cV0 L) (jV0 L)) : sProp 𝕄)
      = iprop(semVal (t0cell0 d L) 0 ∗ semVal (t0cell1 d L) 0 ∗ semVal (t0cell2 d L) 0 ∗ semVal (t0cell3 d L) 0
          ∗ bigSep (((((ownCells (V d (cV0 L) (jV0 L))).erase (t0cell0 d L)).erase (t0cell1 d L)).erase (t0cell2 d L)).erase (t0cell3 d L))
              fun g => semVal g 0) := by
  unfold SparseCore.Cfg.ownSems0
  rw [SparseCore.bigSep_erase' ((mem_ownCells (g := t0cell0 d L)).mpr ⟨rfl, by
      show (SemLoc.dma cc0_scoped0.sem : SemLoc sig).isScoped .scVector = true; decide⟩),
    SparseCore.bigSep_erase' (Finset.mem_erase.mpr ⟨by simp [t0cell0, t0cell1]; decide, (mem_ownCells (g := t0cell1 d L)).mpr ⟨rfl, by
      show (SemLoc.dma cc0_scoped1.sem : SemLoc sig).isScoped .scVector = true; decide⟩⟩),
    SparseCore.bigSep_erase' (Finset.mem_erase.mpr ⟨by simp [t0cell1, t0cell2]; decide, Finset.mem_erase.mpr ⟨by simp [t0cell0, t0cell2]; decide,
      (mem_ownCells (g := t0cell2 d L)).mpr ⟨rfl, by show (SemLoc.dma cc0_scoped2.sem : SemLoc sig).isScoped .scVector = true; decide⟩⟩⟩),
    SparseCore.bigSep_erase' (Finset.mem_erase.mpr ⟨by simp [t0cell2, t0cell3]; decide, Finset.mem_erase.mpr ⟨by simp [t0cell1, t0cell3]; decide, Finset.mem_erase.mpr ⟨by simp [t0cell0, t0cell3]; decide,
      (mem_ownCells (g := t0cell3 d L)).mpr ⟨rfl, by show (SemLoc.dma cc0_scoped3.sem : SemLoc sig).isScoped .scVector = true; decide⟩⟩⟩⟩)]

omit [FloatOps F] in
theorem ownBufs_T0 (d : Dev nD) (L : grid0.Coords) :
    (ownBufs (V d (cV0 L) (jV0 L)) : sProp 𝕄)
      = iprop((∃ f, (V d (cV0 L) (jV0 L)).loc cc0_scratch0 ↦{fullShare} f) ∗ (∃ f, (V d (cV0 L) (jV0 L)).loc cc0_scratch1 ↦{fullShare} f)
          ∗ (∃ f, (V d (cV0 L) (jV0 L)).loc cc0_scratch2 ↦{fullShare} f) ∗ (∃ f, (V d (cV0 L) (jV0 L)).loc cc0_scratch3 ↦{fullShare} f)
          ∗ bigSep (((((ownRefs (τ := τ) (.scVector (cV0 L) (jV0 L))).erase ((Proc.scVector (cV0 L) (jV0 L)).devRef cc0_scratch0)).erase
              ((Proc.scVector (cV0 L) (jV0 L)).devRef cc0_scratch1)).erase ((Proc.scVector (cV0 L) (jV0 L)).devRef cc0_scratch2)).erase ((Proc.scVector (cV0 L) (jV0 L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV0 L) (jV0 L))
    (b := (Proc.scVector (cV0 L) (jV0 L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV0 L) (jV0 L)) (b := (Proc.scVector (cV0 L) (jV0 L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV0 L) (jV0 L)) (b := (Proc.scVector (cV0 L) (jV0 L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV0 L) (jV0 L)) (b := (Proc.scVector (cV0 L) (jV0 L)).devRef cc0_scratch3) rfl⟩⟩⟩)]

abbrev t0sc0 : Memref sig .scVector .vmem S40960 .f32 := Memref.whole cc0_scratch0
abbrev t0sc1 : Memref sig .scVector .vmem S40960 .f32 := Memref.whole cc0_scratch1
abbrev t0sc2 : Memref sig .scVector .vmem S2000 .i32 := Memref.whole cc0_scratch2
abbrev t0sc3 : Memref sig .scVector .vmem S2000 .i32 := Memref.whole cc0_scratch3

/-! ## The scratch as the body's memrefs address it -/

omit [FloatOps F] in
theorem pts_t0sc0 (d : Dev nD) (L : grid0.Coords) (f : Buf (Elt F) ((V d (cV0 L) (jV0 L)).loc cc0_scratch0)) :
    (((Memref.whole cc0_scratch0 : Memref sig .scVector .vmem S40960 .f32)).view.loc (V d (cV0 L) (jV0 L)) ↦{fullShare} f : sProp 𝕄) = (V d (cV0 L) (jV0 L)).loc cc0_scratch0 ↦{fullShare} f := rfl
omit [FloatOps F] in
theorem pts_t0sc1 (d : Dev nD) (L : grid0.Coords) (f : Buf (Elt F) ((V d (cV0 L) (jV0 L)).loc cc0_scratch1)) :
    (((Memref.whole cc0_scratch1 : Memref sig .scVector .vmem S40960 .f32)).view.loc (V d (cV0 L) (jV0 L)) ↦{fullShare} f : sProp 𝕄) = (V d (cV0 L) (jV0 L)).loc cc0_scratch1 ↦{fullShare} f := rfl
omit [FloatOps F] in
theorem pts_t0sc2 (d : Dev nD) (L : grid0.Coords) (f : Buf (Elt F) ((V d (cV0 L) (jV0 L)).loc cc0_scratch2)) :
    (((Memref.whole cc0_scratch2 : Memref sig .scVector .vmem S2000 .i32)).view.loc (V d (cV0 L) (jV0 L)) ↦{fullShare} f : sProp 𝕄) = (V d (cV0 L) (jV0 L)).loc cc0_scratch2 ↦{fullShare} f := rfl
omit [FloatOps F] in
theorem pts_t0sc3 (d : Dev nD) (L : grid0.Coords) (f : Buf (Elt F) ((V d (cV0 L) (jV0 L)).loc cc0_scratch3)) :
    (((Memref.whole cc0_scratch3 : Memref sig .scVector .vmem S2000 .i32)).view.loc (V d (cV0 L) (jV0 L)) ↦{fullShare} f : sProp 𝕄) = (V d (cV0 L) (jV0 L)).loc cc0_scratch3 ↦{fullShare} f := rfl

/-! ## The loops' invariants -/

/-- The zero-fill: the accumulator at some contents. -/
def t0inv1 (d : Dev nD) (L : grid0.Coords) (_ : Nat) (_ : BitVec 32) : sProp 𝕄 :=
  iprop(∃ f, t0sc1.view.loc (V d (cV0 L) (jV0 L)) ↦{fullShare} f)

/-- A chunk's groups: the two index scratches at words that name nodes, the table scratch and the accumulator at some contents. -/
def t0inv3 (d : Dev nD) (L : grid0.Coords) (_ : Nat) (_ : BitVec 32) : sProp 𝕄 :=
  iprop((∃ g, ⌜∀ j, (g j).toNat < 10000⌝ ∗ t0sc2.view.loc (V d (cV0 L) (jV0 L)) ↦{fullShare} g)
    ∗ (∃ g, ⌜∀ j, (g j).toNat < 10000⌝ ∗ t0sc3.view.loc (V d (cV0 L) (jV0 L)) ↦{fullShare} g)
    ∗ (∃ f, t0sc0.view.loc (V d (cV0 L) (jV0 L)) ↦{fullShare} f) ∗ (∃ f, t0sc1.view.loc (V d (cV0 L) (jV0 L)) ↦{fullShare} f))

/-- The chunks: the edge lists at their read shares, the four scratches at some contents, the two chunk semaphores at zero, and what the tile owes. -/
def t0inv2 (d : Dev nD) (L : grid0.Coords) (q : PosShare TreeShare) (fs : Buf (Elt F) (srcW.view.loc (V d (cV0 L) (jV0 L)))) (fd : Buf (Elt F) (dstW.view.loc (V d (cV0 L) (jV0 L))))
    (O : CellTallies nD τ sig (HIx 2)) (W : Waits sig (HIx 2)) (_ : Nat) (_ : BitVec 32) : sProp 𝕄 :=
  iprop(Transfers.MayWaits (V d (cV0 L) (jV0 L)) (none : HIx 2) O
    ∗ (srcW.view.loc (V d (cV0 L) (jV0 L)) ↦{q} fs) ∗ (dstW.view.loc (V d (cV0 L) (jV0 L)) ↦{q} fd)
    ∗ (∃ f, t0sc0.view.loc (V d (cV0 L) (jV0 L)) ↦{fullShare} f) ∗ (∃ f, t0sc1.view.loc (V d (cV0 L) (jV0 L)) ↦{fullShare} f)
    ∗ (∃ f, t0sc2.view.loc (V d (cV0 L) (jV0 L)) ↦{fullShare} f) ∗ (∃ f, t0sc3.view.loc (V d (cV0 L) (jV0 L)) ↦{fullShare} f)
    ∗ semVal (V d (cV0 L) (jV0 L), SemLoc.dma cc0_scoped1.sem) 0 ∗ semVal (V d (cV0 L) (jV0 L), SemLoc.dma cc0_scoped2.sem) 0
    ∗ ∃ W', ⌜∀ p ∈ W', p ∈ W ∨ p.2 = none⌝ ∗ owes (V d (cV0 L) (jV0 L)) O W')

/-! ## The checks: an index word below 10000, offset by a row's start, is inside the four rows -/

theorem idx_lt (v : IVec S16 32) (c : BitVec 32) (hc : c.toNat ≤ 30720) (hv : ∀ x, (v x).toNat < 10000) :
    ∀ a x, ((![addi v (broadcast S16 c)] : Fin 1 → IVec S16 32) a x).toNat < S40960.size a := by
  intro a x
  obtain rfl : a = 0 := Subsingleton.elim _ _
  show (v x + c).toNat < 40960
  have := hv x
  rw [BitVec.toNat_add]
  omega

/-- A group's sixteen words, loaded from an index scratch whose words all name nodes, name nodes. -/
theorem t0rd2_lt (d : Dev nD) (L : grid0.Coords) (g : Buf (Elt F) (t0sc2.view.loc (V d (cV0 L) (jV0 L)))) (hg : ∀ j, (g j).toNat < 10000) (k : Fin k0_t3_loop.trips) :
    ∀ x, (t0sc2.view.readAt (Elt F) (Rect.unit (s := S2000) (k0_off4 k) S16.size (k0_off4_inb k)).toLoadRect g x).toNat < 10000 := fun _ => hg _
theorem t0rd3_lt (d : Dev nD) (L : grid0.Coords) (g : Buf (Elt F) (t0sc3.view.loc (V d (cV0 L) (jV0 L)))) (hg : ∀ j, (g j).toNat < 10000) (k : Fin k0_t3_loop.trips) :
    ∀ x, (t0sc3.view.readAt (Elt F) (Rect.unit (s := S2000) (k0_off4 k) S16.size (k0_off4_inb k)).toLoadRect g x).toNat < 10000 := fun _ => hg _

theorem t0chk1_of (v : Vec F S16 .i32) (hv : ∀ x, (v x).toNat < 10000) : k0_chk1 (k0_pay2 (F := F) v) := idx_lt v 0#32 (by decide) hv
theorem t0chk2_of (v : Vec F S16 .i32) (hv : ∀ x, (v x).toNat < 10000) : k0_chk2 (k0_pay3 (F := F) v) := idx_lt v 0#32 (by decide) hv
theorem t0chk3_of (v : Vec F S16 .i32) (hv : ∀ x, (v x).toNat < 10000) : k0_chk3 (k0_pay4 (F := F) v) := idx_lt v 10240#32 (by decide) hv
theorem t0chk4_of (v : Vec F S16 .i32) (hv : ∀ x, (v x).toNat < 10000) : k0_chk4 (k0_pay5 (F := F) v) := idx_lt v 10240#32 (by decide) hv
theorem t0chk5_of (v : Vec F S16 .i32) (hv : ∀ x, (v x).toNat < 10000) : k0_chk5 (k0_pay6 (F := F) v) := idx_lt v 20480#32 (by decide) hv
theorem t0chk6_of (v : Vec F S16 .i32) (hv : ∀ x, (v x).toNat < 10000) : k0_chk6 (k0_pay7 (F := F) v) := idx_lt v 20480#32 (by decide) hv
theorem t0chk7_of (v : Vec F S16 .i32) (hv : ∀ x, (v x).toNat < 10000) : k0_chk7 (k0_pay8 (F := F) v) := idx_lt v 30720#32 (by decide) hv
theorem t0chk8_of (v : Vec F S16 .i32) (hv : ∀ x, (v x).toNat < 10000) : k0_chk8 (k0_pay9 (F := F) v) := idx_lt v 30720#32 (by decide) hv

/-- An index scratch overwritten whole by words that name nodes holds words that name nodes. -/
theorem t0land2 (d : Dev nD) (L : grid0.Coords) (i : Buf (Elt F) (t0sc2.view.loc (V d (cV0 L) (jV0 L)))) (w : Vec F S2000 .i32) (hw : ∀ x, (w x).toNat < 10000) :
    (t0sc2.view.loc (V d (cV0 L) (jV0 L)) ↦{fullShare} View.write (Elt F) (Memref.whole cc0_scratch2).view i w Finset.univ : sProp 𝕄)
      ⊢ ∃ g, ⌜∀ j, (g j).toNat < 10000⌝ ∗ t0sc2.view.loc (V d (cV0 L) (jV0 L)) ↦{fullShare} g := by
  have e : View.write (Elt F) (Memref.whole cc0_scratch2).view i w Finset.univ = w := View.write_whole_univ _ _ _
  iintro H
  iexists (View.write (Elt F) (Memref.whole cc0_scratch2).view i w Finset.univ); isplitr
  · ipureintro; intro j
    rw [e]; exact hw j
  · iexact H
theorem t0land3 (d : Dev nD) (L : grid0.Coords) (i : Buf (Elt F) (t0sc3.view.loc (V d (cV0 L) (jV0 L)))) (w : Vec F S2000 .i32) (hw : ∀ x, (w x).toNat < 10000) :
    (t0sc3.view.loc (V d (cV0 L) (jV0 L)) ↦{fullShare} View.write (Elt F) (Memref.whole cc0_scratch3).view i w Finset.univ : sProp 𝕄)
      ⊢ ∃ g, ⌜∀ j, (g j).toNat < 10000⌝ ∗ t0sc3.view.loc (V d (cV0 L) (jV0 L)) ↦{fullShare} g := by
  have e : View.write (Elt F) (Memref.whole cc0_scratch3).view i w Finset.univ = w := View.write_whole_univ _ _ _
  iintro H
  iexists (View.write (Elt F) (Memref.whole cc0_scratch3).view i w Finset.univ); isplitr
  · ipureintro; intro j
    rw [e]; exact hw j
  · iexact H

theorem tile_body0 (d : Dev nD) (L : grid0.Coords) (hF : (K (F := F)).Facts) (q : PosShare TreeShare)
    (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L)))) (fo : Buf (Elt F) ((outSl0 L).view.loc (V d (cV0 L) (jV0 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
            ∗ ((outSl0 L).view.loc (V d (cV0 L) (jV0 L)) ↦[(outSl0 L).view.set]{fullShare} fo))
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop((((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
              ∗ ∃ f, (outSl0 L).view.loc (V d (cV0 L) (jV0 L)) ↦[(outSl0 L).view.set]{fullShare} f)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [cc0_body_eq_skeleton]; unfold cc0_body_skel
  rw [(K (F := F)).scopedBufs_V hF d (cV0 L) (jV0 L), SparseCore.Cfg.scopedSems0_V (Val := Elt F) d (cV0 L) (jV0 L), ownSems0_T0, ownBufs_T0]
  iintro ⟨#Hlv, -, ⟨Ht, Hs, Hd, Ho⟩, ⟨⟨%f0, H0⟩, ⟨%f1, H1⟩, ⟨%f2, H2⟩, ⟨%f3, H3⟩, Hbufs⟩, ⟨Hsem0, Hsem1, Hsem2, Hsem3, Hsems⟩, HO⟩
  ihave Hmw := ((K (F := F)).mayWaits_none (thr := V d (cV0 L) (jV0 L)) hO) $$ Hlv
  ihave H0' := (Entails.of_eq (pts_t0sc0 (F := F) d L _).symm) $$ H0
  ihave H1' := (Entails.of_eq (pts_t0sc1 (F := F) d L _).symm) $$ H1
  ihave H2' := (Entails.of_eq (pts_t0sc2 (F := F) d L _).symm) $$ H2
  ihave H3' := (Entails.of_eq (pts_t0sc3 (F := F) d L _).symm) $$ H3
  -- the table's four rows into the table scratch
  sl_exec
  -- the zero-fill
  sl_for (t0inv1 (F := F) d L) $$ [H1']
  case region =>
    intro k _
    unfold t0inv1
    iintro ⟨%f, H⟩
    sl_exec
    sl_step
    iexists _; iexact H
  · unfold t0inv1; iexists _; iexact H1'
  iintro %_ HI
  unfold t0inv1
  icases HI with ⟨%f1', H1'⟩
  -- the chunks
  sl_for (t0inv2 (F := F) d L q fs fd O W) $$ [Hmw Hs Hd H0' H1' H2' H3' Hsem1 Hsem2 HO]
  case region =>
    intro k _
    unfold t0inv2
    iintro ⟨#Hmw, Hs, Hd, ⟨%t0, H0⟩, ⟨%a1, H1⟩, ⟨%i2, H2⟩, ⟨%i3, H3⟩, Hsem1, Hsem2, %W', %hW', HO⟩
    -- the chunk's sources and destinations into the two index scratches
    sl_exec
    ihave H2 := (t0land2 (F := F) d L _ _ ?hw2) $$ H2
    case hw2 => exact fun _ => hs _
    ihave H3 := (t0land3 (F := F) d L _ _ ?hw3) $$ H3
    case hw3 => exact fun _ => hd _
    -- the chunk's groups
    sl_for (t0inv3 (F := F) d L) $$ [H2 H3 H0 H1]
    case region =>
      intro kk _
      unfold t0inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorLoadIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      rw [SparseCore.vectorStoreIdx_bind (c := V d (cV0 L) (jV0 L))]
      sl_exec (disch := first
        | sl_exact (t0chk1_of _ (t0rd2_lt d L g2 hg2 kk)) | sl_exact (t0chk2_of _ (t0rd3_lt d L g3 hg3 kk))
        | sl_exact (t0chk3_of _ (t0rd2_lt d L g2 hg2 kk)) | sl_exact (t0chk4_of _ (t0rd3_lt d L g3 hg3 kk))
        | sl_exact (t0chk5_of _ (t0rd2_lt d L g2 hg2 kk)) | sl_exact (t0chk6_of _ (t0rd3_lt d L g3 hg3 kk))
        | sl_exact (t0chk7_of _ (t0rd2_lt d L g2 hg2 kk)) | sl_exact (t0chk8_of _ (t0rd3_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t0inv3
      isplitl [H2]; · iexact H2
      isplitl [H3]; · iexact H3
      isplitl [H0]; · iexists _; iexact H0
      iexists _; iexact H1
    iintro %_ HI
    unfold t0inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem1]; · iexact Hsem1
    isplitl [Hsem2]; · iexact Hsem2
    iexists (insert (SemLoc.dma cc0_scoped2.sem, (default : HIx 2)) (insert (SemLoc.dma cc0_scoped1.sem, (default : HIx 2)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold t0inv2
    isplitr; · iexact Hmw
    isplitl [Hs]; · iexact Hs
    isplitl [Hd]; · iexact Hd
    isplitl [H0']; · iexists _; iexact H0'
    isplitl [H1']; · iexists _; iexact H1'
    isplitl [H2']; · iexists _; iexact H2'
    isplitl [H3']; · iexists _; iexact H3'
    isplitl [Hsem1]; · iexact Hsem1
    isplitl [Hsem2]; · iexact Hsem2
    iexists (insert (SemLoc.dma cc0_scoped0.sem, (default : HIx 2)) W); isplitr
    · ipureintro; intro p hp
      rcases Finset.mem_insert.mp hp with hp | hp
      · exact .inr (hp ▸ rfl)
      · exact .inl hp
    · iexact HO
  iintro %_ HI
  unfold t0inv2
  icases HI with ⟨-, Hs, Hd, ⟨%t0, H0⟩, ⟨%a1, H1⟩, ⟨%i2, H2⟩, ⟨%i3, H3⟩, Hsem1, Hsem2, %W', %hW', HO⟩
  -- the accumulator out to the tile's stretch of the result
  sl_exec
  sl_step
  isplitl [Ht Hs Hd Ho]
  · isplitl [Ht]; · iexact Ht
    isplitl [Hs]; · iexact Hs
    isplitl [Hd]; · iexact Hd
    iexists _; iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 2)) W'); isplitr
  · ipureintro; intro p hp
    rcases Finset.mem_insert.mp hp with hp | hp
    · exact .inr (hp ▸ rfl)
    · exact hW' p hp
  · iexact HO

end Cert.Proof.KernelL

end
-- ==== Proof.KBTile1.lean ====
/-
  One tile's task of the second aggregation call, run once at a symbolic tile.

  The task is the first call's, done twice: the table has 256 rows and a tile aggregates two stretches of four rows, one
  after the other, through the same four scratches. For each stretch it copies the stretch's 4 · 10240 words into its table
  scratch, fills its accumulator with zeros, and, chunk by chunk of 2000 edges, copies the chunk's sources and
  destinations into two index scratches and, group by group of sixteen edges and row by row, adds the table scratch's
  word at (source + 10240 · row) onto the accumulator's word at (destination + 10240 · row); then it copies the
  accumulator out to the stretch of the result. The second stretch's copy-in and zero-fill close the first half of the
  printed body; the second stretch's chunks and copy-out follow it.

  Every copy is started and awaited at once on a semaphore of its own (eight in all), so the transfers need no schedule.
  The six counted loops go by three invariants: a zero-fill holds the accumulator at some contents; a chunk loop, on
  its pass's two semaphores, holds the two edge lists at their read shares, the four scratches at some contents and
  the two semaphores at zero; a group loop holds the two index scratches at words that all name nodes (below 10000)
  and the float scratches at some contents. Each index the body computes, a node number plus a row's start (at most
  3 · 10240), is below 4 · 10240, because what a chunk's copy lands in an index scratch are words of the edge lists.
  An indexed load is a load of the whole table scratch, an indexed add-store a load and a store of the whole accumulator.
-/
import proofs.«211848_g47218870452992_cont_8to1c4_747_2_alg».proof.Proof.KBTile0

noncomputable section

namespace Cert.Proof.KernelL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV1 (L : grid2.Coords) : Fin τ.nSC := (L 0).castLE hcore2
abbrev jV1 (L : grid2.Coords) : Fin τ.nSub := (L 1).castLE hsub2
abbrev tabW1 : Memref sig .scVector .hbm S2621440 .f32 := Memref.whole main_v13_scv
abbrev outW1 : Memref sig .scVector .hbm S2621440 .f32 := Memref.whole main_v14_scv
abbrev tabSl1a (L : grid2.Coords) : Memref sig .scVector .hbm S40960 .f32 := tabW1.slice (Rect.unit (s := S2621440) (k2_off1 L 0#32) S40960.size (k2_off1_inb L 0)) (fun _ => rfl)
abbrev tabSl1b (L : grid2.Coords) : Memref sig .scVector .hbm S40960 .f32 := tabW1.slice (Rect.unit (s := S2621440) (k2_off1 L 128#32) S40960.size (k2_off1_inb L 1)) (fun _ => rfl)
abbrev outSl1a (L : grid2.Coords) : Memref sig .scVector .hbm S40960 .f32 := outW1.slice (Rect.unit (s := S2621440) (k2_off1 L 0#32) S40960.size (k2_off1_inb L 0)) (fun _ => rfl)
abbrev outSl1b (L : grid2.Coords) : Memref sig .scVector .hbm S40960 .f32 := outW1.slice (Rect.unit (s := S2621440) (k2_off1 L 128#32) S40960.size (k2_off1_inb L 1)) (fun _ => rfl)

/-! ## The tile's scratch and semaphores among its own -/

abbrev t1cell0 (d : Dev nD) (L : grid2.Coords) : GSem nD τ sig := (V d (cV1 L) (jV1 L), .dma cc2_scoped0.sem)
abbrev t1cell1 (d : Dev nD) (L : grid2.Coords) : GSem nD τ sig := (V d (cV1 L) (jV1 L), .dma cc2_scoped1.sem)
abbrev t1cell2 (d : Dev nD) (L : grid2.Coords) : GSem nD τ sig := (V d (cV1 L) (jV1 L), .dma cc2_scoped2.sem)
abbrev t1cell3 (d : Dev nD) (L : grid2.Coords) : GSem nD τ sig := (V d (cV1 L) (jV1 L), .dma cc2_scoped3.sem)
abbrev t1cell4 (d : Dev nD) (L : grid2.Coords) : GSem nD τ sig := (V d (cV1 L) (jV1 L), .dma cc2_scoped4.sem)
abbrev t1cell5 (d : Dev nD) (L : grid2.Coords) : GSem nD τ sig := (V d (cV1 L) (jV1 L), .dma cc2_scoped5.sem)
abbrev t1cell6 (d : Dev nD) (L : grid2.Coords) : GSem nD τ sig := (V d (cV1 L) (jV1 L), .dma cc2_scoped6.sem)
abbrev t1cell7 (d : Dev nD) (L : grid2.Coords) : GSem nD τ sig := (V d (cV1 L) (jV1 L), .dma cc2_scoped7.sem)

omit [FloatOps F] in
theorem ownSems0_T1 (d : Dev nD) (L : grid2.Coords) :
    (ownSems0 (V d (cV1 L) (jV1 L)) : sProp 𝕄)
      = iprop(semVal (t1cell0 d L) 0 ∗ semVal (t1cell1 d L) 0 ∗ semVal (t1cell2 d L) 0 ∗ semVal (t1cell3 d L) 0 ∗ semVal (t1cell4 d L) 0 ∗ semVal (t1cell5 d L) 0 ∗ semVal (t1cell6 d L) 0 ∗ semVal (t1cell7 d L) 0
          ∗ bigSep (((((((((ownCells (V d (cV1 L) (jV1 L))).erase (t1cell0 d L)).erase (t1cell1 d L)).erase (t1cell2 d L)).erase (t1cell3 d L)).erase (t1cell4 d L)).erase (t1cell5 d L)).erase (t1cell6 d L)).erase (t1cell7 d L))
              fun g => semVal g 0) := by
  unfold SparseCore.Cfg.ownSems0
  rw [SparseCore.bigSep_erase' ((mem_ownCells (g := t1cell0 d L)).mpr ⟨rfl, by show (SemLoc.dma cc2_scoped0.sem : SemLoc sig).isScoped .scVector = true; decide⟩),
    SparseCore.bigSep_erase' (Finset.mem_erase.mpr ⟨by simp [t1cell0, t1cell1]; decide, (mem_ownCells (g := t1cell1 d L)).mpr ⟨rfl, by show (SemLoc.dma cc2_scoped1.sem : SemLoc sig).isScoped .scVector = true; decide⟩⟩),
    SparseCore.bigSep_erase' (Finset.mem_erase.mpr ⟨by simp [t1cell1, t1cell2]; decide, Finset.mem_erase.mpr ⟨by simp [t1cell0, t1cell2]; decide, (mem_ownCells (g := t1cell2 d L)).mpr ⟨rfl, by show (SemLoc.dma cc2_scoped2.sem : SemLoc sig).isScoped .scVector = true; decide⟩⟩⟩),
    SparseCore.bigSep_erase' (Finset.mem_erase.mpr ⟨by simp [t1cell2, t1cell3]; decide, Finset.mem_erase.mpr ⟨by simp [t1cell1, t1cell3]; decide, Finset.mem_erase.mpr ⟨by simp [t1cell0, t1cell3]; decide, (mem_ownCells (g := t1cell3 d L)).mpr ⟨rfl, by show (SemLoc.dma cc2_scoped3.sem : SemLoc sig).isScoped .scVector = true; decide⟩⟩⟩⟩),
    SparseCore.bigSep_erase' (Finset.mem_erase.mpr ⟨by simp [t1cell3, t1cell4]; decide, Finset.mem_erase.mpr ⟨by simp [t1cell2, t1cell4]; decide, Finset.mem_erase.mpr ⟨by simp [t1cell1, t1cell4]; decide, Finset.mem_erase.mpr ⟨by simp [t1cell0, t1cell4]; decide, (mem_ownCells (g := t1cell4 d L)).mpr ⟨rfl, by show (SemLoc.dma cc2_scoped4.sem : SemLoc sig).isScoped .scVector = true; decide⟩⟩⟩⟩⟩),
    SparseCore.bigSep_erase' (Finset.mem_erase.mpr ⟨by simp [t1cell4, t1cell5]; decide, Finset.mem_erase.mpr ⟨by simp [t1cell3, t1cell5]; decide, Finset.mem_erase.mpr ⟨by simp [t1cell2, t1cell5]; decide, Finset.mem_erase.mpr ⟨by simp [t1cell1, t1cell5]; decide, Finset.mem_erase.mpr ⟨by simp [t1cell0, t1cell5]; decide, (mem_ownCells (g := t1cell5 d L)).mpr ⟨rfl, by show (SemLoc.dma cc2_scoped5.sem : SemLoc sig).isScoped .scVector = true; decide⟩⟩⟩⟩⟩⟩),
    SparseCore.bigSep_erase' (Finset.mem_erase.mpr ⟨by simp [t1cell5, t1cell6]; decide, Finset.mem_erase.mpr ⟨by simp [t1cell4, t1cell6]; decide, Finset.mem_erase.mpr ⟨by simp [t1cell3, t1cell6]; decide, Finset.mem_erase.mpr ⟨by simp [t1cell2, t1cell6]; decide, Finset.mem_erase.mpr ⟨by simp [t1cell1, t1cell6]; decide, Finset.mem_erase.mpr ⟨by simp [t1cell0, t1cell6]; decide, (mem_ownCells (g := t1cell6 d L)).mpr ⟨rfl, by show (SemLoc.dma cc2_scoped6.sem : SemLoc sig).isScoped .scVector = true; decide⟩⟩⟩⟩⟩⟩⟩),
    SparseCore.bigSep_erase' (Finset.mem_erase.mpr ⟨by simp [t1cell6, t1cell7]; decide, Finset.mem_erase.mpr ⟨by simp [t1cell5, t1cell7]; decide, Finset.mem_erase.mpr ⟨by simp [t1cell4, t1cell7]; decide, Finset.mem_erase.mpr ⟨by simp [t1cell3, t1cell7]; decide, Finset.mem_erase.mpr ⟨by simp [t1cell2, t1cell7]; decide, Finset.mem_erase.mpr ⟨by simp [t1cell1, t1cell7]; decide, Finset.mem_erase.mpr ⟨by simp [t1cell0, t1cell7]; decide, (mem_ownCells (g := t1cell7 d L)).mpr ⟨rfl, by show (SemLoc.dma cc2_scoped7.sem : SemLoc sig).isScoped .scVector = true; decide⟩⟩⟩⟩⟩⟩⟩⟩)]

omit [FloatOps F] in
theorem ownBufs_T1 (d : Dev nD) (L : grid2.Coords) :
    (ownBufs (V d (cV1 L) (jV1 L)) : sProp 𝕄)
      = iprop((∃ f, (V d (cV1 L) (jV1 L)).loc cc2_scratch0 ↦{fullShare} f) ∗ (∃ f, (V d (cV1 L) (jV1 L)).loc cc2_scratch1 ↦{fullShare} f) ∗ (∃ f, (V d (cV1 L) (jV1 L)).loc cc2_scratch2 ↦{fullShare} f) ∗ (∃ f, (V d (cV1 L) (jV1 L)).loc cc2_scratch3 ↦{fullShare} f)
          ∗ bigSep (((((ownRefs (τ := τ) (.scVector (cV1 L) (jV1 L))).erase ((Proc.scVector (cV1 L) (jV1 L)).devRef cc2_scratch0)).erase ((Proc.scVector (cV1 L) (jV1 L)).devRef cc2_scratch1)).erase ((Proc.scVector (cV1 L) (jV1 L)).devRef cc2_scratch2)).erase ((Proc.scVector (cV1 L) (jV1 L)).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV1 L) (jV1 L)) (b := (Proc.scVector (cV1 L) (jV1 L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV1 L) (jV1 L)) (b := (Proc.scVector (cV1 L) (jV1 L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV1 L) (jV1 L)) (b := (Proc.scVector (cV1 L) (jV1 L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV1 L) (jV1 L)) (b := (Proc.scVector (cV1 L) (jV1 L)).devRef cc2_scratch3) rfl⟩⟩⟩)]

abbrev t1sc0 : Memref sig .scVector .vmem S40960 .f32 := Memref.whole cc2_scratch0
abbrev t1sc1 : Memref sig .scVector .vmem S40960 .f32 := Memref.whole cc2_scratch1
abbrev t1sc2 : Memref sig .scVector .vmem S2000 .i32 := Memref.whole cc2_scratch2
abbrev t1sc3 : Memref sig .scVector .vmem S2000 .i32 := Memref.whole cc2_scratch3

/-! ## The scratch as the body's memrefs address it -/

omit [FloatOps F] in
theorem pts_t1sc0 (d : Dev nD) (L : grid2.Coords) (f : Buf (Elt F) ((V d (cV1 L) (jV1 L)).loc cc2_scratch0)) :
    (t1sc0.view.loc (V d (cV1 L) (jV1 L)) ↦{fullShare} f : sProp 𝕄) = (V d (cV1 L) (jV1 L)).loc cc2_scratch0 ↦{fullShare} f := rfl
omit [FloatOps F] in
theorem pts_t1sc1 (d : Dev nD) (L : grid2.Coords) (f : Buf (Elt F) ((V d (cV1 L) (jV1 L)).loc cc2_scratch1)) :
    (t1sc1.view.loc (V d (cV1 L) (jV1 L)) ↦{fullShare} f : sProp 𝕄) = (V d (cV1 L) (jV1 L)).loc cc2_scratch1 ↦{fullShare} f := rfl
omit [FloatOps F] in
theorem pts_t1sc2 (d : Dev nD) (L : grid2.Coords) (f : Buf (Elt F) ((V d (cV1 L) (jV1 L)).loc cc2_scratch2)) :
    (t1sc2.view.loc (V d (cV1 L) (jV1 L)) ↦{fullShare} f : sProp 𝕄) = (V d (cV1 L) (jV1 L)).loc cc2_scratch2 ↦{fullShare} f := rfl
omit [FloatOps F] in
theorem pts_t1sc3 (d : Dev nD) (L : grid2.Coords) (f : Buf (Elt F) ((V d (cV1 L) (jV1 L)).loc cc2_scratch3)) :
    (t1sc3.view.loc (V d (cV1 L) (jV1 L)) ↦{fullShare} f : sProp 𝕄) = (V d (cV1 L) (jV1 L)).loc cc2_scratch3 ↦{fullShare} f := rfl

/-! ## The loops' invariants -/

/-- A zero-fill: the accumulator at some contents. -/
def t1inv1 (d : Dev nD) (L : grid2.Coords) (_ : Nat) (_ : BitVec 32) : sProp 𝕄 :=
  iprop(∃ f, t1sc1.view.loc (V d (cV1 L) (jV1 L)) ↦{fullShare} f)

/-- A chunk's groups: the two index scratches at words that name nodes, the table scratch and the accumulator at some contents. -/
def t1inv3 (d : Dev nD) (L : grid2.Coords) (_ : Nat) (_ : BitVec 32) : sProp 𝕄 :=
  iprop((∃ g, ⌜∀ j, (g j).toNat < 10000⌝ ∗ t1sc2.view.loc (V d (cV1 L) (jV1 L)) ↦{fullShare} g)
    ∗ (∃ g, ⌜∀ j, (g j).toNat < 10000⌝ ∗ t1sc3.view.loc (V d (cV1 L) (jV1 L)) ↦{fullShare} g)
    ∗ (∃ f, t1sc0.view.loc (V d (cV1 L) (jV1 L)) ↦{fullShare} f) ∗ (∃ f, t1sc1.view.loc (V d (cV1 L) (jV1 L)) ↦{fullShare} f))

/-- A pass's chunks, on the pass's two chunk semaphores: the edge lists at their read shares, the four scratches at some contents, the two
    semaphores at zero, and what the tile owes. -/
def t1inv2 (d : Dev nD) (L : grid2.Coords) (q : PosShare TreeShare) (fs : Buf (Elt F) (srcW.view.loc (V d (cV1 L) (jV1 L)))) (fd : Buf (Elt F) (dstW.view.loc (V d (cV1 L) (jV1 L))))
    (O : CellTallies nD τ sig (HIx 2)) (W : Waits sig (HIx 2)) (sa sb : DmaSem sig) (_ : Nat) (_ : BitVec 32) : sProp 𝕄 :=
  iprop(Transfers.MayWaits (V d (cV1 L) (jV1 L)) (none : HIx 2) O
    ∗ (srcW.view.loc (V d (cV1 L) (jV1 L)) ↦{q} fs) ∗ (dstW.view.loc (V d (cV1 L) (jV1 L)) ↦{q} fd)
    ∗ (∃ f, t1sc0.view.loc (V d (cV1 L) (jV1 L)) ↦{fullShare} f) ∗ (∃ f, t1sc1.view.loc (V d (cV1 L) (jV1 L)) ↦{fullShare} f)
    ∗ (∃ f, t1sc2.view.loc (V d (cV1 L) (jV1 L)) ↦{fullShare} f) ∗ (∃ f, t1sc3.view.loc (V d (cV1 L) (jV1 L)) ↦{fullShare} f)
    ∗ semVal (V d (cV1 L) (jV1 L), SemLoc.dma sa) 0 ∗ semVal (V d (cV1 L) (jV1 L), SemLoc.dma sb) 0
    ∗ ∃ W', ⌜∀ p ∈ W', p ∈ W ∨ p.2 = none⌝ ∗ owes (V d (cV1 L) (jV1 L)) O W')

/-- One more wait at the kernels' index keeps the record of waits within the bound. -/
theorem waits_step {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with hp | hp
  · exact .inr (hp ▸ rfl)
  · exact h p hp

/-! ## The checks -/

/-- A group's sixteen words, loaded from an index scratch whose words all name nodes, name nodes (in either pass). -/
theorem t1rd2a_lt (d : Dev nD) (L : grid2.Coords) (g : Buf (Elt F) (t1sc2.view.loc (V d (cV1 L) (jV1 L)))) (hg : ∀ j, (g j).toNat < 10000) (k : Fin k2_t3_loop.trips) :
    ∀ x, (t1sc2.view.readAt (Elt F) (Rect.unit (s := S2000) (k2_off4 k) S16.size (k2_off4_inb k)).toLoadRect g x).toNat < 10000 := fun _ => hg _
theorem t1rd3a_lt (d : Dev nD) (L : grid2.Coords) (g : Buf (Elt F) (t1sc3.view.loc (V d (cV1 L) (jV1 L)))) (hg : ∀ j, (g j).toNat < 10000) (k : Fin k2_t3_loop.trips) :
    ∀ x, (t1sc3.view.readAt (Elt F) (Rect.unit (s := S2000) (k2_off4 k) S16.size (k2_off4_inb k)).toLoadRect g x).toNat < 10000 := fun _ => hg _
theorem t1rd2b_lt (d : Dev nD) (L : grid2.Coords) (g : Buf (Elt F) (t1sc2.view.loc (V d (cV1 L) (jV1 L)))) (hg : ∀ j, (g j).toNat < 10000) (k : Fin k2_t6_loop.trips) :
    ∀ x, (t1sc2.view.readAt (Elt F) (Rect.unit (s := S2000) (k2_off7 k) S16.size (k2_off7_inb k)).toLoadRect g x).toNat < 10000 := fun _ => hg _
theorem t1rd3b_lt (d : Dev nD) (L : grid2.Coords) (g : Buf (Elt F) (t1sc3.view.loc (V d (cV1 L) (jV1 L)))) (hg : ∀ j, (g j).toNat < 10000) (k : Fin k2_t6_loop.trips) :
    ∀ x, (t1sc3.view.readAt (Elt F) (Rect.unit (s := S2000) (k2_off7 k) S16.size (k2_off7_inb k)).toLoadRect g x).toNat < 10000 := fun _ => hg _

theorem t1chk1_of (v : Vec F S16 .i32) (hv : ∀ x, (v x).toNat < 10000) : k2_chk1 (k2_pay10 (F := F) v) := idx_lt v 0#32 (by decide) hv
theorem t1chk2_of (v : Vec F S16 .i32) (hv : ∀ x, (v x).toNat < 10000) : k2_chk2 (k2_pay11 (F := F) v) := idx_lt v 0#32 (by decide) hv
theorem t1chk3_of (v : Vec F S16 .i32) (hv : ∀ x, (v x).toNat < 10000) : k2_chk3 (k2_pay12 (F := F) v) := idx_lt v 10240#32 (by decide) hv
theorem t1chk4_of (v : Vec F S16 .i32) (hv : ∀ x, (v x).toNat < 10000) : k2_chk4 (k2_pay13 (F := F) v) := idx_lt v 10240#32 (by decide) hv
theorem t1chk5_of (v : Vec F S16 .i32) (hv : ∀ x, (v x).toNat < 10000) : k2_chk5 (k2_pay14 (F := F) v) := idx_lt v 20480#32 (by decide) hv
theorem t1chk6_of (v : Vec F S16 .i32) (hv : ∀ x, (v x).toNat < 10000) : k2_chk6 (k2_pay15 (F := F) v) := idx_lt v 20480#32 (by decide) hv
theorem t1chk7_of (v : Vec F S16 .i32) (hv : ∀ x, (v x).toNat < 10000) : k2_chk7 (k2_pay16 (F := F) v) := idx_lt v 30720#32 (by decide) hv
theorem t1chk8_of (v : Vec F S16 .i32) (hv : ∀ x, (v x).toNat < 10000) : k2_chk8 (k2_pay17 (F := F) v) := idx_lt v 30720#32 (by decide) hv
theorem t1chk9_of (v : Vec F S16 .i32) (hv : ∀ x, (v x).toNat < 10000) : k2_chk9 (k2_pay1 (F := F) v) := idx_lt v 0#32 (by decide) hv
theorem t1chk10_of (v : Vec F S16 .i32) (hv : ∀ x, (v x).toNat < 10000) : k2_chk10 (k2_pay2 (F := F) v) := idx_lt v 0#32 (by decide) hv
theorem t1chk11_of (v : Vec F S16 .i32) (hv : ∀ x, (v x).toNat < 10000) : k2_chk11 (k2_pay3 (F := F) v) := idx_lt v 10240#32 (by decide) hv
theorem t1chk12_of (v : Vec F S16 .i32) (hv : ∀ x, (v x).toNat < 10000) : k2_chk12 (k2_pay4 (F := F) v) := idx_lt v 10240#32 (by decide) hv
theorem t1chk13_of (v : Vec F S16 .i32) (hv : ∀ x, (v x).toNat < 10000) : k2_chk13 (k2_pay5 (F := F) v) := idx_lt v 20480#32 (by decide) hv
theorem t1chk14_of (v : Vec F S16 .i32) (hv : ∀ x, (v x).toNat < 10000) : k2_chk14 (k2_pay6 (F := F) v) := idx_lt v 20480#32 (by decide) hv
theorem t1chk15_of (v : Vec F S16 .i32) (hv : ∀ x, (v x).toNat < 10000) : k2_chk15 (k2_pay7 (F := F) v) := idx_lt v 30720#32 (by decide) hv
theorem t1chk16_of (v : Vec F S16 .i32) (hv : ∀ x, (v x).toNat < 10000) : k2_chk16 (k2_pay8 (F := F) v) := idx_lt v 30720#32 (by decide) hv

/-- An index scratch overwritten whole by words that name nodes holds words that name nodes. -/
theorem t1land2 (d : Dev nD) (L : grid2.Coords) (i : Buf (Elt F) (t1sc2.view.loc (V d (cV1 L) (jV1 L)))) (w : Vec F S2000 .i32) (hw : ∀ x, (w x).toNat < 10000) :
    (t1sc2.view.loc (V d (cV1 L) (jV1 L)) ↦{fullShare} View.write (Elt F) (Memref.whole cc2_scratch2).view i w Finset.univ : sProp 𝕄)
      ⊢ ∃ g, ⌜∀ j, (g j).toNat < 10000⌝ ∗ t1sc2.view.loc (V d (cV1 L) (jV1 L)) ↦{fullShare} g := by
  have e : View.write (Elt F) (Memref.whole cc2_scratch2).view i w Finset.univ = w := View.write_whole_univ _ _ _
  iintro H
  iexists (View.write (Elt F) (Memref.whole cc2_scratch2).view i w Finset.univ); isplitr
  · ipureintro; intro j
    rw [e]; exact hw j
  · iexact H
theorem t1land3 (d : Dev nD) (L : grid2.Coords) (i : Buf (Elt F) (t1sc3.view.loc (V d (cV1 L) (jV1 L)))) (w : Vec F S2000 .i32) (hw : ∀ x, (w x).toNat < 10000) :
    (t1sc3.view.loc (V d (cV1 L) (jV1 L)) ↦{fullShare} View.write (Elt F) (Memref.whole cc2_scratch3).view i w Finset.univ : sProp 𝕄)
      ⊢ ∃ g, ⌜∀ j, (g j).toNat < 10000⌝ ∗ t1sc3.view.loc (V d (cV1 L) (jV1 L)) ↦{fullShare} g := by
  have e : View.write (Elt F) (Memref.whole cc2_scratch3).view i w Finset.univ = w := View.write_whole_univ _ _ _
  iintro H
  iexists (View.write (Elt F) (Memref.whole cc2_scratch3).view i w Finset.univ); isplitr
  · ipureintro; intro j
    rw [e]; exact hw j
  · iexact H

theorem tile_body1 (d : Dev nD) (L : grid2.Coords) (hF : (K (F := F)).Facts) (q : PosShare TreeShare)
    (fta : Buf (Elt F) ((tabSl1a L).view.loc (V d (cV1 L) (jV1 L)))) (ftb : Buf (Elt F) ((tabSl1b L).view.loc (V d (cV1 L) (jV1 L))))
    (fs : Buf (Elt F) (srcW.view.loc (V d (cV1 L) (jV1 L)))) (fd : Buf (Elt F) (dstW.view.loc (V d (cV1 L) (jV1 L))))
    (foa : Buf (Elt F) ((outSl1a L).view.loc (V d (cV1 L) (jV1 L)))) (fob : Buf (Elt F) ((outSl1b L).view.loc (V d (cV1 L) (jV1 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
            ∗ ((outSl1a L).view.loc (V d (cV1 L) (jV1 L)) ↦[(outSl1a L).view.set]{fullShare} foa) ∗ ((outSl1b L).view.loc (V d (cV1 L) (jV1 L)) ↦[(outSl1b L).view.set]{fullShare} fob))
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop((((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
              ∗ (∃ f, ((outSl1a L).view.loc (V d (cV1 L) (jV1 L)) ↦[(outSl1a L).view.set]{fullShare} f)) ∗ ∃ f, ((outSl1b L).view.loc (V d (cV1 L) (jV1 L)) ↦[(outSl1b L).view.set]{fullShare} f))
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc2_body_eq_skeleton]; unfold cc2_body_skel
  rw [(K (F := F)).scopedBufs_V hF d (cV1 L) (jV1 L), SparseCore.Cfg.scopedSems0_V (Val := Elt F) d (cV1 L) (jV1 L), ownSems0_T1, ownBufs_T1]
  iintro ⟨#Hlv, -, ⟨Hta, Htb, Hs, Hd, Hoa, Hob⟩, ⟨⟨%f0, H0⟩, ⟨%f1, H1⟩, ⟨%f2, H2⟩, ⟨%f3, H3⟩, Hbufs⟩, ⟨Hsem0, Hsem1, Hsem2, Hsem3, Hsem4, Hsem5, Hsem6, Hsem7, Hsems⟩, HO⟩
  ihave Hmw := ((K (F := F)).mayWaits_none (thr := V d (cV1 L) (jV1 L)) hO) $$ Hlv
  ihave H0 := (Entails.of_eq (pts_t1sc0 (F := F) d L _).symm) $$ H0
  ihave H1 := (Entails.of_eq (pts_t1sc1 (F := F) d L _).symm) $$ H1
  ihave H2 := (Entails.of_eq (pts_t1sc2 (F := F) d L _).symm) $$ H2
  ihave H3 := (Entails.of_eq (pts_t1sc3 (F := F) d L _).symm) $$ H3
  -- the first pass: the first stretch's four rows into the table scratch
  sl_exec
  -- its zero-fill
  sl_for (t1inv1 (F := F) d L) $$ [H1]
  case region =>
    intro k _
    unfold t1inv1
    iintro ⟨%f, H⟩
    sl_exec
    sl_step
    iexists _; iexact H
  · unfold t1inv1; iexists _; iexact H1
  iintro %_ HI
  unfold t1inv1
  icases HI with ⟨%f1', H1⟩
  -- its chunks
  sl_for (t1inv2 (F := F) d L q fs fd O W cc2_scoped1.sem cc2_scoped2.sem) $$ [Hmw Hs Hd H0 H1 H2 H3 Hsem1 Hsem2 HO]
  case region =>
    intro k _
    unfold t1inv2
    iintro ⟨#Hmw, Hs, Hd, ⟨%t0, H0⟩, ⟨%a1, H1⟩, ⟨%i2, H2⟩, ⟨%i3, H3⟩, Hsa, Hsb, %W', %hW', HO⟩
    -- the chunk's sources and destinations into the two index scratches
    sl_exec
    ihave H2 := (t1land2 (F := F) d L _ _ ?hw2) $$ H2
    case hw2 => exact fun _ => hs _
    ihave H3 := (t1land3 (F := F) d L _ _ ?hw3) $$ H3
    case hw3 => exact fun _ => hd _
    -- the chunk's groups
    sl_for (t1inv3 (F := F) d L) $$ [H2 H3 H0 H1]
    case region =>
      intro kk _
      unfold t1inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorLoadIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      rw [SparseCore.vectorStoreIdx_bind (c := V d (cV1 L) (jV1 L))]
      sl_exec (disch := first
        | sl_exact (t1chk1_of _ (t1rd2a_lt d L g2 hg2 kk)) | sl_exact (t1chk2_of _ (t1rd3a_lt d L g3 hg3 kk))
        | sl_exact (t1chk3_of _ (t1rd2a_lt d L g2 hg2 kk)) | sl_exact (t1chk4_of _ (t1rd3a_lt d L g3 hg3 kk))
        | sl_exact (t1chk5_of _ (t1rd2a_lt d L g2 hg2 kk)) | sl_exact (t1chk6_of _ (t1rd3a_lt d L g3 hg3 kk))
        | sl_exact (t1chk7_of _ (t1rd2a_lt d L g2 hg2 kk)) | sl_exact (t1chk8_of _ (t1rd3a_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t1inv3
      isplitl [H2]; · iexact H2
      isplitl [H3]; · iexact H3
      isplitl [H0]; · iexists _; iexact H0
      iexists _; iexact H1
    iintro %_ HI
    unfold t1inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsa]; · iexact Hsa
    isplitl [Hsb]; · iexact Hsb
    iexists (insert (SemLoc.dma cc2_scoped2.sem, (default : HIx 2)) (insert (SemLoc.dma cc2_scoped1.sem, (default : HIx 2)) W')); isplitr
    · ipureintro; exact waits_step (waits_step hW' _) _
    · iexact HO
  · unfold t1inv2
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem1]; · iexact Hsem1
    isplitl [Hsem2]; · iexact Hsem2
    iexists (insert (SemLoc.dma cc2_scoped0.sem, (default : HIx 2)) W); isplitr
    · ipureintro; exact waits_step (fun p hp => .inl hp) _
    · iexact HO
  iintro %_ HI
  unfold t1inv2
  icases HI with ⟨-, Hs, Hd, ⟨%t0, H0⟩, ⟨%a1, H1⟩, ⟨%i2, H2⟩, ⟨%i3, H3⟩, Hsem1, Hsem2, %W', %hW', HO⟩
  -- the accumulator out to the first stretch of the result; the second pass: the second stretch's four rows into the table scratch
  sl_exec
  -- its zero-fill
  sl_for (t1inv1 (F := F) d L) $$ [H1]
  case region =>
    intro k _
    unfold t1inv1
    iintro ⟨%f, H⟩
    sl_exec
    sl_step
    iexists _; iexact H
  · unfold t1inv1; iexists _; iexact H1
  iintro %_ HI
  unfold t1inv1
  icases HI with ⟨%f1', H1⟩
  -- the part's return
  sl_exec
  -- its chunks
  sl_for (t1inv2 (F := F) d L q fs fd O W cc2_scoped5.sem cc2_scoped6.sem) $$ [Hmw Hs Hd H0 H1 H2 H3 Hsem5 Hsem6 HO]
  case region =>
    intro k _
    unfold t1inv2
    iintro ⟨#Hmw, Hs, Hd, ⟨%t0, H0⟩, ⟨%a1, H1⟩, ⟨%i2, H2⟩, ⟨%i3, H3⟩, Hsa, Hsb, %W', %hW', HO⟩
    -- the chunk's sources and destinations into the two index scratches
    sl_exec
    ihave H2 := (t1land2 (F := F) d L _ _ ?hw2) $$ H2
    case hw2 => exact fun _ => hs _
    ihave H3 := (t1land3 (F := F) d L _ _ ?hw3) $$ H3
    case hw3 => exact fun _ => hd _
    -- the chunk's groups
    sl_for (t1inv3 (F := F) d L) $$ [H2 H3 H0 H1]
    case region =>
      intro kk _
      unfold t1inv3
      iintro ⟨⟨%g2, %hg2, H2⟩, ⟨%g3, %hg3, H3⟩, ⟨%t, H0⟩, ⟨%a, H1⟩⟩
      -- the two loads of the group's words and the first check; then, four times over, the indexed load (a load of the whole table scratch),
      -- the next check, the indexed add-store (a load and a store of the whole accumulator) and the check after it
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorLoadIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      rw [SparseCore.vectorStoreIdx_bind (c := V d (cV1 L) (jV1 L))]
      sl_exec (disch := first
        | sl_exact (t1chk9_of _ (t1rd2b_lt d L g2 hg2 kk)) | sl_exact (t1chk10_of _ (t1rd3b_lt d L g3 hg3 kk))
        | sl_exact (t1chk11_of _ (t1rd2b_lt d L g2 hg2 kk)) | sl_exact (t1chk12_of _ (t1rd3b_lt d L g3 hg3 kk))
        | sl_exact (t1chk13_of _ (t1rd2b_lt d L g2 hg2 kk)) | sl_exact (t1chk14_of _ (t1rd3b_lt d L g3 hg3 kk))
        | sl_exact (t1chk15_of _ (t1rd2b_lt d L g2 hg2 kk)) | sl_exact (t1chk16_of _ (t1rd3b_lt d L g3 hg3 kk)))
      sl_step
      isplitl [H2]; · iexists _; isplitr; · ipureintro; exact hg2
                      iexact H2
      isplitl [H3]; · iexists _; isplitr; · ipureintro; exact hg3
                      iexact H3
      isplitl [H0]; · iexists _; iexact H0
      iexists _; iexact H1
    · unfold t1inv3
      isplitl [H2]; · iexact H2
      isplitl [H3]; · iexact H3
      isplitl [H0]; · iexists _; iexact H0
      iexists _; iexact H1
    iintro %_ HI
    unfold t1inv3
    icases HI with ⟨⟨%g2, -, H2⟩, ⟨%g3, -, H3⟩, ⟨%t, H0⟩, ⟨%a, H1⟩⟩
    sl_step
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsa]; · iexact Hsa
    isplitl [Hsb]; · iexact Hsb
    iexists (insert (SemLoc.dma cc2_scoped6.sem, (default : HIx 2)) (insert (SemLoc.dma cc2_scoped5.sem, (default : HIx 2)) W')); isplitr
    · ipureintro; exact waits_step (waits_step hW' _) _
    · iexact HO
  · unfold t1inv2
    isplitr; · iexact Hmw
    isplitl [Hs]; · iexact Hs
    isplitl [Hd]; · iexact Hd
    isplitl [H0]; · iexists _; iexact H0
    isplitl [H1]; · iexists _; iexact H1
    isplitl [H2]; · iexists _; iexact H2
    isplitl [H3]; · iexists _; iexact H3
    isplitl [Hsem5]; · iexact Hsem5
    isplitl [Hsem6]; · iexact Hsem6
    iexists (insert (SemLoc.dma cc2_scoped4.sem, (default : HIx 2)) (insert (SemLoc.dma cc2_scoped3.sem, (default : HIx 2)) W')); isplitr
    · ipureintro; exact waits_step (waits_step hW' _) _
    · iexact HO
  iintro %_ HI
  unfold t1inv2
  icases HI with ⟨-, Hs, Hd, ⟨%t0, H0⟩, ⟨%a1, H1⟩, ⟨%i2, H2⟩, ⟨%i3, H3⟩, Hsem5, Hsem6, %W', %hW', HO⟩
  -- the accumulator out to the second stretch of the result
  sl_exec
  sl_step
  isplitl [Hta Htb Hs Hd Hoa Hob]
  · isplitl [Hta]; · iexact Hta
    isplitl [Htb]; · iexact Htb
    isplitl [Hs]; · iexact Hs
    isplitl [Hd]; · iexact Hd
    isplitl [Hoa]; · iexists _; iexact Hoa
    iexists _; iexact Hob
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsem4 Hsem5 Hsem6 Hsem7 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    iexact Hsems
  iexists (insert (SemLoc.dma cc2_scoped7.sem, (default : HIx 2)) W'); isplitr
  · ipureintro; exact waits_step hW' _
  · iexact HO

end Cert.Proof.KernelL

end
-- ==== Proof.KBObl0.lean ====
/-
  The first aggregation's task as the launch theorem's obligation: one tile's body, proved at a symbolic tile over the
  operands as the tile addresses them, restated over the tile's share as the handshake carries it (the same buffers, named
  from the TensorCore's side), at the tile the call's grid names.
-/
import proofs.«211848_g47218870452992_cont_8to1c4_747_2_alg».proof.Proof.KBTile0
import proofs.«211848_g47218870452992_cont_8to1c4_747_2_alg».proof.Proof.KBPay

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))

/-- The body table's row for a vector subcore at the first call. -/
theorem defs₀_vector0 (c : Fin τ.nSC) (s : Fin τ.nSub) :
    defs₀ (F := F) (.scVector c s) 0 ()
      = SparseCore.onTile hcore0 hsub0 (fun c s => cc0_body (coordsV0 c s)
          tabW0 (Memref.isWhole_whole _) srcW (Memref.isWhole_whole _) dstW (Memref.isWhole_whole _) outW0 (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          cc0_scoped0 cc0_scoped1 cc0_scoped2 cc0_scoped3) ⟨⟩ c s := rfl

omit [FloatOps F] in
/-- A tile's stretch of the table, and of the result, named from either side. -/
theorem pts_tab0 (d : Dev nD) (L : grid0.Coords) (q : PosShare TreeShare) (f : Buf (Elt F) (tLoc main_v6 d)) :
    ((tabSl0 L).view.loc (V d (cV0 L) (jV0 L)) ↦[(tabSl0 L).view.set]{q} f : sProp 𝕄) = (tLoc main_v6 d ↦[set0 L]{q} f) := rfl
omit [FloatOps F] in
theorem pts_out0 (d : Dev nD) (L : grid0.Coords) (q : PosShare TreeShare) (f : Buf (Elt F) (tLoc main_v7 d)) :
    ((outSl0 L).view.loc (V d (cV0 L) (jV0 L)) ↦[(outSl0 L).view.set]{q} f : sProp 𝕄) = (tLoc main_v7 d ↦[set0 L]{q} f) := rfl
omit [FloatOps F] in
theorem obl_post0 {thr : Thread nD τ} {A B C : sProp 𝕄} {O : CellTallies nD τ sig (HIx 2)} {W : Waits sig (HIx 2)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (0 : Fin 2)⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task of the first aggregation, over its share as the handshake carries it. -/
theorem tileTask0 (hs : ∀ d j, ((srcC d) j).toNat < 10000) (hd : ∀ d j, ((dstC d) j).toNat < 10000)
    (d : Dev nD) (L : grid0.Coords) (O : CellTallies nD τ sig (HIx 2)) (W : Waits sig (HIx 2)) (hO : ∀ g, O g none = 0) :
    (iprop(levAts (K (F := F)).L (K (F := F)).lev ∗ emp ∗ tileRes0 srcC dstC d L
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop(tileRes0 srcC dstC d L ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  unfold tileRes0
  iintro ⟨Hlv, -, ⟨⟨%ft, Ht⟩, Hs, Hd, ⟨%fo, Ho⟩⟩, Hsb, Hss, HO⟩
  iapply (wp_mono frame _ _ (fun _ => (show
      (iprop((((tabSl0 L).view.loc (V d (cV0 L) (jV0 L)) ↦[(tabSl0 L).view.set]{fullShare} ft) ∗ (srcW.view.loc (V d (cV0 L) (jV0 L)) ↦{tok (wid0 L)} srcC d) ∗ (dstW.view.loc (V d (cV0 L) (jV0 L)) ↦{tok (wid0 L)} dstC d)
            ∗ ∃ f, (outSl0 L).view.loc (V d (cV0 L) (jV0 L)) ↦[(outSl0 L).view.set]{fullShare} f)
          ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') : sProp 𝕄)
      ⊢ iprop(((∃ ft, tLoc main_v6 d ↦[set0 L]{fullShare} ft) ∗ (tLoc main_v1 d ↦{tok (wid0 L)} srcC d) ∗ (tLoc main_v3 d ↦{tok (wid0 L)} dstC d)
            ∗ ∃ fo, tLoc main_v7 d ↦[set0 L]{fullShare} fo)
          ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') from by
    iintro ⟨⟨Ht, Hs, Hd, Ho⟩, Hrest⟩
    isplitl [Ht Hs Hd Ho]
    · isplitl [Ht]; · iexists ft; iexact Ht
      isplitl [Hs]; · iexact Hs
      isplitl [Hd]; · iexact Hd
      iexact Ho
    · iexact Hrest)))
  iapply (tile_body0 (F := F) d L facts (tok (wid0 L)) ft (srcC d) (dstC d) fo (hs d) (hd d) O W hO) $$ [Hlv Ht Hs Hd Ho Hsb Hss HO]
  isplitl [Hlv]; · iexact Hlv
  isplitr; · iempintro
  isplitl [Ht Hs Hd Ho]
  · isplitl [Ht]; · iexact Ht
    isplitl [Hs]; · iexact Hs
    isplitl [Hd]; · iexact Hd
    iexact Ho
  isplitl [Hsb]; · iexact Hsb
  isplitl [Hss]; · iexact Hss
  iexact HO

/-- The launch theorem's obligation at the first call. -/
theorem tileObl0 (hs : ∀ d j, ((srcC d) j).toNat < 10000) (hd : ∀ d j, ((dstC d) j).toNat < 10000) :
    (K (F := F)).TileObl (D (F := F)) 𝒱 (P srcC dstC) v₀ 0 := by
  intro d c i O W hO _ _
  simp only [show (P srcC dstC).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tileTask0 srcC dstC hs hd d (L0 c i) O W hO).trans (wp_mono frame _ _ fun _ => obl_post0)

end Cert.Proof.KernelL

end
-- ==== Proof.KBObl1.lean ====
/-
  The second aggregation's task as the launch theorem's obligation: one tile's body — two stretches of four rows —, proved
  at a symbolic tile over the operands as the tile addresses them, restated over the tile's share as the handshake carries
  it, at the tile the call's grid names.
-/
import proofs.«211848_g47218870452992_cont_8to1c4_747_2_alg».proof.Proof.KBTile1
import proofs.«211848_g47218870452992_cont_8to1c4_747_2_alg».proof.Proof.KBObl0

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (srcC : (d : Dev nD) → Buf (Elt F) (tLoc main_v1 d)) (dstC : (d : Dev nD) → Buf (Elt F) (tLoc main_v3 d))

/-- The body table's row for a vector subcore at the second call. -/
theorem defs₀_vector1 (c : Fin τ.nSC) (s : Fin τ.nSub) :
    defs₀ (F := F) (.scVector c s) 2 ()
      = SparseCore.onTile hcore2 hsub2 (fun c s => cc2_body (coordsV2 c s)
          tabW1 (Memref.isWhole_whole _) srcW (Memref.isWhole_whole _) dstW (Memref.isWhole_whole _) outW1 (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _)
          cc2_scoped0 cc2_scoped1 cc2_scoped2 cc2_scoped3 cc2_scoped4 cc2_scoped5 cc2_scoped6 cc2_scoped7) ⟨⟩ c s := rfl

omit [FloatOps F] in
theorem obl_post1 {thr : Thread nD τ} {A B C : sProp 𝕄} {O : CellTallies nD τ sig (HIx 2)} {W : Waits sig (HIx 2)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (1 : Fin 2)⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task of the second aggregation, over its share as the handshake carries it. -/
theorem tileTask1 (hs : ∀ d j, ((srcC d) j).toNat < 10000) (hd : ∀ d j, ((dstC d) j).toNat < 10000)
    (d : Dev nD) (L : grid2.Coords) (O : CellTallies nD τ sig (HIx 2)) (W : Waits sig (HIx 2)) (hO : ∀ g, O g none = 0) :
    (iprop(levAts (K (F := F)).L (K (F := F)).lev ∗ emp ∗ tileRes1 srcC dstC d L
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop(tileRes1 srcC dstC d L ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  unfold tileRes1
  iintro ⟨Hlv, -, ⟨⟨%fta, Hta⟩, ⟨%ftb, Htb⟩, Hs, Hd, ⟨%foa, Hoa⟩, ⟨%fob, Hob⟩⟩, Hsb, Hss, HO⟩
  iapply (wp_mono frame _ _ (fun _ => (show
      (iprop((((tabSl1a L).view.loc (V d (cV1 L) (jV1 L)) ↦[(tabSl1a L).view.set]{fullShare} fta) ∗ ((tabSl1b L).view.loc (V d (cV1 L) (jV1 L)) ↦[(tabSl1b L).view.set]{fullShare} ftb)
            ∗ (srcW.view.loc (V d (cV1 L) (jV1 L)) ↦{tok (wid2 L)} srcC d) ∗ (dstW.view.loc (V d (cV1 L) (jV1 L)) ↦{tok (wid2 L)} dstC d)
            ∗ (∃ f, (outSl1a L).view.loc (V d (cV1 L) (jV1 L)) ↦[(outSl1a L).view.set]{fullShare} f) ∗ ∃ f, (outSl1b L).view.loc (V d (cV1 L) (jV1 L)) ↦[(outSl1b L).view.set]{fullShare} f)
          ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') : sProp 𝕄)
      ⊢ iprop(((∃ ft, tLoc main_v13 d ↦[set1 L 0]{fullShare} ft) ∗ (∃ ft, tLoc main_v13 d ↦[set1 L 1]{fullShare} ft)
            ∗ (tLoc main_v1 d ↦{tok (wid2 L)} srcC d) ∗ (tLoc main_v3 d ↦{tok (wid2 L)} dstC d)
            ∗ (∃ fo, tLoc main_v14 d ↦[set1 L 0]{fullShare} fo) ∗ ∃ fo, tLoc main_v14 d ↦[set1 L 1]{fullShare} fo)
          ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') from by
    iintro ⟨⟨Hta, Htb, Hs, Hd, Hoa, Hob⟩, Hrest⟩
    isplitl [Hta Htb Hs Hd Hoa Hob]
    · isplitl [Hta]; · iexists fta; iexact Hta
      isplitl [Htb]; · iexists ftb; iexact Htb
      isplitl [Hs]; · iexact Hs
      isplitl [Hd]; · iexact Hd
      isplitl [Hoa]; · iexact Hoa
      iexact Hob
    · iexact Hrest)))
  iapply (tile_body1 (F := F) d L facts (tok (wid2 L)) fta ftb (srcC d) (dstC d) foa fob (hs d) (hd d) O W hO) $$ [Hlv Hta Htb Hs Hd Hoa Hob Hsb Hss HO]
  isplitl [Hlv]; · iexact Hlv
  isplitr; · iempintro
  isplitl [Hta Htb Hs Hd Hoa Hob]
  · isplitl [Hta]; · iexact Hta
    isplitl [Htb]; · iexact Htb
    isplitl [Hs]; · iexact Hs
    isplitl [Hd]; · iexact Hd
    isplitl [Hoa]; · iexact Hoa
    iexact Hob
  isplitl [Hsb]; · iexact Hsb
  isplitl [Hss]; · iexact Hss
  iexact HO

/-- The launch theorem's obligation at the second call. -/
theorem tileObl1 (hs : ∀ d j, ((srcC d) j).toNat < 10000) (hd : ∀ d j, ((dstC d) j).toNat < 10000) :
    (K (F := F)).TileObl (D (F := F)) 𝒱 (P srcC dstC) v₀ 1 := by
  intro d c i O W hO _ _
  simp only [show (P srcC dstC).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tileTask1 srcC dstC hs hd d (L1 c i) O W hO).trans (wp_mono frame _ _ fun _ => obl_post1)

end Cert.Proof.KernelL

end
-- ==== Proof.KBPre.lean ====
/-
  From the precondition to what the aggregations need of the edge list. The precondition says every float input is
  finite and every word of the edge list lies in [0, 9999] (an `all` of the elementwise comparisons, conjoined); the two
  rows of the edge list that @main slices out before the first aggregation are words of it, so every edge source and
  every edge destination, read as a natural number, is below 10000: each names a node.
-/
import proofs.«211848_g47218870452992_cont_8to1c4_747_2_alg».proof.Proof.KBInv
import proofs.«211848_g47218870452992_cont_8to1c4_747_2_alg».proof.Pre_input_domain
import Idealize.ShloMosaic.Lib.ReduceAll
import Idealize.ShloMosaic.Lib.Affine

set_option Elab.async false

noncomputable section

namespace Cert.Proof.KernelL

open Cert.Kernel Cert.Kernel.Gen
open Idealize.ShloMosaic Idealize.ShloMosaic.TcCoe Idealize.SL.Sem Idealize.ShloMosaic.StableHlo

variable {F : FTy → Type} [FloatOps F]

/-- A word between 0 and 9999 as a signed number is below 10000 as a natural number. -/
theorem word_lt (v : BitVec 32) (e : IntOp.andi (IntOp.cmpi .sge v 0#32) (IntOp.cmpi .sle v 9999#32) = 1#1) : v.toNat < 10000 := by
  obtain ⟨h0, h1⟩ := IntOp.andi_eq_one.mp e
  have h0' := IntOp.cmpi_sge.mp h0
  have h1' := IntOp.cmpi_sle.mp h1
  have z0 : (0#32 : BitVec 32).toInt = 0 := by decide
  have z1 : (9999#32 : BitVec 32).toInt = 9999 := by decide
  rw [z0] at h0'; rw [z1] at h1'
  rw [BitVec.toInt_eq_toNat_cond] at h0' h1'
  have := v.isLt
  split at h0' <;> omega

instance : Subsingleton S_.Idx := ⟨fun a b => funext fun d => d.elim0⟩

variable [hP : Cert.Pre_input_domain.Facts]

/-- The precondition, at any reading of the floats: on every device the printed predicate of the argument arrays is all ones. -/
def PreG (m : (ℓ : Loc nD τ sig) → Buf (Elt F) ℓ) : Prop :=
  ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

/-- Every word of the edge list is in range: the predicate's last conjunct, an `all` over the list. -/
theorem edge_lt (m : (ℓ : Loc nD τ sig) → Buf (Elt F) ℓ) (h : PreG m) (c : Dev nD) (i : S2x320000.Idx) :
    (m ((c.tc : Thread nD τ).loc main_arg1) i).toNat < 10000 := by
  unfold PreG at h
  have e := congrFun (h c) (fun a : Fin 0 => a.elim0)
  simp only [Cert.Pre_input_domain.fn, Cert.Pre_input_domain.fn_part1, Cert.Pre_input_domain.fn_part2] at e
  have e2 := (IntOp.andi_eq_one.mp e).2
  have e3 := Host.reduce_andi_all _ _ _ _ _ e2 i
  simp only [andi, cmpi, broadcastInDim, constantI] at e3
  exact word_lt _ e3

variable (m : (ℓ : Loc nD τ sig) → Buf (Elt F) ℓ)

/-- The edge sources are the edge list's first row. -/
theorem srcC_eq (d : Dev nD) : srcC m d = fun i =>
    shapeCast S320000 (extractStridedSlice S1x320000 ![0, 0] (m ((d.tc : Thread nD τ).loc main_arg1)) slices_S2x320000_S1x320000_0_0) shapeCasts_S1x320000_S320000 i := by
  unfold srcC W1; after_results; rfl
/-- The edge destinations are its second row. -/
theorem dstC_eq (d : Dev nD) : dstC m d = fun i =>
    shapeCast S320000 (extractStridedSlice S1x320000 ![1, 0] (m ((d.tc : Thread nD τ).loc main_arg1)) slices_S2x320000_S1x320000_1_0) shapeCasts_S1x320000_S320000 i := by
  unfold dstC W1; after_results; rfl

/-- Every edge source names a node, -/
theorem src_lt (h : PreG m) (d : Dev nD) (j : S320000.Idx) : ((srcC m d) j).toNat < 10000 := by
  rw [srcC_eq]; exact edge_lt m h d _
/-- and every edge destination. -/
theorem dst_lt (h : PreG m) (d : Dev nD) (j : S320000.Idx) : ((dstC m d) j).toNat < 10000 := by
  rw [dstC_eq]; exact edge_lt m h d _

end Cert.Proof.KernelL

end
-- ==== Proof.KBFrame.lean ====
/-
  The kernel's run assembled: from the precondition (every edge endpoint names a node), each aggregation's task proved as
  one tile's obligation, and @main proved on the TensorCore, the launch theorem gives that every weakly fair execution of
  the device's 35 threads terminates, nothing faulting, with the ten argument arrays as launched. What @main's proof takes
  as stated — the dealing and collecting around each aggregation, the two TensorCore regions' steps — enters here as it does
  there.
-/
import proofs.«211848_g47218870452992_cont_8to1c4_747_2_alg».proof.Proof.KBHmain
import proofs.«211848_g47218870452992_cont_8to1c4_747_2_alg».proof.Proof.KBObl1
import proofs.«211848_g47218870452992_cont_8to1c4_747_2_alg».proof.Proof.KBPre

set_option Elab.async false

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The program's run from a launch memory satisfying the precondition. -/
theorem run_main [∀ e, Nonempty (Elt F e)] [hP : Cert.Pre_input_domain.Facts]
    (m : (ℓ : Loc nD τ sig) → Buf (Elt F) ℓ) (ρ : Dev nD → PrngReg) (hpre : PreG m)
    (Rest0 Rest1 : Dev nD → sProp 𝕄)
  (hdeal0 : ∀ d, (Inv m d : sProp 𝕄) ⊢ iprop((bigSep Finset.univ fun c : Fin ((K (F := F)).nCore 0) => (P (srcC m) (dstC m)).st 0 d c) ∗ Rest0 d))
  (hcoll0 : ∀ d, iprop((bigSep Finset.univ fun c : Fin ((K (F := F)).nCore 0) => (P (srcC m) (dstC m)).dn 0 d c) ∗ Rest0 d) ⊢ (Inv m d : sProp 𝕄))
  (hdeal1 : ∀ d, (Inv m d : sProp 𝕄) ⊢ iprop((bigSep Finset.univ fun c : Fin ((K (F := F)).nCore 1) => (P (srcC m) (dstC m)).st 1 d c) ∗ Rest1 d))
  (hcoll1 : ∀ d, iprop((bigSep Finset.univ fun c : Fin ((K (F := F)).nCore 1) => (P (srcC m) (dstC m)).dn 1 d c) ∗ Rest1 d) ⊢ (Inv m d : sProp 𝕄))
  (hreg0 : ∀ (κ : GSem nD τ sig → ℕ) (d : Dev nD) (Φ : PUnit → sProp 𝕄),
    iprop((K (F := F)).ctx EH (P (srcC m) (dstC m)) κ ∗ (K (F := F)).tcSt EH d 1 ∗ boundary (T d) ∗ Inv m d ∗ Aux (F := F) d ∗ ghost (F := F) 0 d
        ∗ (((K (F := F)).tcSt EH d 1 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 0)) ())) Φ)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ) :
    θ_run (Cert.Kernel.defs (F := F)) (Cert.Kernel.threads (F := F)) ⟨m, fun _ => 0, ρ⟩ (QC m) :=
  run_of (srcC m) (dstC m) m ρ
    (tileObl0 (srcC m) (dstC m) (src_lt m hpre) (dst_lt m hpre)) (tileObl1 (srcC m) (dstC m) (src_lt m hpre) (dst_lt m hpre))
    (hmain m ρ Rest0 Rest1 hdeal0 hcoll0 hdeal1 hcoll1 hreg0 hreg1)

end Cert.Proof.KernelL

end
-- ==== Proof.KIDeal.lean ====
/-
  Dealing an aggregation's operands out of the TensorCore's buffers to the thirty-two tiles, and collecting them back.
  The table and the result array are each the disjoint union of the tiles' stretches (equal parts of the flat array, the
  part a tile takes numbered by the tile), so a whole buffer is its stretches side by side; the edge sources and
  destinations are read by every tile, so each is split by share into thirty-two read tokens and a remainder the
  TensorCore keeps. The tiles are numbered subcore · 2 + core: the thirty-two numbers are the pairs (core, subcore),
  once each. Coming back, the stretches are held at contents not stated; joined, they are the two buffers whole at some
  contents, and the invariant holds again at the valuation updated there — no kept reference among them.
-/
import proofs.«211848_g47218870452992_cont_8to1c4_747_2_alg».proof.Proof.KIHmain

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The first aggregation: thirty-two parts of 40960 elements -/

theorem hdiv0 : 32 ∣ S1310720.size 0 := ⟨40960, rfl⟩
/-- Part `w` of the flat array of 1310720 elements cut in thirty-two. -/
abbrev part0 (w : Fin 32) : Rect S1310720 := Rect.part (s := S1310720) (a₀ := 0) hdiv0 w

omit [FloatOps F] in
/-- The stretch a tile slices is the part its number names: its offset is 40960 times the number. -/
theorem rect0_eq (L : grid0.Coords) :
    Rect.unit (s := S1310720) (k0_off1 L) S40960.size (k0_off1_inb L) = part0 (wid0 L) := by
  unfold part0 Rect.part Rect.block
  congr 1 <;> funext a
  · rw [k0_off1_eq]
    match a with
    | 0 => simp [Shape.partIx, Shape.partSize, wid0]; omega
  · match a with
    | 0 => simp [Shape.partSize]

omit [FloatOps F] in
theorem set0_eq (L : grid0.Coords) : set0 L = (part0 (wid0 L)).set := by
  show ((View.whole (main_v6_scv : Ref sig .scVector)).slice (Rect.unit (s := S1310720) (k0_off1 L) S40960.size (k0_off1_inb L))).set = _
  rw [View.set_slice, rect0_eq]; exact Finset.map_refl

omit [FloatOps F] in
theorem parts0_disjoint : ∀ i ∈ (Finset.univ : Finset (Fin 32)), ∀ j ∈ (Finset.univ : Finset (Fin 32)), i ≠ j →
    Disjoint (part0 i).set (part0 j).set :=
  fun _ _ _ _ h => Rect.part_disjoint hdiv0 h
omit [FloatOps F] in
theorem parts0_cover : (Finset.univ : Finset (Fin 32)).biUnion (fun w => (part0 w).set) = Finset.univ :=
  Rect.biUnion_part hdiv0

omit [FloatOps F] in
/-- The table whole is its thirty-two parts. -/
theorem v6_parts (d : Dev nD) (f : Buf (Elt F) (tLoc main_v6 d)) :
    (tLoc main_v6 d ↦{fullShare} f : sProp 𝕄) = bigSep Finset.univ fun w : Fin 32 => tLoc main_v6 d ↦[(part0 w).set]{fullShare} f := by
  rw [← pointsTo_biUnion Finset.univ (ℓ := tLoc main_v6 d) (fun w => (part0 w).set) parts0_disjoint, parts0_cover]; try rfl
omit [FloatOps F] in
/-- The result array whole is its thirty-two parts. -/
theorem v7_parts (d : Dev nD) (f : Buf (Elt F) (tLoc main_v7 d)) :
    (tLoc main_v7 d ↦{fullShare} f : sProp 𝕄) = bigSep Finset.univ fun w : Fin 32 => tLoc main_v7 d ↦[(part0 w).set]{fullShare} f := by
  rw [← pointsTo_biUnion Finset.univ (ℓ := tLoc main_v7 d) (fun w => (part0 w).set) parts0_disjoint, parts0_cover]; try rfl

/-- The parts held at contents not stated, joined: the table whole at some contents. -/
theorem v6_join (d : Dev nD) :
    (bigSep Finset.univ fun w : Fin 32 => iprop(∃ f, tLoc main_v6 d ↦[(part0 w).set]{fullShare} f))
      ⊢ (iprop(∃ f, tLoc main_v6 d ↦{fullShare} f) : sProp 𝕄) := by
  refine (bigSep_exists_pi Finset.univ (fun w (f : Buf (Elt F) (tLoc main_v6 d)) => (tLoc main_v6 d ↦[(part0 w).set]{fullShare} f : sProp 𝕄))).trans ?_
  iintro ⟨%fs, H⟩
  ihave H' := (pointsTo_biUnion_join Finset.univ (fun w => (part0 w).set) fs (fs 0) parts0_disjoint) $$ H
  icases H' with ⟨%g, -, Hg⟩
  rw [parts0_cover]
  iexists g; iexact Hg
theorem v7_join (d : Dev nD) :
    (bigSep Finset.univ fun w : Fin 32 => iprop(∃ f, tLoc main_v7 d ↦[(part0 w).set]{fullShare} f))
      ⊢ (iprop(∃ f, tLoc main_v7 d ↦{fullShare} f) : sProp 𝕄) := by
  refine (bigSep_exists_pi Finset.univ (fun w (f : Buf (Elt F) (tLoc main_v7 d)) => (tLoc main_v7 d ↦[(part0 w).set]{fullShare} f : sProp 𝕄))).trans ?_
  iintro ⟨%fs, H⟩
  ihave H' := (pointsTo_biUnion_join Finset.univ (fun w => (part0 w).set) fs (fs 0) parts0_disjoint) $$ H
  icases H' with ⟨%g, -, Hg⟩
  rw [parts0_cover]
  iexists g; iexact Hg

omit [FloatOps F] in
theorem v6_part_ex (d : Dev nD) (f : Buf (Elt F) (tLoc main_v6 d)) (w : Fin 32) :
    (tLoc main_v6 d ↦[(part0 w).set]{fullShare} f : sProp 𝕄) ⊢ iprop(∃ g, tLoc main_v6 d ↦[(part0 w).set]{fullShare} g) := by
  iintro H; iexists f; iexact H
omit [FloatOps F] in
theorem v7_part_ex (d : Dev nD) (f : Buf (Elt F) (tLoc main_v7 d)) (w : Fin 32) :
    (tLoc main_v7 d ↦[(part0 w).set]{fullShare} f : sProp 𝕄) ⊢ iprop(∃ g, tLoc main_v7 d ↦[(part0 w).set]{fullShare} g) := by
  iintro H; iexists f; iexact H
omit [FloatOps F] in
theorem v6_parts_ex (d : Dev nD) (f : Buf (Elt F) (tLoc main_v6 d)) :
    (bigSep Finset.univ fun w : Fin 32 => (tLoc main_v6 d ↦[(part0 w).set]{fullShare} f : sProp 𝕄))
      ⊢ bigSep Finset.univ fun w : Fin 32 => iprop(∃ g, tLoc main_v6 d ↦[(part0 w).set]{fullShare} g) :=
  bigSep_mono fun w _ => v6_part_ex d f w
omit [FloatOps F] in
theorem v7_parts_ex (d : Dev nD) (f : Buf (Elt F) (tLoc main_v7 d)) :
    (bigSep Finset.univ fun w : Fin 32 => (tLoc main_v7 d ↦[(part0 w).set]{fullShare} f : sProp 𝕄))
      ⊢ bigSep Finset.univ fun w : Fin 32 => iprop(∃ g, tLoc main_v7 d ↦[(part0 w).set]{fullShare} g) :=
  bigSep_mono fun w _ => v7_part_ex d f w

omit [FloatOps F] in
/-- The thirty-two tile numbers are the pairs (core, subcore), once each: number = subcore · 2 + core. -/
theorem bigSep_tiles0 (Φ : Fin 32 → sProp 𝕄) :
    bigSep Finset.univ Φ = bigSep Finset.univ fun c : Fin ((K (F := F)).nCore 0) =>
      bigSep Finset.univ fun i : Fin ((K (F := F)).nSub 0) => Φ (wid0 (L0 c i)) := by
  classical
  have hinj : Set.InjOn (fun p : Fin ((K (F := F)).nCore 0) × Fin ((K (F := F)).nSub 0) => wid0 (L0 p.1 p.2))
      ↑(Finset.univ ×ˢ Finset.univ : Finset (Fin ((K (F := F)).nCore 0) × Fin ((K (F := F)).nSub 0))) := by
    intro a _ b _ h
    have hv : a.2.val * 2 + a.1.val = b.2.val * 2 + b.1.val := congrArg Fin.val h
    have ha : a.1.val < 2 := a.1.isLt
    have hb : b.1.val < 2 := b.1.isLt
    exact Prod.ext (Fin.ext (by omega)) (Fin.ext (by omega))
  have himg : (Finset.univ ×ˢ Finset.univ : Finset (Fin ((K (F := F)).nCore 0) × Fin ((K (F := F)).nSub 0))).image
      (fun p => wid0 (L0 p.1 p.2)) = Finset.univ := by
    ext w
    simp only [Finset.mem_image, Finset.mem_product, Finset.mem_univ, true_and, iff_true]
    exact ⟨(⟨w.val % 2, Nat.mod_lt _ (by decide)⟩, ⟨w.val / 2, by have := w.isLt; show w.val / 2 < 16; omega⟩),
      Fin.ext (show (w.val / 2) * 2 + w.val % 2 = w.val by omega)⟩
  rw [← himg, bigSep_image_of_injOn hinj, SparseCore.bigSep_product]

/-! ### The four buffers of the first aggregation, out of the invariant's and back -/

/-- The table, the edge sources, the edge destinations and the result array of the first aggregation. -/
def S4 : Finset (DevRef τ sig) :=
  {Proc.devRef .tc main_v6, Proc.devRef .tc main_v1, Proc.devRef .tc main_v3, Proc.devRef .tc main_v7}
theorem S4_sub : S4 ⊆ Pipeline.ucRefs τ sig := by decide

omit [FloatOps F] in
theorem held_S4 (d : Dev nD) (W : Valuation τ sig (Elt F)) {s : Buf (Elt F) (tLoc main_v1 d)} {t : Buf (Elt F) (tLoc main_v3 d)}
    (h1 : W (Proc.devRef .tc main_v1) = s) (h3 : W (Proc.devRef .tc main_v3) = t) :
    (StableHlo.held (T d) S4 W : sProp 𝕄) = iprop((tLoc main_v6 d ↦{fullShare} W (Proc.devRef .tc main_v6))
      ∗ (tLoc main_v1 d ↦{fullShare} s) ∗ (tLoc main_v3 d ↦{fullShare} t)
      ∗ tLoc main_v7 d ↦{fullShare} W (Proc.devRef .tc main_v7)) := by
  subst h1 h3
  unfold StableHlo.held S4
  rw [SparseCore.bigSep_insert' (by decide), SparseCore.bigSep_insert' (by decide), SparseCore.bigSep_insert' (by decide), bigSep_singleton]

variable (m : (ℓ : Loc nD τ sig) → Buf (Elt F) ℓ)

/-- What the TensorCore keeps during the first aggregation: every other unscoped buffer held whole at a valuation that
    agrees with the kept references' contents, and what is left of the edge sources and destinations once the tiles'
    thirty-two read tokens are taken. -/
def Rest0 (d : Dev nD) : sProp 𝕄 :=
  iprop(∃ W : Valuation τ sig (Elt F), ⌜∀ r ∈ keepR, W (Proc.devRef .tc r) = W1 m d (Proc.devRef .tc r)⌝
    ∗ StableHlo.held (T d) (Pipeline.ucRefs τ sig \ S4) W
    ∗ (tLoc main_v1 d ↦{Transfers.shareDrop fullShare 32} srcC m d)
    ∗ (tLoc main_v3 d ↦{Transfers.shareDrop fullShare 32} dstC m d))

/-- Tile number `w`'s share of the first aggregation's operands, by its number. -/
def tile0 (d : Dev nD) (w : Fin 32) : sProp 𝕄 :=
  iprop((∃ ft, tLoc main_v6 d ↦[(part0 w).set]{fullShare} ft)
    ∗ (tLoc main_v1 d ↦{tok w} srcC m d) ∗ (tLoc main_v3 d ↦{tok w} dstC m d)
    ∗ ∃ fo, tLoc main_v7 d ↦[(part0 w).set]{fullShare} fo)

theorem tileRes0_eq (d : Dev nD) (L : grid0.Coords) : tileRes0 (srcC m) (dstC m) d L = tile0 m d (wid0 L) := by
  unfold tileRes0 tile0; rw [set0_eq]

/-- A SparseCore's share of the first call is its sixteen tiles' (the payload's definition, at call 0). -/
theorem P_st0 (d : Dev nD) (c : Fin ((K (F := F)).nCore 0)) : (P (srcC m) (dstC m)).st 0 d c
    = bigSep Finset.univ fun i : Fin ((K (F := F)).nSub 0) => tileRes0 (srcC m) (dstC m) d (L0 c i) := rfl
theorem P_dn0 (d : Dev nD) (c : Fin ((K (F := F)).nCore 0)) : (P (srcC m) (dstC m)).dn 0 d c
    = bigSep Finset.univ fun i : Fin ((K (F := F)).nSub 0) => tileRes0 (srcC m) (dstC m) d (L0 c i) := rfl

/-- What the call takes for the two SparseCores, regrouped: the table's parts, the sources' tokens, the destinations'
    tokens, the result array's parts. What it hands back is the same. -/
theorem st0_eq (d : Dev nD) :
    (bigSep Finset.univ fun c : Fin ((K (F := F)).nCore 0) => (P (srcC m) (dstC m)).st 0 d c)
      = iprop((bigSep Finset.univ fun w : Fin 32 => iprop(∃ ft, tLoc main_v6 d ↦[(part0 w).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v7 d ↦[(part0 w).set]{fullShare} fo))) := by
  have e : ∀ c : Fin ((K (F := F)).nCore 0), (P (srcC m) (dstC m)).st 0 d c
      = bigSep Finset.univ fun i : Fin ((K (F := F)).nSub 0) => tile0 m d (wid0 (L0 c i)) :=
    fun c => (P_st0 m d c).trans (bigSep_congr fun i _ => tileRes0_eq m d (L0 c i))
  rw [bigSep_congr (fun c _ => e c), ← bigSep_tiles0 (F := F) (tile0 m d)]
  unfold tile0
  rw [bigSep_sep', bigSep_sep', bigSep_sep']
theorem dn0_eq (d : Dev nD) :
    (bigSep Finset.univ fun c : Fin ((K (F := F)).nCore 0) => (P (srcC m) (dstC m)).dn 0 d c)
      = iprop((bigSep Finset.univ fun w : Fin 32 => iprop(∃ ft, tLoc main_v6 d ↦[(part0 w).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v7 d ↦[(part0 w).set]{fullShare} fo))) := by
  rw [bigSep_congr (fun c _ => (P_dn0 m d c).trans (P_st0 m d c).symm)]; exact st0_eq m d

/-- Dealing: the invariant's four buffers cut into the tiles' shares, the rest kept. -/
theorem deal0 (d : Dev nD) : (Inv m d : sProp 𝕄)
    ⊢ iprop((bigSep Finset.univ fun c : Fin ((K (F := F)).nCore 0) => (P (srcC m) (dstC m)).st 0 d c) ∗ Rest0 m d) := by
  rw [st0_eq]
  unfold Inv Rest0
  iintro ⟨%W, %hW, Hh⟩
  have e1 : W (Proc.devRef .tc main_v1) = srcC m d := hW main_v1 (by decide)
  have e3 : W (Proc.devRef .tc main_v3) = dstC m d := hW main_v3 (by decide)
  ihave H2 := (Entails.of_eq (StableHlo.held_sub_split (T d) S4_sub W)) $$ Hh
  icases H2 with ⟨H4, Hrest⟩
  ihave H4' := (Entails.of_eq (held_S4 d W e1 e3)) $$ H4
  icases H4' with ⟨H6, H1, H3, H7⟩
  ihave H6' := (Entails.of_eq (v6_parts d _)) $$ H6
  ihave H6'' := (v6_parts_ex d _) $$ H6'
  ihave H7' := (Entails.of_eq (v7_parts d _)) $$ H7
  ihave H7'' := (v7_parts_ex d _) $$ H7'
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H6'' H1t H3t H7'']
  · isplitl [H6'']; · iexact H6''
    isplitl [H1t]; · iexact H1t
    isplitl [H3t]; · iexact H3t
    iexact H7''
  · iexists W; isplitr
    · ipureintro; exact hW
    isplitl [Hrest]; · iexact Hrest
    isplitl [H1d]; · iexact H1d
    iexact H3d

/-- The valuation after the call: the table and the result array at what the tiles left them holding. -/
def Wup0 (W : Valuation τ sig (Elt F)) (d : Dev nD) (f6 : Buf (Elt F) (tLoc main_v6 d)) (f7 : Buf (Elt F) (tLoc main_v7 d)) :
    Valuation τ sig (Elt F) :=
  Function.update (Function.update W (Proc.devRef .tc main_v6) f6) (Proc.devRef .tc main_v7) f7

omit [FloatOps F] in
theorem Wup0_v6 (W : Valuation τ sig (Elt F)) (d : Dev nD) (f6 : Buf (Elt F) (tLoc main_v6 d)) (f7 : Buf (Elt F) (tLoc main_v7 d)) :
    Wup0 W d f6 f7 (Proc.devRef .tc main_v6) = f6 := by
  unfold Wup0
  rw [Function.update_of_ne (show (Proc.devRef .tc main_v6 : DevRef τ sig) ≠ Proc.devRef .tc main_v7 by decide), Function.update_self]
omit [FloatOps F] in
theorem Wup0_v7 (W : Valuation τ sig (Elt F)) (d : Dev nD) (f6 : Buf (Elt F) (tLoc main_v6 d)) (f7 : Buf (Elt F) (tLoc main_v7 d)) :
    Wup0 W d f6 f7 (Proc.devRef .tc main_v7) = f7 := Function.update_self _ _ _
omit [FloatOps F] in
theorem Wup0_of_ne (W : Valuation τ sig (Elt F)) (d : Dev nD) (f6 : Buf (Elt F) (tLoc main_v6 d)) (f7 : Buf (Elt F) (tLoc main_v7 d))
    {b : DevRef τ sig} (h6 : b ≠ Proc.devRef .tc main_v6) (h7 : b ≠ Proc.devRef .tc main_v7) : Wup0 W d f6 f7 b = W b := by
  unfold Wup0; rw [Function.update_of_ne h7, Function.update_of_ne h6]

/-- Collecting: the tiles' shares joined into the four buffers whole, the invariant at the updated valuation. -/
theorem coll0 (d : Dev nD) :
    iprop((bigSep Finset.univ fun c : Fin ((K (F := F)).nCore 0) => (P (srcC m) (dstC m)).dn 0 d c) ∗ Rest0 m d)
      ⊢ (Inv m d : sProp 𝕄) := by
  rw [dn0_eq]
  unfold Inv Rest0
  iintro ⟨⟨H6s, H1t, H3t, H7s⟩, %W, %hW, Hrest, H1d, H3d⟩
  ihave H6 := (v6_join d) $$ H6s
  icases H6 with ⟨%f6, H6⟩
  ihave H7 := (v7_join d) $$ H7s
  icases H7 with ⟨%f7, H7⟩
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have e1 : Wup0 W d f6 f7 (Proc.devRef .tc main_v1) = srcC m d :=
    (Wup0_of_ne W d f6 f7 (by decide) (by decide)).trans (hW main_v1 (by decide))
  have e3 : Wup0 W d f6 f7 (Proc.devRef .tc main_v3) = dstC m d :=
    (Wup0_of_ne W d f6 f7 (by decide) (by decide)).trans (hW main_v3 (by decide))
  have hrest : ∀ b ∈ Pipeline.ucRefs τ sig \ S4, Wup0 W d f6 f7 b = W b := fun b hb =>
    Wup0_of_ne W d f6 f7 (fun e => (Finset.mem_sdiff.mp hb).2 (by rw [e]; decide)) (fun e => (Finset.mem_sdiff.mp hb).2 (by rw [e]; decide))
  iexists (Wup0 W d f6 f7); isplitr
  · ipureintro; intro r hr
    rw [Wup0_of_ne W d f6 f7
      (StableHlo.devRef_ne_of_ne fun e => absurd (show main_v6 ∈ keepR from e ▸ hr) (by decide))
      (StableHlo.devRef_ne_of_ne fun e => absurd (show main_v7 ∈ keepR from e ▸ hr) (by decide))]
    exact hW r hr
  rw [StableHlo.held_sub_split (T d) S4_sub (Wup0 W d f6 f7), held_S4 d _ e1 e3, Wup0_v6, Wup0_v7, StableHlo.held_congr (T d) hrest]
  isplitl [H6 H1 H3 H7]
  · isplitl [H6]; · iexact H6
    isplitl [H1]; · iexact H1
    isplitl [H3]; · iexact H3
    iexact H7
  · iexact Hrest

/-! ## The second aggregation: sixty-four parts of 40960 elements, two to a tile -/

theorem hdiv1 : 64 ∣ S2621440.size 0 := ⟨40960, rfl⟩
/-- Part `p` of the flat array of 2621440 elements cut in sixty-four. -/
abbrev part1 (p : Fin 64) : Rect S2621440 := Rect.part (s := S2621440) (a₀ := 0) hdiv1 p
/-- Stretch `r` of tile number `w` is part `32 r + w`. -/
def pix (r : Fin 2) (w : Fin 32) : Fin 64 := ⟨32 * r.val + w.val, by have := r.isLt; have := w.isLt; omega⟩

omit [FloatOps F] in
/-- The stretch a tile slices at row constant `128 r` is part `32 r + number`: its offset is 40960 times that. -/
theorem rect1_eq (L : grid2.Coords) (r : Fin 2) :
    Rect.unit (s := S2621440) (k2_off1 L (BitVec.ofNat 32 (128 * r.val))) S40960.size (k2_off1_inb L r) = part1 (pix r (wid2 L)) := by
  unfold part1 Rect.part Rect.block
  congr 1 <;> funext a
  · rw [k2_off1_eq]
    match a with
    | 0 => simp [Shape.partIx, Shape.partSize, wid2, pix]; omega
  · match a with
    | 0 => simp [Shape.partSize]

omit [FloatOps F] in
theorem set1_eq (L : grid2.Coords) (r : Fin 2) : set1 L r = (part1 (pix r (wid2 L))).set := by
  show ((View.whole (main_v13_scv : Ref sig .scVector)).slice (Rect.unit (s := S2621440) (k2_off1 L (BitVec.ofNat 32 (128 * r.val))) S40960.size (k2_off1_inb L r))).set = _
  rw [View.set_slice, rect1_eq]; exact Finset.map_refl

omit [FloatOps F] in
theorem parts1_disjoint : ∀ i ∈ (Finset.univ : Finset (Fin 64)), ∀ j ∈ (Finset.univ : Finset (Fin 64)), i ≠ j →
    Disjoint (part1 i).set (part1 j).set :=
  fun _ _ _ _ h => Rect.part_disjoint hdiv1 h
omit [FloatOps F] in
theorem parts1_cover : (Finset.univ : Finset (Fin 64)).biUnion (fun p => (part1 p).set) = Finset.univ :=
  Rect.biUnion_part hdiv1

omit [FloatOps F] in
/-- The sixty-four parts are the tiles' first stretches and their second stretches. -/
theorem bigSep_halves (Φ : Fin 64 → sProp 𝕄) :
    bigSep Finset.univ Φ = iprop((bigSep Finset.univ fun w : Fin 32 => Φ (pix 0 w)) ∗ bigSep Finset.univ fun w : Fin 32 => Φ (pix 1 w)) := by
  classical
  have hinj : Set.InjOn (fun p : Fin 2 × Fin 32 => pix p.1 p.2) ↑(Finset.univ ×ˢ Finset.univ : Finset (Fin 2 × Fin 32)) := by
    intro a _ b _ h
    have hv : 32 * a.1.val + a.2.val = 32 * b.1.val + b.2.val := congrArg Fin.val h
    have := a.2.isLt; have := b.2.isLt
    exact Prod.ext (Fin.ext (by omega)) (Fin.ext (by omega))
  have himg : (Finset.univ ×ˢ Finset.univ : Finset (Fin 2 × Fin 32)).image (fun p => pix p.1 p.2) = Finset.univ := by
    ext p
    simp only [Finset.mem_image, Finset.mem_product, Finset.mem_univ, true_and, iff_true]
    exact ⟨(⟨p.val / 32, by have := p.isLt; omega⟩, ⟨p.val % 32, Nat.mod_lt _ (by decide)⟩),
      Fin.ext (show 32 * (p.val / 32) + p.val % 32 = p.val by omega)⟩
  rw [← himg, bigSep_image_of_injOn hinj, SparseCore.bigSep_product, bigSep_univ_two]

omit [FloatOps F] in
theorem v13_parts (d : Dev nD) (f : Buf (Elt F) (tLoc main_v13 d)) :
    (tLoc main_v13 d ↦{fullShare} f : sProp 𝕄) = bigSep Finset.univ fun p : Fin 64 => tLoc main_v13 d ↦[(part1 p).set]{fullShare} f := by
  rw [← pointsTo_biUnion Finset.univ (ℓ := tLoc main_v13 d) (fun p => (part1 p).set) parts1_disjoint, parts1_cover]; try rfl
theorem v13_join (d : Dev nD) :
    (bigSep Finset.univ fun p : Fin 64 => iprop(∃ f, tLoc main_v13 d ↦[(part1 p).set]{fullShare} f))
      ⊢ (iprop(∃ f, tLoc main_v13 d ↦{fullShare} f) : sProp 𝕄) := by
  refine (bigSep_exists_pi Finset.univ (fun p (f : Buf (Elt F) (tLoc main_v13 d)) => (tLoc main_v13 d ↦[(part1 p).set]{fullShare} f : sProp 𝕄))).trans ?_
  iintro ⟨%fs, H⟩
  ihave H' := (pointsTo_biUnion_join Finset.univ (fun p => (part1 p).set) fs (fs 0) parts1_disjoint) $$ H
  icases H' with ⟨%g, -, Hg⟩
  rw [parts1_cover]
  iexists g; iexact Hg
omit [FloatOps F] in
theorem v13_part_ex (d : Dev nD) (f : Buf (Elt F) (tLoc main_v13 d)) (p : Fin 64) :
    (tLoc main_v13 d ↦[(part1 p).set]{fullShare} f : sProp 𝕄) ⊢ iprop(∃ g, tLoc main_v13 d ↦[(part1 p).set]{fullShare} g) := by
  iintro H; iexists f; iexact H
/-- The buffer whole, as the tiles' first stretches and their second stretches, each at contents not stated. -/
theorem v13_deal (d : Dev nD) (f : Buf (Elt F) (tLoc main_v13 d)) :
    (tLoc main_v13 d ↦{fullShare} f : sProp 𝕄)
      ⊢ iprop((bigSep Finset.univ fun w : Fin 32 => iprop(∃ g, tLoc main_v13 d ↦[(part1 (pix 0 w)).set]{fullShare} g))
        ∗ bigSep Finset.univ fun w : Fin 32 => iprop(∃ g, tLoc main_v13 d ↦[(part1 (pix 1 w)).set]{fullShare} g)) := by
  rw [v13_parts, bigSep_halves (F := F) (fun p => (tLoc main_v13 d ↦[(part1 p).set]{fullShare} f : sProp 𝕄))]
  exact BI.sep_mono (bigSep_mono fun w _ => v13_part_ex d f (pix 0 w)) (bigSep_mono fun w _ => v13_part_ex d f (pix 1 w))
/-- And back: the stretches joined are the buffer whole at some contents. -/
theorem v13_coll (d : Dev nD) :
    iprop((bigSep Finset.univ fun w : Fin 32 => iprop(∃ g, tLoc main_v13 d ↦[(part1 (pix 0 w)).set]{fullShare} g))
        ∗ bigSep Finset.univ fun w : Fin 32 => iprop(∃ g, tLoc main_v13 d ↦[(part1 (pix 1 w)).set]{fullShare} g))
      ⊢ (iprop(∃ f, tLoc main_v13 d ↦{fullShare} f) : sProp 𝕄) :=
  (Entails.of_eq (bigSep_halves (F := F) (fun p => iprop(∃ g, tLoc main_v13 d ↦[(part1 p).set]{fullShare} g))).symm).trans (v13_join d)

omit [FloatOps F] in
theorem v14_parts (d : Dev nD) (f : Buf (Elt F) (tLoc main_v14 d)) :
    (tLoc main_v14 d ↦{fullShare} f : sProp 𝕄) = bigSep Finset.univ fun p : Fin 64 => tLoc main_v14 d ↦[(part1 p).set]{fullShare} f := by
  rw [← pointsTo_biUnion Finset.univ (ℓ := tLoc main_v14 d) (fun p => (part1 p).set) parts1_disjoint, parts1_cover]; try rfl
theorem v14_join (d : Dev nD) :
    (bigSep Finset.univ fun p : Fin 64 => iprop(∃ f, tLoc main_v14 d ↦[(part1 p).set]{fullShare} f))
      ⊢ (iprop(∃ f, tLoc main_v14 d ↦{fullShare} f) : sProp 𝕄) := by
  refine (bigSep_exists_pi Finset.univ (fun p (f : Buf (Elt F) (tLoc main_v14 d)) => (tLoc main_v14 d ↦[(part1 p).set]{fullShare} f : sProp 𝕄))).trans ?_
  iintro ⟨%fs, H⟩
  ihave H' := (pointsTo_biUnion_join Finset.univ (fun p => (part1 p).set) fs (fs 0) parts1_disjoint) $$ H
  icases H' with ⟨%g, -, Hg⟩
  rw [parts1_cover]
  iexists g; iexact Hg
omit [FloatOps F] in
theorem v14_part_ex (d : Dev nD) (f : Buf (Elt F) (tLoc main_v14 d)) (p : Fin 64) :
    (tLoc main_v14 d ↦[(part1 p).set]{fullShare} f : sProp 𝕄) ⊢ iprop(∃ g, tLoc main_v14 d ↦[(part1 p).set]{fullShare} g) := by
  iintro H; iexists f; iexact H
/-- The buffer whole, as the tiles' first stretches and their second stretches, each at contents not stated. -/
theorem v14_deal (d : Dev nD) (f : Buf (Elt F) (tLoc main_v14 d)) :
    (tLoc main_v14 d ↦{fullShare} f : sProp 𝕄)
      ⊢ iprop((bigSep Finset.univ fun w : Fin 32 => iprop(∃ g, tLoc main_v14 d ↦[(part1 (pix 0 w)).set]{fullShare} g))
        ∗ bigSep Finset.univ fun w : Fin 32 => iprop(∃ g, tLoc main_v14 d ↦[(part1 (pix 1 w)).set]{fullShare} g)) := by
  rw [v14_parts, bigSep_halves (F := F) (fun p => (tLoc main_v14 d ↦[(part1 p).set]{fullShare} f : sProp 𝕄))]
  exact BI.sep_mono (bigSep_mono fun w _ => v14_part_ex d f (pix 0 w)) (bigSep_mono fun w _ => v14_part_ex d f (pix 1 w))
/-- And back: the stretches joined are the buffer whole at some contents. -/
theorem v14_coll (d : Dev nD) :
    iprop((bigSep Finset.univ fun w : Fin 32 => iprop(∃ g, tLoc main_v14 d ↦[(part1 (pix 0 w)).set]{fullShare} g))
        ∗ bigSep Finset.univ fun w : Fin 32 => iprop(∃ g, tLoc main_v14 d ↦[(part1 (pix 1 w)).set]{fullShare} g))
      ⊢ (iprop(∃ f, tLoc main_v14 d ↦{fullShare} f) : sProp 𝕄) :=
  (Entails.of_eq (bigSep_halves (F := F) (fun p => iprop(∃ g, tLoc main_v14 d ↦[(part1 p).set]{fullShare} g))).symm).trans (v14_join d)

omit [FloatOps F] in
/-- The thirty-two tile numbers of the second call are the pairs (core, subcore), once each. -/
theorem bigSep_tiles1 (Φ : Fin 32 → sProp 𝕄) :
    bigSep Finset.univ Φ = bigSep Finset.univ fun c : Fin ((K (F := F)).nCore 1) =>
      bigSep Finset.univ fun i : Fin ((K (F := F)).nSub 1) => Φ (wid2 (L1 c i)) := by
  classical
  have hinj : Set.InjOn (fun p : Fin ((K (F := F)).nCore 1) × Fin ((K (F := F)).nSub 1) => wid2 (L1 p.1 p.2))
      ↑(Finset.univ ×ˢ Finset.univ : Finset (Fin ((K (F := F)).nCore 1) × Fin ((K (F := F)).nSub 1))) := by
    intro a _ b _ h
    have hv : a.2.val * 2 + a.1.val = b.2.val * 2 + b.1.val := congrArg Fin.val h
    have ha : a.1.val < 2 := a.1.isLt
    have hb : b.1.val < 2 := b.1.isLt
    exact Prod.ext (Fin.ext (by omega)) (Fin.ext (by omega))
  have himg : (Finset.univ ×ˢ Finset.univ : Finset (Fin ((K (F := F)).nCore 1) × Fin ((K (F := F)).nSub 1))).image
      (fun p => wid2 (L1 p.1 p.2)) = Finset.univ := by
    ext w
    simp only [Finset.mem_image, Finset.mem_product, Finset.mem_univ, true_and, iff_true]
    exact ⟨(⟨w.val % 2, Nat.mod_lt _ (by decide)⟩, ⟨w.val / 2, by have := w.isLt; show w.val / 2 < 16; omega⟩),
      Fin.ext (show (w.val / 2) * 2 + w.val % 2 = w.val by omega)⟩
  rw [← himg, bigSep_image_of_injOn hinj, SparseCore.bigSep_product]

/-! ### The four buffers of the second aggregation, out of the invariant's and back -/

/-- The table, the edge sources, the edge destinations and the result array of the second aggregation. -/
def S4' : Finset (DevRef τ sig) :=
  {Proc.devRef .tc main_v13, Proc.devRef .tc main_v1, Proc.devRef .tc main_v3, Proc.devRef .tc main_v14}
theorem S4'_sub : S4' ⊆ Pipeline.ucRefs τ sig := by decide

omit [FloatOps F] in
theorem held_S4' (d : Dev nD) (W : Valuation τ sig (Elt F)) {s : Buf (Elt F) (tLoc main_v1 d)} {t : Buf (Elt F) (tLoc main_v3 d)}
    (h1 : W (Proc.devRef .tc main_v1) = s) (h3 : W (Proc.devRef .tc main_v3) = t) :
    (StableHlo.held (T d) S4' W : sProp 𝕄) = iprop((tLoc main_v13 d ↦{fullShare} W (Proc.devRef .tc main_v13))
      ∗ (tLoc main_v1 d ↦{fullShare} s) ∗ (tLoc main_v3 d ↦{fullShare} t)
      ∗ tLoc main_v14 d ↦{fullShare} W (Proc.devRef .tc main_v14)) := by
  subst h1 h3
  unfold StableHlo.held S4'
  rw [SparseCore.bigSep_insert' (by decide), SparseCore.bigSep_insert' (by decide), SparseCore.bigSep_insert' (by decide), bigSep_singleton]

/-- What the TensorCore keeps during the second aggregation. -/
def Rest1 (d : Dev nD) : sProp 𝕄 :=
  iprop(∃ W : Valuation τ sig (Elt F), ⌜∀ r ∈ keepR, W (Proc.devRef .tc r) = W1 m d (Proc.devRef .tc r)⌝
    ∗ StableHlo.held (T d) (Pipeline.ucRefs τ sig \ S4') W
    ∗ (tLoc main_v1 d ↦{Transfers.shareDrop fullShare 32} srcC m d)
    ∗ (tLoc main_v3 d ↦{Transfers.shareDrop fullShare 32} dstC m d))

/-- Tile number `w`'s share of the second aggregation's operands, by its number: two stretches of the table, the two
    read tokens, two stretches of the result array. -/
def tile1 (d : Dev nD) (w : Fin 32) : sProp 𝕄 :=
  iprop((∃ ft, tLoc main_v13 d ↦[(part1 (pix 0 w)).set]{fullShare} ft)
    ∗ (∃ ft, tLoc main_v13 d ↦[(part1 (pix 1 w)).set]{fullShare} ft)
    ∗ (tLoc main_v1 d ↦{tok w} srcC m d) ∗ (tLoc main_v3 d ↦{tok w} dstC m d)
    ∗ (∃ fo, tLoc main_v14 d ↦[(part1 (pix 0 w)).set]{fullShare} fo)
    ∗ ∃ fo, tLoc main_v14 d ↦[(part1 (pix 1 w)).set]{fullShare} fo)

theorem tileRes1_eq (d : Dev nD) (L : grid2.Coords) : tileRes1 (srcC m) (dstC m) d L = tile1 m d (wid2 L) := by
  unfold tileRes1 tile1; rw [set1_eq L 0, set1_eq L 1]

/-- A SparseCore's share of the second call is its sixteen tiles' (the payload's definition, at call 1). -/
theorem P_st1 (d : Dev nD) (c : Fin ((K (F := F)).nCore 1)) : (P (srcC m) (dstC m)).st 1 d c
    = bigSep Finset.univ fun i : Fin ((K (F := F)).nSub 1) => tileRes1 (srcC m) (dstC m) d (L1 c i) := rfl
theorem P_dn1 (d : Dev nD) (c : Fin ((K (F := F)).nCore 1)) : (P (srcC m) (dstC m)).dn 1 d c
    = bigSep Finset.univ fun i : Fin ((K (F := F)).nSub 1) => tileRes1 (srcC m) (dstC m) d (L1 c i) := rfl

/-- What the second call takes for the two SparseCores, regrouped; what it hands back is the same. -/
theorem st1_eq (d : Dev nD) :
    (bigSep Finset.univ fun c : Fin ((K (F := F)).nCore 1) => (P (srcC m) (dstC m)).st 1 d c)
      = iprop((bigSep Finset.univ fun w : Fin 32 => iprop(∃ ft, tLoc main_v13 d ↦[(part1 (pix 0 w)).set]{fullShare} ft))
        ∗ (bigSep Finset.univ fun w : Fin 32 => iprop(∃ ft, tLoc main_v13 d ↦[(part1 (pix 1 w)).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v14 d ↦[(part1 (pix 0 w)).set]{fullShare} fo))
        ∗ (bigSep Finset.univ fun w : Fin 32 => iprop(∃ fo, tLoc main_v14 d ↦[(part1 (pix 1 w)).set]{fullShare} fo))) := by
  have e : ∀ c : Fin ((K (F := F)).nCore 1), (P (srcC m) (dstC m)).st 1 d c
      = bigSep Finset.univ fun i : Fin ((K (F := F)).nSub 1) => tile1 m d (wid2 (L1 c i)) :=
    fun c => (P_st1 m d c).trans (bigSep_congr fun i _ => tileRes1_eq m d (L1 c i))
  rw [bigSep_congr (fun c _ => e c), ← bigSep_tiles1 (F := F) (tile1 m d)]
  unfold tile1
  rw [bigSep_sep', bigSep_sep', bigSep_sep', bigSep_sep', bigSep_sep']
theorem dn1_eq (d : Dev nD) :
    (bigSep Finset.univ fun c : Fin ((K (F := F)).nCore 1) => (P (srcC m) (dstC m)).dn 1 d c)
      = iprop((bigSep Finset.univ fun w : Fin 32 => iprop(∃ ft, tLoc main_v13 d ↦[(part1 (pix 0 w)).set]{fullShare} ft))
        ∗ (bigSep Finset.univ fun w : Fin 32 => iprop(∃ ft, tLoc main_v13 d ↦[(part1 (pix 1 w)).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v14 d ↦[(part1 (pix 0 w)).set]{fullShare} fo))
        ∗ (bigSep Finset.univ fun w : Fin 32 => iprop(∃ fo, tLoc main_v14 d ↦[(part1 (pix 1 w)).set]{fullShare} fo))) := by
  rw [bigSep_congr (fun c _ => (P_dn1 m d c).trans (P_st1 m d c).symm)]; exact st1_eq m d

/-- Dealing, second call. -/
theorem deal1 (d : Dev nD) : (Inv m d : sProp 𝕄)
    ⊢ iprop((bigSep Finset.univ fun c : Fin ((K (F := F)).nCore 1) => (P (srcC m) (dstC m)).st 1 d c) ∗ Rest1 m d) := by
  rw [st1_eq]
  unfold Inv Rest1
  iintro ⟨%W, %hW, Hh⟩
  have e1 : W (Proc.devRef .tc main_v1) = srcC m d := hW main_v1 (by decide)
  have e3 : W (Proc.devRef .tc main_v3) = dstC m d := hW main_v3 (by decide)
  ihave H2 := (Entails.of_eq (StableHlo.held_sub_split (T d) S4'_sub W)) $$ Hh
  icases H2 with ⟨H4, Hrest⟩
  ihave H4' := (Entails.of_eq (held_S4' d W e1 e3)) $$ H4
  icases H4' with ⟨H13, H1, H3, H14⟩
  ihave H13' := (v13_deal d _) $$ H13
  icases H13' with ⟨H13a, H13b⟩
  ihave H14' := (v14_deal d _) $$ H14
  icases H14' with ⟨H14a, H14b⟩
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H13a H13b H1t H3t H14a H14b]
  · isplitl [H13a]; · iexact H13a
    isplitl [H13b]; · iexact H13b
    isplitl [H1t]; · iexact H1t
    isplitl [H3t]; · iexact H3t
    isplitl [H14a]; · iexact H14a
    iexact H14b
  · iexists W; isplitr
    · ipureintro; exact hW
    isplitl [Hrest]; · iexact Hrest
    isplitl [H1d]; · iexact H1d
    iexact H3d

/-- The valuation after the second call. -/
def Wup1 (W : Valuation τ sig (Elt F)) (d : Dev nD) (f13 : Buf (Elt F) (tLoc main_v13 d)) (f14 : Buf (Elt F) (tLoc main_v14 d)) :
    Valuation τ sig (Elt F) :=
  Function.update (Function.update W (Proc.devRef .tc main_v13) f13) (Proc.devRef .tc main_v14) f14

omit [FloatOps F] in
theorem Wup1_v13 (W : Valuation τ sig (Elt F)) (d : Dev nD) (f13 : Buf (Elt F) (tLoc main_v13 d)) (f14 : Buf (Elt F) (tLoc main_v14 d)) :
    Wup1 W d f13 f14 (Proc.devRef .tc main_v13) = f13 := by
  unfold Wup1
  rw [Function.update_of_ne (show (Proc.devRef .tc main_v13 : DevRef τ sig) ≠ Proc.devRef .tc main_v14 by decide), Function.update_self]
omit [FloatOps F] in
theorem Wup1_v14 (W : Valuation τ sig (Elt F)) (d : Dev nD) (f13 : Buf (Elt F) (tLoc main_v13 d)) (f14 : Buf (Elt F) (tLoc main_v14 d)) :
    Wup1 W d f13 f14 (Proc.devRef .tc main_v14) = f14 := Function.update_self _ _ _
omit [FloatOps F] in
theorem Wup1_of_ne (W : Valuation τ sig (Elt F)) (d : Dev nD) (f13 : Buf (Elt F) (tLoc main_v13 d)) (f14 : Buf (Elt F) (tLoc main_v14 d))
    {b : DevRef τ sig} (h13 : b ≠ Proc.devRef .tc main_v13) (h14 : b ≠ Proc.devRef .tc main_v14) : Wup1 W d f13 f14 b = W b := by
  unfold Wup1; rw [Function.update_of_ne h14, Function.update_of_ne h13]

/-- Collecting, second call. -/
theorem coll1 (d : Dev nD) :
    iprop((bigSep Finset.univ fun c : Fin ((K (F := F)).nCore 1) => (P (srcC m) (dstC m)).dn 1 d c) ∗ Rest1 m d)
      ⊢ (Inv m d : sProp 𝕄) := by
  rw [dn1_eq]
  unfold Inv Rest1
  iintro ⟨⟨H13a, H13b, H1t, H3t, H14a, H14b⟩, %W, %hW, Hrest, H1d, H3d⟩
  ihave H13 := (v13_coll d) $$ [H13a H13b]
  · isplitl [H13a]; · iexact H13a
    iexact H13b
  icases H13 with ⟨%f13, H13⟩
  ihave H14 := (v14_coll d) $$ [H14a H14b]
  · isplitl [H14a]; · iexact H14a
    iexact H14b
  icases H14 with ⟨%f14, H14⟩
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have e1 : Wup1 W d f13 f14 (Proc.devRef .tc main_v1) = srcC m d :=
    (Wup1_of_ne W d f13 f14 (by decide) (by decide)).trans (hW main_v1 (by decide))
  have e3 : Wup1 W d f13 f14 (Proc.devRef .tc main_v3) = dstC m d :=
    (Wup1_of_ne W d f13 f14 (by decide) (by decide)).trans (hW main_v3 (by decide))
  have hrest : ∀ b ∈ Pipeline.ucRefs τ sig \ S4', Wup1 W d f13 f14 b = W b := fun b hb =>
    Wup1_of_ne W d f13 f14 (fun e => (Finset.mem_sdiff.mp hb).2 (by rw [e]; decide)) (fun e => (Finset.mem_sdiff.mp hb).2 (by rw [e]; decide))
  iexists (Wup1 W d f13 f14); isplitr
  · ipureintro; intro r hr
    rw [Wup1_of_ne W d f13 f14
      (StableHlo.devRef_ne_of_ne fun e => absurd (show main_v13 ∈ keepR from e ▸ hr) (by decide))
      (StableHlo.devRef_ne_of_ne fun e => absurd (show main_v14 ∈ keepR from e ▸ hr) (by decide))]
    exact hW r hr
  rw [StableHlo.held_sub_split (T d) S4'_sub (Wup1 W d f13 f14), held_S4' d _ e1 e3, Wup1_v13, Wup1_v14, StableHlo.held_congr (T d) hrest]
  isplitl [H13 H1 H3 H14]
  · isplitl [H13]; · iexact H13
    isplitl [H1]; · iexact H1
    isplitl [H3]; · iexact H3
    iexact H14
  · iexact Hrest

end Cert.Proof.KernelIdealL

end
-- ==== Proof.KIReg0.lean ====
/-
  The first TensorCore layer's step in @main's proof: the call of its pipeline, entered inside the aggregation launch.

  The layer's body reads its four input blocks (a 128 × 2048 block of the aggregated features, the 256 × 128 weights,
  the bias and the slope columns) and stores the whole 256 × 2048 output block: the weights times the block plus the bias,
  negative entries scaled by the slope. Its triple is the symbolic run of the printed body; the pipeline's proof data hold
  each input's buffer at its block at every point (fetched there or not: an unfetched window's index has not moved) and
  the output's at the body's store; the region's invariant is the core's scoped rest and its generator register.

  What differs from a region of a plain TensorCore program is that the TensorCore OWES during the region: the start
  signals of the second aggregation. The proof data's debt is that constant, every unit of it at a level above the
  first call's cut, and the pipeline's own waits, on its staging cells at the kernels' index, sit at level zero: so
  they are admissible, and the bound on the core's recorded waits survives them. The region is the library's region
  rule lifted along the launch's body table; around it the invariant of @main's proof is opened at its valuation, the
  region run from that valuation to the one updated at the region's arrays, and the invariant re-established there: no
  kept reference is one of the region's arrays.
-/
import proofs.«211848_g47218870452992_cont_8to1c4_747_2_alg».proof.Proof.KIHmain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The first layer's body: its accesses, and what it leaves in the output block's buffer -/

abbrev r1A : Rect S128x2048 := Rect.unit (s := S128x2048) ![0, 0] S128x2048.size inb_S128x2048_S128x2048_0_0
abbrev r1W : Rect S256x128 := Rect.unit (s := S256x128) ![0, 0] S256x128.size inb_S256x128_S256x128_0_0
abbrev r1B : Rect S256x1 := Rect.unit (s := S256x1) ![0, 0] S256x1.size inb_S256x1_S256x1_0_0
abbrev r1O : Rect S256x2048 := Rect.unit (s := S256x2048) ![0, 0] S256x2048.size inb_S256x2048_S256x2048_0_0

/-- The output block's buffer after the body, from the four input blocks: its one store, of the whole block. -/
def out1_4 (x0 : Vec F S128x2048 .f32) (x1 : Vec F S256x128 .f32) (x2 x3 : Vec F S256x1 .f32) : Vec F S256x2048 .f32 :=
  View.canon [⟨r1O, k1_pay1 (View.ld x1 r1W) (View.ld x0 r1A) (View.ld x2 r1B) (View.ld x3 r1B)⟩]

/-- The one store covers the block. -/
theorem cover1_4 (p0 : Vec F S256x2048 .f32) (y : S256x2048.Idx) :
    ∃ pc ∈ ([⟨r1O, p0⟩] : List (View.Piece (Elt F) S256x2048 .f32)), y ∈ pc.1.set :=
  View.cover_of_tiled [⟨r1O, p0⟩] S256x2048.size (by rfl) y

set_option maxHeartbeats 1000000 in
/-- The body on whole staging memrefs, the four inputs' at read contents and the output's at anything, runs to the continuation
    holding the inputs' as they were and the output's at `out1_4` of them. -/
theorem sound_kernel1 (c : Dev nD) (E : Set ℕ) (i : grid1.Coords)
    (arg1 : Memref sig .tc .vmem S128x2048 .f32) (harg1 : arg1.IsWhole) (arg2 : Memref sig .tc .vmem S256x128 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x2048 .f32) (harg5 : arg5.IsWhole)
    (x0 : Vec F S128x2048 .f32) (x1 : Vec F S256x128 .f32) (x2 x3 : Vec F S256x1 .f32) (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ Kk ⟨⟩))
      ⊢ wp frame (wpE (defs₀ (F := F)) Variants.none c none) E (cc1_body i arg1 harg1 arg2 harg2 arg3 harg3 arg4 harg4 arg5 harg5) Kk := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The windows' blocks, and the pipeline's proof data at the contents the region is entered from -/

/-- Window `w`'s block at point `t`, read off its array as the region finds it. -/
def iblk1 (Vv : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (Vv c (Pipeline.arrRef spec1 w))

/-- Input window 0's current staging buffer holds its block at every point, fetched there or not. -/
theorem before1_0_of (Vv : (c : Dev nD) → (b : Ref sig .tc) → Buf (Elt F) ((c : Thread nD τ).loc b)) {c : Dev nD}
    (dat : Dat τ (Elt F) (HIx 2) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of (Vv : (c : Dev nD) → (b : Ref sig .tc) → Buf (Elt F) ((c : Thread nD τ).loc b)) {c : Dev nD}
    (dat : Dat τ (Elt F) (HIx 2) ℕ UU ℕ cfg1 c) (hA : dat.A 1 = Vv c (Pipeline.arrRef spec1 1))
    (hafter : ∀ t, dat.after 1 t = iblk1 Vv c 1 t) (t : Fin cfg1.N) (d) : dat.before 1 t d = iblk1 Vv c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of (Vv : (c : Dev nD) → (b : Ref sig .tc) → Buf (Elt F) ((c : Thread nD τ).loc b)) {c : Dev nD}
    (dat : Dat τ (Elt F) (HIx 2) ℕ UU ℕ cfg1 c) (hA : dat.A 2 = Vv c (Pipeline.arrRef spec1 2))
    (hafter : ∀ t, dat.after 2 t = iblk1 Vv c 2 t) (t : Fin cfg1.N) (d) : dat.before 2 t d = iblk1 Vv c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of (Vv : (c : Dev nD) → (b : Ref sig .tc) → Buf (Elt F) ((c : Thread nD τ).loc b)) {c : Dev nD}
    (dat : Dat τ (Elt F) (HIx 2) ℕ UU ℕ cfg1 c) (hA : dat.A 3 = Vv c (Pipeline.arrRef spec1 3))
    (hafter : ∀ t, dat.after 3 t = iblk1 Vv c 3 t) (t : Fin cfg1.N) (d) : dat.before 3 t d = iblk1 Vv c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The region's invariant on core `c`: the core's scoped buffers that are no staging buffer of this pipeline, at some contents each, and
    its generator register at some state — what the body need not describe. -/
def Φ1 (c : Dev nD) : sProp 𝕄 :=
  iprop(Pipeline.scopedRest (Ix := HIx 2) (Name := ℕ) (U := UU) (Lvl := ℕ) (Val := Elt F) spec1 c ∗ ∃ r, prngReg c r)

/-- The proof data of the first layer's pipeline on core `c`: the arrays as the region finds them; after the body at a point each
    input's buffer at its block and the output's at `out1_4` of the input blocks; the invariant the scoped rest and the generator
    register, untouched; throughout the region the core owes what it owes before the second aggregation, and its recorded waits
    sit at or below that call's level. -/
def dat1 (Vv : (c : Dev nD) → (b : Ref sig .tc) → Buf (Elt F) ((c : Thread nD τ).loc b)) (c : Dev nD) : Dat τ (Elt F) (HIx 2) ℕ UU ℕ cfg1 c where
  A w := Vv c (Pipeline.arrRef spec1 w)
  after w t := match w with
    | ⟨0, _⟩ => iblk1 Vv c 0 t
    | ⟨1, _⟩ => iblk1 Vv c 1 t
    | ⟨2, _⟩ => iblk1 Vv c 2 t
    | ⟨3, _⟩ => iblk1 Vv c 3 t
    | ⟨4, _⟩ => out1_4 (iblk1 Vv c 0 t) (iblk1 Vv c 1 t) (iblk1 Vv c 2 t) (iblk1 Vv c 3 t)
  Φ _ := Φ1 (F := F) c
  q _ := fullShare
  owed _ := (K (F := F)).Otc c 1
  recorded _ := {p | (K (F := F)).lev (T c, p.1) p.2 ≤ 8}

theorem A_eq1 (Vv : (c : Dev nD) → (b : Ref sig .tc) → Buf (Elt F) ((c : Thread nD τ).loc b)) (c : Dev nD) (w : Fin cfg1.W) :
    (dat1 Vv c).A w = Vv c (Pipeline.arrRef spec1 w) := by
  dsimp only [dat1]
theorem after1_0 (Vv : (c : Dev nD) → (b : Ref sig .tc) → Buf (Elt F) ((c : Thread nD τ).loc b)) (c : Dev nD) (t : Fin cfg1.N) :
    (dat1 Vv c).after 0 t = iblk1 Vv c 0 t := by dsimp only [dat1]
theorem after1_1 (Vv : (c : Dev nD) → (b : Ref sig .tc) → Buf (Elt F) ((c : Thread nD τ).loc b)) (c : Dev nD) (t : Fin cfg1.N) :
    (dat1 Vv c).after 1 t = iblk1 Vv c 1 t := by dsimp only [dat1]
theorem after1_2 (Vv : (c : Dev nD) → (b : Ref sig .tc) → Buf (Elt F) ((c : Thread nD τ).loc b)) (c : Dev nD) (t : Fin cfg1.N) :
    (dat1 Vv c).after 2 t = iblk1 Vv c 2 t := by dsimp only [dat1]
theorem after1_3 (Vv : (c : Dev nD) → (b : Ref sig .tc) → Buf (Elt F) ((c : Thread nD τ).loc b)) (c : Dev nD) (t : Fin cfg1.N) :
    (dat1 Vv c).after 3 t = iblk1 Vv c 3 t := by dsimp only [dat1]
theorem after1_4 (Vv : (c : Dev nD) → (b : Ref sig .tc) → Buf (Elt F) ((c : Thread nD τ).loc b)) (c : Dev nD) (t : Fin cfg1.N) :
    (dat1 Vv c).after 4 t = out1_4 (iblk1 Vv c 0 t) (iblk1 Vv c 1 t) (iblk1 Vv c 2 t) (iblk1 Vv c 3 t) := by dsimp only [dat1]
theorem before1_0 (Vv : (c : Dev nD) → (b : Ref sig .tc) → Buf (Elt F) ((c : Thread nD τ).loc b)) (c : Dev nD) (t : Fin cfg1.N) (d) :
    (dat1 Vv c).before 0 t d = iblk1 Vv c 0 t :=
  before1_0_of Vv (dat1 Vv c) (A_eq1 Vv c 0) (after1_0 Vv c) t d
theorem before1_1 (Vv : (c : Dev nD) → (b : Ref sig .tc) → Buf (Elt F) ((c : Thread nD τ).loc b)) (c : Dev nD) (t : Fin cfg1.N) (d) :
    (dat1 Vv c).before 1 t d = iblk1 Vv c 1 t :=
  before1_1_of Vv (dat1 Vv c) (A_eq1 Vv c 1) (after1_1 Vv c) t d
theorem before1_2 (Vv : (c : Dev nD) → (b : Ref sig .tc) → Buf (Elt F) ((c : Thread nD τ).loc b)) (c : Dev nD) (t : Fin cfg1.N) (d) :
    (dat1 Vv c).before 2 t d = iblk1 Vv c 2 t :=
  before1_2_of Vv (dat1 Vv c) (A_eq1 Vv c 2) (after1_2 Vv c) t d
theorem before1_3 (Vv : (c : Dev nD) → (b : Ref sig .tc) → Buf (Elt F) ((c : Thread nD τ).loc b)) (c : Dev nD) (t : Fin cfg1.N) (d) :
    (dat1 Vv c).before 3 t d = iblk1 Vv c 3 t :=
  before1_3_of Vv (dat1 Vv c) (A_eq1 Vv c 3) (after1_3 Vv c) t d

/-! ## The body obligation, at a generic point -/

def bodyPre1 (Vv : (c : Dev nD) → (b : Ref sig .tc) → Buf (Elt F) ((c : Thread nD τ).loc b)) (c : Dev nD) (t : Fin cfg1.N) : sProp 𝕄 :=
  iprop((dat1 Vv c).Φ t.castSucc ∗ (dat1 Vv c).owesAt (none : HIx 2) t.castSucc
    ∗ (∃ d, owns (c : Thread nD τ) (st1_0 t) fullShare ((dat1 Vv c).before 0 t d))
    ∗ (∃ d, owns (c : Thread nD τ) (st1_1 t) fullShare ((dat1 Vv c).before 1 t d))
    ∗ (∃ d, owns (c : Thread nD τ) (st1_2 t) fullShare ((dat1 Vv c).before 2 t d))
    ∗ (∃ d, owns (c : Thread nD τ) (st1_3 t) fullShare ((dat1 Vv c).before 3 t d))
    ∗ (∃ d, owns (c : Thread nD τ) (st1_4 t) fullShare ((dat1 Vv c).before 4 t d)))

def bodyPost1 (Vv : (c : Dev nD) → (b : Ref sig .tc) → Buf (Elt F) ((c : Thread nD τ).loc b)) (c : Dev nD) (t : Fin cfg1.N) : sProp 𝕄 :=
  iprop((dat1 Vv c).Φ t.succ ∗ (dat1 Vv c).owesAt (none : HIx 2) t.succ
    ∗ owns (c : Thread nD τ) (st1_0 t) fullShare ((dat1 Vv c).after 0 t)
    ∗ owns (c : Thread nD τ) (st1_1 t) fullShare ((dat1 Vv c).after 1 t)
    ∗ owns (c : Thread nD τ) (st1_2 t) fullShare ((dat1 Vv c).after 2 t)
    ∗ owns (c : Thread nD τ) (st1_3 t) fullShare ((dat1 Vv c).after 3 t)
    ∗ owns (c : Thread nD τ) (st1_4 t) fullShare ((dat1 Vv c).after 4 t))

/-- The body at any point: the inputs' memrefs hold their blocks, so `sound_kernel1` applies; the invariant and the core's `owes`
    pass through unread. -/
theorem sound_body1 (Vv : (c : Dev nD) → (b : Ref sig .tc) → Buf (Elt F) ((c : Thread nD τ).loc b)) (c : Dev nD) (t : Fin cfg1.N) :
    bodyPre1 Vv c t ⊢ wp frame (wpE (defs₀ (F := F)) Variants.none c none) Set.univ (bodyAt1 t) (fun _ => bodyPost1 Vv c t) := by
  unfold bodyPre1 bodyPost1 bodyAt1
  simp only [before1_0, before1_1, before1_2, before1_3]
  rw [show (dat1 Vv c).Φ t.succ = (dat1 Vv c).Φ t.castSucc from rfl,
    show (dat1 Vv c).owesAt (none : HIx 2) t.succ = (dat1 Vv c).owesAt (none : HIx 2) t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 Vv c 0 t) (iblk1 Vv c 1 t) (iblk1 Vv c 2 t) (iblk1 Vv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (Vv : (c : Dev nD) → (b : Ref sig .tc) → Buf (Elt F) ((c : Thread nD τ).loc b)) (c : Dev nD) :
    BodyObligation (dat1 (F := F) Vv c) (defs₀ (F := F)) Variants.none (none : HIx 2) Set.univ := fun t => by
  rw [bigSep_W1, bigSep_W1]
  exact sound_body1 Vv c t

/-! ## The contents at the region's two ends -/

/-- An element of every element type: a zero word, or the float of the zero word. -/
instance eltNonempty : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(Scalar.ofBits .fp8e4m3 0 : F .fp8e4m3)⟩ | .fp8e5m2 => ⟨(Scalar.ofBits .fp8e5m2 0 : F .fp8e5m2)⟩
  | .bf16 => ⟨(Scalar.ofBits .bf16 0 : F .bf16)⟩ | .f16 => ⟨(Scalar.ofBits .f16 0 : F .f16)⟩ | .f32 => ⟨(Scalar.ofBits .f32 0 : F .f32)⟩

/-- A valuation read at the TensorCore's references. -/
abbrev r0V (Wc : Dev nD → Valuation τ sig (Elt F)) : (c : Dev nD) → (b : Ref sig .tc) → Buf (Elt F) ((c : Thread nD τ).loc b) := fun c b => Wc c b

/-- At the region's exit: its arrays at what the pipeline leaves (the inputs as entered, the output's write-backs folded), every other
    buffer as entered. -/
def r0W2 (Wc : Dev nD → Valuation τ sig (Elt F)) (c : Dev nD) : Valuation τ sig (Elt F) :=
  Pipeline.withArrays spec1 c (Wc c) fun w => (dat1 (r0V Wc) c).arrAt w cfg1.N
theorem r0W2_arr (Wc : Dev nD → Valuation τ sig (Elt F)) (c : Dev nD) (w : Fin cfg1.W) :
    r0W2 Wc c (Proc.devRef .tc (Pipeline.arrRef spec1 w)) = (dat1 (r0V Wc) c).arrAt w cfg1.N := by
  unfold r0W2; exact Pipeline.withArrays_arr spec1 launch1.win.arr_inj c _ _ w
theorem r0W2_of_ne (Wc : Dev nD → Valuation τ sig (Elt F)) (c : Dev nD) (b : Ref sig .tc) (hb : ∀ w, Pipeline.arrRef spec1 w ≠ b) :
    r0W2 Wc c (Proc.devRef .tc b) = Wc c (Proc.devRef .tc b) := by
  unfold r0W2; exact Pipeline.withArrays_of_ne spec1 c _ _ b hb
abbrev r0V2 (Wc : Dev nD → Valuation τ sig (Elt F)) : (c : Dev nD) → (b : Ref sig .tc) → Buf (Elt F) ((c : Thread nD τ).loc b) := fun c b => r0W2 Wc c b
theorem r0hF (Wc : Dev nD → Valuation τ sig (Elt F)) (c : Dev nD) (w : Fin cfg1.W) : (dat1 (r0V Wc) c).arrAt w cfg1.N = r0V2 Wc c (Pipeline.arrRef spec1 w) :=
  (r0W2_arr Wc c w).symm
theorem r0hrest (Wc : Dev nD → Valuation τ sig (Elt F)) (c : Dev nD) : ∀ b, b ∉ Finset.univ.image (Pipeline.arrRef spec1) → r0V2 Wc c b = r0V Wc c b :=
  fun b hb => r0W2_of_ne Wc c b fun w e => hb (Finset.mem_image.mpr ⟨w, Finset.mem_univ _, e⟩)

/-! ## The proof data family and the thread state -/

/-- Every pipeline's proof data: the first layer's at the region's entry contents; the head's, which this region's step does not read,
    at nothing stated. -/
def r0pdats (Wc : Dev nD → Valuation τ sig (Elt F)) : (p : Fin 2) → (c : Dev nD) → Dat τ (Elt F) (HIx 2) ℕ UU ℕ (Pipeline.pin (pcfgs (F := F)) adm p) c
  | ⟨0, _⟩ => fun c => dat1 (r0V Wc) c
  | ⟨1, _⟩ => fun c =>
    { A := fun w => r0V Wc c (Pipeline.arrRef spec3 w), after := fun _ _ _ => Classical.arbitrary _, Φ := fun _ => iprop(emp), q := fun _ => fullShare, owed := fun _ => 0 }

/-- What rides beside the buffers through the region: the generator register at some state, and what the TensorCore owes before the
    second aggregation, its recorded waits at or below that call's level. -/
abbrev r0Ride (c : Dev nD) : sProp 𝕄 :=
  iprop((∃ r, prngReg c r) ∗ ∃ W, ⌜(K (F := F)).WBelow (T c) W (8 * 1)⌝ ∗ owes (T c) ((K (F := F)).Otc c 1) W)

set_option backward.isDefEq.respectTransparency.types false in
/-- The first layer's region over the thread state: entered from every unscoped buffer at `Wc`, left at `r0W2 Wc`. -/
def reg0 (Wc : Dev nD → Valuation τ sig (Elt F)) :
    Pipeline.RegionSeg (pcfgs (F := F)) adm (r0pdats Wc) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (r0V Wc) c).loose
  hwaits c := Pipeline.cellsWaits_of_cut (Pipeline.pin (pcfgs (F := F)) adm) (r0pdats Wc) (none : HIx 2) 0 c 8 ((K (F := F)).Otc c 1) (fun _ => rfl)
    (fun _ _ => Finset.mem_univ _) (fun _ _ => Nat.zero_le _)
    (fun g i h => ⟨Finset.mem_univ _, by have := SparseCore.Cfg.lev_of_Otc_pos (K := K (F := F)) h; omega⟩)
  pre c := iprop(StableHlo.held (c : Thread nD τ) (Pipeline.ucRefs τ sig) (Wc c) ∗ r0Ride (F := F) c)
  post c := iprop(StableHlo.held (c : Thread nD τ) (Pipeline.ucRefs τ sig) (r0W2 Wc c) ∗ r0Ride (F := F) c)
  X c := iprop(∃ r, prngReg c r)
  Y c := iprop(∃ r, prngReg c r)
  Z c := Pipeline.unscopedRest (Ix := HIx 2) (Name := ℕ) (U := UU) (Lvl := ℕ) spec1 c (r0V Wc c)
  hentry c := by
    rw [Pipeline.ownSems0_none]
    have hsplit := Pipeline.arrays_of_unscopedBufs (p := 0) (pcfgs (F := F)) adm (r0pdats Wc) launch1.win launch1.arr_whole c
      ((r0pdats Wc 0 c).share_full fun _ => rfl) (r0V Wc c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (r0pdats Wc 0 c).Φ 0 = Φ1 (F := F) c from rfl]; unfold Φ1
    iintro ⟨Hp, -, Hr⟩
    isplitl [Hr]; · iexact Hr
    iexact Hp
  hout c := by
    rw [Pipeline.ownSems0_none, show (r0pdats Wc 0 c).Φ (Fin.last _) = Φ1 (F := F) c from rfl]; unfold Φ1
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c (r0pdats Wc) ((r0pdats Wc 0 c).share_full fun _ => rfl)
      (r0V Wc c) (r0V2 Wc c) ((r0pdats Wc 0 c).arrAt · cfg1.N) (r0hF Wc c) (r0hrest Wc c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ 8 * 1
        rw [SparseCore.Cfg.lev_none]; exact Nat.zero_le _
    · iexact HO

/-! ## The region's step in @main's proof -/

/-- No kept reference is one of the region's arrays. -/
theorem keep_ne1 : ∀ r ∈ keepR, ∀ w : Fin cfg1.W, Pipeline.arrRef spec1 w ≠ r := by decide

set_option backward.isDefEq.respectTransparency.types false in
theorem reg0_step (m : (ℓ : Loc nD τ sig) → Buf (Elt F) ℓ) (κ : GSem nD τ sig → ℕ) (d : Dev nD) (Φ : PUnit → sProp 𝕄) :
    iprop((K (F := F)).ctx EH (P (srcC m) (dstC m)) κ ∗ (K (F := F)).tcSt EH d 1 ∗ boundary (SparseCore.T d) ∗ Inv m d ∗ Aux (F := F) d ∗ ghost (F := F) 0 d
        ∗ (((K (F := F)).tcSt EH d 1 ∗ boundary (SparseCore.T d) ∗ Inv m d ∗ Aux (F := F) d) -∗ Φ ⟨⟩))
      ⊢ wp frame (wpE ((K (F := F)).defs (D (F := F))) 𝒱 (SparseCore.T d) none) Set.univ (Prog.lift (.customCall (SparseCore.inner (Pipeline.entry 0)) ())) Φ := by
  unfold Inv Aux ghost SparseCore.Cfg.tcSt
  iintro ⟨#Hctx, ⟨HOw, Hst⟩, Hb, ⟨%W, %hW, Hh⟩, ⟨Hsems, Hp⟩, ⟨Hg, Ht⟩, Hk⟩
  ihave Hlv := (SparseCore.Cfg.ctx_levAts (K := K (F := F)) (EH := EH) (P := P (srcC m) (dstC m)) κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) adm (r0pdats (fun _ => W)) (none : HIx 2) cellOf_inj (EP (F := F)) defs₀ 𝒱₀ (K (F := F)).L (K (F := F)).lev
    (reg0 (F := F) (fun _ => W)) d none (fun u hu => nomatch hu) (fun _ => .ret ⟨⟩) Φ) $$ [HOw Hst Hb Hh Hsems Hp Hg Ht Hk Hlv]
  isplitl [Hst Hsems Hk]
  · -- the continuation: the thread state, the boundary, the invariant at the exit contents, and what rides beside them
    iintro ⟨Hb, Hpost⟩
    ihave Hpost := (show ((reg0 (F := F) fun _ => W).post d : sProp 𝕄)
        ⊢ iprop(StableHlo.held (d : Thread nD τ) (Pipeline.ucRefs τ sig) (r0W2 (fun _ => W) d) ∗ r0Ride (F := F) d) from .rfl) $$ Hpost
    icases Hpost with ⟨Hh, Hp, HOw⟩
    rw [wp_ret]; imodintro
    iapply Hk
    isplitl [HOw Hst]
    · isplitl [HOw]; · iexact HOw
      iexact Hst
    isplitl [Hb]; · iexact Hb
    isplitl [Hh]
    · iexists (r0W2 (fun _ => W) d); isplitr
      · ipureintro; intro r hr
        exact (r0W2_of_ne (fun _ => W) d r (keep_ne1 r hr)).trans (hW r hr)
      · iexact Hh
    isplitl [Hsems]; · iexact Hsems
    iexact Hp
  isplitl [Hb]; · iexact Hb
  isplitl [Hh Hp HOw]
  · iapply (show iprop(StableHlo.held (d : Thread nD τ) (Pipeline.ucRefs τ sig) W ∗ r0Ride (F := F) d)
        ⊢ ((reg0 (F := F) fun _ => W).pre d : sProp 𝕄) from .rfl)
    isplitl [Hh]; · iexact Hh
    isplitl [Hp]; · iexact Hp
    iexact HOw
  isplitr; · iexact Hlv
  isplitl [Hg]; · iexact Hg
  iexact Ht

end Cert.Proof.KernelIdealL

end
-- ==== Proof.KIClaim.lean ====
/-
  The kernel's frame from the pieces proved: the tiles' tasks, the dealing and collecting around both aggregations, the
  first layer's region. The head's region step is the one piece taken as stated.
-/
import proofs.«211848_g47218870452992_cont_8to1c4_747_2_alg».proof.Proof.KIFrame
import proofs.«211848_g47218870452992_cont_8to1c4_747_2_alg».proof.Proof.KIDeal
import proofs.«211848_g47218870452992_cont_8to1c4_747_2_alg».proof.Proof.KIReg0

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The program's run from the head's region step alone. -/
theorem run_of_reg1 [hP : Cert.Pre_input_domain.Facts]
    (m : (ℓ : Loc nD τ sig) → Buf (Elt F) ℓ) (ρ : Dev nD → PrngReg) (hpre : PreG m)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ) :
    θ_run (Cert.KernelIdeal.defs (F := F)) (Cert.KernelIdeal.threads (F := F)) ⟨m, fun _ => 0, ρ⟩ (QC m) :=
  run_main m ρ hpre (Rest0 m) (Rest1 m) (deal0 m) (coll0 m) (deal1 m) (coll1 m) (fun κ d Φ => reg0_step m κ d Φ) hreg1

end Cert.Proof.KernelIdealL

end
-- ==== Proof.KBDeal.lean ====
/-
  Dealing an aggregation's operands out of the TensorCore's buffers to the thirty-two tiles, and collecting them back.
  The table and the result array are each the disjoint union of the tiles' stretches (equal parts of the flat array, the
  part a tile takes numbered by the tile), so a whole buffer is its stretches side by side; the edge sources and
  destinations are read by every tile, so each is split by share into thirty-two read tokens and a remainder the
  TensorCore keeps. The tiles are numbered subcore · 2 + core: the thirty-two numbers are the pairs (core, subcore),
  once each. Coming back, the stretches are held at contents not stated; joined, they are the two buffers whole at some
  contents, and the invariant holds again at the valuation updated there — no kept reference among them.
-/
import proofs.«211848_g47218870452992_cont_8to1c4_747_2_alg».proof.Proof.KBHmain

set_option Elab.async false

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The first aggregation: thirty-two parts of 40960 elements -/

theorem hdiv0 : 32 ∣ S1310720.size 0 := ⟨40960, rfl⟩
/-- Part `w` of the flat array of 1310720 elements cut in thirty-two. -/
abbrev part0 (w : Fin 32) : Rect S1310720 := Rect.part (s := S1310720) (a₀ := 0) hdiv0 w

omit [FloatOps F] in
/-- The stretch a tile slices is the part its number names: its offset is 40960 times the number. -/
theorem rect0_eq (L : grid0.Coords) :
    Rect.unit (s := S1310720) (k0_off1 L) S40960.size (k0_off1_inb L) = part0 (wid0 L) := by
  unfold part0 Rect.part Rect.block
  congr 1 <;> funext a
  · rw [k0_off1_eq]
    match a with
    | 0 => simp [Shape.partIx, Shape.partSize, wid0]; omega
  · match a with
    | 0 => simp [Shape.partSize]

omit [FloatOps F] in
theorem set0_eq (L : grid0.Coords) : set0 L = (part0 (wid0 L)).set := by
  show ((View.whole (main_v6_scv : Ref sig .scVector)).slice (Rect.unit (s := S1310720) (k0_off1 L) S40960.size (k0_off1_inb L))).set = _
  rw [View.set_slice, rect0_eq]; exact Finset.map_refl

omit [FloatOps F] in
theorem parts0_disjoint : ∀ i ∈ (Finset.univ : Finset (Fin 32)), ∀ j ∈ (Finset.univ : Finset (Fin 32)), i ≠ j →
    Disjoint (part0 i).set (part0 j).set :=
  fun _ _ _ _ h => Rect.part_disjoint hdiv0 h
omit [FloatOps F] in
theorem parts0_cover : (Finset.univ : Finset (Fin 32)).biUnion (fun w => (part0 w).set) = Finset.univ :=
  Rect.biUnion_part hdiv0

omit [FloatOps F] in
/-- The table whole is its thirty-two parts. -/
theorem v6_parts (d : Dev nD) (f : Buf (Elt F) (tLoc main_v6 d)) :
    (tLoc main_v6 d ↦{fullShare} f : sProp 𝕄) = bigSep Finset.univ fun w : Fin 32 => tLoc main_v6 d ↦[(part0 w).set]{fullShare} f := by
  rw [← pointsTo_biUnion Finset.univ (ℓ := tLoc main_v6 d) (fun w => (part0 w).set) parts0_disjoint, parts0_cover]; try rfl
omit [FloatOps F] in
/-- The result array whole is its thirty-two parts. -/
theorem v7_parts (d : Dev nD) (f : Buf (Elt F) (tLoc main_v7 d)) :
    (tLoc main_v7 d ↦{fullShare} f : sProp 𝕄) = bigSep Finset.univ fun w : Fin 32 => tLoc main_v7 d ↦[(part0 w).set]{fullShare} f := by
  rw [← pointsTo_biUnion Finset.univ (ℓ := tLoc main_v7 d) (fun w => (part0 w).set) parts0_disjoint, parts0_cover]; try rfl

/-- The parts held at contents not stated, joined: the table whole at some contents. -/
theorem v6_join (d : Dev nD) :
    (bigSep Finset.univ fun w : Fin 32 => iprop(∃ f, tLoc main_v6 d ↦[(part0 w).set]{fullShare} f))
      ⊢ (iprop(∃ f, tLoc main_v6 d ↦{fullShare} f) : sProp 𝕄) := by
  refine (bigSep_exists_pi Finset.univ (fun w (f : Buf (Elt F) (tLoc main_v6 d)) => (tLoc main_v6 d ↦[(part0 w).set]{fullShare} f : sProp 𝕄))).trans ?_
  iintro ⟨%fs, H⟩
  ihave H' := (pointsTo_biUnion_join Finset.univ (fun w => (part0 w).set) fs (fs 0) parts0_disjoint) $$ H
  icases H' with ⟨%g, -, Hg⟩
  rw [parts0_cover]
  iexists g; iexact Hg
theorem v7_join (d : Dev nD) :
    (bigSep Finset.univ fun w : Fin 32 => iprop(∃ f, tLoc main_v7 d ↦[(part0 w).set]{fullShare} f))
      ⊢ (iprop(∃ f, tLoc main_v7 d ↦{fullShare} f) : sProp 𝕄) := by
  refine (bigSep_exists_pi Finset.univ (fun w (f : Buf (Elt F) (tLoc main_v7 d)) => (tLoc main_v7 d ↦[(part0 w).set]{fullShare} f : sProp 𝕄))).trans ?_
  iintro ⟨%fs, H⟩
  ihave H' := (pointsTo_biUnion_join Finset.univ (fun w => (part0 w).set) fs (fs 0) parts0_disjoint) $$ H
  icases H' with ⟨%g, -, Hg⟩
  rw [parts0_cover]
  iexists g; iexact Hg

omit [FloatOps F] in
theorem v6_part_ex (d : Dev nD) (f : Buf (Elt F) (tLoc main_v6 d)) (w : Fin 32) :
    (tLoc main_v6 d ↦[(part0 w).set]{fullShare} f : sProp 𝕄) ⊢ iprop(∃ g, tLoc main_v6 d ↦[(part0 w).set]{fullShare} g) := by
  iintro H; iexists f; iexact H
omit [FloatOps F] in
theorem v7_part_ex (d : Dev nD) (f : Buf (Elt F) (tLoc main_v7 d)) (w : Fin 32) :
    (tLoc main_v7 d ↦[(part0 w).set]{fullShare} f : sProp 𝕄) ⊢ iprop(∃ g, tLoc main_v7 d ↦[(part0 w).set]{fullShare} g) := by
  iintro H; iexists f; iexact H
omit [FloatOps F] in
theorem v6_parts_ex (d : Dev nD) (f : Buf (Elt F) (tLoc main_v6 d)) :
    (bigSep Finset.univ fun w : Fin 32 => (tLoc main_v6 d ↦[(part0 w).set]{fullShare} f : sProp 𝕄))
      ⊢ bigSep Finset.univ fun w : Fin 32 => iprop(∃ g, tLoc main_v6 d ↦[(part0 w).set]{fullShare} g) :=
  bigSep_mono fun w _ => v6_part_ex d f w
omit [FloatOps F] in
theorem v7_parts_ex (d : Dev nD) (f : Buf (Elt F) (tLoc main_v7 d)) :
    (bigSep Finset.univ fun w : Fin 32 => (tLoc main_v7 d ↦[(part0 w).set]{fullShare} f : sProp 𝕄))
      ⊢ bigSep Finset.univ fun w : Fin 32 => iprop(∃ g, tLoc main_v7 d ↦[(part0 w).set]{fullShare} g) :=
  bigSep_mono fun w _ => v7_part_ex d f w

omit [FloatOps F] in
/-- The thirty-two tile numbers are the pairs (core, subcore), once each: number = subcore · 2 + core. -/
theorem bigSep_tiles0 (Φ : Fin 32 → sProp 𝕄) :
    bigSep Finset.univ Φ = bigSep Finset.univ fun c : Fin ((K (F := F)).nCore 0) =>
      bigSep Finset.univ fun i : Fin ((K (F := F)).nSub 0) => Φ (wid0 (L0 c i)) := by
  classical
  have hinj : Set.InjOn (fun p : Fin ((K (F := F)).nCore 0) × Fin ((K (F := F)).nSub 0) => wid0 (L0 p.1 p.2))
      ↑(Finset.univ ×ˢ Finset.univ : Finset (Fin ((K (F := F)).nCore 0) × Fin ((K (F := F)).nSub 0))) := by
    intro a _ b _ h
    have hv : a.2.val * 2 + a.1.val = b.2.val * 2 + b.1.val := congrArg Fin.val h
    have ha : a.1.val < 2 := a.1.isLt
    have hb : b.1.val < 2 := b.1.isLt
    exact Prod.ext (Fin.ext (by omega)) (Fin.ext (by omega))
  have himg : (Finset.univ ×ˢ Finset.univ : Finset (Fin ((K (F := F)).nCore 0) × Fin ((K (F := F)).nSub 0))).image
      (fun p => wid0 (L0 p.1 p.2)) = Finset.univ := by
    ext w
    simp only [Finset.mem_image, Finset.mem_product, Finset.mem_univ, true_and, iff_true]
    exact ⟨(⟨w.val % 2, Nat.mod_lt _ (by decide)⟩, ⟨w.val / 2, by have := w.isLt; show w.val / 2 < 16; omega⟩),
      Fin.ext (show (w.val / 2) * 2 + w.val % 2 = w.val by omega)⟩
  rw [← himg, bigSep_image_of_injOn hinj, SparseCore.bigSep_product]

/-! ### The four buffers of the first aggregation, out of the invariant's and back -/

/-- The table, the edge sources, the edge destinations and the result array of the first aggregation. -/
def S4 : Finset (DevRef τ sig) :=
  {Proc.devRef .tc main_v6, Proc.devRef .tc main_v1, Proc.devRef .tc main_v3, Proc.devRef .tc main_v7}
theorem S4_sub : S4 ⊆ Pipeline.ucRefs τ sig := by decide

omit [FloatOps F] in
theorem held_S4 (d : Dev nD) (W : Valuation τ sig (Elt F)) {s : Buf (Elt F) (tLoc main_v1 d)} {t : Buf (Elt F) (tLoc main_v3 d)}
    (h1 : W (Proc.devRef .tc main_v1) = s) (h3 : W (Proc.devRef .tc main_v3) = t) :
    (StableHlo.held (T d) S4 W : sProp 𝕄) = iprop((tLoc main_v6 d ↦{fullShare} W (Proc.devRef .tc main_v6))
      ∗ (tLoc main_v1 d ↦{fullShare} s) ∗ (tLoc main_v3 d ↦{fullShare} t)
      ∗ tLoc main_v7 d ↦{fullShare} W (Proc.devRef .tc main_v7)) := by
  subst h1 h3
  unfold StableHlo.held S4
  rw [SparseCore.bigSep_insert' (by decide), SparseCore.bigSep_insert' (by decide), SparseCore.bigSep_insert' (by decide), bigSep_singleton]

variable (m : (ℓ : Loc nD τ sig) → Buf (Elt F) ℓ)

/-- What the TensorCore keeps during the first aggregation: every other unscoped buffer held whole at a valuation that
    agrees with the kept references' contents, and what is left of the edge sources and destinations once the tiles'
    thirty-two read tokens are taken. -/
def Rest0 (d : Dev nD) : sProp 𝕄 :=
  iprop(∃ W : Valuation τ sig (Elt F), ⌜∀ r ∈ keepR, W (Proc.devRef .tc r) = W1 m d (Proc.devRef .tc r)⌝
    ∗ StableHlo.held (T d) (Pipeline.ucRefs τ sig \ S4) W
    ∗ (tLoc main_v1 d ↦{Transfers.shareDrop fullShare 32} srcC m d)
    ∗ (tLoc main_v3 d ↦{Transfers.shareDrop fullShare 32} dstC m d))

/-- Tile number `w`'s share of the first aggregation's operands, by its number. -/
def tile0 (d : Dev nD) (w : Fin 32) : sProp 𝕄 :=
  iprop((∃ ft, tLoc main_v6 d ↦[(part0 w).set]{fullShare} ft)
    ∗ (tLoc main_v1 d ↦{tok w} srcC m d) ∗ (tLoc main_v3 d ↦{tok w} dstC m d)
    ∗ ∃ fo, tLoc main_v7 d ↦[(part0 w).set]{fullShare} fo)

theorem tileRes0_eq (d : Dev nD) (L : grid0.Coords) : tileRes0 (srcC m) (dstC m) d L = tile0 m d (wid0 L) := by
  unfold tileRes0 tile0; rw [set0_eq]

/-- A SparseCore's share of the first call is its sixteen tiles' (the payload's definition, at call 0). -/
theorem P_st0 (d : Dev nD) (c : Fin ((K (F := F)).nCore 0)) : (P (srcC m) (dstC m)).st 0 d c
    = bigSep Finset.univ fun i : Fin ((K (F := F)).nSub 0) => tileRes0 (srcC m) (dstC m) d (L0 c i) := rfl
theorem P_dn0 (d : Dev nD) (c : Fin ((K (F := F)).nCore 0)) : (P (srcC m) (dstC m)).dn 0 d c
    = bigSep Finset.univ fun i : Fin ((K (F := F)).nSub 0) => tileRes0 (srcC m) (dstC m) d (L0 c i) := rfl

/-- What the call takes for the two SparseCores, regrouped: the table's parts, the sources' tokens, the destinations'
    tokens, the result array's parts. What it hands back is the same. -/
theorem st0_eq (d : Dev nD) :
    (bigSep Finset.univ fun c : Fin ((K (F := F)).nCore 0) => (P (srcC m) (dstC m)).st 0 d c)
      = iprop((bigSep Finset.univ fun w : Fin 32 => iprop(∃ ft, tLoc main_v6 d ↦[(part0 w).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v7 d ↦[(part0 w).set]{fullShare} fo))) := by
  have e : ∀ c : Fin ((K (F := F)).nCore 0), (P (srcC m) (dstC m)).st 0 d c
      = bigSep Finset.univ fun i : Fin ((K (F := F)).nSub 0) => tile0 m d (wid0 (L0 c i)) :=
    fun c => (P_st0 m d c).trans (bigSep_congr fun i _ => tileRes0_eq m d (L0 c i))
  rw [bigSep_congr (fun c _ => e c), ← bigSep_tiles0 (F := F) (tile0 m d)]
  unfold tile0
  rw [bigSep_sep', bigSep_sep', bigSep_sep']
theorem dn0_eq (d : Dev nD) :
    (bigSep Finset.univ fun c : Fin ((K (F := F)).nCore 0) => (P (srcC m) (dstC m)).dn 0 d c)
      = iprop((bigSep Finset.univ fun w : Fin 32 => iprop(∃ ft, tLoc main_v6 d ↦[(part0 w).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v7 d ↦[(part0 w).set]{fullShare} fo))) := by
  rw [bigSep_congr (fun c _ => (P_dn0 m d c).trans (P_st0 m d c).symm)]; exact st0_eq m d

/-- Dealing: the invariant's four buffers cut into the tiles' shares, the rest kept. -/
theorem deal0 (d : Dev nD) : (Inv m d : sProp 𝕄)
    ⊢ iprop((bigSep Finset.univ fun c : Fin ((K (F := F)).nCore 0) => (P (srcC m) (dstC m)).st 0 d c) ∗ Rest0 m d) := by
  rw [st0_eq]
  unfold Inv Rest0
  iintro ⟨%W, %hW, Hh⟩
  have e1 : W (Proc.devRef .tc main_v1) = srcC m d := hW main_v1 (by decide)
  have e3 : W (Proc.devRef .tc main_v3) = dstC m d := hW main_v3 (by decide)
  ihave H2 := (Entails.of_eq (StableHlo.held_sub_split (T d) S4_sub W)) $$ Hh
  icases H2 with ⟨H4, Hrest⟩
  ihave H4' := (Entails.of_eq (held_S4 d W e1 e3)) $$ H4
  icases H4' with ⟨H6, H1, H3, H7⟩
  ihave H6' := (Entails.of_eq (v6_parts d _)) $$ H6
  ihave H6'' := (v6_parts_ex d _) $$ H6'
  ihave H7' := (Entails.of_eq (v7_parts d _)) $$ H7
  ihave H7'' := (v7_parts_ex d _) $$ H7'
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H6'' H1t H3t H7'']
  · isplitl [H6'']; · iexact H6''
    isplitl [H1t]; · iexact H1t
    isplitl [H3t]; · iexact H3t
    iexact H7''
  · iexists W; isplitr
    · ipureintro; exact hW
    isplitl [Hrest]; · iexact Hrest
    isplitl [H1d]; · iexact H1d
    iexact H3d

/-- The valuation after the call: the table and the result array at what the tiles left them holding. -/
def Wup0 (W : Valuation τ sig (Elt F)) (d : Dev nD) (f6 : Buf (Elt F) (tLoc main_v6 d)) (f7 : Buf (Elt F) (tLoc main_v7 d)) :
    Valuation τ sig (Elt F) :=
  Function.update (Function.update W (Proc.devRef .tc main_v6) f6) (Proc.devRef .tc main_v7) f7

omit [FloatOps F] in
theorem Wup0_v6 (W : Valuation τ sig (Elt F)) (d : Dev nD) (f6 : Buf (Elt F) (tLoc main_v6 d)) (f7 : Buf (Elt F) (tLoc main_v7 d)) :
    Wup0 W d f6 f7 (Proc.devRef .tc main_v6) = f6 := by
  unfold Wup0
  rw [Function.update_of_ne (show (Proc.devRef .tc main_v6 : DevRef τ sig) ≠ Proc.devRef .tc main_v7 by decide), Function.update_self]
omit [FloatOps F] in
theorem Wup0_v7 (W : Valuation τ sig (Elt F)) (d : Dev nD) (f6 : Buf (Elt F) (tLoc main_v6 d)) (f7 : Buf (Elt F) (tLoc main_v7 d)) :
    Wup0 W d f6 f7 (Proc.devRef .tc main_v7) = f7 := Function.update_self _ _ _
omit [FloatOps F] in
theorem Wup0_of_ne (W : Valuation τ sig (Elt F)) (d : Dev nD) (f6 : Buf (Elt F) (tLoc main_v6 d)) (f7 : Buf (Elt F) (tLoc main_v7 d))
    {b : DevRef τ sig} (h6 : b ≠ Proc.devRef .tc main_v6) (h7 : b ≠ Proc.devRef .tc main_v7) : Wup0 W d f6 f7 b = W b := by
  unfold Wup0; rw [Function.update_of_ne h7, Function.update_of_ne h6]

/-- Collecting: the tiles' shares joined into the four buffers whole, the invariant at the updated valuation. -/
theorem coll0 (d : Dev nD) :
    iprop((bigSep Finset.univ fun c : Fin ((K (F := F)).nCore 0) => (P (srcC m) (dstC m)).dn 0 d c) ∗ Rest0 m d)
      ⊢ (Inv m d : sProp 𝕄) := by
  rw [dn0_eq]
  unfold Inv Rest0
  iintro ⟨⟨H6s, H1t, H3t, H7s⟩, %W, %hW, Hrest, H1d, H3d⟩
  ihave H6 := (v6_join d) $$ H6s
  icases H6 with ⟨%f6, H6⟩
  ihave H7 := (v7_join d) $$ H7s
  icases H7 with ⟨%f7, H7⟩
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have e1 : Wup0 W d f6 f7 (Proc.devRef .tc main_v1) = srcC m d :=
    (Wup0_of_ne W d f6 f7 (by decide) (by decide)).trans (hW main_v1 (by decide))
  have e3 : Wup0 W d f6 f7 (Proc.devRef .tc main_v3) = dstC m d :=
    (Wup0_of_ne W d f6 f7 (by decide) (by decide)).trans (hW main_v3 (by decide))
  have hrest : ∀ b ∈ Pipeline.ucRefs τ sig \ S4, Wup0 W d f6 f7 b = W b := fun b hb =>
    Wup0_of_ne W d f6 f7 (fun e => (Finset.mem_sdiff.mp hb).2 (by rw [e]; decide)) (fun e => (Finset.mem_sdiff.mp hb).2 (by rw [e]; decide))
  iexists (Wup0 W d f6 f7); isplitr
  · ipureintro; intro r hr
    rw [Wup0_of_ne W d f6 f7
      (StableHlo.devRef_ne_of_ne fun e => absurd (show main_v6 ∈ keepR from e ▸ hr) (by decide))
      (StableHlo.devRef_ne_of_ne fun e => absurd (show main_v7 ∈ keepR from e ▸ hr) (by decide))]
    exact hW r hr
  rw [StableHlo.held_sub_split (T d) S4_sub (Wup0 W d f6 f7), held_S4 d _ e1 e3, Wup0_v6, Wup0_v7, StableHlo.held_congr (T d) hrest]
  isplitl [H6 H1 H3 H7]
  · isplitl [H6]; · iexact H6
    isplitl [H1]; · iexact H1
    isplitl [H3]; · iexact H3
    iexact H7
  · iexact Hrest

/-! ## The second aggregation: sixty-four parts of 40960 elements, two to a tile -/

theorem hdiv1 : 64 ∣ S2621440.size 0 := ⟨40960, rfl⟩
/-- Part `p` of the flat array of 2621440 elements cut in sixty-four. -/
abbrev part1 (p : Fin 64) : Rect S2621440 := Rect.part (s := S2621440) (a₀ := 0) hdiv1 p
/-- Stretch `r` of tile number `w` is part `32 r + w`. -/
def pix (r : Fin 2) (w : Fin 32) : Fin 64 := ⟨32 * r.val + w.val, by have := r.isLt; have := w.isLt; omega⟩

omit [FloatOps F] in
/-- The stretch a tile slices at row constant `128 r` is part `32 r + number`: its offset is 40960 times that. -/
theorem rect1_eq (L : grid2.Coords) (r : Fin 2) :
    Rect.unit (s := S2621440) (k2_off1 L (BitVec.ofNat 32 (128 * r.val))) S40960.size (k2_off1_inb L r) = part1 (pix r (wid2 L)) := by
  unfold part1 Rect.part Rect.block
  congr 1 <;> funext a
  · rw [k2_off1_eq]
    match a with
    | 0 => simp [Shape.partIx, Shape.partSize, wid2, pix]; omega
  · match a with
    | 0 => simp [Shape.partSize]

omit [FloatOps F] in
theorem set1_eq (L : grid2.Coords) (r : Fin 2) : set1 L r = (part1 (pix r (wid2 L))).set := by
  show ((View.whole (main_v13_scv : Ref sig .scVector)).slice (Rect.unit (s := S2621440) (k2_off1 L (BitVec.ofNat 32 (128 * r.val))) S40960.size (k2_off1_inb L r))).set = _
  rw [View.set_slice, rect1_eq]; exact Finset.map_refl

omit [FloatOps F] in
theorem parts1_disjoint : ∀ i ∈ (Finset.univ : Finset (Fin 64)), ∀ j ∈ (Finset.univ : Finset (Fin 64)), i ≠ j →
    Disjoint (part1 i).set (part1 j).set :=
  fun _ _ _ _ h => Rect.part_disjoint hdiv1 h
omit [FloatOps F] in
theorem parts1_cover : (Finset.univ : Finset (Fin 64)).biUnion (fun p => (part1 p).set) = Finset.univ :=
  Rect.biUnion_part hdiv1

omit [FloatOps F] in
/-- The sixty-four parts are the tiles' first stretches and their second stretches. -/
theorem bigSep_halves (Φ : Fin 64 → sProp 𝕄) :
    bigSep Finset.univ Φ = iprop((bigSep Finset.univ fun w : Fin 32 => Φ (pix 0 w)) ∗ bigSep Finset.univ fun w : Fin 32 => Φ (pix 1 w)) := by
  classical
  have hinj : Set.InjOn (fun p : Fin 2 × Fin 32 => pix p.1 p.2) ↑(Finset.univ ×ˢ Finset.univ : Finset (Fin 2 × Fin 32)) := by
    intro a _ b _ h
    have hv : 32 * a.1.val + a.2.val = 32 * b.1.val + b.2.val := congrArg Fin.val h
    have := a.2.isLt; have := b.2.isLt
    exact Prod.ext (Fin.ext (by omega)) (Fin.ext (by omega))
  have himg : (Finset.univ ×ˢ Finset.univ : Finset (Fin 2 × Fin 32)).image (fun p => pix p.1 p.2) = Finset.univ := by
    ext p
    simp only [Finset.mem_image, Finset.mem_product, Finset.mem_univ, true_and, iff_true]
    exact ⟨(⟨p.val / 32, by have := p.isLt; omega⟩, ⟨p.val % 32, Nat.mod_lt _ (by decide)⟩),
      Fin.ext (show 32 * (p.val / 32) + p.val % 32 = p.val by omega)⟩
  rw [← himg, bigSep_image_of_injOn hinj, SparseCore.bigSep_product, bigSep_univ_two]

omit [FloatOps F] in
theorem v13_parts (d : Dev nD) (f : Buf (Elt F) (tLoc main_v13 d)) :
    (tLoc main_v13 d ↦{fullShare} f : sProp 𝕄) = bigSep Finset.univ fun p : Fin 64 => tLoc main_v13 d ↦[(part1 p).set]{fullShare} f := by
  rw [← pointsTo_biUnion Finset.univ (ℓ := tLoc main_v13 d) (fun p => (part1 p).set) parts1_disjoint, parts1_cover]; try rfl
theorem v13_join (d : Dev nD) :
    (bigSep Finset.univ fun p : Fin 64 => iprop(∃ f, tLoc main_v13 d ↦[(part1 p).set]{fullShare} f))
      ⊢ (iprop(∃ f, tLoc main_v13 d ↦{fullShare} f) : sProp 𝕄) := by
  refine (bigSep_exists_pi Finset.univ (fun p (f : Buf (Elt F) (tLoc main_v13 d)) => (tLoc main_v13 d ↦[(part1 p).set]{fullShare} f : sProp 𝕄))).trans ?_
  iintro ⟨%fs, H⟩
  ihave H' := (pointsTo_biUnion_join Finset.univ (fun p => (part1 p).set) fs (fs 0) parts1_disjoint) $$ H
  icases H' with ⟨%g, -, Hg⟩
  rw [parts1_cover]
  iexists g; iexact Hg
omit [FloatOps F] in
theorem v13_part_ex (d : Dev nD) (f : Buf (Elt F) (tLoc main_v13 d)) (p : Fin 64) :
    (tLoc main_v13 d ↦[(part1 p).set]{fullShare} f : sProp 𝕄) ⊢ iprop(∃ g, tLoc main_v13 d ↦[(part1 p).set]{fullShare} g) := by
  iintro H; iexists f; iexact H
/-- The buffer whole, as the tiles' first stretches and their second stretches, each at contents not stated. -/
theorem v13_deal (d : Dev nD) (f : Buf (Elt F) (tLoc main_v13 d)) :
    (tLoc main_v13 d ↦{fullShare} f : sProp 𝕄)
      ⊢ iprop((bigSep Finset.univ fun w : Fin 32 => iprop(∃ g, tLoc main_v13 d ↦[(part1 (pix 0 w)).set]{fullShare} g))
        ∗ bigSep Finset.univ fun w : Fin 32 => iprop(∃ g, tLoc main_v13 d ↦[(part1 (pix 1 w)).set]{fullShare} g)) := by
  rw [v13_parts, bigSep_halves (F := F) (fun p => (tLoc main_v13 d ↦[(part1 p).set]{fullShare} f : sProp 𝕄))]
  exact BI.sep_mono (bigSep_mono fun w _ => v13_part_ex d f (pix 0 w)) (bigSep_mono fun w _ => v13_part_ex d f (pix 1 w))
/-- And back: the stretches joined are the buffer whole at some contents. -/
theorem v13_coll (d : Dev nD) :
    iprop((bigSep Finset.univ fun w : Fin 32 => iprop(∃ g, tLoc main_v13 d ↦[(part1 (pix 0 w)).set]{fullShare} g))
        ∗ bigSep Finset.univ fun w : Fin 32 => iprop(∃ g, tLoc main_v13 d ↦[(part1 (pix 1 w)).set]{fullShare} g))
      ⊢ (iprop(∃ f, tLoc main_v13 d ↦{fullShare} f) : sProp 𝕄) :=
  (Entails.of_eq (bigSep_halves (F := F) (fun p => iprop(∃ g, tLoc main_v13 d ↦[(part1 p).set]{fullShare} g))).symm).trans (v13_join d)

omit [FloatOps F] in
theorem v14_parts (d : Dev nD) (f : Buf (Elt F) (tLoc main_v14 d)) :
    (tLoc main_v14 d ↦{fullShare} f : sProp 𝕄) = bigSep Finset.univ fun p : Fin 64 => tLoc main_v14 d ↦[(part1 p).set]{fullShare} f := by
  rw [← pointsTo_biUnion Finset.univ (ℓ := tLoc main_v14 d) (fun p => (part1 p).set) parts1_disjoint, parts1_cover]; try rfl
theorem v14_join (d : Dev nD) :
    (bigSep Finset.univ fun p : Fin 64 => iprop(∃ f, tLoc main_v14 d ↦[(part1 p).set]{fullShare} f))
      ⊢ (iprop(∃ f, tLoc main_v14 d ↦{fullShare} f) : sProp 𝕄) := by
  refine (bigSep_exists_pi Finset.univ (fun p (f : Buf (Elt F) (tLoc main_v14 d)) => (tLoc main_v14 d ↦[(part1 p).set]{fullShare} f : sProp 𝕄))).trans ?_
  iintro ⟨%fs, H⟩
  ihave H' := (pointsTo_biUnion_join Finset.univ (fun p => (part1 p).set) fs (fs 0) parts1_disjoint) $$ H
  icases H' with ⟨%g, -, Hg⟩
  rw [parts1_cover]
  iexists g; iexact Hg
omit [FloatOps F] in
theorem v14_part_ex (d : Dev nD) (f : Buf (Elt F) (tLoc main_v14 d)) (p : Fin 64) :
    (tLoc main_v14 d ↦[(part1 p).set]{fullShare} f : sProp 𝕄) ⊢ iprop(∃ g, tLoc main_v14 d ↦[(part1 p).set]{fullShare} g) := by
  iintro H; iexists f; iexact H
/-- The buffer whole, as the tiles' first stretches and their second stretches, each at contents not stated. -/
theorem v14_deal (d : Dev nD) (f : Buf (Elt F) (tLoc main_v14 d)) :
    (tLoc main_v14 d ↦{fullShare} f : sProp 𝕄)
      ⊢ iprop((bigSep Finset.univ fun w : Fin 32 => iprop(∃ g, tLoc main_v14 d ↦[(part1 (pix 0 w)).set]{fullShare} g))
        ∗ bigSep Finset.univ fun w : Fin 32 => iprop(∃ g, tLoc main_v14 d ↦[(part1 (pix 1 w)).set]{fullShare} g)) := by
  rw [v14_parts, bigSep_halves (F := F) (fun p => (tLoc main_v14 d ↦[(part1 p).set]{fullShare} f : sProp 𝕄))]
  exact BI.sep_mono (bigSep_mono fun w _ => v14_part_ex d f (pix 0 w)) (bigSep_mono fun w _ => v14_part_ex d f (pix 1 w))
/-- And back: the stretches joined are the buffer whole at some contents. -/
theorem v14_coll (d : Dev nD) :
    iprop((bigSep Finset.univ fun w : Fin 32 => iprop(∃ g, tLoc main_v14 d ↦[(part1 (pix 0 w)).set]{fullShare} g))
        ∗ bigSep Finset.univ fun w : Fin 32 => iprop(∃ g, tLoc main_v14 d ↦[(part1 (pix 1 w)).set]{fullShare} g))
      ⊢ (iprop(∃ f, tLoc main_v14 d ↦{fullShare} f) : sProp 𝕄) :=
  (Entails.of_eq (bigSep_halves (F := F) (fun p => iprop(∃ g, tLoc main_v14 d ↦[(part1 p).set]{fullShare} g))).symm).trans (v14_join d)

omit [FloatOps F] in
/-- The thirty-two tile numbers of the second call are the pairs (core, subcore), once each. -/
theorem bigSep_tiles1 (Φ : Fin 32 → sProp 𝕄) :
    bigSep Finset.univ Φ = bigSep Finset.univ fun c : Fin ((K (F := F)).nCore 1) =>
      bigSep Finset.univ fun i : Fin ((K (F := F)).nSub 1) => Φ (wid2 (L1 c i)) := by
  classical
  have hinj : Set.InjOn (fun p : Fin ((K (F := F)).nCore 1) × Fin ((K (F := F)).nSub 1) => wid2 (L1 p.1 p.2))
      ↑(Finset.univ ×ˢ Finset.univ : Finset (Fin ((K (F := F)).nCore 1) × Fin ((K (F := F)).nSub 1))) := by
    intro a _ b _ h
    have hv : a.2.val * 2 + a.1.val = b.2.val * 2 + b.1.val := congrArg Fin.val h
    have ha : a.1.val < 2 := a.1.isLt
    have hb : b.1.val < 2 := b.1.isLt
    exact Prod.ext (Fin.ext (by omega)) (Fin.ext (by omega))
  have himg : (Finset.univ ×ˢ Finset.univ : Finset (Fin ((K (F := F)).nCore 1) × Fin ((K (F := F)).nSub 1))).image
      (fun p => wid2 (L1 p.1 p.2)) = Finset.univ := by
    ext w
    simp only [Finset.mem_image, Finset.mem_product, Finset.mem_univ, true_and, iff_true]
    exact ⟨(⟨w.val % 2, Nat.mod_lt _ (by decide)⟩, ⟨w.val / 2, by have := w.isLt; show w.val / 2 < 16; omega⟩),
      Fin.ext (show (w.val / 2) * 2 + w.val % 2 = w.val by omega)⟩
  rw [← himg, bigSep_image_of_injOn hinj, SparseCore.bigSep_product]

/-! ### The four buffers of the second aggregation, out of the invariant's and back -/

/-- The table, the edge sources, the edge destinations and the result array of the second aggregation. -/
def S4' : Finset (DevRef τ sig) :=
  {Proc.devRef .tc main_v13, Proc.devRef .tc main_v1, Proc.devRef .tc main_v3, Proc.devRef .tc main_v14}
theorem S4'_sub : S4' ⊆ Pipeline.ucRefs τ sig := by decide

omit [FloatOps F] in
theorem held_S4' (d : Dev nD) (W : Valuation τ sig (Elt F)) {s : Buf (Elt F) (tLoc main_v1 d)} {t : Buf (Elt F) (tLoc main_v3 d)}
    (h1 : W (Proc.devRef .tc main_v1) = s) (h3 : W (Proc.devRef .tc main_v3) = t) :
    (StableHlo.held (T d) S4' W : sProp 𝕄) = iprop((tLoc main_v13 d ↦{fullShare} W (Proc.devRef .tc main_v13))
      ∗ (tLoc main_v1 d ↦{fullShare} s) ∗ (tLoc main_v3 d ↦{fullShare} t)
      ∗ tLoc main_v14 d ↦{fullShare} W (Proc.devRef .tc main_v14)) := by
  subst h1 h3
  unfold StableHlo.held S4'
  rw [SparseCore.bigSep_insert' (by decide), SparseCore.bigSep_insert' (by decide), SparseCore.bigSep_insert' (by decide), bigSep_singleton]

/-- What the TensorCore keeps during the second aggregation. -/
def Rest1 (d : Dev nD) : sProp 𝕄 :=
  iprop(∃ W : Valuation τ sig (Elt F), ⌜∀ r ∈ keepR, W (Proc.devRef .tc r) = W1 m d (Proc.devRef .tc r)⌝
    ∗ StableHlo.held (T d) (Pipeline.ucRefs τ sig \ S4') W
    ∗ (tLoc main_v1 d ↦{Transfers.shareDrop fullShare 32} srcC m d)
    ∗ (tLoc main_v3 d ↦{Transfers.shareDrop fullShare 32} dstC m d))

/-- Tile number `w`'s share of the second aggregation's operands, by its number: two stretches of the table, the two
    read tokens, two stretches of the result array. -/
def tile1 (d : Dev nD) (w : Fin 32) : sProp 𝕄 :=
  iprop((∃ ft, tLoc main_v13 d ↦[(part1 (pix 0 w)).set]{fullShare} ft)
    ∗ (∃ ft, tLoc main_v13 d ↦[(part1 (pix 1 w)).set]{fullShare} ft)
    ∗ (tLoc main_v1 d ↦{tok w} srcC m d) ∗ (tLoc main_v3 d ↦{tok w} dstC m d)
    ∗ (∃ fo, tLoc main_v14 d ↦[(part1 (pix 0 w)).set]{fullShare} fo)
    ∗ ∃ fo, tLoc main_v14 d ↦[(part1 (pix 1 w)).set]{fullShare} fo)

theorem tileRes1_eq (d : Dev nD) (L : grid2.Coords) : tileRes1 (srcC m) (dstC m) d L = tile1 m d (wid2 L) := by
  unfold tileRes1 tile1; rw [set1_eq L 0, set1_eq L 1]

/-- A SparseCore's share of the second call is its sixteen tiles' (the payload's definition, at call 1). -/
theorem P_st1 (d : Dev nD) (c : Fin ((K (F := F)).nCore 1)) : (P (srcC m) (dstC m)).st 1 d c
    = bigSep Finset.univ fun i : Fin ((K (F := F)).nSub 1) => tileRes1 (srcC m) (dstC m) d (L1 c i) := rfl
theorem P_dn1 (d : Dev nD) (c : Fin ((K (F := F)).nCore 1)) : (P (srcC m) (dstC m)).dn 1 d c
    = bigSep Finset.univ fun i : Fin ((K (F := F)).nSub 1) => tileRes1 (srcC m) (dstC m) d (L1 c i) := rfl

/-- What the second call takes for the two SparseCores, regrouped; what it hands back is the same. -/
theorem st1_eq (d : Dev nD) :
    (bigSep Finset.univ fun c : Fin ((K (F := F)).nCore 1) => (P (srcC m) (dstC m)).st 1 d c)
      = iprop((bigSep Finset.univ fun w : Fin 32 => iprop(∃ ft, tLoc main_v13 d ↦[(part1 (pix 0 w)).set]{fullShare} ft))
        ∗ (bigSep Finset.univ fun w : Fin 32 => iprop(∃ ft, tLoc main_v13 d ↦[(part1 (pix 1 w)).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v14 d ↦[(part1 (pix 0 w)).set]{fullShare} fo))
        ∗ (bigSep Finset.univ fun w : Fin 32 => iprop(∃ fo, tLoc main_v14 d ↦[(part1 (pix 1 w)).set]{fullShare} fo))) := by
  have e : ∀ c : Fin ((K (F := F)).nCore 1), (P (srcC m) (dstC m)).st 1 d c
      = bigSep Finset.univ fun i : Fin ((K (F := F)).nSub 1) => tile1 m d (wid2 (L1 c i)) :=
    fun c => (P_st1 m d c).trans (bigSep_congr fun i _ => tileRes1_eq m d (L1 c i))
  rw [bigSep_congr (fun c _ => e c), ← bigSep_tiles1 (F := F) (tile1 m d)]
  unfold tile1
  rw [bigSep_sep', bigSep_sep', bigSep_sep', bigSep_sep', bigSep_sep']
theorem dn1_eq (d : Dev nD) :
    (bigSep Finset.univ fun c : Fin ((K (F := F)).nCore 1) => (P (srcC m) (dstC m)).dn 1 d c)
      = iprop((bigSep Finset.univ fun w : Fin 32 => iprop(∃ ft, tLoc main_v13 d ↦[(part1 (pix 0 w)).set]{fullShare} ft))
        ∗ (bigSep Finset.univ fun w : Fin 32 => iprop(∃ ft, tLoc main_v13 d ↦[(part1 (pix 1 w)).set]{fullShare} ft))
        ∗ (bigSep Finset.univ fun w : Fin 32 => tLoc main_v1 d ↦{tok w} srcC m d)
        ∗ (bigSep Finset.univ fun w : Fin 32 => tLoc main_v3 d ↦{tok w} dstC m d)
        ∗ (bigSep Finset.univ fun w : Fin 32 => iprop(∃ fo, tLoc main_v14 d ↦[(part1 (pix 0 w)).set]{fullShare} fo))
        ∗ (bigSep Finset.univ fun w : Fin 32 => iprop(∃ fo, tLoc main_v14 d ↦[(part1 (pix 1 w)).set]{fullShare} fo))) := by
  rw [bigSep_congr (fun c _ => (P_dn1 m d c).trans (P_st1 m d c).symm)]; exact st1_eq m d

/-- Dealing, second call. -/
theorem deal1 (d : Dev nD) : (Inv m d : sProp 𝕄)
    ⊢ iprop((bigSep Finset.univ fun c : Fin ((K (F := F)).nCore 1) => (P (srcC m) (dstC m)).st 1 d c) ∗ Rest1 m d) := by
  rw [st1_eq]
  unfold Inv Rest1
  iintro ⟨%W, %hW, Hh⟩
  have e1 : W (Proc.devRef .tc main_v1) = srcC m d := hW main_v1 (by decide)
  have e3 : W (Proc.devRef .tc main_v3) = dstC m d := hW main_v3 (by decide)
  ihave H2 := (Entails.of_eq (StableHlo.held_sub_split (T d) S4'_sub W)) $$ Hh
  icases H2 with ⟨H4, Hrest⟩
  ihave H4' := (Entails.of_eq (held_S4' d W e1 e3)) $$ H4
  icases H4' with ⟨H13, H1, H3, H14⟩
  ihave H13' := (v13_deal d _) $$ H13
  icases H13' with ⟨H13a, H13b⟩
  ihave H14' := (v14_deal d _) $$ H14
  icases H14' with ⟨H14a, H14b⟩
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H13a H13b H1t H3t H14a H14b]
  · isplitl [H13a]; · iexact H13a
    isplitl [H13b]; · iexact H13b
    isplitl [H1t]; · iexact H1t
    isplitl [H3t]; · iexact H3t
    isplitl [H14a]; · iexact H14a
    iexact H14b
  · iexists W; isplitr
    · ipureintro; exact hW
    isplitl [Hrest]; · iexact Hrest
    isplitl [H1d]; · iexact H1d
    iexact H3d

/-- The valuation after the second call. -/
def Wup1 (W : Valuation τ sig (Elt F)) (d : Dev nD) (f13 : Buf (Elt F) (tLoc main_v13 d)) (f14 : Buf (Elt F) (tLoc main_v14 d)) :
    Valuation τ sig (Elt F) :=
  Function.update (Function.update W (Proc.devRef .tc main_v13) f13) (Proc.devRef .tc main_v14) f14

omit [FloatOps F] in
theorem Wup1_v13 (W : Valuation τ sig (Elt F)) (d : Dev nD) (f13 : Buf (Elt F) (tLoc main_v13 d)) (f14 : Buf (Elt F) (tLoc main_v14 d)) :
    Wup1 W d f13 f14 (Proc.devRef .tc main_v13) = f13 := by
  unfold Wup1
  rw [Function.update_of_ne (show (Proc.devRef .tc main_v13 : DevRef τ sig) ≠ Proc.devRef .tc main_v14 by decide), Function.update_self]
omit [FloatOps F] in
theorem Wup1_v14 (W : Valuation τ sig (Elt F)) (d : Dev nD) (f13 : Buf (Elt F) (tLoc main_v13 d)) (f14 : Buf (Elt F) (tLoc main_v14 d)) :
    Wup1 W d f13 f14 (Proc.devRef .tc main_v14) = f14 := Function.update_self _ _ _
omit [FloatOps F] in
theorem Wup1_of_ne (W : Valuation τ sig (Elt F)) (d : Dev nD) (f13 : Buf (Elt F) (tLoc main_v13 d)) (f14 : Buf (Elt F) (tLoc main_v14 d))
    {b : DevRef τ sig} (h13 : b ≠ Proc.devRef .tc main_v13) (h14 : b ≠ Proc.devRef .tc main_v14) : Wup1 W d f13 f14 b = W b := by
  unfold Wup1; rw [Function.update_of_ne h14, Function.update_of_ne h13]

/-- Collecting, second call. -/
theorem coll1 (d : Dev nD) :
    iprop((bigSep Finset.univ fun c : Fin ((K (F := F)).nCore 1) => (P (srcC m) (dstC m)).dn 1 d c) ∗ Rest1 m d)
      ⊢ (Inv m d : sProp 𝕄) := by
  rw [dn1_eq]
  unfold Inv Rest1
  iintro ⟨⟨H13a, H13b, H1t, H3t, H14a, H14b⟩, %W, %hW, Hrest, H1d, H3d⟩
  ihave H13 := (v13_coll d) $$ [H13a H13b]
  · isplitl [H13a]; · iexact H13a
    iexact H13b
  icases H13 with ⟨%f13, H13⟩
  ihave H14 := (v14_coll d) $$ [H14a H14b]
  · isplitl [H14a]; · iexact H14a
    iexact H14b
  icases H14 with ⟨%f14, H14⟩
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have e1 : Wup1 W d f13 f14 (Proc.devRef .tc main_v1) = srcC m d :=
    (Wup1_of_ne W d f13 f14 (by decide) (by decide)).trans (hW main_v1 (by decide))
  have e3 : Wup1 W d f13 f14 (Proc.devRef .tc main_v3) = dstC m d :=
    (Wup1_of_ne W d f13 f14 (by decide) (by decide)).trans (hW main_v3 (by decide))
  have hrest : ∀ b ∈ Pipeline.ucRefs τ sig \ S4', Wup1 W d f13 f14 b = W b := fun b hb =>
    Wup1_of_ne W d f13 f14 (fun e => (Finset.mem_sdiff.mp hb).2 (by rw [e]; decide)) (fun e => (Finset.mem_sdiff.mp hb).2 (by rw [e]; decide))
  iexists (Wup1 W d f13 f14); isplitr
  · ipureintro; intro r hr
    rw [Wup1_of_ne W d f13 f14
      (StableHlo.devRef_ne_of_ne fun e => absurd (show main_v13 ∈ keepR from e ▸ hr) (by decide))
      (StableHlo.devRef_ne_of_ne fun e => absurd (show main_v14 ∈ keepR from e ▸ hr) (by decide))]
    exact hW r hr
  rw [StableHlo.held_sub_split (T d) S4'_sub (Wup1 W d f13 f14), held_S4' d _ e1 e3, Wup1_v13, Wup1_v14, StableHlo.held_congr (T d) hrest]
  isplitl [H13 H1 H3 H14]
  · isplitl [H13]; · iexact H13
    isplitl [H1]; · iexact H1
    isplitl [H3]; · iexact H3
    iexact H14
  · iexact Hrest

end Cert.Proof.KernelL

end
-- ==== Proof.KBReg0.lean ====
/-
  The first TensorCore layer's step in @main's proof: the call of its pipeline, entered inside the aggregation launch.

  The layer's body reads its four input blocks (a 128 × 2048 block of the aggregated features, the 256 × 128 weights,
  the bias and the slope columns) and stores the whole 256 × 2048 output block: the weights times the block plus the bias,
  negative entries scaled by the slope. Its triple is the symbolic run of the printed body; the pipeline's proof data hold
  each input's buffer at its block at every point (fetched there or not: an unfetched window's index has not moved) and
  the output's at the body's store; the region's invariant is the core's scoped rest and its generator register.

  What differs from a region of a plain TensorCore program is that the TensorCore OWES during the region: the start
  signals of the second aggregation. The proof data's debt is that constant, every unit of it at a level above the
  first call's cut, and the pipeline's own waits, on its staging cells at the kernels' index, sit at level zero: so
  they are admissible, and the bound on the core's recorded waits survives them. The region is the library's region
  rule lifted along the launch's body table; around it the invariant of @main's proof is opened at its valuation, the
  region run from that valuation to the one updated at the region's arrays, and the invariant re-established there: no
  kept reference is one of the region's arrays.
-/
import proofs.«211848_g47218870452992_cont_8to1c4_747_2_alg».proof.Proof.KBHmain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KernelL

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The first layer's body: its accesses, and what it leaves in the output block's buffer -/

abbrev r1A : Rect S128x2048 := Rect.unit (s := S128x2048) ![0, 0] S128x2048.size inb_S128x2048_S128x2048_0_0
abbrev r1W : Rect S256x128 := Rect.unit (s := S256x128) ![0, 0] S256x128.size inb_S256x128_S256x128_0_0
abbrev r1B : Rect S256x1 := Rect.unit (s := S256x1) ![0, 0] S256x1.size inb_S256x1_S256x1_0_0
abbrev r1O : Rect S256x2048 := Rect.unit (s := S256x2048) ![0, 0] S256x2048.size inb_S256x2048_S256x2048_0_0

/-- The output block's buffer after the body, from the four input blocks: its one store, of the whole block. -/
def out1_4 (x0 : Vec F S128x2048 .f32) (x1 : Vec F S256x128 .f32) (x2 x3 : Vec F S256x1 .f32) : Vec F S256x2048 .f32 :=
  View.canon [⟨r1O, k1_pay1 (View.ld x1 r1W) (View.ld x0 r1A) (View.ld x2 r1B) (View.ld x3 r1B)⟩]

/-- The one store covers the block. -/
theorem cover1_4 (p0 : Vec F S256x2048 .f32) (y : S256x2048.Idx) :
    ∃ pc ∈ ([⟨r1O, p0⟩] : List (View.Piece (Elt F) S256x2048 .f32)), y ∈ pc.1.set :=
  View.cover_of_tiled [⟨r1O, p0⟩] S256x2048.size (by rfl) y

set_option maxHeartbeats 1000000 in
/-- The body on whole staging memrefs, the four inputs' at read contents and the output's at anything, runs to the continuation
    holding the inputs' as they were and the output's at `out1_4` of them. -/
theorem sound_kernel1 (c : Dev nD) (E : Set ℕ) (i : grid1.Coords)
    (arg1 : Memref sig .tc .vmem S128x2048 .f32) (harg1 : arg1.IsWhole) (arg2 : Memref sig .tc .vmem S256x128 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x2048 .f32) (harg5 : arg5.IsWhole)
    (x0 : Vec F S128x2048 .f32) (x1 : Vec F S256x128 .f32) (x2 x3 : Vec F S256x1 .f32) (Kk : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ Kk ⟨⟩))
      ⊢ wp frame (wpE (defs₀ (F := F)) Variants.none c none) E (cc1_body i arg1 harg1 arg2 harg2 arg3 harg3 arg4 harg4 arg5 harg5) Kk := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The windows' blocks, and the pipeline's proof data at the contents the region is entered from -/

/-- Window `w`'s block at point `t`, read off its array as the region finds it. -/
def iblk1 (Vv : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (Vv c (Pipeline.arrRef spec1 w))

/-- Input window 0's current staging buffer holds its block at every point, fetched there or not. -/
theorem before1_0_of (Vv : (c : Dev nD) → (b : Ref sig .tc) → Buf (Elt F) ((c : Thread nD τ).loc b)) {c : Dev nD}
    (dat : Dat τ (Elt F) (HIx 2) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of (Vv : (c : Dev nD) → (b : Ref sig .tc) → Buf (Elt F) ((c : Thread nD τ).loc b)) {c : Dev nD}
    (dat : Dat τ (Elt F) (HIx 2) ℕ UU ℕ cfg1 c) (hA : dat.A 1 = Vv c (Pipeline.arrRef spec1 1))
    (hafter : ∀ t, dat.after 1 t = iblk1 Vv c 1 t) (t : Fin cfg1.N) (d) : dat.before 1 t d = iblk1 Vv c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of (Vv : (c : Dev nD) → (b : Ref sig .tc) → Buf (Elt F) ((c : Thread nD τ).loc b)) {c : Dev nD}
    (dat : Dat τ (Elt F) (HIx 2) ℕ UU ℕ cfg1 c) (hA : dat.A 2 = Vv c (Pipeline.arrRef spec1 2))
    (hafter : ∀ t, dat.after 2 t = iblk1 Vv c 2 t) (t : Fin cfg1.N) (d) : dat.before 2 t d = iblk1 Vv c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of (Vv : (c : Dev nD) → (b : Ref sig .tc) → Buf (Elt F) ((c : Thread nD τ).loc b)) {c : Dev nD}
    (dat : Dat τ (Elt F) (HIx 2) ℕ UU ℕ cfg1 c) (hA : dat.A 3 = Vv c (Pipeline.arrRef spec1 3))
    (hafter : ∀ t, dat.after 3 t = iblk1 Vv c 3 t) (t : Fin cfg1.N) (d) : dat.before 3 t d = iblk1 Vv c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The region's invariant on core `c`: the core's scoped buffers that are no staging buffer of this pipeline, at some contents each, and
    its generator register at some state — what the body need not describe. -/
def Φ1 (c : Dev nD) : sProp 𝕄 :=
  iprop(Pipeline.scopedRest (Ix := HIx 2) (Name := ℕ) (U := UU) (Lvl := ℕ) (Val := Elt F) spec1 c ∗ ∃ r, prngReg c r)

/-- The proof data of the first layer's pipeline on core `c`: the arrays as the region finds them; after the body at a point each
    input's buffer at its block and the output's at `out1_4` of the input blocks; the invariant the scoped rest and the generator
    register, untouched; throughout the region the core owes what it owes before the second aggregation, and its recorded waits
    sit at or below that call's level. -/
def dat1 (Vv : (c : Dev nD) → (b : Ref sig .tc) → Buf (Elt F) ((c : Thread nD τ).loc b)) (c : Dev nD) : Dat τ (Elt F) (HIx 2) ℕ UU ℕ cfg1 c where
  A w := Vv c (Pipeline.arrRef spec1 w)
  after w t := match w with
    | ⟨0, _⟩ => iblk1 Vv c 0 t
    | ⟨1, _⟩ => iblk1 Vv c 1 t
    | ⟨2, _⟩ => iblk1 Vv c 2 t
    | ⟨3, _⟩ => iblk1 Vv c 3 t
    | ⟨4, _⟩ => out1_4 (iblk1 Vv c 0 t) (iblk1 Vv c 1 t) (iblk1 Vv c 2 t) (iblk1 Vv c 3 t)
  Φ _ := Φ1 (F := F) c
  q _ := fullShare
  owed _ := (K (F := F)).Otc c 1
  recorded _ := {p | (K (F := F)).lev (T c, p.1) p.2 ≤ 8}

theorem A_eq1 (Vv : (c : Dev nD) → (b : Ref sig .tc) → Buf (Elt F) ((c : Thread nD τ).loc b)) (c : Dev nD) (w : Fin cfg1.W) :
    (dat1 Vv c).A w = Vv c (Pipeline.arrRef spec1 w) := by
  dsimp only [dat1]
theorem after1_0 (Vv : (c : Dev nD) → (b : Ref sig .tc) → Buf (Elt F) ((c : Thread nD τ).loc b)) (c : Dev nD) (t : Fin cfg1.N) :
    (dat1 Vv c).after 0 t = iblk1 Vv c 0 t := by dsimp only [dat1]
theorem after1_1 (Vv : (c : Dev nD) → (b : Ref sig .tc) → Buf (Elt F) ((c : Thread nD τ).loc b)) (c : Dev nD) (t : Fin cfg1.N) :
    (dat1 Vv c).after 1 t = iblk1 Vv c 1 t := by dsimp only [dat1]
theorem after1_2 (Vv : (c : Dev nD) → (b : Ref sig .tc) → Buf (Elt F) ((c : Thread nD τ).loc b)) (c : Dev nD) (t : Fin cfg1.N) :
    (dat1 Vv c).after 2 t = iblk1 Vv c 2 t := by dsimp only [dat1]
theorem after1_3 (Vv : (c : Dev nD) → (b : Ref sig .tc) → Buf (Elt F) ((c : Thread nD τ).loc b)) (c : Dev nD) (t : Fin cfg1.N) :
    (dat1 Vv c).after 3 t = iblk1 Vv c 3 t := by dsimp only [dat1]
theorem after1_4 (Vv : (c : Dev nD) → (b : Ref sig .tc) → Buf (Elt F) ((c : Thread nD τ).loc b)) (c : Dev nD) (t : Fin cfg1.N) :
    (dat1 Vv c).after 4 t = out1_4 (iblk1 Vv c 0 t) (iblk1 Vv c 1 t) (iblk1 Vv c 2 t) (iblk1 Vv c 3 t) := by dsimp only [dat1]
theorem before1_0 (Vv : (c : Dev nD) → (b : Ref sig .tc) → Buf (Elt F) ((c : Thread nD τ).loc b)) (c : Dev nD) (t : Fin cfg1.N) (d) :
    (dat1 Vv c).before 0 t d = iblk1 Vv c 0 t :=
  before1_0_of Vv (dat1 Vv c) (A_eq1 Vv c 0) (after1_0 Vv c) t d
theorem before1_1 (Vv : (c : Dev nD) → (b : Ref sig .tc) → Buf (Elt F) ((c : Thread nD τ).loc b)) (c : Dev nD) (t : Fin cfg1.N) (d) :
    (dat1 Vv c).before 1 t d = iblk1 Vv c 1 t :=
  before1_1_of Vv (dat1 Vv c) (A_eq1 Vv c 1) (after1_1 Vv c) t d
theorem before1_2 (Vv : (c : Dev nD) → (b : Ref sig .tc) → Buf (Elt F) ((c : Thread nD τ).loc b)) (c : Dev nD) (t : Fin cfg1.N) (d) :
    (dat1 Vv c).before 2 t d = iblk1 Vv c 2 t :=
  before1_2_of Vv (dat1 Vv c) (A_eq1 Vv c 2) (after1_2 Vv c) t d
theorem before1_3 (Vv : (c : Dev nD) → (b : Ref sig .tc) → Buf (Elt F) ((c : Thread nD τ).loc b)) (c : Dev nD) (t : Fin cfg1.N) (d) :
    (dat1 Vv c).before 3 t d = iblk1 Vv c 3 t :=
  before1_3_of Vv (dat1 Vv c) (A_eq1 Vv c 3) (after1_3 Vv c) t d

/-! ## The body obligation, at a generic point -/

def bodyPre1 (Vv : (c : Dev nD) → (b : Ref sig .tc) → Buf (Elt F) ((c : Thread nD τ).loc b)) (c : Dev nD) (t : Fin cfg1.N) : sProp 𝕄 :=
  iprop((dat1 Vv c).Φ t.castSucc ∗ (dat1 Vv c).owesAt (none : HIx 2) t.castSucc
    ∗ (∃ d, owns (c : Thread nD τ) (st1_0 t) fullShare ((dat1 Vv c).before 0 t d))
    ∗ (∃ d, owns (c : Thread nD τ) (st1_1 t) fullShare ((dat1 Vv c).before 1 t d))
    ∗ (∃ d, owns (c : Thread nD τ) (st1_2 t) fullShare ((dat1 Vv c).before 2 t d))
    ∗ (∃ d, owns (c : Thread nD τ) (st1_3 t) fullShare ((dat1 Vv c).before 3 t d))
    ∗ (∃ d, owns (c : Thread nD τ) (st1_4 t) fullShare ((dat1 Vv c).before 4 t d)))

def bodyPost1 (Vv : (c : Dev nD) → (b : Ref sig .tc) → Buf (Elt F) ((c : Thread nD τ).loc b)) (c : Dev nD) (t : Fin cfg1.N) : sProp 𝕄 :=
  iprop((dat1 Vv c).Φ t.succ ∗ (dat1 Vv c).owesAt (none : HIx 2) t.succ
    ∗ owns (c : Thread nD τ) (st1_0 t) fullShare ((dat1 Vv c).after 0 t)
    ∗ owns (c : Thread nD τ) (st1_1 t) fullShare ((dat1 Vv c).after 1 t)
    ∗ owns (c : Thread nD τ) (st1_2 t) fullShare ((dat1 Vv c).after 2 t)
    ∗ owns (c : Thread nD τ) (st1_3 t) fullShare ((dat1 Vv c).after 3 t)
    ∗ owns (c : Thread nD τ) (st1_4 t) fullShare ((dat1 Vv c).after 4 t))

/-- The body at any point: the inputs' memrefs hold their blocks, so `sound_kernel1` applies; the invariant and the core's `owes`
    pass through unread. -/
theorem sound_body1 (Vv : (c : Dev nD) → (b : Ref sig .tc) → Buf (Elt F) ((c : Thread nD τ).loc b)) (c : Dev nD) (t : Fin cfg1.N) :
    bodyPre1 Vv c t ⊢ wp frame (wpE (defs₀ (F := F)) Variants.none c none) Set.univ (bodyAt1 t) (fun _ => bodyPost1 Vv c t) := by
  unfold bodyPre1 bodyPost1 bodyAt1
  simp only [before1_0, before1_1, before1_2, before1_3]
  rw [show (dat1 Vv c).Φ t.succ = (dat1 Vv c).Φ t.castSucc from rfl,
    show (dat1 Vv c).owesAt (none : HIx 2) t.succ = (dat1 Vv c).owesAt (none : HIx 2) t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 Vv c 0 t) (iblk1 Vv c 1 t) (iblk1 Vv c 2 t) (iblk1 Vv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (Vv : (c : Dev nD) → (b : Ref sig .tc) → Buf (Elt F) ((c : Thread nD τ).loc b)) (c : Dev nD) :
    BodyObligation (dat1 (F := F) Vv c) (defs₀ (F := F)) Variants.none (none : HIx 2) Set.univ := fun t => by
  rw [bigSep_W1, bigSep_W1]
  exact sound_body1 Vv c t

/-! ## The contents at the region's two ends -/

/-- An element of every element type: a zero word, or the float of the zero word. -/
instance eltNonempty : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(Scalar.ofBits .fp8e4m3 0 : F .fp8e4m3)⟩ | .fp8e5m2 => ⟨(Scalar.ofBits .fp8e5m2 0 : F .fp8e5m2)⟩
  | .bf16 => ⟨(Scalar.ofBits .bf16 0 : F .bf16)⟩ | .f16 => ⟨(Scalar.ofBits .f16 0 : F .f16)⟩ | .f32 => ⟨(Scalar.ofBits .f32 0 : F .f32)⟩

/-- A valuation read at the TensorCore's references. -/
abbrev r0V (Wc : Dev nD → Valuation τ sig (Elt F)) : (c : Dev nD) → (b : Ref sig .tc) → Buf (Elt F) ((c : Thread nD τ).loc b) := fun c b => Wc c b

/-- At the region's exit: its arrays at what the pipeline leaves (the inputs as entered, the output's write-backs folded), every other
    buffer as entered. -/
def r0W2 (Wc : Dev nD → Valuation τ sig (Elt F)) (c : Dev nD) : Valuation τ sig (Elt F) :=
  Pipeline.withArrays spec1 c (Wc c) fun w => (dat1 (r0V Wc) c).arrAt w cfg1.N
theorem r0W2_arr (Wc : Dev nD → Valuation τ sig (Elt F)) (c : Dev nD) (w : Fin cfg1.W) :
    r0W2 Wc c (Proc.devRef .tc (Pipeline.arrRef spec1 w)) = (dat1 (r0V Wc) c).arrAt w cfg1.N := by
  unfold r0W2; exact Pipeline.withArrays_arr spec1 launch1.win.arr_inj c _ _ w
theorem r0W2_of_ne (Wc : Dev nD → Valuation τ sig (Elt F)) (c : Dev nD) (b : Ref sig .tc) (hb : ∀ w, Pipeline.arrRef spec1 w ≠ b) :
    r0W2 Wc c (Proc.devRef .tc b) = Wc c (Proc.devRef .tc b) := by
  unfold r0W2; exact Pipeline.withArrays_of_ne spec1 c _ _ b hb
abbrev r0V2 (Wc : Dev nD → Valuation τ sig (Elt F)) : (c : Dev nD) → (b : Ref sig .tc) → Buf (Elt F) ((c : Thread nD τ).loc b) := fun c b => r0W2 Wc c b
theorem r0hF (Wc : Dev nD → Valuation τ sig (Elt F)) (c : Dev nD) (w : Fin cfg1.W) : (dat1 (r0V Wc) c).arrAt w cfg1.N = r0V2 Wc c (Pipeline.arrRef spec1 w) :=
  (r0W2_arr Wc c w).symm
theorem r0hrest (Wc : Dev nD → Valuation τ sig (Elt F)) (c : Dev nD) : ∀ b, b ∉ Finset.univ.image (Pipeline.arrRef spec1) → r0V2 Wc c b = r0V Wc c b :=
  fun b hb => r0W2_of_ne Wc c b fun w e => hb (Finset.mem_image.mpr ⟨w, Finset.mem_univ _, e⟩)

/-! ## The proof data family and the thread state -/

/-- Every pipeline's proof data: the first layer's at the region's entry contents; the head's, which this region's step does not read,
    at nothing stated. -/
def r0pdats (Wc : Dev nD → Valuation τ sig (Elt F)) : (p : Fin 2) → (c : Dev nD) → Dat τ (Elt F) (HIx 2) ℕ UU ℕ (Pipeline.pin (pcfgs (F := F)) adm p) c
  | ⟨0, _⟩ => fun c => dat1 (r0V Wc) c
  | ⟨1, _⟩ => fun c =>
    { A := fun w => r0V Wc c (Pipeline.arrRef spec3 w), after := fun _ _ _ => Classical.arbitrary _, Φ := fun _ => iprop(emp), q := fun _ => fullShare, owed := fun _ => 0 }

/-- What rides beside the buffers through the region: the generator register at some state, and what the TensorCore owes before the
    second aggregation, its recorded waits at or below that call's level. -/
abbrev r0Ride (c : Dev nD) : sProp 𝕄 :=
  iprop((∃ r, prngReg c r) ∗ ∃ W, ⌜(K (F := F)).WBelow (T c) W (8 * 1)⌝ ∗ owes (T c) ((K (F := F)).Otc c 1) W)

set_option backward.isDefEq.respectTransparency.types false in
/-- The first layer's region over the thread state: entered from every unscoped buffer at `Wc`, left at `r0W2 Wc`. -/
def reg0 (Wc : Dev nD → Valuation τ sig (Elt F)) :
    Pipeline.RegionSeg (pcfgs (F := F)) adm (r0pdats Wc) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (r0V Wc) c).loose
  hwaits c := Pipeline.cellsWaits_of_cut (Pipeline.pin (pcfgs (F := F)) adm) (r0pdats Wc) (none : HIx 2) 0 c 8 ((K (F := F)).Otc c 1) (fun _ => rfl)
    (fun _ _ => Finset.mem_univ _) (fun _ _ => Nat.zero_le _)
    (fun g i h => ⟨Finset.mem_univ _, by have := SparseCore.Cfg.lev_of_Otc_pos (K := K (F := F)) h; omega⟩)
  pre c := iprop(StableHlo.held (c : Thread nD τ) (Pipeline.ucRefs τ sig) (Wc c) ∗ r0Ride (F := F) c)
  post c := iprop(StableHlo.held (c : Thread nD τ) (Pipeline.ucRefs τ sig) (r0W2 Wc c) ∗ r0Ride (F := F) c)
  X c := iprop(∃ r, prngReg c r)
  Y c := iprop(∃ r, prngReg c r)
  Z c := Pipeline.unscopedRest (Ix := HIx 2) (Name := ℕ) (U := UU) (Lvl := ℕ) spec1 c (r0V Wc c)
  hentry c := by
    rw [Pipeline.ownSems0_none]
    have hsplit := Pipeline.arrays_of_unscopedBufs (p := 0) (pcfgs (F := F)) adm (r0pdats Wc) launch1.win launch1.arr_whole c
      ((r0pdats Wc 0 c).share_full fun _ => rfl) (r0V Wc c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (r0pdats Wc 0 c).Φ 0 = Φ1 (F := F) c from rfl]; unfold Φ1
    iintro ⟨Hp, -, Hr⟩
    isplitl [Hr]; · iexact Hr
    iexact Hp
  hout c := by
    rw [Pipeline.ownSems0_none, show (r0pdats Wc 0 c).Φ (Fin.last _) = Φ1 (F := F) c from rfl]; unfold Φ1
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c (r0pdats Wc) ((r0pdats Wc 0 c).share_full fun _ => rfl)
      (r0V Wc c) (r0V2 Wc c) ((r0pdats Wc 0 c).arrAt · cfg1.N) (r0hF Wc c) (r0hrest Wc c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ 8 * 1
        rw [SparseCore.Cfg.lev_none]; exact Nat.zero_le _
    · iexact HO

/-! ## The region's step in @main's proof -/

/-- No kept reference is one of the region's arrays. -/
theorem keep_ne1 : ∀ r ∈ keepR, ∀ w : Fin cfg1.W, Pipeline.arrRef spec1 w ≠ r := by decide

set_option backward.isDefEq.respectTransparency.types false in
theorem reg0_step (m : (ℓ : Loc nD τ sig) → Buf (Elt F) ℓ) (κ : GSem nD τ sig → ℕ) (d : Dev nD) (Φ : PUnit → sProp 𝕄) :
    iprop((K (F := F)).ctx EH (P (srcC m) (dstC m)) κ ∗ (K (F := F)).tcSt EH d 1 ∗ boundary (SparseCore.T d) ∗ Inv m d ∗ Aux (F := F) d ∗ ghost (F := F) 0 d
        ∗ (((K (F := F)).tcSt EH d 1 ∗ boundary (SparseCore.T d) ∗ Inv m d ∗ Aux (F := F) d) -∗ Φ ⟨⟩))
      ⊢ wp frame (wpE ((K (F := F)).defs (D (F := F))) 𝒱 (SparseCore.T d) none) Set.univ (Prog.lift (.customCall (SparseCore.inner (Pipeline.entry 0)) ())) Φ := by
  unfold Inv Aux ghost SparseCore.Cfg.tcSt
  iintro ⟨#Hctx, ⟨HOw, Hst⟩, Hb, ⟨%W, %hW, Hh⟩, ⟨Hsems, Hp⟩, ⟨Hg, Ht⟩, Hk⟩
  ihave Hlv := (SparseCore.Cfg.ctx_levAts (K := K (F := F)) (EH := EH) (P := P (srcC m) (dstC m)) κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) adm (r0pdats (fun _ => W)) (none : HIx 2) cellOf_inj (EP (F := F)) defs₀ 𝒱₀ (K (F := F)).L (K (F := F)).lev
    (reg0 (F := F) (fun _ => W)) d none (fun u hu => nomatch hu) (fun _ => .ret ⟨⟩) Φ) $$ [HOw Hst Hb Hh Hsems Hp Hg Ht Hk Hlv]
  isplitl [Hst Hsems Hk]
  · -- the continuation: the thread state, the boundary, the invariant at the exit contents, and what rides beside them
    iintro ⟨Hb, Hpost⟩
    ihave Hpost := (show ((reg0 (F := F) fun _ => W).post d : sProp 𝕄)
        ⊢ iprop(StableHlo.held (d : Thread nD τ) (Pipeline.ucRefs τ sig) (r0W2 (fun _ => W) d) ∗ r0Ride (F := F) d) from .rfl) $$ Hpost
    icases Hpost with ⟨Hh, Hp, HOw⟩
    rw [wp_ret]; imodintro
    iapply Hk
    isplitl [HOw Hst]
    · isplitl [HOw]; · iexact HOw
      iexact Hst
    isplitl [Hb]; · iexact Hb
    isplitl [Hh]
    · iexists (r0W2 (fun _ => W) d); isplitr
      · ipureintro; intro r hr
        exact (r0W2_of_ne (fun _ => W) d r (keep_ne1 r hr)).trans (hW r hr)
      · iexact Hh
    isplitl [Hsems]; · iexact Hsems
    iexact Hp
  isplitl [Hb]; · iexact Hb
  isplitl [Hh Hp HOw]
  · iapply (show iprop(StableHlo.held (d : Thread nD τ) (Pipeline.ucRefs τ sig) W ∗ r0Ride (F := F) d)
        ⊢ ((reg0 (F := F) fun _ => W).pre d : sProp 𝕄) from .rfl)
    isplitl [Hh]; · iexact Hh
    isplitl [Hp]; · iexact Hp
    iexact HOw
  isplitr; · iexact Hlv
  isplitl [Hg]; · iexact Hg
  iexact Ht

end Cert.Proof.KernelL

end
-- ==== Proof.KBClaim.lean ====
/-
  The kernel's frame from the pieces proved: the tiles' tasks, the dealing and collecting around both aggregations, the
  first layer's region. The head's region step is the one piece taken as stated.
-/
import proofs.«211848_g47218870452992_cont_8to1c4_747_2_alg».proof.Proof.KBFrame
import proofs.«211848_g47218870452992_cont_8to1c4_747_2_alg».proof.Proof.KBDeal
import proofs.«211848_g47218870452992_cont_8to1c4_747_2_alg».proof.Proof.KBReg0

set_option Elab.async false

noncomputable section

namespace Cert.Proof.KernelL

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The program's run from the head's region step alone. -/
theorem run_of_reg1 [hP : Cert.Pre_input_domain.Facts]
    (m : (ℓ : Loc nD τ sig) → Buf (Elt F) ℓ) (ρ : Dev nD → PrngReg) (hpre : PreG m)
  (hreg1 : ∀ (κ : GSem nD τ sig → ℕ) (d : Dev nD) (Φ : PUnit → sProp 𝕄),
    iprop((K (F := F)).ctx EH (P (srcC m) (dstC m)) κ ∗ (K (F := F)).tcSt EH d 2 ∗ boundary (T d) ∗ Inv m d ∗ Aux (F := F) d ∗ ghost (F := F) 1 d
        ∗ (((K (F := F)).tcSt EH d 2 ∗ boundary (T d) ∗ Inv m d ∗ Aux (F := F) d) -∗ Φ ⟨⟩))
      ⊢ wp frame (wpE ((K (F := F)).defs (D (F := F))) 𝒱 (SparseCore.T d) none) Set.univ
          (Prog.lift (.customCall (SparseCore.inner (Pipeline.entry 1)) ())) Φ) :
    θ_run (Cert.Kernel.defs (F := F)) (Cert.Kernel.threads (F := F)) ⟨m, fun _ => 0, ρ⟩ (QC m) :=
  run_main m ρ hpre (Rest0 m) (Rest1 m) (deal0 m) (coll0 m) (deal1 m) (coll1 m) (fun κ d Φ => reg0_step m κ d Φ) hreg1

end Cert.Proof.KernelL

end
-- ==== Proof.KIReg1.lean ====
/-
  The head's step in @main's proof: the call of the second TensorCore pipeline, entered after the second aggregation.

  The head's body reads a 256 × 2048 block of the aggregated features, the weights, the bias and slope columns, and keeps
  in a scratch the running column sums of the activated block; at the first point it starts that sum, at every later
  point it adds to it, and at the last point it reads the sum, the head's weights and bias and stores the 1 × 16 row of
  class scores. Which of the three conditional stores a point takes is decided by the point alone; the run here takes
  each conditional both ways and closes every branch alike.

  Only the frame is claimed, and nothing after this region reads what it computes, so every window is FORGOTTEN: the
  body is handed each staging buffer and the scratch at contents not stated and hands them back so, and the pipeline's
  proof data are read as relational data that say nothing of what the body leaves. At the region's exit each array is
  held at some contents; an input array is never written, so the one kept reference among the region's arrays — the
  head's weights, an argument — holds what it held at entry, and the invariant of @main's proof is re-established at
  the valuation updated at the region's arrays. As in the first layer's step the TensorCore's debt is a constant — here
  nothing more is owed to the aggregations —, the pipeline's own waits sit at level zero, and the bound on the core's
  recorded waits survives them; the region is the library's relational region rule lifted along the launch's body table.
-/
import proofs.«211848_g47218870452992_cont_8to1c4_747_2_alg».proof.Proof.KIReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The head's body, every window and the pooling scratch at contents not stated -/

/-- A memref's elements held at some contents are owned at what they read. -/
theorem any_owned (c : Dev nD) {s : Shape} (mm : Memref sig .tc .vmem s .f32) (f : Buf (Elt F) (mm.view.loc (c : Thread nD τ))) :
    (mm.view.loc (c : Thread nD τ) ↦[mm.view.set]{fullShare} f : sProp 𝕄)
      ⊢ ∃ X f', ⌜mm.view.read (Elt F) f' = X⌝ ∗ mm.view.loc (c : Thread nD τ) ↦[mm.view.set]{fullShare} f' := by
  iintro H
  iexists (mm.view.read (Elt F) f); iexists f; isplitr
  · ipureintro; rfl
  · iexact H
set_option maxHeartbeats 1000000 in
/-- The body on whole staging memrefs and the pooling scratch, each at some contents, runs to the continuation holding each at some
    contents: whichever of its three conditional stores the point takes. -/
theorem sound_kernel3 (c : Dev nD) (E : Set ℕ) (i : grid3.Coords)
    (arg1 : Memref sig .tc .vmem S256x2048 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S1x16 .f32) (harg7 : arg7.IsWhole)
    (Kk : PUnit → sProp 𝕄) :
    iprop((∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ f, (Memref.whole cc3_scratch0 : Memref sig .tc .vmem S256x1 .f32).view.loc (c : Thread nD τ) ↦{fullShare} f)
        ∗ (iprop((∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ f, (Memref.whole cc3_scratch0 : Memref sig .tc .vmem S256x1 .f32).view.loc (c : Thread nD τ) ↦{fullShare} f)) -∗ Kk ⟨⟩))
      ⊢ wp frame (wpE (defs₀ (F := F)) Variants.none c none) E
          (cc3_body i arg1 harg1 arg2 harg2 arg3 harg3 arg4 harg4 arg5 harg5 arg6 harg6 arg7 harg7 (Memref.whole cc3_scratch0) (Memref.isWhole_whole _)) Kk := by
  rw [cc3_body_eq_skeleton]; unfold cc3_body_skel
  unfold owns
  iintro ⟨⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%f8, H8⟩, Hk⟩
  sl_exec
  split
  · sl_exec
    split
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
  · sl_exec
    split
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8

/-! ## The head's pipeline: its proof data with every window forgotten -/

/-- The region's invariant on core `c`: the core's scoped buffers that are no staging buffer of this pipeline — the pooling scratch among
    them —, at some contents each, and its generator register at some state. -/
def Φ3 (c : Dev nD) : sProp 𝕄 :=
  iprop(Pipeline.scopedRest (Ix := HIx 2) (Name := ℕ) (U := UU) (Lvl := ℕ) (Val := Elt F) spec3 c ∗ ∃ r, prngReg c r)

/-- The proof data of the head's pipeline on core `c`: the arrays as the region finds them; what the body leaves is not stated (every
    window is forgotten); throughout the region the core owes nothing more to the aggregations, and its recorded waits sit at or below
    the second call's level. -/
def dat3 (Vv : (c : Dev nD) → (b : Ref sig .tc) → Buf (Elt F) ((c : Thread nD τ).loc b)) (c : Dev nD) : Dat τ (Elt F) (HIx 2) ℕ UU ℕ cfg3 c where
  A w := Vv c (Pipeline.arrRef spec3 w)
  after _ _ := fun _ => Classical.arbitrary _
  Φ _ := Φ3 (F := F) c
  q _ := fullShare
  owed _ := (K (F := F)).Otc c 2
  recorded _ := {p | (K (F := F)).lev (T c, p.1) p.2 ≤ 16}

/-- The body at any point, every window handed over and taken back at contents not stated: the pooling scratch out of the scoped rest
    and back; the invariant's other buffers, the generator register and the core's `owes` pass through unread. -/
theorem body_obligation3 (Vv : (c : Dev nD) → (b : Ref sig .tc) → Buf (Elt F) ((c : Thread nD τ).loc b)) (c : Dev nD) :
    Pipeline.BodyObligationLoose (dat3 (F := F) Vv c) (defs₀ (F := F)) Variants.none (none : HIx 2) Set.univ (fun _ => true) := fun t => by
  show _ ⊢ wp frame (wpE (defs₀ (F := F)) Variants.none c none) Set.univ (bodyAt3 t) _
  rw [bigSep_W3]
  try rw [bigSep_W3]
  dsimp only
  rw [show (dat3 Vv c).Φ t.succ = Φ3 (F := F) c from rfl, show (dat3 Vv c).Φ t.castSucc = Φ3 (F := F) c from rfl,
    show (dat3 Vv c).owesAt (none : HIx 2) t.succ = (dat3 Vv c).owesAt (none : HIx 2) t.castSucc from rfl]
  unfold Φ3
  rw [scopedRest3_eq]
  iintro ⟨⟨⟨Hr0, Hr1, Hr2, Hr3, Hr4, Hr5, Hr6, Hscr⟩, Hprng⟩, Ho, H0, H1, H2, H3, H4, H5, H6⟩
  iapply (sound_kernel3 (F := F) c Set.univ (grid3.coords t) _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hr0 Hr1 Hr2 Hr3 Hr4 Hr5 Hr6 Hscr Hprng]
  · isplitl [Hr0 Hr1 Hr2 Hr3 Hr4 Hr5 Hr6 Hscr]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hscr
    iexact Hprng
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The proof data family, the contents at the region's exit, and the thread state -/

/-- Every pipeline's proof data at the contents `Wc`, read as relational data with every window forgotten. -/
def r1pdats (Wc : Dev nD → Valuation τ sig (Elt F)) : (p : Fin 2) → (c : Dev nD) → Dat τ (Elt F) (HIx 2) ℕ UU ℕ (Pipeline.pin (pcfgs (F := F)) adm p) c
  | ⟨0, _⟩ => fun c => dat1 (r0V Wc) c
  | ⟨1, _⟩ => fun c => dat3 (r0V Wc) c
def r1rdats (Wc : Dev nD → Valuation τ sig (Elt F)) : (p : Fin 2) → (c : Dev nD) → Pipeline.RDat τ (Elt F) (HIx 2) ℕ UU ℕ (Pipeline.pin (pcfgs (F := F)) adm p) c
  | ⟨0, _⟩ => fun c => (dat1 (r0V Wc) c).toRForget (fun _ => true)
  | ⟨1, _⟩ => fun c => (dat3 (r0V Wc) c).toRForget (fun _ => true)

/-- Seven arrays' contents as a family over the windows. -/
def fam3 (c : Dev nD) (F0 : Buf (Elt F) ((cfg3.win 0).arr.view.loc (c.tc : Thread nD τ))) (F1 : Buf (Elt F) ((cfg3.win 1).arr.view.loc (c.tc : Thread nD τ))) (F2 : Buf (Elt F) ((cfg3.win 2).arr.view.loc (c.tc : Thread nD τ))) (F3 : Buf (Elt F) ((cfg3.win 3).arr.view.loc (c.tc : Thread nD τ))) (F4 : Buf (Elt F) ((cfg3.win 4).arr.view.loc (c.tc : Thread nD τ))) (F5 : Buf (Elt F) ((cfg3.win 5).arr.view.loc (c.tc : Thread nD τ))) (F6 : Buf (Elt F) ((cfg3.win 6).arr.view.loc (c.tc : Thread nD τ))) :
    (w : Fin cfg3.W) → Buf (Elt F) ((cfg3.win w).arr.view.loc (c.tc : Thread nD τ))
  | ⟨0, _⟩ => F0 | ⟨1, _⟩ => F1 | ⟨2, _⟩ => F2 | ⟨3, _⟩ => F3 | ⟨4, _⟩ => F4 | ⟨5, _⟩ => F5 | ⟨6, _⟩ => F6

/-- What rides beside the buffers through the region: the generator register at some state, and what the TensorCore owes after the
    second aggregation, its recorded waits at or below that call's level. -/
abbrev r1Ride (c : Dev nD) : sProp 𝕄 :=
  iprop((∃ r, prngReg c r) ∗ ∃ W, ⌜(K (F := F)).WBelow (T c) W (8 * 2)⌝ ∗ owes (T c) ((K (F := F)).Otc c 2) W)

/-- One kept reference is among the region's arrays: the head's weights, an argument, read through an input window; no other is. -/
theorem keep_ne3 : ∀ r ∈ keepR, r ≠ main_arg8 → ∀ w : Fin cfg3.W, Pipeline.arrRef spec3 w ≠ r := by decide

set_option backward.isDefEq.respectTransparency.types false in
/-- The head's region over the thread state: entered from every unscoped buffer at `Wc`, left at some contents that agree with `Wc`
    off the region's arrays. -/
def reg1 (Wc : Dev nD → Valuation τ sig (Elt F)) :
    Pipeline.RDat.RegionSeg (pcfgs (F := F)) adm (r1rdats Wc) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 (r0V Wc) c).toRForget
  hwaits c := Pipeline.RDat.cellsWaits_of_cut (Pipeline.pin (pcfgs (F := F)) adm) (r1rdats Wc) (none : HIx 2) 1 c 16 ((K (F := F)).Otc c 2) (fun _ => rfl)
    (fun _ _ => Finset.mem_univ _) (fun _ _ => Nat.zero_le _)
    (fun g i h => ⟨Finset.mem_univ _, by have := SparseCore.Cfg.lev_of_Otc_pos (K := K (F := F)) h; omega⟩)
  pre c := iprop(StableHlo.held (c : Thread nD τ) (Pipeline.ucRefs τ sig) (Wc c) ∗ r1Ride (F := F) c)
  post c := iprop((∃ W' : Valuation τ sig (Elt F), ⌜∀ r ∈ keepR, W' (Proc.devRef .tc r) = Wc c (Proc.devRef .tc r)⌝
      ∗ StableHlo.held (c : Thread nD τ) (Pipeline.ucRefs τ sig) W') ∗ r1Ride (F := F) c)
  X c := iprop(∃ r, prngReg c r)
  Y c := iprop(∃ r, prngReg c r)
  Z c := Pipeline.unscopedRest (Ix := HIx 2) (Name := ℕ) (U := UU) (Lvl := ℕ) spec3 c (r0V Wc c)
  hentry c := by
    rw [Pipeline.ownSems0_none]
    have hsplit := Pipeline.RDat.arrays_of_unscopedBufs (p := 1) (pcfgs (F := F)) adm (r1rdats Wc) launch3.win launch3.arr_whole c
      ((r1pdats Wc 1 c).share_full fun _ => rfl) (r0V Wc c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (r1rdats Wc 1 c).Φ 0 = Φ3 (F := F) c from rfl]; unfold Φ3
    iintro ⟨Hp, -, Hr⟩
    isplitl [Hr]; · iexact Hr
    iexact Hp
  hout c := by
    rw [Pipeline.ownSems0_none, show (r1rdats Wc 1 c).Φ (Fin.last _) = Φ3 (F := F) c from rfl]; unfold Φ3
    iintro ⟨Hr, Hp⟩
    isplitl [Hp]; · iexact Hp
    isplitr; · iempintro
    iexact Hr
  hexit c := by
    unfold Pipeline.RDat.arraysAt
    rw [bigSep_W3]
    iintro ⟨⟨⟨%F0, -, A0⟩, ⟨%F1, -, A1⟩, ⟨%F2, -, A2⟩, ⟨%F3, -, A3⟩, ⟨%F4, %hF4, A4⟩, ⟨%F5, -, A5⟩, ⟨%F6, -, A6⟩⟩, HO, HY, Hrest⟩
    have hjoin := Pipeline.unscopedBufs_of_arrays (p := 1) (pcfgs (F := F)) adm (Ix := HIx 2) (Name := ℕ) (U := UU) (Lvl := ℕ)
      launch3.win launch3.arr_whole c (r1pdats Wc) ((r1pdats Wc 1 c).share_full fun _ => rfl)
      (r0V Wc c) (fun b => Pipeline.withArrays spec3 c (Wc c) (fam3 (F := F) c F0 F1 F2 F3 F4 F5 F6) (Proc.devRef .tc b))
      (fam3 (F := F) c F0 F1 F2 F3 F4 F5 F6)
      (fun w => (Pipeline.withArrays_arr spec3 launch3.win.arr_inj c _ _ w).symm)
      (fun b hb => Pipeline.withArrays_of_ne spec3 c _ _ b fun w e => hb (Finset.mem_image.mpr ⟨w, Finset.mem_univ _, e⟩))
    rw [Pipeline.unscopedBufs_held] at hjoin
    imodintro
    isplitl [A0 A1 A2 A3 A4 A5 A6 Hrest]
    · iexists (Pipeline.withArrays spec3 c (Wc c) (fam3 (F := F) c F0 F1 F2 F3 F4 F5 F6)); isplitr
      · ipureintro; intro r hr
        by_cases h8 : r = main_arg8
        · subst h8
          -- an input array is never written: it holds what it held at entry
          have e4 : F4 = (r1rdats Wc 1 c).A 4 := (congrFun (Pipeline.RDat.ArrAt_in (rd := r1rdats Wc 1 c) 4 rfl _) F4).mp hF4
          exact (Pipeline.withArrays_arr spec3 launch3.win.arr_inj c _ _ 4).trans e4
        · exact Pipeline.withArrays_of_ne spec3 c _ _ r (keep_ne3 r hr h8)
      · iapply hjoin
        isplitl [A0 A1 A2 A3 A4 A5 A6]
        · unfold Pipeline.Dat.arrays
          rw [bigSep_W3]
          isplitl [A0]; · iexact A0
          isplitl [A1]; · iexact A1
          isplitl [A2]; · iexact A2
          isplitl [A3]; · iexact A3
          isplitl [A4]; · iexact A4
          isplitl [A5]; · iexact A5
          iexact A6
        · iexact Hrest
    isplitl [HY]; · iexact HY
    unfold Pipeline.RDat.owesAt Pipeline.owesWithin
    icases HO with ⟨%W, %hW, HO⟩; iexists W; isplitr
    · ipureintro; intro p hp
      rcases hW hp with h | ⟨w, s, rfl⟩
      · exact h
      · show (K (F := F)).lev _ none ≤ 8 * 2
        rw [SparseCore.Cfg.lev_none]; exact Nat.zero_le _
    · iexact HO

/-! ## The region's step in @main's proof -/

set_option backward.isDefEq.respectTransparency.types false in
theorem reg1_step (m : (ℓ : Loc nD τ sig) → Buf (Elt F) ℓ) (κ : GSem nD τ sig → ℕ) (d : Dev nD) (Φ : PUnit → sProp 𝕄) :
    iprop((K (F := F)).ctx EH (P (srcC m) (dstC m)) κ ∗ (K (F := F)).tcSt EH d 2 ∗ boundary (SparseCore.T d) ∗ Inv m d ∗ Aux (F := F) d ∗ ghost (F := F) 1 d
        ∗ (((K (F := F)).tcSt EH d 2 ∗ boundary (SparseCore.T d) ∗ Inv m d ∗ Aux (F := F) d) -∗ Φ ⟨⟩))
      ⊢ wp frame (wpE ((K (F := F)).defs (D (F := F))) 𝒱 (SparseCore.T d) none) Set.univ (Prog.lift (.customCall (SparseCore.inner (Pipeline.entry 1)) ())) Φ := by
  unfold Inv Aux ghost SparseCore.Cfg.tcSt
  iintro ⟨#Hctx, ⟨HOw, Hst⟩, Hb, ⟨%W, %hW, Hh⟩, ⟨Hsems, Hp⟩, ⟨Hg, Ht⟩, Hk⟩
  ihave Hlv := (SparseCore.Cfg.ctx_levAts (K := K (F := F)) (EH := EH) (P := P (srcC m) (dstC m)) κ) $$ Hctx
  iapply ((K (F := F)).wp_liftProg (D (F := F)) 𝒱 (SparseCore.T d) Set.univ none (Prog.lift (.customCall (Pipeline.entry 1) ())) Φ)
  iapply (Pipeline.RDat.RegionSeg.wp (pcfgs (F := F)) adm (r1rdats (fun _ => W)) (none : HIx 2) cellOf_inj (EP (F := F)) defs₀ 𝒱₀ (K (F := F)).L (K (F := F)).lev
    (reg1 (F := F) (fun _ => W)) d none (fun u hu => nomatch hu) (fun _ => .ret ⟨⟩) Φ) $$ [HOw Hst Hb Hh Hsems Hp Hg Ht Hk Hlv]
  isplitl [Hst Hsems Hk]
  · -- the continuation: the thread state, the boundary, the invariant at the exit contents, and what rides beside them
    iintro ⟨Hb, Hpost⟩
    ihave Hpost := (show ((reg1 (F := F) fun _ => W).post d : sProp 𝕄)
        ⊢ iprop((∃ W' : Valuation τ sig (Elt F), ⌜∀ r ∈ keepR, W' (Proc.devRef .tc r) = W (Proc.devRef .tc r)⌝
            ∗ StableHlo.held (d : Thread nD τ) (Pipeline.ucRefs τ sig) W') ∗ r1Ride (F := F) d) from .rfl) $$ Hpost
    icases Hpost with ⟨⟨%W', %hW', Hh⟩, Hp, HOw⟩
    rw [wp_ret]; imodintro
    iapply Hk
    isplitl [HOw Hst]
    · isplitl [HOw]; · iexact HOw
      iexact Hst
    isplitl [Hb]; · iexact Hb
    isplitl [Hh]
    · iexists W'; isplitr
      · ipureintro; intro r hr
        exact (hW' r hr).trans (hW r hr)
      · iexact Hh
    isplitl [Hsems]; · iexact Hsems
    iexact Hp
  isplitl [Hb]; · iexact Hb
  isplitl [Hh Hp HOw]
  · iapply (show iprop(StableHlo.held (d : Thread nD τ) (Pipeline.ucRefs τ sig) W ∗ r1Ride (F := F) d)
        ⊢ ((reg1 (F := F) fun _ => W).pre d : sProp 𝕄) from .rfl)
    isplitl [Hh]; · iexact Hh
    isplitl [Hp]; · iexact Hp
    iexact HOw
  isplitr; · iexact Hlv
  isplitl [Hg]; · iexact Hg
  iexact Ht

end Cert.Proof.KernelIdealL

end
-- ==== Proof.KBReg1.lean ====
/-
  The head's step in @main's proof: the call of the second TensorCore pipeline, entered after the second aggregation.

  The head's body reads a 256 × 2048 block of the aggregated features, the weights, the bias and slope columns, and keeps
  in a scratch the running column sums of the activated block; at the first point it starts that sum, at every later
  point it adds to it, and at the last point it reads the sum, the head's weights and bias and stores the 1 × 16 row of
  class scores. Which of the three conditional stores a point takes is decided by the point alone; the run here takes
  each conditional both ways and closes every branch alike.

  Only the frame is claimed, and nothing after this region reads what it computes, so every window is FORGOTTEN: the
  body is handed each staging buffer and the scratch at contents not stated and hands them back so, and the pipeline's
  proof data are read as relational data that say nothing of what the body leaves. At the region's exit each array is
  held at some contents; an input array is never written, so the one kept reference among the region's arrays — the
  head's weights, an argument — holds what it held at entry, and the invariant of @main's proof is re-established at
  the valuation updated at the region's arrays. As in the first layer's step the TensorCore's debt is a constant — here
  nothing more is owed to the aggregations —, the pipeline's own waits sit at level zero, and the bound on the core's
  recorded waits survives them; the region is the library's relational region rule lifted along the launch's body table.
-/
import proofs.«211848_g47218870452992_cont_8to1c4_747_2_alg».proof.Proof.KBReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KernelL

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The head's body, every window and the pooling scratch at contents not stated -/

/-- A memref's elements held at some contents are owned at what they read. -/
theorem any_owned (c : Dev nD) {s : Shape} (mm : Memref sig .tc .vmem s .f32) (f : Buf (Elt F) (mm.view.loc (c : Thread nD τ))) :
    (mm.view.loc (c : Thread nD τ) ↦[mm.view.set]{fullShare} f : sProp 𝕄)
      ⊢ ∃ X f', ⌜mm.view.read (Elt F) f' = X⌝ ∗ mm.view.loc (c : Thread nD τ) ↦[mm.view.set]{fullShare} f' := by
  iintro H
  iexists (mm.view.read (Elt F) f); iexists f; isplitr
  · ipureintro; rfl
  · iexact H
set_option maxHeartbeats 1000000 in
/-- The body on whole staging memrefs and the pooling scratch, each at some contents, runs to the continuation holding each at some
    contents: whichever of its three conditional stores the point takes. -/
theorem sound_kernel3 (c : Dev nD) (E : Set ℕ) (i : grid3.Coords)
    (arg1 : Memref sig .tc .vmem S256x2048 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S1x16 .f32) (harg7 : arg7.IsWhole)
    (Kk : PUnit → sProp 𝕄) :
    iprop((∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ f, (Memref.whole cc3_scratch0 : Memref sig .tc .vmem S256x1 .f32).view.loc (c : Thread nD τ) ↦{fullShare} f)
        ∗ (iprop((∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ f, (Memref.whole cc3_scratch0 : Memref sig .tc .vmem S256x1 .f32).view.loc (c : Thread nD τ) ↦{fullShare} f)) -∗ Kk ⟨⟩))
      ⊢ wp frame (wpE (defs₀ (F := F)) Variants.none c none) E
          (cc3_body i arg1 harg1 arg2 harg2 arg3 harg3 arg4 harg4 arg5 harg5 arg6 harg6 arg7 harg7 (Memref.whole cc3_scratch0) (Memref.isWhole_whole _)) Kk := by
  rw [cc3_body_eq_skeleton]; unfold cc3_body_skel
  unfold owns
  iintro ⟨⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%f8, H8⟩, Hk⟩
  sl_exec
  split
  · sl_exec
    split
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
  · sl_exec
    split
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
    · sl_exec
      split
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8
      · sl_exec
        sl_step
        iapply Hk
        isplitl [H1]; · iapply (any_owned (F := F) c _ _); iexact H1
        isplitl [H2]; · iapply (any_owned (F := F) c _ _); iexact H2
        isplitl [H3]; · iapply (any_owned (F := F) c _ _); iexact H3
        isplitl [H4]; · iapply (any_owned (F := F) c _ _); iexact H4
        isplitl [H5]; · iapply (any_owned (F := F) c _ _); iexact H5
        isplitl [H6]; · iapply (any_owned (F := F) c _ _); iexact H6
        isplitl [H7]; · iapply (any_owned (F := F) c _ _); iexact H7
        iexists _; iexact H8

/-! ## The head's pipeline: its proof data with every window forgotten -/

/-- The region's invariant on core `c`: the core's scoped buffers that are no staging buffer of this pipeline — the pooling scratch among
    them —, at some contents each, and its generator register at some state. -/
def Φ3 (c : Dev nD) : sProp 𝕄 :=
  iprop(Pipeline.scopedRest (Ix := HIx 2) (Name := ℕ) (U := UU) (Lvl := ℕ) (Val := Elt F) spec3 c ∗ ∃ r, prngReg c r)

/-- The proof data of the head's pipeline on core `c`: the arrays as the region finds them; what the body leaves is not stated (every
    window is forgotten); throughout the region the core owes nothing more to the aggregations, and its recorded waits sit at or below
    the second call's level. -/
def dat3 (Vv : (c : Dev nD) → (b : Ref sig .tc) → Buf (Elt F) ((c : Thread nD τ).loc b)) (c : Dev nD) : Dat τ (Elt F) (HIx 2) ℕ UU ℕ cfg3 c where
  A w := Vv c (Pipeline.arrRef spec3 w)
  after _ _ := fun _ => Classical.arbitrary _
  Φ _ := Φ3 (F := F) c
  q _ := fullShare
  owed _ := (K (F := F)).Otc c 2
  recorded _ := {p | (K (F := F)).lev (T c, p.1) p.2 ≤ 16}

/-- The body at any point, every window handed over and taken back at contents not stated: the pooling scratch out of the scoped rest
    and back; the invariant's other buffers, the generator register and the core's `owes` pass through unread. -/
theorem body_obligation3 (Vv : (c : Dev nD) → (b : Ref sig .tc) → Buf (Elt F) ((c : Thread nD τ).loc b)) (c : Dev nD) :
    Pipeline.BodyObligationLoose (dat3 (F := F) Vv c) (defs₀ (F := F)) Variants.none (none : HIx 2) Set.univ (fun _ => true) := fun t => by
  show _ ⊢ wp frame (wpE (defs₀ (F := F)) Variants.none c none) Set.univ (bodyAt3 t) _
  rw [bigSep_W3]
  try rw [bigSep_W3]
  dsimp only
  rw [show (dat3 Vv c).Φ t.succ = Φ3 (F := F) c from rfl, show (dat3 Vv c).Φ t.castSucc = Φ3 (F := F) c from rfl,
    show (dat3 Vv c).owesAt (none : HIx 2) t.succ = (dat3 Vv c).owesAt (none : HIx 2) t.castSucc from rfl]
  unfold Φ3
  rw [scopedRest3_eq]
  iintro ⟨⟨⟨Hr0, Hr1, Hr2, Hr3, Hr4, Hr5, Hr6, Hscr⟩, Hprng⟩, Ho, H0, H1, H2, H3, H4, H5, H6⟩
  iapply (sound_kernel3 (F := F) c Set.univ (grid3.coords t) _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hr0 Hr1 Hr2 Hr3 Hr4 Hr5 Hr6 Hscr Hprng]
  · isplitl [Hr0 Hr1 Hr2 Hr3 Hr4 Hr5 Hr6 Hscr]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hscr
    iexact Hprng
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The proof data family, the contents at the region's exit, and the thread state -/

/-- Every pipeline's proof data at the contents `Wc`, read as relational data with every window forgotten. -/
def r1pdats (Wc : Dev nD → Valuation τ sig (Elt F)) : (p : Fin 2) → (c : Dev nD) → Dat τ (Elt F) (HIx 2) ℕ UU ℕ (Pipeline.pin (pcfgs (F := F)) adm p) c
  | ⟨0, _⟩ => fun c => dat1 (r0V Wc) c
  | ⟨1, _⟩ => fun c => dat3 (r0V Wc) c
def r1rdats (Wc : Dev nD → Valuation τ sig (Elt F)) : (p : Fin 2) → (c : Dev nD) → Pipeline.RDat τ (Elt F) (HIx 2) ℕ UU ℕ (Pipeline.pin (pcfgs (F := F)) adm p) c
  | ⟨0, _⟩ => fun c => (dat1 (r0V Wc) c).toRForget (fun _ => true)
  | ⟨1, _⟩ => fun c => (dat3 (r0V Wc) c).toRForget (fun _ => true)

/-- Seven arrays' contents as a family over the windows. -/
def fam3 (c : Dev nD) (F0 : Buf (Elt F) ((cfg3.win 0).arr.view.loc (c.tc : Thread nD τ))) (F1 : Buf (Elt F) ((cfg3.win 1).arr.view.loc (c.tc : Thread nD τ))) (F2 : Buf (Elt F) ((cfg3.win 2).arr.view.loc (c.tc : Thread nD τ))) (F3 : Buf (Elt F) ((cfg3.win 3).arr.view.loc (c.tc : Thread nD τ))) (F4 : Buf (Elt F) ((cfg3.win 4).arr.view.loc (c.tc : Thread nD τ))) (F5 : Buf (Elt F) ((cfg3.win 5).arr.view.loc (c.tc : Thread nD τ))) (F6 : Buf (Elt F) ((cfg3.win 6).arr.view.loc (c.tc : Thread nD τ))) :
    (w : Fin cfg3.W) → Buf (Elt F) ((cfg3.win w).arr.view.loc (c.tc : Thread nD τ))
  | ⟨0, _⟩ => F0 | ⟨1, _⟩ => F1 | ⟨2, _⟩ => F2 | ⟨3, _⟩ => F3 | ⟨4, _⟩ => F4 | ⟨5, _⟩ => F5 | ⟨6, _⟩ => F6

/-- What rides beside the buffers through the region: the generator register at some state, and what the TensorCore owes after the
    second aggregation, its recorded waits at or below that call's level. -/
abbrev r1Ride (c : Dev nD) : sProp 𝕄 :=
  iprop((∃ r, prngReg c r) ∗ ∃ W, ⌜(K (F := F)).WBelow (T c) W (8 * 2)⌝ ∗ owes (T c) ((K (F := F)).Otc c 2) W)

/-- One kept reference is among the region's arrays: the head's weights, an argument, read through an input window; no other is. -/
theorem keep_ne3 : ∀ r ∈ keepR, r ≠ main_arg8 → ∀ w : Fin cfg3.W, Pipeline.arrRef spec3 w ≠ r := by decide

set_option backward.isDefEq.respectTransparency.types false in
/-- The head's region over the thread state: entered from every unscoped buffer at `Wc`, left at some contents that agree with `Wc`
    off the region's arrays. -/
def reg1 (Wc : Dev nD → Valuation τ sig (Elt F)) :
    Pipeline.RDat.RegionSeg (pcfgs (F := F)) adm (r1rdats Wc) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 (r0V Wc) c).toRForget
  hwaits c := Pipeline.RDat.cellsWaits_of_cut (Pipeline.pin (pcfgs (F := F)) adm) (r1rdats Wc) (none : HIx 2) 1 c 16 ((K (F := F)).Otc c 2) (fun _ => rfl)
    (fun _ _ => Finset.mem_univ _) (fun _ _ => Nat.zero_le _)
    (fun g i h => ⟨Finset.mem_univ _, by have := SparseCore.Cfg.lev_of_Otc_pos (K := K (F := F)) h; omega⟩)
  pre c := iprop(StableHlo.held (c : Thread nD τ) (Pipeline.ucRefs τ sig) (Wc c) ∗ r1Ride (F := F) c)
  post c := iprop((∃ W' : Valuation τ sig (Elt F), ⌜∀ r ∈ keepR, W' (Proc.devRef .tc r) = Wc c (Proc.devRef .tc r)⌝
      ∗ StableHlo.held (c : Thread nD τ) (Pipeline.ucRefs τ sig) W') ∗ r1Ride (F := F) c)
  X c := iprop(∃ r, prngReg c r)
  Y c := iprop(∃ r, prngReg c r)
  Z c := Pipeline.unscopedRest (Ix := HIx 2) (Name := ℕ) (U := UU) (Lvl := ℕ) spec3 c (r0V Wc c)
  hentry c := by
    rw [Pipeline.ownSems0_none]
    have hsplit := Pipeline.RDat.arrays_of_unscopedBufs (p := 1) (pcfgs (F := F)) adm (r1rdats Wc) launch3.win launch3.arr_whole c
      ((r1pdats Wc 1 c).share_full fun _ => rfl) (r0V Wc c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (r1rdats Wc 1 c).Φ 0 = Φ3 (F := F) c from rfl]; unfold Φ3
    iintro ⟨Hp, -, Hr⟩
    isplitl [Hr]; · iexact Hr
    iexact Hp
  hout c := by
    rw [Pipeline.ownSems0_none, show (r1rdats Wc 1 c).Φ (Fin.last _) = Φ3 (F := F) c from rfl]; unfold Φ3
    iintro ⟨Hr, Hp⟩
    isplitl [Hp]; · iexact Hp
    isplitr; · iempintro
    iexact Hr
  hexit c := by
    unfold Pipeline.RDat.arraysAt
    rw [bigSep_W3]
    iintro ⟨⟨⟨%F0, -, A0⟩, ⟨%F1, -, A1⟩, ⟨%F2, -, A2⟩, ⟨%F3, -, A3⟩, ⟨%F4, %hF4, A4⟩, ⟨%F5, -, A5⟩, ⟨%F6, -, A6⟩⟩, HO, HY, Hrest⟩
    have hjoin := Pipeline.unscopedBufs_of_arrays (p := 1) (pcfgs (F := F)) adm (Ix := HIx 2) (Name := ℕ) (U := UU) (Lvl := ℕ)
      launch3.win launch3.arr_whole c (r1pdats Wc) ((r1pdats Wc 1 c).share_full fun _ => rfl)
      (r0V Wc c) (fun b => Pipeline.withArrays spec3 c (Wc c) (fam3 (F := F) c F0 F1 F2 F3 F4 F5 F6) (Proc.devRef .tc b))
      (fam3 (F := F) c F0 F1 F2 F3 F4 F5 F6)
      (fun w => (Pipeline.withArrays_arr spec3 launch3.win.arr_inj c _ _ w).symm)
      (fun b hb => Pipeline.withArrays_of_ne spec3 c _ _ b fun w e => hb (Finset.mem_image.mpr ⟨w, Finset.mem_univ _, e⟩))
    rw [Pipeline.unscopedBufs_held] at hjoin
    imodintro
    isplitl [A0 A1 A2 A3 A4 A5 A6 Hrest]
    · iexists (Pipeline.withArrays spec3 c (Wc c) (fam3 (F := F) c F0 F1 F2 F3 F4 F5 F6)); isplitr
      · ipureintro; intro r hr
        by_cases h8 : r = main_arg8
        · subst h8
          -- an input array is never written: it holds what it held at entry
          have e4 : F4 = (r1rdats Wc 1 c).A 4 := (congrFun (Pipeline.RDat.ArrAt_in (rd := r1rdats Wc 1 c) 4 rfl _) F4).mp hF4
          exact (Pipeline.withArrays_arr spec3 launch3.win.arr_inj c _ _ 4).trans e4
        · exact Pipeline.withArrays_of_ne spec3 c _ _ r (keep_ne3 r hr h8)
      · iapply hjoin
        isplitl [A0 A1 A2 A3 A4 A5 A6]
        · unfold Pipeline.Dat.arrays
          rw [bigSep_W3]
          isplitl [A0]; · iexact A0
          isplitl [A1]; · iexact A1
          isplitl [A2]; · iexact A2
          isplitl [A3]; · iexact A3
          isplitl [A4]; · iexact A4
          isplitl [A5]; · iexact A5
          iexact A6
        · iexact Hrest
    isplitl [HY]; · iexact HY
    unfold Pipeline.RDat.owesAt Pipeline.owesWithin
    icases HO with ⟨%W, %hW, HO⟩; iexists W; isplitr
    · ipureintro; intro p hp
      rcases hW hp with h | ⟨w, s, rfl⟩
      · exact h
      · show (K (F := F)).lev _ none ≤ 8 * 2
        rw [SparseCore.Cfg.lev_none]; exact Nat.zero_le _
    · iexact HO

/-! ## The region's step in @main's proof -/

set_option backward.isDefEq.respectTransparency.types false in
theorem reg1_step (m : (ℓ : Loc nD τ sig) → Buf (Elt F) ℓ) (κ : GSem nD τ sig → ℕ) (d : Dev nD) (Φ : PUnit → sProp 𝕄) :
    iprop((K (F := F)).ctx EH (P (srcC m) (dstC m)) κ ∗ (K (F := F)).tcSt EH d 2 ∗ boundary (SparseCore.T d) ∗ Inv m d ∗ Aux (F := F) d ∗ ghost (F := F) 1 d
        ∗ (((K (F := F)).tcSt EH d 2 ∗ boundary (SparseCore.T d) ∗ Inv m d ∗ Aux (F := F) d) -∗ Φ ⟨⟩))
      ⊢ wp frame (wpE ((K (F := F)).defs (D (F := F))) 𝒱 (SparseCore.T d) none) Set.univ (Prog.lift (.customCall (SparseCore.inner (Pipeline.entry 1)) ())) Φ := by
  unfold Inv Aux ghost SparseCore.Cfg.tcSt
  iintro ⟨#Hctx, ⟨HOw, Hst⟩, Hb, ⟨%W, %hW, Hh⟩, ⟨Hsems, Hp⟩, ⟨Hg, Ht⟩, Hk⟩
  ihave Hlv := (SparseCore.Cfg.ctx_levAts (K := K (F := F)) (EH := EH) (P := P (srcC m) (dstC m)) κ) $$ Hctx
  iapply ((K (F := F)).wp_liftProg (D (F := F)) 𝒱 (SparseCore.T d) Set.univ none (Prog.lift (.customCall (Pipeline.entry 1) ())) Φ)
  iapply (Pipeline.RDat.RegionSeg.wp (pcfgs (F := F)) adm (r1rdats (fun _ => W)) (none : HIx 2) cellOf_inj (EP (F := F)) defs₀ 𝒱₀ (K (F := F)).L (K (F := F)).lev
    (reg1 (F := F) (fun _ => W)) d none (fun u hu => nomatch hu) (fun _ => .ret ⟨⟩) Φ) $$ [HOw Hst Hb Hh Hsems Hp Hg Ht Hk Hlv]
  isplitl [Hst Hsems Hk]
  · -- the continuation: the thread state, the boundary, the invariant at the exit contents, and what rides beside them
    iintro ⟨Hb, Hpost⟩
    ihave Hpost := (show ((reg1 (F := F) fun _ => W).post d : sProp 𝕄)
        ⊢ iprop((∃ W' : Valuation τ sig (Elt F), ⌜∀ r ∈ keepR, W' (Proc.devRef .tc r) = W (Proc.devRef .tc r)⌝
            ∗ StableHlo.held (d : Thread nD τ) (Pipeline.ucRefs τ sig) W') ∗ r1Ride (F := F) d) from .rfl) $$ Hpost
    icases Hpost with ⟨⟨%W', %hW', Hh⟩, Hp, HOw⟩
    rw [wp_ret]; imodintro
    iapply Hk
    isplitl [HOw Hst]
    · isplitl [HOw]; · iexact HOw
      iexact Hst
    isplitl [Hb]; · iexact Hb
    isplitl [Hh]
    · iexists W'; isplitr
      · ipureintro; intro r hr
        exact (hW' r hr).trans (hW r hr)
      · iexact Hh
    isplitl [Hsems]; · iexact Hsems
    iexact Hp
  isplitl [Hb]; · iexact Hb
  isplitl [Hh Hp HOw]
  · iapply (show iprop(StableHlo.held (d : Thread nD τ) (Pipeline.ucRefs τ sig) W ∗ r1Ride (F := F) d)
        ⊢ ((reg1 (F := F) fun _ => W).pre d : sProp 𝕄) from .rfl)
    isplitl [Hh]; · iexact Hh
    isplitl [Hp]; · iexact Hp
    iexact HOw
  isplitr; · iexact Hlv
  isplitl [Hg]; · iexact Hg
  iexact Ht

end Cert.Proof.KernelL

end
-- ==== Proof.RefSpec.lean ====
/-
  The function the reference computes, index by index, in its own arrangement: a two-layer message-passing network over a
  graph of 10000 nodes and 320000 edges, then a sum over the nodes and a dense softmax head. With `src e`, `dst e` the
  nodes the edge list's two rows name at edge `e`:
      m1[e,h] = Σ_f x[src e, f] · W1[f,h]            h1[n,h] = prelu(Σ_{e : dst e = n} m1[e,h] + b1[h], α1[h])
      m2[e,k] = Σ_h h1[src e, h] · W2[h,k]           h2[n,k] = prelu(Σ_{e : dst e = n} m2[e,k] + b2[k], α2[k])
      pooled[k] = Σ_n h2[n,k]      logits[l] = Σ_k pooled[k] · Wd[k,l] + bd[l]
      out[l] = exp(logits[l] − M) / Σ_l' exp(logits[l'] − M),   M = max(−∞, max_l logits[l]),
  where prelu(v, a) = v if 0 ≤ v and a · v otherwise — every map applied edge by edge BEFORE the aggregation. All on the
  extended reals (sums, products, the quotient and the exponential are the ideal instance's). A word of the edge list names
  a node as a gather reads it: as a signed number, clamped into [0, 9999]; for a word already in that range that is the
  word itself (`node_val`).
-/
import Idealize.ShloMosaic.PureOps.Ideal
import Idealize.ShloMosaic.Lib.ValueIdx

noncomputable section

namespace Cert.RefSpec

open Idealize.ShloMosaic Idealize.ShloMosaic.ValueIdx
open scoped BigOperators

/-- The node a word names: read signed, clamped into [0, 9999]. -/
def node (w : BitVec 32) : Fin 10000 := ⟨min w.toInt.toNat 9999, by omega⟩

/-- A word that is below 10000 as a natural number names the node of that number. -/
theorem node_val (w : BitVec 32) (h : w.toNat < 10000) : (node w).val = w.toNat := by
  have hi : w.toInt = (w.toNat : Int) := by
    rw [BitVec.toInt_eq_toNat_cond]; split <;> omega
  show min w.toInt.toNat 9999 = w.toNat
  rw [hi, Int.toNat_natCast]; omega

/-- prelu(v, a): v where v is not negative, a · v where it is. -/
def prelu (v a : EReal) : EReal := if 0 ≤ v then v else a * v

section
variable (x : FVec Ideal ⟨2, ![10000, 128]⟩ .f32) (ei : IVec ⟨2, ![2, 320000]⟩ 32)
  (W1 : FVec Ideal ⟨2, ![128, 256]⟩ .f32) (b1 a1 : FVec Ideal ⟨1, ![256]⟩ .f32)
  (W2 : FVec Ideal ⟨2, ![256, 256]⟩ .f32) (b2 a2 : FVec Ideal ⟨1, ![256]⟩ .f32)
  (Wd : FVec Ideal ⟨2, ![256, 16]⟩ .f32) (bd : FVec Ideal ⟨1, ![16]⟩ .f32)

/-- The source and the destination of edge `e`: the nodes rows 0 and 1 of the edge list name there. -/
def src (e : Fin 320000) : Fin 10000 := node (ei (ix2 (0 : Fin 2) e))
def dst (e : Fin 320000) : Fin 10000 := node (ei (ix2 (1 : Fin 2) e))

/-- Layer 1's message on edge `e`: the source node's features through W1. -/
def m1 (e : Fin 320000) (h : Fin 256) : EReal := ∑ f : Fin 128, x (ix2 (src ei e) f) * W1 (ix2 f h)
/-- Layer 1 at node `n`: the messages of the edges arriving there summed, the bias added, prelu. -/
def h1 (n : Fin 10000) (h : Fin 256) : EReal :=
  prelu ((∑ e ∈ Finset.univ.filter (fun e => dst ei e = n), m1 x ei W1 e h) + b1 (ix1 h)) (a1 (ix1 h))
/-- Layer 2's message on edge `e`: the source node's layer-1 features through W2. -/
def m2 (e : Fin 320000) (k : Fin 256) : EReal := ∑ h : Fin 256, h1 x ei W1 b1 a1 (src ei e) h * W2 (ix2 h k)
/-- Layer 2 at node `n`. -/
def h2 (n : Fin 10000) (k : Fin 256) : EReal :=
  prelu ((∑ e ∈ Finset.univ.filter (fun e => dst ei e = n), m2 x ei W1 b1 a1 W2 e k) + b2 (ix1 k)) (a2 (ix1 k))
/-- The features summed over all nodes. -/
def pooled (k : Fin 256) : EReal := ∑ n : Fin 10000, h2 x ei W1 b1 a1 W2 b2 a2 n k
/-- The dense head before the softmax. -/
def logits (l : Fin 16) : EReal := (∑ k : Fin 256, pooled x ei W1 b1 a1 W2 b2 a2 k * Wd (ix2 k l)) + bd (ix1 l)

end

/-- The softmax of sixteen extended reals as the reference takes it: shifted by the maximum (against −∞), the
    exponentials divided by their sum. -/
def softmaxShift (lg : Fin 16 → EReal) : EReal := max ⊥ ((Finset.univ : Finset (Fin 16)).fold max ⊥ lg)
def softmax (lg : Fin 16 → EReal) (l : Fin 16) : EReal :=
  Ideal.div (Ideal.exp (lg l - softmaxShift lg)) (∑ l' : Fin 16, Ideal.exp (lg l' - softmaxShift lg))

/-- The reference's result, element `l`. -/
def out (x : FVec Ideal ⟨2, ![10000, 128]⟩ .f32) (ei : IVec ⟨2, ![2, 320000]⟩ 32)
    (W1 : FVec Ideal ⟨2, ![128, 256]⟩ .f32) (b1 a1 : FVec Ideal ⟨1, ![256]⟩ .f32)
    (W2 : FVec Ideal ⟨2, ![256, 256]⟩ .f32) (b2 a2 : FVec Ideal ⟨1, ![256]⟩ .f32)
    (Wd : FVec Ideal ⟨2, ![256, 16]⟩ .f32) (bd : FVec Ideal ⟨1, ![16]⟩ .f32) (l : Fin 16) : EReal :=
  softmax (logits x ei W1 b1 a1 W2 b2 a2 Wd bd) l

end Cert.RefSpec

end
-- ==== Proof.LibAggMap.lean ====
/-
  Aggregating and then applying a linear map is applying it to every summand and then aggregating — on the extended
  reals, where the law needs every entry finite (a product's distribution over a sum fails at the infinities):
  for finitely many edges `e ∈ S`, rows `x e : Fd → EReal` and a weight column `w : Fd → EReal`, all finite,
      ∑ f, w f · (∑ e ∈ S, x e f)  =  ∑ e ∈ S, ∑ f, x e f · w f.
  The left side is a dense layer applied to an aggregated feature row; the right side aggregates the layer's outputs
  edge by edge. Program-independent: it imports Mathlib's extended reals only.
-/
import Mathlib.Data.EReal.Operations
import Mathlib.Algebra.BigOperators.Ring.Finset
import Mathlib.Algebra.BigOperators.Group.Finset.Sigma

namespace Cert.Lib

open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregate-then-map is map-then-aggregate, for finite entries. -/
theorem agg_map {E Fd : Type*} [Fintype Fd] (S : Finset E) (x : E → Fd → EReal) (w : Fd → EReal)
    (hx : ∀ e f, ∃ r : ℝ, x e f = (r : EReal)) (hw : ∀ f, ∃ r : ℝ, w f = (r : EReal)) :
    ∑ f, w f * (∑ e ∈ S, x e f) = ∑ e ∈ S, ∑ f, x e f * w f := by
  choose xr hxr using hx
  choose wr hwr using hw
  have hl : ∀ f, w f * (∑ e ∈ S, x e f) = ((wr f * ∑ e ∈ S, xr e f : ℝ) : EReal) := fun f => by
    rw [hwr f, Finset.sum_congr rfl fun e _ => hxr e f, ← coe_sum, ← EReal.coe_mul]
  have hr : ∀ e, ∑ f, x e f * w f = ((∑ f, xr e f * wr f : ℝ) : EReal) := fun e => by
    rw [coe_sum]; exact Finset.sum_congr rfl fun f _ => by rw [hxr e f, hwr f, ← EReal.coe_mul]
  rw [Finset.sum_congr rfl fun f _ => hl f, ← coe_sum, Finset.sum_congr rfl fun e _ => hr e, ← coe_sum]
  congr 1
  rw [Finset.sum_comm]
  refine Finset.sum_congr rfl fun f _ => ?_
  rw [Finset.mul_sum]
  exact Finset.sum_congr rfl fun e _ => mul_comm _ _

end Cert.Lib
-- ==== Proof.KerSpec.lean ====
/-
  The function the kernel computes, index by index, in ITS arrangement — each layer aggregates first and applies the dense
  map after:
      agg1[f,n] = Σ_{e : dst e = n} x[src e, f]            k1[n,h] = prelu(Σ_f W1[f,h] · agg1[f,n] + b1[h], α1[h])
      agg2[h,n] = Σ_{e : dst e = n} k1[src e, h]           k2[n,k] = prelu(Σ_h W2[h,k] · agg2[h,n] + b2[k], α2[k])
      pooled[k] = Σ_n k2[n,k]      logits[l] = Σ_k pooled[k] · Wd[k,l] + bd[l]      out = softmax(logits)
  — and that it is the reference's function (`Cert.RefSpec`) whenever every entry of x, W1, b1, α1, W2 is finite: the dense
  map is linear, so it moves across the sum over a node's incoming edges (`Cert.Lib.agg_map`), once per layer; the second
  time the rows are the first layer's outputs, which are finite because sums, products and prelu keep finite entries
  finite. From equal layers on, pooling, the head and the softmax are the same operations of equal arguments.
-/
import proofs.«211848_g47218870452992_cont_8to1c4_747_2_alg».proof.Proof.RefSpec
import proofs.«211848_g47218870452992_cont_8to1c4_747_2_alg».proof.Proof.LibAggMap

noncomputable section

namespace Cert.KerSpec

open Idealize.ShloMosaic Idealize.ShloMosaic.ValueIdx Cert.RefSpec
open scoped BigOperators

/-- An extended real that is a real. -/
def Fin' (v : EReal) : Prop := ∃ r : ℝ, v = (r : EReal)

theorem Fin'.add {u v : EReal} (hu : Fin' u) (hv : Fin' v) : Fin' (u + v) := by
  obtain ⟨a, rfl⟩ := hu; obtain ⟨b, rfl⟩ := hv; exact ⟨a + b, (EReal.coe_add a b).symm⟩
theorem Fin'.mul {u v : EReal} (hu : Fin' u) (hv : Fin' v) : Fin' (u * v) := by
  obtain ⟨a, rfl⟩ := hu; obtain ⟨b, rfl⟩ := hv; exact ⟨a * b, (EReal.coe_mul a b).symm⟩
theorem Fin'.sum {ι : Type*} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem Fin'.prelu {v a : EReal} (hv : Fin' v) (ha : Fin' a) : Fin' (prelu v a) := by
  unfold RefSpec.prelu; split
  · exact hv
  · exact ha.mul hv

section
variable (x : FVec Ideal ⟨2, ![10000, 128]⟩ .f32) (ei : IVec ⟨2, ![2, 320000]⟩ 32)
  (W1 : FVec Ideal ⟨2, ![128, 256]⟩ .f32) (b1 a1 : FVec Ideal ⟨1, ![256]⟩ .f32)
  (W2 : FVec Ideal ⟨2, ![256, 256]⟩ .f32) (b2 a2 : FVec Ideal ⟨1, ![256]⟩ .f32)
  (Wd : FVec Ideal ⟨2, ![256, 16]⟩ .f32) (bd : FVec Ideal ⟨1, ![16]⟩ .f32)

/-- Feature `f` summed over the edges arriving at node `n`. -/
def agg1 (f : Fin 128) (n : Fin 10000) : EReal := ∑ e ∈ Finset.univ.filter (fun e => dst ei e = n), x (ix2 (src ei e) f)
/-- Layer 1 at node `n`: the dense map of the aggregated row, the bias, prelu. -/
def k1 (n : Fin 10000) (h : Fin 256) : EReal :=
  prelu ((∑ f : Fin 128, W1 (ix2 f h) * agg1 x ei f n) + b1 (ix1 h)) (a1 (ix1 h))
/-- Layer-1 feature `h` summed over the edges arriving at node `n`. -/
def agg2 (h : Fin 256) (n : Fin 10000) : EReal := ∑ e ∈ Finset.univ.filter (fun e => dst ei e = n), k1 x ei W1 b1 a1 (src ei e) h
/-- Layer 2 at node `n`. -/
def k2 (n : Fin 10000) (k : Fin 256) : EReal :=
  prelu ((∑ h : Fin 256, W2 (ix2 h k) * agg2 x ei W1 b1 a1 h n) + b2 (ix1 k)) (a2 (ix1 k))
def pooled (k : Fin 256) : EReal := ∑ n : Fin 10000, k2 x ei W1 b1 a1 W2 b2 a2 n k
def logits (l : Fin 16) : EReal := (∑ k : Fin 256, pooled x ei W1 b1 a1 W2 b2 a2 k * Wd (ix2 k l)) + bd (ix1 l)
/-- The kernel's result, element `l`. -/
def out (l : Fin 16) : EReal := softmax (logits x ei W1 b1 a1 W2 b2 a2 Wd bd) l

variable {x W1 b1 a1 W2}
  (hx : ∀ i, Fin' (x i)) (hW1 : ∀ i, Fin' (W1 i)) (hb1 : ∀ i, Fin' (b1 i)) (ha1 : ∀ i, Fin' (a1 i)) (hW2 : ∀ i, Fin' (W2 i))

include hx hW1 in
/-- Layer 1 is the same in both arrangements. -/
theorem k1_eq (n : Fin 10000) (h : Fin 256) : k1 x ei W1 b1 a1 n h = h1 x ei W1 b1 a1 n h := by
  unfold k1 h1 agg1 m1
  rw [Cert.Lib.agg_map (Finset.univ.filter fun e => dst ei e = n) (fun e f => x (ix2 (src ei e) f)) (fun f => W1 (ix2 f h))
    (fun e f => hx _) (fun f => hW1 _)]

include hx hW1 hb1 ha1 in
/-- Layer 1's outputs are finite. -/
theorem h1_fin (n : Fin 10000) (h : Fin 256) : Fin' (h1 x ei W1 b1 a1 n h) := by
  unfold h1 m1
  exact (((Fin'.sum _ _ fun e _ => Fin'.sum _ _ fun f _ => (hx _).mul (hW1 _))).add (hb1 _)).prelu (ha1 _)

include hx hW1 hb1 ha1 hW2 in
/-- Layer 2 is the same in both arrangements. -/
theorem k2_eq (n : Fin 10000) (k : Fin 256) : k2 x ei W1 b1 a1 W2 b2 a2 n k = h2 x ei W1 b1 a1 W2 b2 a2 n k := by
  unfold k2 h2 agg2 m2
  simp only [k1_eq ei hx hW1]
  rw [Cert.Lib.agg_map (Finset.univ.filter fun e => dst ei e = n) (fun e h => h1 x ei W1 b1 a1 (src ei e) h) (fun h => W2 (ix2 h k))
    (fun e h => h1_fin ei hx hW1 hb1 ha1 _ _) (fun h => hW2 _)]

include hx hW1 hb1 ha1 hW2 in
/-- The two arrangements are one function. -/
theorem out_eq (l : Fin 16) : out x ei W1 b1 a1 W2 b2 a2 Wd bd l = RefSpec.out x ei W1 b1 a1 W2 b2 a2 Wd bd l := by
  unfold out RefSpec.out logits RefSpec.logits pooled RefSpec.pooled
  simp only [k2_eq ei b2 a2 hx hW1 hb1 ha1 hW2]

end

end Cert.KerSpec

end
-- ==== Proof.KIFinite.lean ====
/-
  From the precondition to finiteness. Beside the edge range, the precondition says of every float argument that the
  absolute value of each entry is below +∞ (an `all` of the elementwise comparisons, conjoined). On the extended reals
  |v| = max v (−v) is below +∞ exactly when v is a real: so at the ideal instance every entry of every float argument is
  finite — what moving a dense map across an aggregation needs.
-/
import proofs.«211848_g47218870452992_cont_8to1c4_747_2_alg».proof.Proof.KIPre
import proofs.«211848_g47218870452992_cont_8to1c4_747_2_alg».proof.Proof.KerSpec
import Idealize.ShloMosaic.PureOps.Ideal.Laws

set_option Elab.async false

noncomputable section

namespace Cert.Proof.KernelIdealL

open Cert.KernelIdeal Cert.KernelIdeal.Gen
open Idealize.ShloMosaic Idealize.ShloMosaic.TcCoe Idealize.SL.Sem Idealize.ShloMosaic.StableHlo
open Cert.KerSpec (Fin')

/-- The pattern 0x7F800000 is +∞. -/
theorem inf_bits : Ideal.ofBits .f32 0x7F800000#32 = (⊤ : EReal) := by
  simp [Ideal.ofBits, Ideal.ieee]

/-- An extended real whose absolute value is below +∞ is a real. -/
theorem fin_of_abs_lt (v : EReal) (h : Ideal.cmp .olt (max v (-v)) (Ideal.ofBits .f32 0x7F800000#32) = 1#1) : Fin' v := by
  rw [inf_bits] at h
  have key : ∀ b : Bool, BitVec.ofBool b = 1#1 → b = true := by decide
  have hb : (decide (v < ⊤) && decide (-v < ⊤)) = true := key _ (by simpa [Ideal.cmp] using h)
  have hlt : v < ⊤ ∧ -v < ⊤ := by
    simpa [Bool.and_eq_true, decide_eq_true_eq] using hb
  induction v using EReal.rec with
  | bot => exact absurd hlt.2 (by simp)
  | coe r => exact ⟨r, rfl⟩
  | top => exact absurd hlt.1 (by simp)

variable [hP : Cert.Pre_input_domain.Facts]

/-- The precondition's conjuncts, one per argument, as the predicate nests them. -/
theorem pre_conj (m : (ℓ : Loc nD τ sig) → Buf (Elt Ideal) ℓ) (h : PreG (F := Ideal) m) (c : Dev nD) :
    (∀ i, Fin' (m ((c.tc : Thread nD τ).loc main_arg0) i)) ∧ (∀ i, Fin' (m ((c.tc : Thread nD τ).loc main_arg2) i))
    ∧ (∀ i, Fin' (m ((c.tc : Thread nD τ).loc main_arg3) i)) ∧ (∀ i, Fin' (m ((c.tc : Thread nD τ).loc main_arg4) i))
    ∧ (∀ i, Fin' (m ((c.tc : Thread nD τ).loc main_arg5) i)) := by
  unfold PreG at h
  have e := congrFun (h c) (fun a : Fin 0 => a.elim0)
  simp only [Cert.Pre_input_domain.fn, Cert.Pre_input_domain.fn_part1, Cert.Pre_input_domain.fn_part2] at e
  -- the nest: (((((((((x ∧ W1) ∧ b1) ∧ α1) ∧ W2) ∧ b2) ∧ α2) ∧ Wd) ∧ bd) ∧ edges)
  have e9 := (IntOp.andi_eq_one.mp e).1
  have e8 := (IntOp.andi_eq_one.mp e9).1
  have e7 := (IntOp.andi_eq_one.mp e8).1
  have e6 := (IntOp.andi_eq_one.mp e7).1
  have e5 := (IntOp.andi_eq_one.mp e6).1
  have e4 := IntOp.andi_eq_one.mp e5
  have e3 := IntOp.andi_eq_one.mp e4.1
  have e2 := IntOp.andi_eq_one.mp e3.1
  have e1 := IntOp.andi_eq_one.mp e2.1
  refine ⟨fun i => ?_, fun i => ?_, fun i => ?_, fun i => ?_, fun i => ?_⟩
  · have := Host.reduce_andi_all _ _ _ _ _ e1.1 i
    simp only [cmpf, Host.absf, broadcastInDim, constant, Ideal.cmpf_def, Ideal.hostAbsf_def, Ideal.absf_def, Ideal.ofBits_def] at this
    exact fin_of_abs_lt _ this
  · have := Host.reduce_andi_all _ _ _ _ _ e1.2 i
    simp only [cmpf, Host.absf, broadcastInDim, constant, Ideal.cmpf_def, Ideal.hostAbsf_def, Ideal.absf_def, Ideal.ofBits_def] at this
    exact fin_of_abs_lt _ this
  · have := Host.reduce_andi_all _ _ _ _ _ e2.2 i
    simp only [cmpf, Host.absf, broadcastInDim, constant, Ideal.cmpf_def, Ideal.hostAbsf_def, Ideal.absf_def, Ideal.ofBits_def] at this
    exact fin_of_abs_lt _ this
  · have := Host.reduce_andi_all _ _ _ _ _ e3.2 i
    simp only [cmpf, Host.absf, broadcastInDim, constant, Ideal.cmpf_def, Ideal.hostAbsf_def, Ideal.absf_def, Ideal.ofBits_def] at this
    exact fin_of_abs_lt _ this
  · have := Host.reduce_andi_all _ _ _ _ _ e4.2 i
    simp only [cmpf, Host.absf, broadcastInDim, constant, Ideal.cmpf_def, Ideal.hostAbsf_def, Ideal.absf_def, Ideal.ofBits_def] at this
    exact fin_of_abs_lt _ this

end Cert.Proof.KernelIdealL

end
-- ==== Proof.LibRunAnd.lean ====
/-
  Two statements about every weakly fair execution from one state conjoin: an execution that ends is one execution, so a
  final state reached satisfies both posts; termination and fairness are those of either. So a value claim's run may be
  proved apart from the frame's and joined to it.
-/
import Idealize.ShloMosaic.Machine.Run

namespace Cert.Lib

open Idealize.ShloMosaic Idealize.SL.Sem

variable {nD : Nat} {τ : Topo} {sig : RefSig} {Val : EltTy → Type} {Λ : Labels}

theorem θ_run_and (defs : Defs nD τ sig Val Λ) (p : (c : Thread nD τ) → Prog (TpuEff nD τ sig Val Λ c.2) PUnit)
    (s : MemSt nD τ sig Val) (Q₁ Q₂ : PUnit × MemSt nD τ sig Val → Prop)
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Cert.Lib
-- ==== Proof.KIAlg.lean ====
/-
  The value claim reduced to the kernel's value: if the kernel's run ends with its result at the kernel's arrangement of
  the network (`Cert.KerSpec.out` of the argument arrays) and the reference's run's term is the reference's arrangement
  (`Cert.RefSpec.out`), then the two programs, run from memories agreeing on the arguments, end with equal results — the
  two arrangements are one function for finite inputs (the precondition), the edge list's words name nodes (the
  precondition), and the arguments end unchanged on both sides (the frames).
-/
import proofs.«211848_g47218870452992_cont_8to1c4_747_2_alg».proof.Defs
import proofs.«211848_g47218870452992_cont_8to1c4_747_2_alg».proof.Proof.KIFinite
import proofs.«211848_g47218870452992_cont_8to1c4_747_2_alg».proof.Proof.LibRunAnd
import proofs.«211848_g47218870452992_cont_8to1c4_747_2_alg».proof.Proof.RefFrame
import proofs.«211848_g47218870452992_cont_8to1c4_747_2_alg».proof.Proof.Gen.KernelIdeal

set_option Elab.async false

noncomputable section

namespace Cert.Proof.Alg

open Idealize.ShloMosaic Idealize.SL.Sem Idealize.ShloMosaic.StableHlo

/-- The kernel's arrangement of the network at the arguments device `c` is launched with, as the result vector. -/
def kerVec (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v21) :=
  fun i => Cert.KerSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0)

/-- The reference's arrangement at a valuation of its buffers, as the result vector. -/
def refVec (V : Valuation Cert.ReferenceIdeal.τ Cert.ReferenceIdeal.sig (Elt Ideal)) : (⟨Cert.ReferenceIdeal.S16, .f32⟩ : BufTy).Contents (Elt Ideal) :=
  fun i => Cert.RefSpec.out (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (i 0)

/-- The value claim, from the kernel's value and the reference's. -/
theorem algebraic_of
    (hker : ∀ (m : (ℓ : Loc Cert.KernelIdeal.nD Cert.KernelIdeal.τ Cert.KernelIdeal.sig) → Buf (Elt Ideal) ℓ) (g : Dev Cert.KernelIdeal.nD → PrngReg),
      Cert.Pre_KernelIdeal m →
      θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v21) = kerVec m c))
    (hfr : Cert.frame_KernelIdeal)
    (href : ∀ (V : Valuation Cert.ReferenceIdeal.τ Cert.ReferenceIdeal.sig (Elt Ideal)),
      (∀ i, ((V (Proc.devRef .tc Cert.ReferenceIdeal.main_arg1)) i).toNat < 10000) → Cert.ReferenceIdeal.HandRun.res (F := Ideal) V = refVec V) :
    Cert.algebraic_KernelIdeal_ReferenceIdeal := by
  intro m g m' g' hpre hagree
  refine ⟨fun c => kerVec m c, ?_, ?_⟩
  · exact (θ_run Cert.KernelIdeal.defs _ _).mono (fun _ h c => ⟨h.1 c, h.2 c⟩)
      (Cert.Lib.θ_run_and _ _ _ _ _ (hker m g hpre) (hfr m g hpre))
  · refine (θ_run Cert.ReferenceIdeal.defs _ _).mono (fun _ h c => ⟨(h c).1.trans ?_, (h c).2⟩)
      (Cert.ReferenceIdeal.HandRun.run (F := Ideal) m' g')
    obtain ⟨h0, h1, h2, h3, h4, h5, h6, h7, h8, h9⟩ := hagree c
    have hpg : Cert.Proof.KernelIdealL.PreG (F := Ideal) m := hpre
    have hrange : ∀ i, ((launchContents m' c (Proc.devRef .tc Cert.ReferenceIdeal.main_arg1)) i).toNat < 10000 := fun i => by
      show ((m' ((c.tc : Thread Cert.ReferenceIdeal.nD Cert.ReferenceIdeal.τ).loc Cert.ReferenceIdeal.main_arg1)) i).toNat < 10000
      rw [h1]; exact Cert.Proof.KernelIdealL.edge_lt m hpg c i
    rw [href _ hrange]
    obtain ⟨f0, f2, f3, f4, f5⟩ := Cert.Proof.KernelIdealL.pre_conj m hpg c
    funext i
    show Cert.RefSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (i 0) = kerVec m c i
    rw [h0, h1, h2, h3, h4, h5, h6, h7, h8, h9]
    exact (Cert.KerSpec.out_eq _ _ _ _ _ f0 f2 f3 f4 f5 (i 0)).symm

end Cert.Proof.Alg

end
-- ==== Proof.RefNamed.lean ====
/-
  The reference program's stages, named: a row of the edge list, the look-up's index normalisation and range test, the two
  look-ups, the accumulating scatter, the bias and prelu, the dense head and the softmax — each the composition of host
  operations the program applies there, as a function of the arrays it reads, for any float values; `t_out` composes
  them as the program does.
-/
import proofs.«211848_g47218870452992_cont_8to1c4_747_2_alg».proof.Proof.Gen.ReferenceIdeal

noncomputable section

namespace Cert.ReferenceIdeal.RefValue

open Cert.ReferenceIdeal Cert.ReferenceIdeal.Gen
open Idealize.ShloMosaic

section Named
variable {F : FTy → Type} [FloatOps F]

/-- Rows 0 and 1 of the edge list, flat. -/
def t_row0 (ei : IVec S2x320000 32) : IVec S320000 32 :=
  fun i => shapeCast S320000 (extractStridedSlice S1x320000 ![0, 0] ei slices_S2x320000_S1x320000_0_0) shapeCasts_S1x320000_S320000 i
def t_row1 (ei : IVec S2x320000 32) : IVec S320000 32 :=
  fun i => shapeCast S320000 (extractStridedSlice S1x320000 ![1, 0] ei slices_S2x320000_S1x320000_1_0) shapeCasts_S1x320000_S320000 i

/-- The look-up's indices: a negative one has 10000 added; then as a column. -/
def t_idx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)
/-- The look-up's range test: each such index lies in [0, 9999]. -/
def t_inb (i5 : IVec S320000x1 32) : IVec S320000 1 :=
  Host.reduce IntOp.andi
    (andi (cmpi .sge i5 (broadcastInDim S320000x1 ![] bcast_S_S320000x1 (constantI S_ 32 0#32)))
      (cmpi .sle i5 (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_
/-- Rows of 128 looked up: the gathered row where the index is in range, the fill pattern where not. -/
def t_take0 (x : FVec F S10000x128 .f32) (idx : IVec S320000 32) : FVec F S320000x128 .f32 :=
  select (broadcastInDim S320000x128 ![0] bcast_S320000_S320000x128_0 (t_inb (t_idx idx)))
    (Host.gather gather_S10000x128_S320000x1_S320000x128_1_0_n_n_0_1_1128 x (t_idx idx))
    (broadcastInDim S320000x128 ![] bcast_S_S320000x128 (constant S_ .f32 0x7FC00000#32))
/-- Rows of 256 looked up. -/
def t_take1 (x : FVec F S10000x256 .f32) (idx : IVec S320000 32) : FVec F S320000x256 .f32 :=
  select (broadcastInDim S320000x256 ![0] bcast_S320000_S320000x256_0 (t_inb (t_idx idx)))
    (Host.gather gather_S10000x256_S320000x1_S320000x256_1_0_n_n_0_1_1256 x (t_idx idx))
    (broadcastInDim S320000x256 ![] bcast_S_S320000x256 (constant S_ .f32 0x7FC00000#32))
/-- The edges' rows accumulated at the nodes their indices name, from zero. -/
def t_agg (upd : FVec F S320000x256 .f32) (idx : IVec S320000 32) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 idx) upd
/-- A vector of 256 along every one of the 10000 rows. -/
def t_rows (b : FVec F S256 .f32) : FVec F S10000x256 .f32 :=
  broadcastInDim S10000x256 ![0, 1] bcast_S1x256_S10000x256_0_1 (broadcastInDim S1x256 ![1] bcast_S256_S1x256_1 b)
/-- prelu, elementwise: the value where it is not negative, the slope times it where it is. -/
def t_prelu (h : FVec F S10000x256 .f32) (a : FVec F S256 .f32) : FVec F S10000x256 .f32 :=
  select (cmpf .oge h (broadcastInDim S10000x256 ![] bcast_S_S10000x256 (constant S_ .f32 0x00000000#32))) h (mulf (t_rows a) h)
/-- The first layer: look up, map, aggregate, bias, prelu. -/
def t_layer1 (x : FVec F S10000x128 .f32) (ei : IVec S2x320000 32) (W : FVec F S128x256 .f32) (b a : FVec F S256 .f32) :
    FVec F S10000x256 .f32 :=
  t_prelu (addf (t_agg (Host.dotGeneral dot_S320000x128_S128x256_S320000x256_1_0_0_1_n_n none (t_take0 x (t_row0 ei)) W) (t_row1 ei)) (t_rows b)) a
/-- The second layer. -/
def t_layer2 (x : FVec F S10000x256 .f32) (ei : IVec S2x320000 32) (W : FVec F S256x256 .f32) (b a : FVec F S256 .f32) :
    FVec F S10000x256 .f32 :=
  t_prelu (addf (t_agg (Host.dotGeneral dot_S320000x256_S256x256_S320000x256_1_0_0_1_n_n none (t_take1 x (t_row0 ei)) W) (t_row1 ei)) (t_rows b)) a
/-- The sum over the nodes and the dense head. -/
def t_logits (h : FVec F S10000x256 .f32) (Wd : FVec F S256x16 .f32) (bd : FVec F S16 .f32) : FVec F S16 .f32 :=
  addf (Host.dotGeneral dot_S256_S256x16_S16_0_0_n_1_n_n none
    (Host.reduceAdd h (constant S_ .f32 0x00000000#32) reducesTo_S10000x256_S256_d0 h_S_) Wd) bd
/-- A scalar along the sixteen. -/
def t_all16 (v : FVec F S_ .f32) : FVec F S16 .f32 :=
  broadcastInDim S16 ![0] bcast_S1_S16_0 (broadcastInDim S1 ![] bcast_S_S1 v)
/-- The exponentials divided by their sum. -/
def t_norm (e : FVec F S16 .f32) : FVec F S16 .f32 :=
  Host.divf e (t_all16 (Host.reduceAdd e (constant S_ .f32 0x00000000#32) reducesTo_S16_S_d0 h_S_))
/-- The softmax: shifted by the maximum against −∞. -/
def t_softmax (lg : FVec F S16 .f32) : FVec F S16 .f32 :=
  t_norm (Host.exp (subf lg (t_all16 (maximumf (constant S_ .f32 0xFF800000#32)
    (Host.reduce FloatOps.maximumf lg (constant S_ .f32 0xFF800000#32) reducesTo_S16_S_d0 h_S_)))))
/-- The whole reference. -/
def t_out (x : FVec F S10000x128 .f32) (ei : IVec S2x320000 32) (W1 : FVec F S128x256 .f32) (b1 a1 : FVec F S256 .f32)
    (W2 : FVec F S256x256 .f32) (b2 a2 : FVec F S256 .f32) (Wd : FVec F S256x16 .f32) (bd : FVec F S16 .f32) : FVec F S16 .f32 :=
  t_softmax (t_logits (t_layer2 (t_layer1 x ei W1 b1 a1) ei W2 b2 a2) Wd bd)

end Named

end Cert.ReferenceIdeal.RefValue

end
-- ==== Proof.RefFold.lean ====
/-
  The fold of the reference's ninety-seven operations, read at the result buffer, is the composition of the named stages:
  each operation's result read at its own buffer, the other buffers left alone; the transports a called function's typed
  references put around its operations are the identity.
-/
import proofs.«211848_g47218870452992_cont_8to1c4_747_2_alg».proof.Proof.RefRun
import proofs.«211848_g47218870452992_cont_8to1c4_747_2_alg».proof.Proof.RefNamed

set_option Elab.async false

noncomputable section

namespace Cert.ReferenceIdeal.RefValue

open Cert.ReferenceIdeal Cert.ReferenceIdeal.Gen Cert.ReferenceIdeal.HandRun
open Idealize.ShloMosaic Idealize.ShloMosaic.TcCoe Idealize.SL.Sem Idealize.ShloMosaic.StableHlo

variable {F : FTy → Type} [FloatOps F]

-- the operations are compared as written, never opened: the two sides are the same composition of them
attribute [local irreducible] Host.reduce Host.gather Host.scatterAdd Host.reduceAdd Host.exp Host.divf
  broadcastInDim shapeCast extractStridedSlice select cmpi cmpf andi addi addf mulf subf maximumf constant constantI in
set_option maxRecDepth 16384 in
set_option maxHeartbeats 8000000 in
/-- The result buffer after the ninety-seven operations holds `t_out` of the ten argument arrays' contents. -/
theorem res_eq (V : Valuation τ sig (Elt F)) :
    res V = t_out (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) := by
  unfold res
  after_results_simp
  simp only [TRef.toBuf, TRef.ofBuf, cast_cast, cast_eq]
  rfl

end Cert.ReferenceIdeal.RefValue

end
-- ==== Proof.RefRead.lean ====
/-
  The reference's named stages read at an index, on the extended reals: a row of the edge list is the edge list's entries
  on that row; for an index word in [0, 9999] the look-up's normalisation leaves it alone and its range test passes; a
  gathered row is the operand's row at the node the word names; a product with a weight matrix is the sum over the
  contracted axis; the accumulating scatter from zero is, at a node, the sum over the edges whose word names that node.
-/
import proofs.«211848_g47218870452992_cont_8to1c4_747_2_alg».proof.Proof.RefNamed
import proofs.«211848_g47218870452992_cont_8to1c4_747_2_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.ReduceAll

noncomputable section

namespace Cert.ReferenceIdeal.RefValue

open Cert.ReferenceIdeal Cert.ReferenceIdeal.Gen
open Idealize.ShloMosaic Idealize.ShloMosaic.ValueIdx
open Cert.RefSpec
open scoped BigOperators

/-! ## Words in range -/

/-- A word below 10000 as a natural number is that number read signed. -/
theorem toInt_of_lt (w : BitVec 32) (h : w.toNat < 10000) : w.toInt = (w.toNat : Int) := by
  rw [BitVec.toInt_eq_toNat_cond]; split <;> omega

theorem word_slt_zero (w : BitVec 32) (h : w.toNat < 10000) : IntOp.cmpi .slt w 0#32 = 0#1 := by
  rcases BitVec.eq_zero_or_eq_one (IntOp.cmpi .slt w 0#32) with e | e
  · exact e
  · have := IntOp.cmpi_slt.mp e
    have z0 : (0#32 : BitVec 32).toInt = 0 := by decide
    rw [z0, toInt_of_lt w h] at this; omega
theorem word_sge_zero (w : BitVec 32) (h : w.toNat < 10000) : IntOp.cmpi .sge w 0#32 = 1#1 := by
  refine IntOp.cmpi_sge.mpr ?_
  have z0 : (0#32 : BitVec 32).toInt = 0 := by decide
  rw [z0, toInt_of_lt w h]; omega
theorem word_sle_max (w : BitVec 32) (h : w.toNat < 10000) : IntOp.cmpi .sle w 9999#32 = 1#1 := by
  refine IntOp.cmpi_sle.mpr ?_
  have z1 : (9999#32 : BitVec 32).toInt = 9999 := by decide
  rw [z1, toInt_of_lt w h]; omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-! ## The edge list's rows -/

theorem t_row0_apply (ei : IVec S2x320000 32) (e : Fin 320000) : t_row0 ei (ix1 e) = ei (ix2 (0 : Fin 2) e) := by
  unfold t_row0
  rw [shapeCast_1a_a_apply]
  exact slice2_axis0_apply 0 ei _ (0 : Fin 1) e (0 : Fin 2) rfl
theorem t_row1_apply (ei : IVec S2x320000 32) (e : Fin 320000) : t_row1 ei (ix1 e) = ei (ix2 (1 : Fin 2) e) := by
  unfold t_row1
  rw [shapeCast_1a_a_apply]
  exact slice2_axis0_apply 1 ei _ (0 : Fin 1) e (1 : Fin 2) rfl

/-! ## The look-up's indices -/

/-- An index word in range is left alone by the normalisation. -/
theorem t_idx_apply (idx : IVec S320000 32) (e : Fin 320000) (u : Fin 1) (h : (idx (ix1 e)).toNat < 10000) :
    t_idx idx (ix2 e u) = idx (ix1 e) := by
  unfold t_idx
  rw [broadcastInDim_apply ![0] _ _ (ix2 e u) (ix1 e) (fun a => by
    match a with
    | ⟨0, _⟩ => show e.val = if (320000 : ℕ) = 1 then 0 else e.val; simp)]
  rw [select_apply]
  show Scalar.select (IntOp.cmpi .slt (idx (ix1 e)) 0#32) _ _ = _
  rw [word_slt_zero _ h, select_zero]

/-- When every index word is in range the range test passes everywhere. -/
theorem t_inb_apply (i5 : IVec S320000x1 32) (h : ∀ i, (i5 i).toNat < 10000) (j : S320000.Idx) : t_inb i5 j = 1#1 := by
  unfold t_inb
  rw [Host.reduce_eq_foldl]
  refine foldl_andi_one _ _ fun i _ => ?_
  show IntOp.andi (IntOp.cmpi .sge (i5 i) 0#32) (IntOp.cmpi .sle (i5 i) 9999#32) = 1#1
  rw [word_sge_zero _ (h i), word_sle_max _ (h i)]; decide

/-! ## A product with a weight matrix -/

theorem dot1_apply (l : FVec Ideal S320000x128 .f32) (r : FVec Ideal S128x256 .f32) (e : Fin 320000) (h : Fin 256) :
    Host.dotGeneral dot_S320000x128_S128x256_S320000x256_1_0_0_1_n_n none l r (ix2 e h)
      = ∑ f : Fin 128, l (ix2 e f) * r (ix2 f h) := by
  show FloatOps.dotGeneral dot_S320000x128_S128x256_S320000x256_1_0_0_1_n_n none .single l r (ix2 e h) = _
  rw [Ideal.dotGeneral_apply,
    ← Equiv.sum_comp (contrEquiv1 dot_S320000x128_S128x256_S320000x256_1_0_0_1_n_n 128 rfl rfl).symm]
  refine Finset.sum_congr rfl fun f _ => ?_
  congr 2 <;> (funext a; refine Fin.ext ?_; match a with | ⟨0, _⟩ => rfl | ⟨1, _⟩ => rfl)

/-! ## The look-ups -/

theorem gather0_apply {α : Type} (x : S10000x128.Idx → α) (idx : IVec S320000x1 32) (e : Fin 320000) (f : Fin 128) :
    Host.gather gather_S10000x128_S320000x1_S320000x128_1_0_n_n_0_1_1128 x idx (ix2 e f) = x (ix2 (node (idx (ix2 e (0 : Fin 1)))) f) := by
  unfold Host.gather
  congr 1
  funext a
  refine Fin.ext ?_
  match a with
  | ⟨0, _⟩ =>
    show gather_S10000x128_S320000x1_S320000x128_1_0_n_n_0_1_1128.start (ix2 e f) idx 0 + gather_S10000x128_S320000x1_S320000x128_1_0_n_n_0_1_1128.batchCoord (ix2 e f) 0 + gather_S10000x128_S320000x1_S320000x128_1_0_n_n_0_1_1128.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 e f) ⟨List.idxOf (0 : Fin 2) gather_S10000x128_S320000x1_S320000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e f) idx 1 + gather_S10000x128_S320000x1_S320000x128_1_0_n_n_0_1_1128.batchCoord (ix2 e f) 1 + gather_S10000x128_S320000x1_S320000x128_1_0_n_n_0_1_1128.offCoord (ix2 e f) 1 = f.val
    rw [GatherDims.batchCoord_eq_zero _ _ _ List.not_mem_nil]
    unfold GatherDims.start
    rw [dif_neg (show (1 : Fin 2) ∉ gather_S10000x128_S320000x1_S320000x128_1_0_n_n_0_1_1128.startIndexMap from by decide)]
    simp only [Nat.add_zero, Nat.zero_add]
    rfl

theorem gather1_apply {α : Type} (x : S10000x256.Idx → α) (idx : IVec S320000x1 32) (e : Fin 320000) (f : Fin 256) :
    Host.gather gather_S10000x256_S320000x1_S320000x256_1_0_n_n_0_1_1256 x idx (ix2 e f) = x (ix2 (node (idx (ix2 e (0 : Fin 1)))) f) := by
  unfold Host.gather
  congr 1
  funext a
  refine Fin.ext ?_
  match a with
  | ⟨0, _⟩ =>
    show gather_S10000x256_S320000x1_S320000x256_1_0_n_n_0_1_1256.start (ix2 e f) idx 0 + gather_S10000x256_S320000x1_S320000x256_1_0_n_n_0_1_1256.batchCoord (ix2 e f) 0 + gather_S10000x256_S320000x1_S320000x256_1_0_n_n_0_1_1256.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x256_S320000x1_S320000x256_1_0_n_n_0_1_1256.startIndexMap from List.mem_singleton.mpr rfl)]
    have hsi : gather_S10000x256_S320000x1_S320000x256_1_0_n_n_0_1_1256.siIdx (ix2 e f) ⟨List.idxOf (0 : Fin 2) gather_S10000x256_S320000x1_S320000x256_1_0_n_n_0_1_1256.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x256_S320000x1_S320000x256_1_0_n_n_0_1_1256.start (ix2 e f) idx 1 + gather_S10000x256_S320000x1_S320000x256_1_0_n_n_0_1_1256.batchCoord (ix2 e f) 1 + gather_S10000x256_S320000x1_S320000x256_1_0_n_n_0_1_1256.offCoord (ix2 e f) 1 = f.val
    rw [GatherDims.batchCoord_eq_zero _ _ _ List.not_mem_nil]
    unfold GatherDims.start
    rw [dif_neg (show (1 : Fin 2) ∉ gather_S10000x256_S320000x1_S320000x256_1_0_n_n_0_1_1256.startIndexMap from by decide)]
    simp only [Nat.add_zero, Nat.zero_add]
    rfl

/-- With every index word in range, a looked-up row is the operand's row at the node the word names. -/
theorem t_take0_apply (x : FVec Ideal S10000x128 .f32) (idx : IVec S320000 32) (h : ∀ e, (idx (ix1 e)).toNat < 10000) (e : Fin 320000) (f : Fin 128) :
    t_take0 x idx (ix2 e f) = x (ix2 (node (idx (ix1 e))) f) := by
  have hi : ∀ i, (t_idx idx i).toNat < 10000 := fun i => by
    obtain ⟨a, b, rfl⟩ : ∃ (a : Fin 320000) (b : Fin 1), i = ix2 a b := ⟨i 0, i 1, eq_ix2 i⟩
    rw [t_idx_apply idx a b (h a)]; exact h a
  unfold t_take0
  rw [select_apply, broadcastInDim_apply ![0] _ _ (ix2 e f) (ix1 e) (fun a => by
    match a with
    | ⟨0, _⟩ => show e.val = if (320000 : ℕ) = 1 then 0 else e.val; simp),
    t_inb_apply _ hi, select_one, gather0_apply, t_idx_apply idx e 0 (h e)]

/-- With every index word in range, a looked-up row is the operand's row at the node the word names. -/
theorem t_take1_apply (x : FVec Ideal S10000x256 .f32) (idx : IVec S320000 32) (h : ∀ e, (idx (ix1 e)).toNat < 10000) (e : Fin 320000) (f : Fin 256) :
    t_take1 x idx (ix2 e f) = x (ix2 (node (idx (ix1 e))) f) := by
  have hi : ∀ i, (t_idx idx i).toNat < 10000 := fun i => by
    obtain ⟨a, b, rfl⟩ : ∃ (a : Fin 320000) (b : Fin 1), i = ix2 a b := ⟨i 0, i 1, eq_ix2 i⟩
    rw [t_idx_apply idx a b (h a)]; exact h a
  unfold t_take1
  rw [select_apply, broadcastInDim_apply ![0] _ _ (ix2 e f) (ix1 e) (fun a => by
    match a with
    | ⟨0, _⟩ => show e.val = if (320000 : ℕ) = 1 then 0 else e.val; simp),
    t_inb_apply _ hi, select_one, gather1_apply, t_idx_apply idx e 0 (h e)]

theorem dot2_apply (l : FVec Ideal S320000x256 .f32) (r : FVec Ideal S256x256 .f32) (e : Fin 320000) (h : Fin 256) :
    Host.dotGeneral dot_S320000x256_S256x256_S320000x256_1_0_0_1_n_n none l r (ix2 e h)
      = ∑ f : Fin 256, l (ix2 e f) * r (ix2 f h) := by
  show FloatOps.dotGeneral dot_S320000x256_S256x256_S320000x256_1_0_0_1_n_n none .single l r (ix2 e h) = _
  rw [Ideal.dotGeneral_apply,
    ← Equiv.sum_comp (contrEquiv1 dot_S320000x256_S256x256_S320000x256_1_0_0_1_n_n 256 rfl rfl).symm]
  refine Finset.sum_congr rfl fun f _ => ?_
  congr 2 <;> (funext a; refine Fin.ext ?_; match a with | ⟨0, _⟩ => rfl | ⟨1, _⟩ => rfl)

/-- The head's product: a vector of 256 through a 256 × 16 matrix. -/
theorem dot3_apply (l : FVec Ideal S256 .f32) (r : FVec Ideal S256x16 .f32) (c : Fin 16) :
    Host.dotGeneral dot_S256_S256x16_S16_0_0_n_1_n_n none l r (ix1 c) = ∑ k : Fin 256, l (ix1 k) * r (ix2 k c) := by
  show FloatOps.dotGeneral dot_S256_S256x16_S16_0_0_n_1_n_n none .single l r (ix1 c) = _
  rw [Ideal.dotGeneral_apply, ← Equiv.sum_comp (contrEquiv1 dot_S256_S256x16_S16_0_0_n_1_n_n 256 rfl rfl).symm]
  refine Finset.sum_congr rfl fun k _ => ?_
  congr 2
  · funext a; refine Fin.ext ?_; match a with | ⟨0, _⟩ => rfl
  · funext a; refine Fin.ext ?_; match a with | ⟨0, _⟩ => rfl | ⟨1, _⟩ => rfl

/-! ## The accumulating scatter -/

theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- An update row whose index word is in range lands on the row of the node the word names, at its own column. -/
theorem scatter_resultIdx (idx : IVec S320000x1 32) (e : Fin 320000) (k : Fin 256) (h : (idx (ix2 e (0 : Fin 1))).toNat < 10000) :
    scatter_S10000x256_S320000x1_S320000x256_1_0_0_1.resultIdx? (ix2 e k) idx = some (ix2 (node (idx (ix2 e (0 : Fin 1)))) k) := by
  have hs0 : scatter_S10000x256_S320000x1_S320000x256_1_0_0_1.start (ix2 e k) idx 0 = ((idx (ix2 e (0 : Fin 1))).toNat : Int) := by
    unfold ScatterDims.start
    rw [dif_pos (show (0 : Fin 2) ∈ scatter_S10000x256_S320000x1_S320000x256_1_0_0_1.scatterDimsToOperandDims from List.mem_singleton.mpr rfl)]
    have hsi : scatter_S10000x256_S320000x1_S320000x256_1_0_0_1.siIdx (ix2 e k) ⟨List.idxOf (0 : Fin 2) scatter_S10000x256_S320000x1_S320000x256_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, toInt_of_lt _ h]
  have hs1 : scatter_S10000x256_S320000x1_S320000x256_1_0_0_1.start (ix2 e k) idx 1 = 0 := by
    unfold ScatterDims.start
    rw [dif_neg (show (1 : Fin 2) ∉ scatter_S10000x256_S320000x1_S320000x256_1_0_0_1.scatterDimsToOperandDims from by decide)]
  have hw0 : scatter_S10000x256_S320000x1_S320000x256_1_0_0_1.window (ix2 e k) 0 = 0 := by
    unfold ScatterDims.window
    rw [dif_neg (show (0 : Fin 2) ∉ scatter_S10000x256_S320000x1_S320000x256_1_0_0_1.sKept from by decide)]
  have hw1 : scatter_S10000x256_S320000x1_S320000x256_1_0_0_1.window (ix2 e k) 1 = k.val := by
    unfold ScatterDims.window
    rw [dif_pos (show (1 : Fin 2) ∈ scatter_S10000x256_S320000x1_S320000x256_1_0_0_1.sKept from by decide)]
    rfl
  have hcond : ∀ a, 0 ≤ scatter_S10000x256_S320000x1_S320000x256_1_0_0_1.start (ix2 e k) idx a + scatter_S10000x256_S320000x1_S320000x256_1_0_0_1.window (ix2 e k) a
      ∧ scatter_S10000x256_S320000x1_S320000x256_1_0_0_1.start (ix2 e k) idx a + scatter_S10000x256_S320000x1_S320000x256_1_0_0_1.window (ix2 e k) a < S10000x256.size a := by
    intro a
    match a with
    | ⟨0, _⟩ =>
      show 0 ≤ scatter_S10000x256_S320000x1_S320000x256_1_0_0_1.start (ix2 e k) idx 0 + ((scatter_S10000x256_S320000x1_S320000x256_1_0_0_1.window (ix2 e k) 0 : ℕ) : Int)
        ∧ scatter_S10000x256_S320000x1_S320000x256_1_0_0_1.start (ix2 e k) idx 0 + ((scatter_S10000x256_S320000x1_S320000x256_1_0_0_1.window (ix2 e k) 0 : ℕ) : Int) < ((10000 : ℕ) : Int)
      rw [hs0, hw0]; omega
    | ⟨1, _⟩ =>
      show 0 ≤ scatter_S10000x256_S320000x1_S320000x256_1_0_0_1.start (ix2 e k) idx 1 + ((scatter_S10000x256_S320000x1_S320000x256_1_0_0_1.window (ix2 e k) 1 : ℕ) : Int)
        ∧ scatter_S10000x256_S320000x1_S320000x256_1_0_0_1.start (ix2 e k) idx 1 + ((scatter_S10000x256_S320000x1_S320000x256_1_0_0_1.window (ix2 e k) 1 : ℕ) : Int) < ((256 : ℕ) : Int)
      rw [hs1, hw1]; have := k.isLt; omega
  unfold ScatterDims.resultIdx?
  rw [dif_pos hcond]
  congr 1
  funext a
  refine Fin.ext ?_
  match a with
  | ⟨0, _⟩ =>
    show (scatter_S10000x256_S320000x1_S320000x256_1_0_0_1.start (ix2 e k) idx 0 + ((scatter_S10000x256_S320000x1_S320000x256_1_0_0_1.window (ix2 e k) 0 : ℕ) : Int)).toNat = (node (idx (ix2 e (0 : Fin 1)))).val
    rw [hs0, hw0, node_val _ h]; omega
  | ⟨1, _⟩ =>
    show (scatter_S10000x256_S320000x1_S320000x256_1_0_0_1.start (ix2 e k) idx 1 + ((scatter_S10000x256_S320000x1_S320000x256_1_0_0_1.window (ix2 e k) 1 : ℕ) : Int)).toNat = k.val
    rw [hs1, hw1]; omega

/-- With every index word in range, the accumulation from zero is, at a node, the sum over the edges whose word names
    that node. -/
theorem t_agg_apply (upd : FVec Ideal S320000x256 .f32) (idx : IVec S320000 32) (h : ∀ e, (idx (ix1 e)).toNat < 10000)
    (n : Fin 10000) (k : Fin 256) :
    t_agg upd idx (ix2 n k) = ∑ e ∈ Finset.univ.filter (fun e => node (idx (ix1 e)) = n), upd (ix2 e k) := by
  have hw : ∀ e : Fin 320000, (broadcastInDim S320000x1 ![0] bcast_S320000_S320000x1_0 idx) (ix2 e (0 : Fin 1)) = idx (ix1 e) :=
    fun e => broadcastInDim_apply ![0] _ _ (ix2 e (0 : Fin 1)) (ix1 e) (fun a => by
      match a with
      | ⟨0, _⟩ => show e.val = if (320000 : ℕ) = 1 then 0 else e.val; simp)
  unfold t_agg Host.scatterAdd
  rw [Ideal.hostScatterAdd_def]
  unfold Ideal.hostScatterAdd
  have hx : (broadcastInDim S10000x256 ![] bcast_S_S10000x256 (constant (F := Ideal) S_ .f32 0x00000000#32)) (ix2 n k) = (0 : EReal) :=
    Ideal.ofBits_zero_f32
  rw [hx, zero_add, Finset.sum_filter, sum_idx2, Finset.sum_filter]
  refine Finset.sum_congr rfl fun e _ => ?_
  have hr : ∀ b : Fin 256, scatter_S10000x256_S320000x1_S320000x256_1_0_0_1.resultIdx? (ix2 e b) (broadcastInDim S320000x1 ![0] bcast_S320000_S320000x1_0 idx)
      = some (ix2 (node (idx (ix1 e))) b) := fun b => by
    rw [scatter_resultIdx _ e b (by rw [hw e]; exact h e), hw e]
  simp only [hr, Option.some.injEq, ix2_inj]
  by_cases hn : node (idx (ix1 e)) = n
  · simp only [hn, true_and, if_true]
    rw [Finset.sum_ite_eq' Finset.univ k (fun b => upd (ix2 e b))]
    simp
  · simp only [hn, false_and, if_false, Finset.sum_const_zero]

/-! ## The bias and prelu -/

/-- A vector of 256 laid along every row reads, at (n, k), its entry k. -/
theorem t_rows_apply {α : Type} (b : S256.Idx → α) (n : Fin 10000) (k : Fin 256) :
    broadcastInDim S10000x256 ![0, 1] bcast_S1x256_S10000x256_0_1 (broadcastInDim S1x256 ![1] bcast_S256_S1x256_1 b) (ix2 n k) = b (ix1 k) := by
  rw [broadcastInDim_oneRow_apply]
  exact broadcastInDim_apply ![1] _ _ (ix2 (0 : Fin 1) k) (ix1 k) (fun a => by
    match a with
    | ⟨0, _⟩ => show k.val = if (256 : ℕ) = 1 then 0 else k.val; simp)

theorem t_prelu_apply (h : FVec Ideal S10000x256 .f32) (a : FVec Ideal S256 .f32) (n : Fin 10000) (k : Fin 256) :
    t_prelu h a (ix2 n k) = prelu (h (ix2 n k)) (a (ix1 k)) := by
  unfold t_prelu t_rows prelu
  rw [select_apply, mulf_apply, t_rows_apply]
  show Scalar.select (Ideal.cmp .oge (h (ix2 n k)) (Ideal.ofBits .f32 0x00000000#32)) _ _ = _
  rw [Ideal.ofBits_zero_f32]
  unfold Ideal.cmp
  by_cases hv : (0 : EReal) ≤ h (ix2 n k)
  · rw [if_pos hv]
    simp only [hv, decide_true]
    exact select_one _ _
  · rw [if_neg hv]
    simp only [hv, decide_false]
    exact select_zero _ _

/-! ## The two layers -/

theorem t_layer1_apply (x : FVec Ideal S10000x128 .f32) (ei : IVec S2x320000 32) (W : FVec Ideal S128x256 .f32)
    (b a : FVec Ideal S256 .f32) (hei : ∀ i, (ei i).toNat < 10000) (n : Fin 10000) (k : Fin 256) :
    t_layer1 x ei W b a (ix2 n k) = h1 x ei W b a n k := by
  have h0 : ∀ e, (t_row0 ei (ix1 e)).toNat < 10000 := fun e => by rw [t_row0_apply]; exact hei _
  have h1' : ∀ e, (t_row1 ei (ix1 e)).toNat < 10000 := fun e => by rw [t_row1_apply]; exact hei _
  unfold t_layer1 h1 m1 src dst
  rw [t_prelu_apply, addf_apply, t_agg_apply _ _ h1']
  unfold t_rows
  rw [t_rows_apply]
  simp only [dot1_apply, t_take0_apply _ _ h0, t_row0_apply, t_row1_apply]

theorem t_layer2_apply (x : FVec Ideal S10000x256 .f32) (ei : IVec S2x320000 32) (W : FVec Ideal S256x256 .f32)
    (b a : FVec Ideal S256 .f32) (hei : ∀ i, (ei i).toNat < 10000) (n : Fin 10000) (k : Fin 256) :
    t_layer2 x ei W b a (ix2 n k)
      = prelu ((∑ e ∈ Finset.univ.filter (fun e => dst ei e = n), ∑ h : Fin 256, x (ix2 (src ei e) h) * W (ix2 h k)) + b (ix1 k)) (a (ix1 k)) := by
  have h0 : ∀ e, (t_row0 ei (ix1 e)).toNat < 10000 := fun e => by rw [t_row0_apply]; exact hei _
  have h1' : ∀ e, (t_row1 ei (ix1 e)).toNat < 10000 := fun e => by rw [t_row1_apply]; exact hei _
  unfold t_layer2 src dst
  rw [t_prelu_apply, addf_apply, t_agg_apply _ _ h1']
  unfold t_rows
  rw [t_rows_apply]
  simp only [dot2_apply, t_take1_apply _ _ h0, t_row0_apply, t_row1_apply]

/-! ## The head and the softmax -/

theorem ofBits_ninf : Ideal.ofBits .f32 0xFF800000#32 = (⊥ : EReal) := by simp [Ideal.ofBits, Ideal.ieee]

/-- The sum over the nodes, at feature k. -/
theorem reduceNodes_apply (h : FVec Ideal S10000x256 .f32) (k : Fin 256) :
    Host.reduceAdd h (constant S_ .f32 0x00000000#32) reducesTo_S10000x256_S256_d0 h_S_ (ix1 k) = ∑ n : Fin 10000, h (ix2 n k) := by
  rw [hostReduceAdd_apply, Ideal.hostReduceAdd_single reducesTo_S10000x256_S256_d0 (by decide : S10000x256.Reduces [0] S256)]
  show Ideal.ofBits .f32 0x00000000#32 + _ = _
  rw [Ideal.ofBits_zero_f32, zero_add]
  refine Finset.sum_congr rfl fun n _ => congrArg h ?_
  funext a; refine Fin.ext ?_
  match a with
  | ⟨0, _⟩ => rfl
  | ⟨1, _⟩ => rfl

theorem t_logits_apply (h : FVec Ideal S10000x256 .f32) (Wd : FVec Ideal S256x16 .f32) (bd : FVec Ideal S16 .f32) (l : Fin 16) :
    t_logits h Wd bd (ix1 l) = (∑ k : Fin 256, (∑ n : Fin 10000, h (ix2 n k)) * Wd (ix2 k l)) + bd (ix1 l) := by
  unfold t_logits
  rw [addf_apply, dot3_apply]
  simp only [reduceNodes_apply]

/-- A scalar laid along the sixteen reads the scalar. -/
theorem t_all16_apply (v : FVec Ideal S_ .f32) (l : Fin 16) : t_all16 v (ix1 l) = v ix0 := by
  unfold t_all16
  rw [broadcastInDim_apply ![0] _ _ (ix1 l) (ix1 (0 : Fin 1)) (fun a => by
    match a with
    | ⟨0, _⟩ => show (0 : ℕ) = if (1 : ℕ) = 1 then 0 else l.val; simp)]
  exact broadcastInDim_scalar_apply _ _ _

/-- A rank-1 index set is its one coordinate's range, so a sum over it is the sum over the coordinate. -/
def idxEquiv1 {n : Nat} : (⟨1, ![n]⟩ : Shape).Idx ≃ Fin n where
  toFun i := i 0
  invFun := ix1
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The sum of sixteen. -/
theorem sum16_apply (e : FVec Ideal S16 .f32) :
    Host.reduceAdd e (constant S_ .f32 0x00000000#32) reducesTo_S16_S_d0 h_S_ ix0 = ∑ l : Fin 16, e (ix1 l) := by
  rw [hostReduceAdd_apply, Ideal.hostReduceAdd_total reducesTo_S16_S_d0 (fun b => b.elim0)]
  show Ideal.ofBits .f32 0x00000000#32 + _ = _
  rw [Ideal.ofBits_zero_f32, zero_add]
  exact sum_idx1 e

/-- The maximum of sixteen, from −∞. -/
theorem max16_apply (lg : FVec Ideal S16 .f32) :
    Host.reduce FloatOps.maximumf lg (constant S_ .f32 0xFF800000#32) reducesTo_S16_S_d0 h_S_ ix0
      = (Finset.univ : Finset (Fin 16)).fold max ⊥ (fun l => lg (ix1 l)) := by
  show Host.reduce (max : EReal → EReal → EReal) lg (constant (F := Ideal) S_ .f32 0xFF800000#32) reducesTo_S16_S_d0 h_S_ ix0 = _
  rw [Host.reduce_eq_fold max lg _ reducesTo_S16_S_d0 h_S_ ix0,
    Finset.filter_true_of_mem (fun i _ => funext fun a => a.elim0)]
  show (Finset.univ : Finset S16.Idx).fold max (Ideal.ofBits .f32 0xFF800000#32) lg = _
  rw [ofBits_ninf, ← Finset.map_univ_equiv (idxEquiv1 (n := 16)).symm, Finset.fold_map]
  rfl

theorem t_norm_apply (e : FVec Ideal S16 .f32) (l : Fin 16) :
    t_norm e (ix1 l) = Ideal.div (e (ix1 l)) (∑ l' : Fin 16, e (ix1 l')) := by
  unfold t_norm
  show Ideal.div (e (ix1 l)) (t_all16 (F := Ideal) _ (ix1 l)) = _
  rw [t_all16_apply, sum16_apply]

theorem t_softmax_apply (lg : FVec Ideal S16 .f32) (l : Fin 16) :
    t_softmax lg (ix1 l) = softmax (fun l => lg (ix1 l)) l := by
  have hs : ∀ l' : Fin 16, (Host.exp (subf lg (t_all16 (maximumf (constant S_ .f32 0xFF800000#32)
      (Host.reduce FloatOps.maximumf lg (constant S_ .f32 0xFF800000#32) reducesTo_S16_S_d0 h_S_))))) (ix1 l')
      = Ideal.exp (lg (ix1 l') - softmaxShift (fun l => lg (ix1 l))) := fun l' => by
    show Ideal.exp (subf lg _ (ix1 l')) = _
    rw [subf_apply, t_all16_apply, maximumf_apply, max16_apply]
    show Ideal.exp (lg (ix1 l') - max (Ideal.ofBits .f32 0xFF800000#32) _) = _
    rw [ofBits_ninf]; rfl
  unfold t_softmax softmax
  rw [t_norm_apply]
  simp only [hs]

end Cert.ReferenceIdeal.RefValue

end
-- ==== Proof.RefValue.lean ====
/-
  The reference's result is the function of RefSpec. The fold of its operations is the composition of the named stages
  (for any float values); on the extended reals each stage read at an index is the corresponding line of the
  specification — the softmax of the head of the two layers — provided every word of the edge list is below 10000 as a
  natural number (then no look-up index is negative or out of range, and every scattered row lands inside the node array).
-/
import proofs.«211848_g47218870452992_cont_8to1c4_747_2_alg».proof.Proof.RefFold
import proofs.«211848_g47218870452992_cont_8to1c4_747_2_alg».proof.Proof.RefRead

noncomputable section

namespace Cert.ReferenceIdeal.RefValue

open Cert.ReferenceIdeal Cert.ReferenceIdeal.Gen Cert.ReferenceIdeal.HandRun
open Idealize.ShloMosaic Idealize.ShloMosaic.TcCoe Idealize.SL.Sem Idealize.ShloMosaic.ValueIdx Idealize.ShloMosaic.StableHlo
open Cert.RefSpec
open scoped BigOperators

/-- The composed stages, read at class `l`, are the specification there. -/
theorem t_out_apply (x : FVec Ideal S10000x128 .f32) (ei : IVec S2x320000 32) (W1 : FVec Ideal S128x256 .f32)
    (b1 a1 : FVec Ideal S256 .f32) (W2 : FVec Ideal S256x256 .f32) (b2 a2 : FVec Ideal S256 .f32)
    (Wd : FVec Ideal S256x16 .f32) (bd : FVec Ideal S16 .f32) (hei : ∀ i, (ei i).toNat < 10000) (l : Fin 16) :
    t_out x ei W1 b1 a1 W2 b2 a2 Wd bd (ix1 l) = out x ei W1 b1 a1 W2 b2 a2 Wd bd l := by
  unfold t_out out
  rw [t_softmax_apply]
  refine congrArg (fun lg => softmax lg l) (funext fun l' => ?_)
  rw [t_logits_apply]
  unfold logits pooled h2 m2
  simp only [t_layer2_apply _ _ _ _ _ hei, t_layer1_apply _ _ _ _ _ hei]

/-- THE REFERENCE'S RESULT, element `l`: from buffer contents `V` whose edge list holds only words below 10000, the
    result array after the reference's operations is the specification of the ten argument arrays' contents. -/
theorem res_spec (V : Valuation τ sig (Elt Ideal))
    (hei : ∀ i : S2x320000.Idx, (V (Proc.devRef .tc main_arg1) i).toNat < 10000) (l : Fin 16) :
    res (F := Ideal) V (ix1 l)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) l := by
  rw [res_eq]
  exact t_out_apply _ _ _ _ _ _ _ _ _ _ hei l

/-- The same as an equation of arrays. -/
theorem res_spec_fun (V : Valuation τ sig (Elt Ideal))
    (hei : ∀ i : S2x320000.Idx, (V (Proc.devRef .tc main_arg1) i).toNat < 10000) :
    res (F := Ideal) V
      = fun j : S16.Idx => out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (j 0) := by
  funext j
  obtain ⟨l, rfl⟩ : ∃ l : Fin 16, j = ix1 l := ⟨j 0, eq_ix1 j⟩
  exact res_spec V hei l

/-- The reference's run with its result stated: from any memory whose edge list holds only words below 10000 (zero
    counters), every weakly fair execution of the reference terminates with the result array at the specification of
    the ten argument arrays as launched, and those arrays unchanged. -/
theorem run_spec (m : (ℓ : Loc nD τ sig) → Buf (Elt Ideal) ℓ) (ρ : Dev nD → PrngReg)
    (hei : ∀ (c : Dev nD) (i : S2x320000.Idx), (m ((c.tc : Thread nD τ).loc main_arg1) i).toNat < 10000) :
    θ_run defs (onTc (τ := τ) (main (F := Ideal))) ⟨m, fun _ => 0, ρ⟩ fun r => ∀ c : Dev nD,
      r.2.mem ((c.tc : Thread nD τ).loc main_v44)
          = (fun j : S16.Idx => out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_spec_fun (launchContents m c) (hei c)), (h c).2⟩)
    (HandRun.run (F := Ideal) m ρ)

end Cert.ReferenceIdeal.RefValue

end
-- ==== Proof.KIPayV.lean ====
/-
  The handshakes' payloads with values: as before each tile is handed its stretch of the table and of the result and a read
  token of the edge sources and destinations, but now the table's contents are stated going out and coming back, and the
  result stretch comes back AT a stated array `res` (the aggregation of the whole table, of which the tile wrote its
  stretch). A SparseCore's payload is still its tiles' together, so the split stays the identity; and the launch theorem
  is applied once for any payload record that deals the kernels' proofs nothing of their own.
-/
import proofs.«211848_g47218870452992_cont_8to1c4_747_2_alg».proof.Proof.KILaunch

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section ResV

variable (srcC : (d : Dev nD) → Buf (Elt F) (tLoc main_v1 d)) (dstC : (d : Dev nD) → Buf (Elt F) (tLoc main_v3 d))
  (tab0 : (d : Dev nD) → Buf (Elt F) (tLoc main_v6 d)) (res0 : (d : Dev nD) → Buf (Elt F) (tLoc main_v7 d))
  (tab1 : (d : Dev nD) → Buf (Elt F) (tLoc main_v13 d)) (res1 : (d : Dev nD) → Buf (Elt F) (tLoc main_v14 d))

/-- A tile's share of the first call's operands going out: its table stretch at the table's contents, the result stretch at any. -/
def goV0 (d : Dev nD) (L : grid0.Coords) : sProp 𝕄 :=
  iprop((tLoc main_v6 d ↦[set0 L]{fullShare} tab0 d)
    ∗ (tLoc main_v1 d ↦{tok (wid0 L)} srcC d) ∗ (tLoc main_v3 d ↦{tok (wid0 L)} dstC d)
    ∗ ∃ fo, tLoc main_v7 d ↦[set0 L]{fullShare} fo)
/-- … and coming back: the result stretch at the stated array. -/
def tdV0 (d : Dev nD) (L : grid0.Coords) : sProp 𝕄 :=
  iprop((tLoc main_v6 d ↦[set0 L]{fullShare} tab0 d)
    ∗ (tLoc main_v1 d ↦{tok (wid0 L)} srcC d) ∗ (tLoc main_v3 d ↦{tok (wid0 L)} dstC d)
    ∗ tLoc main_v7 d ↦[set0 L]{fullShare} res0 d)
def goV1 (d : Dev nD) (L : grid2.Coords) : sProp 𝕄 :=
  iprop((tLoc main_v13 d ↦[set1 L 0]{fullShare} tab1 d) ∗ (tLoc main_v13 d ↦[set1 L 1]{fullShare} tab1 d)
    ∗ (tLoc main_v1 d ↦{tok (wid2 L)} srcC d) ∗ (tLoc main_v3 d ↦{tok (wid2 L)} dstC d)
    ∗ (∃ fo, tLoc main_v14 d ↦[set1 L 0]{fullShare} fo) ∗ ∃ fo, tLoc main_v14 d ↦[set1 L 1]{fullShare} fo)
def tdV1 (d : Dev nD) (L : grid2.Coords) : sProp 𝕄 :=
  iprop((tLoc main_v13 d ↦[set1 L 0]{fullShare} tab1 d) ∗ (tLoc main_v13 d ↦[set1 L 1]{fullShare} tab1 d)
    ∗ (tLoc main_v1 d ↦{tok (wid2 L)} srcC d) ∗ (tLoc main_v3 d ↦{tok (wid2 L)} dstC d)
    ∗ (tLoc main_v14 d ↦[set1 L 0]{fullShare} res1 d) ∗ tLoc main_v14 d ↦[set1 L 1]{fullShare} res1 d)

instance goV0_storable (d : Dev nD) (L : grid0.Coords) : BI.Storable (upEmb : UEmb _ 𝕄) (goV0 srcC dstC tab0 d L) := by unfold goV0; infer_instance
instance tdV0_storable (d : Dev nD) (L : grid0.Coords) : BI.Storable (upEmb : UEmb _ 𝕄) (tdV0 srcC dstC tab0 res0 d L) := by unfold tdV0; infer_instance
instance goV1_storable (d : Dev nD) (L : grid2.Coords) : BI.Storable (upEmb : UEmb _ 𝕄) (goV1 srcC dstC tab1 d L) := by unfold goV1; infer_instance
instance tdV1_storable (d : Dev nD) (L : grid2.Coords) : BI.Storable (upEmb : UEmb _ 𝕄) (tdV1 srcC dstC tab1 res1 d L) := by unfold tdV1; infer_instance

/-- What the handshakes carry, with values. -/
def PV : (K (F := F)).Pay (nD := nD) (Val := Elt F) (Name := ℕ) (U := UU) where
  st := fun q d c => match q with
    | 0 => bigSep Finset.univ fun i : Fin ((K (F := F)).nSub 0) => goV0 srcC dstC tab0 d (L0 c i)
    | 1 => bigSep Finset.univ fun i : Fin ((K (F := F)).nSub 1) => goV1 srcC dstC tab1 d (L1 c i)
  dn := fun q d c => match q with
    | 0 => bigSep Finset.univ fun i : Fin ((K (F := F)).nSub 0) => tdV0 srcC dstC tab0 res0 d (L0 c i)
    | 1 => bigSep Finset.univ fun i : Fin ((K (F := F)).nSub 1) => tdV1 srcC dstC tab1 res1 d (L1 c i)
  go := fun q d c i => match q with
    | 0 => goV0 srcC dstC tab0 d (L0 c i)
    | 1 => goV1 srcC dstC tab1 d (L1 c i)
  td := fun q d c i => match q with
    | 0 => tdV0 srcC dstC tab0 res0 d (L0 c i)
    | 1 => tdV1 srcC dstC tab1 res1 d (L1 c i)
  x := fun _ _ => iprop(emp)

instance PV_storable : (PV (F := F) srcC dstC tab0 res0 tab1 res1).IsStorable where
  st q d c := match q with
    | 0 => (inferInstance : BI.Storable (upEmb : UEmb _ 𝕄) (bigSep Finset.univ fun i : Fin ((K (F := F)).nSub 0) => goV0 srcC dstC tab0 d (L0 c i)))
    | 1 => (inferInstance : BI.Storable (upEmb : UEmb _ 𝕄) (bigSep Finset.univ fun i : Fin ((K (F := F)).nSub 1) => goV1 srcC dstC tab1 d (L1 c i)))
  dn q d c := match q with
    | 0 => (inferInstance : BI.Storable (upEmb : UEmb _ 𝕄) (bigSep Finset.univ fun i : Fin ((K (F := F)).nSub 0) => tdV0 srcC dstC tab0 res0 d (L0 c i)))
    | 1 => (inferInstance : BI.Storable (upEmb : UEmb _ 𝕄) (bigSep Finset.univ fun i : Fin ((K (F := F)).nSub 1) => tdV1 srcC dstC tab1 res1 d (L1 c i)))
  go q d c i := match q with
    | 0 => (inferInstance : BI.Storable (upEmb : UEmb _ 𝕄) (goV0 srcC dstC tab0 d (L0 c i)))
    | 1 => (inferInstance : BI.Storable (upEmb : UEmb _ 𝕄) (goV1 srcC dstC tab1 d (L1 c i)))
  td q d c i := match q with
    | 0 => (inferInstance : BI.Storable (upEmb : UEmb _ 𝕄) (tdV0 srcC dstC tab0 res0 d (L0 c i)))
    | 1 => (inferInstance : BI.Storable (upEmb : UEmb _ 𝕄) (tdV1 srcC dstC tab1 res1 d (L1 c i)))

omit [FloatOps F] in
theorem split_idV (A B : sProp 𝕄) : A ⊢ |={Set.univ}=> iprop(A ∗ (B -∗ B)) := by
  iintro H; imodintro
  isplitl [H]; · iexact H
  iintro H; iexact H

theorem vecSplitV (q : Fin 2) : (K (F := F)).VecSplit' (PV srcC dstC tab0 res0 tab1 res1) q := by
  intro d c
  match q with
  | 0 => exact split_idV _ _
  | 1 => exact split_idV _ _

end ResV

/-! ## The launch theorem for any payload record that deals the kernels' proofs nothing -/

variable (m : (ℓ : Loc nD τ sig) → Buf (Elt F) ℓ) (ρ : Dev nD → PrngReg)

theorem hu₀P (P' : (K (F := F)).Pay (nD := nD) (Val := Elt F) (Name := ℕ) (U := UU)) (hx : ∀ q thr, P'.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => P'.x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (own_EP (F := F) _) $$ HP
  imod (Pipeline.fund_ghost cfgs (EP (F := F)) cellOf_inj) $$ HP' with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 2 => P'.x q thr) = (iprop(emp) : sProp 𝕄) from by
    rw [bigSep_congr fun thr _ => (bigSep_congr fun q _ => hx q thr).trans (bigSep_emp' _), bigSep_emp']]
  iempintro

/-- The launch theorem applied, for any such record and any final reading. -/
theorem run_ofP [∀ e, Nonempty (Elt F e)]
    (P' : (K (F := F)).Pay (nD := nD) (Val := Elt F) (Name := ℕ) (U := UU)) [P'.IsStorable]
    (hx : ∀ q thr, P'.x q thr = iprop(emp)) (hheld : P'.held = ∅)
    (hvec : ∀ q, (K (F := F)).VecSplit' P' q)
    (htile0 : (K (F := F)).TileObl (D (F := F)) 𝒱 P' v₀ 0) (htile1 : (K (F := F)).TileObl (D (F := F)) 𝒱 P' v₀ 1)
    (FIN' : Dev nD → sProp 𝕄) (fq' : Dev nD → Phys nD τ sig (Elt F) → Prop) (hfin' : ∀ d s', iprop(FIN' d ∗ SI s') ⊢ (⌜fq' d s'⌝ : sProp 𝕄))
    (Q' : PUnit × MemSt nD τ sig (Elt F) → Prop) (hQ' : ∀ s', (∀ d, fq' d s') → Q' (⟨⟩, s'.mem))
    (hmain : ∀ (κ : GSem nD τ sig → ℕ) (d : Dev nD),
      iprop((K (F := F)).ctx EH P' κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FIN' d)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P') facts v₀
    (fun q hq => match q with | 0 => nomatch hq | 1 => nomatch hq)
    (fun q _ => match q with | 0 => htile0 | 1 => htile1)
    (fun q _ => SparseCore.Cfg.VecSplit.of_plain (hvec q))
    m ρ main (G (F := F)) FIN' (u₀ (F := F)) (sep_elim_left.trans (hu₀P P' hx)) hmain fq' hfin' Q' hQ' hheld

end Cert.Proof.KernelIdealL

end
-- ==== Proof.KIDealV.lean ====
/-
  Dealing and collecting around the first aggregation, with values: from every unscoped buffer held at a definite
  valuation W — whose table, edge sources and edge destinations are the handshake's — the tiles' shares go out with the
  table's contents stated; they come back with each tile's stretch of the result at the stated array, and the thirty-two
  stretches of ONE array are that array whole: the buffers are held again at W with the result array rewritten.
-/
import proofs.«211848_g47218870452992_cont_8to1c4_747_2_alg».proof.Proof.KIPayV
import proofs.«211848_g47218870452992_cont_8to1c4_747_2_alg».proof.Proof.KIDeal

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- What the TensorCore keeps during the first aggregation, at a definite valuation. -/
def RestV0 (srcC : (d : Dev nD) → Buf (Elt F) (tLoc main_v1 d)) (dstC : (d : Dev nD) → Buf (Elt F) (tLoc main_v3 d))
    (W : Valuation τ sig (Elt F)) (d : Dev nD) : sProp 𝕄 :=
  iprop(StableHlo.held (T d) (Pipeline.ucRefs τ sig \ S4) W
    ∗ (tLoc main_v1 d ↦{Transfers.shareDrop fullShare 32} srcC d)
    ∗ (tLoc main_v3 d ↦{Transfers.shareDrop fullShare 32} dstC d))

/-- Tile number `w`'s share going out, and coming back, by its number. -/
def tileGo0 (srcC : (d : Dev nD) → Buf (Elt F) (tLoc main_v1 d)) (dstC : (d : Dev nD) → Buf (Elt F) (tLoc main_v3 d))
    (tab0 : (d : Dev nD) → Buf (Elt F) (tLoc main_v6 d)) (d : Dev nD) (w : Fin 32) : sProp 𝕄 :=
  iprop((tLoc main_v6 d ↦[(part0 w).set]{fullShare} tab0 d)
    ∗ (tLoc main_v1 d ↦{tok w} srcC d) ∗ (tLoc main_v3 d ↦{tok w} dstC d)
    ∗ ∃ fo, tLoc main_v7 d ↦[(part0 w).set]{fullShare} fo)
def tileTd0 (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d)) (d : Dev nD) (w : Fin 32) : sProp 𝕄 :=
  iprop((tLoc main_v6 d ↦[(part0 w).set]{fullShare} tab0 d)
    ∗ (tLoc main_v1 d ↦{tok w} srcC d) ∗ (tLoc main_v3 d ↦{tok w} dstC d)
    ∗ tLoc main_v7 d ↦[(part0 w).set]{fullShare} res0 d)

/-- What the first call takes for the two SparseCores, regrouped by tile number. -/
theorem stV0_eq (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d)) (d : Dev nD) :
    (bigSep Finset.univ fun c : Fin ((K (F := F)).nCore 0) => (PV srcC dstC tab0 res0 tab1 res1).st 0 d c)
      = iprop((bigSep Finset.univ fun w : Fin 32 => tLoc main_v6 d ↦[(part0 w).set]{fullShare} tab0 d)
        ∗ (bigSep Finset.univ fun w : Fin 32 => tLoc main_v1 d ↦{tok w} srcC d)
        ∗ (bigSep Finset.univ fun w : Fin 32 => tLoc main_v3 d ↦{tok w} dstC d)
        ∗ (bigSep Finset.univ fun w : Fin 32 => iprop(∃ fo, tLoc main_v7 d ↦[(part0 w).set]{fullShare} fo))) := by
  have e : ∀ c : Fin ((K (F := F)).nCore 0), (PV srcC dstC tab0 res0 tab1 res1).st 0 d c
      = bigSep Finset.univ fun i : Fin ((K (F := F)).nSub 0) => tileGo0 srcC dstC tab0 d (wid0 (L0 c i)) :=
    fun c => (show (PV srcC dstC tab0 res0 tab1 res1).st 0 d c
        = bigSep Finset.univ fun i : Fin ((K (F := F)).nSub 0) => goV0 srcC dstC tab0 d (L0 c i) from rfl).trans
      (bigSep_congr fun i _ => by unfold goV0 tileGo0; rw [set0_eq])
  rw [bigSep_congr (fun c _ => e c), ← bigSep_tiles0 (F := F) (tileGo0 srcC dstC tab0 d)]
  unfold tileGo0
  rw [bigSep_sep', bigSep_sep', bigSep_sep']

/-- What it hands back. -/
theorem dnV0_eq (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d)) (d : Dev nD) :
    (bigSep Finset.univ fun c : Fin ((K (F := F)).nCore 0) => (PV srcC dstC tab0 res0 tab1 res1).dn 0 d c)
      = iprop((bigSep Finset.univ fun w : Fin 32 => tLoc main_v6 d ↦[(part0 w).set]{fullShare} tab0 d)
        ∗ (bigSep Finset.univ fun w : Fin 32 => tLoc main_v1 d ↦{tok w} srcC d)
        ∗ (bigSep Finset.univ fun w : Fin 32 => tLoc main_v3 d ↦{tok w} dstC d)
        ∗ (bigSep Finset.univ fun w : Fin 32 => tLoc main_v7 d ↦[(part0 w).set]{fullShare} res0 d)) := by
  have e : ∀ c : Fin ((K (F := F)).nCore 0), (PV srcC dstC tab0 res0 tab1 res1).dn 0 d c
      = bigSep Finset.univ fun i : Fin ((K (F := F)).nSub 0) => tileTd0 srcC dstC tab0 res0 d (wid0 (L0 c i)) :=
    fun c => (show (PV srcC dstC tab0 res0 tab1 res1).dn 0 d c
        = bigSep Finset.univ fun i : Fin ((K (F := F)).nSub 0) => tdV0 srcC dstC tab0 res0 d (L0 c i) from rfl).trans
      (bigSep_congr fun i _ => by unfold tdV0 tileTd0; rw [set0_eq])
  rw [bigSep_congr (fun c _ => e c), ← bigSep_tiles0 (F := F) (tileTd0 srcC dstC tab0 res0 d)]
  unfold tileTd0
  rw [bigSep_sep', bigSep_sep', bigSep_sep']

/-- Dealing, with values. -/
theorem dealV0 (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d))
    (d : Dev nD) (W : Valuation τ sig (Elt F))
    (e6 : W (Proc.devRef .tc main_v6) = tab0 d) (e1 : W (Proc.devRef .tc main_v1) = srcC d) (e3 : W (Proc.devRef .tc main_v3) = dstC d) :
    (StableHlo.held (T d) (Pipeline.ucRefs τ sig) W : sProp 𝕄)
      ⊢ iprop((bigSep Finset.univ fun c : Fin ((K (F := F)).nCore 0) => (PV srcC dstC tab0 res0 tab1 res1).st 0 d c) ∗ RestV0 srcC dstC W d) := by
  rw [stV0_eq]
  unfold RestV0
  iintro Hh
  ihave H2 := (Entails.of_eq (StableHlo.held_sub_split (T d) S4_sub W)) $$ Hh
  icases H2 with ⟨H4, Hrest⟩
  ihave H4' := (Entails.of_eq (held_S4 d W e1 e3)) $$ H4
  icases H4' with ⟨H6, H1, H3, H7⟩
  ihave H6' := (Entails.of_eq ((congrArg (fun f => (tLoc main_v6 d ↦{fullShare} f : sProp 𝕄)) e6).trans (v6_parts d (tab0 d)))) $$ H6
  ihave H7' := (Entails.of_eq (v7_parts d _)) $$ H7
  ihave H7'' := (v7_parts_ex d _) $$ H7'
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H6' H1t H3t H7'']
  · isplitl [H6']; · iexact H6'
    isplitl [H1t]; · iexact H1t
    isplitl [H3t]; · iexact H3t
    iexact H7''
  · isplitl [Hrest]; · iexact Hrest
    isplitl [H1d]; · iexact H1d
    iexact H3d

/-- Collecting, with values: the result array at the stated array, everything else as it was. -/
theorem collV0 (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d))
    (d : Dev nD) (W : Valuation τ sig (Elt F))
    (e6 : W (Proc.devRef .tc main_v6) = tab0 d) (e1 : W (Proc.devRef .tc main_v1) = srcC d) (e3 : W (Proc.devRef .tc main_v3) = dstC d) :
    iprop((bigSep Finset.univ fun c : Fin ((K (F := F)).nCore 0) => (PV srcC dstC tab0 res0 tab1 res1).dn 0 d c) ∗ RestV0 srcC dstC W d)
      ⊢ (StableHlo.held (T d) (Pipeline.ucRefs τ sig) (Function.update W (Proc.devRef .tc main_v7) (res0 d)) : sProp 𝕄) := by
  rw [dnV0_eq]
  unfold RestV0
  iintro ⟨⟨H6s, H1t, H3t, H7s⟩, Hrest, H1d, H3d⟩
  ihave H6 := (Entails.of_eq (v6_parts d (tab0 d)).symm) $$ H6s
  ihave H7 := (Entails.of_eq (v7_parts d (res0 d)).symm) $$ H7s
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have n7 : ∀ {b : DevRef τ sig}, b ≠ Proc.devRef .tc main_v7 → Function.update W (Proc.devRef .tc main_v7) (res0 d) b = W b :=
    fun h => Function.update_of_ne h _ _
  have e1' : Function.update W (Proc.devRef .tc main_v7) (res0 d) (Proc.devRef .tc main_v1) = srcC d := (n7 (by decide)).trans e1
  have e3' : Function.update W (Proc.devRef .tc main_v7) (res0 d) (Proc.devRef .tc main_v3) = dstC d := (n7 (by decide)).trans e3
  have e6' : Function.update W (Proc.devRef .tc main_v7) (res0 d) (Proc.devRef .tc main_v6) = tab0 d := (n7 (by decide)).trans e6
  have e7' : Function.update W (Proc.devRef .tc main_v7) (res0 d) (Proc.devRef .tc main_v7) = res0 d := Function.update_self _ _ _
  have hrest : ∀ b ∈ Pipeline.ucRefs τ sig \ S4, Function.update W (Proc.devRef .tc main_v7) (res0 d) b = W b := fun b hb =>
    n7 (fun e => (Finset.mem_sdiff.mp hb).2 (by rw [e]; decide))
  rw [StableHlo.held_sub_split (T d) S4_sub (Function.update W (Proc.devRef .tc main_v7) (res0 d)), held_S4 d _ e1' e3', e6', e7',
    StableHlo.held_congr (T d) hrest]
  isplitl [H6 H1 H3 H7]
  · isplitl [H6]; · iexact H6
    isplitl [H1]; · iexact H1
    isplitl [H3]; · iexact H3
    iexact H7
  · iexact Hrest

/-! ## The second aggregation: two stretches to a tile -/

/-- What the TensorCore keeps during the second aggregation, at a definite valuation. -/
def RestV1 (srcC : (d : Dev nD) → Buf (Elt F) (tLoc main_v1 d)) (dstC : (d : Dev nD) → Buf (Elt F) (tLoc main_v3 d))
    (W : Valuation τ sig (Elt F)) (d : Dev nD) : sProp 𝕄 :=
  iprop(StableHlo.held (T d) (Pipeline.ucRefs τ sig \ S4') W
    ∗ (tLoc main_v1 d ↦{Transfers.shareDrop fullShare 32} srcC d)
    ∗ (tLoc main_v3 d ↦{Transfers.shareDrop fullShare 32} dstC d))

def tileGo1 (srcC : (d : Dev nD) → Buf (Elt F) (tLoc main_v1 d)) (dstC : (d : Dev nD) → Buf (Elt F) (tLoc main_v3 d))
    (tab1 : (d : Dev nD) → Buf (Elt F) (tLoc main_v13 d)) (d : Dev nD) (w : Fin 32) : sProp 𝕄 :=
  iprop((tLoc main_v13 d ↦[(part1 (pix 0 w)).set]{fullShare} tab1 d) ∗ (tLoc main_v13 d ↦[(part1 (pix 1 w)).set]{fullShare} tab1 d)
    ∗ (tLoc main_v1 d ↦{tok w} srcC d) ∗ (tLoc main_v3 d ↦{tok w} dstC d)
    ∗ (∃ fo, tLoc main_v14 d ↦[(part1 (pix 0 w)).set]{fullShare} fo) ∗ ∃ fo, tLoc main_v14 d ↦[(part1 (pix 1 w)).set]{fullShare} fo)
def tileTd1 (srcC : (d : Dev nD) → Buf (Elt F) (tLoc main_v1 d)) (dstC : (d : Dev nD) → Buf (Elt F) (tLoc main_v3 d))
    (tab1 : (d : Dev nD) → Buf (Elt F) (tLoc main_v13 d)) (res1 : (d : Dev nD) → Buf (Elt F) (tLoc main_v14 d)) (d : Dev nD) (w : Fin 32) : sProp 𝕄 :=
  iprop((tLoc main_v13 d ↦[(part1 (pix 0 w)).set]{fullShare} tab1 d) ∗ (tLoc main_v13 d ↦[(part1 (pix 1 w)).set]{fullShare} tab1 d)
    ∗ (tLoc main_v1 d ↦{tok w} srcC d) ∗ (tLoc main_v3 d ↦{tok w} dstC d)
    ∗ (tLoc main_v14 d ↦[(part1 (pix 0 w)).set]{fullShare} res1 d) ∗ tLoc main_v14 d ↦[(part1 (pix 1 w)).set]{fullShare} res1 d)

theorem stV1_eq (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d)) (d : Dev nD) :
    (bigSep Finset.univ fun c : Fin ((K (F := F)).nCore 1) => (PV srcC dstC tab0 res0 tab1 res1).st 1 d c)
      = iprop((bigSep Finset.univ fun w : Fin 32 => tLoc main_v13 d ↦[(part1 (pix 0 w)).set]{fullShare} tab1 d)
        ∗ (bigSep Finset.univ fun w : Fin 32 => tLoc main_v13 d ↦[(part1 (pix 1 w)).set]{fullShare} tab1 d)
        ∗ (bigSep Finset.univ fun w : Fin 32 => tLoc main_v1 d ↦{tok w} srcC d)
        ∗ (bigSep Finset.univ fun w : Fin 32 => tLoc main_v3 d ↦{tok w} dstC d)
        ∗ (bigSep Finset.univ fun w : Fin 32 => iprop(∃ fo, tLoc main_v14 d ↦[(part1 (pix 0 w)).set]{fullShare} fo))
        ∗ (bigSep Finset.univ fun w : Fin 32 => iprop(∃ fo, tLoc main_v14 d ↦[(part1 (pix 1 w)).set]{fullShare} fo))) := by
  have e : ∀ c : Fin ((K (F := F)).nCore 1), (PV srcC dstC tab0 res0 tab1 res1).st 1 d c
      = bigSep Finset.univ fun i : Fin ((K (F := F)).nSub 1) => tileGo1 srcC dstC tab1 d (wid2 (L1 c i)) :=
    fun c => (show (PV srcC dstC tab0 res0 tab1 res1).st 1 d c
        = bigSep Finset.univ fun i : Fin ((K (F := F)).nSub 1) => goV1 srcC dstC tab1 d (L1 c i) from rfl).trans
      (bigSep_congr fun i _ => by unfold goV1 tileGo1; rw [set1_eq (L1 c i) 0, set1_eq (L1 c i) 1])
  rw [bigSep_congr (fun c _ => e c), ← bigSep_tiles1 (F := F) (tileGo1 srcC dstC tab1 d)]
  unfold tileGo1
  rw [bigSep_sep', bigSep_sep', bigSep_sep', bigSep_sep', bigSep_sep']

theorem dnV1_eq (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d)) (d : Dev nD) :
    (bigSep Finset.univ fun c : Fin ((K (F := F)).nCore 1) => (PV srcC dstC tab0 res0 tab1 res1).dn 1 d c)
      = iprop((bigSep Finset.univ fun w : Fin 32 => tLoc main_v13 d ↦[(part1 (pix 0 w)).set]{fullShare} tab1 d)
        ∗ (bigSep Finset.univ fun w : Fin 32 => tLoc main_v13 d ↦[(part1 (pix 1 w)).set]{fullShare} tab1 d)
        ∗ (bigSep Finset.univ fun w : Fin 32 => tLoc main_v1 d ↦{tok w} srcC d)
        ∗ (bigSep Finset.univ fun w : Fin 32 => tLoc main_v3 d ↦{tok w} dstC d)
        ∗ (bigSep Finset.univ fun w : Fin 32 => tLoc main_v14 d ↦[(part1 (pix 0 w)).set]{fullShare} res1 d)
        ∗ (bigSep Finset.univ fun w : Fin 32 => tLoc main_v14 d ↦[(part1 (pix 1 w)).set]{fullShare} res1 d)) := by
  have e : ∀ c : Fin ((K (F := F)).nCore 1), (PV srcC dstC tab0 res0 tab1 res1).dn 1 d c
      = bigSep Finset.univ fun i : Fin ((K (F := F)).nSub 1) => tileTd1 srcC dstC tab1 res1 d (wid2 (L1 c i)) :=
    fun c => (show (PV srcC dstC tab0 res0 tab1 res1).dn 1 d c
        = bigSep Finset.univ fun i : Fin ((K (F := F)).nSub 1) => tdV1 srcC dstC tab1 res1 d (L1 c i) from rfl).trans
      (bigSep_congr fun i _ => by unfold tdV1 tileTd1; rw [set1_eq (L1 c i) 0, set1_eq (L1 c i) 1])
  rw [bigSep_congr (fun c _ => e c), ← bigSep_tiles1 (F := F) (tileTd1 srcC dstC tab1 res1 d)]
  unfold tileTd1
  rw [bigSep_sep', bigSep_sep', bigSep_sep', bigSep_sep', bigSep_sep']

omit [FloatOps F] in
/-- A whole array of the second call is its tiles' first stretches and their second stretches. -/
theorem v13_halves (d : Dev nD) (f : Buf (Elt F) (tLoc main_v13 d)) :
    (tLoc main_v13 d ↦{fullShare} f : sProp 𝕄) = iprop((bigSep Finset.univ fun w : Fin 32 => tLoc main_v13 d ↦[(part1 (pix 0 w)).set]{fullShare} f)
      ∗ bigSep Finset.univ fun w : Fin 32 => tLoc main_v13 d ↦[(part1 (pix 1 w)).set]{fullShare} f) := by
  rw [v13_parts, bigSep_halves (F := F) (fun p => (tLoc main_v13 d ↦[(part1 p).set]{fullShare} f : sProp 𝕄))]
omit [FloatOps F] in
theorem v14_halves (d : Dev nD) (f : Buf (Elt F) (tLoc main_v14 d)) :
    (tLoc main_v14 d ↦{fullShare} f : sProp 𝕄) = iprop((bigSep Finset.univ fun w : Fin 32 => tLoc main_v14 d ↦[(part1 (pix 0 w)).set]{fullShare} f)
      ∗ bigSep Finset.univ fun w : Fin 32 => tLoc main_v14 d ↦[(part1 (pix 1 w)).set]{fullShare} f) := by
  rw [v14_parts, bigSep_halves (F := F) (fun p => (tLoc main_v14 d ↦[(part1 p).set]{fullShare} f : sProp 𝕄))]

omit [FloatOps F] in
theorem parts_ex14 (d : Dev nD) (f : Buf (Elt F) (tLoc main_v14 d)) (r : Fin 2) :
    (bigSep Finset.univ fun w : Fin 32 => (tLoc main_v14 d ↦[(part1 (pix r w)).set]{fullShare} f : sProp 𝕄))
      ⊢ bigSep Finset.univ fun w : Fin 32 => iprop(∃ g, tLoc main_v14 d ↦[(part1 (pix r w)).set]{fullShare} g) :=
  bigSep_mono fun w _ => v14_part_ex d f (pix r w)

/-- Dealing at the second call, with values. -/
theorem dealV1 (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d))
    (d : Dev nD) (W : Valuation τ sig (Elt F))
    (e13 : W (Proc.devRef .tc main_v13) = tab1 d) (e1 : W (Proc.devRef .tc main_v1) = srcC d) (e3 : W (Proc.devRef .tc main_v3) = dstC d) :
    (StableHlo.held (T d) (Pipeline.ucRefs τ sig) W : sProp 𝕄)
      ⊢ iprop((bigSep Finset.univ fun c : Fin ((K (F := F)).nCore 1) => (PV srcC dstC tab0 res0 tab1 res1).st 1 d c) ∗ RestV1 srcC dstC W d) := by
  rw [stV1_eq]
  unfold RestV1
  iintro Hh
  ihave H2 := (Entails.of_eq (StableHlo.held_sub_split (T d) S4'_sub W)) $$ Hh
  icases H2 with ⟨H4, Hrest⟩
  ihave H4' := (Entails.of_eq (held_S4' d W e1 e3)) $$ H4
  icases H4' with ⟨H13, H1, H3, H14⟩
  ihave H13' := (Entails.of_eq ((congrArg (fun f => (tLoc main_v13 d ↦{fullShare} f : sProp 𝕄)) e13).trans (v13_halves d (tab1 d)))) $$ H13
  icases H13' with ⟨H13a, H13b⟩
  ihave H14' := (Entails.of_eq (v14_halves d _)) $$ H14
  icases H14' with ⟨H14a, H14b⟩
  ihave H14a' := (parts_ex14 d _ 0) $$ H14a
  ihave H14b' := (parts_ex14 d _ 1) $$ H14b
  ihave H1' := (Transfers.pointsTo_toks_split fullShare 32) $$ H1
  icases H1' with ⟨H1d, H1t⟩
  ihave H3' := (Transfers.pointsTo_toks_split fullShare 32) $$ H3
  icases H3' with ⟨H3d, H3t⟩
  isplitl [H13a H13b H1t H3t H14a' H14b']
  · isplitl [H13a]; · iexact H13a
    isplitl [H13b]; · iexact H13b
    isplitl [H1t]; · iexact H1t
    isplitl [H3t]; · iexact H3t
    isplitl [H14a']; · iexact H14a'
    iexact H14b'
  · isplitl [Hrest]; · iexact Hrest
    isplitl [H1d]; · iexact H1d
    iexact H3d

/-- Collecting at the second call, with values. -/
theorem collV1 (srcC : (d : Dev nD) → Buf (Elt F) (tLoc main_v1 d)) (dstC : (d : Dev nD) → Buf (Elt F) (tLoc main_v3 d))
    (tab0 : (d : Dev nD) → Buf (Elt F) (tLoc main_v6 d)) (res0 : (d : Dev nD) → Buf (Elt F) (tLoc main_v7 d))
    (tab1 : (d : Dev nD) → Buf (Elt F) (tLoc main_v13 d)) (res1 : (d : Dev nD) → Buf (Elt F) (tLoc main_v14 d))
    (d : Dev nD) (W : Valuation τ sig (Elt F))
    (e13 : W (Proc.devRef .tc main_v13) = tab1 d) (e1 : W (Proc.devRef .tc main_v1) = srcC d) (e3 : W (Proc.devRef .tc main_v3) = dstC d) :
    iprop((bigSep Finset.univ fun c : Fin ((K (F := F)).nCore 1) => (PV srcC dstC tab0 res0 tab1 res1).dn 1 d c) ∗ RestV1 srcC dstC W d)
      ⊢ (StableHlo.held (T d) (Pipeline.ucRefs τ sig) (Function.update W (Proc.devRef .tc main_v14) (res1 d)) : sProp 𝕄) := by
  rw [dnV1_eq]
  unfold RestV1
  iintro ⟨⟨H13a, H13b, H1t, H3t, H14a, H14b⟩, Hrest, H1d, H3d⟩
  ihave H13 := (Entails.of_eq (v13_halves d (tab1 d)).symm) $$ [H13a H13b]
  · isplitl [H13a] <;> iassumption
  ihave H14 := (Entails.of_eq (v14_halves d (res1 d)).symm) $$ [H14a H14b]
  · isplitl [H14a] <;> iassumption
  ihave H1 := (Transfers.pointsTo_toks_join fullShare 32) $$ [H1d H1t]
  · isplitl [H1d]; · iexact H1d
    iexact H1t
  ihave H3 := (Transfers.pointsTo_toks_join fullShare 32) $$ [H3d H3t]
  · isplitl [H3d]; · iexact H3d
    iexact H3t
  have n14 : ∀ {b : DevRef τ sig}, b ≠ Proc.devRef .tc main_v14 → Function.update W (Proc.devRef .tc main_v14) (res1 d) b = W b :=
    fun h => Function.update_of_ne h _ _
  have e1' : Function.update W (Proc.devRef .tc main_v14) (res1 d) (Proc.devRef .tc main_v1) = srcC d := (n14 (by decide)).trans e1
  have e3' : Function.update W (Proc.devRef .tc main_v14) (res1 d) (Proc.devRef .tc main_v3) = dstC d := (n14 (by decide)).trans e3
  have e13' : Function.update W (Proc.devRef .tc main_v14) (res1 d) (Proc.devRef .tc main_v13) = tab1 d := (n14 (by decide)).trans e13
  have e14' : Function.update W (Proc.devRef .tc main_v14) (res1 d) (Proc.devRef .tc main_v14) = res1 d := Function.update_self _ _ _
  have hrest : ∀ b ∈ Pipeline.ucRefs τ sig \ S4', Function.update W (Proc.devRef .tc main_v14) (res1 d) b = W b := fun b hb =>
    n14 (fun e => (Finset.mem_sdiff.mp hb).2 (by rw [e]; decide))
  rw [StableHlo.held_sub_split (T d) S4'_sub (Function.update W (Proc.devRef .tc main_v14) (res1 d)), held_S4' d _ e1' e3', e13', e14',
    StableHlo.held_congr (T d) hrest]
  isplitl [H13 H1 H3 H14]
  · isplitl [H13]; · iexact H13
    isplitl [H1]; · iexact H1
    isplitl [H3]; · iexact H3
    iexact H14
  · iexact Hrest

end Cert.Proof.KernelIdealL

end
-- ==== Proof.KIFold.lean ====
/-
  The TensorCore's buffer contents through @main, at the ideal instance, as a fold from the launch memory: a host stretch
  applies its operations; an aggregation call rewrites its result array to the aggregation of its table (entry (row r,
  column n) of the result is the sum, over the edges e whose destination is n, of the table's entry (row r, column source
  of e) — rows of 10240 words); a TensorCore region rewrites its output arrays (the regions' exits are parameters here).
-/
import proofs.«211848_g47218870452992_cont_8to1c4_747_2_alg».proof.Proof.KIInv
import proofs.«211848_g47218870452992_cont_8to1c4_747_2_alg».proof.Proof.KerSpec

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem Idealize.ShloMosaic.StableHlo
open scoped BigOperators

/-- The aggregation of a flat table of rows of 10240 words along the edge list. -/
def aggArr {N : ℕ} (T : (⟨1, ![N]⟩ : Shape).Idx → EReal) (fs fd : (⟨1, ![320000]⟩ : Shape).Idx → BitVec 32) :
    (⟨1, ![N]⟩ : Shape).Idx → EReal :=
  fun i => ∑ e ∈ Finset.univ.filter (fun e : Fin 320000 => (fd (ix1 e)).toNat = (i 0).val % 10240),
    T (ix1 ⟨(((i 0).val / 10240) * 10240 + (fs (ix1 e)).toNat) % N, Nat.mod_lt _ (Fin.pos (i 0))⟩)

variable (m : (ℓ : Loc nD τ sig) → Buf (Elt Ideal) ℓ)
  (R0 R1 : Dev nD → Valuation τ sig (Elt Ideal) → Valuation τ sig (Elt Ideal))

/-- After the first stretch. -/
def V1 (d : Dev nD) : Valuation τ sig (Elt Ideal) := W1 m d
/-- The first aggregation's result. -/
def res0 (d : Dev nD) : Buf (Elt Ideal) (tLoc main_v7 d) :=
  aggArr (V1 m d (Proc.devRef .tc main_v6)) (V1 m d (Proc.devRef .tc main_v1)) (V1 m d (Proc.devRef .tc main_v3))
/-- After the first aggregation. -/
def V2 (d : Dev nD) : Valuation τ sig (Elt Ideal) := Function.update (V1 m d) (Proc.devRef .tc main_v7) (res0 m d)
/-- After the second stretch. -/
def V3 (d : Dev nD) : Valuation τ sig (Elt Ideal) := StableHlo.after ops2 (V2 m d)
/-- After the first layer's region. -/
def V4 (d : Dev nD) : Valuation τ sig (Elt Ideal) := R0 d (V3 m d)
/-- After the third stretch. -/
def V5 (d : Dev nD) : Valuation τ sig (Elt Ideal) := StableHlo.after ops3 (V4 m R0 d)
/-- The second aggregation's result. -/
def res1 (d : Dev nD) : Buf (Elt Ideal) (tLoc main_v14 d) :=
  aggArr (V5 m R0 d (Proc.devRef .tc main_v13)) (V5 m R0 d (Proc.devRef .tc main_v1)) (V5 m R0 d (Proc.devRef .tc main_v3))
/-- After the second aggregation. -/
def V6 (d : Dev nD) : Valuation τ sig (Elt Ideal) := Function.update (V5 m R0 d) (Proc.devRef .tc main_v14) (res1 m R0 d)
/-- After the fourth stretch. -/
def V7 (d : Dev nD) : Valuation τ sig (Elt Ideal) := StableHlo.after ops4 (V6 m R0 d)
/-- After the head's region. -/
def V8 (d : Dev nD) : Valuation τ sig (Elt Ideal) := R1 d (V7 m R0 d)
/-- At the return. -/
def V9 (d : Dev nD) : Valuation τ sig (Elt Ideal) := StableHlo.after ops5 (V8 m R0 R1 d)

end Cert.Proof.KernelIdealL

end
-- ==== Proof.KIHmainV.lean ====
/-
  @main on the TensorCore with values: the same nine steps, now over the fold of the device's buffer contents — each host
  stretch lands on its operations' result, each aggregation on its result array rewritten to the table's aggregation
  (dealt out and collected with values), each TensorCore layer on its region's exit (the regions' value steps are taken as
  stated; their exits are parameters that rewrite only their output arrays). At the end every unscoped buffer is held at
  the last valuation of the fold, from which the result buffer is read.
-/
import proofs.«211848_g47218870452992_cont_8to1c4_747_2_alg».proof.Proof.KIDealV
import proofs.«211848_g47218870452992_cont_8to1c4_747_2_alg».proof.Proof.KIFold
import proofs.«211848_g47218870452992_cont_8to1c4_747_2_alg».proof.Proof.KIHmain

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-- A reference the two regions and the later stretches leave alone keeps, up to the second aggregation, what it held
    after the first stretch. -/
theorem V5_keep (m : (ℓ : Loc nD τ sig) → Buf (Elt Ideal) ℓ)
    (R0 : Dev nD → Valuation τ sig (Elt Ideal) → Valuation τ sig (Elt Ideal))
    (hR0 : ∀ d W (r : Ref sig .tc), r ≠ main_v12 → R0 d W (Proc.devRef .tc r) = W (Proc.devRef .tc r))
    (d : Dev nD) (r : Ref sig .tc) (h7 : r ≠ main_v7) (h12 : r ≠ main_v12) (h2 : r ∉ ops2_W) (h3 : r ∉ ops3_W) :
    V5 m R0 d (Proc.devRef .tc r) = V1 m d (Proc.devRef .tc r) := by
  unfold V5 V4 V3 V2
  rw [StableHlo.after_of_writes_sub ops3 _ ops3_writes h3, hR0 d _ r h12, StableHlo.after_of_writes_sub ops2 _ ops2_writes h2,
    Function.update_of_ne (StableHlo.devRef_ne_of_ne h7)]

/-- Holding the buffers at a valuation is holding them at an equal one. -/
theorem held_eq (d : Dev nD) {V V' : Valuation τ sig (Elt Ideal)} (h : V = V') :
    (StableHlo.held (SparseCore.T d) (Pipeline.ucRefs τ sig) V : sProp 𝕄) ⊢ StableHlo.held (SparseCore.T d) (Pipeline.ucRefs τ sig) V' := by
  subst h; exact .rfl

/-- What @main leaves: every unscoped buffer at the last valuation of the fold. -/
def FINV (m : (ℓ : Loc nD τ sig) → Buf (Elt Ideal) ℓ) (R0 R1 : Dev nD → Valuation τ sig (Elt Ideal) → Valuation τ sig (Elt Ideal)) (d : Dev nD) : sProp 𝕄 :=
  StableHlo.held (T d) (Pipeline.ucRefs τ sig) (V9 m R0 R1 d)

theorem hmainV (m : (ℓ : Loc nD τ sig) → Buf (Elt Ideal) ℓ) (ρ : Dev nD → PrngReg)
    (R0 R1 : Dev nD → Valuation τ sig (Elt Ideal) → Valuation τ sig (Elt Ideal))
    (hR0 : ∀ d W (r : Ref sig .tc), r ≠ main_v12 → R0 d W (Proc.devRef .tc r) = W (Proc.devRef .tc r))
    (hreg0 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 1 ∗ boundary (SparseCore.T d)
          ∗ StableHlo.held (SparseCore.T d) (Pipeline.ucRefs τ sig) Wc ∗ Aux (F := Ideal) d ∗ ghost (F := Ideal) 0 d
          ∗ (((K (F := Ideal)).tcSt EH d 1 ∗ boundary (SparseCore.T d) ∗ StableHlo.held (SparseCore.T d) (Pipeline.ucRefs τ sig) (R0 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 0)) ())) Φ)
    (hreg1 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 2 ∗ boundary (SparseCore.T d)
          ∗ StableHlo.held (SparseCore.T d) (Pipeline.ucRefs τ sig) Wc ∗ Aux (F := Ideal) d ∗ ghost (F := Ideal) 1 d
          ∗ (((K (F := Ideal)).tcSt EH d 2 ∗ boundary (SparseCore.T d) ∗ StableHlo.held (SparseCore.T d) (Pipeline.ucRefs τ sig) (R1 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 1)) ())) Φ)
    (κ : GSem nD τ sig → ℕ) (d : Dev nD) :
    iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 0 ∗ (K (F := Ideal)).tcRes m ρ d ∗ G (F := Ideal) d)
      ⊢ wp frame (wpE ((K (F := Ideal)).defs (D (F := Ideal))) 𝒱 (SparseCore.T d) none) Set.univ (main d)
          fun _ => iprop((K (F := Ideal)).tcSt EH d 2 ∗ FINV m R0 R1 d) := by
  unfold SparseCore.Cfg.tcRes
  rewrite [main_eq]
  iintro ⟨#Hctx, Hst, ⟨Hb, Hh, Hsems, Hprng⟩, HG⟩
  ihave Hh := (Entails.of_eq (launch_held (F := Ideal) m d)) $$ Hh
  ihave HG' := (G_split (F := Ideal) d) $$ HG
  icases HG' with ⟨Hg0, Hg1⟩
  have sub : ∀ (ops : List (HloOp τ sig (Elt Ideal))), (ops.Forall fun op => op.bufs ⊆ StableHlo.tcRefs τ sig) →
      ∀ op ∈ ops, op.bufs ⊆ Pipeline.ucRefs τ sig := fun ops h op hm => Pipeline.sub_ucRefs op ((List.forall_iff_forall_mem.mp h) op hm)
  have fr : ∀ (ops : List (HloOp τ sig (Elt Ideal))), (ops.Forall fun op => op.fresh = ∅) → ∀ op ∈ ops, op.fresh = ∅ :=
    fun ops h op hm => (List.forall_iff_forall_mem.mp h) op hm
  -- stretch 1
  iapply (StableHlo.wp_seq (defs := (K (F := Ideal)).defs (D (F := Ideal))) 𝒱 none Set.univ d (Pipeline.ucRefs τ sig) _ ops1
    (sub ops1 ops1_sub) (fr ops1 ops1_fresh) (StableHlo.launchContents m d)) $$ [Hb Hh]
  · isplitl [Hb]; · iexact Hb
    iexact Hh
  iintro ⟨Hb, Hh⟩
  ihave Hh := (held_eq d (show (StableHlo.after ops1 (StableHlo.launchContents m d) : Valuation τ sig (Elt Ideal)) = V1 m d from rfl)) $$ Hh
  -- the first aggregation
  rw [wp_bind]
  ihave Hd := (dealV0 (srcC m) (dstC m) (fun d => V1 m d (Proc.devRef .tc main_v6)) (res0 m) (fun d => V5 m R0 d (Proc.devRef .tc main_v13)) (res1 m R0)
    d (V1 m d) rfl rfl rfl) $$ Hh
  icases Hd with ⟨Hops, Hrest⟩
  iapply ((K (F := Ideal)).wp_run (D (F := Ideal)) 𝒱 (EH := EH) (P := (PV (srcC m) (dstC m) (fun d => V1 m d (Proc.devRef .tc main_v6)) (res0 m) (fun d => V5 m R0 d (Proc.devRef .tc main_v13)) (res1 m R0))) κ d 0) $$ [Hst Hops Hb Hrest Hsems Hprng Hg0 Hg1]
  isplitr; · iexact Hctx
  isplitl [Hst]; · iexact Hst
  isplitl [Hops]; · iexact Hops
  iintro ⟨Hst, Hdn⟩
  ihave Hh := (collV0 (srcC m) (dstC m) (fun d => V1 m d (Proc.devRef .tc main_v6)) (res0 m) (fun d => V5 m R0 d (Proc.devRef .tc main_v13)) (res1 m R0)
    d (V1 m d) rfl rfl rfl) $$ [Hdn Hrest]
  · isplitl [Hdn] <;> iassumption
  ihave Hh := (held_eq d (show (Function.update (V1 m d) (Proc.devRef .tc main_v7) (res0 m d) : Valuation τ sig (Elt Ideal)) = V2 m d from rfl)) $$ Hh
  -- stretch 2
  iapply (StableHlo.wp_seq (defs := (K (F := Ideal)).defs (D (F := Ideal))) 𝒱 none Set.univ d (Pipeline.ucRefs τ sig) _ ops2
    (sub ops2 ops2_sub) (fr ops2 ops2_fresh) (V2 m d)) $$ [Hb Hh]
  · isplitl [Hb]; · iexact Hb
    iexact Hh
  iintro ⟨Hb, Hh⟩
  ihave Hh := (held_eq d (show (StableHlo.after ops2 (V2 m d) : Valuation τ sig (Elt Ideal)) = V3 m d from rfl)) $$ Hh
  -- the first layer
  rw [wp_bind]
  iapply (hreg0 κ d (V3 m d)) $$ [Hst Hb Hh Hsems Hprng Hg0 Hg1]
  isplitr; · iexact Hctx
  isplitl [Hst]; · iexact Hst
  isplitl [Hb]; · iexact Hb
  isplitl [Hh]; · iexact Hh
  isplitl [Hsems Hprng]
  · unfold Aux; isplitl [Hsems]; · iexact Hsems
    iexists _; iexact Hprng
  isplitl [Hg0]; · iexact Hg0
  iintro ⟨Hst, Hb, Hh, Haux⟩
  ihave Hh := (held_eq d (show (R0 d (V3 m d) : Valuation τ sig (Elt Ideal)) = V4 m R0 d from rfl)) $$ Hh
  -- stretch 3
  iapply (StableHlo.wp_seq (defs := (K (F := Ideal)).defs (D (F := Ideal))) 𝒱 none Set.univ d (Pipeline.ucRefs τ sig) _ ops3
    (sub ops3 ops3_sub) (fr ops3 ops3_fresh) (V4 m R0 d)) $$ [Hb Hh]
  · isplitl [Hb]; · iexact Hb
    iexact Hh
  iintro ⟨Hb, Hh⟩
  ihave Hh := (held_eq d (show (StableHlo.after ops3 (V4 m R0 d) : Valuation τ sig (Elt Ideal)) = V5 m R0 d from rfl)) $$ Hh
  -- the second aggregation
  rw [wp_bind]
  have k1 : V5 m R0 d (Proc.devRef .tc main_v1) = srcC m d := V5_keep m R0 hR0 d main_v1 (by decide) (by decide) (by decide) (by decide)
  have k3 : V5 m R0 d (Proc.devRef .tc main_v3) = dstC m d := V5_keep m R0 hR0 d main_v3 (by decide) (by decide) (by decide) (by decide)
  ihave Hd := (dealV1 (srcC m) (dstC m) (fun d => V1 m d (Proc.devRef .tc main_v6)) (res0 m) (fun d => V5 m R0 d (Proc.devRef .tc main_v13)) (res1 m R0)
    d (V5 m R0 d) rfl k1 k3) $$ Hh
  icases Hd with ⟨Hops, Hrest⟩
  iapply ((K (F := Ideal)).wp_run (D (F := Ideal)) 𝒱 (EH := EH) (P := (PV (srcC m) (dstC m) (fun d => V1 m d (Proc.devRef .tc main_v6)) (res0 m) (fun d => V5 m R0 d (Proc.devRef .tc main_v13)) (res1 m R0))) κ d 1) $$ [Hst Hops Hb Hrest Haux Hg1]
  isplitr; · iexact Hctx
  isplitl [Hst]; · iexact Hst
  isplitl [Hops]; · iexact Hops
  iintro ⟨Hst, Hdn⟩
  ihave Hh := (collV1 (srcC m) (dstC m) (fun d => V1 m d (Proc.devRef .tc main_v6)) (res0 m) (fun d => V5 m R0 d (Proc.devRef .tc main_v13)) (res1 m R0)
    d (V5 m R0 d) rfl k1 k3) $$ [Hdn Hrest]
  · isplitl [Hdn] <;> iassumption
  ihave Hh := (held_eq d (show (Function.update (V5 m R0 d) (Proc.devRef .tc main_v14) (res1 m R0 d) : Valuation τ sig (Elt Ideal)) = V6 m R0 d from rfl)) $$ Hh
  -- stretch 4
  iapply (StableHlo.wp_seq (defs := (K (F := Ideal)).defs (D (F := Ideal))) 𝒱 none Set.univ d (Pipeline.ucRefs τ sig) _ ops4
    (sub ops4 ops4_sub) (fr ops4 ops4_fresh) (V6 m R0 d)) $$ [Hb Hh]
  · isplitl [Hb]; · iexact Hb
    iexact Hh
  iintro ⟨Hb, Hh⟩
  ihave Hh := (held_eq d (show (StableHlo.after ops4 (V6 m R0 d) : Valuation τ sig (Elt Ideal)) = V7 m R0 d from rfl)) $$ Hh
  -- the head
  rw [wp_bind]
  iapply (hreg1 κ d (V7 m R0 d)) $$ [Hst Hb Hh Haux Hg1]
  isplitr; · iexact Hctx
  isplitl [Hst]; · iexact Hst
  isplitl [Hb]; · iexact Hb
  isplitl [Hh]; · iexact Hh
  isplitl [Haux]; · iexact Haux
  isplitl [Hg1]; · iexact Hg1
  iintro ⟨Hst, Hb, Hh, Haux⟩
  ihave Hh := (held_eq d (show (R1 d (V7 m R0 d) : Valuation τ sig (Elt Ideal)) = V8 m R0 R1 d from rfl)) $$ Hh
  -- stretch 5, and the return
  rw [show (StableHlo.seq ops5 : Prog (TpuEff nD τ sig (Elt Ideal) _ .tc) PUnit) = StableHlo.seq ops5 >>= pure from (bind_pure _).symm]
  iapply (StableHlo.wp_seq (defs := (K (F := Ideal)).defs (D (F := Ideal))) 𝒱 none Set.univ d (Pipeline.ucRefs τ sig) _ ops5
    (sub ops5 ops5_sub) (fr ops5 ops5_fresh) (V8 m R0 R1 d)) $$ [Hb Hh]
  · isplitl [Hb]; · iexact Hb
    iexact Hh
  iintro ⟨Hb, Hh⟩
  rw [wp_pure]; imodintro
  isplitl [Hst]; · iexact Hst
  ihave Hh := (held_eq d (show (StableHlo.after ops5 (V8 m R0 R1 d) : Valuation τ sig (Elt Ideal)) = V9 m R0 R1 d from rfl)) $$ Hh
  unfold FINV; iexact Hh

end Cert.Proof.KernelIdealL

end
-- ==== Proof.KIRunV.lean ====
/-
  The kernel's run with values: the launch theorem at the value-carrying handshakes, from each aggregation's task proved
  with values as one tile's obligation and @main with values on the TensorCore: every weakly fair execution of the device's
  threads terminates with the result buffer at what the fold of the buffer contents through @main leaves there.
-/
import proofs.«211848_g47218870452992_cont_8to1c4_747_2_alg».proof.Proof.KIHmainV

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

theorem hfinV (m : (ℓ : Loc nD τ sig) → Buf (Elt Ideal) ℓ) (R0 R1 : Dev nD → Valuation τ sig (Elt Ideal) → Valuation τ sig (Elt Ideal))
    (d : Dev nD) (s' : Phys nD τ sig (Elt Ideal)) :
    iprop(FINV m R0 R1 d ∗ SI s') ⊢ (⌜s'.mem.mem ((d, Proc.devRef .tc main_v21) : Loc nD τ sig) = V9 m R0 R1 d (Proc.devRef .tc main_v21)⌝ : sProp 𝕄) := by
  unfold FINV StableHlo.held
  iintro H
  ihave H' := (pointsTo_read_all (Pipeline.ucRefs τ sig) (fun b => ((d, b) : Loc nD τ sig)) (fun b => V9 m R0 R1 d b) s') $$ H
  icases H' with ⟨%h, -⟩
  ipureintro; exact h _ (by decide)

/-- The kernel's run with values, from the tiles' tasks with values and the regions' value steps. -/
theorem run_value [∀ e, Nonempty (Elt Ideal e)]
    (m : (ℓ : Loc nD τ sig) → Buf (Elt Ideal) ℓ) (ρ : Dev nD → PrngReg)
    (R0 R1 : Dev nD → Valuation τ sig (Elt Ideal) → Valuation τ sig (Elt Ideal))
    (hR0 : ∀ d W (r : Ref sig .tc), r ≠ main_v12 → R0 d W (Proc.devRef .tc r) = W (Proc.devRef .tc r))
    (hreg0 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 1 ∗ boundary (SparseCore.T d)
          ∗ StableHlo.held (SparseCore.T d) (Pipeline.ucRefs τ sig) Wc ∗ Aux (F := Ideal) d ∗ ghost (F := Ideal) 0 d
          ∗ (((K (F := Ideal)).tcSt EH d 1 ∗ boundary (SparseCore.T d) ∗ StableHlo.held (SparseCore.T d) (Pipeline.ucRefs τ sig) (R0 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 0)) ())) Φ)
    (hreg1 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 2 ∗ boundary (SparseCore.T d)
          ∗ StableHlo.held (SparseCore.T d) (Pipeline.ucRefs τ sig) Wc ∗ Aux (F := Ideal) d ∗ ghost (F := Ideal) 1 d
          ∗ (((K (F := Ideal)).tcSt EH d 2 ∗ boundary (SparseCore.T d) ∗ StableHlo.held (SparseCore.T d) (Pipeline.ucRefs τ sig) (R1 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 1)) ())) Φ)
    (htile0 : (K (F := Ideal)).TileObl (D (F := Ideal)) 𝒱 (PV (srcC m) (dstC m) (fun d => V1 m d (Proc.devRef .tc main_v6)) (res0 m) (fun d => V5 m R0 d (Proc.devRef .tc main_v13)) (res1 m R0)) v₀ 0)
    (htile1 : (K (F := Ideal)).TileObl (D (F := Ideal)) 𝒱 (PV (srcC m) (dstC m) (fun d => V1 m d (Proc.devRef .tc main_v6)) (res0 m) (fun d => V5 m R0 d (Proc.devRef .tc main_v13)) (res1 m R0)) v₀ 1) :
    θ_run (Cert.KernelIdeal.defs (F := Ideal)) (Cert.KernelIdeal.threads (F := Ideal)) ⟨m, fun _ => 0, ρ⟩
      (fun r => ∀ c : Dev nD, r.2.mem ((c.tc : Thread nD τ).loc main_v21) = V9 m R0 R1 c (Proc.devRef .tc main_v21)) :=
  run_ofP m ρ (PV (srcC m) (dstC m) (fun d => V1 m d (Proc.devRef .tc main_v6)) (res0 m) (fun d => V5 m R0 d (Proc.devRef .tc main_v13)) (res1 m R0)) (fun _ _ => rfl) rfl
    (vecSplitV (srcC m) (dstC m) (fun d => V1 m d (Proc.devRef .tc main_v6)) (res0 m) (fun d => V5 m R0 d (Proc.devRef .tc main_v13)) (res1 m R0))
    htile0 htile1 (FINV m R0 R1)
    (fun d s' => s'.mem.mem ((d, Proc.devRef .tc main_v21) : Loc nD τ sig) = V9 m R0 R1 d (Proc.devRef .tc main_v21))
    (hfinV m R0 R1) _ (fun s' h c => h c)
    (hmainV m ρ R0 R1 hR0 hreg0 hreg1)

end Cert.Proof.KernelIdealL

end
-- ==== Proof.KITile0V.lean ====
/-
  One tile's task of the first aggregation call, with the value of its result.

  The run is the frame's, with the accumulator's contents carried through the three loops' invariants instead of forgotten.
  Each contents is spelt as the stores leave it: the zero-fill's first n trips leave n sixteen-word pieces over what the
  accumulator held; one row of one group is a write of the whole accumulator with the indexed add-store of the table
  scratch's sixteen words at the source indices onto the accumulator's words at the destination indices, lane by lane
  in ascending order; a group is its four rows in turn, a chunk its groups in turn from what the chunks before it left,
  the task its chunks in turn from what the zero-fill left. The sixteen words of a group are read off the index scratches
  as the chunk's copies landed them, and those are the edge lists' words through the chunk's slice. The folds over the
  trips are functions by recursion on the trip count, each with its two equations, and are read only through those: the
  counts are numerals.

  At the end the result stretch holds the accumulator's words, copied out whole: its read is the fold from the table's
  four rows, the two edge lists and whatever the accumulator held before the zero-fill. The frame's statement is this one
  with the value forgotten.
-/
import proofs.«211848_g47218870452992_cont_8to1c4_747_2_alg».proof.Proof.KITile1

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The task's values, spelt as its stores leave them -/

/-- The accumulator and the table scratch as the indexed operations address them: through their whole rectangles. -/
abbrev accV : View sig .scVector .vmem S40960 .f32 := t0sc1.access (Rect.whole S40960)
abbrev tabV : View sig .scVector .vmem S40960 .f32 := t0sc0.access (Rect.whole S40960)

/-- What the zero-fill leaves in the accumulator after its first `n` trips, from contents `f`: one sixteen-word piece per trip. -/
def zfill (d : Dev nD) (L : grid0.Coords) : Nat → Buf (Elt F) (t0sc1.view.loc (V d (cV0 L) (jV0 L))) → Buf (Elt F) (t0sc1.view.loc (V d (cV0 L) (jV0 L)))
  | 0, f => f
  | n + 1, f =>
    if h : n < k0_t1_loop.trips then
      t0sc1.view.writes (Elt F) (zfill d L n f) [⟨Rect.unit (s := S40960) (k0_off2 ⟨n, h⟩) S16.size (k0_off2_inb ⟨n, h⟩), k0_pay1 (F := F)⟩]
    else zfill d L n f

theorem zfill_succ (d : Dev nD) (L : grid0.Coords) (k : Fin k0_t1_loop.trips) (f : Buf (Elt F) (t0sc1.view.loc (V d (cV0 L) (jV0 L)))) :
    zfill (F := F) d L (k.val + 1) f
      = t0sc1.view.writes (Elt F) (zfill d L k.val f) [⟨Rect.unit (s := S40960) (k0_off2 k) S16.size (k0_off2_inb k), k0_pay1 (F := F)⟩] := by
  rw [zfill, dif_pos k.isLt]

theorem zfill_zero (d : Dev nD) (L : grid0.Coords) (f : Buf (Elt F) (t0sc1.view.loc (V d (cV0 L) (jV0 L)))) : zfill (F := F) d L 0 f = f := rfl

/-- One row of one group: the table scratch's words at the sixteen source indices added onto the accumulator's at the sixteen
    destination indices, lane by lane. -/
def rowStep (d : Dev nD) (L : grid0.Coords) (T : Buf (Elt F) (t0sc0.view.loc (V d (cV0 L) (jV0 L)))) (a : Buf (Elt F) (t0sc1.view.loc (V d (cV0 L) (jV0 L))))
    (sI dI : IVec S16 32) (hsI : ∀ a x, ((![sI] : Fin 1 → IVec S16 32) a x).toNat < S40960.size a)
    (hdI : ∀ a x, ((![dI] : Fin 1 → IVec S16 32) a x).toNat < S40960.size a) : Buf (Elt F) (t0sc1.view.loc (V d (cV0 L) (jV0 L))) :=
  accV.write (Elt F) a (storeIdx (accV.read (Elt F) a) ![dI] (loadIdx (tabV.read (Elt F) T) ![sI] hsI) (fun _ => 1#1) true hdI) Finset.univ

/-- One group of sixteen edges: its four rows in turn. -/
def grpStep (d : Dev nD) (L : grid0.Coords) (T : Buf (Elt F) (t0sc0.view.loc (V d (cV0 L) (jV0 L)))) (s16 d16 : Vec F S16 .i32)
    (hs : ∀ x, (s16 x).toNat < 10000) (hd : ∀ x, (d16 x).toNat < 10000) (a : Buf (Elt F) (t0sc1.view.loc (V d (cV0 L) (jV0 L)))) :
    Buf (Elt F) (t0sc1.view.loc (V d (cV0 L) (jV0 L))) :=
  rowStep d L T (rowStep d L T (rowStep d L T (rowStep d L T a
    (k0_pay2 (F := F) s16) (k0_pay3 (F := F) d16) (t0chk1_of s16 hs) (t0chk2_of d16 hd))
    (k0_pay4 (F := F) s16) (k0_pay5 (F := F) d16) (t0chk3_of s16 hs) (t0chk4_of d16 hd))
    (k0_pay6 (F := F) s16) (k0_pay7 (F := F) d16) (t0chk5_of s16 hs) (t0chk6_of d16 hd))
    (k0_pay8 (F := F) s16) (k0_pay9 (F := F) d16) (t0chk7_of s16 hs) (t0chk8_of d16 hd)

/-- A chunk's sixteen words of group `j`, read off an index scratch holding the chunk's words `g`. -/
def grpOf (d : Dev nD) (L : grid0.Coords) (g : Buf (Elt F) (t0sc2.view.loc (V d (cV0 L) (jV0 L)))) (j : Fin k0_t3_loop.trips) : Vec F S16 .i32 :=
  t0sc2.view.readAt (Elt F) (Rect.unit (s := S2000) (k0_off4 j) S16.size (k0_off4_inb j)).toLoadRect g

/-- The same off the destinations' scratch. -/
def grpOfD (d : Dev nD) (L : grid0.Coords) (g : Buf (Elt F) (t0sc3.view.loc (V d (cV0 L) (jV0 L)))) (j : Fin k0_t3_loop.trips) : Vec F S16 .i32 :=
  t0sc3.view.readAt (Elt F) (Rect.unit (s := S2000) (k0_off4 j) S16.size (k0_off4_inb j)).toLoadRect g

/-- The accumulator after a chunk's first `n` groups, from contents `a`. -/
def accG (d : Dev nD) (L : grid0.Coords) (T : Buf (Elt F) (t0sc0.view.loc (V d (cV0 L) (jV0 L)))) (sC : Buf (Elt F) (t0sc2.view.loc (V d (cV0 L) (jV0 L)))) (dC : Buf (Elt F) (t0sc3.view.loc (V d (cV0 L) (jV0 L))))
    (hs : ∀ j, (sC j).toNat < 10000) (hd : ∀ j, (dC j).toNat < 10000) : Nat → Buf (Elt F) (t0sc1.view.loc (V d (cV0 L) (jV0 L))) → Buf (Elt F) (t0sc1.view.loc (V d (cV0 L) (jV0 L)))
  | 0, a => a
  | n + 1, a =>
    if h : n < k0_t3_loop.trips then
      grpStep d L T (grpOf d L sC ⟨n, h⟩) (grpOfD d L dC ⟨n, h⟩) (fun _ => hs _) (fun _ => hd _) (accG d L T sC dC hs hd n a)
    else accG d L T sC dC hs hd n a

theorem accG_succ (d : Dev nD) (L : grid0.Coords) (T : Buf (Elt F) (t0sc0.view.loc (V d (cV0 L) (jV0 L)))) (sC : Buf (Elt F) (t0sc2.view.loc (V d (cV0 L) (jV0 L)))) (dC : Buf (Elt F) (t0sc3.view.loc (V d (cV0 L) (jV0 L))))
    (hs : ∀ j, (sC j).toNat < 10000) (hd : ∀ j, (dC j).toNat < 10000) (j : Fin k0_t3_loop.trips) (a : Buf (Elt F) (t0sc1.view.loc (V d (cV0 L) (jV0 L)))) :
    accG (F := F) d L T sC dC hs hd (j.val + 1) a
      = grpStep d L T (grpOf d L sC j) (grpOfD d L dC j) (fun _ => hs _) (fun _ => hd _) (accG d L T sC dC hs hd j.val a) := by
  rw [accG, dif_pos j.isLt]

theorem accG_zero (d : Dev nD) (L : grid0.Coords) (T : Buf (Elt F) (t0sc0.view.loc (V d (cV0 L) (jV0 L)))) (sC : Buf (Elt F) (t0sc2.view.loc (V d (cV0 L) (jV0 L)))) (dC : Buf (Elt F) (t0sc3.view.loc (V d (cV0 L) (jV0 L))))
    (hs : ∀ j, (sC j).toNat < 10000) (hd : ∀ j, (dC j).toNat < 10000) (a : Buf (Elt F) (t0sc1.view.loc (V d (cV0 L) (jV0 L)))) :
    accG (F := F) d L T sC dC hs hd 0 a = a := rfl

/-- Chunk `k`'s words of an edge list, as the chunk's copy lands them in an index scratch. -/
def chunkOf (d : Dev nD) (L : grid0.Coords) (fe : Buf (Elt F) (srcW.view.loc (V d (cV0 L) (jV0 L)))) (k : Fin k0_t2_loop.trips) : Buf (Elt F) (t0sc2.view.loc (V d (cV0 L) (jV0 L))) :=
  (srcW.slice (Rect.unit (s := S320000) (k0_off3 k) S2000.size (k0_off3_inb k)) (fun _ => rfl)).view.read (Elt F) fe

theorem chunkOf_lt (d : Dev nD) (L : grid0.Coords) (fe : Buf (Elt F) (srcW.view.loc (V d (cV0 L) (jV0 L)))) (he : ∀ j, (fe j).toNat < 10000) (k : Fin k0_t2_loop.trips) :
    ∀ j, (chunkOf (F := F) d L fe k j).toNat < 10000 := fun _ => he _

/-- The same of the destinations. -/
def chunkOfD (d : Dev nD) (L : grid0.Coords) (fe : Buf (Elt F) (dstW.view.loc (V d (cV0 L) (jV0 L)))) (k : Fin k0_t2_loop.trips) : Buf (Elt F) (t0sc3.view.loc (V d (cV0 L) (jV0 L))) :=
  (dstW.slice (Rect.unit (s := S320000) (k0_off3 k) S2000.size (k0_off3_inb k)) (fun _ => rfl)).view.read (Elt F) fe

theorem chunkOfD_lt (d : Dev nD) (L : grid0.Coords) (fe : Buf (Elt F) (dstW.view.loc (V d (cV0 L) (jV0 L)))) (he : ∀ j, (fe j).toNat < 10000) (k : Fin k0_t2_loop.trips) :
    ∀ j, (chunkOfD (F := F) d L fe k j).toNat < 10000 := fun _ => he _

/-- The accumulator after the first `n` chunks, from contents `a`. -/
def accK (d : Dev nD) (L : grid0.Coords) (T : Buf (Elt F) (t0sc0.view.loc (V d (cV0 L) (jV0 L)))) (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000) : Nat → Buf (Elt F) (t0sc1.view.loc (V d (cV0 L) (jV0 L))) → Buf (Elt F) (t0sc1.view.loc (V d (cV0 L) (jV0 L)))
  | 0, a => a
  | n + 1, a =>
    if h : n < k0_t2_loop.trips then
      accG d L T (chunkOf d L fs ⟨n, h⟩) (chunkOfD d L fd ⟨n, h⟩) (chunkOf_lt d L fs hs ⟨n, h⟩) (chunkOfD_lt d L fd hd ⟨n, h⟩) k0_t3_loop.trips (accK d L T fs fd hs hd n a)
    else accK d L T fs fd hs hd n a

theorem accK_succ (d : Dev nD) (L : grid0.Coords) (T : Buf (Elt F) (t0sc0.view.loc (V d (cV0 L) (jV0 L)))) (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000) (k : Fin k0_t2_loop.trips) (a : Buf (Elt F) (t0sc1.view.loc (V d (cV0 L) (jV0 L)))) :
    accK (F := F) d L T fs fd hs hd (k.val + 1) a
      = accG d L T (chunkOf d L fs k) (chunkOfD d L fd k) (chunkOf_lt d L fs hs k) (chunkOfD_lt d L fd hd k) k0_t3_loop.trips (accK d L T fs fd hs hd k.val a) := by
  rw [accK, dif_pos k.isLt]

theorem accK_zero (d : Dev nD) (L : grid0.Coords) (T : Buf (Elt F) (t0sc0.view.loc (V d (cV0 L) (jV0 L)))) (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000) (a : Buf (Elt F) (t0sc1.view.loc (V d (cV0 L) (jV0 L)))) :
    accK (F := F) d L T fs fd hs hd 0 a = a := rfl

-- the folds are read by their equations from here on, never unfolded: their trip counts are numerals
attribute [irreducible] zfill accG accK

/-- The table scratch after the tile's first copy: its four rows of the table. -/
def tabT (d : Dev nD) (L : grid0.Coords) (ft : Buf (Elt F) ((tabSl0 L).view.loc (V d (cV0 L) (jV0 L)))) : Buf (Elt F) (t0sc0.view.loc (V d (cV0 L) (jV0 L))) :=
  (tabSl0 L).view.read (Elt F) ft

/-- What the task leaves in the accumulator, from its contents `f1` before the zero-fill. -/
def agg0 (d : Dev nD) (L : grid0.Coords) (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000) (f1 : Buf (Elt F) (t0sc1.view.loc (V d (cV0 L) (jV0 L)))) : Buf (Elt F) (t0sc1.view.loc (V d (cV0 L) (jV0 L))) :=
  accK d L (tabT d L ft) fs fd hs hd k0_t2_loop.trips (zfill d L k0_t1_loop.trips f1)

/-! ## The scratches as the indexed operations address them, and what the copies land -/

omit [FloatOps F] in
theorem tab_pts (d : Dev nD) (L : grid0.Coords) (f : Buf (Elt F) (t0sc0.view.loc (V d (cV0 L) (jV0 L)))) :
    (t0sc0.view.loc (V d (cV0 L) (jV0 L)) ↦{fullShare} f : sProp 𝕄) = (tabV.loc (V d (cV0 L) (jV0 L)) ↦{fullShare} f) := rfl
omit [FloatOps F] in
theorem acc_pts (d : Dev nD) (L : grid0.Coords) (f : Buf (Elt F) (t0sc1.view.loc (V d (cV0 L) (jV0 L)))) :
    (t0sc1.view.loc (V d (cV0 L) (jV0 L)) ↦{fullShare} f : sProp 𝕄) = (accV.loc (V d (cV0 L) (jV0 L)) ↦[accV.set]{fullShare} f) := by
  rw [show accV.set = Finset.univ from Memref.set_access_whole cc0_scratch1]

theorem v0land0 (d : Dev nD) (L : grid0.Coords) (ft : Buf (Elt F) ((tabSl0 L).view.loc (V d (cV0 L) (jV0 L)))) (i : Buf (Elt F) (t0sc0.view.loc (V d (cV0 L) (jV0 L))))
    (w : Vec F S40960 .f32) (hw : ∀ y, w y = tabT d L ft y) :
    (t0sc0.view.loc (V d (cV0 L) (jV0 L)) ↦{fullShare} View.write (Elt F) (Memref.whole cc0_scratch0).view i w Finset.univ : sProp 𝕄)
      ⊢ t0sc0.view.loc (V d (cV0 L) (jV0 L)) ↦{fullShare} tabT d L ft := by
  have e : View.write (Elt F) (Memref.whole cc0_scratch0).view i w Finset.univ = tabT d L ft := (View.write_whole_univ _ _ _).trans (funext hw)
  rw [e]
theorem v0land2 (d : Dev nD) (L : grid0.Coords) (fs : Buf (Elt F) (srcW.view.loc (V d (cV0 L) (jV0 L)))) (k : Fin k0_t2_loop.trips) (i : Buf (Elt F) (t0sc2.view.loc (V d (cV0 L) (jV0 L))))
    (w : Vec F S2000 .i32) (hw : ∀ y, w y = chunkOf d L fs k y) :
    (t0sc2.view.loc (V d (cV0 L) (jV0 L)) ↦{fullShare} View.write (Elt F) (Memref.whole cc0_scratch2).view i w Finset.univ : sProp 𝕄)
      ⊢ t0sc2.view.loc (V d (cV0 L) (jV0 L)) ↦{fullShare} chunkOf d L fs k := by
  have e : View.write (Elt F) (Memref.whole cc0_scratch2).view i w Finset.univ = chunkOf d L fs k := (View.write_whole_univ _ _ _).trans (funext hw)
  rw [e]
theorem v0land3 (d : Dev nD) (L : grid0.Coords) (fd : Buf (Elt F) (dstW.view.loc (V d (cV0 L) (jV0 L)))) (k : Fin k0_t2_loop.trips) (i : Buf (Elt F) (t0sc3.view.loc (V d (cV0 L) (jV0 L))))
    (w : Vec F S2000 .i32) (hw : ∀ y, w y = chunkOfD d L fd k y) :
    (t0sc3.view.loc (V d (cV0 L) (jV0 L)) ↦{fullShare} View.write (Elt F) (Memref.whole cc0_scratch3).view i w Finset.univ : sProp 𝕄)
      ⊢ t0sc3.view.loc (V d (cV0 L) (jV0 L)) ↦{fullShare} chunkOfD d L fd k := by
  have e : View.write (Elt F) (Memref.whole cc0_scratch3).view i w Finset.univ = chunkOfD d L fd k := (View.write_whole_univ _ _ _).trans (funext hw)
  rw [e]

/-! ## The loops' invariants, with the accumulator's contents -/

def v0inv1 (d : Dev nD) (L : grid0.Coords) (f1 : Buf (Elt F) (t0sc1.view.loc (V d (cV0 L) (jV0 L)))) (n : Nat) (_ : BitVec 32) : sProp 𝕄 :=
  iprop(t0sc1.view.loc (V d (cV0 L) (jV0 L)) ↦{fullShare} zfill d L n f1)

def v0inv3 (d : Dev nD) (L : grid0.Coords) (T : Buf (Elt F) (t0sc0.view.loc (V d (cV0 L) (jV0 L)))) (sC : Buf (Elt F) (t0sc2.view.loc (V d (cV0 L) (jV0 L)))) (dC : Buf (Elt F) (t0sc3.view.loc (V d (cV0 L) (jV0 L))))
    (hs : ∀ j, (sC j).toNat < 10000) (hd : ∀ j, (dC j).toNat < 10000) (a₀ : Buf (Elt F) (t0sc1.view.loc (V d (cV0 L) (jV0 L)))) (n : Nat) (_ : BitVec 32) : sProp 𝕄 :=
  iprop((t0sc2.view.loc (V d (cV0 L) (jV0 L)) ↦{fullShare} sC) ∗ (t0sc3.view.loc (V d (cV0 L) (jV0 L)) ↦{fullShare} dC) ∗ (t0sc0.view.loc (V d (cV0 L) (jV0 L)) ↦{fullShare} T)
    ∗ (t0sc1.view.loc (V d (cV0 L) (jV0 L)) ↦{fullShare} accG d L T sC dC hs hd n a₀))

def v0inv2 (d : Dev nD) (L : grid0.Coords) (q : PosShare TreeShare) (ft : Buf (Elt F) ((tabSl0 L).view.loc (V d (cV0 L) (jV0 L))))
    (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000)
    (O : CellTallies nD τ sig (HIx 2)) (W : Waits sig (HIx 2)) (a₀ : Buf (Elt F) (t0sc1.view.loc (V d (cV0 L) (jV0 L)))) (n : Nat) (_ : BitVec 32) : sProp 𝕄 :=
  iprop(Transfers.MayWaits (V d (cV0 L) (jV0 L)) (none : HIx 2) O
    ∗ (srcW.view.loc (V d (cV0 L) (jV0 L)) ↦{q} fs) ∗ (dstW.view.loc (V d (cV0 L) (jV0 L)) ↦{q} fd)
    ∗ (t0sc0.view.loc (V d (cV0 L) (jV0 L)) ↦{fullShare} tabT d L ft) ∗ (t0sc1.view.loc (V d (cV0 L) (jV0 L)) ↦{fullShare} accK d L (tabT d L ft) fs fd hs hd n a₀)
    ∗ (∃ f, t0sc2.view.loc (V d (cV0 L) (jV0 L)) ↦{fullShare} f) ∗ (∃ f, t0sc3.view.loc (V d (cV0 L) (jV0 L)) ↦{fullShare} f)
    ∗ semVal (V d (cV0 L) (jV0 L), SemLoc.dma cc0_scoped1.sem) 0 ∗ semVal (V d (cV0 L) (jV0 L), SemLoc.dma cc0_scoped2.sem) 0
    ∗ ∃ W', ⌜∀ p ∈ W', p ∈ W ∨ p.2 = none⌝ ∗ owes (V d (cV0 L) (jV0 L)) O W')

/-- The result stretch's words after the task: the accumulator's. -/
def out0 (d : Dev nD) (L : grid0.Coords) (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L))))
    (hs : ∀ j, (fs j).toNat < 10000) (hd : ∀ j, (fd j).toNat < 10000) (f1 : Buf (Elt F) (t0sc1.view.loc (V d (cV0 L) (jV0 L)))) : Vec F S40960 .f32 :=
  agg0 d L ft fs fd hs hd f1

/-- The result stretch written whole with words `w` reads as `w`. -/
theorem v0landO (d : Dev nD) (L : grid0.Coords) (fo : Buf (Elt F) ((outSl0 L).view.loc (V d (cV0 L) (jV0 L)))) (w A : Vec F S40960 .f32) (hw : ∀ y, w y = A y) :
    ((outSl0 L).view.loc (V d (cV0 L) (jV0 L)) ↦[(outSl0 L).view.set]{fullShare} (outSl0 L).view.writes (Elt F) fo [⟨Rect.whole S40960, w⟩] : sProp 𝕄)
      ⊢ ∃ f, ⌜(outSl0 L).view.read (Elt F) f = A⌝ ∗ (outSl0 L).view.loc (V d (cV0 L) (jV0 L)) ↦[(outSl0 L).view.set]{fullShare} f := by
  iintro H
  iexists ((outSl0 L).view.writes (Elt F) fo [⟨Rect.whole S40960, w⟩]); isplitr
  · ipureintro
    funext y
    have h := View.read_writes_cons_emb (outSl0 L).view fo (Val := Elt F) (Rect.whole S40960) w [] y
    rw [Rect.emb_whole_apply] at h
    exact h.trans (hw y)
  · iexact H

/-! ## The task, with the value of its result -/

theorem tile_body0V (d : Dev nD) (L : grid0.Coords) (hF : (K (F := F)).Facts) (q : PosShare TreeShare)
    (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L)))) (fo : Buf (Elt F) ((outSl0 L).view.loc (V d (cV0 L) (jV0 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd) ∗ ((outSl0 L).view.loc (V d (cV0 L) (jV0 L)) ↦[(outSl0 L).view.set]{fullShare} fo))
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop((((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
              ∗ ∃ f1 f, ⌜(outSl0 L).view.read (Elt F) f = out0 d L ft fs fd hs hd f1⌝ ∗ ((outSl0 L).view.loc (V d (cV0 L) (jV0 L)) ↦[(outSl0 L).view.set]{fullShare} f))
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [cc0_body_eq_skeleton]; unfold cc0_body_skel
  rw [(K (F := F)).scopedBufs_V hF d (cV0 L) (jV0 L), SparseCore.Cfg.scopedSems0_V (Val := Elt F) d (cV0 L) (jV0 L), ownSems0_T0, ownBufs_T0]
  iintro ⟨#Hlv, -, ⟨Ht, Hs, Hd, Ho⟩, ⟨⟨%f0, H0⟩, ⟨%f1, H1⟩, ⟨%f2, H2⟩, ⟨%f3, H3⟩, Hbufs⟩, ⟨Hsem0, Hsem1, Hsem2, Hsem3, Hsems⟩, HO⟩
  ihave Hmw := ((K (F := F)).mayWaits_none (thr := V d (cV0 L) (jV0 L)) hO) $$ Hlv
  ihave H0 := (Entails.of_eq (pts_t0sc0 (F := F) d L _).symm) $$ H0
  ihave H1 := (Entails.of_eq (pts_t0sc1 (F := F) d L _).symm) $$ H1
  ihave H2 := (Entails.of_eq (pts_t0sc2 (F := F) d L _).symm) $$ H2
  ihave H3 := (Entails.of_eq (pts_t0sc3 (F := F) d L _).symm) $$ H3
  -- the table's four rows into the table scratch
  sl_exec
  ihave H0 := (v0land0 (F := F) d L ft _ _ ?hw0) $$ H0
  case hw0 => exact fun _ => rfl
  -- the zero-fill
  sl_for (v0inv1 (F := F) d L f1) $$ [H1]
  case region =>
    intro k _
    unfold v0inv1
    iintro H
    sl_exec
    sl_step
    rw [zfill_succ]
    iexact H
  · unfold v0inv1; rw [zfill_zero]; iexact H1
  iintro %_ HI
  unfold v0inv1
  -- the chunks
  sl_for (v0inv2 (F := F) d L q ft fs fd hs hd O W (zfill d L k0_t1_loop.trips f1)) $$ [Hmw Hs Hd H0 HI H2 H3 Hsem1 Hsem2 HO]
  case region =>
    intro k _
    unfold v0inv2
    iintro ⟨#Hmw, Hs, Hd, H0, H1, ⟨%i2, H2⟩, ⟨%i3, H3⟩, Hsem1, Hsem2, %W', %hW', HO⟩
    -- the chunk's sources and destinations into the two index scratches
    sl_exec
    ihave H2 := (v0land2 (F := F) d L fs k _ _ ?hw2) $$ H2
    case hw2 => exact fun _ => rfl
    ihave H3 := (v0land3 (F := F) d L fd k _ _ ?hw3) $$ H3
    case hw3 => exact fun _ => rfl
    -- the chunk's groups
    sl_for (v0inv3 (F := F) d L (tabT d L ft) (chunkOf d L fs k) (chunkOfD d L fd k) (chunkOf_lt d L fs hs k) (chunkOfD_lt d L fd hd k) (accK d L (tabT d L ft) fs fd hs hd k.val (zfill d L k0_t1_loop.trips f1))) $$ [H2 H3 H0 H1]
    case region =>
      intro kk _
      unfold v0inv3
      iintro ⟨H2, H3, H0, H1⟩
      -- row 0: the indexed load of the table scratch, then the indexed add-store into the accumulator
      sl_exec (disch := sl_exact (t0chk1_of _ (t0rd2_lt d L (chunkOf d L fs k) (chunkOf_lt d L fs hs k) kk)))
      ihave H0a := (Entails.of_eq (tab_pts (F := F) d L _)) $$ H0
      iapply (SparseCore.wp_vectorLoadIdx 𝒱₀ (V d (cV0 L) (jV0 L)) none Set.univ (base := t0sc0) (S := Finset.univ) (q := fullShare) (Finset.subset_univ _)) $$ H0a; iintro H0a
      ihave H0 := (Entails.of_eq (tab_pts (F := F) d L _).symm) $$ H0a
      sl_exec (disch := sl_exact (t0chk2_of _ (t0rd3_lt d L (chunkOfD d L fd k) (chunkOfD_lt d L fd hd k) kk)))
      ihave H1a := (Entails.of_eq (acc_pts (F := F) d L _)) $$ H1
      iapply (SparseCore.wp_vectorStoreIdx 𝒱₀ (V d (cV0 L) (jV0 L)) none Set.univ (base := t0sc1)) $$ H1a; iintro H1a
      ihave H1 := (Entails.of_eq (acc_pts (F := F) d L _).symm) $$ H1a
      -- row 1: the indexed load of the table scratch, then the indexed add-store into the accumulator
      sl_exec (disch := sl_exact (t0chk3_of _ (t0rd2_lt d L (chunkOf d L fs k) (chunkOf_lt d L fs hs k) kk)))
      ihave H0a := (Entails.of_eq (tab_pts (F := F) d L _)) $$ H0
      iapply (SparseCore.wp_vectorLoadIdx 𝒱₀ (V d (cV0 L) (jV0 L)) none Set.univ (base := t0sc0) (S := Finset.univ) (q := fullShare) (Finset.subset_univ _)) $$ H0a; iintro H0a
      ihave H0 := (Entails.of_eq (tab_pts (F := F) d L _).symm) $$ H0a
      sl_exec (disch := sl_exact (t0chk4_of _ (t0rd3_lt d L (chunkOfD d L fd k) (chunkOfD_lt d L fd hd k) kk)))
      ihave H1a := (Entails.of_eq (acc_pts (F := F) d L _)) $$ H1
      iapply (SparseCore.wp_vectorStoreIdx 𝒱₀ (V d (cV0 L) (jV0 L)) none Set.univ (base := t0sc1)) $$ H1a; iintro H1a
      ihave H1 := (Entails.of_eq (acc_pts (F := F) d L _).symm) $$ H1a
      -- row 2: the indexed load of the table scratch, then the indexed add-store into the accumulator
      sl_exec (disch := sl_exact (t0chk5_of _ (t0rd2_lt d L (chunkOf d L fs k) (chunkOf_lt d L fs hs k) kk)))
      ihave H0a := (Entails.of_eq (tab_pts (F := F) d L _)) $$ H0
      iapply (SparseCore.wp_vectorLoadIdx 𝒱₀ (V d (cV0 L) (jV0 L)) none Set.univ (base := t0sc0) (S := Finset.univ) (q := fullShare) (Finset.subset_univ _)) $$ H0a; iintro H0a
      ihave H0 := (Entails.of_eq (tab_pts (F := F) d L _).symm) $$ H0a
      sl_exec (disch := sl_exact (t0chk6_of _ (t0rd3_lt d L (chunkOfD d L fd k) (chunkOfD_lt d L fd hd k) kk)))
      ihave H1a := (Entails.of_eq (acc_pts (F := F) d L _)) $$ H1
      iapply (SparseCore.wp_vectorStoreIdx 𝒱₀ (V d (cV0 L) (jV0 L)) none Set.univ (base := t0sc1)) $$ H1a; iintro H1a
      ihave H1 := (Entails.of_eq (acc_pts (F := F) d L _).symm) $$ H1a
      -- row 3: the indexed load of the table scratch, then the indexed add-store into the accumulator
      sl_exec (disch := sl_exact (t0chk7_of _ (t0rd2_lt d L (chunkOf d L fs k) (chunkOf_lt d L fs hs k) kk)))
      ihave H0a := (Entails.of_eq (tab_pts (F := F) d L _)) $$ H0
      iapply (SparseCore.wp_vectorLoadIdx 𝒱₀ (V d (cV0 L) (jV0 L)) none Set.univ (base := t0sc0) (S := Finset.univ) (q := fullShare) (Finset.subset_univ _)) $$ H0a; iintro H0a
      ihave H0 := (Entails.of_eq (tab_pts (F := F) d L _).symm) $$ H0a
      sl_exec (disch := sl_exact (t0chk8_of _ (t0rd3_lt d L (chunkOfD d L fd k) (chunkOfD_lt d L fd hd k) kk)))
      ihave H1a := (Entails.of_eq (acc_pts (F := F) d L _)) $$ H1
      iapply (SparseCore.wp_vectorStoreIdx 𝒱₀ (V d (cV0 L) (jV0 L)) none Set.univ (base := t0sc1)) $$ H1a; iintro H1a
      ihave H1 := (Entails.of_eq (acc_pts (F := F) d L _).symm) $$ H1a
      sl_exec
      sl_step
      isplitl [H2]; · iexact H2
      isplitl [H3]; · iexact H3
      isplitl [H0]; · iexact H0
      rw [accG_succ]
      iexact H1
    · unfold v0inv3
      isplitl [H2]; · iexact H2
      isplitl [H3]; · iexact H3
      isplitl [H0]; · iexact H0
      rw [accG_zero]; iexact H1
    iintro %_ HI
    unfold v0inv3
    icases HI with ⟨H2, H3, H0, H1⟩
    sl_step
    isplitr; · iexact Hmw
    isplitl [Hs]; · iexact Hs
    isplitl [Hd]; · iexact Hd
    isplitl [H0]; · iexact H0
    isplitl [H1]; · rw [accK_succ]; iexact H1
    isplitl [H2]; · iexists _; iexact H2
    isplitl [H3]; · iexists _; iexact H3
    isplitl [Hsem1]; · iexact Hsem1
    isplitl [Hsem2]; · iexact Hsem2
    iexists (insert (SemLoc.dma cc0_scoped2.sem, (default : HIx 2)) (insert (SemLoc.dma cc0_scoped1.sem, (default : HIx 2)) W')); isplitr
    · ipureintro; exact waits_step (waits_step hW' _) _
    · iexact HO
  · unfold v0inv2
    isplitr; · iexact Hmw
    isplitl [Hs]; · iexact Hs
    isplitl [Hd]; · iexact Hd
    isplitl [H0]; · iexact H0
    isplitl [HI]; · rw [accK_zero]; iexact HI
    isplitl [H2]; · iexists _; iexact H2
    isplitl [H3]; · iexists _; iexact H3
    isplitl [Hsem1]; · iexact Hsem1
    isplitl [Hsem2]; · iexact Hsem2
    iexists (insert (SemLoc.dma cc0_scoped0.sem, (default : HIx 2)) W); isplitr
    · ipureintro; exact waits_step (fun p hp => .inl hp) _
    · iexact HO
  iintro %_ HI
  unfold v0inv2
  icases HI with ⟨-, Hs, Hd, H0, H1, ⟨%i2, H2⟩, ⟨%i3, H3⟩, Hsem1, Hsem2, %W', %hW', HO⟩
  -- the accumulator out to the tile's stretch of the result
  sl_exec
  ihave Ho := (v0landO (F := F) d L fo _ (out0 d L ft fs fd hs hd f1) ?hwo) $$ Ho
  case hwo => exact fun _ => rfl
  icases Ho with ⟨%fo', %hfo', Ho⟩
  sl_step
  isplitl [Ht Hs Hd Ho]
  · isplitl [Ht]; · iexact Ht
    isplitl [Hs]; · iexact Hs
    isplitl [Hd]; · iexact Hd
    iexists f1; iexists fo'; isplitr
    · ipureintro; exact hfo'
    · iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 2)) W'); isplitr
  · ipureintro; exact waits_step hW' _
  · iexact HO

/-- The frame-strength statement follows: the value forgotten. -/
theorem tile_body0_of_V (d : Dev nD) (L : grid0.Coords) (hF : (K (F := F)).Facts) (q : PosShare TreeShare)
    (ft : Buf (Elt F) ((tabSl0 L).view.loc (V d (cV0 L) (jV0 L)))) (fs : Buf (Elt F) (srcW.view.loc (V d (cV0 L) (jV0 L)))) (fd : Buf (Elt F) (dstW.view.loc (V d (cV0 L) (jV0 L)))) (fo : Buf (Elt F) ((outSl0 L).view.loc (V d (cV0 L) (jV0 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd) ∗ ((outSl0 L).view.loc (V d (cV0 L) (jV0 L)) ↦[(outSl0 L).view.set]{fullShare} fo))
        ∗ scopedBufs (V d (cV0 L) (jV0 L)) ∗ scopedSems0 (V d (cV0 L) (jV0 L)) ∗ owes (V d (cV0 L) (jV0 L)) O W) : sProp 𝕄)
      ⊢ wp frame (wpE (defs₀ (F := F)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop((((tabSl0 L).view.loc (V d (cV0 L) (jV0 L)) ↦[(tabSl0 L).view.set]{fullShare} ft) ∗ (srcW.view.loc (V d (cV0 L) (jV0 L)) ↦{q} fs) ∗ (dstW.view.loc (V d (cV0 L) (jV0 L)) ↦{q} fd)
              ∗ ∃ f, ((outSl0 L).view.loc (V d (cV0 L) (jV0 L)) ↦[(outSl0 L).view.set]{fullShare} f))
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') :=
  (tile_body0V d L hF q ft fs fd fo hs hd O W hO).trans (wp_mono _ _ _ fun _ => by
    iintro ⟨⟨Ht, Hs, Hd, %f1, %f, -, Ho⟩, Hr⟩
    isplitl [Ht Hs Hd Ho]
    · isplitl [Ht]; · iexact Ht
      isplitl [Hs]; · iexact Hs
      isplitl [Hd]; · iexact Hd
      iexists f; iexact Ho
    iexact Hr)

end Cert.Proof.KernelIdealL

end
-- ==== Proof.KIAggIdeal.lean ====
/-
  The first aggregation's result at the ideal instance, read at an index.

  At the ideal instance the floats are the extended reals and the indexed add-store's add is their addition. An unmasked
  indexed add-store then leaves, at every index, what was there plus the words of the lanes that name it: its fold over
  the lanes in ascending order, read at one index, by induction on the lane list. From that: one row of one group adds, at
  index j, the table's words at (source word + row start) over the lanes whose (destination word + row start) is j; a
  group its four rows'; a chunk's first n groups, and the first n chunks, the sums over the trips below n, by induction
  on n through the folds' equations. The zero-fill leaves zeros: trip n writes sixteen zero words at 16 n, and an index
  below 16 (n + 1) is below 16 n or under that piece. So the result at an index is the sum over chunks, groups, rows
  and lanes of the table's word, where the lane's destination names the index.
-/
import Idealize.ShloMosaic.PureOps.Ideal
import Idealize.ShloMosaic.Lib.ValueIdx
import Idealize.ShloMosaic.PureOps.Ideal.Laws
import Mathlib.Algebra.BigOperators.Fin
import proofs.«211848_g47218870452992_cont_8to1c4_747_2_alg».proof.Proof.KITile0V

noncomputable section

open scoped BigOperators

namespace Cert.Proof.AggIdeal

open Idealize.ShloMosaic

/-! ## An indexed add-store at the ideal instance, read at an index -/

/-- One lane's contribution to index `j`. -/
def laneTerm {s : Shape} {d : Fin 1 → Nat} (idxs : Fin s.rank → IVec ⟨1, d⟩ 32) (v : (⟨1, d⟩ : Shape).Idx → EReal)
    (h : ∀ a x, (idxs a x).toNat < s.size a) (j : s.Idx) (k : Fin (d 0)) : EReal :=
  if idxAt idxs h (Shape.ofLane k) = j then v (Shape.ofLane k) else 0

/-- At the ideal instance the unmasked indexed add-store leaves, at every index, what was there plus the words of the lanes that name it. -/
theorem storeIdx_add_apply {s : Shape} {d : Fin 1 → Nat} (f : s.Idx → EReal) (idxs : Fin s.rank → IVec ⟨1, d⟩ 32) (v : (⟨1, d⟩ : Shape).Idx → EReal)
    (h : ∀ a x, (idxs a x).toNat < s.size a) (j : s.Idx) :
    storeIdx (F := Ideal) (e := .f32) f idxs v (fun _ => 1#1) true h j = f j + ∑ k : Fin (d 0), laneTerm idxs v h j k := by
  unfold storeIdx
  rw [Fin.sum_univ_def]
  generalize List.finRange (d 0) = l
  induction l generalizing f with
  | nil => simp
  | cons k l ih =>
    rw [List.foldl_cons, ih, List.map_cons, List.sum_cons, ← add_assoc]
    congr 1
    dsimp only
    rw [if_pos (by decide : (1#1 : BitVec 1) = 1)]
    unfold laneTerm
    by_cases hj : idxAt idxs h (Shape.ofLane k) = j
    · rw [if_pos hj, if_pos (fun a => by rw [hj])]
      subst hj
      simp only [if_true]
      rfl
    · rw [if_neg hj, add_zero, if_neg (fun hall => hj (funext fun a => Fin.ext (hall a).symm))]

/-! ## The payload words, and one row of a group at an index -/

open Cert.KernelIdeal Cert.KernelIdeal.Gen

theorem pay_toNat (v : IVec S16 32) (c : BitVec 32) (hc : c.toNat ≤ 30720) (x : S16.Idx) (hv : (v x).toNat < 10000) :
    (addi v (broadcast S16 c) x).toNat = (v x).toNat + c.toNat := by
  show (v x + c).toNat = _
  rw [BitVec.toNat_add]; omega

theorem idxAt_eq_iff (w : IVec S16 32) (h : ∀ a x, ((![w] : Fin 1 → IVec S16 32) a x).toNat < S40960.size a) (x : S16.Idx) (j : S40960.Idx) :
    idxAt (s := S40960) ![w] h x = j ↔ (w x).toNat = (j 0).val := by
  constructor
  · intro e; rw [← e]; rfl
  · intro e; funext a
    match a with
    | ⟨0, _⟩ => exact Fin.ext e

/-! ## A row, a group and a chunk's groups at an index -/

open Cert.Proof.KernelIdealL Idealize.ShloMosaic.SparseCore

/-- The table scratch read at a number (zero past its end). -/
def Tn (T : S40960.Idx → EReal) (n : ℕ) : EReal := if h : n < 40960 then T (ValueIdx.ix1 ⟨n, h⟩) else 0

theorem T_idxAt (T : S40960.Idx → EReal) (w : IVec S16 32) (h : ∀ a x, ((![w] : Fin 1 → IVec S16 32) a x).toNat < S40960.size a) (x : S16.Idx) :
    T (idxAt (s := S40960) ![w] h x) = Tn T (w x).toNat := by
  unfold Tn
  have hx : (w x).toNat < 40960 := h 0 x
  rw [dif_pos hx]
  congr 1
  funext a
  match a with
  | ⟨0, _⟩ => rfl

/-- One row's contribution to index `j`: the lanes whose destination word plus the row's start is `j`, each with the table's word at its
    source word plus the row's start. -/
def rowC (T : S40960.Idx → EReal) (sw dw : S16.Idx → BitVec 32) (c : ℕ) (j : S40960.Idx) : EReal :=
  ∑ k : Fin ((![16] : Fin 1 → ℕ) 0), if (dw (Shape.ofLane k)).toNat + c = (j 0).val then Tn T ((sw (Shape.ofLane k)).toNat + c) else 0

theorem rowStep_eq (d : Dev nD) (L : grid0.Coords) (T : S40960.Idx → EReal) (a : S40960.Idx → EReal) (sI dI : IVec S16 32)
    (h1 : ∀ a x, ((![sI] : Fin 1 → IVec S16 32) a x).toNat < S40960.size a) (h2 : ∀ a x, ((![dI] : Fin 1 → IVec S16 32) a x).toNat < S40960.size a) :
    rowStep (F := Ideal) d L T a sI dI h1 h2 = storeIdx (F := Ideal) (e := .f32) (s := S40960) a ![dI] (loadIdx (F := Ideal) (e := .f32) (s := S40960) T ![sI] h1) (fun _ => 1#1) true h2 := by
  unfold rowStep
  erw [Memref.write_access_whole_univ, Memref.read_access_whole, Memref.read_access_whole]

theorem rowStep_apply (d : Dev nD) (L : grid0.Coords) (T : S40960.Idx → EReal) (a : S40960.Idx → EReal) (sw dw : S16.Idx → BitVec 32) (c : BitVec 32)
    (hc : c.toNat ≤ 30720) (hs : ∀ x, (sw x).toNat < 10000) (hd : ∀ x, (dw x).toNat < 10000)
    (h1 : ∀ a x, ((![addi sw (broadcast S16 c)] : Fin 1 → IVec S16 32) a x).toNat < S40960.size a)
    (h2 : ∀ a x, ((![addi dw (broadcast S16 c)] : Fin 1 → IVec S16 32) a x).toNat < S40960.size a) (j : S40960.Idx) :
    rowStep (F := Ideal) d L T a (addi sw (broadcast S16 c)) (addi dw (broadcast S16 c)) h1 h2 j = a j + rowC T sw dw c.toNat j := by
  rw [rowStep_eq, storeIdx_add_apply]
  congr 1
  unfold rowC
  refine Finset.sum_congr rfl fun k _ => ?_
  unfold laneTerm
  refine if_congr ((idxAt_eq_iff _ h2 _ j).trans (by rw [pay_toNat dw c hc _ (hd _)])) ?_ rfl
  show T (idxAt (s := S40960) ![addi sw (broadcast S16 c)] h1 (Shape.ofLane k)) = _
  rw [T_idxAt T _ h1, pay_toNat sw c hc _ (hs _)]

/-- The sum over the trips below `n + 1` is the sum over those below `n` and trip `n`. -/
theorem sum_lt_succ {m : ℕ} (Fm : Fin m → EReal) (n : ℕ) (h : n < m) :
    (∑ g : Fin m, if g.val < n + 1 then Fm g else 0) = (∑ g : Fin m, if g.val < n then Fm g else 0) + Fm ⟨n, h⟩ := by
  have e : ∀ g : Fin m, (if g.val < n + 1 then Fm g else 0) = (if g.val < n then Fm g else 0) + (if g = ⟨n, h⟩ then Fm g else 0) := by
    intro g
    by_cases h1 : g.val < n
    · rw [if_pos (by omega), if_pos h1, if_neg (fun e => by rw [e] at h1; exact Nat.lt_irrefl _ h1), add_zero]
    · by_cases h2 : g = ⟨n, h⟩
      · rw [if_pos (by rw [h2]; exact Nat.lt_succ_self _), if_neg h1, if_pos h2, zero_add]
      · rw [if_neg (fun h3 => h2 (Fin.ext (by have : g.val = n := by omega
                                              exact this))), if_neg h1, if_neg h2, add_zero]
  rw [Finset.sum_congr rfl fun g _ => e g, Finset.sum_add_distrib, Finset.sum_ite_eq' Finset.univ (⟨n, h⟩ : Fin m) Fm, if_pos (Finset.mem_univ _)]

/-- One group's contribution to index `j`: its four rows'. -/
def grpC (T : S40960.Idx → EReal) (sw dw : S16.Idx → BitVec 32) (j : S40960.Idx) : EReal :=
  rowC T sw dw 0 j + rowC T sw dw 10240 j + rowC T sw dw 20480 j + rowC T sw dw 30720 j

/-- The accumulator after a group's first one, two and three rows. -/
def grpA1 (d : Dev nD) (L : grid0.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep (F := Ideal) d L T a (k0_pay2 (F := Ideal) s16) (k0_pay3 (F := Ideal) d16) (t0chk1_of (F := Ideal) s16 hs) (t0chk2_of (F := Ideal) d16 hd)
def grpA2 (d : Dev nD) (L : grid0.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep (F := Ideal) d L T (grpA1 d L T s16 d16 hs hd a) (k0_pay4 (F := Ideal) s16) (k0_pay5 (F := Ideal) d16) (t0chk3_of (F := Ideal) s16 hs) (t0chk4_of (F := Ideal) d16 hd)
def grpA3 (d : Dev nD) (L : grid0.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep (F := Ideal) d L T (grpA2 d L T s16 d16 hs hd a) (k0_pay6 (F := Ideal) s16) (k0_pay7 (F := Ideal) d16) (t0chk5_of (F := Ideal) s16 hs) (t0chk6_of (F := Ideal) d16 hd)

theorem grpStep_apply (d : Dev nD) (L : grid0.Coords) (T : S40960.Idx → EReal) (s16 d16 : S16.Idx → BitVec 32)
    (hs : ∀ x, (s16 x).toNat < 10000) (hd : ∀ x, (d16 x).toNat < 10000) (a : S40960.Idx → EReal) (j : S40960.Idx) :
    grpStep (F := Ideal) d L T s16 d16 hs hd a j = a j + grpC T s16 d16 j := by
  have e1 : grpA1 d L T s16 d16 hs hd a j = a j + rowC T s16 d16 0 j :=
    rowStep_apply d L T a s16 d16 0#32 (by decide) hs hd (t0chk1_of (F := Ideal) s16 hs) (t0chk2_of (F := Ideal) d16 hd) j
  have e2 : grpA2 d L T s16 d16 hs hd a j = grpA1 d L T s16 d16 hs hd a j + rowC T s16 d16 10240 j :=
    rowStep_apply d L T (grpA1 d L T s16 d16 hs hd a) s16 d16 10240#32 (by decide) hs hd (t0chk3_of (F := Ideal) s16 hs) (t0chk4_of (F := Ideal) d16 hd) j
  have e3 : grpA3 d L T s16 d16 hs hd a j = grpA2 d L T s16 d16 hs hd a j + rowC T s16 d16 20480 j :=
    rowStep_apply d L T (grpA2 d L T s16 d16 hs hd a) s16 d16 20480#32 (by decide) hs hd (t0chk5_of (F := Ideal) s16 hs) (t0chk6_of (F := Ideal) d16 hd) j
  have e4 : grpStep (F := Ideal) d L T s16 d16 hs hd a j = grpA3 d L T s16 d16 hs hd a j + rowC T s16 d16 30720 j :=
    rowStep_apply d L T (grpA3 d L T s16 d16 hs hd a) s16 d16 30720#32 (by decide) hs hd (t0chk7_of (F := Ideal) s16 hs) (t0chk8_of (F := Ideal) d16 hd) j
  rw [e4, e3, e2, e1]
  unfold grpC
  simp only [add_assoc]

/-- Group `g` of a chunk, at index `j`. -/
def chunkG (d : Dev nD) (L : grid0.Coords) (T : S40960.Idx → EReal) (sC dC : S2000.Idx → BitVec 32) (g : Fin k0_t3_loop.trips) (j : S40960.Idx) : EReal :=
  grpC T (grpOf (F := Ideal) d L sC g) (grpOfD (F := Ideal) d L dC g) j

theorem accG_apply (d : Dev nD) (L : grid0.Coords) (T : S40960.Idx → EReal) (sC dC : S2000.Idx → BitVec 32)
    (hs : ∀ j, (sC j).toNat < 10000) (hd : ∀ j, (dC j).toNat < 10000) (a : S40960.Idx → EReal) (j : S40960.Idx) :
    ∀ n, n ≤ k0_t3_loop.trips →
      accG (F := Ideal) d L T sC dC hs hd n a j = a j + ∑ g : Fin k0_t3_loop.trips, if g.val < n then chunkG d L T sC dC g j else 0
  | 0, _ => by rw [accG_zero]; simp
  | n + 1, hn => by
    have h : n < k0_t3_loop.trips := hn
    refine (congrFun (accG_succ (F := Ideal) d L T sC dC hs hd ⟨n, h⟩ a) j).trans ?_
    refine (grpStep_apply d L T _ _ _ _ _ j).trans ?_
    rw [accG_apply d L T sC dC hs hd a j n (le_of_lt h), sum_lt_succ _ n h, add_assoc]
    rfl

/-- Chunk `k`, at index `j`: its groups'. -/
def chunkK (d : Dev nD) (L : grid0.Coords) (T : S40960.Idx → EReal) (fs fd : S320000.Idx → BitVec 32) (k : Fin k0_t2_loop.trips) (j : S40960.Idx) : EReal :=
  ∑ g : Fin k0_t3_loop.trips, chunkG d L T (chunkOf (F := Ideal) d L fs k) (chunkOfD (F := Ideal) d L fd k) g j

theorem accK_apply (d : Dev nD) (L : grid0.Coords) (T : S40960.Idx → EReal) (fs fd : S320000.Idx → BitVec 32)
    (hs : ∀ j, (fs j).toNat < 10000) (hd : ∀ j, (fd j).toNat < 10000) (a : S40960.Idx → EReal) (j : S40960.Idx) :
    ∀ n, n ≤ k0_t2_loop.trips →
      accK (F := Ideal) d L T fs fd hs hd n a j = a j + ∑ k : Fin k0_t2_loop.trips, if k.val < n then chunkK d L T fs fd k j else 0
  | 0, _ => by rw [accK_zero]; simp
  | n + 1, hn => by
    have h : n < k0_t2_loop.trips := hn
    refine (congrFun (accK_succ (F := Ideal) d L T fs fd hs hd ⟨n, h⟩ a) j).trans ?_
    refine (accG_apply d L T _ _ _ _ _ j k0_t3_loop.trips le_rfl).trans ?_
    have e : (∑ g : Fin k0_t3_loop.trips, if g.val < k0_t3_loop.trips then
          chunkG d L T (chunkOf (F := Ideal) d L fs ⟨n, h⟩) (chunkOfD (F := Ideal) d L fd ⟨n, h⟩) g j else 0) = chunkK d L T fs fd ⟨n, h⟩ j :=
      Finset.sum_congr rfl fun g _ => if_pos g.isLt
    rw [e, accK_apply d L T fs fd hs hd a j n (le_of_lt h), sum_lt_succ _ n h, add_assoc]

/-! ## The zero-fill leaves zeros -/

theorem pay1_zero (x : S16.Idx) : k0_pay1 (F := Ideal) x = (0 : EReal) :=
  show (Ideal.ofBits .f32 0x00000000#32 : EReal) = 0 from Idealize.ShloMosaic.Ideal.ofBits_zero_f32

theorem zfill_lt (d : Dev nD) (L : grid0.Coords) (f : S40960.Idx → EReal) :
    ∀ n, n ≤ k0_t1_loop.trips → ∀ j : S40960.Idx, (j 0).val < 16 * n → zfill (F := Ideal) d L n f j = (0 : EReal)
  | 0, _, j, hj => absurd hj (by omega)
  | n + 1, hn, j, hj => by
    have h : n < k0_t1_loop.trips := hn
    refine (congrFun (zfill_succ (F := Ideal) d L ⟨n, h⟩ f) j).trans ?_
    rw [View.writes_cons, View.writes_nil]
    have hoff : (k0_off2 ⟨n, h⟩) 0 = 16 * n := congrFun (k0_off2_eq ⟨n, h⟩) 0
    by_cases hlo : (j 0).val < 16 * n
    · rw [View.write_of_not_mem]
      · exact zfill_lt d L f n (le_of_lt h) j hlo
      · intro hm
        obtain ⟨x, -, hx⟩ := Finset.mem_map.mp hm
        have e := congrArg (fun i : S40960.Idx => (i 0).val) hx
        have e' : (k0_off2 ⟨n, h⟩) 0 + 1 * (x 0).val = (j 0).val := e
        omega
    · have hx0 : (j 0).val - 16 * n < 16 := by omega
      have hjx : (t0sc1.view.slice (Rect.unit (s := S40960) (k0_off2 ⟨n, h⟩) S16.size (k0_off2_inb ⟨n, h⟩))).emb (ValueIdx.ix1 ⟨(j 0).val - 16 * n, hx0⟩) = j := by
        funext a
        match a with
        | ⟨0, _⟩ =>
          apply Fin.ext
          show (k0_off2 ⟨n, h⟩) 0 + 1 * ((j 0).val - 16 * n) = (j 0).val
          omega
      have hw := View.write_emb_of_mem (v := t0sc1.view.slice (Rect.unit (s := S40960) (k0_off2 ⟨n, h⟩) S16.size (k0_off2_inb ⟨n, h⟩))) (Val := Elt Ideal)
        (zfill (F := Ideal) d L n f) (k0_pay1 (F := Ideal)) (Finset.mem_univ (ValueIdx.ix1 ⟨(j 0).val - 16 * n, hx0⟩))
      rw [hjx, cast_eq] at hw
      exact hw.trans (pay1_zero _)

theorem zfill_all (d : Dev nD) (L : grid0.Coords) (f : S40960.Idx → EReal) (j : S40960.Idx) :
    zfill (F := Ideal) d L k0_t1_loop.trips f j = (0 : EReal) :=
  zfill_lt d L f k0_t1_loop.trips le_rfl j (by
    have h1 : (j 0).val < 40960 := (j 0).isLt
    have e : k0_t1_loop.trips = 2560 := by decide
    rw [e]; exact h1)

/-! ## The task's result at an index: the sum over chunks, groups, rows and lanes -/

theorem out0_apply (d : Dev nD) (L : grid0.Coords) (ft : Buf (Elt Ideal) ((tabSl0 L).view.loc (V d (cV0 L) (jV0 L)))) (fs fd : S320000.Idx → BitVec 32)
    (hs : ∀ j, (fs j).toNat < 10000) (hd : ∀ j, (fd j).toNat < 10000) (f1 : S40960.Idx → EReal) (j : S40960.Idx) :
    out0 (F := Ideal) d L ft fs fd hs hd f1 j = ∑ k : Fin k0_t2_loop.trips, chunkK d L (tabT (F := Ideal) d L ft) fs fd k j := by
  unfold out0 agg0
  rw [accK_apply d L _ fs fd hs hd _ j k0_t2_loop.trips le_rfl, zfill_all, zero_add]
  exact Finset.sum_congr rfl fun k _ => if_pos k.isLt

end Cert.Proof.AggIdeal

end
-- ==== Proof.KIAggEdges.lean ====
/-
  The first aggregation's result at the ideal instance, as a sum over the edges.

  Of a group's four rows only the one the index lies in can reach it: a destination word is below 10000 and the rows
  start 10240 apart, so (destination + row start) is the index exactly when the row is the index's and the destination
  its place in the row. A lane's word is the edge list's word at 2000 · chunk + 16 · group + lane: the chunk's slice
  starts at 2000 · chunk, the group's rectangle at 16 · group, both of unit stride. The sum over chunks, groups and
  lanes is then the sum over the 320000 edges, by the division of a range into equal blocks, twice. So the result at
  row c and node n of the tile's stretch is the sum, over the edges whose destination is n, of the table's word at row
  c and the edge's source.
-/
import proofs.«211848_g47218870452992_cont_8to1c4_747_2_alg».proof.Proof.KIAggIdeal
import Mathlib.Tactic.IntervalCases

noncomputable section

open scoped BigOperators

namespace Cert.Proof.AggIdeal

open Idealize.ShloMosaic Cert.KernelIdeal Cert.KernelIdeal.Gen Cert.Proof.KernelIdealL Idealize.ShloMosaic.SparseCore

/-! ## Of a group's four rows only the index's own can reach it -/

theorem row_pick (t : ℕ → EReal) (dwx swx j0 : ℕ) (hd : dwx < 10000) (hj : j0 < 40960) :
    (if dwx + 0 = j0 then t (swx + 0) else 0) + (if dwx + 10240 = j0 then t (swx + 10240) else 0)
        + (if dwx + 20480 = j0 then t (swx + 20480) else 0) + (if dwx + 30720 = j0 then t (swx + 30720) else 0)
      = if dwx = j0 % 10240 then t (j0 / 10240 * 10240 + swx) else 0 := by
  obtain ⟨q, r, hr, rfl⟩ : ∃ q r, r < 10240 ∧ j0 = 10240 * q + r :=
    ⟨j0 / 10240, j0 % 10240, Nat.mod_lt _ (by norm_num), (Nat.div_add_mod _ _).symm⟩
  have hq : q < 4 := by omega
  have e1 : (10240 * q + r) % 10240 = r := by omega
  have e2 : (10240 * q + r) / 10240 = q := by omega
  rw [e1, e2]
  have hq4 : q = 0 ∨ q = 1 ∨ q = 2 ∨ q = 3 := by omega
  rcases hq4 with rfl | rfl | rfl | rfl
  · by_cases hdr : dwx = r
    · rw [if_pos (by omega), if_neg (by omega), if_neg (by omega), if_neg (by omega), if_pos hdr]
      simp only [zero_add, add_zero]
      congr 1; omega
    · rw [if_neg (by omega), if_neg (by omega), if_neg (by omega), if_neg (by omega), if_neg hdr]
      simp only [add_zero]
  · by_cases hdr : dwx = r
    · rw [if_neg (by omega), if_pos (by omega), if_neg (by omega), if_neg (by omega), if_pos hdr]
      simp only [zero_add, add_zero]
      congr 1; omega
    · rw [if_neg (by omega), if_neg (by omega), if_neg (by omega), if_neg (by omega), if_neg hdr]
      simp only [add_zero]
  · by_cases hdr : dwx = r
    · rw [if_neg (by omega), if_neg (by omega), if_pos (by omega), if_neg (by omega), if_pos hdr]
      simp only [zero_add, add_zero]
      congr 1; omega
    · rw [if_neg (by omega), if_neg (by omega), if_neg (by omega), if_neg (by omega), if_neg hdr]
      simp only [add_zero]
  · by_cases hdr : dwx = r
    · rw [if_neg (by omega), if_neg (by omega), if_neg (by omega), if_pos (by omega), if_pos hdr]
      simp only [zero_add, add_zero]
      congr 1; omega
    · rw [if_neg (by omega), if_neg (by omega), if_neg (by omega), if_neg (by omega), if_neg hdr]
      simp only [add_zero]

theorem grpC_pick (T : S40960.Idx → EReal) (sw dw : S16.Idx → BitVec 32) (hd : ∀ x, (dw x).toNat < 10000) (j : S40960.Idx) :
    grpC T sw dw j = ∑ k : Fin ((![16] : Fin 1 → ℕ) 0),
      if (dw (Shape.ofLane k)).toNat = (j 0).val % 10240 then Tn T ((j 0).val / 10240 * 10240 + (sw (Shape.ofLane k)).toNat) else 0 := by
  unfold grpC rowC
  rw [← Finset.sum_add_distrib, ← Finset.sum_add_distrib, ← Finset.sum_add_distrib]
  exact Finset.sum_congr rfl fun k _ => row_pick (Tn T) _ _ _ (hd _) (j 0).isLt

/-! ## The lanes' words are the edge lists' words -/

/-- An edge list's word at a number (zero past its end). -/
def fN (fe : S320000.Idx → BitVec 32) (e : ℕ) : ℕ := if h : e < 320000 then (fe (ValueIdx.ix1 ⟨e, h⟩)).toNat else 0

theorem trips2 : k0_t2_loop.trips = 160 := by decide
theorem trips3 : k0_t3_loop.trips = 125 := by decide

theorem edge_lt (k : Fin k0_t2_loop.trips) (g : Fin k0_t3_loop.trips) (x : Fin ((![16] : Fin 1 → ℕ) 0)) :
    2000 * k.val + 16 * g.val + x.val < 320000 := by
  have hk : k.val < 160 := lt_of_lt_of_eq k.isLt trips2
  have hg : g.val < 125 := lt_of_lt_of_eq g.isLt trips3
  have hx : x.val < 16 := x.isLt
  omega

theorem grp_word (d : Dev nD) (L : grid0.Coords) (fe : S320000.Idx → BitVec 32) (k : Fin k0_t2_loop.trips) (g : Fin k0_t3_loop.trips)
    (x : Fin ((![16] : Fin 1 → ℕ) 0)) :
    (grpOf (F := Ideal) d L (chunkOf (F := Ideal) d L fe k) g (Shape.ofLane x)).toNat = fN fe (2000 * k.val + 16 * g.val + x.val) := by
  have h3 : (k0_off3 k) 0 = 2000 * k.val := congrFun (k0_off3_eq k) 0
  have h4 : (k0_off4 g) 0 = 16 * g.val := congrFun (k0_off4_eq g) 0
  unfold fN
  rw [dif_pos (edge_lt k g x)]
  unfold grpOf chunkOf
  simp only [View.readAt_apply, View.read_apply, cast_eq]
  congr 2
  funext a
  match a with
  | ⟨0, _⟩ =>
    apply Fin.ext
    show (k0_off3 k) 0 + 1 * ((k0_off4 g) 0 + 1 * x.val) = 2000 * k.val + 16 * g.val + x.val
    rw [h3, h4]; omega

theorem grp_wordD (d : Dev nD) (L : grid0.Coords) (fe : S320000.Idx → BitVec 32) (k : Fin k0_t2_loop.trips) (g : Fin k0_t3_loop.trips)
    (x : Fin ((![16] : Fin 1 → ℕ) 0)) :
    (grpOfD (F := Ideal) d L (chunkOfD (F := Ideal) d L fe k) g (Shape.ofLane x)).toNat = fN fe (2000 * k.val + 16 * g.val + x.val) := by
  have h3 : (k0_off3 k) 0 = 2000 * k.val := congrFun (k0_off3_eq k) 0
  have h4 : (k0_off4 g) 0 = 16 * g.val := congrFun (k0_off4_eq g) 0
  unfold fN
  rw [dif_pos (edge_lt k g x)]
  unfold grpOfD chunkOfD
  simp only [View.readAt_apply, View.read_apply, cast_eq]
  congr 2
  funext a
  match a with
  | ⟨0, _⟩ =>
    apply Fin.ext
    show (k0_off3 k) 0 + 1 * ((k0_off4 g) 0 + 1 * x.val) = 2000 * k.val + 16 * g.val + x.val
    rw [h3, h4]; omega

/-! ## The sum over chunks, groups and lanes is the sum over edges -/

/-- One edge's contribution to index `j`. -/
def edgeT (T : S40960.Idx → EReal) (fs fd : S320000.Idx → BitVec 32) (j : S40960.Idx) (e : ℕ) : EReal :=
  if fN fd e = (j 0).val % 10240 then Tn T ((j 0).val / 10240 * 10240 + fN fs e) else 0

theorem sum_range_2 (n p : ℕ) (H : ℕ → EReal) :
    (∑ g ∈ Finset.range n, ∑ x ∈ Finset.range p, H (p * g + x)) = ∑ e ∈ Finset.range (n * p), H e := by
  induction n with
  | zero => simp
  | succ n ih =>
    rw [Finset.sum_range_succ, ih, Nat.succ_mul, Finset.sum_range_add]
    congr 1
    exact Finset.sum_congr rfl fun x _ => by rw [Nat.mul_comm]

theorem chunkG_eq (d : Dev nD) (L : grid0.Coords) (T : S40960.Idx → EReal) (fs fd : S320000.Idx → BitVec 32) (hd : ∀ j, (fd j).toNat < 10000)
    (k : Fin k0_t2_loop.trips) (g : Fin k0_t3_loop.trips) (j : S40960.Idx) :
    chunkG d L T (chunkOf (F := Ideal) d L fs k) (chunkOfD (F := Ideal) d L fd k) g j
      = ∑ x ∈ Finset.range 16, edgeT T fs fd j (2000 * k.val + (16 * g.val + x)) := by
  unfold chunkG
  rw [grpC_pick T (grpOf (F := Ideal) d L (chunkOf (F := Ideal) d L fs k) g) (grpOfD (F := Ideal) d L (chunkOfD (F := Ideal) d L fd k) g) (fun _ => hd _) j]
  rw [← Fin.sum_univ_eq_sum_range (fun x => edgeT T fs fd j (2000 * k.val + (16 * g.val + x))) 16]
  refine Finset.sum_congr rfl fun x _ => ?_
  unfold edgeT
  rw [grp_word, grp_wordD, Nat.add_assoc]

theorem out0_edges (d : Dev nD) (L : grid0.Coords) (ft : Buf (Elt Ideal) ((tabSl0 L).view.loc (V d (cV0 L) (jV0 L)))) (fs fd : S320000.Idx → BitVec 32)
    (hs : ∀ j, (fs j).toNat < 10000) (hd : ∀ j, (fd j).toNat < 10000) (f1 : S40960.Idx → EReal) (j : S40960.Idx) :
    out0 (F := Ideal) d L ft fs fd hs hd f1 j = ∑ e : Fin 320000, edgeT (tabT (F := Ideal) d L ft) fs fd j e.val := by
  rw [out0_apply, Fin.sum_univ_eq_sum_range (fun e => edgeT (tabT (F := Ideal) d L ft) fs fd j e) 320000]
  unfold chunkK
  have e1 : ∀ k : Fin k0_t2_loop.trips, (∑ g : Fin k0_t3_loop.trips, chunkG d L (tabT (F := Ideal) d L ft) (chunkOf (F := Ideal) d L fs k) (chunkOfD (F := Ideal) d L fd k) g j)
      = ∑ e ∈ Finset.range 2000, edgeT (tabT (F := Ideal) d L ft) fs fd j (2000 * k.val + e) := by
    intro k
    rw [Finset.sum_congr rfl fun g _ => chunkG_eq d L _ fs fd hd k g j,
      Fin.sum_univ_eq_sum_range (fun g => ∑ x ∈ Finset.range 16, edgeT (tabT (F := Ideal) d L ft) fs fd j (2000 * k.val + (16 * g + x))) k0_t3_loop.trips,
      trips3, sum_range_2 125 16 (fun i => edgeT (tabT (F := Ideal) d L ft) fs fd j (2000 * k.val + i))]
  rw [Finset.sum_congr rfl fun k _ => e1 k,
    Fin.sum_univ_eq_sum_range (fun k => ∑ e ∈ Finset.range 2000, edgeT (tabT (F := Ideal) d L ft) fs fd j (2000 * k + e)) k0_t2_loop.trips,
    trips2, sum_range_2 160 2000 (fun i => edgeT (tabT (F := Ideal) d L ft) fs fd j i)]

/-! ## The result stretch, in the arrays' own words -/

/-- The table's four rows of the tile, read at a number (zero past their end). -/
def tabN (d : Dev nD) (L : grid0.Coords) (ft : Buf (Elt Ideal) ((tabSl0 L).view.loc (V d (cV0 L) (jV0 L)))) (n : ℕ) : EReal :=
  if h : n < 40960 then (ft ((tabSl0 L).view.emb (ValueIdx.ix1 ⟨n, h⟩)) : EReal) else 0

theorem Tn_tabT (d : Dev nD) (L : grid0.Coords) (ft : Buf (Elt Ideal) ((tabSl0 L).view.loc (V d (cV0 L) (jV0 L)))) (n : ℕ) :
    Tn (tabT (F := Ideal) d L ft) n = tabN d L ft n := by
  unfold Tn tabN tabT
  by_cases h : n < 40960
  · rw [dif_pos h, dif_pos h, View.read_apply, cast_eq]
  · rw [dif_neg h, dif_neg h]

theorem fN_val (fe : S320000.Idx → BitVec 32) (e : Fin 320000) : fN fe e.val = (fe (ValueIdx.ix1 e)).toNat := by
  unfold fN; rw [dif_pos e.isLt]

/-- At row `c` and node `n` of the tile's stretch (index `10240 c + n`) the result is the sum, over the edges whose destination is `n`, of
    the table's word at row `c` and the edge's source. -/
theorem out0_sum (d : Dev nD) (L : grid0.Coords) (ft : Buf (Elt Ideal) ((tabSl0 L).view.loc (V d (cV0 L) (jV0 L)))) (fs fd : S320000.Idx → BitVec 32)
    (hs : ∀ j, (fs j).toNat < 10000) (hd : ∀ j, (fd j).toNat < 10000) (f1 : S40960.Idx → EReal) (y : S40960.Idx) :
    out0 (F := Ideal) d L ft fs fd hs hd f1 y
      = ∑ e ∈ Finset.univ.filter (fun e : Fin 320000 => (fd (ValueIdx.ix1 e)).toNat = (y 0).val % 10240),
          tabN d L ft ((y 0).val / 10240 * 10240 + (fs (ValueIdx.ix1 e)).toNat) := by
  rw [out0_edges, Finset.sum_filter]
  refine Finset.sum_congr rfl fun e _ => ?_
  unfold edgeT
  rw [fN_val, fN_val, Tn_tabT]

/-- The same of the result stretch's buffer as the task leaves it. -/
theorem out_buf_sum (d : Dev nD) (L : grid0.Coords) (ft : Buf (Elt Ideal) ((tabSl0 L).view.loc (V d (cV0 L) (jV0 L)))) (fs fd : S320000.Idx → BitVec 32)
    (hs : ∀ j, (fs j).toNat < 10000) (hd : ∀ j, (fd j).toNat < 10000) (f1 : S40960.Idx → EReal)
    (f : Buf (Elt Ideal) ((outSl0 L).view.loc (V d (cV0 L) (jV0 L)))) (hf : (outSl0 L).view.read (Elt Ideal) f = out0 (F := Ideal) d L ft fs fd hs hd f1)
    (y : S40960.Idx) :
    (f ((outSl0 L).view.emb y) : EReal)
      = ∑ e ∈ Finset.univ.filter (fun e : Fin 320000 => (fd (ValueIdx.ix1 e)).toNat = (y 0).val % 10240),
          tabN d L ft ((y 0).val / 10240 * 10240 + (fs (ValueIdx.ix1 e)).toNat) := by
  have h := congrFun hf y
  rw [View.read_apply, cast_eq] at h
  rw [h, out0_sum]

end Cert.Proof.AggIdeal

end
-- ==== Proof.KIRead.lean ====
/-
  The TensorCore's buffer contents through @main, read at an index on the extended reals: the host stretches are shape
  casts, transposes and one padding, so each buffer they write is an argument array or an aggregation's result re-indexed
  (a matrix flattened row by row reads entry (r, c) at r · width + c; the padded columns read the real 0); an
  aggregation's result at (row r, node n) is the sum over the edges arriving at n of the table's row r at the edge's
  source, and is 0 at the padding's columns, where no edge arrives.
-/
import proofs.«211848_g47218870452992_cont_8to1c4_747_2_alg».proof.Proof.KIFold
import Idealize.ShloMosaic.Lib.ValueLayout
import Idealize.ShloMosaic.Lib.KernelVsHost

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem Idealize.ShloMosaic.StableHlo
open scoped BigOperators

/-! ## Shape casts between a matrix and its rows laid end to end -/

/-- A matrix flattened reads, at r · b + c, its entry (r, c). -/
theorem flat_apply {α : Type} {a b N : ℕ} (x : (⟨2, ![a, b]⟩ : Shape).Idx → α)
    (h : (⟨2, ![a, b]⟩ : Shape).ShapeCasts ⟨1, ![N]⟩) (r : Fin a) (c : Fin b) (hi : r.val * b + c.val < N) :
    shapeCast ⟨1, ![N]⟩ x h (ix1 ⟨r.val * b + c.val, hi⟩) = x (ix2 r c) :=
  shapeCast_apply x h _ _ (by rw [Shape.rowMajor_val_two, Shape.rowMajor_val_one]; rfl)

/-- A flat array as a matrix reads, at (r, c), its entry r · b + c. -/
theorem unflat_apply {α : Type} {a b N : ℕ} (x : (⟨1, ![N]⟩ : Shape).Idx → α)
    (h : (⟨1, ![N]⟩ : Shape).ShapeCasts ⟨2, ![a, b]⟩) (r : Fin a) (c : Fin b) (hi : r.val * b + c.val < N) :
    shapeCast ⟨2, ![a, b]⟩ x h (ix2 r c) = x (ix1 ⟨r.val * b + c.val, hi⟩) :=
  shapeCast_apply x h _ _ (by rw [Shape.rowMajor_val_two, Shape.rowMajor_val_one]; rfl)

/-- A vector as a column reads, at (i, 0), its entry i. -/
theorem col_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-! ## After the first stretch -/

variable (m : (ℓ : Loc nD τ sig) → Buf (Elt Ideal) ℓ)

/-- The argument arrays of device `d` as launched, at their literal types. -/
abbrev xA (d : Dev nD) : FVec Ideal ⟨2, ![10000, 128]⟩ .f32 := m ((d.tc : Thread nD τ).loc main_arg0)
abbrev eiA (d : Dev nD) : IVec ⟨2, ![2, 320000]⟩ 32 := m ((d.tc : Thread nD τ).loc main_arg1)
abbrev W1A (d : Dev nD) : FVec Ideal ⟨2, ![128, 256]⟩ .f32 := m ((d.tc : Thread nD τ).loc main_arg2)
abbrev b1A (d : Dev nD) : FVec Ideal ⟨1, ![256]⟩ .f32 := m ((d.tc : Thread nD τ).loc main_arg3)
abbrev a1A (d : Dev nD) : FVec Ideal ⟨1, ![256]⟩ .f32 := m ((d.tc : Thread nD τ).loc main_arg4)
abbrev W2A (d : Dev nD) : FVec Ideal ⟨2, ![256, 256]⟩ .f32 := m ((d.tc : Thread nD τ).loc main_arg5)
abbrev b2A (d : Dev nD) : FVec Ideal ⟨1, ![256]⟩ .f32 := m ((d.tc : Thread nD τ).loc main_arg6)
abbrev a2A (d : Dev nD) : FVec Ideal ⟨1, ![256]⟩ .f32 := m ((d.tc : Thread nD τ).loc main_arg7)
abbrev WdA (d : Dev nD) : FVec Ideal ⟨2, ![256, 16]⟩ .f32 := m ((d.tc : Thread nD τ).loc main_arg8)
abbrev bdA (d : Dev nD) : FVec Ideal ⟨1, ![16]⟩ .f32 := m ((d.tc : Thread nD τ).loc main_arg9)

/-- The table of the first aggregation: the features transposed, padded to 10240 columns with the converted integer 0,
    flattened. -/
theorem V1_v6 (d : Dev nD) : V1 m d (Proc.devRef .tc main_v6) = fun i =>
    shapeCast S1310720 (pad S128x10240 ![0, 0] ![0, 240] ![0, 0]
      (transpose S128x10000 [1, 0] (m ((d.tc : Thread nD τ).loc main_arg0)) transposes_S10000x128_S128x10000_1_0)
      (sitofp (F := Ideal) .f32 (constantI S_ 32 0#32)) pads_S128x10000_S128x10240_000_02400 h_S_) shapeCasts_S128x10240_S1310720 i := by
  unfold V1 W1; after_results; rfl

theorem V1_v1 (d : Dev nD) : V1 m d (Proc.devRef .tc main_v1) = fun i =>
    shapeCast S320000 (extractStridedSlice S1x320000 ![0, 0] (m ((d.tc : Thread nD τ).loc main_arg1)) slices_S2x320000_S1x320000_0_0) shapeCasts_S1x320000_S320000 i := by
  unfold V1 W1; after_results; rfl
theorem V1_v3 (d : Dev nD) : V1 m d (Proc.devRef .tc main_v3) = fun i =>
    shapeCast S320000 (extractStridedSlice S1x320000 ![1, 0] (m ((d.tc : Thread nD τ).loc main_arg1)) slices_S2x320000_S1x320000_1_0) shapeCasts_S1x320000_S320000 i := by
  unfold V1 W1; after_results; rfl

/-- The first stretch writes no argument array (nor anything but its own nine buffers). -/
theorem V1_of (d : Dev nD) (r : Ref sig .tc) (h : r ∉ ops1_W) : V1 m d (Proc.devRef .tc r) = m (d, Proc.devRef .tc r) :=
  W1_arg m d r h

/-- R1. The table at (feature f, column n): the node's feature below 10000, the real 0 at the padding's columns. -/
theorem V1_v6_apply (d : Dev nD) (f : Fin 128) (n : Fin 10240) (hi : f.val * 10240 + n.val < 1310720) :
    V1 m d (Proc.devRef .tc main_v6) (ix1 ⟨f.val * 10240 + n.val, hi⟩)
      = if hn : n.val < 10000 then xA m d (ix2 ⟨n.val, hn⟩ f) else 0 := by
  rw [V1_v6]
  show shapeCast S1310720 _ shapeCasts_S128x10240_S1310720 (ix1 ⟨f.val * 10240 + n.val, hi⟩) = _
  rw [flat_apply _ _ f n hi]
  by_cases hn : n.val < 10000
  · rw [dif_pos hn, pad_apply_of_inside _ _ _ _ _ _ _ (ix2 f n) (ix2 f (⟨n.val, hn⟩ : Fin 10000)) (fun a => by
      match a with
      | ⟨0, _⟩ => show f.val = 0 + f.val * (0 + 1); omega
      | ⟨1, _⟩ => show n.val = 0 + n.val * (0 + 1); omega)]
    exact transpose_ix2_apply _ _ f ⟨n.val, hn⟩
  · rw [dif_neg hn, pad_apply_of_not_inside _ _ _ _ _ _ _ (ix2 f n) (1 : Fin 2) (fun hc => hn (by
      have h3 : (n.val - 0) / (0 + 1) < 10000 := hc.2.2
      simpa using h3))]
    show (((0#32 : BitVec 32).toInt : ℝ) : EReal) = 0
    have z0 : (0#32 : BitVec 32).toInt = 0 := by decide
    rw [z0]; simp

/-- R1'. The edge sources and destinations are the edge list's two rows. -/
theorem V1_v1_apply (d : Dev nD) (e : Fin 320000) :
    V1 m d (Proc.devRef .tc main_v1) (ix1 e) = eiA m d (ix2 (0 : Fin 2) e) := by
  rw [V1_v1]
  show shapeCast S320000 _ shapeCasts_S1x320000_S320000 (ix1 e) = _
  rw [shapeCast_1a_a_apply]
  exact slice2_axis0_apply 0 _ _ (0 : Fin 1) e (0 : Fin 2) rfl
theorem V1_v3_apply (d : Dev nD) (e : Fin 320000) :
    V1 m d (Proc.devRef .tc main_v3) (ix1 e) = eiA m d (ix2 (1 : Fin 2) e) := by
  rw [V1_v3]
  show shapeCast S320000 _ shapeCasts_S1x320000_S320000 (ix1 e) = _
  rw [shapeCast_1a_a_apply]
  exact slice2_axis0_apply 1 _ _ (0 : Fin 1) e (1 : Fin 2) rfl

/-! ## An aggregation read at (row r, column c) -/

omit m in
theorem aggArr_apply {N : ℕ} (T : (⟨1, ![N]⟩ : Shape).Idx → EReal) (fs fd : (⟨1, ![320000]⟩ : Shape).Idx → BitVec 32)
    (r c : ℕ) (hc : c < 10240) (hi : r * 10240 + c < N) :
    aggArr T fs fd (ix1 ⟨r * 10240 + c, hi⟩)
      = ∑ e ∈ Finset.univ.filter (fun e : Fin 320000 => (fd (ix1 e)).toNat = c),
          T (ix1 ⟨(r * 10240 + (fs (ix1 e)).toNat) % N, Nat.mod_lt _ (by omega)⟩) := by
  have h1 : (r * 10240 + c) % 10240 = c := by omega
  have h2 : (r * 10240 + c) / 10240 = r := by omega
  unfold aggArr
  refine Finset.sum_congr (Finset.filter_congr fun e _ => ?_) fun e _ => ?_
  · show (fd (ix1 e)).toNat = (r * 10240 + c) % 10240 ↔ (fd (ix1 e)).toNat = c
    rw [h1]
  · refine congrArg T (congrArg ix1 (Fin.ext ?_))
    show ((r * 10240 + c) / 10240 * 10240 + (fs (ix1 e)).toNat) % N = (r * 10240 + (fs (ix1 e)).toNat) % N
    rw [h2]

/-- R2. The first aggregation's result at (feature f, column n): the kernel's aggregate at node n below 10000, and 0 at
    the padding's columns, where no edge arrives. -/
theorem res0_apply (d : Dev nD) (hei : ∀ i, (eiA m d i).toNat < 10000) (f : Fin 128) (n : Fin 10240)
    (hi : f.val * 10240 + n.val < 1310720) :
    res0 m d (ix1 ⟨f.val * 10240 + n.val, hi⟩)
      = if hn : n.val < 10000 then Cert.KerSpec.agg1 (xA m d) (eiA m d) f ⟨n.val, hn⟩ else 0 := by
  unfold res0
  rw [aggArr_apply _ _ _ f.val n.val n.isLt hi]
  by_cases hn : n.val < 10000
  · rw [dif_pos hn]
    unfold Cert.KerSpec.agg1 Cert.RefSpec.dst Cert.RefSpec.src
    show (_ : EReal) = _
    refine Finset.sum_congr (Finset.filter_congr fun e _ => ?_) fun e _ => ?_
    · rw [V1_v3_apply, Fin.ext_iff, Cert.RefSpec.node_val _ (hei _)]
    · rw [V1_v1_apply]
      have hs := hei (ix2 (0 : Fin 2) e)
      have hlt : f.val * 10240 + (eiA m d (ix2 (0 : Fin 2) e)).toNat < 1310720 := by have := f.isLt; omega
      have hix : (ix1 ⟨(f.val * 10240 + (eiA m d (ix2 (0 : Fin 2) e)).toNat) % 1310720, Nat.mod_lt _ (by omega)⟩ : (⟨1, ![1310720]⟩ : Shape).Idx)
          = ix1 ⟨f.val * 10240 + (⟨(eiA m d (ix2 (0 : Fin 2) e)).toNat, by omega⟩ : Fin 10240).val, hlt⟩ :=
        congrArg ix1 (Fin.ext (Nat.mod_eq_of_lt hlt))
      rw [hix, V1_v6_apply m d f ⟨(eiA m d (ix2 (0 : Fin 2) e)).toNat, by omega⟩ hlt, dif_pos hs]
      exact congrArg (fun a => xA m d (ix2 a f)) (Fin.ext (Cert.RefSpec.node_val _ hs).symm)
  · show (_ : EReal) = _
    rw [dif_neg hn, Finset.filter_false_of_mem (fun e _ => by rw [V1_v3_apply]; have := hei (ix2 (1 : Fin 2) e); omega), Finset.sum_empty]

/-! ## After the second stretch -/

/-- A reference the second stretch does not write, other than the first aggregation's result, holds after it what it held
    after the first stretch. -/
theorem V3_of (d : Dev nD) (r : Ref sig .tc) (h2 : r ∉ ops2_W) (h7 : r ≠ main_v7) :
    V3 m d (Proc.devRef .tc r) = V1 m d (Proc.devRef .tc r) := by
  unfold V3 V2
  rw [StableHlo.after_of_writes_sub ops2 _ ops2_writes h2, Function.update_of_ne (StableHlo.devRef_ne_of_ne h7)]

theorem V3_v8 (d : Dev nD) : V3 m d (Proc.devRef .tc main_v8) = fun i => shapeCast S128x10240 (res0 m d) shapeCasts_S1310720_S128x10240 i := by
  unfold V3; after_results; unfold V2; simp only [Function.update_self]; rfl
theorem V3_v9 (d : Dev nD) : V3 m d (Proc.devRef .tc main_v9) = transpose S256x128 [1, 0] (W1A m d) transposes_S128x256_S256x128_1_0 := by
  unfold V3; after_results; unfold V2
  rw [Function.update_of_ne (show (Proc.devRef .tc main_arg2 : DevRef τ sig) ≠ Proc.devRef .tc main_v7 by decide), V1_of m d main_arg2 (by decide)]
theorem V3_v10 (d : Dev nD) : V3 m d (Proc.devRef .tc main_v10) = fun i => shapeCast S256x1 (b1A m d) shapeCasts_S256_S256x1 i := by
  unfold V3; after_results; unfold V2
  rw [Function.update_of_ne (show (Proc.devRef .tc main_arg3 : DevRef τ sig) ≠ Proc.devRef .tc main_v7 by decide), V1_of m d main_arg3 (by decide)]; rfl
theorem V3_v11 (d : Dev nD) : V3 m d (Proc.devRef .tc main_v11) = fun i => shapeCast S256x1 (a1A m d) shapeCasts_S256_S256x1 i := by
  unfold V3; after_results; unfold V2
  rw [Function.update_of_ne (show (Proc.devRef .tc main_arg4 : DevRef τ sig) ≠ Proc.devRef .tc main_v7 by decide), V1_of m d main_arg4 (by decide)]; rfl

/-- R3. The first layer's operands: the aggregate as a matrix, the weights transposed, the bias and the slope as columns. -/
theorem V3_v8_apply (d : Dev nD) (f : Fin 128) (n : Fin 10240) (hi : f.val * 10240 + n.val < 1310720) :
    V3 m d (Proc.devRef .tc main_v8) (ix2 f n) = res0 m d (ix1 ⟨f.val * 10240 + n.val, hi⟩) := by
  rw [V3_v8]; exact unflat_apply _ _ f n hi
theorem V3_v9_apply (d : Dev nD) (h : Fin 256) (f : Fin 128) :
    V3 m d (Proc.devRef .tc main_v9) (ix2 h f) = W1A m d (ix2 f h) := by
  rw [V3_v9]; exact transpose_ix2_apply _ _ h f
theorem V3_v10_apply (d : Dev nD) (h : Fin 256) (u : Fin 1) :
    V3 m d (Proc.devRef .tc main_v10) (ix2 h u) = b1A m d (ix1 h) := by
  rw [V3_v10]; exact col_apply _ _ h u
theorem V3_v11_apply (d : Dev nD) (h : Fin 256) (u : Fin 1) :
    V3 m d (Proc.devRef .tc main_v11) (ix2 h u) = a1A m d (ix1 h) := by
  rw [V3_v11]; exact col_apply _ _ h u

/-! ## Through the first layer's region and the third stretch -/

variable (R0 R1 : Dev nD → Valuation τ sig (Elt Ideal) → Valuation τ sig (Elt Ideal))

/-- The first layer's output array, as the region left it, at its literal type. -/
abbrev L1T (d : Dev nD) : FVec Ideal ⟨2, ![256, 10240]⟩ .f32 := V4 m R0 d (Proc.devRef .tc main_v12)

/-- A reference the third stretch does not write holds after it what the region left. -/
theorem V5_of (d : Dev nD) (r : Ref sig .tc) (h3 : r ∉ ops3_W) : V5 m R0 d (Proc.devRef .tc r) = V4 m R0 d (Proc.devRef .tc r) := by
  unfold V5; exact StableHlo.after_of_writes_sub ops3 _ ops3_writes h3

/-- A reference neither the region (which writes the layer's output only), nor the stretches around it, nor the first
    aggregation writes holds after the third stretch what it held after the first. -/
theorem V5_kept (d : Dev nD) (hR0 : ∀ d W (r : Ref sig .tc), r ≠ main_v12 → R0 d W (Proc.devRef .tc r) = W (Proc.devRef .tc r))
    (r : Ref sig .tc) (h12 : r ≠ main_v12) (h3 : r ∉ ops3_W) (h2 : r ∉ ops2_W) (h7 : r ≠ main_v7) :
    V5 m R0 d (Proc.devRef .tc r) = V1 m d (Proc.devRef .tc r) := by
  rw [V5_of m R0 d r h3]
  unfold V4
  rw [hR0 d _ r h12, V3_of m d r h2 h7]

theorem V5_v13 (d : Dev nD) : V5 m R0 d (Proc.devRef .tc main_v13) = fun i =>
    shapeCast S2621440 (V4 m R0 d (Proc.devRef .tc main_v12)) shapeCasts_S256x10240_S2621440 i := by
  unfold V5; after_results; rfl

/-- R4. The second aggregation's table is the first layer's output, flattened. -/
theorem V5_v13_apply (d : Dev nD) (h : Fin 256) (n : Fin 10240) (hi : h.val * 10240 + n.val < 2621440) :
    V5 m R0 d (Proc.devRef .tc main_v13) (ix1 ⟨h.val * 10240 + n.val, hi⟩) = L1T m R0 d (ix2 h n) := by
  rw [V5_v13]; exact flat_apply _ _ h n hi

/-- R5. The second aggregation's result at (feature h, column n): over the edges arriving at node n, the first layer's
    output at the edge's source; 0 at the padding's columns. -/
theorem res1_apply (d : Dev nD) (hR0 : ∀ d W (r : Ref sig .tc), r ≠ main_v12 → R0 d W (Proc.devRef .tc r) = W (Proc.devRef .tc r))
    (hei : ∀ i, (eiA m d i).toNat < 10000) (h : Fin 256) (n : Fin 10240) (hi : h.val * 10240 + n.val < 2621440) :
    res1 m R0 d (ix1 ⟨h.val * 10240 + n.val, hi⟩)
      = if hn : n.val < 10000 then
          ∑ e ∈ Finset.univ.filter (fun e => Cert.RefSpec.dst (eiA m d) e = ⟨n.val, hn⟩),
            L1T m R0 d (ix2 h (⟨(Cert.RefSpec.src (eiA m d) e).val, by have := (Cert.RefSpec.src (eiA m d) e).isLt; omega⟩ : Fin 10240))
        else 0 := by
  unfold res1
  rw [aggArr_apply _ _ _ h.val n.val n.isLt hi,
    V5_kept m R0 d hR0 main_v1 (by decide) (by decide) (by decide) (by decide),
    V5_kept m R0 d hR0 main_v3 (by decide) (by decide) (by decide) (by decide)]
  by_cases hn : n.val < 10000
  · rw [dif_pos hn]
    unfold Cert.RefSpec.dst Cert.RefSpec.src
    show (_ : EReal) = _
    refine Finset.sum_congr (Finset.filter_congr fun e _ => ?_) fun e _ => ?_
    · rw [V1_v3_apply, Fin.ext_iff, Cert.RefSpec.node_val _ (hei _)]
    · rw [V1_v1_apply]
      have hs := hei (ix2 (0 : Fin 2) e)
      have hlt : h.val * 10240 + (eiA m d (ix2 (0 : Fin 2) e)).toNat < 2621440 := by have := h.isLt; omega
      have hix : (ix1 ⟨(h.val * 10240 + (eiA m d (ix2 (0 : Fin 2) e)).toNat) % 2621440, Nat.mod_lt _ (by omega)⟩ : (⟨1, ![2621440]⟩ : Shape).Idx)
          = ix1 ⟨h.val * 10240 + (⟨(eiA m d (ix2 (0 : Fin 2) e)).toNat, by omega⟩ : Fin 10240).val, hlt⟩ :=
        congrArg ix1 (Fin.ext (Nat.mod_eq_of_lt hlt))
      rw [hix, V5_v13_apply m R0 d h ⟨(eiA m d (ix2 (0 : Fin 2) e)).toNat, by omega⟩ hlt]
      exact congrArg (fun a : Fin 10240 => L1T m R0 d (ix2 h a)) (Fin.ext (Cert.RefSpec.node_val _ hs).symm)
  · show (_ : EReal) = _
    rw [dif_neg hn, Finset.filter_false_of_mem (fun e _ => by rw [V1_v3_apply]; have := hei (ix2 (1 : Fin 2) e); omega), Finset.sum_empty]

/-! ## After the fourth stretch -/

/-- A reference the fourth stretch does not write, other than the second aggregation's result, holds after it what it held
    after the third. -/
theorem V7_of (d : Dev nD) (r : Ref sig .tc) (h4 : r ∉ ops4_W) (h14 : r ≠ main_v14) :
    V7 m R0 d (Proc.devRef .tc r) = V5 m R0 d (Proc.devRef .tc r) := by
  unfold V7 V6
  rw [StableHlo.after_of_writes_sub ops4 _ ops4_writes h4, Function.update_of_ne (StableHlo.devRef_ne_of_ne h14)]

/-- An argument array is as launched after the fourth stretch. -/
theorem V7_arg (d : Dev nD) (hR0 : ∀ d W (r : Ref sig .tc), r ≠ main_v12 → R0 d W (Proc.devRef .tc r) = W (Proc.devRef .tc r))
    (r : Ref sig .tc) (h4 : r ∉ ops4_W) (h14 : r ≠ main_v14) (h12 : r ≠ main_v12) (h3 : r ∉ ops3_W) (h2 : r ∉ ops2_W)
    (h7 : r ≠ main_v7) (h1 : r ∉ ops1_W) : V7 m R0 d (Proc.devRef .tc r) = m (d, Proc.devRef .tc r) := by
  rw [V7_of m R0 d r h4 h14, V5_kept m R0 d hR0 r h12 h3 h2 h7, V1_of m d r h1]

theorem V6_arg (d : Dev nD) (hR0 : ∀ d W (r : Ref sig .tc), r ≠ main_v12 → R0 d W (Proc.devRef .tc r) = W (Proc.devRef .tc r))
    (r : Ref sig .tc) (h14 : r ≠ main_v14) (h12 : r ≠ main_v12) (h3 : r ∉ ops3_W) (h2 : r ∉ ops2_W)
    (h7 : r ≠ main_v7) (h1 : r ∉ ops1_W) : V6 m R0 d (Proc.devRef .tc r) = m (d, Proc.devRef .tc r) := by
  unfold V6
  rw [Function.update_of_ne (StableHlo.devRef_ne_of_ne h14), V5_kept m R0 d hR0 r h12 h3 h2 h7, V1_of m d r h1]

theorem V7_v15 (d : Dev nD) : V7 m R0 d (Proc.devRef .tc main_v15) = fun i => shapeCast S256x10240 (res1 m R0 d) shapeCasts_S2621440_S256x10240 i := by
  unfold V7; after_results; unfold V6; simp only [Function.update_self]; rfl
theorem V7_v16 (d : Dev nD) (hR0 : ∀ d W (r : Ref sig .tc), r ≠ main_v12 → R0 d W (Proc.devRef .tc r) = W (Proc.devRef .tc r)) :
    V7 m R0 d (Proc.devRef .tc main_v16) = transpose S256x256 [1, 0] (W2A m d) transposes_S256x256_S256x256_1_0 := by
  unfold V7; after_results
  rw [V6_arg m R0 d hR0 main_arg5 (by decide) (by decide) (by decide) (by decide) (by decide) (by decide)]
theorem V7_v17 (d : Dev nD) (hR0 : ∀ d W (r : Ref sig .tc), r ≠ main_v12 → R0 d W (Proc.devRef .tc r) = W (Proc.devRef .tc r)) :
    V7 m R0 d (Proc.devRef .tc main_v17) = fun i => shapeCast S256x1 (b2A m d) shapeCasts_S256_S256x1 i := by
  unfold V7; after_results
  rw [V6_arg m R0 d hR0 main_arg6 (by decide) (by decide) (by decide) (by decide) (by decide) (by decide)]; rfl
theorem V7_v18 (d : Dev nD) (hR0 : ∀ d W (r : Ref sig .tc), r ≠ main_v12 → R0 d W (Proc.devRef .tc r) = W (Proc.devRef .tc r)) :
    V7 m R0 d (Proc.devRef .tc main_v18) = fun i => shapeCast S256x1 (a2A m d) shapeCasts_S256_S256x1 i := by
  unfold V7; after_results
  rw [V6_arg m R0 d hR0 main_arg7 (by decide) (by decide) (by decide) (by decide) (by decide) (by decide)]; rfl
theorem V7_v19 (d : Dev nD) (hR0 : ∀ d W (r : Ref sig .tc), r ≠ main_v12 → R0 d W (Proc.devRef .tc r) = W (Proc.devRef .tc r)) :
    V7 m R0 d (Proc.devRef .tc main_v19) = fun i => shapeCast S1x16 (bdA m d) shapeCasts_S16_S1x16 i := by
  unfold V7; after_results
  rw [V6_arg m R0 d hR0 main_arg9 (by decide) (by decide) (by decide) (by decide) (by decide) (by decide)]; rfl

/-- R6. The head's operands. -/
theorem V7_v15_apply (d : Dev nD) (h : Fin 256) (n : Fin 10240) (hi : h.val * 10240 + n.val < 2621440) :
    V7 m R0 d (Proc.devRef .tc main_v15) (ix2 h n) = res1 m R0 d (ix1 ⟨h.val * 10240 + n.val, hi⟩) := by
  rw [V7_v15]; exact unflat_apply _ _ h n hi
theorem V7_v16_apply (d : Dev nD) (hR0 : ∀ d W (r : Ref sig .tc), r ≠ main_v12 → R0 d W (Proc.devRef .tc r) = W (Proc.devRef .tc r))
    (k h : Fin 256) : V7 m R0 d (Proc.devRef .tc main_v16) (ix2 k h) = W2A m d (ix2 h k) := by
  rw [V7_v16 m R0 d hR0]; exact transpose_ix2_apply _ _ k h
theorem V7_v17_apply (d : Dev nD) (hR0 : ∀ d W (r : Ref sig .tc), r ≠ main_v12 → R0 d W (Proc.devRef .tc r) = W (Proc.devRef .tc r))
    (k : Fin 256) (u : Fin 1) : V7 m R0 d (Proc.devRef .tc main_v17) (ix2 k u) = b2A m d (ix1 k) := by
  rw [V7_v17 m R0 d hR0]; exact col_apply _ _ k u
theorem V7_v18_apply (d : Dev nD) (hR0 : ∀ d W (r : Ref sig .tc), r ≠ main_v12 → R0 d W (Proc.devRef .tc r) = W (Proc.devRef .tc r))
    (k : Fin 256) (u : Fin 1) : V7 m R0 d (Proc.devRef .tc main_v18) (ix2 k u) = a2A m d (ix1 k) := by
  rw [V7_v18 m R0 d hR0]; exact col_apply _ _ k u
theorem V7_v19_apply (d : Dev nD) (hR0 : ∀ d W (r : Ref sig .tc), r ≠ main_v12 → R0 d W (Proc.devRef .tc r) = W (Proc.devRef .tc r))
    (u : Fin 1) (l : Fin 16) : V7 m R0 d (Proc.devRef .tc main_v19) (ix2 u l) = bdA m d (ix1 l) := by
  rw [V7_v19 m R0 d hR0]; exact shapeCast_a_1a_apply _ _ u l
theorem V7_arg8 (d : Dev nD) (hR0 : ∀ d W (r : Ref sig .tc), r ≠ main_v12 → R0 d W (Proc.devRef .tc r) = W (Proc.devRef .tc r)) :
    V7 m R0 d (Proc.devRef .tc main_arg8) = WdA m d :=
  V7_arg m R0 d hR0 main_arg8 (by decide) (by decide) (by decide) (by decide) (by decide) (by decide) (by decide)

/-! ## At the return -/

theorem V9_v21 (d : Dev nD) : V9 m R0 R1 d (Proc.devRef .tc main_v21) = fun i =>
    shapeCast S16 (V8 m R0 R1 d (Proc.devRef .tc main_v20)) shapeCasts_S1x16_S16 i := by
  unfold V9; after_results; rfl

/-- R7. The result is the head's one row. -/
theorem V9_v21_apply (d : Dev nD) (l : Fin 16) :
    V9 m R0 R1 d (Proc.devRef .tc main_v21) (ix1 l) = V8 m R0 R1 d (Proc.devRef .tc main_v20) (ix2 (0 : Fin 1) l) := by
  rw [V9_v21]; exact shapeCast_1a_a_apply _ _ l

end Cert.Proof.KernelIdealL

end
-- ==== Proof.KIStretch.lean ====
/-
  A tile's result stretch, in the whole arrays' words: the tile's task leaves, at place y of its stretch of 4 · 10240
  words, the sum over the edges whose destination is y mod 10240 of the table's word at the same row of the stretch and
  the edge's source; the stretch starts at a multiple of 10240 (tile number · 40960), so that place is row
  (4 · tile number + y div 10240), column (y mod 10240) of the whole arrays, and the sum is the whole-array aggregation
  (`aggArr`) read there.
-/
import proofs.«211848_g47218870452992_cont_8to1c4_747_2_alg».proof.Proof.KIAggEdges
import proofs.«211848_g47218870452992_cont_8to1c4_747_2_alg».proof.Proof.KIRead
import proofs.«211848_g47218870452992_cont_8to1c4_747_2_alg».proof.Proof.KIPay

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem
open Idealize.ShloMosaic.SparseCore (S V T)
open Cert.Proof.AggIdeal
open scoped BigOperators

/-- Place y of the tile's table stretch is word (tile number · 40960 + y) of the table; the same of the result stretch. -/
theorem emb_tab0 (L : grid0.Coords) (y : S40960.Idx) : (((tabSl0 L).view.emb y) 0 : ℕ) = 40960 * (wid0 L).val + (y 0).val := by
  show (((Rect.unit (s := S1310720) (k0_off1 L) S40960.size (k0_off1_inb L)).emb y) 0 : ℕ) = _
  rw [Rect.emb_apply]
  simp only [Rect.off_unit, Rect.stride_unit]
  have h : k0_off1 L 0 = 81920 * (L 1).val + 40960 * (L 0).val := by rw [k0_off1_eq]; rfl
  have hw : (wid0 L).val = (L 1).val * 2 + (L 0).val := rfl
  omega
theorem emb_out0 (L : grid0.Coords) (y : S40960.Idx) : (((outSl0 L).view.emb y) 0 : ℕ) = 40960 * (wid0 L).val + (y 0).val := by
  show (((Rect.unit (s := S1310720) (k0_off1 L) S40960.size (k0_off1_inb L)).emb y) 0 : ℕ) = _
  rw [Rect.emb_apply]
  simp only [Rect.off_unit, Rect.stride_unit]
  have h : k0_off1 L 0 = 81920 * (L 1).val + 40960 * (L 0).val := by rw [k0_off1_eq]; rfl
  have hw : (wid0 L).val = (L 1).val * 2 + (L 0).val := rfl
  omega

/-- An index of a flat array is determined by its one coordinate. -/
theorem idx1_ext {N : ℕ} {i j : (⟨1, ![N]⟩ : Shape).Idx} (h : (i 0 : ℕ) = (j 0 : ℕ)) : i = j := by
  funext a
  obtain rfl : a = 0 := Subsingleton.elim _ _
  exact Fin.ext h

/-- The tile's result stretch holds the whole-array aggregation. -/
theorem stretch_agg (d : Dev nD) (L : grid0.Coords)
    (ft : S1310720.Idx → EReal)
    (fs fd : S320000.Idx → BitVec 32) (hs : ∀ j, (fs j).toNat < 10000)
    (f : S1310720.Idx → EReal)
    (hf : ∀ y : S40960.Idx, f ((outSl0 L).view.emb y)
      = ∑ e ∈ Finset.univ.filter (fun e : Fin 320000 => (fd (ix1 e)).toNat = (y 0).val % 10240),
          tabN d L ft ((y 0).val / 10240 * 10240 + (fs (ix1 e)).toNat))
    (i : S1310720.Idx) (hi : i ∈ (outSl0 L).view.set) :
    f i = aggArr (N := 1310720) ft fs fd i := by
  obtain ⟨y, -, rfl⟩ := Finset.mem_map.mp (show i ∈ Finset.univ.map (outSl0 L).view.emb from hi)
  rw [hf y]
  have hw : (wid0 L).val < 32 := (wid0 L).isLt
  have hy : (y 0).val < 40960 := (y 0).isLt
  have e0 := emb_out0 L y
  unfold aggArr
  have hmod : ((((outSl0 L).view.emb y) 0 : ℕ)) % 10240 = (y 0).val % 10240 := by rw [e0]; omega
  have hdiv : ((((outSl0 L).view.emb y) 0 : ℕ)) / 10240 * 10240 = 40960 * (wid0 L).val + (y 0).val / 10240 * 10240 := by rw [e0]; omega
  rw [hmod]
  refine Finset.sum_congr rfl fun e _ => ?_
  have hse := hs (ix1 e)
  have hn : (y 0).val / 10240 * 10240 + (fs (ix1 e)).toNat < 40960 := by omega
  unfold tabN
  rw [dif_pos hn]
  congr 1
  apply idx1_ext
  rw [emb_tab0]
  show 40960 * (wid0 L).val + ((y 0).val / 10240 * 10240 + (fs (ix1 e)).toNat) = (_ % 1310720)
  rw [hdiv, Nat.mod_eq_of_lt (by omega)]
  omega

end Cert.Proof.KernelIdealL

end
-- ==== Proof.KIOblV0.lean ====
/-
  The first aggregation's task with values as the launch theorem's obligation: the tile's task leaves its result stretch at
  the ordered fold of its stores, which at the ideal instance is, place by place, the sum over the edges arriving at the
  place's node of the table's word at the same row and the edge's source — the whole-array aggregation read on the tile's
  stretch; so the stretch comes back at the stated result array.
-/
import proofs.«211848_g47218870452992_cont_8to1c4_747_2_alg».proof.Proof.KIRunV
import proofs.«211848_g47218870452992_cont_8to1c4_747_2_alg».proof.Proof.KIStretch
import proofs.«211848_g47218870452992_cont_8to1c4_747_2_alg».proof.Proof.KIObl0

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.AggIdeal

local notation "𝕄" => MT nD τ sig (HIx 2) (Elt Ideal) ℕ UU ℕ

/-- One tile's task of the first aggregation with values, over its share as the value handshake carries it. -/
theorem tileTaskV0 (m : (ℓ : Loc nD τ sig) → Buf (Elt Ideal) ℓ)
    (hs : ∀ d j, ((srcC m d) j).toNat < 10000) (hd : ∀ d j, ((dstC m d) j).toNat < 10000)
    (d : Dev nD) (L : grid0.Coords) (O : CellTallies nD τ sig (HIx 2)) (W : Waits sig (HIx 2)) (hO : ∀ g, O g none = 0) :
    (iprop(levAts (K (F := Ideal)).L (K (F := Ideal)).lev ∗ emp ∗ goV0 (srcC m) (dstC m) (fun d => V1 m d (Proc.devRef .tc main_v6)) d L
        ∗ scopedBufs (V d (cV0 L) (jV0 L)) ∗ scopedSems0 (V d (cV0 L) (jV0 L)) ∗ owes (V d (cV0 L) (jV0 L)) O W) : sProp 𝕄)
      ⊢ wp frame (wpE (defs₀ (F := Ideal)) 𝒱₀ (V d (cV0 L) (jV0 L)) none) Set.univ
          (cc0_body L tabW0 (Memref.isWhole_whole _) srcW (Memref.isWhole_whole _) dstW (Memref.isWhole_whole _) outW0 (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3)
          fun _ => iprop(tdV0 (srcC m) (dstC m) (fun d => V1 m d (Proc.devRef .tc main_v6)) (res0 m) d L ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  unfold goV0
  iintro ⟨Hlv, -, ⟨Ht, Hs, Hd, ⟨%fo, Ho⟩⟩, Hsb, Hss, HO⟩
  iapply (wp_mono frame _ _ (fun _ => (show
      (iprop((((tabSl0 L).view.loc (V d (cV0 L) (jV0 L)) ↦[(tabSl0 L).view.set]{fullShare} V1 m d (Proc.devRef .tc main_v6)) ∗ (srcW.view.loc (V d (cV0 L) (jV0 L)) ↦{tok (wid0 L)} srcC m d) ∗ (dstW.view.loc (V d (cV0 L) (jV0 L)) ↦{tok (wid0 L)} dstC m d)
            ∗ ∃ f1 f, ⌜(outSl0 L).view.read (Elt Ideal) f = out0 (F := Ideal) d L (V1 m d (Proc.devRef .tc main_v6)) (srcC m d) (dstC m d) (hs d) (hd d) f1⌝
                ∗ ((outSl0 L).view.loc (V d (cV0 L) (jV0 L)) ↦[(outSl0 L).view.set]{fullShare} f))
          ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') : sProp 𝕄)
      ⊢ iprop(tdV0 (srcC m) (dstC m) (fun d => V1 m d (Proc.devRef .tc main_v6)) (res0 m) d L ∗ scopedBufs (V d (cV0 L) (jV0 L)) ∗ scopedSems0 (V d (cV0 L) (jV0 L))
          ∗ ∃ W', ⌜∀ p ∈ W', p ∈ W ∨ p.2 = none⌝ ∗ owes (V d (cV0 L) (jV0 L)) O W') from by
    unfold tdV0
    iintro ⟨⟨Ht, Hs, Hd, %f1, %f, %hf, Ho⟩, Hrest⟩
    have hc : ∀ i ∈ (outSl0 L).view.set, f i = res0 m d i := fun i hi =>
      stretch_agg d L (V1 m d (Proc.devRef .tc main_v6)) (srcC m d) (dstC m d) (hs d) f
        (fun y => out_buf_sum d L (V1 m d (Proc.devRef .tc main_v6)) (srcC m d) (dstC m d) (hs d) (hd d) f1 f hf y) i hi
    ihave Ho' := (Entails.of_eq (pointsTo_congr (ℓ := tLoc main_v7 d) (q := fullShare) hc)) $$ Ho
    isplitl [Ht Hs Hd Ho']
    · isplitl [Ht]; · iexact Ht
      isplitl [Hs]; · iexact Hs
      isplitl [Hd]; · iexact Hd
      iexact Ho'
    · iexact Hrest)))
  iapply (tile_body0V (F := Ideal) d L facts (tok (wid0 L)) (V1 m d (Proc.devRef .tc main_v6)) (srcC m d) (dstC m d) fo (hs d) (hd d) O W hO) $$ [Hlv Ht Hs Hd Ho Hsb Hss HO]
  isplitl [Hlv]; · iexact Hlv
  isplitr; · iempintro
  isplitl [Ht Hs Hd Ho]
  · isplitl [Ht]; · iexact Ht
    isplitl [Hs]; · iexact Hs
    isplitl [Hd]; · iexact Hd
    iexact Ho
  isplitl [Hsb]; · iexact Hsb
  isplitl [Hss]; · iexact Hss
  iexact HO

/-- The launch theorem's obligation at the first call, with values. -/
theorem tileOblV0 (m : (ℓ : Loc nD τ sig) → Buf (Elt Ideal) ℓ)
    (R0 : Dev nD → Valuation τ sig (Elt Ideal) → Valuation τ sig (Elt Ideal))
    (hs : ∀ d j, ((srcC m d) j).toNat < 10000) (hd : ∀ d j, ((dstC m d) j).toNat < 10000) :
    (K (F := Ideal)).TileObl (D (F := Ideal)) 𝒱 (PV (srcC m) (dstC m) (fun d => V1 m d (Proc.devRef .tc main_v6)) (res0 m) (fun d => V5 m R0 d (Proc.devRef .tc main_v13)) (res1 m R0)) v₀ 0 := by
  intro d c i O W hO _ _
  simp only [show (PV (srcC m) (dstC m) (fun d => V1 m d (Proc.devRef .tc main_v6)) (res0 m) (fun d => V5 m R0 d (Proc.devRef .tc main_v13)) (res1 m R0)).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector0]; simp only [SparseCore.onTile, hc, and_self, ↓reduceDIte]
  exact (tileTaskV0 m hs hd d (L0 c i) O W hO).trans (wp_mono frame _ _ fun _ => obl_post0)

end Cert.Proof.KernelIdealL

end
-- ==== Proof.KIFinal.lean ====
/-
  The result buffer at the end of the fold is the kernel's arrangement of the network at the arguments. Reading backwards:
  the last stretch reshapes the head's row; the head's region (its read-out taken as stated) applies the softmax to the
  logits of the pooled second layer, the pooling masked to the 10000 real nodes of the 10240 padded columns; the second
  layer's operand is the second aggregation of the first layer's output (its region's read-out taken as stated), which on
  real nodes is the first layer of the first aggregation of the padded, transposed features.
-/
import proofs.«211848_g47218870452992_cont_8to1c4_747_2_alg».proof.Proof.KIRead
import proofs.«211848_g47218870452992_cont_8to1c4_747_2_alg».proof.Proof.KIAlg

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem Idealize.ShloMosaic.StableHlo
open Cert.RefSpec (prelu softmax)
open scoped BigOperators

/-- A sum over the 10240 padded columns of a term that vanishes past the 10000 real ones is the sum over the real ones. -/
theorem sum_pad (g : Fin 10000 → EReal) :
    (∑ n : Fin 10240, if hn : n.val < 10000 then g ⟨n.val, hn⟩ else 0) = ∑ n : Fin 10000, g n := by
  rw [Fin.sum_univ_eq_sum_range (fun n => if hn : n < 10000 then g ⟨n, hn⟩ else 0) 10240,
    show (10240 : ℕ) = 10000 + 240 from rfl, Finset.sum_range_add,
    Finset.sum_eq_zero (s := Finset.range 240) (fun x _ => by rw [dif_neg (by omega)]), add_zero,
    ← Fin.sum_univ_eq_sum_range (fun n => if hn : n < 10000 then g ⟨n, hn⟩ else 0) 10000]
  exact Finset.sum_congr rfl fun n _ => by rw [dif_pos n.isLt]

variable (m : (ℓ : Loc nD τ sig) → Buf (Elt Ideal) ℓ)
  (R0 R1 : Dev nD → Valuation τ sig (Elt Ideal) → Valuation τ sig (Elt Ideal))

/-- A valuation's buffers at their literal vector types. -/
abbrev w8 (W : Valuation τ sig (Elt Ideal)) : FVec Ideal ⟨2, ![128, 10240]⟩ .f32 := W (Proc.devRef .tc main_v8)
abbrev w9 (W : Valuation τ sig (Elt Ideal)) : FVec Ideal ⟨2, ![256, 128]⟩ .f32 := W (Proc.devRef .tc main_v9)
abbrev w10 (W : Valuation τ sig (Elt Ideal)) : FVec Ideal ⟨2, ![256, 1]⟩ .f32 := W (Proc.devRef .tc main_v10)
abbrev w11 (W : Valuation τ sig (Elt Ideal)) : FVec Ideal ⟨2, ![256, 1]⟩ .f32 := W (Proc.devRef .tc main_v11)
abbrev w12 (W : Valuation τ sig (Elt Ideal)) : FVec Ideal ⟨2, ![256, 10240]⟩ .f32 := W (Proc.devRef .tc main_v12)
abbrev w15 (W : Valuation τ sig (Elt Ideal)) : FVec Ideal ⟨2, ![256, 10240]⟩ .f32 := W (Proc.devRef .tc main_v15)
abbrev w16 (W : Valuation τ sig (Elt Ideal)) : FVec Ideal ⟨2, ![256, 256]⟩ .f32 := W (Proc.devRef .tc main_v16)
abbrev w17 (W : Valuation τ sig (Elt Ideal)) : FVec Ideal ⟨2, ![256, 1]⟩ .f32 := W (Proc.devRef .tc main_v17)
abbrev w18 (W : Valuation τ sig (Elt Ideal)) : FVec Ideal ⟨2, ![256, 1]⟩ .f32 := W (Proc.devRef .tc main_v18)
abbrev w19 (W : Valuation τ sig (Elt Ideal)) : FVec Ideal ⟨2, ![1, 16]⟩ .f32 := W (Proc.devRef .tc main_v19)
abbrev w20 (W : Valuation τ sig (Elt Ideal)) : FVec Ideal ⟨2, ![1, 16]⟩ .f32 := W (Proc.devRef .tc main_v20)
abbrev w21 (W : Valuation τ sig (Elt Ideal)) : FVec Ideal ⟨1, ![16]⟩ .f32 := W (Proc.devRef .tc main_v21)
abbrev wA8 (W : Valuation τ sig (Elt Ideal)) : FVec Ideal ⟨2, ![256, 16]⟩ .f32 := W (Proc.devRef .tc main_arg8)

/-- The first layer's region read out, index by index. -/
def ReadL1 : Prop := ∀ (d : Dev nD) (W : Valuation τ sig (Elt Ideal)) (h : Fin 256) (n : Fin 10240),
  w12 (R0 d W) (ix2 h n)
    = prelu ((∑ f : Fin 128, w9 W (ix2 h f) * w8 W (ix2 f n)) + w10 W (ix2 h (0 : Fin 1))) (w11 W (ix2 h (0 : Fin 1)))

/-- The head's region read out. -/
def ReadHead : Prop := ∀ (d : Dev nD) (W : Valuation τ sig (Elt Ideal)) (l : Fin 16),
  w20 (R1 d W) (ix2 (0 : Fin 1) l)
    = softmax (fun l' => (∑ k : Fin 256,
          (∑ n : Fin 10240, if n.val < 10000 then
              prelu ((∑ h : Fin 256, w16 W (ix2 k h) * w15 W (ix2 h n)) + w17 W (ix2 k (0 : Fin 1))) (w18 W (ix2 k (0 : Fin 1)))
            else 0)
          * wA8 W (ix2 k l'))
        + w19 W (ix2 (0 : Fin 1) l')) l

variable {R0 R1}

/-- The first layer's output on a real node is the kernel arrangement's first layer. -/
theorem L1T_eq (hL1 : ReadL1 R0) (d : Dev nD) (hei : ∀ i, (eiA m d i).toNat < 10000) (h : Fin 256) (n : Fin 10240) (hn : n.val < 10000) :
    L1T m R0 d (ix2 h n) = Cert.KerSpec.k1 (xA m d) (eiA m d) (W1A m d) (b1A m d) (a1A m d) ⟨n.val, hn⟩ h := by
  show w12 (R0 d (V3 m d)) (ix2 h n) = _
  rw [hL1 d (V3 m d) h n,
    show w10 (V3 m d) (ix2 h (0 : Fin 1)) = V3 m d (Proc.devRef .tc main_v10) (ix2 h (0 : Fin 1)) from rfl, V3_v10_apply,
    show w11 (V3 m d) (ix2 h (0 : Fin 1)) = V3 m d (Proc.devRef .tc main_v11) (ix2 h (0 : Fin 1)) from rfl, V3_v11_apply]
  unfold Cert.KerSpec.k1
  congr 2
  refine Finset.sum_congr rfl fun f _ => ?_
  have hi : f.val * 10240 + n.val < 1310720 := by have := f.isLt; have := n.isLt; omega
  rw [show w9 (V3 m d) (ix2 h f) = V3 m d (Proc.devRef .tc main_v9) (ix2 h f) from rfl, V3_v9_apply,
    show w8 (V3 m d) (ix2 f n) = V3 m d (Proc.devRef .tc main_v8) (ix2 f n) from rfl, V3_v8_apply m d f n hi, res0_apply m d hei f n hi, dif_pos hn]

/-- The second layer's operand on a real node is the kernel arrangement's second aggregation; on a padding column it is 0. -/
theorem v15_eq (hR0 : ∀ d W (r : Ref sig .tc), r ≠ main_v12 → R0 d W (Proc.devRef .tc r) = W (Proc.devRef .tc r))
    (hL1 : ReadL1 R0) (d : Dev nD) (hei : ∀ i, (eiA m d i).toNat < 10000) (h : Fin 256) (n : Fin 10240) :
    w15 (V7 m R0 d) (ix2 h n)
      = if hn : n.val < 10000 then Cert.KerSpec.agg2 (xA m d) (eiA m d) (W1A m d) (b1A m d) (a1A m d) h ⟨n.val, hn⟩ else 0 := by
  have hi : h.val * 10240 + n.val < 2621440 := by have := h.isLt; have := n.isLt; omega
  rw [show w15 (V7 m R0 d) (ix2 h n) = V7 m R0 d (Proc.devRef .tc main_v15) (ix2 h n) from rfl, V7_v15_apply m R0 d h n hi, res1_apply m R0 d hR0 hei h n hi]
  by_cases hn : n.val < 10000
  · rw [dif_pos hn, dif_pos hn]
    unfold Cert.KerSpec.agg2
    refine Finset.sum_congr rfl fun e _ => ?_
    exact L1T_eq m hL1 d hei h _ (Cert.RefSpec.src (eiA m d) e).isLt
  · rw [dif_neg hn, dif_neg hn]

/-- The result buffer at the end of the fold, entry by entry. -/
theorem final_read (hR0 : ∀ d W (r : Ref sig .tc), r ≠ main_v12 → R0 d W (Proc.devRef .tc r) = W (Proc.devRef .tc r))
    (hL1 : ReadL1 R0) (hH : ReadHead R1) (d : Dev nD) (hei : ∀ i, (eiA m d i).toNat < 10000) (l : Fin 16) :
    w21 (V9 m R0 R1 d) (ix1 l)
      = Cert.KerSpec.out (xA m d) (eiA m d) (W1A m d) (b1A m d) (a1A m d) (W2A m d) (b2A m d) (a2A m d) (WdA m d) (bdA m d) l := by
  show V9 m R0 R1 d (Proc.devRef .tc main_v21) (ix1 l) = _
  rw [V9_v21_apply]
  unfold V8
  rw [show R1 d (V7 m R0 d) (Proc.devRef .tc main_v20) (ix2 (0 : Fin 1) l) = w20 (R1 d (V7 m R0 d)) (ix2 (0 : Fin 1) l) from rfl, hH d (V7 m R0 d) l]
  unfold Cert.KerSpec.out
  refine congrArg (fun g => softmax g l) (funext fun l' => ?_)
  unfold Cert.KerSpec.logits
  have e19 : w19 (V7 m R0 d) (ix2 (0 : Fin 1) l') = bdA m d (ix1 l') := V7_v19_apply m R0 d hR0 0 l'
  rw [e19]
  refine congrArg (· + bdA m d (ix1 l')) (Finset.sum_congr rfl fun k _ => ?_)
  rw [show wA8 (V7 m R0 d) = WdA m d from V7_arg8 m R0 d hR0]
  refine congrArg (· * WdA m d (ix2 k l')) ?_
  unfold Cert.KerSpec.pooled
  rw [← sum_pad (fun n => Cert.KerSpec.k2 (xA m d) (eiA m d) (W1A m d) (b1A m d) (a1A m d) (W2A m d) (b2A m d) (a2A m d) n k)]
  refine Finset.sum_congr rfl fun n _ => ?_
  by_cases hn : n.val < 10000
  · rw [if_pos hn, dif_pos hn,
      show w17 (V7 m R0 d) (ix2 k (0 : Fin 1)) = V7 m R0 d (Proc.devRef .tc main_v17) (ix2 k (0 : Fin 1)) from rfl, V7_v17_apply m R0 d hR0,
      show w18 (V7 m R0 d) (ix2 k (0 : Fin 1)) = V7 m R0 d (Proc.devRef .tc main_v18) (ix2 k (0 : Fin 1)) from rfl, V7_v18_apply m R0 d hR0]
    unfold Cert.KerSpec.k2
    refine congrArg (fun s => prelu (s + b2A m d (ix1 k)) (a2A m d (ix1 k))) (Finset.sum_congr rfl fun h _ => ?_)
    rw [show w16 (V7 m R0 d) (ix2 k h) = V7 m R0 d (Proc.devRef .tc main_v16) (ix2 k h) from rfl, V7_v16_apply m R0 d hR0,
      v15_eq m hR0 hL1 d hei h n, dif_pos hn]
  · rw [if_neg hn, dif_neg hn]

end Cert.Proof.KernelIdealL

end
-- ==== Proof.KIValue.lean ====
/-
  The kernel's value assembled: the run with values (the launch at the value handshakes, @main over the fold of the
  buffer contents) ends with the result buffer at the fold's last valuation, and that valuation reads, entry by entry, as
  the kernel's arrangement of the network at the argument arrays. What is taken as stated: the two regions' value steps
  and read-outs, and the second aggregation's task with values.
-/
import proofs.«211848_g47218870452992_cont_8to1c4_747_2_alg».proof.Proof.KIOblV0
import proofs.«211848_g47218870452992_cont_8to1c4_747_2_alg».proof.Proof.KIFinal
import proofs.«211848_g47218870452992_cont_8to1c4_747_2_alg».proof.Proof.KIFinite

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

local notation "𝕄" => MT nD τ sig (HIx 2) (Elt Ideal) ℕ UU ℕ

/-- The kernel's value, from the regions' value steps and read-outs and the second aggregation's task with values. -/
theorem kernel_value_of [∀ e, Nonempty (Elt Ideal e)] [hP : Cert.Pre_input_domain.Facts]
    (m : (ℓ : Loc nD τ sig) → Buf (Elt Ideal) ℓ) (ρ : Dev nD → PrngReg) (hpre : PreG (F := Ideal) m)
    (R0 R1 : Dev nD → Valuation τ sig (Elt Ideal) → Valuation τ sig (Elt Ideal))
    (hR0 : ∀ d W (r : Ref sig .tc), r ≠ main_v12 → R0 d W (Proc.devRef .tc r) = W (Proc.devRef .tc r))
    (hL1 : ReadL1 R0) (hH : ReadHead R1)
    (hreg0 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 1 ∗ boundary (SparseCore.T d)
          ∗ StableHlo.held (SparseCore.T d) (Pipeline.ucRefs τ sig) Wc ∗ Aux (F := Ideal) d ∗ ghost (F := Ideal) 0 d
          ∗ (((K (F := Ideal)).tcSt EH d 1 ∗ boundary (SparseCore.T d) ∗ StableHlo.held (SparseCore.T d) (Pipeline.ucRefs τ sig) (R0 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 0)) ())) Φ)
    (hreg1 : ∀ (κ : GSem nD τ sig → ℕ) (d : Dev nD) (Wc : Valuation τ sig (Elt Ideal)) (Φ : PUnit → sProp 𝕄),
      iprop((K (F := Ideal)).ctx EH (PV (srcC m) (dstC m) (fun d => V1 m d (Proc.devRef .tc main_v6)) (res0 m) (fun d => V5 m R0 d (Proc.devRef .tc main_v13)) (res1 m R0)) κ ∗ (K (F := Ideal)).tcSt EH d 2 ∗ boundary (SparseCore.T d)
          ∗ StableHlo.held (SparseCore.T d) (Pipeline.ucRefs τ sig) Wc ∗ Aux (F := Ideal) d ∗ ghost (F := Ideal) 1 d
          ∗ (((K (F := Ideal)).tcSt EH d 2 ∗ boundary (SparseCore.T d) ∗ StableHlo.held (SparseCore.T d) (Pipeline.ucRefs τ sig) (R1 d Wc) ∗ Aux (F := Ideal) d) -∗ Φ ⟨⟩))
        ⊢ wp frame (wpE ((K (F := Ideal)).defs (D (F := Ideal))) 𝒱 (SparseCore.T d) none) Set.univ
            (Prog.lift (.customCall (SparseCore.inner (Pipeline.entry 1)) ())) Φ)
    (htile1 : (K (F := Ideal)).TileObl (D (F := Ideal)) 𝒱 (PV (srcC m) (dstC m) (fun d => V1 m d (Proc.devRef .tc main_v6)) (res0 m) (fun d => V5 m R0 d (Proc.devRef .tc main_v13)) (res1 m R0)) v₀ 1) :
    θ_run (Cert.KernelIdeal.defs (F := Ideal)) (Cert.KernelIdeal.threads (F := Ideal)) ⟨m, fun _ => 0, ρ⟩
      (fun r => ∀ c : Dev nD, r.2.mem ((c.tc : Thread nD τ).loc main_v21) = Cert.Proof.Alg.kerVec m c) := by
  have hs := src_lt m hpre
  have hd := dst_lt m hpre
  refine (θ_run (Cert.KernelIdeal.defs (F := Ideal)) _ _).mono (fun _ h c => (h c).trans ?_)
    (run_value m ρ R0 R1 hR0 hreg0 hreg1 (tileOblV0 m R0 hs hd) htile1)
  funext i
  have hi : i = ix1 (i 0) := by
    funext a
    have ha : a = (0 : Fin 1) := Fin.ext (Nat.lt_one_iff.mp a.isLt)
    subst ha
    rfl
  rw [hi]
  exact final_read m hR0 hL1 hH c (fun j => edge_lt m hpre c j) (i 0)

end Cert.Proof.KernelIdealL

end
-- ==== Proof.KIReg0V.lean ====
/-
  The first TensorCore layer's step in @main's proof, over a definite valuation: entered with every unscoped buffer at
  given contents, left with them at those contents updated at the region's arrays — each array at what the pipeline's
  write-backs leave, an input array as entered, every other buffer untouched. The step is the region's, as in the frame;
  nothing is forgotten at its end.
-/
import proofs.«211848_g47218870452992_cont_8to1c4_747_2_alg».proof.Proof.KIReg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The first layer's step over a definite valuation -/

/-- The TensorCore's buffers after the first layer's region, entered at `Wc`: its arrays at what the pipeline leaves, every other buffer
    as entered. -/
abbrev reg0Out (Wc : Valuation τ sig (Elt F)) (d : Dev nD) : Valuation τ sig (Elt F) := r0W2 (fun _ => Wc) d

/-- Off the region's arrays nothing changed. -/
theorem reg0Out_of_ne (Wc : Valuation τ sig (Elt F)) (d : Dev nD) (b : Ref sig .tc) (hb : ∀ w, Pipeline.arrRef spec1 w ≠ b) :
    reg0Out Wc d (Proc.devRef .tc b) = Wc (Proc.devRef .tc b) := r0W2_of_ne (fun _ => Wc) d b hb

/-- At each of the region's arrays: what the pipeline's write-backs leave (an input array as entered). -/
theorem reg0Out_arr (Wc : Valuation τ sig (Elt F)) (d : Dev nD) (w : Fin cfg1.W) :
    reg0Out Wc d (Proc.devRef .tc (Pipeline.arrRef spec1 w)) = (dat1 (r0V fun _ => Wc) d).arrAt w cfg1.N := r0W2_arr (fun _ => Wc) d w

set_option backward.isDefEq.respectTransparency.types false in
theorem reg0_stepV (P' : (K (F := F)).Pay (nD := nD) (Val := Elt F) (Name := ℕ) (U := UU)) (κ : GSem nD τ sig → ℕ) (d : Dev nD) (Wc : Valuation τ sig (Elt F)) (Φ : PUnit → sProp 𝕄) :
    iprop((K (F := F)).ctx EH P' κ ∗ (K (F := F)).tcSt EH d 1 ∗ boundary (SparseCore.T d)
        ∗ StableHlo.held (SparseCore.T d) (Pipeline.ucRefs τ sig) Wc ∗ Aux (F := F) d ∗ ghost (F := F) 0 d
        ∗ (((K (F := F)).tcSt EH d 1 ∗ boundary (SparseCore.T d) ∗ StableHlo.held (SparseCore.T d) (Pipeline.ucRefs τ sig) (reg0Out Wc d) ∗ Aux (F := F) d) -∗ Φ ⟨⟩))
      ⊢ wp frame (wpE ((K (F := F)).defs (D (F := F))) 𝒱 (SparseCore.T d) none) Set.univ (Prog.lift (.customCall (SparseCore.inner (Pipeline.entry 0)) ())) Φ := by
  unfold Aux ghost SparseCore.Cfg.tcSt
  iintro ⟨#Hctx, ⟨HOw, Hst⟩, Hb, Hh, ⟨Hsems, Hp⟩, ⟨Hg, Ht⟩, Hk⟩
  ihave Hlv := (SparseCore.Cfg.ctx_levAts (K := K (F := F)) (EH := EH) (P := P') κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) adm (r0pdats (fun _ => Wc)) (none : HIx 2) cellOf_inj (EP (F := F)) defs₀ 𝒱₀ (K (F := F)).L (K (F := F)).lev
    (reg0 (F := F) (fun _ => Wc)) d none (fun u hu => nomatch hu) (fun _ => .ret ⟨⟩) Φ) $$ [HOw Hst Hb Hh Hsems Hp Hg Ht Hk Hlv]
  isplitl [Hst Hsems Hk]
  · iintro ⟨Hb, Hpost⟩
    ihave Hpost := (show ((reg0 (F := F) fun _ => Wc).post d : sProp 𝕄)
        ⊢ iprop(StableHlo.held (d : Thread nD τ) (Pipeline.ucRefs τ sig) (r0W2 (fun _ => Wc) d) ∗ r0Ride (F := F) d) from .rfl) $$ Hpost
    icases Hpost with ⟨Hh, Hp, HOw⟩
    rw [wp_ret]; imodintro
    iapply Hk
    isplitl [HOw Hst]
    · isplitl [HOw]; · iexact HOw
      iexact Hst
    isplitl [Hb]; · iexact Hb
    isplitl [Hh]; · iexact Hh
    isplitl [Hsems]; · iexact Hsems
    iexact Hp
  isplitl [Hb]; · iexact Hb
  isplitl [Hh Hp HOw]
  · iapply (show iprop(StableHlo.held (d : Thread nD τ) (Pipeline.ucRefs τ sig) Wc ∗ r0Ride (F := F) d)
        ⊢ ((reg0 (F := F) fun _ => Wc).pre d : sProp 𝕄) from .rfl)
    isplitl [Hh]; · iexact Hh
    isplitl [Hp]; · iexact Hp
    iexact HOw
  isplitr; · iexact Hlv
  isplitl [Hg]; · iexact Hg
  iexact Ht

end Cert.Proof.KernelIdealL

end
-- ==== Proof.KIReg0Read.lean ====
/-
  The first TensorCore layer's result, read at an index. The output's five blocks are disjoint — its index map sends
  distinct points to distinct blocks —, so block t of the array the region leaves, read back, is what point t wrote
  back: the body's payload of that point's four input blocks. The entry at row h and column n lies in the block of the
  point n / 2048, at (h, n mod 2048). The input blocks read at an index are the arrays as the region found them: the
  activations at column 2048 · t + c, the weights, the bias and the slope whole.
-/
import proofs.«211848_g47218870452992_cont_8to1c4_747_2_alg».proof.Proof.KIReg0V
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The first layer's result, read at an index -/

open Idealize.ShloMosaic.ValueIdx

/-- The output window's index map sends distinct points to distinct blocks (decided over the five points). -/
theorem idx_inj1_4 : ∀ t t' : Fin cfg1.N, win1_4.index t = win1_4.index t' → t = t' :=
  (by decide +kernel : ∀ t t' : Fin grid1.N, win1_4.index t = win1_4.index t' → t = t')

/-- So two points' output blocks share no array index. -/
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (idx_inj1_4 t t' h)

/-- Block `t` of the final array, read back through the window, is what point `t` wrote back. -/
theorem blocks1_4 (Vv : (c : Dev nD) → (b : Ref sig .tc) → Buf (Elt F) ((c : Thread nD τ).loc b)) (c : Dev nD) (t : Fin cfg1.N) :
    ((cfg1.win 4).blk t).view.read (Elt F) ((dat1 Vv c).arrAt 4 cfg1.N) = (dat1 Vv c).flushed 4 t :=
  (dat1 Vv c).read_blk_arrAt_eq_flushed 4 disjoint1_4 cfg1.N t t.isLt (flush1_4 t)

theorem hz1 : (![0, 0] : Fin 2 → Nat) = fun _ => 0 := funext fun a => by fin_cases a <;> rfl

/-- What point `t` writes back: the body's payload of the point's four input blocks. -/
theorem flushed1_4 (Vv : (c : Dev nD) → (b : Ref sig .tc) → Buf (Elt F) ((c : Thread nD τ).loc b)) (c : Dev nD) (t : Fin cfg1.N) :
    (dat1 Vv c).flushed 4 t = k1_pay1 (F := F) (iblk1 Vv c 1 t) (iblk1 Vv c 0 t) (iblk1 Vv c 2 t) (iblk1 Vv c 3 t) := by
  show (cfg1.win 4).cut (grid1.coords t) ((dat1 Vv c).after 4 t) = _
  rw [after1_4]
  unfold out1_4
  rw [View.canon_unit_zero hz1]
  simp only [View.ld_unit_zero (S := S256x128) hz1, View.ld_unit_zero (S := S128x2048) hz1, View.ld_unit_zero (S := S256x1) hz1]
  rfl

/-- The output window's block index at a point: row block 0, column block the point. -/
theorem idx1_4 : ∀ t : Fin cfg1.N, win1_4.index t (0 : Fin 2) = 0 ∧ win1_4.index t (1 : Fin 2) = t.val :=
  (by decide +kernel : ∀ t : Fin grid1.N, win1_4.index t (0 : Fin 2) = 0 ∧ win1_4.index t (1 : Fin 2) = t.val)

/-- The point whose output block holds column `n`. -/
def colPt (n : Fin 10240) : Fin cfg1.N := ⟨n.val / 2048, by have h := n.isLt; have e : cfg1.N = 5 := N_1; rw [e]; omega⟩

/-- THE RESULT AT (h, n): the payload of the four input blocks of the point that holds column `n`, read at (h, n mod 2048). -/
theorem reg0Out_v12 (Wc : Valuation τ sig (Elt F)) (d : Dev nD) (h : Fin 256) (n : Fin 10240) :
    reg0Out Wc d (Proc.devRef .tc main_v12) (ix2 h n)
      = k1_pay1 (F := F) (iblk1 (r0V fun _ => Wc) d 1 (colPt n)) (iblk1 (r0V fun _ => Wc) d 0 (colPt n)) (iblk1 (r0V fun _ => Wc) d 2 (colPt n))
          (iblk1 (r0V fun _ => Wc) d 3 (colPt n)) (ix2 h ⟨n.val % 2048, Nat.mod_lt _ (by norm_num)⟩) := by
  have e0 : reg0Out Wc d (Proc.devRef .tc main_v12) = (dat1 (r0V fun _ => Wc) d).arrAt 4 cfg1.N := reg0Out_arr Wc d 4
  rw [e0, ← flushed1_4, ← blocks1_4, View.read_apply, cast_eq]
  congr 1
  obtain ⟨i0, i1⟩ := idx1_4 (colPt n)
  funext a
  apply Fin.ext
  match a with
  | ⟨0, _⟩ =>
    show h.val = win1_4.index (colPt n) (0 : Fin 2) * 256 + 1 * h.val
    rw [i0]; omega
  | ⟨1, _⟩ =>
    show n.val = win1_4.index (colPt n) (1 : Fin 2) * 2048 + 1 * (n.val % 2048)
    rw [i1]; show n.val = n.val / 2048 * 2048 + 1 * (n.val % 2048); omega

/-! ## The input blocks, read at an index -/

/-- The input windows' block indices at a point: the activations' column block is the point; the weights, the bias and the slope are whole. -/
theorem idx1_in : ∀ t : Fin cfg1.N, win1_0.index t (0 : Fin 2) = 0 ∧ win1_0.index t (1 : Fin 2) = t.val
    ∧ win1_1.index t (0 : Fin 2) = 0 ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem colPt_lt (t : Fin cfg1.N) (cc : Fin 2048) : 2048 * t.val + cc.val < 10240 := by
  have h : t.val < 5 := lt_of_lt_of_eq t.isLt N_1
  have := cc.isLt; omega

theorem iblk1_0_apply (Vv : (c : Dev nD) → (b : Ref sig .tc) → Buf (Elt F) ((c : Thread nD τ).loc b)) (c : Dev nD) (t : Fin cfg1.N) (r : Fin 128) (cc : Fin 2048) :
    iblk1 Vv c 0 t (ix2 r cc) = Vv c (Pipeline.arrRef spec1 0) (ix2 r ⟨2048 * t.val + cc.val, colPt_lt t cc⟩) := by
  obtain ⟨i0, i1, -⟩ := idx1_in t
  unfold iblk1
  rw [View.read_apply, cast_eq]
  congr 1
  funext a
  apply Fin.ext
  match a with
  | ⟨0, _⟩ => show win1_0.index t (0 : Fin 2) * 128 + 1 * r.val = r.val; rw [i0]; omega
  | ⟨1, _⟩ => show win1_0.index t (1 : Fin 2) * 2048 + 1 * cc.val = 2048 * t.val + cc.val; rw [i1]; omega

theorem iblk1_1_apply (Vv : (c : Dev nD) → (b : Ref sig .tc) → Buf (Elt F) ((c : Thread nD τ).loc b)) (c : Dev nD) (t : Fin cfg1.N) (r : Fin 256) (cc : Fin 128) :
    iblk1 Vv c 1 t (ix2 r cc) = Vv c (Pipeline.arrRef spec1 1) (ix2 r cc) := by
  obtain ⟨-, -, i0, i1, -⟩ := idx1_in t
  unfold iblk1
  rw [View.read_apply, cast_eq]
  congr 1
  funext a
  apply Fin.ext
  match a with
  | ⟨0, _⟩ => show win1_1.index t (0 : Fin 2) * 256 + 1 * r.val = r.val; rw [i0]; omega
  | ⟨1, _⟩ => show win1_1.index t (1 : Fin 2) * 128 + 1 * cc.val = cc.val; rw [i1]; omega

theorem iblk1_2_apply (Vv : (c : Dev nD) → (b : Ref sig .tc) → Buf (Elt F) ((c : Thread nD τ).loc b)) (c : Dev nD) (t : Fin cfg1.N) (r : Fin 256) (cc : Fin 1) :
    iblk1 Vv c 2 t (ix2 r cc) = Vv c (Pipeline.arrRef spec1 2) (ix2 r cc) := by
  obtain ⟨-, -, -, -, i0, i1, -⟩ := idx1_in t
  unfold iblk1
  rw [View.read_apply, cast_eq]
  congr 1
  funext a
  apply Fin.ext
  match a with
  | ⟨0, _⟩ => show win1_2.index t (0 : Fin 2) * 256 + 1 * r.val = r.val; rw [i0]; omega
  | ⟨1, _⟩ => show win1_2.index t (1 : Fin 2) * 1 + 1 * cc.val = cc.val; rw [i1]; omega

theorem iblk1_3_apply (Vv : (c : Dev nD) → (b : Ref sig .tc) → Buf (Elt F) ((c : Thread nD τ).loc b)) (c : Dev nD) (t : Fin cfg1.N) (r : Fin 256) (cc : Fin 1) :
    iblk1 Vv c 3 t (ix2 r cc) = Vv c (Pipeline.arrRef spec1 3) (ix2 r cc) := by
  obtain ⟨-, -, -, -, -, -, i0, i1⟩ := idx1_in t
  unfold iblk1
  rw [View.read_apply, cast_eq]
  congr 1
  funext a
  apply Fin.ext
  match a with
  | ⟨0, _⟩ => show win1_3.index t (0 : Fin 2) * 256 + 1 * r.val = r.val; rw [i0]; omega
  | ⟨1, _⟩ => show win1_3.index t (1 : Fin 2) * 1 + 1 * cc.val = cc.val; rw [i1]; omega

end Cert.Proof.KernelIdealL

end
-- ==== Proof.KIPayRead.lean ====
/-
  The TensorCore kernels' pure computations read at an index, on the extended reals: a layer on a block of columns is, at
  (feature, column), prelu of the weights' row times the block's column plus the bias; the head's pooling adds up the
  layer's values over the block's columns that name a node; the head's last step is the softmax of the dense map of the
  pooled column.
-/
import proofs.«211848_g47218870452992_cont_8to1c4_747_2_alg».proof.Proof.Gen.KernelIdeal.Skeleton
import proofs.«211848_g47218870452992_cont_8to1c4_747_2_alg».proof.Proof.RefSpec
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

set_option Elab.async false

noncomputable section

namespace Cert.Proof.KernelIdealL

open Cert.KernelIdeal Cert.KernelIdeal.Gen
open Idealize.ShloMosaic Idealize.ShloMosaic.ValueIdx
open scoped BigOperators

/-! ## Small reads -/

/-- A shape cast to the same shape reads the operand. -/
theorem shapeCast_self_apply {α : Type} {a b : ℕ} (x : (⟨2, ![a, b]⟩ : Shape).Idx → α)
    (h : (⟨2, ![a, b]⟩ : Shape).ShapeCasts ⟨2, ![a, b]⟩) (i : (⟨2, ![a, b]⟩ : Shape).Idx) :
    shapeCast ⟨2, ![a, b]⟩ x h i = x i :=
  shapeCast_apply x h i i rfl

/-- A column laid along every column of a wider matrix reads, at (h, j), its entry h. -/
theorem broadcastTo_col_apply {α : Type} {a b : ℕ} (v : (⟨2, ![a, 1]⟩ : Shape).Idx → α)
    (hb : (⟨2, ![a, 1]⟩ : Shape).Broadcasts ⟨2, ![a, b]⟩) (h : Fin a) (j : Fin b) :
    broadcastTo ⟨2, ![a, b]⟩ v hb (ix2 h j) = v (ix2 h (0 : Fin 1)) := by
  refine broadcastTo_apply v hb (ix2 h j) (ix2 h (0 : Fin 1)) (fun c => ?_)
  match c with
  | ⟨0, _⟩ =>
    show h.val = if a = 1 then 0 else h.val
    split_ifs with ha
    · have := h.isLt; omega
    · rfl
  | ⟨1, _⟩ =>
    show (0 : ℕ) = if (1 : ℕ) = 1 then 0 else _
    simp

/-- prelu as the kernels spell it: the value where it is not negative, the slope times it where it is. -/
theorem prelu_select (v a : EReal) :
    Scalar.select (Ideal.cmp .oge v 0) v (a * v) = Cert.RefSpec.prelu v a := by
  unfold Cert.RefSpec.prelu Ideal.cmp
  by_cases hv : (0 : EReal) ≤ v
  · rw [if_pos hv]
    simp only [hv, decide_true]
    exact select_one _ _
  · rw [if_neg hv]
    simp only [hv, decide_false]
    exact select_zero _ _

/-! ## The first layer on a block -/

/-- The weights' row times the block's column. -/
theorem dotL1_apply (l : FVec Ideal S256x128 .f32) (r : FVec Ideal S128x2048 .f32) (h : Fin 256) (j : Fin 2048) :
    matmul dot_S256x128_S128x2048_S256x2048_1_0_0_1_n_n none l r (constant S256x2048 .f32 0x00000000#32) (ix2 h j)
      = ∑ f : Fin 128, l (ix2 h f) * r (ix2 f j) := by
  show FloatOps.matmul dot_S256x128_S128x2048_S256x2048_1_0_0_1_n_n none l r (constant S256x2048 .f32 0x00000000#32) (ix2 h j) = _
  rw [Ideal.matmul_constant_zero_apply,
    ← Equiv.sum_comp (contrEquiv1 dot_S256x128_S128x2048_S256x2048_1_0_0_1_n_n 128 rfl rfl).symm]
  refine Finset.sum_congr rfl fun f _ => ?_
  congr 2 <;> (funext a; refine Fin.ext ?_; match a with | ⟨0, _⟩ => rfl | ⟨1, _⟩ => rfl)

/-- P1. The first layer's stored value at (feature h, column j) of a block: arguments in the printed order — the weights
    transposed, the block of aggregated features, the bias column, the slope column. -/
theorem k1_pay1_apply (v0 : Vec Ideal S256x128 .f32) (v2 : Vec Ideal S128x2048 .f32) (v5 v11 : Vec Ideal S256x1 .f32)
    (h : Fin 256) (j : Fin 2048) :
    k1_pay1 (F := Ideal) v0 v2 v5 v11 (ix2 h j)
      = Cert.RefSpec.prelu ((∑ f : Fin 128, v0 (ix2 h f) * v2 (ix2 f j)) + v5 (ix2 h (0 : Fin 1))) (v11 (ix2 h (0 : Fin 1))) := by
  unfold k1_pay1
  rw [select_apply, cmpf_apply, broadcast_apply, mulf_apply, addf_apply, dotL1_apply, broadcastTo_col_apply,
    broadcastTo_col_apply, shapeCast_self_apply, shapeCast_self_apply]
  simp only [shapeCast_self_apply]
  show Scalar.select (Ideal.cmp .oge _ (Ideal.ofBits .f32 0x00000000#32)) _ _ = _
  rw [Ideal.ofBits_zero_f32]
  exact prelu_select _ _

/-! ## The head's last step -/

theorem ofBits_ninf' : Ideal.ofBits .f32 0xFF800000#32 = (⊥ : EReal) := by simp [Ideal.ofBits, Ideal.ieee]

/-- A vector as a one-row matrix reads, at (0, l), its entry l; a one-entry vector as a 1 × 1 matrix reads its entry. -/
theorem row_apply {α : Type} {n : ℕ} (x : (⟨1, ![n]⟩ : Shape).Idx → α) (h : (⟨1, ![n]⟩ : Shape).ShapeCasts ⟨2, ![1, n]⟩)
    (u : Fin 1) (l : Fin n) : shapeCast ⟨2, ![1, n]⟩ x h (ix2 u l) = x (ix1 l) :=
  shapeCast_a_1a_apply x h u l

/-- A 1 × 1 matrix laid along a row of sixteen reads its one entry. -/
theorem broadcastTo_11_apply {α : Type} {b : ℕ} (v : (⟨2, ![1, 1]⟩ : Shape).Idx → α)
    (hb : (⟨2, ![1, 1]⟩ : Shape).Broadcasts ⟨2, ![1, b]⟩) (u : Fin 1) (j : Fin b) :
    broadcastTo ⟨2, ![1, b]⟩ v hb (ix2 u j) = v (ix2 (0 : Fin 1) (0 : Fin 1)) := by
  refine broadcastTo_apply v hb (ix2 u j) (ix2 (0 : Fin 1) (0 : Fin 1)) (fun c => ?_)
  match c with
  | ⟨0, _⟩ => show (0 : ℕ) = if (1 : ℕ) = 1 then 0 else _; simp
  | ⟨1, _⟩ => show (0 : ℕ) = if (1 : ℕ) = 1 then 0 else _; simp

/-- The pooled column through the head's weights: the sum over the 256 features. -/
theorem headDot_apply (v35 : FVec Ideal S256x1 .f32) (v36 : FVec Ideal S256x16 .f32) (l : Fin 16) :
    multiReduction .add [0] S16 (mulf (broadcastTo S256x16 v35 broadcasts_S256x1_S256x16) v36) 0x00000000#32
        reduces_S256x16_S16 (.inl rfl) rfl (ix1 l)
      = ∑ k : Fin 256, v35 (ix2 k (0 : Fin 1)) * v36 (ix2 k l) := by
  refine (Ideal.multiReduction_add_single _ _ reduces_S256x16_S16 _ _ (ix1 l)).trans ?_
  refine Finset.sum_congr rfl fun (k : Fin 256) _ => ?_
  have hl : reduces_S256x16_S16.lift (ix1 l) k = ix2 k l := by
    funext a; refine Fin.ext ?_
    match a with
    | ⟨0, _⟩ => rfl
    | ⟨1, _⟩ => rfl
  rw [hl, mulf_apply, broadcastTo_col_apply]

/-- The sum of a row of sixteen. -/
theorem rowSum_apply (e : FVec Ideal S1x16 .f32) :
    multiReduction .add [1] S1 e 0x00000000#32 reduces_S1x16_S1 (.inl rfl) rfl (ix1 (0 : Fin 1))
      = ∑ l : Fin 16, e (ix2 (0 : Fin 1) l) := by
  refine (Ideal.multiReduction_add_single _ _ reduces_S1x16_S1 _ _ (ix1 (0 : Fin 1))).trans ?_
  refine Finset.sum_congr rfl fun (l : Fin 16) _ => congrArg e ?_
  funext a; refine Fin.ext ?_
  match a with
  | ⟨0, _⟩ => rfl
  | ⟨1, _⟩ => rfl

/-- The maximum of a row of sixteen, from −∞. -/
theorem rowMax_apply (e : FVec Ideal S1x16 .f32) :
    multiReduction .maximumf [1] S1 e 0xFF800000#32 reduces_S1x16_S1 (.inl rfl) rfl (ix1 (0 : Fin 1))
      = (Finset.univ : Finset (Fin 16)).fold max ⊥ (fun l => e (ix2 (0 : Fin 1) l)) := by
  refine (Ideal.multiReduction_maximumf_single _ _ reduces_S1x16_S1 _ _ (ix1 (0 : Fin 1))).trans ?_
  show (Finset.univ : Finset (Fin 16)).fold max (Ideal.ofBits .f32 0xFF800000#32) _ = _
  rw [ofBits_ninf']
  have hf : (e ∘ reduces_S1x16_S1.lift (ix1 (0 : Fin 1))) = fun l : Fin 16 => e (ix2 (0 : Fin 1) l) :=
    funext fun (l : Fin 16) => congrArg e (by
      funext a; refine Fin.ext ?_
      match a with
      | ⟨0, _⟩ => rfl
      | ⟨1, _⟩ => rfl)
  rw [hf]

/-- The exponential, elementwise. -/
theorem exp_apply {s : Shape} {φ : FTy} (x : FVec Ideal s φ) (i : s.Idx) : exp x i = Ideal.exp (x i) := rfl

/-- P3. The head at the last grid point: the softmax of the dense map of the pooled column. Arguments in the printed order
    — the pooled column, the head's weights, the head's bias as a row. -/
theorem k3_pay4_apply (v35 : Vec Ideal S256x1 .f32) (v36 : Vec Ideal S256x16 .f32) (v41 : Vec Ideal S1x16 .f32) (l : Fin 16) :
    k3_pay4 (F := Ideal) v35 v36 v41 (ix2 (0 : Fin 1) l)
      = Cert.RefSpec.softmax (fun l' => (∑ k : Fin 256, v35 (ix2 k (0 : Fin 1)) * v36 (ix2 k l')) + v41 (ix2 (0 : Fin 1) l')) l := by
  -- the logits row, read at any class
  have hlg : ∀ l' : Fin 16, (addf (shapeCast S1x16 (multiReduction .add [0] S16 (mulf (broadcastTo S256x16 v35 broadcasts_S256x1_S256x16) v36)
        0x00000000#32 reduces_S256x16_S16 (.inl rfl) rfl) shapeCasts_S16_S1x16) (shapeCast S1x16 v41 shapeCasts_S1x16_S1x16) : FVec Ideal S1x16 .f32)
        (ix2 (0 : Fin 1) l')
      = (∑ k : Fin 256, v35 (ix2 k (0 : Fin 1)) * v36 (ix2 k l')) + v41 (ix2 (0 : Fin 1) l') := fun l' => by
    rw [addf_apply, row_apply, headDot_apply, shapeCast_self_apply]
  have hM : multiReduction .maximumf [1] S1 (addf (shapeCast S1x16 (multiReduction .add [0] S16 (mulf (broadcastTo S256x16 v35 broadcasts_S256x1_S256x16) v36)
        0x00000000#32 reduces_S256x16_S16 (.inl rfl) rfl) shapeCasts_S16_S1x16) (shapeCast S1x16 v41 shapeCasts_S1x16_S1x16) : FVec Ideal S1x16 .f32)
        0xFF800000#32 reduces_S1x16_S1 (.inl rfl) rfl (ix1 (0 : Fin 1))
      = (Finset.univ : Finset (Fin 16)).fold max ⊥ (fun l' => (∑ k : Fin 256, v35 (ix2 k (0 : Fin 1)) * v36 (ix2 k l')) + v41 (ix2 (0 : Fin 1) l')) := by
    rw [rowMax_apply]
    simp only [hlg]
  unfold k3_pay4 Cert.RefSpec.softmax Cert.RefSpec.softmaxShift
  rw [divf_apply, broadcastTo_11_apply, row_apply, rowSum_apply]
  simp only [exp_apply, subf_apply, broadcastTo_11_apply, row_apply, hlg]
  rw [hM, max_eq_right bot_le]

/-! ## The second layer on a block, pooled over the block's columns that name a node -/

/-- The weights' row times the block's column (256 features). -/
theorem dotL2_apply (l : FVec Ideal S256x256 .f32) (r : FVec Ideal S256x2048 .f32) (k : Fin 256) (j : Fin 2048) :
    matmul dot_S256x256_S256x2048_S256x2048_1_0_0_1_n_n none l r (constant S256x2048 .f32 0x00000000#32) (ix2 k j)
      = ∑ h : Fin 256, l (ix2 k h) * r (ix2 h j) := by
  show FloatOps.matmul dot_S256x256_S256x2048_S256x2048_1_0_0_1_n_n none l r (constant S256x2048 .f32 0x00000000#32) (ix2 k j) = _
  rw [Ideal.matmul_constant_zero_apply,
    ← Equiv.sum_comp (contrEquiv1 dot_S256x256_S256x2048_S256x2048_1_0_0_1_n_n 256 rfl rfl).symm]
  refine Finset.sum_congr rfl fun h _ => ?_
  congr 2 <;> (funext a; refine Fin.ext ?_; match a with | ⟨0, _⟩ => rfl | ⟨1, _⟩ => rfl)

/-- A vector as a column reads, at (i, 0), its entry i. -/
theorem colCast_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- Column j of block b, as the kernel computes its number: j + b · 2048 in 32-bit words, no wrap-around. -/
theorem col_toInt (b j : ℕ) (hb : b < 5) (hj : j < 2048) :
    (IntOp.addi (BitVec.ofNat 32 j) (Scalar.muli (BitVec.ofNat 32 b) 2048#32)).toInt = ((b * 2048 + j : ℕ) : Int) := by
  have hn : (BitVec.ofNat 32 j + BitVec.ofNat 32 b * 2048#32).toNat = b * 2048 + j := by
    simp only [BitVec.toNat_add, BitVec.toNat_mul, BitVec.toNat_ofNat]
    omega
  show (BitVec.ofNat 32 j + BitVec.ofNat 32 b * 2048#32).toInt = _
  rw [BitVec.toInt_eq_toNat_cond, hn]
  split <;> omega

/-- The column mask: 1 where the column names a node, 0 where it is padding. -/
theorem col_mask (b j : ℕ) (hb : b < 5) (hj : j < 2048) :
    IntOp.cmpi .slt (IntOp.addi (BitVec.ofNat 32 j) (Scalar.muli (BitVec.ofNat 32 b) 2048#32)) 10000#32
      = if b * 2048 + j < 10000 then 1#1 else 0#1 := by
  have z : (10000#32 : BitVec 32).toInt = 10000 := by decide
  split_ifs with hc
  · refine IntOp.cmpi_slt.mpr ?_
    rw [col_toInt b j hb hj, z]; omega
  · rcases BitVec.eq_zero_or_eq_one (IntOp.cmpi .slt (IntOp.addi (BitVec.ofNat 32 j) (Scalar.muli (BitVec.ofNat 32 b) 2048#32)) 10000#32) with e | e
    · exact e
    · have := IntOp.cmpi_slt.mp e
      rw [col_toInt b j hb hj, z] at this; omega

/-- P2 (the shared part). The second layer on block `i 0` summed over the block's columns that name a node, at feature k:
    arguments in the printed order — the grid point, the weights transposed, the block of the second aggregation, the bias
    column, the slope column. -/
theorem k3_pay1_apply (i : grid3.Coords) (v0 : Vec Ideal S256x256 .f32) (v2 : Vec Ideal S256x2048 .f32) (v5 v11 : Vec Ideal S256x1 .f32)
    (k : Fin 256) (u : Fin 1) :
    k3_pay1 (F := Ideal) i v0 v2 v5 v11 (ix2 k u)
      = ∑ j : Fin 2048, (if (i 0).val * 2048 + j.val < 10000 then
          Cert.RefSpec.prelu ((∑ h : Fin 256, v0 (ix2 k h) * v2 (ix2 h j)) + v5 (ix2 k (0 : Fin 1))) (v11 (ix2 k (0 : Fin 1)))
        else 0) := by
  have hb : (i 0).val < 5 := (i 0).isLt
  unfold k3_pay1
  rw [colCast_apply]
  refine (Ideal.multiReduction_add_single _ _ reduces_S256x2048_S256 _ _ (ix1 k)).trans ?_
  refine Finset.sum_congr rfl fun (j : Fin 2048) _ => ?_
  have hl : reduces_S256x2048_S256.lift (ix1 k) j = ix2 k j := by
    funext a; refine Fin.ext ?_
    match a with
    | ⟨0, _⟩ => rfl
    | ⟨1, _⟩ => rfl
  rw [hl, select_apply]
  have hm : (cmpi .slt (addi (iota .tc S256x2048 32 [1] iota_S256x2048_d1_w32)
        (broadcast S256x2048 (Scalar.muli (BitVec.ofNat 32 (i 0).val) 2048#32))) (broadcast S256x2048 10000#32) : IVec S256x2048 1) (ix2 k j)
      = if (i 0).val * 2048 + j.val < 10000 then 1#1 else 0#1 := by
    show IntOp.cmpi .slt (IntOp.addi (BitVec.ofNat 32 (0 * 2048 + j.val)) (Scalar.muli (BitVec.ofNat 32 (i 0).val) 2048#32)) 10000#32 = _
    rw [Nat.zero_mul, Nat.zero_add]
    exact col_mask (i 0).val j.val hb j.isLt
  rw [hm]
  split_ifs with hc
  · rw [select_one, select_apply, cmpf_apply, broadcast_apply, mulf_apply, addf_apply, dotL2_apply, broadcastTo_col_apply,
      broadcastTo_col_apply, shapeCast_self_apply, shapeCast_self_apply]
    simp only [shapeCast_self_apply]
    show Scalar.select (Ideal.cmp .oge _ (Ideal.ofBits .f32 0x00000000#32)) _ _ = _
    rw [Ideal.ofBits_zero_f32]
    exact prelu_select _ _
  · rw [select_zero, broadcast_apply]
    exact Ideal.ofBits_zero_f32

/-- P2, first block: the pooled column starts at the block's sum. -/
theorem k3_pay2_apply (i : grid3.Coords) (v0 : Vec Ideal S256x256 .f32) (v2 : Vec Ideal S256x2048 .f32) (v5 v11 : Vec Ideal S256x1 .f32)
    (k : Fin 256) (u : Fin 1) :
    k3_pay2 (F := Ideal) i v0 v2 v5 v11 (ix2 k u)
      = ∑ j : Fin 2048, (if (i 0).val * 2048 + j.val < 10000 then
          Cert.RefSpec.prelu ((∑ h : Fin 256, v0 (ix2 k h) * v2 (ix2 h j)) + v5 (ix2 k (0 : Fin 1))) (v11 (ix2 k (0 : Fin 1)))
        else 0) := by
  unfold k3_pay2
  rw [shapeCast_self_apply]
  exact k3_pay1_apply i v0 v2 v5 v11 k u

/-- P2, later blocks: the block's sum is added onto the pooled column read before. -/
theorem k3_pay3_apply (i : grid3.Coords) (v0 : Vec Ideal S256x256 .f32) (v2 : Vec Ideal S256x2048 .f32) (v5 v11 v35 : Vec Ideal S256x1 .f32)
    (k : Fin 256) (u : Fin 1) :
    k3_pay3 (F := Ideal) i v0 v2 v5 v11 v35 (ix2 k u)
      = v35 (ix2 k u) + ∑ j : Fin 2048, (if (i 0).val * 2048 + j.val < 10000 then
          Cert.RefSpec.prelu ((∑ h : Fin 256, v0 (ix2 k h) * v2 (ix2 h j)) + v5 (ix2 k (0 : Fin 1))) (v11 (ix2 k (0 : Fin 1)))
        else 0) := by
  unfold k3_pay3
  rw [shapeCast_self_apply, addf_apply, k3_pay1_apply i v0 v2 v5 v11 k u]

end Cert.Proof.KernelIdealL

end
-- ==== Proof.KIReg0Glue.lean ====
/-
  The first layer's region, as the value run takes it: its exit rewrites the layer's output array and keeps every other
  buffer (an input array keeps its contents: no window of it is written back; a buffer that is no array of the region is
  not touched); the output array holds, at row h and column n, the body's payload of the block holding column n read at
  the column's place in the block — the dense map of that column of the aggregated features, the bias, the leaky slope.
-/
import proofs.«211848_g47218870452992_cont_8to1c4_747_2_alg».proof.Proof.KIValue
import proofs.«211848_g47218870452992_cont_8to1c4_747_2_alg».proof.Proof.KIReg0Read
import proofs.«211848_g47218870452992_cont_8to1c4_747_2_alg».proof.Proof.KIPayRead

set_option Elab.async false
set_option maxRecDepth 16384

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.RefSpec (prelu)
open scoped BigOperators

local notation "𝕄" => MT nD τ sig (HIx 2) (Elt Ideal) ℕ UU ℕ

/-- The first layer's region's exit. -/
def R0c : Dev nD → Valuation τ sig (Elt Ideal) → Valuation τ sig (Elt Ideal) := fun d W => reg0Out (F := Ideal) W d

/-- It keeps every buffer but the layer's output array. -/
theorem R0c_keep (d : Dev nD) (W : Valuation τ sig (Elt Ideal)) (r : Ref sig .tc) (h : r ≠ main_v12) :
    R0c d W (Proc.devRef .tc r) = W (Proc.devRef .tc r) := by
  unfold R0c
  by_cases hw : ∀ w, Pipeline.arrRef spec1 w ≠ r
  · exact reg0Out_of_ne W d r hw
  · obtain ⟨w, hw'⟩ := not_forall.mp hw
    obtain rfl := not_not.mp hw'
    rw [reg0Out_arr]
    fin_cases w
    · exact ((dat1 (r0V fun _ => W) d).arrAt_in _ rfl _).trans (A_eq1 _ d _)
    · exact ((dat1 (r0V fun _ => W) d).arrAt_in _ rfl _).trans (A_eq1 _ d _)
    · exact ((dat1 (r0V fun _ => W) d).arrAt_in _ rfl _).trans (A_eq1 _ d _)
    · exact ((dat1 (r0V fun _ => W) d).arrAt_in _ rfl _).trans (A_eq1 _ d _)
    · exact absurd rfl h

/-- Its read-out. -/
theorem R0c_read : ReadL1 R0c := by
  intro d W h n
  have hn : n.val % 2048 < 2048 := Nat.mod_lt _ (by decide)
  show reg0Out (F := Ideal) W d (Proc.devRef .tc main_v12) (ix2 h n) = _
  refine (reg0Out_v12 W d h n).trans ((k1_pay1_apply _ _ _ _ h ⟨n.val % 2048, hn⟩).trans ?_)
  rw [iblk1_2_apply, iblk1_3_apply]
  refine congrArg (fun s => prelu (s + _) _) (Finset.sum_congr rfl fun f _ => ?_)
  rw [iblk1_1_apply, iblk1_0_apply]
  refine congrArg (fun j => w9 W (ix2 h f) * w8 W (ix2 f j)) (Fin.ext ?_)
  show 2048 * (n.val / 2048) + n.val % 2048 = n.val
  omega

/-- Its step, in the shape @main's proof with values takes. -/
theorem R0c_step (P' : (K (F := Ideal)).Pay (nD := nD) (Val := Elt Ideal) (Name := ℕ) (U := UU))
    (κ : GSem nD τ sig → ℕ) (d : Dev nD) (Wc : Valuation τ sig (Elt Ideal)) (Φ : PUnit → sProp 𝕄) :
    iprop((K (F := Ideal)).ctx EH P' κ ∗ (K (F := Ideal)).tcSt EH d 1 ∗ boundary (SparseCore.T d)
        ∗ StableHlo.held (SparseCore.T d) (Pipeline.ucRefs τ sig) Wc ∗ Aux (F := Ideal) d ∗ ghost (F := Ideal) 0 d
        ∗ (((K (F := Ideal)).tcSt EH d 1 ∗ boundary (SparseCore.T d) ∗ StableHlo.held (SparseCore.T d) (Pipeline.ucRefs τ sig) (R0c d Wc) ∗ Aux (F := Ideal) d) -∗ Φ ⟨⟩))
      ⊢ wp frame (wpE ((K (F := Ideal)).defs (D (F := Ideal))) 𝒱 (SparseCore.T d) none) Set.univ
          (Prog.lift (.customCall (SparseCore.inner (Pipeline.entry 0)) ())) Φ :=
  reg0_stepV (F := Ideal) P' κ d Wc Φ

end Cert.Proof.KernelIdealL

end
-- ==== Proof.KITile1V.lean ====
/-
  One tile's task of the second aggregation call, with the values of its two results.

  The task is the first call's, done twice through the same four scratches: for each of the tile's two stretches of four
  rows, the accumulator's contents are carried through the pass's three loops' invariants instead of forgotten, each spelt
  as the stores leave it — the zero-fill's pieces over what the accumulator held, a row of a group as the indexed
  add-store of the table scratch's sixteen words at the source indices onto the accumulator's at the destination indices,
  a group its four rows, a chunk its groups, a pass its chunks. The folds over the trips are functions by recursion on the
  trip count, read only through their two equations. The second pass starts from what the first left in the accumulator,
  and each pass's result stretch ends holding that pass's accumulator, copied out whole.
-/
import proofs.«211848_g47218870452992_cont_8to1c4_747_2_alg».proof.Proof.KITile1

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Pass a's values, spelt as its stores leave them -/

/-- The accumulator and the table scratch as the indexed operations address them: through their whole rectangles. -/
abbrev accV1 : View sig .scVector .vmem S40960 .f32 := t1sc1.access (Rect.whole S40960)
abbrev tabV1 : View sig .scVector .vmem S40960 .f32 := t1sc0.access (Rect.whole S40960)

/-- What the zero-fill leaves in the accumulator after its first `n` trips, from contents `f`: one sixteen-word piece per trip. -/
def zfill1a (d : Dev nD) (L : grid2.Coords) : Nat → Buf (Elt F) (t1sc1.view.loc (V d (cV1 L) (jV1 L))) → Buf (Elt F) (t1sc1.view.loc (V d (cV1 L) (jV1 L)))
  | 0, f => f
  | n + 1, f =>
    if h : n < k2_t1_loop.trips then
      t1sc1.view.writes (Elt F) (zfill1a d L n f) [⟨Rect.unit (s := S40960) (k2_off2 ⟨n, h⟩) S16.size (k2_off2_inb ⟨n, h⟩), k2_pay9 (F := F)⟩]
    else zfill1a d L n f

theorem zfill1a_succ (d : Dev nD) (L : grid2.Coords) (k : Fin k2_t1_loop.trips) (f : Buf (Elt F) (t1sc1.view.loc (V d (cV1 L) (jV1 L)))) :
    zfill1a (F := F) d L (k.val + 1) f
      = t1sc1.view.writes (Elt F) (zfill1a d L k.val f) [⟨Rect.unit (s := S40960) (k2_off2 k) S16.size (k2_off2_inb k), k2_pay9 (F := F)⟩] := by
  rw [zfill1a, dif_pos k.isLt]

theorem zfill1a_zero (d : Dev nD) (L : grid2.Coords) (f : Buf (Elt F) (t1sc1.view.loc (V d (cV1 L) (jV1 L)))) : zfill1a (F := F) d L 0 f = f := rfl

/-- One row of one group: the table scratch's words at the sixteen source indices added onto the accumulator's at the sixteen
    destination indices, lane by lane. -/
def rowStep1 (d : Dev nD) (L : grid2.Coords) (T : Buf (Elt F) (t1sc0.view.loc (V d (cV1 L) (jV1 L)))) (a : Buf (Elt F) (t1sc1.view.loc (V d (cV1 L) (jV1 L))))
    (sI dI : IVec S16 32) (hsI : ∀ a x, ((![sI] : Fin 1 → IVec S16 32) a x).toNat < S40960.size a)
    (hdI : ∀ a x, ((![dI] : Fin 1 → IVec S16 32) a x).toNat < S40960.size a) : Buf (Elt F) (t1sc1.view.loc (V d (cV1 L) (jV1 L))) :=
  accV1.write (Elt F) a (storeIdx (accV1.read (Elt F) a) ![dI] (loadIdx (tabV1.read (Elt F) T) ![sI] hsI) (fun _ => 1#1) true hdI) Finset.univ

/-- One group of sixteen edges: its four rows in turn. -/
def grpStep1a (d : Dev nD) (L : grid2.Coords) (T : Buf (Elt F) (t1sc0.view.loc (V d (cV1 L) (jV1 L)))) (s16 d16 : Vec F S16 .i32)
    (hs : ∀ x, (s16 x).toNat < 10000) (hd : ∀ x, (d16 x).toNat < 10000) (a : Buf (Elt F) (t1sc1.view.loc (V d (cV1 L) (jV1 L)))) :
    Buf (Elt F) (t1sc1.view.loc (V d (cV1 L) (jV1 L))) :=
  rowStep1 d L T (rowStep1 d L T (rowStep1 d L T (rowStep1 d L T a
    (k2_pay10 (F := F) s16) (k2_pay11 (F := F) d16) (t1chk1_of s16 hs) (t1chk2_of d16 hd))
    (k2_pay12 (F := F) s16) (k2_pay13 (F := F) d16) (t1chk3_of s16 hs) (t1chk4_of d16 hd))
    (k2_pay14 (F := F) s16) (k2_pay15 (F := F) d16) (t1chk5_of s16 hs) (t1chk6_of d16 hd))
    (k2_pay16 (F := F) s16) (k2_pay17 (F := F) d16) (t1chk7_of s16 hs) (t1chk8_of d16 hd)

/-- A chunk's sixteen words of group `j`, read off an index scratch holding the chunk's words `g`. -/
def grpOf1a (d : Dev nD) (L : grid2.Coords) (g : Buf (Elt F) (t1sc2.view.loc (V d (cV1 L) (jV1 L)))) (j : Fin k2_t3_loop.trips) : Vec F S16 .i32 :=
  t1sc2.view.readAt (Elt F) (Rect.unit (s := S2000) (k2_off4 j) S16.size (k2_off4_inb j)).toLoadRect g

/-- The same off the destinations' scratch. -/
def grpOfD1a (d : Dev nD) (L : grid2.Coords) (g : Buf (Elt F) (t1sc3.view.loc (V d (cV1 L) (jV1 L)))) (j : Fin k2_t3_loop.trips) : Vec F S16 .i32 :=
  t1sc3.view.readAt (Elt F) (Rect.unit (s := S2000) (k2_off4 j) S16.size (k2_off4_inb j)).toLoadRect g

/-- The accumulator after a chunk's first `n` groups, from contents `a`. -/
def accG1a (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) : Nat → Buf (Elt F) (t1sc1.view.loc (V d (cV1 L) (jV1 L))) → Buf (Elt F) (t1sc1.view.loc (V d (cV1 L) (jV1 L)))
  | 0, a => a
  | n + 1, a =>
    if h : n < k2_t3_loop.trips then
      grpStep1a d L T (grpOf1a d L sC ⟨n, h⟩) (grpOfD1a d L dC ⟨n, h⟩) (fun _ => hs _) (fun _ => hd _) (accG1a d L T sC dC hs hd n a)
    else accG1a d L T sC dC hs hd n a

theorem accG1a_succ (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (j : Fin k2_t3_loop.trips) (a : Buf (Elt F) (t1sc1.view.loc (V d (cV1 L) (jV1 L)))) :
    accG1a (F := F) d L T sC dC hs hd (j.val + 1) a
      = grpStep1a d L T (grpOf1a d L sC j) (grpOfD1a d L dC j) (fun _ => hs _) (fun _ => hd _) (accG1a d L T sC dC hs hd j.val a) := by
  rw [accG1a, dif_pos j.isLt]

theorem accG1a_zero (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (a : Buf (Elt F) (t1sc1.view.loc (V d (cV1 L) (jV1 L)))) :
    accG1a (F := F) d L T sC dC hs hd 0 a = a := rfl

/-- Chunk `k`'s words of an edge list, as the chunk's copy lands them in an index scratch. -/
def chunkOf1a (d : Dev nD) (L : grid2.Coords) (fe : Buf (Elt F) (srcW.view.loc (V d (cV1 L) (jV1 L)))) (k : Fin k2_t2_loop.trips) : Buf (Elt F) (t1sc2.view.loc (V d (cV1 L) (jV1 L))) :=
  (srcW.slice (Rect.unit (s := S320000) (k2_off3 k) S2000.size (k2_off3_inb k)) (fun _ => rfl)).view.read (Elt F) fe

theorem chunkOf1a_lt (d : Dev nD) (L : grid2.Coords) (fe : Buf (Elt F) (srcW.view.loc (V d (cV1 L) (jV1 L)))) (he : ∀ j, (fe j).toNat < 10000) (k : Fin k2_t2_loop.trips) :
    ∀ j, (chunkOf1a (F := F) d L fe k j).toNat < 10000 := fun _ => he _

/-- The same of the destinations. -/
def chunkOfD1a (d : Dev nD) (L : grid2.Coords) (fe : Buf (Elt F) (dstW.view.loc (V d (cV1 L) (jV1 L)))) (k : Fin k2_t2_loop.trips) : Buf (Elt F) (t1sc3.view.loc (V d (cV1 L) (jV1 L))) :=
  (dstW.slice (Rect.unit (s := S320000) (k2_off3 k) S2000.size (k2_off3_inb k)) (fun _ => rfl)).view.read (Elt F) fe

theorem chunkOfD1a_lt (d : Dev nD) (L : grid2.Coords) (fe : Buf (Elt F) (dstW.view.loc (V d (cV1 L) (jV1 L)))) (he : ∀ j, (fe j).toNat < 10000) (k : Fin k2_t2_loop.trips) :
    ∀ j, (chunkOfD1a (F := F) d L fe k j).toNat < 10000 := fun _ => he _

/-- The accumulator after the first `n` chunks, from contents `a`. -/
def accK1a (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) : Nat → Buf (Elt F) (t1sc1.view.loc (V d (cV1 L) (jV1 L))) → Buf (Elt F) (t1sc1.view.loc (V d (cV1 L) (jV1 L)))
  | 0, a => a
  | n + 1, a =>
    if h : n < k2_t2_loop.trips then
      accG1a d L T (chunkOf1a d L fs ⟨n, h⟩) (chunkOfD1a d L fd ⟨n, h⟩) (chunkOf1a_lt d L fs hs ⟨n, h⟩) (chunkOfD1a_lt d L fd hd ⟨n, h⟩) k2_t3_loop.trips (accK1a d L T fs fd hs hd n a)
    else accK1a d L T fs fd hs hd n a

theorem accK1a_succ (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (k : Fin k2_t2_loop.trips) (a : Buf (Elt F) (t1sc1.view.loc (V d (cV1 L) (jV1 L)))) :
    accK1a (F := F) d L T fs fd hs hd (k.val + 1) a
      = accG1a d L T (chunkOf1a d L fs k) (chunkOfD1a d L fd k) (chunkOf1a_lt d L fs hs k) (chunkOfD1a_lt d L fd hd k) k2_t3_loop.trips (accK1a d L T fs fd hs hd k.val a) := by
  rw [accK1a, dif_pos k.isLt]

theorem accK1a_zero (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (a : Buf (Elt F) (t1sc1.view.loc (V d (cV1 L) (jV1 L)))) :
    accK1a (F := F) d L T fs fd hs hd 0 a = a := rfl

-- the folds are read by their equations from here on, never unfolded: their trip counts are numerals
attribute [irreducible] zfill1a accG1a accK1a

/-- The table scratch after the tile's first copy: its four rows of the table. -/
def tabT1a (d : Dev nD) (L : grid2.Coords) (ft : Buf (Elt F) ((tabSl1a L).view.loc (V d (cV1 L) (jV1 L)))) : Buf (Elt F) (t1sc0.view.loc (V d (cV1 L) (jV1 L))) :=
  (tabSl1a L).view.read (Elt F) ft

/-- What the task leaves in the accumulator, from its contents `f1` before the zero-fill. -/
def agg1a (d : Dev nD) (L : grid2.Coords) (ft : Buf (Elt F) ((tabSl1a L).view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (f1 : Buf (Elt F) (t1sc1.view.loc (V d (cV1 L) (jV1 L)))) : Buf (Elt F) (t1sc1.view.loc (V d (cV1 L) (jV1 L))) :=
  accK1a d L (tabT1a d L ft) fs fd hs hd k2_t2_loop.trips (zfill1a d L k2_t1_loop.trips f1)

/-! ## Pass b's values, spelt as its stores leave them -/

/-- What the zero-fill leaves in the accumulator after its first `n` trips, from contents `f`: one sixteen-word piece per trip. -/
def zfill1b (d : Dev nD) (L : grid2.Coords) : Nat → Buf (Elt F) (t1sc1.view.loc (V d (cV1 L) (jV1 L))) → Buf (Elt F) (t1sc1.view.loc (V d (cV1 L) (jV1 L)))
  | 0, f => f
  | n + 1, f =>
    if h : n < k2_t4_loop.trips then
      t1sc1.view.writes (Elt F) (zfill1b d L n f) [⟨Rect.unit (s := S40960) (k2_off5 ⟨n, h⟩) S16.size (k2_off5_inb ⟨n, h⟩), k2_pay18 (F := F)⟩]
    else zfill1b d L n f

theorem zfill1b_succ (d : Dev nD) (L : grid2.Coords) (k : Fin k2_t4_loop.trips) (f : Buf (Elt F) (t1sc1.view.loc (V d (cV1 L) (jV1 L)))) :
    zfill1b (F := F) d L (k.val + 1) f
      = t1sc1.view.writes (Elt F) (zfill1b d L k.val f) [⟨Rect.unit (s := S40960) (k2_off5 k) S16.size (k2_off5_inb k), k2_pay18 (F := F)⟩] := by
  rw [zfill1b, dif_pos k.isLt]

theorem zfill1b_zero (d : Dev nD) (L : grid2.Coords) (f : Buf (Elt F) (t1sc1.view.loc (V d (cV1 L) (jV1 L)))) : zfill1b (F := F) d L 0 f = f := rfl

/-- One group of sixteen edges: its four rows in turn. -/
def grpStep1b (d : Dev nD) (L : grid2.Coords) (T : Buf (Elt F) (t1sc0.view.loc (V d (cV1 L) (jV1 L)))) (s16 d16 : Vec F S16 .i32)
    (hs : ∀ x, (s16 x).toNat < 10000) (hd : ∀ x, (d16 x).toNat < 10000) (a : Buf (Elt F) (t1sc1.view.loc (V d (cV1 L) (jV1 L)))) :
    Buf (Elt F) (t1sc1.view.loc (V d (cV1 L) (jV1 L))) :=
  rowStep1 d L T (rowStep1 d L T (rowStep1 d L T (rowStep1 d L T a
    (k2_pay1 (F := F) s16) (k2_pay2 (F := F) d16) (t1chk9_of s16 hs) (t1chk10_of d16 hd))
    (k2_pay3 (F := F) s16) (k2_pay4 (F := F) d16) (t1chk11_of s16 hs) (t1chk12_of d16 hd))
    (k2_pay5 (F := F) s16) (k2_pay6 (F := F) d16) (t1chk13_of s16 hs) (t1chk14_of d16 hd))
    (k2_pay7 (F := F) s16) (k2_pay8 (F := F) d16) (t1chk15_of s16 hs) (t1chk16_of d16 hd)

/-- A chunk's sixteen words of group `j`, read off an index scratch holding the chunk's words `g`. -/
def grpOf1b (d : Dev nD) (L : grid2.Coords) (g : Buf (Elt F) (t1sc2.view.loc (V d (cV1 L) (jV1 L)))) (j : Fin k2_t6_loop.trips) : Vec F S16 .i32 :=
  t1sc2.view.readAt (Elt F) (Rect.unit (s := S2000) (k2_off7 j) S16.size (k2_off7_inb j)).toLoadRect g

/-- The same off the destinations' scratch. -/
def grpOfD1b (d : Dev nD) (L : grid2.Coords) (g : Buf (Elt F) (t1sc3.view.loc (V d (cV1 L) (jV1 L)))) (j : Fin k2_t6_loop.trips) : Vec F S16 .i32 :=
  t1sc3.view.readAt (Elt F) (Rect.unit (s := S2000) (k2_off7 j) S16.size (k2_off7_inb j)).toLoadRect g

/-- The accumulator after a chunk's first `n` groups, from contents `a`. -/
def accG1b (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) : Nat → Buf (Elt F) (t1sc1.view.loc (V d (cV1 L) (jV1 L))) → Buf (Elt F) (t1sc1.view.loc (V d (cV1 L) (jV1 L)))
  | 0, a => a
  | n + 1, a =>
    if h : n < k2_t6_loop.trips then
      grpStep1b d L T (grpOf1b d L sC ⟨n, h⟩) (grpOfD1b d L dC ⟨n, h⟩) (fun _ => hs _) (fun _ => hd _) (accG1b d L T sC dC hs hd n a)
    else accG1b d L T sC dC hs hd n a

theorem accG1b_succ (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (j : Fin k2_t6_loop.trips) (a : Buf (Elt F) (t1sc1.view.loc (V d (cV1 L) (jV1 L)))) :
    accG1b (F := F) d L T sC dC hs hd (j.val + 1) a
      = grpStep1b d L T (grpOf1b d L sC j) (grpOfD1b d L dC j) (fun _ => hs _) (fun _ => hd _) (accG1b d L T sC dC hs hd j.val a) := by
  rw [accG1b, dif_pos j.isLt]

theorem accG1b_zero (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (a : Buf (Elt F) (t1sc1.view.loc (V d (cV1 L) (jV1 L)))) :
    accG1b (F := F) d L T sC dC hs hd 0 a = a := rfl

/-- Chunk `k`'s words of an edge list, as the chunk's copy lands them in an index scratch. -/
def chunkOf1b (d : Dev nD) (L : grid2.Coords) (fe : Buf (Elt F) (srcW.view.loc (V d (cV1 L) (jV1 L)))) (k : Fin k2_t5_loop.trips) : Buf (Elt F) (t1sc2.view.loc (V d (cV1 L) (jV1 L))) :=
  (srcW.slice (Rect.unit (s := S320000) (k2_off6 k) S2000.size (k2_off6_inb k)) (fun _ => rfl)).view.read (Elt F) fe

theorem chunkOf1b_lt (d : Dev nD) (L : grid2.Coords) (fe : Buf (Elt F) (srcW.view.loc (V d (cV1 L) (jV1 L)))) (he : ∀ j, (fe j).toNat < 10000) (k : Fin k2_t5_loop.trips) :
    ∀ j, (chunkOf1b (F := F) d L fe k j).toNat < 10000 := fun _ => he _

/-- The same of the destinations. -/
def chunkOfD1b (d : Dev nD) (L : grid2.Coords) (fe : Buf (Elt F) (dstW.view.loc (V d (cV1 L) (jV1 L)))) (k : Fin k2_t5_loop.trips) : Buf (Elt F) (t1sc3.view.loc (V d (cV1 L) (jV1 L))) :=
  (dstW.slice (Rect.unit (s := S320000) (k2_off6 k) S2000.size (k2_off6_inb k)) (fun _ => rfl)).view.read (Elt F) fe

theorem chunkOfD1b_lt (d : Dev nD) (L : grid2.Coords) (fe : Buf (Elt F) (dstW.view.loc (V d (cV1 L) (jV1 L)))) (he : ∀ j, (fe j).toNat < 10000) (k : Fin k2_t5_loop.trips) :
    ∀ j, (chunkOfD1b (F := F) d L fe k j).toNat < 10000 := fun _ => he _

/-- The accumulator after the first `n` chunks, from contents `a`. -/
def accK1b (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) : Nat → Buf (Elt F) (t1sc1.view.loc (V d (cV1 L) (jV1 L))) → Buf (Elt F) (t1sc1.view.loc (V d (cV1 L) (jV1 L)))
  | 0, a => a
  | n + 1, a =>
    if h : n < k2_t5_loop.trips then
      accG1b d L T (chunkOf1b d L fs ⟨n, h⟩) (chunkOfD1b d L fd ⟨n, h⟩) (chunkOf1b_lt d L fs hs ⟨n, h⟩) (chunkOfD1b_lt d L fd hd ⟨n, h⟩) k2_t6_loop.trips (accK1b d L T fs fd hs hd n a)
    else accK1b d L T fs fd hs hd n a

theorem accK1b_succ (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (k : Fin k2_t5_loop.trips) (a : Buf (Elt F) (t1sc1.view.loc (V d (cV1 L) (jV1 L)))) :
    accK1b (F := F) d L T fs fd hs hd (k.val + 1) a
      = accG1b d L T (chunkOf1b d L fs k) (chunkOfD1b d L fd k) (chunkOf1b_lt d L fs hs k) (chunkOfD1b_lt d L fd hd k) k2_t6_loop.trips (accK1b d L T fs fd hs hd k.val a) := by
  rw [accK1b, dif_pos k.isLt]

theorem accK1b_zero (d : Dev nD) (L : grid2.Coords) (T : Buf (Elt F) (t1sc0.view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (a : Buf (Elt F) (t1sc1.view.loc (V d (cV1 L) (jV1 L)))) :
    accK1b (F := F) d L T fs fd hs hd 0 a = a := rfl

-- the folds are read by their equations from here on, never unfolded: their trip counts are numerals
attribute [irreducible] zfill1b accG1b accK1b

/-- The table scratch after the tile's first copy: its four rows of the table. -/
def tabT1b (d : Dev nD) (L : grid2.Coords) (ft : Buf (Elt F) ((tabSl1b L).view.loc (V d (cV1 L) (jV1 L)))) : Buf (Elt F) (t1sc0.view.loc (V d (cV1 L) (jV1 L))) :=
  (tabSl1b L).view.read (Elt F) ft

/-- What the task leaves in the accumulator, from its contents `f1` before the zero-fill. -/
def agg1b (d : Dev nD) (L : grid2.Coords) (ft : Buf (Elt F) ((tabSl1b L).view.loc (V d (cV1 L) (jV1 L)))) (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000) (f1 : Buf (Elt F) (t1sc1.view.loc (V d (cV1 L) (jV1 L)))) : Buf (Elt F) (t1sc1.view.loc (V d (cV1 L) (jV1 L))) :=
  accK1b d L (tabT1b d L ft) fs fd hs hd k2_t5_loop.trips (zfill1b d L k2_t4_loop.trips f1)

/-! ## The scratches as the indexed operations address them -/

omit [FloatOps F] in
theorem tab_pts1 (d : Dev nD) (L : grid2.Coords) (f : Buf (Elt F) (t1sc0.view.loc (V d (cV1 L) (jV1 L)))) :
    (t1sc0.view.loc (V d (cV1 L) (jV1 L)) ↦{fullShare} f : sProp 𝕄) = (tabV1.loc (V d (cV1 L) (jV1 L)) ↦{fullShare} f) := rfl
omit [FloatOps F] in
theorem acc_pts1 (d : Dev nD) (L : grid2.Coords) (f : Buf (Elt F) (t1sc1.view.loc (V d (cV1 L) (jV1 L)))) :
    (t1sc1.view.loc (V d (cV1 L) (jV1 L)) ↦{fullShare} f : sProp 𝕄) = (accV1.loc (V d (cV1 L) (jV1 L)) ↦[accV1.set]{fullShare} f) := by
  rw [show accV1.set = Finset.univ from Memref.set_access_whole cc2_scratch1]

/-! ## Pass a: what its copies land, and its loops' invariants -/

theorem v1land0a (d : Dev nD) (L : grid2.Coords) (ft : Buf (Elt F) ((tabSl1a L).view.loc (V d (cV1 L) (jV1 L)))) (i : Buf (Elt F) (t1sc0.view.loc (V d (cV1 L) (jV1 L))))
    (w : Vec F S40960 .f32) (hw : ∀ y, w y = tabT1a d L ft y) :
    (t1sc0.view.loc (V d (cV1 L) (jV1 L)) ↦{fullShare} View.write (Elt F) (Memref.whole cc2_scratch0).view i w Finset.univ : sProp 𝕄)
      ⊢ t1sc0.view.loc (V d (cV1 L) (jV1 L)) ↦{fullShare} tabT1a d L ft := by
  have e : View.write (Elt F) (Memref.whole cc2_scratch0).view i w Finset.univ = tabT1a d L ft := (View.write_whole_univ _ _ _).trans (funext hw)
  rw [e]
theorem v1land2a (d : Dev nD) (L : grid2.Coords) (fs : Buf (Elt F) (srcW.view.loc (V d (cV1 L) (jV1 L)))) (k : Fin k2_t2_loop.trips) (i : Buf (Elt F) (t1sc2.view.loc (V d (cV1 L) (jV1 L))))
    (w : Vec F S2000 .i32) (hw : ∀ y, w y = chunkOf1a d L fs k y) :
    (t1sc2.view.loc (V d (cV1 L) (jV1 L)) ↦{fullShare} View.write (Elt F) (Memref.whole cc2_scratch2).view i w Finset.univ : sProp 𝕄)
      ⊢ t1sc2.view.loc (V d (cV1 L) (jV1 L)) ↦{fullShare} chunkOf1a d L fs k := by
  have e : View.write (Elt F) (Memref.whole cc2_scratch2).view i w Finset.univ = chunkOf1a d L fs k := (View.write_whole_univ _ _ _).trans (funext hw)
  rw [e]
theorem v1land3a (d : Dev nD) (L : grid2.Coords) (fd : Buf (Elt F) (dstW.view.loc (V d (cV1 L) (jV1 L)))) (k : Fin k2_t2_loop.trips) (i : Buf (Elt F) (t1sc3.view.loc (V d (cV1 L) (jV1 L))))
    (w : Vec F S2000 .i32) (hw : ∀ y, w y = chunkOfD1a d L fd k y) :
    (t1sc3.view.loc (V d (cV1 L) (jV1 L)) ↦{fullShare} View.write (Elt F) (Memref.whole cc2_scratch3).view i w Finset.univ : sProp 𝕄)
      ⊢ t1sc3.view.loc (V d (cV1 L) (jV1 L)) ↦{fullShare} chunkOfD1a d L fd k := by
  have e : View.write (Elt F) (Memref.whole cc2_scratch3).view i w Finset.univ = chunkOfD1a d L fd k := (View.write_whole_univ _ _ _).trans (funext hw)
  rw [e]
theorem v1landOa (d : Dev nD) (L : grid2.Coords) (fo : Buf (Elt F) ((outSl1a L).view.loc (V d (cV1 L) (jV1 L)))) (w A : Vec F S40960 .f32) (hw : ∀ y, w y = A y) :
    ((outSl1a L).view.loc (V d (cV1 L) (jV1 L)) ↦[(outSl1a L).view.set]{fullShare} (outSl1a L).view.writes (Elt F) fo [⟨Rect.whole S40960, w⟩] : sProp 𝕄)
      ⊢ ∃ f, ⌜(outSl1a L).view.read (Elt F) f = A⌝ ∗ (outSl1a L).view.loc (V d (cV1 L) (jV1 L)) ↦[(outSl1a L).view.set]{fullShare} f := by
  iintro H
  iexists ((outSl1a L).view.writes (Elt F) fo [⟨Rect.whole S40960, w⟩]); isplitr
  · ipureintro
    funext y
    have h := View.read_writes_cons_emb (outSl1a L).view fo (Val := Elt F) (Rect.whole S40960) w [] y
    rw [Rect.emb_whole_apply] at h
    exact h.trans (hw y)
  · iexact H

def v1inv1a (d : Dev nD) (L : grid2.Coords) (f1 : Buf (Elt F) (t1sc1.view.loc (V d (cV1 L) (jV1 L)))) (n : Nat) (_ : BitVec 32) : sProp 𝕄 :=
  iprop(t1sc1.view.loc (V d (cV1 L) (jV1 L)) ↦{fullShare} zfill1a d L n f1)

def v1inv3a (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (a₀ : Buf (Elt F) (t1sc1.view.loc (V d (cV1 L) (jV1 L)))) (n : Nat) (_ : BitVec 32) : sProp 𝕄 :=
  iprop((t1sc2.view.loc (V d (cV1 L) (jV1 L)) ↦{fullShare} sC) ∗ (t1sc3.view.loc (V d (cV1 L) (jV1 L)) ↦{fullShare} dC) ∗ (t1sc0.view.loc (V d (cV1 L) (jV1 L)) ↦{fullShare} T)
    ∗ (t1sc1.view.loc (V d (cV1 L) (jV1 L)) ↦{fullShare} accG1a d L T sC dC hs hd n a₀))

def v1inv2a (d : Dev nD) (L : grid2.Coords) (q : PosShare TreeShare) (ft : Buf (Elt F) ((tabSl1a L).view.loc (V d (cV1 L) (jV1 L))))
    (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000)
    (O : CellTallies nD τ sig (HIx 2)) (W : Waits sig (HIx 2)) (a₀ : Buf (Elt F) (t1sc1.view.loc (V d (cV1 L) (jV1 L)))) (n : Nat) (_ : BitVec 32) : sProp 𝕄 :=
  iprop(Transfers.MayWaits (V d (cV1 L) (jV1 L)) (none : HIx 2) O
    ∗ (srcW.view.loc (V d (cV1 L) (jV1 L)) ↦{q} fs) ∗ (dstW.view.loc (V d (cV1 L) (jV1 L)) ↦{q} fd)
    ∗ (t1sc0.view.loc (V d (cV1 L) (jV1 L)) ↦{fullShare} tabT1a d L ft) ∗ (t1sc1.view.loc (V d (cV1 L) (jV1 L)) ↦{fullShare} accK1a d L (tabT1a d L ft) fs fd hs hd n a₀)
    ∗ (∃ f, t1sc2.view.loc (V d (cV1 L) (jV1 L)) ↦{fullShare} f) ∗ (∃ f, t1sc3.view.loc (V d (cV1 L) (jV1 L)) ↦{fullShare} f)
    ∗ semVal (V d (cV1 L) (jV1 L), SemLoc.dma cc2_scoped1.sem) 0 ∗ semVal (V d (cV1 L) (jV1 L), SemLoc.dma cc2_scoped2.sem) 0
    ∗ ∃ W', ⌜∀ p ∈ W', p ∈ W ∨ p.2 = none⌝ ∗ owes (V d (cV1 L) (jV1 L)) O W')

/-! ## Pass b: what its copies land, and its loops' invariants -/

theorem v1land0b (d : Dev nD) (L : grid2.Coords) (ft : Buf (Elt F) ((tabSl1b L).view.loc (V d (cV1 L) (jV1 L)))) (i : Buf (Elt F) (t1sc0.view.loc (V d (cV1 L) (jV1 L))))
    (w : Vec F S40960 .f32) (hw : ∀ y, w y = tabT1b d L ft y) :
    (t1sc0.view.loc (V d (cV1 L) (jV1 L)) ↦{fullShare} View.write (Elt F) (Memref.whole cc2_scratch0).view i w Finset.univ : sProp 𝕄)
      ⊢ t1sc0.view.loc (V d (cV1 L) (jV1 L)) ↦{fullShare} tabT1b d L ft := by
  have e : View.write (Elt F) (Memref.whole cc2_scratch0).view i w Finset.univ = tabT1b d L ft := (View.write_whole_univ _ _ _).trans (funext hw)
  rw [e]
theorem v1land2b (d : Dev nD) (L : grid2.Coords) (fs : Buf (Elt F) (srcW.view.loc (V d (cV1 L) (jV1 L)))) (k : Fin k2_t5_loop.trips) (i : Buf (Elt F) (t1sc2.view.loc (V d (cV1 L) (jV1 L))))
    (w : Vec F S2000 .i32) (hw : ∀ y, w y = chunkOf1b d L fs k y) :
    (t1sc2.view.loc (V d (cV1 L) (jV1 L)) ↦{fullShare} View.write (Elt F) (Memref.whole cc2_scratch2).view i w Finset.univ : sProp 𝕄)
      ⊢ t1sc2.view.loc (V d (cV1 L) (jV1 L)) ↦{fullShare} chunkOf1b d L fs k := by
  have e : View.write (Elt F) (Memref.whole cc2_scratch2).view i w Finset.univ = chunkOf1b d L fs k := (View.write_whole_univ _ _ _).trans (funext hw)
  rw [e]
theorem v1land3b (d : Dev nD) (L : grid2.Coords) (fd : Buf (Elt F) (dstW.view.loc (V d (cV1 L) (jV1 L)))) (k : Fin k2_t5_loop.trips) (i : Buf (Elt F) (t1sc3.view.loc (V d (cV1 L) (jV1 L))))
    (w : Vec F S2000 .i32) (hw : ∀ y, w y = chunkOfD1b d L fd k y) :
    (t1sc3.view.loc (V d (cV1 L) (jV1 L)) ↦{fullShare} View.write (Elt F) (Memref.whole cc2_scratch3).view i w Finset.univ : sProp 𝕄)
      ⊢ t1sc3.view.loc (V d (cV1 L) (jV1 L)) ↦{fullShare} chunkOfD1b d L fd k := by
  have e : View.write (Elt F) (Memref.whole cc2_scratch3).view i w Finset.univ = chunkOfD1b d L fd k := (View.write_whole_univ _ _ _).trans (funext hw)
  rw [e]
theorem v1landOb (d : Dev nD) (L : grid2.Coords) (fo : Buf (Elt F) ((outSl1b L).view.loc (V d (cV1 L) (jV1 L)))) (w A : Vec F S40960 .f32) (hw : ∀ y, w y = A y) :
    ((outSl1b L).view.loc (V d (cV1 L) (jV1 L)) ↦[(outSl1b L).view.set]{fullShare} (outSl1b L).view.writes (Elt F) fo [⟨Rect.whole S40960, w⟩] : sProp 𝕄)
      ⊢ ∃ f, ⌜(outSl1b L).view.read (Elt F) f = A⌝ ∗ (outSl1b L).view.loc (V d (cV1 L) (jV1 L)) ↦[(outSl1b L).view.set]{fullShare} f := by
  iintro H
  iexists ((outSl1b L).view.writes (Elt F) fo [⟨Rect.whole S40960, w⟩]); isplitr
  · ipureintro
    funext y
    have h := View.read_writes_cons_emb (outSl1b L).view fo (Val := Elt F) (Rect.whole S40960) w [] y
    rw [Rect.emb_whole_apply] at h
    exact h.trans (hw y)
  · iexact H

def v1inv1b (d : Dev nD) (L : grid2.Coords) (f1 : Buf (Elt F) (t1sc1.view.loc (V d (cV1 L) (jV1 L)))) (n : Nat) (_ : BitVec 32) : sProp 𝕄 :=
  iprop(t1sc1.view.loc (V d (cV1 L) (jV1 L)) ↦{fullShare} zfill1b d L n f1)

def v1inv3b (d : Dev nD) (L : grid2.Coords) (T : Buf (Elt F) (t1sc0.view.loc (V d (cV1 L) (jV1 L)))) (sC : Buf (Elt F) (t1sc2.view.loc (V d (cV1 L) (jV1 L)))) (dC : Buf (Elt F) (t1sc3.view.loc (V d (cV1 L) (jV1 L))))
    (hs : ∀ j, (sC j).toNat < 10000) (hd : ∀ j, (dC j).toNat < 10000) (a₀ : Buf (Elt F) (t1sc1.view.loc (V d (cV1 L) (jV1 L)))) (n : Nat) (_ : BitVec 32) : sProp 𝕄 :=
  iprop((t1sc2.view.loc (V d (cV1 L) (jV1 L)) ↦{fullShare} sC) ∗ (t1sc3.view.loc (V d (cV1 L) (jV1 L)) ↦{fullShare} dC) ∗ (t1sc0.view.loc (V d (cV1 L) (jV1 L)) ↦{fullShare} T)
    ∗ (t1sc1.view.loc (V d (cV1 L) (jV1 L)) ↦{fullShare} accG1b d L T sC dC hs hd n a₀))

def v1inv2b (d : Dev nD) (L : grid2.Coords) (q : PosShare TreeShare) (ft : Buf (Elt F) ((tabSl1b L).view.loc (V d (cV1 L) (jV1 L))))
    (fs : Buf (Elt F) (srcW.view.loc (V d (cV1 L) (jV1 L)))) (fd : Buf (Elt F) (dstW.view.loc (V d (cV1 L) (jV1 L))))
    (hs : ∀ j, (fs j).toNat < 10000) (hd : ∀ j, (fd j).toNat < 10000)
    (O : CellTallies nD τ sig (HIx 2)) (W : Waits sig (HIx 2)) (a₀ : Buf (Elt F) (t1sc1.view.loc (V d (cV1 L) (jV1 L)))) (n : Nat) (_ : BitVec 32) : sProp 𝕄 :=
  iprop(Transfers.MayWaits (V d (cV1 L) (jV1 L)) (none : HIx 2) O
    ∗ (srcW.view.loc (V d (cV1 L) (jV1 L)) ↦{q} fs) ∗ (dstW.view.loc (V d (cV1 L) (jV1 L)) ↦{q} fd)
    ∗ (t1sc0.view.loc (V d (cV1 L) (jV1 L)) ↦{fullShare} tabT1b d L ft) ∗ (t1sc1.view.loc (V d (cV1 L) (jV1 L)) ↦{fullShare} accK1b d L (tabT1b d L ft) fs fd hs hd n a₀)
    ∗ (∃ f, t1sc2.view.loc (V d (cV1 L) (jV1 L)) ↦{fullShare} f) ∗ (∃ f, t1sc3.view.loc (V d (cV1 L) (jV1 L)) ↦{fullShare} f)
    ∗ semVal (V d (cV1 L) (jV1 L), SemLoc.dma cc2_scoped5.sem) 0 ∗ semVal (V d (cV1 L) (jV1 L), SemLoc.dma cc2_scoped6.sem) 0
    ∗ ∃ W', ⌜∀ p ∈ W', p ∈ W ∨ p.2 = none⌝ ∗ owes (V d (cV1 L) (jV1 L)) O W')

/-! ## The task, with the values of its two results -/

set_option maxHeartbeats 2000000 in
theorem tile_body1V (d : Dev nD) (L : grid2.Coords) (hF : (K (F := F)).Facts) (q : PosShare TreeShare)
    (fta : Buf (Elt F) ((tabSl1a L).view.loc (V d (cV1 L) (jV1 L)))) (ftb : Buf (Elt F) ((tabSl1b L).view.loc (V d (cV1 L) (jV1 L))))
    (fs : Buf (Elt F) (srcW.view.loc (V d (cV1 L) (jV1 L)))) (fd : Buf (Elt F) (dstW.view.loc (V d (cV1 L) (jV1 L))))
    (foa : Buf (Elt F) ((outSl1a L).view.loc (V d (cV1 L) (jV1 L)))) (fob : Buf (Elt F) ((outSl1b L).view.loc (V d (cV1 L) (jV1 L))))
    (hs : ∀ j, (fs j).toNat < 10000) (hd : ∀ j, (fd j).toNat < 10000)
    (O : CellTallies nD τ sig (HIx 2)) (W : Waits sig (HIx 2)) (hO : ∀ g, O g none = 0) :
    (iprop(levAts (K (F := F)).L (K (F := F)).lev ∗ emp
        ∗ (((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
            ∗ ((outSl1a L).view.loc (V d (cV1 L) (jV1 L)) ↦[(outSl1a L).view.set]{fullShare} foa) ∗ ((outSl1b L).view.loc (V d (cV1 L) (jV1 L)) ↦[(outSl1b L).view.set]{fullShare} fob))
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop((((tabSl1a L).view.loc (V d (cV1 L) (jV1 L)) ↦[(tabSl1a L).view.set]{fullShare} fta) ∗ ((tabSl1b L).view.loc (V d (cV1 L) (jV1 L)) ↦[(tabSl1b L).view.set]{fullShare} ftb) ∗ (srcW.view.loc (V d (cV1 L) (jV1 L)) ↦{q} fs) ∗ (dstW.view.loc (V d (cV1 L) (jV1 L)) ↦{q} fd)
              ∗ ∃ f1 fa fb, ⌜(outSl1a L).view.read (Elt F) fa = agg1a d L fta fs fd hs hd f1⌝
                  ∗ ⌜(outSl1b L).view.read (Elt F) fb = agg1b d L ftb fs fd hs hd (agg1a d L fta fs fd hs hd f1)⌝
                  ∗ ((outSl1a L).view.loc (V d (cV1 L) (jV1 L)) ↦[(outSl1a L).view.set]{fullShare} fa) ∗ ((outSl1b L).view.loc (V d (cV1 L) (jV1 L)) ↦[(outSl1b L).view.set]{fullShare} fb))
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc2_body_eq_skeleton]; unfold cc2_body_skel
  rw [(K (F := F)).scopedBufs_V hF d (cV1 L) (jV1 L), SparseCore.Cfg.scopedSems0_V (Val := Elt F) d (cV1 L) (jV1 L), ownSems0_T1, ownBufs_T1]
  iintro ⟨#Hlv, -, ⟨Hta, Htb, Hs, Hd, Hoa, Hob⟩, ⟨⟨%f0, H0⟩, ⟨%f1, H1⟩, ⟨%f2, H2⟩, ⟨%f3, H3⟩, Hbufs⟩, ⟨Hsem0, Hsem1, Hsem2, Hsem3, Hsem4, Hsem5, Hsem6, Hsem7, Hsems⟩, HO⟩
  ihave Hmw := ((K (F := F)).mayWaits_none (thr := V d (cV1 L) (jV1 L)) hO) $$ Hlv
  ihave H0 := (Entails.of_eq (pts_t1sc0 (F := F) d L _).symm) $$ H0
  ihave H1 := (Entails.of_eq (pts_t1sc1 (F := F) d L _).symm) $$ H1
  ihave H2 := (Entails.of_eq (pts_t1sc2 (F := F) d L _).symm) $$ H2
  ihave H3 := (Entails.of_eq (pts_t1sc3 (F := F) d L _).symm) $$ H3
  -- the first pass: the first stretch's four rows into the table scratch
  sl_exec
  ihave H0 := (v1land0a (F := F) d L fta _ _ ?hw0a) $$ H0
  case hw0a => exact fun _ => rfl
  -- its zero-fill
  sl_for (v1inv1a (F := F) d L f1) $$ [H1]
  case region =>
    intro k _
    unfold v1inv1a
    iintro H
    sl_exec
    sl_step
    rw [zfill1a_succ]
    iexact H
  · unfold v1inv1a; rw [zfill1a_zero]; iexact H1
  iintro %_ HI
  unfold v1inv1a
  -- its chunks
  sl_for (v1inv2a (F := F) d L q fta fs fd hs hd O W (zfill1a d L k2_t1_loop.trips f1)) $$ [Hmw Hs Hd H0 HI H2 H3 Hsem1 Hsem2 HO]
  case region =>
    intro k _
    unfold v1inv2a
    iintro ⟨#Hmw, Hs, Hd, H0, H1, ⟨%i2, H2⟩, ⟨%i3, H3⟩, Hsa, Hsb, %W', %hW', HO⟩
    sl_exec
    ihave H2 := (v1land2a (F := F) d L fs k _ _ ?hw2) $$ H2
    case hw2 => exact fun _ => rfl
    ihave H3 := (v1land3a (F := F) d L fd k _ _ ?hw3) $$ H3
    case hw3 => exact fun _ => rfl
    sl_for (v1inv3a (F := F) d L (tabT1a d L fta) (chunkOf1a d L fs k) (chunkOfD1a d L fd k) (chunkOf1a_lt d L fs hs k) (chunkOfD1a_lt d L fd hd k) (accK1a d L (tabT1a d L fta) fs fd hs hd k.val (zfill1a d L k2_t1_loop.trips f1))) $$ [H2 H3 H0 H1]
    case region =>
      intro kk _
      unfold v1inv3a
      iintro ⟨H2, H3, H0, H1⟩
      sl_exec (disch := sl_exact (t1chk1_of _ (t1rd2a_lt d L (chunkOf1a d L fs k) (chunkOf1a_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk2_of _ (t1rd3a_lt d L (chunkOfD1a d L fd k) (chunkOfD1a_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk3_of _ (t1rd2a_lt d L (chunkOf1a d L fs k) (chunkOf1a_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk4_of _ (t1rd3a_lt d L (chunkOfD1a d L fd k) (chunkOfD1a_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk5_of _ (t1rd2a_lt d L (chunkOf1a d L fs k) (chunkOf1a_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk6_of _ (t1rd3a_lt d L (chunkOfD1a d L fd k) (chunkOfD1a_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk7_of _ (t1rd2a_lt d L (chunkOf1a d L fs k) (chunkOf1a_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk8_of _ (t1rd3a_lt d L (chunkOfD1a d L fd k) (chunkOfD1a_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec
      sl_step
      isplitl [H2]; · iexact H2
      isplitl [H3]; · iexact H3
      isplitl [H0]; · iexact H0
      rw [accG1a_succ]
      iexact H1
    · unfold v1inv3a
      isplitl [H2]; · iexact H2
      isplitl [H3]; · iexact H3
      isplitl [H0]; · iexact H0
      rw [accG1a_zero]; iexact H1
    iintro %_ HI
    unfold v1inv3a
    icases HI with ⟨H2, H3, H0, H1⟩
    sl_step
    isplitr; · iexact Hmw
    isplitl [Hs]; · iexact Hs
    isplitl [Hd]; · iexact Hd
    isplitl [H0]; · iexact H0
    isplitl [H1]; · rw [accK1a_succ]; iexact H1
    isplitl [H2]; · iexists _; iexact H2
    isplitl [H3]; · iexists _; iexact H3
    isplitl [Hsa]; · iexact Hsa
    isplitl [Hsb]; · iexact Hsb
    iexists (insert (SemLoc.dma cc2_scoped2.sem, (default : HIx 2)) (insert (SemLoc.dma cc2_scoped1.sem, (default : HIx 2)) W')); isplitr
    · ipureintro; exact waits_step (waits_step hW' _) _
    · iexact HO
  · unfold v1inv2a
    isplitr; · iexact Hmw
    isplitl [Hs]; · iexact Hs
    isplitl [Hd]; · iexact Hd
    isplitl [H0]; · iexact H0
    isplitl [HI]; · rw [accK1a_zero]; iexact HI
    isplitl [H2]; · iexists _; iexact H2
    isplitl [H3]; · iexists _; iexact H3
    isplitl [Hsem1]; · iexact Hsem1
    isplitl [Hsem2]; · iexact Hsem2
    iexists (insert (SemLoc.dma cc2_scoped0.sem, (default : HIx 2)) W); isplitr
    · ipureintro; exact waits_step (fun p hp => .inl hp) _
    · iexact HO
  iintro %_ HI
  unfold v1inv2a
  icases HI with ⟨-, Hs, Hd, H0, H1, ⟨%i2, H2⟩, ⟨%i3, H3⟩, Hsem1, Hsem2, %W', %hW', HO⟩
  -- the accumulator out to the first stretch of the result; the second stretch's four rows into the table scratch
  sl_exec
  ihave Hoa := (v1landOa (F := F) d L _ _ (agg1a d L fta fs fd hs hd f1) ?hwoa) $$ Hoa
  case hwoa => exact fun _ => rfl
  icases Hoa with ⟨%foa', %hfoa', Hoa⟩
  ihave H0 := (v1land0b (F := F) d L ftb _ _ ?hw0b) $$ H0
  case hw0b => exact fun _ => rfl
  -- the second pass's zero-fill, from what the first pass left in the accumulator
  sl_for (v1inv1b (F := F) d L (agg1a d L fta fs fd hs hd f1)) $$ [H1]
  case region =>
    intro k _
    unfold v1inv1b
    iintro H
    sl_exec
    sl_step
    rw [zfill1b_succ]
    iexact H
  · unfold v1inv1b; rw [zfill1b_zero]; iexact H1
  iintro %_ HI
  unfold v1inv1b
  -- the part's return
  sl_exec
  -- the second pass's chunks
  sl_for (v1inv2b (F := F) d L q ftb fs fd hs hd O W (zfill1b d L k2_t4_loop.trips (agg1a d L fta fs fd hs hd f1))) $$ [Hmw Hs Hd H0 HI H2 H3 Hsem5 Hsem6 HO]
  case region =>
    intro k _
    unfold v1inv2b
    iintro ⟨#Hmw, Hs, Hd, H0, H1, ⟨%i2, H2⟩, ⟨%i3, H3⟩, Hsa, Hsb, %W', %hW', HO⟩
    sl_exec
    ihave H2 := (v1land2b (F := F) d L fs k _ _ ?hw2) $$ H2
    case hw2 => exact fun _ => rfl
    ihave H3 := (v1land3b (F := F) d L fd k _ _ ?hw3) $$ H3
    case hw3 => exact fun _ => rfl
    sl_for (v1inv3b (F := F) d L (tabT1b d L ftb) (chunkOf1b d L fs k) (chunkOfD1b d L fd k) (chunkOf1b_lt d L fs hs k) (chunkOfD1b_lt d L fd hd k) (accK1b d L (tabT1b d L ftb) fs fd hs hd k.val (zfill1b d L k2_t4_loop.trips (agg1a d L fta fs fd hs hd f1)))) $$ [H2 H3 H0 H1]
    case region =>
      intro kk _
      unfold v1inv3b
      iintro ⟨H2, H3, H0, H1⟩
      sl_exec (disch := sl_exact (t1chk9_of _ (t1rd2b_lt d L (chunkOf1b d L fs k) (chunkOf1b_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk10_of _ (t1rd3b_lt d L (chunkOfD1b d L fd k) (chunkOfD1b_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk11_of _ (t1rd2b_lt d L (chunkOf1b d L fs k) (chunkOf1b_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk12_of _ (t1rd3b_lt d L (chunkOfD1b d L fd k) (chunkOfD1b_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk13_of _ (t1rd2b_lt d L (chunkOf1b d L fs k) (chunkOf1b_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk14_of _ (t1rd3b_lt d L (chunkOfD1b d L fd k) (chunkOfD1b_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec (disch := sl_exact (t1chk15_of _ (t1rd2b_lt d L (chunkOf1b d L fs k) (chunkOf1b_lt d L fs hs k) kk)))
      ihave H0a := (Entails.of_eq (tab_pts1 (F := F) d L _)) $$ H0
      iapply (SparseCore.wp_vectorLoadIdx 𝒱₀ (V d (cV1 L) (jV1 L)) none Set.univ (base := t1sc0) (S := Finset.univ) (q := fullShare) (Finset.subset_univ _)) $$ H0a; iintro H0a
      ihave H0 := (Entails.of_eq (tab_pts1 (F := F) d L _).symm) $$ H0a
      sl_exec (disch := sl_exact (t1chk16_of _ (t1rd3b_lt d L (chunkOfD1b d L fd k) (chunkOfD1b_lt d L fd hd k) kk)))
      ihave H1a := (Entails.of_eq (acc_pts1 (F := F) d L _)) $$ H1
      iapply (SparseCore.wp_vectorStoreIdx 𝒱₀ (V d (cV1 L) (jV1 L)) none Set.univ (base := t1sc1)) $$ H1a; iintro H1a
      ihave H1 := (Entails.of_eq (acc_pts1 (F := F) d L _).symm) $$ H1a
      sl_exec
      sl_step
      isplitl [H2]; · iexact H2
      isplitl [H3]; · iexact H3
      isplitl [H0]; · iexact H0
      rw [accG1b_succ]
      iexact H1
    · unfold v1inv3b
      isplitl [H2]; · iexact H2
      isplitl [H3]; · iexact H3
      isplitl [H0]; · iexact H0
      rw [accG1b_zero]; iexact H1
    iintro %_ HI
    unfold v1inv3b
    icases HI with ⟨H2, H3, H0, H1⟩
    sl_step
    isplitr; · iexact Hmw
    isplitl [Hs]; · iexact Hs
    isplitl [Hd]; · iexact Hd
    isplitl [H0]; · iexact H0
    isplitl [H1]; · rw [accK1b_succ]; iexact H1
    isplitl [H2]; · iexists _; iexact H2
    isplitl [H3]; · iexists _; iexact H3
    isplitl [Hsa]; · iexact Hsa
    isplitl [Hsb]; · iexact Hsb
    iexists (insert (SemLoc.dma cc2_scoped6.sem, (default : HIx 2)) (insert (SemLoc.dma cc2_scoped5.sem, (default : HIx 2)) W')); isplitr
    · ipureintro; exact waits_step (waits_step hW' _) _
    · iexact HO
  · unfold v1inv2b
    isplitr; · iexact Hmw
    isplitl [Hs]; · iexact Hs
    isplitl [Hd]; · iexact Hd
    isplitl [H0]; · iexact H0
    isplitl [HI]; · rw [accK1b_zero]; iexact HI
    isplitl [H2]; · iexists _; iexact H2
    isplitl [H3]; · iexists _; iexact H3
    isplitl [Hsem5]; · iexact Hsem5
    isplitl [Hsem6]; · iexact Hsem6
    iexists (insert (SemLoc.dma cc2_scoped4.sem, (default : HIx 2)) (insert (SemLoc.dma cc2_scoped3.sem, (default : HIx 2)) W')); isplitr
    · ipureintro; exact waits_step (waits_step hW' _) _
    · iexact HO
  iintro %_ HI
  unfold v1inv2b
  icases HI with ⟨-, Hs, Hd, H0, H1, ⟨%i2, H2⟩, ⟨%i3, H3⟩, Hsem5, Hsem6, %W', %hW', HO⟩
  -- the accumulator out to the second stretch of the result
  sl_exec
  ihave Hob := (v1landOb (F := F) d L _ _ (agg1b d L ftb fs fd hs hd (agg1a d L fta fs fd hs hd f1)) ?hwob) $$ Hob
  case hwob => exact fun _ => rfl
  icases Hob with ⟨%fob', %hfob', Hob⟩
  sl_step
  isplitl [Hta Htb Hs Hd Hoa Hob]
  · isplitl [Hta]; · iexact Hta
    isplitl [Htb]; · iexact Htb
    isplitl [Hs]; · iexact Hs
    isplitl [Hd]; · iexact Hd
    iexists f1; iexists foa'; iexists fob'
    isplitr; · ipureintro; exact hfoa'
    isplitr; · ipureintro; exact hfob'
    isplitl [Hoa]; · iexact Hoa
    iexact Hob
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsem0 Hsem1 Hsem2 Hsem3 Hsem4 Hsem5 Hsem6 Hsem7 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    iexact Hsems
  iexists (insert (SemLoc.dma cc2_scoped7.sem, (default : HIx 2)) W'); isplitr
  · ipureintro; exact waits_step hW' _
  · iexact HO

end Cert.Proof.KernelIdealL

end
-- ==== Proof.KIAgg1.lean ====
/-
  The second aggregation's two passes at the ideal instance: the ordered folds of a pass's stores are sums. A row of a group
  adds, at each place, the table scratch's words of the lanes whose destination index is the place; a group is its four rows,
  a chunk its groups, a pass its chunks, from the zeros the zero-fill leaves; so a pass's accumulator ends, at row c and node
  n of the tile's stretch, at the sum over the edges whose destination is n of the table's word at row c and the edge's
  source — and the pass's result stretch holds that, place by place. The same statement for each of the two passes.
-/
import proofs.«211848_g47218870452992_cont_8to1c4_747_2_alg».proof.Proof.KIAggEdges
import proofs.«211848_g47218870452992_cont_8to1c4_747_2_alg».proof.Proof.KITile1V
import Mathlib.Tactic.IntervalCases

noncomputable section

open scoped BigOperators

namespace Cert.Proof.AggIdeal

open Idealize.ShloMosaic Cert.KernelIdeal Cert.KernelIdeal.Gen Cert.Proof.KernelIdealL Idealize.ShloMosaic.SparseCore

theorem rowStep1_eq (d : Dev nD) (L : grid2.Coords) (T : S40960.Idx → EReal) (a : S40960.Idx → EReal) (sI dI : IVec S16 32)
    (h1 : ∀ a x, ((![sI] : Fin 1 → IVec S16 32) a x).toNat < S40960.size a) (h2 : ∀ a x, ((![dI] : Fin 1 → IVec S16 32) a x).toNat < S40960.size a) :
    rowStep1 (F := Ideal) d L T a sI dI h1 h2 = storeIdx (F := Ideal) (e := .f32) (s := S40960) a ![dI] (loadIdx (F := Ideal) (e := .f32) (s := S40960) T ![sI] h1) (fun _ => 1#1) true h2 := by
  unfold rowStep1
  erw [Memref.write_access_whole_univ, Memref.read_access_whole, Memref.read_access_whole]

theorem rowStep1_apply (d : Dev nD) (L : grid2.Coords) (T : S40960.Idx → EReal) (a : S40960.Idx → EReal) (sw dw : S16.Idx → BitVec 32) (c : BitVec 32)
    (hc : c.toNat ≤ 30720) (hs : ∀ x, (sw x).toNat < 10000) (hd : ∀ x, (dw x).toNat < 10000)
    (h1 : ∀ a x, ((![addi sw (broadcast S16 c)] : Fin 1 → IVec S16 32) a x).toNat < S40960.size a)
    (h2 : ∀ a x, ((![addi dw (broadcast S16 c)] : Fin 1 → IVec S16 32) a x).toNat < S40960.size a) (j : S40960.Idx) :
    rowStep1 (F := Ideal) d L T a (addi sw (broadcast S16 c)) (addi dw (broadcast S16 c)) h1 h2 j = a j + rowC T sw dw c.toNat j := by
  rw [rowStep1_eq, storeIdx_add_apply]
  congr 1
  unfold rowC
  refine Finset.sum_congr rfl fun k _ => ?_
  unfold laneTerm
  refine if_congr ((idxAt_eq_iff _ h2 _ j).trans (by rw [pay_toNat dw c hc _ (hd _)])) ?_ rfl
  show T (idxAt (s := S40960) ![addi sw (broadcast S16 c)] h1 (Shape.ofLane k)) = _
  rw [T_idxAt T _ h1, pay_toNat sw c hc _ (hs _)]
/-- The accumulator after a group's first one, two and three rows. -/
def grpA1_1a (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T a (k2_pay10 (F := Ideal) s16) (k2_pay11 (F := Ideal) d16) (t1chk1_of (F := Ideal) s16 hs) (t1chk2_of (F := Ideal) d16 hd)
def grpA2_1a (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T (grpA1_1a d L T s16 d16 hs hd a) (k2_pay12 (F := Ideal) s16) (k2_pay13 (F := Ideal) d16) (t1chk3_of (F := Ideal) s16 hs) (t1chk4_of (F := Ideal) d16 hd)
def grpA3_1a (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T (grpA2_1a d L T s16 d16 hs hd a) (k2_pay14 (F := Ideal) s16) (k2_pay15 (F := Ideal) d16) (t1chk5_of (F := Ideal) s16 hs) (t1chk6_of (F := Ideal) d16 hd)

theorem grpStep1a_apply (d : Dev nD) (L : grid2.Coords) (T : S40960.Idx → EReal) (s16 d16 : S16.Idx → BitVec 32)
    (hs : ∀ x, (s16 x).toNat < 10000) (hd : ∀ x, (d16 x).toNat < 10000) (a : S40960.Idx → EReal) (j : S40960.Idx) :
    grpStep1a (F := Ideal) d L T s16 d16 hs hd a j = a j + grpC T s16 d16 j := by
  have e1 : grpA1_1a d L T s16 d16 hs hd a j = a j + rowC T s16 d16 0 j :=
    rowStep1_apply d L T a s16 d16 0#32 (by decide) hs hd (t1chk1_of (F := Ideal) s16 hs) (t1chk2_of (F := Ideal) d16 hd) j
  have e2 : grpA2_1a d L T s16 d16 hs hd a j = grpA1_1a d L T s16 d16 hs hd a j + rowC T s16 d16 10240 j :=
    rowStep1_apply d L T (grpA1_1a d L T s16 d16 hs hd a) s16 d16 10240#32 (by decide) hs hd (t1chk3_of (F := Ideal) s16 hs) (t1chk4_of (F := Ideal) d16 hd) j
  have e3 : grpA3_1a d L T s16 d16 hs hd a j = grpA2_1a d L T s16 d16 hs hd a j + rowC T s16 d16 20480 j :=
    rowStep1_apply d L T (grpA2_1a d L T s16 d16 hs hd a) s16 d16 20480#32 (by decide) hs hd (t1chk5_of (F := Ideal) s16 hs) (t1chk6_of (F := Ideal) d16 hd) j
  have e4 : grpStep1a (F := Ideal) d L T s16 d16 hs hd a j = grpA3_1a d L T s16 d16 hs hd a j + rowC T s16 d16 30720 j :=
    rowStep1_apply d L T (grpA3_1a d L T s16 d16 hs hd a) s16 d16 30720#32 (by decide) hs hd (t1chk7_of (F := Ideal) s16 hs) (t1chk8_of (F := Ideal) d16 hd) j
  rw [e4, e3, e2, e1]
  unfold grpC
  simp only [add_assoc]

/-- Group `g` of a chunk, at index `j`. -/
def chunkG_1a (d : Dev nD) (L : grid2.Coords) (T : S40960.Idx → EReal) (sC dC : S2000.Idx → BitVec 32) (g : Fin k2_t3_loop.trips) (j : S40960.Idx) : EReal :=
  grpC T (grpOf1a (F := Ideal) d L sC g) (grpOfD1a (F := Ideal) d L dC g) j

theorem accG1a_apply (d : Dev nD) (L : grid2.Coords) (T : S40960.Idx → EReal) (sC dC : S2000.Idx → BitVec 32)
    (hs : ∀ j, (sC j).toNat < 10000) (hd : ∀ j, (dC j).toNat < 10000) (a : S40960.Idx → EReal) (j : S40960.Idx) :
    ∀ n, n ≤ k2_t3_loop.trips →
      accG1a (F := Ideal) d L T sC dC hs hd n a j = a j + ∑ g : Fin k2_t3_loop.trips, if g.val < n then chunkG_1a d L T sC dC g j else 0
  | 0, _ => by rw [accG1a_zero]; simp
  | n + 1, hn => by
    have h : n < k2_t3_loop.trips := hn
    refine (congrFun (accG1a_succ (F := Ideal) d L T sC dC hs hd ⟨n, h⟩ a) j).trans ?_
    refine (grpStep1a_apply d L T _ _ _ _ _ j).trans ?_
    rw [accG1a_apply d L T sC dC hs hd a j n (le_of_lt h), sum_lt_succ _ n h, add_assoc]
    rfl

/-- Chunk `k`, at index `j`: its groups'. -/
def chunkK_1a (d : Dev nD) (L : grid2.Coords) (T : S40960.Idx → EReal) (fs fd : S320000.Idx → BitVec 32) (k : Fin k2_t2_loop.trips) (j : S40960.Idx) : EReal :=
  ∑ g : Fin k2_t3_loop.trips, chunkG_1a d L T (chunkOf1a (F := Ideal) d L fs k) (chunkOfD1a (F := Ideal) d L fd k) g j

theorem accK1a_apply (d : Dev nD) (L : grid2.Coords) (T : S40960.Idx → EReal) (fs fd : S320000.Idx → BitVec 32)
    (hs : ∀ j, (fs j).toNat < 10000) (hd : ∀ j, (fd j).toNat < 10000) (a : S40960.Idx → EReal) (j : S40960.Idx) :
    ∀ n, n ≤ k2_t2_loop.trips →
      accK1a (F := Ideal) d L T fs fd hs hd n a j = a j + ∑ k : Fin k2_t2_loop.trips, if k.val < n then chunkK_1a d L T fs fd k j else 0
  | 0, _ => by rw [accK1a_zero]; simp
  | n + 1, hn => by
    have h : n < k2_t2_loop.trips := hn
    refine (congrFun (accK1a_succ (F := Ideal) d L T fs fd hs hd ⟨n, h⟩ a) j).trans ?_
    refine (accG1a_apply d L T _ _ _ _ _ j k2_t3_loop.trips le_rfl).trans ?_
    have e : (∑ g : Fin k2_t3_loop.trips, if g.val < k2_t3_loop.trips then
          chunkG_1a d L T (chunkOf1a (F := Ideal) d L fs ⟨n, h⟩) (chunkOfD1a (F := Ideal) d L fd ⟨n, h⟩) g j else 0) = chunkK_1a d L T fs fd ⟨n, h⟩ j :=
      Finset.sum_congr rfl fun g _ => if_pos g.isLt
    rw [e, accK1a_apply d L T fs fd hs hd a j n (le_of_lt h), sum_lt_succ _ n h, add_assoc]

/-! ## The zero-fill leaves zeros -/

theorem pay1_zero_1a (x : S16.Idx) : k2_pay9 (F := Ideal) x = (0 : EReal) :=
  show (Ideal.ofBits .f32 0x00000000#32 : EReal) = 0 from Idealize.ShloMosaic.Ideal.ofBits_zero_f32

theorem zfill1a_lt (d : Dev nD) (L : grid2.Coords) (f : S40960.Idx → EReal) :
    ∀ n, n ≤ k2_t1_loop.trips → ∀ j : S40960.Idx, (j 0).val < 16 * n → zfill1a (F := Ideal) d L n f j = (0 : EReal)
  | 0, _, j, hj => absurd hj (by omega)
  | n + 1, hn, j, hj => by
    have h : n < k2_t1_loop.trips := hn
    refine (congrFun (zfill1a_succ (F := Ideal) d L ⟨n, h⟩ f) j).trans ?_
    rw [View.writes_cons, View.writes_nil]
    have hoff : (k2_off2 ⟨n, h⟩) 0 = 16 * n := congrFun (k2_off2_eq ⟨n, h⟩) 0
    by_cases hlo : (j 0).val < 16 * n
    · rw [View.write_of_not_mem]
      · exact zfill1a_lt d L f n (le_of_lt h) j hlo
      · intro hm
        obtain ⟨x, -, hx⟩ := Finset.mem_map.mp hm
        have e := congrArg (fun i : S40960.Idx => (i 0).val) hx
        have e' : (k2_off2 ⟨n, h⟩) 0 + 1 * (x 0).val = (j 0).val := e
        omega
    · have hx0 : (j 0).val - 16 * n < 16 := by omega
      have hjx : (t1sc1.view.slice (Rect.unit (s := S40960) (k2_off2 ⟨n, h⟩) S16.size (k2_off2_inb ⟨n, h⟩))).emb (ValueIdx.ix1 ⟨(j 0).val - 16 * n, hx0⟩) = j := by
        funext a
        match a with
        | ⟨0, _⟩ =>
          apply Fin.ext
          show (k2_off2 ⟨n, h⟩) 0 + 1 * ((j 0).val - 16 * n) = (j 0).val
          omega
      have hw := View.write_emb_of_mem (v := t1sc1.view.slice (Rect.unit (s := S40960) (k2_off2 ⟨n, h⟩) S16.size (k2_off2_inb ⟨n, h⟩))) (Val := Elt Ideal)
        (zfill1a (F := Ideal) d L n f) (k2_pay9 (F := Ideal)) (Finset.mem_univ (ValueIdx.ix1 ⟨(j 0).val - 16 * n, hx0⟩))
      rw [hjx, cast_eq] at hw
      exact hw.trans (pay1_zero_1a _)

theorem zfill1a_all (d : Dev nD) (L : grid2.Coords) (f : S40960.Idx → EReal) (j : S40960.Idx) :
    zfill1a (F := Ideal) d L k2_t1_loop.trips f j = (0 : EReal) :=
  zfill1a_lt d L f k2_t1_loop.trips le_rfl j (by
    have h1 : (j 0).val < 40960 := (j 0).isLt
    have e : k2_t1_loop.trips = 2560 := by decide
    rw [e]; exact h1)

/-! ## The task's result at an index: the sum over chunks, groups, rows and lanes -/

/-- The pass's accumulator at the end, at its literal type. -/
def out1a (d : Dev nD) (L : grid2.Coords) (ft : Buf (Elt Ideal) ((tabSl1a L).view.loc (V d (cV1 L) (jV1 L)))) (fs fd : S320000.Idx → BitVec 32)
    (hs : ∀ j, (fs j).toNat < 10000) (hd : ∀ j, (fd j).toNat < 10000) (f1 : S40960.Idx → EReal) : Vec Ideal S40960 .f32 :=
  agg1a (F := Ideal) d L ft fs fd hs hd f1

theorem agg1a_apply (d : Dev nD) (L : grid2.Coords) (ft : Buf (Elt Ideal) ((tabSl1a L).view.loc (V d (cV1 L) (jV1 L)))) (fs fd : S320000.Idx → BitVec 32)
    (hs : ∀ j, (fs j).toNat < 10000) (hd : ∀ j, (fd j).toNat < 10000) (f1 : S40960.Idx → EReal) (j : S40960.Idx) :
    out1a d L ft fs fd hs hd f1 j = ∑ k : Fin k2_t2_loop.trips, chunkK_1a d L (tabT1a (F := Ideal) d L ft) fs fd k j := by
  unfold out1a agg1a
  rw [accK1a_apply d L _ fs fd hs hd _ j k2_t2_loop.trips le_rfl, zfill1a_all, zero_add]
  exact Finset.sum_congr rfl fun k _ => if_pos k.isLt
theorem trips2_1a : k2_t2_loop.trips = 160 := by decide
theorem trips3_1a : k2_t3_loop.trips = 125 := by decide

theorem edge_lt_1a (k : Fin k2_t2_loop.trips) (g : Fin k2_t3_loop.trips) (x : Fin ((![16] : Fin 1 → ℕ) 0)) :
    2000 * k.val + 16 * g.val + x.val < 320000 := by
  have hk : k.val < 160 := lt_of_lt_of_eq k.isLt trips2_1a
  have hg : g.val < 125 := lt_of_lt_of_eq g.isLt trips3_1a
  have hx : x.val < 16 := x.isLt
  omega

theorem grp_word_1a (d : Dev nD) (L : grid2.Coords) (fe : S320000.Idx → BitVec 32) (k : Fin k2_t2_loop.trips) (g : Fin k2_t3_loop.trips)
    (x : Fin ((![16] : Fin 1 → ℕ) 0)) :
    (grpOf1a (F := Ideal) d L (chunkOf1a (F := Ideal) d L fe k) g (Shape.ofLane x)).toNat = fN fe (2000 * k.val + 16 * g.val + x.val) := by
  have h3 : (k2_off3 k) 0 = 2000 * k.val := congrFun (k2_off3_eq k) 0
  have h4 : (k2_off4 g) 0 = 16 * g.val := congrFun (k2_off4_eq g) 0
  unfold fN
  rw [dif_pos (edge_lt_1a k g x)]
  unfold grpOf1a chunkOf1a
  simp only [View.readAt_apply, View.read_apply, cast_eq]
  congr 2
  funext a
  match a with
  | ⟨0, _⟩ =>
    apply Fin.ext
    show (k2_off3 k) 0 + 1 * ((k2_off4 g) 0 + 1 * x.val) = 2000 * k.val + 16 * g.val + x.val
    rw [h3, h4]; omega

theorem grp_wordD_1a (d : Dev nD) (L : grid2.Coords) (fe : S320000.Idx → BitVec 32) (k : Fin k2_t2_loop.trips) (g : Fin k2_t3_loop.trips)
    (x : Fin ((![16] : Fin 1 → ℕ) 0)) :
    (grpOfD1a (F := Ideal) d L (chunkOfD1a (F := Ideal) d L fe k) g (Shape.ofLane x)).toNat = fN fe (2000 * k.val + 16 * g.val + x.val) := by
  have h3 : (k2_off3 k) 0 = 2000 * k.val := congrFun (k2_off3_eq k) 0
  have h4 : (k2_off4 g) 0 = 16 * g.val := congrFun (k2_off4_eq g) 0
  unfold fN
  rw [dif_pos (edge_lt_1a k g x)]
  unfold grpOfD1a chunkOfD1a
  simp only [View.readAt_apply, View.read_apply, cast_eq]
  congr 2
  funext a
  match a with
  | ⟨0, _⟩ =>
    apply Fin.ext
    show (k2_off3 k) 0 + 1 * ((k2_off4 g) 0 + 1 * x.val) = 2000 * k.val + 16 * g.val + x.val
    rw [h3, h4]; omega

theorem chunkG_eq_1a (d : Dev nD) (L : grid2.Coords) (T : S40960.Idx → EReal) (fs fd : S320000.Idx → BitVec 32) (hd : ∀ j, (fd j).toNat < 10000)
    (k : Fin k2_t2_loop.trips) (g : Fin k2_t3_loop.trips) (j : S40960.Idx) :
    chunkG_1a d L T (chunkOf1a (F := Ideal) d L fs k) (chunkOfD1a (F := Ideal) d L fd k) g j
      = ∑ x ∈ Finset.range 16, edgeT T fs fd j (2000 * k.val + (16 * g.val + x)) := by
  unfold chunkG_1a
  rw [grpC_pick T (grpOf1a (F := Ideal) d L (chunkOf1a (F := Ideal) d L fs k) g) (grpOfD1a (F := Ideal) d L (chunkOfD1a (F := Ideal) d L fd k) g) (fun _ => hd _) j]
  rw [← Fin.sum_univ_eq_sum_range (fun x => edgeT T fs fd j (2000 * k.val + (16 * g.val + x))) 16]
  refine Finset.sum_congr rfl fun x _ => ?_
  unfold edgeT
  rw [grp_word_1a, grp_wordD_1a, Nat.add_assoc]

theorem agg1a_edges (d : Dev nD) (L : grid2.Coords) (ft : Buf (Elt Ideal) ((tabSl1a L).view.loc (V d (cV1 L) (jV1 L)))) (fs fd : S320000.Idx → BitVec 32)
    (hs : ∀ j, (fs j).toNat < 10000) (hd : ∀ j, (fd j).toNat < 10000) (f1 : S40960.Idx → EReal) (j : S40960.Idx) :
    out1a d L ft fs fd hs hd f1 j = ∑ e : Fin 320000, edgeT (tabT1a (F := Ideal) d L ft) fs fd j e.val := by
  rw [agg1a_apply, Fin.sum_univ_eq_sum_range (fun e => edgeT (tabT1a (F := Ideal) d L ft) fs fd j e) 320000]
  unfold chunkK_1a
  have e1 : ∀ k : Fin k2_t2_loop.trips, (∑ g : Fin k2_t3_loop.trips, chunkG_1a d L (tabT1a (F := Ideal) d L ft) (chunkOf1a (F := Ideal) d L fs k) (chunkOfD1a (F := Ideal) d L fd k) g j)
      = ∑ e ∈ Finset.range 2000, edgeT (tabT1a (F := Ideal) d L ft) fs fd j (2000 * k.val + e) := by
    intro k
    rw [Finset.sum_congr rfl fun g _ => chunkG_eq_1a d L _ fs fd hd k g j,
      Fin.sum_univ_eq_sum_range (fun g => ∑ x ∈ Finset.range 16, edgeT (tabT1a (F := Ideal) d L ft) fs fd j (2000 * k.val + (16 * g + x))) k2_t3_loop.trips,
      trips3_1a, sum_range_2 125 16 (fun i => edgeT (tabT1a (F := Ideal) d L ft) fs fd j (2000 * k.val + i))]
  rw [Finset.sum_congr rfl fun k _ => e1 k,
    Fin.sum_univ_eq_sum_range (fun k => ∑ e ∈ Finset.range 2000, edgeT (tabT1a (F := Ideal) d L ft) fs fd j (2000 * k + e)) k2_t2_loop.trips,
    trips2_1a, sum_range_2 160 2000 (fun i => edgeT (tabT1a (F := Ideal) d L ft) fs fd j i)]

/-! ## The result stretch, in the arrays' own words -/

/-- The table's four rows of the tile, read at a number (zero past their end). -/
def tabN_1a (d : Dev nD) (L : grid2.Coords) (ft : Buf (Elt Ideal) ((tabSl1a L).view.loc (V d (cV1 L) (jV1 L)))) (n : ℕ) : EReal :=
  if h : n < 40960 then (ft ((tabSl1a L).view.emb (ValueIdx.ix1 ⟨n, h⟩)) : EReal) else 0

theorem Tn_tabT_1a (d : Dev nD) (L : grid2.Coords) (ft : Buf (Elt Ideal) ((tabSl1a L).view.loc (V d (cV1 L) (jV1 L)))) (n : ℕ) :
    Tn (tabT1a (F := Ideal) d L ft) n = tabN_1a d L ft n := by
  unfold Tn tabN_1a tabT1a
  by_cases h : n < 40960
  · rw [dif_pos h, dif_pos h, View.read_apply, cast_eq]
  · rw [dif_neg h, dif_neg h]

/-- At row `c` and node `n` of the tile's stretch (index `10240 c + n`) the result is the sum, over the edges whose destination is `n`, of
    the table's word at row `c` and the edge's source. -/
theorem agg1a_sum (d : Dev nD) (L : grid2.Coords) (ft : Buf (Elt Ideal) ((tabSl1a L).view.loc (V d (cV1 L) (jV1 L)))) (fs fd : S320000.Idx → BitVec 32)
    (hs : ∀ j, (fs j).toNat < 10000) (hd : ∀ j, (fd j).toNat < 10000) (f1 : S40960.Idx → EReal) (y : S40960.Idx) :
    out1a d L ft fs fd hs hd f1 y
      = ∑ e ∈ Finset.univ.filter (fun e : Fin 320000 => (fd (ValueIdx.ix1 e)).toNat = (y 0).val % 10240),
          tabN_1a d L ft ((y 0).val / 10240 * 10240 + (fs (ValueIdx.ix1 e)).toNat) := by
  rw [agg1a_edges, Finset.sum_filter]
  refine Finset.sum_congr rfl fun e _ => ?_
  unfold edgeT
  rw [fN_val, fN_val, Tn_tabT_1a]

/-- The same of the result stretch's buffer as the task leaves it. -/
theorem out_buf_sum_1a (d : Dev nD) (L : grid2.Coords) (ft : Buf (Elt Ideal) ((tabSl1a L).view.loc (V d (cV1 L) (jV1 L)))) (fs fd : S320000.Idx → BitVec 32)
    (hs : ∀ j, (fs j).toNat < 10000) (hd : ∀ j, (fd j).toNat < 10000) (f1 : S40960.Idx → EReal)
    (f : Buf (Elt Ideal) ((outSl1a L).view.loc (V d (cV1 L) (jV1 L)))) (hf : (outSl1a L).view.read (Elt Ideal) f = agg1a (F := Ideal) d L ft fs fd hs hd f1)
    (y : S40960.Idx) :
    (f ((outSl1a L).view.emb y) : EReal)
      = ∑ e ∈ Finset.univ.filter (fun e : Fin 320000 => (fd (ValueIdx.ix1 e)).toNat = (y 0).val % 10240),
          tabN_1a d L ft ((y 0).val / 10240 * 10240 + (fs (ValueIdx.ix1 e)).toNat) := by
  have h := congrFun hf y
  rw [View.read_apply, cast_eq] at h
  rw [h]; exact agg1a_sum d L ft fs fd hs hd f1 y
/-- The accumulator after a group's first one, two and three rows. -/
def grpA1_1b (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T a (k2_pay1 (F := Ideal) s16) (k2_pay2 (F := Ideal) d16) (t1chk9_of (F := Ideal) s16 hs) (t1chk10_of (F := Ideal) d16 hd)
def grpA2_1b (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T (grpA1_1b d L T s16 d16 hs hd a) (k2_pay3 (F := Ideal) s16) (k2_pay4 (F := Ideal) d16) (t1chk11_of (F := Ideal) s16 hs) (t1chk12_of (F := Ideal) d16 hd)
def grpA3_1b (d : Dev nD) (L : grid2.Coords) (T : S40960.Idx → EReal) (s16 d16 : S16.Idx → BitVec 32)
    (hs : ∀ x, (s16 x).toNat < 10000) (hd : ∀ x, (d16 x).toNat < 10000) (a : S40960.Idx → EReal) : S40960.Idx → EReal :=
  rowStep1 (F := Ideal) d L T (grpA2_1b d L T s16 d16 hs hd a) (k2_pay5 (F := Ideal) s16) (k2_pay6 (F := Ideal) d16) (t1chk13_of (F := Ideal) s16 hs) (t1chk14_of (F := Ideal) d16 hd)

theorem grpStep1b_apply (d : Dev nD) (L : grid2.Coords) (T : S40960.Idx → EReal) (s16 d16 : S16.Idx → BitVec 32)
    (hs : ∀ x, (s16 x).toNat < 10000) (hd : ∀ x, (d16 x).toNat < 10000) (a : S40960.Idx → EReal) (j : S40960.Idx) :
    grpStep1b (F := Ideal) d L T s16 d16 hs hd a j = a j + grpC T s16 d16 j := by
  have e1 : grpA1_1b d L T s16 d16 hs hd a j = a j + rowC T s16 d16 0 j :=
    rowStep1_apply d L T a s16 d16 0#32 (by decide) hs hd (t1chk9_of (F := Ideal) s16 hs) (t1chk10_of (F := Ideal) d16 hd) j
  have e2 : grpA2_1b d L T s16 d16 hs hd a j = grpA1_1b d L T s16 d16 hs hd a j + rowC T s16 d16 10240 j :=
    rowStep1_apply d L T (grpA1_1b d L T s16 d16 hs hd a) s16 d16 10240#32 (by decide) hs hd (t1chk11_of (F := Ideal) s16 hs) (t1chk12_of (F := Ideal) d16 hd) j
  have e3 : grpA3_1b d L T s16 d16 hs hd a j = grpA2_1b d L T s16 d16 hs hd a j + rowC T s16 d16 20480 j :=
    rowStep1_apply d L T (grpA2_1b d L T s16 d16 hs hd a) s16 d16 20480#32 (by decide) hs hd (t1chk13_of (F := Ideal) s16 hs) (t1chk14_of (F := Ideal) d16 hd) j
  have e4 : grpStep1b (F := Ideal) d L T s16 d16 hs hd a j = grpA3_1b d L T s16 d16 hs hd a j + rowC T s16 d16 30720 j :=
    rowStep1_apply d L T (grpA3_1b d L T s16 d16 hs hd a) s16 d16 30720#32 (by decide) hs hd (t1chk15_of (F := Ideal) s16 hs) (t1chk16_of (F := Ideal) d16 hd) j
  rw [e4, e3, e2, e1]
  unfold grpC
  simp only [add_assoc]

/-- Group `g` of a chunk, at index `j`. -/
def chunkG_1b (d : Dev nD) (L : grid2.Coords) (T : S40960.Idx → EReal) (sC dC : S2000.Idx → BitVec 32) (g : Fin k2_t6_loop.trips) (j : S40960.Idx) : EReal :=
  grpC T (grpOf1b (F := Ideal) d L sC g) (grpOfD1b (F := Ideal) d L dC g) j

theorem accG1b_apply (d : Dev nD) (L : grid2.Coords) (T : S40960.Idx → EReal) (sC dC : S2000.Idx → BitVec 32)
    (hs : ∀ j, (sC j).toNat < 10000) (hd : ∀ j, (dC j).toNat < 10000) (a : S40960.Idx → EReal) (j : S40960.Idx) :
    ∀ n, n ≤ k2_t6_loop.trips →
      accG1b (F := Ideal) d L T sC dC hs hd n a j = a j + ∑ g : Fin k2_t6_loop.trips, if g.val < n then chunkG_1b d L T sC dC g j else 0
  | 0, _ => by rw [accG1b_zero]; simp
  | n + 1, hn => by
    have h : n < k2_t6_loop.trips := hn
    refine (congrFun (accG1b_succ (F := Ideal) d L T sC dC hs hd ⟨n, h⟩ a) j).trans ?_
    refine (grpStep1b_apply d L T _ _ _ _ _ j).trans ?_
    rw [accG1b_apply d L T sC dC hs hd a j n (le_of_lt h), sum_lt_succ _ n h, add_assoc]
    rfl

/-- Chunk `k`, at index `j`: its groups'. -/
def chunkK_1b (d : Dev nD) (L : grid2.Coords) (T : S40960.Idx → EReal) (fs fd : S320000.Idx → BitVec 32) (k : Fin k2_t5_loop.trips) (j : S40960.Idx) : EReal :=
  ∑ g : Fin k2_t6_loop.trips, chunkG_1b d L T (chunkOf1b (F := Ideal) d L fs k) (chunkOfD1b (F := Ideal) d L fd k) g j

theorem accK1b_apply (d : Dev nD) (L : grid2.Coords) (T : S40960.Idx → EReal) (fs fd : S320000.Idx → BitVec 32)
    (hs : ∀ j, (fs j).toNat < 10000) (hd : ∀ j, (fd j).toNat < 10000) (a : S40960.Idx → EReal) (j : S40960.Idx) :
    ∀ n, n ≤ k2_t5_loop.trips →
      accK1b (F := Ideal) d L T fs fd hs hd n a j = a j + ∑ k : Fin k2_t5_loop.trips, if k.val < n then chunkK_1b d L T fs fd k j else 0
  | 0, _ => by rw [accK1b_zero]; simp
  | n + 1, hn => by
    have h : n < k2_t5_loop.trips := hn
    refine (congrFun (accK1b_succ (F := Ideal) d L T fs fd hs hd ⟨n, h⟩ a) j).trans ?_
    refine (accG1b_apply d L T _ _ _ _ _ j k2_t6_loop.trips le_rfl).trans ?_
    have e : (∑ g : Fin k2_t6_loop.trips, if g.val < k2_t6_loop.trips then
          chunkG_1b d L T (chunkOf1b (F := Ideal) d L fs ⟨n, h⟩) (chunkOfD1b (F := Ideal) d L fd ⟨n, h⟩) g j else 0) = chunkK_1b d L T fs fd ⟨n, h⟩ j :=
      Finset.sum_congr rfl fun g _ => if_pos g.isLt
    rw [e, accK1b_apply d L T fs fd hs hd a j n (le_of_lt h), sum_lt_succ _ n h, add_assoc]

/-! ## The zero-fill leaves zeros -/

theorem pay1_zero_1b (x : S16.Idx) : k2_pay18 (F := Ideal) x = (0 : EReal) :=
  show (Ideal.ofBits .f32 0x00000000#32 : EReal) = 0 from Idealize.ShloMosaic.Ideal.ofBits_zero_f32

theorem zfill1b_lt (d : Dev nD) (L : grid2.Coords) (f : S40960.Idx → EReal) :
    ∀ n, n ≤ k2_t4_loop.trips → ∀ j : S40960.Idx, (j 0).val < 16 * n → zfill1b (F := Ideal) d L n f j = (0 : EReal)
  | 0, _, j, hj => absurd hj (by omega)
  | n + 1, hn, j, hj => by
    have h : n < k2_t4_loop.trips := hn
    refine (congrFun (zfill1b_succ (F := Ideal) d L ⟨n, h⟩ f) j).trans ?_
    rw [View.writes_cons, View.writes_nil]
    have hoff : (k2_off5 ⟨n, h⟩) 0 = 16 * n := congrFun (k2_off5_eq ⟨n, h⟩) 0
    by_cases hlo : (j 0).val < 16 * n
    · rw [View.write_of_not_mem]
      · exact zfill1b_lt d L f n (le_of_lt h) j hlo
      · intro hm
        obtain ⟨x, -, hx⟩ := Finset.mem_map.mp hm
        have e := congrArg (fun i : S40960.Idx => (i 0).val) hx
        have e' : (k2_off5 ⟨n, h⟩) 0 + 1 * (x 0).val = (j 0).val := e
        omega
    · have hx0 : (j 0).val - 16 * n < 16 := by omega
      have hjx : (t1sc1.view.slice (Rect.unit (s := S40960) (k2_off5 ⟨n, h⟩) S16.size (k2_off5_inb ⟨n, h⟩))).emb (ValueIdx.ix1 ⟨(j 0).val - 16 * n, hx0⟩) = j := by
        funext a
        match a with
        | ⟨0, _⟩ =>
          apply Fin.ext
          show (k2_off5 ⟨n, h⟩) 0 + 1 * ((j 0).val - 16 * n) = (j 0).val
          omega
      have hw := View.write_emb_of_mem (v := t1sc1.view.slice (Rect.unit (s := S40960) (k2_off5 ⟨n, h⟩) S16.size (k2_off5_inb ⟨n, h⟩))) (Val := Elt Ideal)
        (zfill1b (F := Ideal) d L n f) (k2_pay18 (F := Ideal)) (Finset.mem_univ (ValueIdx.ix1 ⟨(j 0).val - 16 * n, hx0⟩))
      rw [hjx, cast_eq] at hw
      exact hw.trans (pay1_zero_1b _)

theorem zfill1b_all (d : Dev nD) (L : grid2.Coords) (f : S40960.Idx → EReal) (j : S40960.Idx) :
    zfill1b (F := Ideal) d L k2_t4_loop.trips f j = (0 : EReal) :=
  zfill1b_lt d L f k2_t4_loop.trips le_rfl j (by
    have h1 : (j 0).val < 40960 := (j 0).isLt
    have e : k2_t4_loop.trips = 2560 := by decide
    rw [e]; exact h1)

/-! ## The task's result at an index: the sum over chunks, groups, rows and lanes -/

/-- The pass's accumulator at the end, at its literal type. -/
def out1b (d : Dev nD) (L : grid2.Coords) (ft : Buf (Elt Ideal) ((tabSl1b L).view.loc (V d (cV1 L) (jV1 L)))) (fs fd : S320000.Idx → BitVec 32)
    (hs : ∀ j, (fs j).toNat < 10000) (hd : ∀ j, (fd j).toNat < 10000) (f1 : S40960.Idx → EReal) : Vec Ideal S40960 .f32 :=
  agg1b (F := Ideal) d L ft fs fd hs hd f1

theorem agg1b_apply (d : Dev nD) (L : grid2.Coords) (ft : Buf (Elt Ideal) ((tabSl1b L).view.loc (V d (cV1 L) (jV1 L)))) (fs fd : S320000.Idx → BitVec 32)
    (hs : ∀ j, (fs j).toNat < 10000) (hd : ∀ j, (fd j).toNat < 10000) (f1 : S40960.Idx → EReal) (j : S40960.Idx) :
    out1b d L ft fs fd hs hd f1 j = ∑ k : Fin k2_t5_loop.trips, chunkK_1b d L (tabT1b (F := Ideal) d L ft) fs fd k j := by
  unfold out1b agg1b
  rw [accK1b_apply d L _ fs fd hs hd _ j k2_t5_loop.trips le_rfl, zfill1b_all, zero_add]
  exact Finset.sum_congr rfl fun k _ => if_pos k.isLt
theorem trips2_1b : k2_t5_loop.trips = 160 := by decide
theorem trips3_1b : k2_t6_loop.trips = 125 := by decide

theorem edge_lt_1b (k : Fin k2_t5_loop.trips) (g : Fin k2_t6_loop.trips) (x : Fin ((![16] : Fin 1 → ℕ) 0)) :
    2000 * k.val + 16 * g.val + x.val < 320000 := by
  have hk : k.val < 160 := lt_of_lt_of_eq k.isLt trips2_1b
  have hg : g.val < 125 := lt_of_lt_of_eq g.isLt trips3_1b
  have hx : x.val < 16 := x.isLt
  omega

theorem grp_word_1b (d : Dev nD) (L : grid2.Coords) (fe : S320000.Idx → BitVec 32) (k : Fin k2_t5_loop.trips) (g : Fin k2_t6_loop.trips)
    (x : Fin ((![16] : Fin 1 → ℕ) 0)) :
    (grpOf1b (F := Ideal) d L (chunkOf1b (F := Ideal) d L fe k) g (Shape.ofLane x)).toNat = fN fe (2000 * k.val + 16 * g.val + x.val) := by
  have h3 : (k2_off6 k) 0 = 2000 * k.val := congrFun (k2_off6_eq k) 0
  have h4 : (k2_off7 g) 0 = 16 * g.val := congrFun (k2_off7_eq g) 0
  unfold fN
  rw [dif_pos (edge_lt_1b k g x)]
  unfold grpOf1b chunkOf1b
  simp only [View.readAt_apply, View.read_apply, cast_eq]
  congr 2
  funext a
  match a with
  | ⟨0, _⟩ =>
    apply Fin.ext
    show (k2_off6 k) 0 + 1 * ((k2_off7 g) 0 + 1 * x.val) = 2000 * k.val + 16 * g.val + x.val
    rw [h3, h4]; omega

theorem grp_wordD_1b (d : Dev nD) (L : grid2.Coords) (fe : S320000.Idx → BitVec 32) (k : Fin k2_t5_loop.trips) (g : Fin k2_t6_loop.trips)
    (x : Fin ((![16] : Fin 1 → ℕ) 0)) :
    (grpOfD1b (F := Ideal) d L (chunkOfD1b (F := Ideal) d L fe k) g (Shape.ofLane x)).toNat = fN fe (2000 * k.val + 16 * g.val + x.val) := by
  have h3 : (k2_off6 k) 0 = 2000 * k.val := congrFun (k2_off6_eq k) 0
  have h4 : (k2_off7 g) 0 = 16 * g.val := congrFun (k2_off7_eq g) 0
  unfold fN
  rw [dif_pos (edge_lt_1b k g x)]
  unfold grpOfD1b chunkOfD1b
  simp only [View.readAt_apply, View.read_apply, cast_eq]
  congr 2
  funext a
  match a with
  | ⟨0, _⟩ =>
    apply Fin.ext
    show (k2_off6 k) 0 + 1 * ((k2_off7 g) 0 + 1 * x.val) = 2000 * k.val + 16 * g.val + x.val
    rw [h3, h4]; omega

theorem chunkG_eq_1b (d : Dev nD) (L : grid2.Coords) (T : S40960.Idx → EReal) (fs fd : S320000.Idx → BitVec 32) (hd : ∀ j, (fd j).toNat < 10000)
    (k : Fin k2_t5_loop.trips) (g : Fin k2_t6_loop.trips) (j : S40960.Idx) :
    chunkG_1b d L T (chunkOf1b (F := Ideal) d L fs k) (chunkOfD1b (F := Ideal) d L fd k) g j
      = ∑ x ∈ Finset.range 16, edgeT T fs fd j (2000 * k.val + (16 * g.val + x)) := by
  unfold chunkG_1b
  rw [grpC_pick T (grpOf1b (F := Ideal) d L (chunkOf1b (F := Ideal) d L fs k) g) (grpOfD1b (F := Ideal) d L (chunkOfD1b (F := Ideal) d L fd k) g) (fun _ => hd _) j]
  rw [← Fin.sum_univ_eq_sum_range (fun x => edgeT T fs fd j (2000 * k.val + (16 * g.val + x))) 16]
  refine Finset.sum_congr rfl fun x _ => ?_
  unfold edgeT
  rw [grp_word_1b, grp_wordD_1b, Nat.add_assoc]

theorem agg1b_edges (d : Dev nD) (L : grid2.Coords) (ft : Buf (Elt Ideal) ((tabSl1b L).view.loc (V d (cV1 L) (jV1 L)))) (fs fd : S320000.Idx → BitVec 32)
    (hs : ∀ j, (fs j).toNat < 10000) (hd : ∀ j, (fd j).toNat < 10000) (f1 : S40960.Idx → EReal) (j : S40960.Idx) :
    out1b d L ft fs fd hs hd f1 j = ∑ e : Fin 320000, edgeT (tabT1b (F := Ideal) d L ft) fs fd j e.val := by
  rw [agg1b_apply, Fin.sum_univ_eq_sum_range (fun e => edgeT (tabT1b (F := Ideal) d L ft) fs fd j e) 320000]
  unfold chunkK_1b
  have e1 : ∀ k : Fin k2_t5_loop.trips, (∑ g : Fin k2_t6_loop.trips, chunkG_1b d L (tabT1b (F := Ideal) d L ft) (chunkOf1b (F := Ideal) d L fs k) (chunkOfD1b (F := Ideal) d L fd k) g j)
      = ∑ e ∈ Finset.range 2000, edgeT (tabT1b (F := Ideal) d L ft) fs fd j (2000 * k.val + e) := by
    intro k
    rw [Finset.sum_congr rfl fun g _ => chunkG_eq_1b d L _ fs fd hd k g j,
      Fin.sum_univ_eq_sum_range (fun g => ∑ x ∈ Finset.range 16, edgeT (tabT1b (F := Ideal) d L ft) fs fd j (2000 * k.val + (16 * g + x))) k2_t6_loop.trips,
      trips3_1b, sum_range_2 125 16 (fun i => edgeT (tabT1b (F := Ideal) d L ft) fs fd j (2000 * k.val + i))]
  rw [Finset.sum_congr rfl fun k _ => e1 k,
    Fin.sum_univ_eq_sum_range (fun k => ∑ e ∈ Finset.range 2000, edgeT (tabT1b (F := Ideal) d L ft) fs fd j (2000 * k + e)) k2_t5_loop.trips,
    trips2_1b, sum_range_2 160 2000 (fun i => edgeT (tabT1b (F := Ideal) d L ft) fs fd j i)]

/-! ## The result stretch, in the arrays' own words -/

/-- The table's four rows of the tile, read at a number (zero past their end). -/
def tabN_1b (d : Dev nD) (L : grid2.Coords) (ft : Buf (Elt Ideal) ((tabSl1b L).view.loc (V d (cV1 L) (jV1 L)))) (n : ℕ) : EReal :=
  if h : n < 40960 then (ft ((tabSl1b L).view.emb (ValueIdx.ix1 ⟨n, h⟩)) : EReal) else 0

theorem Tn_tabT_1b (d : Dev nD) (L : grid2.Coords) (ft : Buf (Elt Ideal) ((tabSl1b L).view.loc (V d (cV1 L) (jV1 L)))) (n : ℕ) :
    Tn (tabT1b (F := Ideal) d L ft) n = tabN_1b d L ft n := by
  unfold Tn tabN_1b tabT1b
  by_cases h : n < 40960
  · rw [dif_pos h, dif_pos h, View.read_apply, cast_eq]
  · rw [dif_neg h, dif_neg h]

/-- At row `c` and node `n` of the tile's stretch (index `10240 c + n`) the result is the sum, over the edges whose destination is `n`, of
    the table's word at row `c` and the edge's source. -/
theorem agg1b_sum (d : Dev nD) (L : grid2.Coords) (ft : Buf (Elt Ideal) ((tabSl1b L).view.loc (V d (cV1 L) (jV1 L)))) (fs fd : S320000.Idx → BitVec 32)
    (hs : ∀ j, (fs j).toNat < 10000) (hd : ∀ j, (fd j).toNat < 10000) (f1 : S40960.Idx → EReal) (y : S40960.Idx) :
    out1b d L ft fs fd hs hd f1 y
      = ∑ e ∈ Finset.univ.filter (fun e : Fin 320000 => (fd (ValueIdx.ix1 e)).toNat = (y 0).val % 10240),
          tabN_1b d L ft ((y 0).val / 10240 * 10240 + (fs (ValueIdx.ix1 e)).toNat) := by
  rw [agg1b_edges, Finset.sum_filter]
  refine Finset.sum_congr rfl fun e _ => ?_
  unfold edgeT
  rw [fN_val, fN_val, Tn_tabT_1b]

/-- The same of the result stretch's buffer as the task leaves it. -/
theorem out_buf_sum_1b (d : Dev nD) (L : grid2.Coords) (ft : Buf (Elt Ideal) ((tabSl1b L).view.loc (V d (cV1 L) (jV1 L)))) (fs fd : S320000.Idx → BitVec 32)
    (hs : ∀ j, (fs j).toNat < 10000) (hd : ∀ j, (fd j).toNat < 10000) (f1 : S40960.Idx → EReal)
    (f : Buf (Elt Ideal) ((outSl1b L).view.loc (V d (cV1 L) (jV1 L)))) (hf : (outSl1b L).view.read (Elt Ideal) f = agg1b (F := Ideal) d L ft fs fd hs hd f1)
    (y : S40960.Idx) :
    (f ((outSl1b L).view.emb y) : EReal)
      = ∑ e ∈ Finset.univ.filter (fun e : Fin 320000 => (fd (ValueIdx.ix1 e)).toNat = (y 0).val % 10240),
          tabN_1b d L ft ((y 0).val / 10240 * 10240 + (fs (ValueIdx.ix1 e)).toNat) := by
  have h := congrFun hf y
  rw [View.read_apply, cast_eq] at h
  rw [h]; exact agg1b_sum d L ft fs fd hs hd f1 y

end Cert.Proof.AggIdeal

end
-- ==== Proof.KIStretch1.lean ====
/-
  A tile's two result stretches of the second aggregation, in the whole arrays' words: each pass leaves, at place y of its
  stretch of 4 · 10240 words, the sum over the edges whose destination is y mod 10240 of the table's word at the same row of
  the stretch and the edge's source; the first stretch starts at tile number · 40960 and the second 1310720 words further, both
  multiples of 10240, so the place is a row and a column of the whole arrays and the sum is the whole-array aggregation read there.
-/
import proofs.«211848_g47218870452992_cont_8to1c4_747_2_alg».proof.Proof.KIAgg1
import proofs.«211848_g47218870452992_cont_8to1c4_747_2_alg».proof.Proof.KIStretch

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem
open Idealize.ShloMosaic.SparseCore (S V T)
open Cert.Proof.AggIdeal
open scoped BigOperators

/-- Place y of the tile's first table stretch is word (tile number · 40960 + y) of the table; the same of the result stretch. -/
theorem emb_tab1a (L : grid2.Coords) (y : S40960.Idx) : (((tabSl1a L).view.emb y) 0 : ℕ) = 40960 * (wid2 L).val + (y 0).val := by
  show (((Rect.unit (s := S2621440) (k2_off1 L 0#32) S40960.size (k2_off1_inb L 0)).emb y) 0 : ℕ) = _
  rw [Rect.emb_apply]
  simp only [Rect.off_unit, Rect.stride_unit]
  have h : k2_off1 L 0#32 0 = 1310720 * 0 + 81920 * (L 1).val + 40960 * (L 0).val := by
    have e := k2_off1_eq L (0 : Fin 2)
    exact congrFun e 0
  have hw : (wid2 L).val = (L 1).val * 2 + (L 0).val := rfl
  omega
theorem emb_out1a (L : grid2.Coords) (y : S40960.Idx) : (((outSl1a L).view.emb y) 0 : ℕ) = 40960 * (wid2 L).val + (y 0).val := by
  show (((Rect.unit (s := S2621440) (k2_off1 L 0#32) S40960.size (k2_off1_inb L 0)).emb y) 0 : ℕ) = _
  rw [Rect.emb_apply]
  simp only [Rect.off_unit, Rect.stride_unit]
  have h : k2_off1 L 0#32 0 = 1310720 * 0 + 81920 * (L 1).val + 40960 * (L 0).val := by
    have e := k2_off1_eq L (0 : Fin 2)
    exact congrFun e 0
  have hw : (wid2 L).val = (L 1).val * 2 + (L 0).val := rfl
  omega

/-- The tile's first result stretch holds the whole-array aggregation. -/
theorem stretch_agg1a (d : Dev nD) (L : grid2.Coords)
    (ft : S2621440.Idx → EReal)
    (fs fd : S320000.Idx → BitVec 32) (hs : ∀ j, (fs j).toNat < 10000)
    (f : S2621440.Idx → EReal)
    (hf : ∀ y : S40960.Idx, f ((outSl1a L).view.emb y)
      = ∑ e ∈ Finset.univ.filter (fun e : Fin 320000 => (fd (ix1 e)).toNat = (y 0).val % 10240),
          tabN_1a d L ft ((y 0).val / 10240 * 10240 + (fs (ix1 e)).toNat))
    (i : S2621440.Idx) (hi : i ∈ (outSl1a L).view.set) :
    f i = aggArr (N := 2621440) ft fs fd i := by
  obtain ⟨y, -, rfl⟩ := Finset.mem_map.mp (show i ∈ Finset.univ.map (outSl1a L).view.emb from hi)
  rw [hf y]
  have hw : (wid2 L).val < 32 := (wid2 L).isLt
  have hy : (y 0).val < 40960 := (y 0).isLt
  have e0 := emb_out1a L y
  unfold aggArr
  have hmod : ((((outSl1a L).view.emb y) 0 : ℕ)) % 10240 = (y 0).val % 10240 := by rw [e0]; omega
  have hdiv : ((((outSl1a L).view.emb y) 0 : ℕ)) / 10240 * 10240 = 40960 * (wid2 L).val + (y 0).val / 10240 * 10240 := by rw [e0]; omega
  rw [hmod]
  refine Finset.sum_congr rfl fun e _ => ?_
  have hse := hs (ix1 e)
  have hn : (y 0).val / 10240 * 10240 + (fs (ix1 e)).toNat < 40960 := by omega
  unfold tabN_1a
  rw [dif_pos hn]
  congr 1
  apply idx1_ext
  rw [emb_tab1a]
  show 40960 * (wid2 L).val + ((y 0).val / 10240 * 10240 + (fs (ix1 e)).toNat) = (_ % 2621440)
  rw [hdiv, Nat.mod_eq_of_lt (by omega)]
  omega

/-- Place y of the tile's second table stretch is word (1310720 + tile number · 40960 + y) of the table; the same of the result stretch. -/
theorem emb_tab1b (L : grid2.Coords) (y : S40960.Idx) : (((tabSl1b L).view.emb y) 0 : ℕ) = 1310720 + 40960 * (wid2 L).val + (y 0).val := by
  show (((Rect.unit (s := S2621440) (k2_off1 L 128#32) S40960.size (k2_off1_inb L 1)).emb y) 0 : ℕ) = _
  rw [Rect.emb_apply]
  simp only [Rect.off_unit, Rect.stride_unit]
  have h : k2_off1 L 128#32 0 = 1310720 * 1 + 81920 * (L 1).val + 40960 * (L 0).val := by
    have e := k2_off1_eq L (1 : Fin 2)
    exact congrFun e 0
  have hw : (wid2 L).val = (L 1).val * 2 + (L 0).val := rfl
  omega
theorem emb_out1b (L : grid2.Coords) (y : S40960.Idx) : (((outSl1b L).view.emb y) 0 : ℕ) = 1310720 + 40960 * (wid2 L).val + (y 0).val := by
  show (((Rect.unit (s := S2621440) (k2_off1 L 128#32) S40960.size (k2_off1_inb L 1)).emb y) 0 : ℕ) = _
  rw [Rect.emb_apply]
  simp only [Rect.off_unit, Rect.stride_unit]
  have h : k2_off1 L 128#32 0 = 1310720 * 1 + 81920 * (L 1).val + 40960 * (L 0).val := by
    have e := k2_off1_eq L (1 : Fin 2)
    exact congrFun e 0
  have hw : (wid2 L).val = (L 1).val * 2 + (L 0).val := rfl
  omega

/-- The tile's second result stretch holds the whole-array aggregation. -/
theorem stretch_agg1b (d : Dev nD) (L : grid2.Coords)
    (ft : S2621440.Idx → EReal)
    (fs fd : S320000.Idx → BitVec 32) (hs : ∀ j, (fs j).toNat < 10000)
    (f : S2621440.Idx → EReal)
    (hf : ∀ y : S40960.Idx, f ((outSl1b L).view.emb y)
      = ∑ e ∈ Finset.univ.filter (fun e : Fin 320000 => (fd (ix1 e)).toNat = (y 0).val % 10240),
          tabN_1b d L ft ((y 0).val / 10240 * 10240 + (fs (ix1 e)).toNat))
    (i : S2621440.Idx) (hi : i ∈ (outSl1b L).view.set) :
    f i = aggArr (N := 2621440) ft fs fd i := by
  obtain ⟨y, -, rfl⟩ := Finset.mem_map.mp (show i ∈ Finset.univ.map (outSl1b L).view.emb from hi)
  rw [hf y]
  have hw : (wid2 L).val < 32 := (wid2 L).isLt
  have hy : (y 0).val < 40960 := (y 0).isLt
  have e0 := emb_out1b L y
  unfold aggArr
  have hmod : ((((outSl1b L).view.emb y) 0 : ℕ)) % 10240 = (y 0).val % 10240 := by rw [e0]; omega
  have hdiv : ((((outSl1b L).view.emb y) 0 : ℕ)) / 10240 * 10240 = 1310720 + 40960 * (wid2 L).val + (y 0).val / 10240 * 10240 := by rw [e0]; omega
  rw [hmod]
  refine Finset.sum_congr rfl fun e _ => ?_
  have hse := hs (ix1 e)
  have hn : (y 0).val / 10240 * 10240 + (fs (ix1 e)).toNat < 40960 := by omega
  unfold tabN_1b
  rw [dif_pos hn]
  congr 1
  apply idx1_ext
  rw [emb_tab1b]
  show 1310720 + 40960 * (wid2 L).val + ((y 0).val / 10240 * 10240 + (fs (ix1 e)).toNat) = (_ % 2621440)
  rw [hdiv, Nat.mod_eq_of_lt (by omega)]
  omega

end Cert.Proof.KernelIdealL

end
-- ==== Proof.KIOblV1.lean ====
/-
  The second aggregation's task with values as the launch theorem's obligation: each of the tile's two passes leaves its
  result stretch at the ordered fold of its stores, which at the ideal instance is, place by place, the sum over the edges
  arriving at the place's node of the table's word at the same row and the edge's source — the whole-array aggregation read
  on that stretch; so both stretches come back at the stated result array.
-/
import proofs.«211848_g47218870452992_cont_8to1c4_747_2_alg».proof.Proof.KIRunV
import proofs.«211848_g47218870452992_cont_8to1c4_747_2_alg».proof.Proof.KIStretch1
import proofs.«211848_g47218870452992_cont_8to1c4_747_2_alg».proof.Proof.KIObl1

set_option Elab.async false

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.AggIdeal

local notation "𝕄" => MT nD τ sig (HIx 2) (Elt Ideal) ℕ UU ℕ

/-- One tile's task of the second aggregation with values, over its share as the value handshake carries it. -/
theorem tileTaskV1 (m : (ℓ : Loc nD τ sig) → Buf (Elt Ideal) ℓ)
    (R0 : Dev nD → Valuation τ sig (Elt Ideal) → Valuation τ sig (Elt Ideal))
    (hR0 : ∀ d W (r : Ref sig .tc), r ≠ main_v12 → R0 d W (Proc.devRef .tc r) = W (Proc.devRef .tc r))
    (hs : ∀ d j, ((srcC m d) j).toNat < 10000) (hd : ∀ d j, ((dstC m d) j).toNat < 10000)
    (d : Dev nD) (L : grid2.Coords) (O : CellTallies nD τ sig (HIx 2)) (W : Waits sig (HIx 2)) (hO : ∀ g, O g none = 0) :
    (iprop(levAts (K (F := Ideal)).L (K (F := Ideal)).lev ∗ emp ∗ goV1 (srcC m) (dstC m) (fun d => V5 m R0 d (Proc.devRef .tc main_v13)) d L
        ∗ scopedBufs (V d (cV1 L) (jV1 L)) ∗ scopedSems0 (V d (cV1 L) (jV1 L)) ∗ owes (V d (cV1 L) (jV1 L)) O W) : sProp 𝕄)
      ⊢ wp frame (wpE (defs₀ (F := Ideal)) 𝒱₀ (V d (cV1 L) (jV1 L)) none) Set.univ
          (cc2_body L tabW1 (Memref.isWhole_whole _) srcW (Memref.isWhole_whole _) dstW (Memref.isWhole_whole _) outW1 (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _)
            cc2_scoped0 cc2_scoped1 cc2_scoped2 cc2_scoped3 cc2_scoped4 cc2_scoped5 cc2_scoped6 cc2_scoped7)
          fun _ => iprop(tdV1 (srcC m) (dstC m) (fun d => V5 m R0 d (Proc.devRef .tc main_v13)) (res1 m R0) d L ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  -- the edge lists the second call reads are the first call's: the region between writes only the layer's output
  have hres : res1 m R0 d = aggArr (N := 2621440) (V5 m R0 d (Proc.devRef .tc main_v13)) (srcC m d) (dstC m d) := by
    unfold res1
    rw [V5_kept m R0 d hR0 main_v1 (by decide) (by decide) (by decide) (by decide),
      V5_kept m R0 d hR0 main_v3 (by decide) (by decide) (by decide) (by decide)]
    rfl
  unfold goV1
  iintro ⟨Hlv, -, ⟨Hta, Htb, Hs, Hd, ⟨%foa, Hoa⟩, ⟨%fob, Hob⟩⟩, Hsb, Hss, HO⟩
  iapply (wp_mono frame _ _ (fun _ => (show
      (iprop((((tabSl1a L).view.loc (V d (cV1 L) (jV1 L)) ↦[(tabSl1a L).view.set]{fullShare} (V5 m R0 d (Proc.devRef .tc main_v13))) ∗ ((tabSl1b L).view.loc (V d (cV1 L) (jV1 L)) ↦[(tabSl1b L).view.set]{fullShare} (V5 m R0 d (Proc.devRef .tc main_v13)))
            ∗ (srcW.view.loc (V d (cV1 L) (jV1 L)) ↦{tok (wid2 L)} srcC m d) ∗ (dstW.view.loc (V d (cV1 L) (jV1 L)) ↦{tok (wid2 L)} dstC m d)
            ∗ ∃ f1 fa fb, ⌜(outSl1a L).view.read (Elt Ideal) fa = agg1a (F := Ideal) d L (V5 m R0 d (Proc.devRef .tc main_v13)) (srcC m d) (dstC m d) (hs d) (hd d) f1⌝
                ∗ ⌜(outSl1b L).view.read (Elt Ideal) fb = agg1b (F := Ideal) d L (V5 m R0 d (Proc.devRef .tc main_v13)) (srcC m d) (dstC m d) (hs d) (hd d)
                    (agg1a (F := Ideal) d L (V5 m R0 d (Proc.devRef .tc main_v13)) (srcC m d) (dstC m d) (hs d) (hd d) f1)⌝
                ∗ ((outSl1a L).view.loc (V d (cV1 L) (jV1 L)) ↦[(outSl1a L).view.set]{fullShare} fa) ∗ ((outSl1b L).view.loc (V d (cV1 L) (jV1 L)) ↦[(outSl1b L).view.set]{fullShare} fb))
          ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') : sProp 𝕄)
      ⊢ iprop(tdV1 (srcC m) (dstC m) (fun d => V5 m R0 d (Proc.devRef .tc main_v13)) (res1 m R0) d L ∗ scopedBufs (V d (cV1 L) (jV1 L)) ∗ scopedSems0 (V d (cV1 L) (jV1 L))
          ∗ ∃ W', ⌜∀ p ∈ W', p ∈ W ∨ p.2 = none⌝ ∗ owes (V d (cV1 L) (jV1 L)) O W') from by
    unfold tdV1
    iintro ⟨⟨Hta, Htb, Hs, Hd, %f1, %fa, %fb, %hfa, %hfb, Hoa, Hob⟩, Hrest⟩
    have hca : ∀ i ∈ (outSl1a L).view.set, fa i = res1 m R0 d i := fun i hi => by
      rw [hres]
      exact stretch_agg1a d L (V5 m R0 d (Proc.devRef .tc main_v13)) (srcC m d) (dstC m d) (hs d) fa
        (fun y => out_buf_sum_1a d L (V5 m R0 d (Proc.devRef .tc main_v13)) (srcC m d) (dstC m d) (hs d) (hd d) f1 fa hfa y) i hi
    have hcb : ∀ i ∈ (outSl1b L).view.set, fb i = res1 m R0 d i := fun i hi => by
      rw [hres]
      exact stretch_agg1b d L (V5 m R0 d (Proc.devRef .tc main_v13)) (srcC m d) (dstC m d) (hs d) fb
        (fun y => out_buf_sum_1b d L (V5 m R0 d (Proc.devRef .tc main_v13)) (srcC m d) (dstC m d) (hs d) (hd d) _ fb hfb y) i hi
    ihave Hoa' := (Entails.of_eq (pointsTo_congr (ℓ := tLoc main_v14 d) (q := fullShare) hca)) $$ Hoa
    ihave Hob' := (Entails.of_eq (pointsTo_congr (ℓ := tLoc main_v14 d) (q := fullShare) hcb)) $$ Hob
    isplitl [Hta Htb Hs Hd Hoa' Hob']
    · isplitl [Hta]; · iexact Hta
      isplitl [Htb]; · iexact Htb
      isplitl [Hs]; · iexact Hs
      isplitl [Hd]; · iexact Hd
      isplitl [Hoa']; · iexact Hoa'
      iexact Hob'
    · iexact Hrest)))
  iapply (tile_body1V (F := Ideal) d L facts (tok (wid2 L)) (V5 m R0 d (Proc.devRef .tc main_v13)) (V5 m R0 d (Proc.devRef .tc main_v13)) (srcC m d) (dstC m d) foa fob (hs d) (hd d) O W hO) $$ [Hlv Hta Htb Hs Hd Hoa Hob Hsb Hss HO]
  isplitl [Hlv]; · iexact Hlv
  isplitr; · iempintro
  isplitl [Hta Htb Hs Hd Hoa Hob]
  · isplitl [Hta]; · iexact Hta
    isplitl [Htb]; · iexact Htb
    isplitl [Hs]; · iexact Hs
    isplitl [Hd]; · iexact Hd
    isplitl [Hoa]; · iexact Hoa
    iexact Hob
  isplitl [Hsb]; · iexact Hsb
  isplitl [Hss]; · iexact Hss
  iexact HO

/-- The launch theorem's obligation at the second call, with values. -/
theorem tileOblV1 (m : (ℓ : Loc nD τ sig) → Buf (Elt Ideal) ℓ)
    (R0 : Dev nD → Valuation τ sig (Elt Ideal) → Valuation τ sig (Elt Ideal))
    (hR0 : ∀ d W (r : Ref sig .tc), r ≠ main_v12 → R0 d W (Proc.devRef .tc r) = W (Proc.devRef .tc r))
    (hs : ∀ d j, ((srcC m d) j).toNat < 10000) (hd : ∀ d j, ((dstC m d) j).toNat < 10000) :
    (K (F := Ideal)).TileObl (D (F := Ideal)) 𝒱 (PV (srcC m) (dstC m) (fun d => V1 m d (Proc.devRef .tc main_v6)) (res0 m) (fun d => V5 m R0 d (Proc.devRef .tc main_v13)) (res1 m R0)) v₀ 1 := by
  intro d c i O W hO _ _
  simp only [show (PV (srcC m) (dstC m) (fun d => V1 m d (Proc.devRef .tc main_v6)) (res0 m) (fun d => V5 m R0 d (Proc.devRef .tc main_v13)) (res1 m R0)).ox = fun _ _ => 0 from rfl, add_zero]
  change _ ⊢ wp _ _ _ (Pipeline.liftProg (defs₀ (F := Ideal) (.scVector ((K (F := Ideal)).core 1 c) ((K (F := Ideal)).sub 1 i)) 2 ())) _
  refine BI.Entails.trans ?_ (Pipeline.wp_liftProg (D (F := Ideal)) (Pipeline.defs_kernel pcfgs defs₀) 𝒱₀ _ Set.univ none _ _)
  have hc : ((K (F := Ideal)).core 1 c).val < grid2.bound 0 ∧ ((K (F := Ideal)).sub 1 i).val < grid2.bound 1 := ⟨c.isLt, i.isLt⟩
  rw [defs₀_vector1]; simp only [SparseCore.onTile, hc, and_self, ↓reduceDIte]
  exact (tileTaskV1 m R0 hR0 hs hd d (L1 c i) O W hO).trans (wp_mono frame _ _ fun _ => obl_post1)

end Cert.Proof.KernelIdealL

end
-- ==== Proof.KIHeadMath.lean ====
/-
  The head's mathematics. The second layer is computed block by block of 2048 columns, each block's values summed over
  the block's columns that name a node and added onto the pooled column; five blocks of 2048 columns are the 10240 columns
  of the padded matrix, so after the fifth block the pooled column holds, at each feature, the second layer summed over
  the 10000 real columns. The head's last step is the softmax of the dense map of that column.
-/
import proofs.«211848_g47218870452992_cont_8to1c4_747_2_alg».proof.Proof.KIFinal
import proofs.«211848_g47218870452992_cont_8to1c4_747_2_alg».proof.Proof.KIPayRead

set_option Elab.async false

noncomputable section

namespace Cert.Proof.KernelIdealL

open Cert.KernelIdeal Cert.KernelIdeal.Gen
open Idealize.ShloMosaic Idealize.ShloMosaic.TcCoe Idealize.ShloMosaic.ValueIdx Idealize.SL.Sem Idealize.ShloMosaic.StableHlo
open Cert.RefSpec (prelu softmax)
open scoped BigOperators

/-- Block `b` of the second aggregation's matrix: its columns 2048 b … 2048 b + 2047. -/
def blkH (W : Valuation τ sig (Elt Ideal)) (b : Fin 5) : Vec Ideal S256x2048 .f32 :=
  fun idx => w15 W (ix2 (idx 0) ⟨2048 * b.val + (idx 1).val, by
    have hb := b.isLt
    have h1 : (idx 1).val < 2048 := (idx 1).isLt
    omega⟩)

/-- The grid point of block `b`. -/
def ptH (b : Fin 5) : grid3.Coords :=
  fun | 0 => b | ⟨_ + 1, h⟩ => absurd h (Nat.not_lt.2 (Nat.le_add_left _ _))

theorem ptH_val (b : Fin 5) : (ptH b 0).val = b.val := rfl

/-- The pooled column after block `t`: the first block's sum, then each later block's added on. -/
def poolH (W : Valuation τ sig (Elt Ideal)) : ℕ → Vec Ideal S256x1 .f32
  | 0 => k3_pay2 (F := Ideal) (ptH 0) (w16 W) (blkH W 0) (w17 W) (w18 W)
  | t + 1 =>
    if h : t + 1 < 5 then k3_pay3 (F := Ideal) (ptH ⟨t + 1, h⟩) (w16 W) (blkH W ⟨t + 1, h⟩) (w17 W) (w18 W) (poolH W t)
    else poolH W t

theorem poolH_zero (W : Valuation τ sig (Elt Ideal)) :
    poolH W 0 = k3_pay2 (F := Ideal) (ptH 0) (w16 W) (blkH W 0) (w17 W) (w18 W) := rfl
theorem poolH_succ (W : Valuation τ sig (Elt Ideal)) (t : ℕ) (h : t + 1 < 5) :
    poolH W (t + 1) = k3_pay3 (F := Ideal) (ptH ⟨t + 1, h⟩) (w16 W) (blkH W ⟨t + 1, h⟩) (w17 W) (w18 W) (poolH W t) := by
  rw [poolH, dif_pos h]

/-- The second layer at feature `k` and column number `n` of the padded matrix: its value on a real column, 0 on a padding
    column or past the matrix. -/
def colH (W : Valuation τ sig (Elt Ideal)) (k : Fin 256) (n : ℕ) : EReal :=
  if hn : n < 10240 then
    (if n < 10000 then
      prelu ((∑ h : Fin 256, w16 W (ix2 k h) * w15 W (ix2 h (⟨n, hn⟩ : Fin 10240))) + w17 W (ix2 k (0 : Fin 1))) (w18 W (ix2 k (0 : Fin 1)))
    else 0)
  else 0

/-- A block's masked sum is the sum of the second layer over the block's column numbers. -/
theorem blk_sum (W : Valuation τ sig (Elt Ideal)) (k : Fin 256) (b : Fin 5) :
    (∑ j : Fin 2048, (if (ptH b 0).val * 2048 + j.val < 10000 then
        prelu ((∑ h : Fin 256, w16 W (ix2 k h) * blkH W b (ix2 h j)) + w17 W (ix2 k (0 : Fin 1))) (w18 W (ix2 k (0 : Fin 1)))
      else 0))
      = ∑ x ∈ Finset.range 2048, colH W k (2048 * b.val + x) := by
  rw [← Fin.sum_univ_eq_sum_range (fun x => colH W k (2048 * b.val + x)) 2048]
  refine Finset.sum_congr rfl fun j _ => ?_
  have hb := b.isLt
  have hj := j.isLt
  have hn : 2048 * b.val + j.val < 10240 := by omega
  unfold colH
  rw [dif_pos hn, ptH_val]
  have hc : (b.val * 2048 + j.val < 10000) ↔ (2048 * b.val + j.val < 10000) := by omega
  by_cases h : 2048 * b.val + j.val < 10000
  · rw [if_pos (hc.mpr h), if_pos h]
    rfl
  · rw [if_neg (fun h' => h (hc.mp h')), if_neg h]

/-- Five blocks of 2048 column numbers are the 10240 column numbers. -/
theorem sum_blocks (H : ℕ → EReal) :
    (∑ g ∈ Finset.range 5, ∑ x ∈ Finset.range 2048, H (2048 * g + x)) = ∑ e ∈ Finset.range 10240, H e := by
  have key : ∀ n : ℕ, (∑ g ∈ Finset.range n, ∑ x ∈ Finset.range 2048, H (2048 * g + x)) = ∑ e ∈ Finset.range (n * 2048), H e := by
    intro n
    induction n with
    | zero => simp
    | succ n ih =>
      rw [Finset.sum_range_succ, ih, show (n + 1) * 2048 = n * 2048 + 2048 from by omega, Finset.sum_range_add]
      congr 1
      exact Finset.sum_congr rfl fun x _ => by rw [Nat.mul_comm]
  exact key 5

/-- The pooled column after the fifth block: the second layer summed over the real columns. -/
theorem pool_total (W : Valuation τ sig (Elt Ideal)) (k : Fin 256) :
    poolH W 4 (ix2 k (0 : Fin 1))
      = ∑ n : Fin 10240, if n.val < 10000 then
          prelu ((∑ h : Fin 256, w16 W (ix2 k h) * w15 W (ix2 h n)) + w17 W (ix2 k (0 : Fin 1))) (w18 W (ix2 k (0 : Fin 1)))
        else 0 := by
  have hR : (∑ n : Fin 10240, if n.val < 10000 then
          prelu ((∑ h : Fin 256, w16 W (ix2 k h) * w15 W (ix2 h n)) + w17 W (ix2 k (0 : Fin 1))) (w18 W (ix2 k (0 : Fin 1)))
        else 0) = ∑ e ∈ Finset.range 10240, colH W k e := by
    rw [← Fin.sum_univ_eq_sum_range (fun e => colH W k e) 10240]
    refine Finset.sum_congr rfl fun n _ => ?_
    unfold colH
    rw [dif_pos n.isLt]
  rw [hR, ← sum_blocks (colH W k)]
  rw [poolH_succ W 3 (by decide), k3_pay3_apply, poolH_succ W 2 (by decide), k3_pay3_apply,
    poolH_succ W 1 (by decide), k3_pay3_apply, poolH_succ W 0 (by decide), k3_pay3_apply, poolH_zero, k3_pay2_apply]
  rw [blk_sum W k 0, blk_sum W k ⟨0 + 1, by decide⟩, blk_sum W k ⟨1 + 1, by decide⟩, blk_sum W k ⟨2 + 1, by decide⟩, blk_sum W k ⟨3 + 1, by decide⟩]
  have h5 : ∀ f : ℕ → EReal, ∑ g ∈ Finset.range 5, f g = f 0 + f 1 + f 2 + f 3 + f 4 := fun f => by
    simp [Finset.sum_range_succ]
  rw [h5]
  rfl

/-- The head's read-out: the softmax of the dense map of the pooled column — the right side of the head's reading. -/
theorem head_read (W : Valuation τ sig (Elt Ideal)) (l : Fin 16) :
    k3_pay4 (F := Ideal) (poolH W 4) (wA8 W) (w19 W) (ix2 (0 : Fin 1) l)
      = softmax (fun l' => (∑ k : Fin 256,
            (∑ n : Fin 10240, if n.val < 10000 then
                prelu ((∑ h : Fin 256, w16 W (ix2 k h) * w15 W (ix2 h n)) + w17 W (ix2 k (0 : Fin 1))) (w18 W (ix2 k (0 : Fin 1)))
              else 0)
            * wA8 W (ix2 k l'))
          + w19 W (ix2 (0 : Fin 1) l')) l := by
  rw [k3_pay4_apply]
  refine congrArg (fun g => softmax g l) (funext fun l' => ?_)
  refine congrArg (· + w19 W (ix2 (0 : Fin 1) l')) (Finset.sum_congr rfl fun k _ => ?_)
  rw [pool_total W k]

end Cert.Proof.KernelIdealL

end
-- ==== Proof.KIReg1V.lean ====
/-
  The head's step in @main's proof WITH VALUES, over a definite valuation, and the class scores it leaves.

  The head's body keeps in a scratch the running column sums of the activated blocks. Its three conditional stores
  are decided by the point alone: the first point starts the sum from its block (whatever the scratch held), every
  later point adds its block's to what the scratch holds, and the last point then reads the sum, the head's weights
  and bias and stores the row of class scores. So the scratch's contents before each point are a function of the
  blocks of the points before it, and the region's invariant carries them: some contents before the first point,
  then the pooled sums point by point. The output window is idle until the last point, which alone writes it back.

  The body's triple is proved in three variants — first, middle, last point — with the conditions as hypotheses,
  which decide the printed conditionals; the body obligation is the five points' cases; the region is the library's
  rule for exact proof data lifted along the launch's body table, the scratch moving out of the core's scoped rest
  into the invariant and back. At the exit the class scores' array holds the last point's block: the payload of
  the pooled sum after the five points, the head's weights and its bias.
-/
import proofs.«211848_g47218870452992_cont_8to1c4_747_2_alg».proof.Proof.KIReg0Read
import proofs.«211848_g47218870452992_cont_8to1c4_747_2_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

open Idealize.ShloMosaic.ValueIdx

/-! ## The head's body with values: the pooled sums in the scratch, the class scores at the last point -/

abbrev r3W : Rect S256x256 := Rect.unit (s := S256x256) ![0, 0] S256x256.size inb_S256x256_S256x256_0_0
abbrev r3D : Rect S256x16 := Rect.unit (s := S256x16) ![0, 0] S256x16.size inb_S256x16_S256x16_0_0
abbrev r3O : Rect S1x16 := Rect.unit (s := S1x16) ![0, 0] S1x16.size inb_S1x16_S1x16_0_0

/-- The body's three conditions on the point: it is the first; it is not the first; (`k3_cond3`) it is the last. -/
abbrev k3c1 (i : grid3.Coords) : BitVec 1 := Scalar.cmpi .ne (Scalar.extui (Scalar.cmpi .eq (BitVec.ofNat 32 (i 0).val) 0#32) : BitVec 32) 0#32
abbrev k3c2 (i : grid3.Coords) : BitVec 1 := Scalar.cmpi .ne (Scalar.extui (Scalar.cmpi .sgt (BitVec.ofNat 32 (i 0).val) 0#32) : BitVec 32) 0#32

/-- The pooling scratch after the first point; after a later point, from what it held; the class scores' block after the last. -/
def pool0 (i : grid3.Coords) (x0 : Vec F S256x2048 .f32) (x1 : Vec F S256x256 .f32) (x2 x3 : Vec F S256x1 .f32) : Vec F S256x1 .f32 :=
  View.canon [⟨r1B, k3_pay2 i (View.ld x1 r3W) (View.ld x0 r1O) (View.ld x2 r1B) (View.ld x3 r1B)⟩]
def poolS (i : grid3.Coords) (x0 : Vec F S256x2048 .f32) (x1 : Vec F S256x256 .f32) (x2 x3 : Vec F S256x1 .f32) (s : Vec F S256x1 .f32) : Vec F S256x1 .f32 :=
  View.canon [⟨r1B, k3_pay3 i (View.ld x1 r3W) (View.ld x0 r1O) (View.ld x2 r1B) (View.ld x3 r1B) (View.ld s r1B)⟩]
def head4 (s : Vec F S256x1 .f32) (x4 : Vec F S256x16 .f32) (x5 : Vec F S1x16 .f32) : Vec F S1x16 .f32 :=
  View.canon [⟨r3O, k3_pay4 (View.ld s r1B) (View.ld x4 r3D) (View.ld x5 r3O)⟩]

theorem coverS (p0 : Vec F S256x1 .f32) (y : S256x1.Idx) : ∃ pc ∈ ([⟨r1B, p0⟩] : List (View.Piece (Elt F) S256x1 .f32)), y ∈ pc.1.set :=
  View.cover_of_tiled [⟨r1B, p0⟩] S256x1.size (by rfl) y
theorem coverH (p0 : Vec F S1x16 .f32) (y : S1x16.Idx) : ∃ pc ∈ ([⟨r3O, p0⟩] : List (View.Piece (Elt F) S1x16 .f32)), y ∈ pc.1.set :=
  View.cover_of_tiled [⟨r3O, p0⟩] S1x16.size (by rfl) y

set_option maxHeartbeats 1000000 in
/-- At the first point: the scratch, whatever it held, is left at the first pooled sums; the output block is untouched. -/
theorem sound_kernel3_first (c : Dev nD) (E : Set ℕ) (i : grid3.Coords) (arg1 : Memref sig .tc .vmem S256x2048 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S1x16 .f32) (harg7 : arg7.IsWhole)
    (x0 : Vec F S256x2048 .f32) (x1 : Vec F S256x256 .f32) (x2 x3 : Vec F S256x1 .f32) (x4 : Vec F S256x16 .f32) (x5 : Vec F S1x16 .f32) (X : Vec F S1x16 .f32) (hc1 : k3c1 i = 1#1) (hc2 : ¬ k3c2 i = 1#1) (hc3 : ¬ k3_cond3 i = 1#1) (Kk : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare X ∗ (∃ s, owns (c : Thread nD τ) (Memref.whole cc3_scratch0 : Memref sig .tc .vmem S256x1 .f32) fullShare s)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare X ∗ owns (c : Thread nD τ) (Memref.whole cc3_scratch0 : Memref sig .tc .vmem S256x1 .f32) fullShare (pool0 i x0 x1 x2 x3)) -∗ Kk ⟨⟩))
      ⊢ wp frame (wpE (defs₀ (F := F)) Variants.none c none) E (cc3_body i arg1 harg1 arg2 harg2 arg3 harg3 arg4 harg4 arg5 harg5 arg6 harg6 arg7 harg7 (Memref.whole cc3_scratch0) (Memref.isWhole_whole _)) Kk := by
  rw [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%s, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  iexists _; isplitr
  swap; · iexact H7
  ipureintro
  exact View.read_writes_eq_canon _ _ _ (coverS _)

set_option maxHeartbeats 1000000 in
/-- At a middle point: the scratch at pooled sums `s` is left at `poolS … s`; the output block is untouched. -/
theorem sound_kernel3_mid (c : Dev nD) (E : Set ℕ) (i : grid3.Coords) (arg1 : Memref sig .tc .vmem S256x2048 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S1x16 .f32) (harg7 : arg7.IsWhole)
    (x0 : Vec F S256x2048 .f32) (x1 : Vec F S256x256 .f32) (x2 x3 : Vec F S256x1 .f32) (x4 : Vec F S256x16 .f32) (x5 : Vec F S1x16 .f32) (X : Vec F S1x16 .f32) (s : Vec F S256x1 .f32) (hc1 : ¬ k3c1 i = 1#1) (hc2 : k3c2 i = 1#1) (hc3 : ¬ k3_cond3 i = 1#1) (Kk : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare X ∗ owns (c : Thread nD τ) (Memref.whole cc3_scratch0 : Memref sig .tc .vmem S256x1 .f32) fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare X ∗ owns (c : Thread nD τ) (Memref.whole cc3_scratch0 : Memref sig .tc .vmem S256x1 .f32) fullShare (poolS i x0 x1 x2 x3 s)) -∗ Kk ⟨⟩))
      ⊢ wp frame (wpE (defs₀ (F := F)) Variants.none c none) E (cc3_body i arg1 harg1 arg2 harg2 arg3 harg3 arg4 harg4 arg5 harg5 arg6 harg6 arg7 harg7 (Memref.whole cc3_scratch0) (Memref.isWhole_whole _)) Kk := by
  rw [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0; subst hf1; subst hf2; subst hf3; subst hf4; subst hf5; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  iexists _; isplitr
  swap; · iexact H7
  ipureintro
  exact View.read_writes_eq_canon _ _ _ (coverS _)

set_option maxHeartbeats 1000000 in
/-- At the last point: the scratch at `s` is left at `poolS … s`, and the output block at the class scores of that. -/
theorem sound_kernel3_last (c : Dev nD) (E : Set ℕ) (i : grid3.Coords) (arg1 : Memref sig .tc .vmem S256x2048 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S1x16 .f32) (harg7 : arg7.IsWhole)
    (x0 : Vec F S256x2048 .f32) (x1 : Vec F S256x256 .f32) (x2 x3 : Vec F S256x1 .f32) (x4 : Vec F S256x16 .f32) (x5 : Vec F S1x16 .f32) (s : Vec F S256x1 .f32) (hc1 : ¬ k3c1 i = 1#1) (hc2 : k3c2 i = 1#1) (hc3 : k3_cond3 i = 1#1) (Kk : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X, owns (c : Thread nD τ) arg7 fullShare X) ∗ owns (c : Thread nD τ) (Memref.whole cc3_scratch0 : Memref sig .tc .vmem S256x1 .f32) fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (head4 (poolS i x0 x1 x2 x3 s) x4 x5) ∗ owns (c : Thread nD τ) (Memref.whole cc3_scratch0 : Memref sig .tc .vmem S256x1 .f32) fullShare (poolS i x0 x1 x2 x3 s)) -∗ Kk ⟨⟩))
      ⊢ wp frame (wpE (defs₀ (F := F)) Variants.none c none) E (cc3_body i arg1 harg1 arg2 harg2 arg3 harg3 arg4 harg4 arg5 harg5 arg6 harg6 arg7 harg7 (Memref.whole cc3_scratch0) (Memref.isWhole_whole _)) Kk := by
  rw [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%X, %f6, -, H6⟩, ⟨%f7, %hf7, H7⟩, Hk⟩
  subst hf0; subst hf1; subst hf2; subst hf3; subst hf4; subst hf5; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon']
    exact View.read_writes_eq_canon _ _ _ (coverH _)
  iexists _; isplitr
  swap; · iexact H7
  ipureintro
  exact View.read_writes_eq_canon _ _ _ (coverS _)

/-! ## The head's pipeline with values: blocks, the pooled sums point by point, the proof data -/

def iblk3 (Vv : (c : Dev nD) → (b : Ref sig .tc) → Buf (Elt F) ((c : Thread nD τ).loc b)) (c : Dev nD) (w : Fin cfg3.W) (t : Fin cfg3.N) :
    ((cfg3.win w).xblock (cfg3.grid.coords t)).Idx → Elt F (cfg3.win w).elt :=
  ((cfg3.win w).blk t).view.read (Elt F) (Vv c (Pipeline.arrRef spec3 w))

theorem before3_0_of (Vv : (c : Dev nD) → (b : Ref sig .tc) → Buf (Elt F) ((c : Thread nD τ).loc b)) {c : Dev nD}
    (dat : Dat τ (Elt F) (HIx 2) ℕ UU ℕ cfg3 c) (hA : dat.A 0 = Vv c (Pipeline.arrRef spec3 0))
    (hafter : ∀ t, dat.after 0 t = iblk3 Vv c 0 t) (t : Fin cfg3.N) (d) : dat.before 0 t d = iblk3 Vv c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of (Vv : (c : Dev nD) → (b : Ref sig .tc) → Buf (Elt F) ((c : Thread nD τ).loc b)) {c : Dev nD}
    (dat : Dat τ (Elt F) (HIx 2) ℕ UU ℕ cfg3 c) (hA : dat.A 1 = Vv c (Pipeline.arrRef spec3 1))
    (hafter : ∀ t, dat.after 1 t = iblk3 Vv c 1 t) (t : Fin cfg3.N) (d) : dat.before 1 t d = iblk3 Vv c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of (Vv : (c : Dev nD) → (b : Ref sig .tc) → Buf (Elt F) ((c : Thread nD τ).loc b)) {c : Dev nD}
    (dat : Dat τ (Elt F) (HIx 2) ℕ UU ℕ cfg3 c) (hA : dat.A 2 = Vv c (Pipeline.arrRef spec3 2))
    (hafter : ∀ t, dat.after 2 t = iblk3 Vv c 2 t) (t : Fin cfg3.N) (d) : dat.before 2 t d = iblk3 Vv c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of (Vv : (c : Dev nD) → (b : Ref sig .tc) → Buf (Elt F) ((c : Thread nD τ).loc b)) {c : Dev nD}
    (dat : Dat τ (Elt F) (HIx 2) ℕ UU ℕ cfg3 c) (hA : dat.A 3 = Vv c (Pipeline.arrRef spec3 3))
    (hafter : ∀ t, dat.after 3 t = iblk3 Vv c 3 t) (t : Fin cfg3.N) (d) : dat.before 3 t d = iblk3 Vv c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of (Vv : (c : Dev nD) → (b : Ref sig .tc) → Buf (Elt F) ((c : Thread nD τ).loc b)) {c : Dev nD}
    (dat : Dat τ (Elt F) (HIx 2) ℕ UU ℕ cfg3 c) (hA : dat.A 4 = Vv c (Pipeline.arrRef spec3 4))
    (hafter : ∀ t, dat.after 4 t = iblk3 Vv c 4 t) (t : Fin cfg3.N) (d) : dat.before 4 t d = iblk3 Vv c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of (Vv : (c : Dev nD) → (b : Ref sig .tc) → Buf (Elt F) ((c : Thread nD τ).loc b)) {c : Dev nD}
    (dat : Dat τ (Elt F) (HIx 2) ℕ UU ℕ cfg3 c) (hA : dat.A 5 = Vv c (Pipeline.arrRef spec3 5))
    (hafter : ∀ t, dat.after 5 t = iblk3 Vv c 5 t) (t : Fin cfg3.N) (d) : dat.before 5 t d = iblk3 Vv c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The pooling scratch before points 1 … 4 and after the last, and the class scores. -/
def pool1 (Vv : (c : Dev nD) → (b : Ref sig .tc) → Buf (Elt F) ((c : Thread nD τ).loc b)) (c : Dev nD) : Vec F S256x1 .f32 := pool0 (grid3.coords t3_0) (iblk3 Vv c 0 t3_0) (iblk3 Vv c 1 t3_0) (iblk3 Vv c 2 t3_0) (iblk3 Vv c 3 t3_0)
def pool2 (Vv : (c : Dev nD) → (b : Ref sig .tc) → Buf (Elt F) ((c : Thread nD τ).loc b)) (c : Dev nD) : Vec F S256x1 .f32 := poolS (grid3.coords t3_1) (iblk3 Vv c 0 t3_1) (iblk3 Vv c 1 t3_1) (iblk3 Vv c 2 t3_1) (iblk3 Vv c 3 t3_1) (pool1 Vv c)
def pool3 (Vv : (c : Dev nD) → (b : Ref sig .tc) → Buf (Elt F) ((c : Thread nD τ).loc b)) (c : Dev nD) : Vec F S256x1 .f32 := poolS (grid3.coords t3_2) (iblk3 Vv c 0 t3_2) (iblk3 Vv c 1 t3_2) (iblk3 Vv c 2 t3_2) (iblk3 Vv c 3 t3_2) (pool2 Vv c)
def pool4 (Vv : (c : Dev nD) → (b : Ref sig .tc) → Buf (Elt F) ((c : Thread nD τ).loc b)) (c : Dev nD) : Vec F S256x1 .f32 := poolS (grid3.coords t3_3) (iblk3 Vv c 0 t3_3) (iblk3 Vv c 1 t3_3) (iblk3 Vv c 2 t3_3) (iblk3 Vv c 3 t3_3) (pool3 Vv c)
def pool5 (Vv : (c : Dev nD) → (b : Ref sig .tc) → Buf (Elt F) ((c : Thread nD τ).loc b)) (c : Dev nD) : Vec F S256x1 .f32 := poolS (grid3.coords t3_4) (iblk3 Vv c 0 t3_4) (iblk3 Vv c 1 t3_4) (iblk3 Vv c 2 t3_4) (iblk3 Vv c 3 t3_4) (pool4 Vv c)
def outH (Vv : (c : Dev nD) → (b : Ref sig .tc) → Buf (Elt F) ((c : Thread nD τ).loc b)) (c : Dev nD) : Vec F S1x16 .f32 := head4 (pool5 Vv c) (iblk3 Vv c 4 t3_4) (iblk3 Vv c 5 t3_4)

/-- The core's scoped buffers that are neither a staging buffer of this pipeline nor the pooling scratch, at some contents each, and
    its generator register at some state. -/
def Φ3rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ ∃ r, prngReg c r)

/-- The pooling scratch, owned at contents `s`. -/
abbrev scrAt (c : Dev nD) (s : Vec F S256x1 .f32) : sProp 𝕄 := owns (c : Thread nD τ) (Memref.whole cc3_scratch0 : Memref sig .tc .vmem S256x1 .f32) fullShare s

/-- The region's invariant before point `t`: the rest, and the scratch — at some contents before the first point, then at the pooled sums. -/
def Φ3V (Vv : (c : Dev nD) → (b : Ref sig .tc) → Buf (Elt F) ((c : Thread nD τ).loc b)) (c : Dev nD) : Fin (cfg3.N + 1) → sProp 𝕄
  | ⟨0, _⟩ => iprop(Φ3rest (F := F) c ∗ ∃ s, scrAt c s)
  | ⟨1, _⟩ => iprop(Φ3rest (F := F) c ∗ scrAt c (pool1 Vv c))
  | ⟨2, _⟩ => iprop(Φ3rest (F := F) c ∗ scrAt c (pool2 Vv c))
  | ⟨3, _⟩ => iprop(Φ3rest (F := F) c ∗ scrAt c (pool3 Vv c))
  | ⟨4, _⟩ => iprop(Φ3rest (F := F) c ∗ scrAt c (pool4 Vv c))
  | ⟨_ + 5, _⟩ => iprop(Φ3rest (F := F) c ∗ scrAt c (pool5 Vv c))

def dat3V (Vv : (c : Dev nD) → (b : Ref sig .tc) → Buf (Elt F) ((c : Thread nD τ).loc b)) (c : Dev nD) : Dat τ (Elt F) (HIx 2) ℕ UU ℕ cfg3 c where
  A w := Vv c (Pipeline.arrRef spec3 w)
  after w t := match w with
    | ⟨0, _⟩ => iblk3 Vv c 0 t
    | ⟨1, _⟩ => iblk3 Vv c 1 t
    | ⟨2, _⟩ => iblk3 Vv c 2 t
    | ⟨3, _⟩ => iblk3 Vv c 3 t
    | ⟨4, _⟩ => iblk3 Vv c 4 t
    | ⟨5, _⟩ => iblk3 Vv c 5 t
    | ⟨6, _⟩ => outH Vv c
  Φ := Φ3V Vv c
  q _ := fullShare
  owed _ := (K (F := F)).Otc c 2
  recorded _ := {p | (K (F := F)).lev (T c, p.1) p.2 ≤ 16}

theorem A_eq3 (Vv : (c : Dev nD) → (b : Ref sig .tc) → Buf (Elt F) ((c : Thread nD τ).loc b)) (c : Dev nD) (w : Fin cfg3.W) : (dat3V Vv c).A w = Vv c (Pipeline.arrRef spec3 w) := by dsimp only [dat3V]
theorem after3_0 (Vv : (c : Dev nD) → (b : Ref sig .tc) → Buf (Elt F) ((c : Thread nD τ).loc b)) (c : Dev nD) (t : Fin cfg3.N) : (dat3V Vv c).after 0 t = iblk3 Vv c 0 t := by dsimp only [dat3V]
theorem after3_1 (Vv : (c : Dev nD) → (b : Ref sig .tc) → Buf (Elt F) ((c : Thread nD τ).loc b)) (c : Dev nD) (t : Fin cfg3.N) : (dat3V Vv c).after 1 t = iblk3 Vv c 1 t := by dsimp only [dat3V]
theorem after3_2 (Vv : (c : Dev nD) → (b : Ref sig .tc) → Buf (Elt F) ((c : Thread nD τ).loc b)) (c : Dev nD) (t : Fin cfg3.N) : (dat3V Vv c).after 2 t = iblk3 Vv c 2 t := by dsimp only [dat3V]
theorem after3_3 (Vv : (c : Dev nD) → (b : Ref sig .tc) → Buf (Elt F) ((c : Thread nD τ).loc b)) (c : Dev nD) (t : Fin cfg3.N) : (dat3V Vv c).after 3 t = iblk3 Vv c 3 t := by dsimp only [dat3V]
theorem after3_4 (Vv : (c : Dev nD) → (b : Ref sig .tc) → Buf (Elt F) ((c : Thread nD τ).loc b)) (c : Dev nD) (t : Fin cfg3.N) : (dat3V Vv c).after 4 t = iblk3 Vv c 4 t := by dsimp only [dat3V]
theorem after3_5 (Vv : (c : Dev nD) → (b : Ref sig .tc) → Buf (Elt F) ((c : Thread nD τ).loc b)) (c : Dev nD) (t : Fin cfg3.N) : (dat3V Vv c).after 5 t = iblk3 Vv c 5 t := by dsimp only [dat3V]
theorem after3_6 (Vv : (c : Dev nD) → (b : Ref sig .tc) → Buf (Elt F) ((c : Thread nD τ).loc b)) (c : Dev nD) (t : Fin cfg3.N) : (dat3V Vv c).after 6 t = outH Vv c := by dsimp only [dat3V]
theorem before3_0 (Vv : (c : Dev nD) → (b : Ref sig .tc) → Buf (Elt F) ((c : Thread nD τ).loc b)) (c : Dev nD) (t : Fin cfg3.N) (d) : (dat3V Vv c).before 0 t d = iblk3 Vv c 0 t :=
  before3_0_of Vv (dat3V Vv c) (A_eq3 Vv c 0) (after3_0 Vv c) t d
theorem before3_1 (Vv : (c : Dev nD) → (b : Ref sig .tc) → Buf (Elt F) ((c : Thread nD τ).loc b)) (c : Dev nD) (t : Fin cfg3.N) (d) : (dat3V Vv c).before 1 t d = iblk3 Vv c 1 t :=
  before3_1_of Vv (dat3V Vv c) (A_eq3 Vv c 1) (after3_1 Vv c) t d
theorem before3_2 (Vv : (c : Dev nD) → (b : Ref sig .tc) → Buf (Elt F) ((c : Thread nD τ).loc b)) (c : Dev nD) (t : Fin cfg3.N) (d) : (dat3V Vv c).before 2 t d = iblk3 Vv c 2 t :=
  before3_2_of Vv (dat3V Vv c) (A_eq3 Vv c 2) (after3_2 Vv c) t d
theorem before3_3 (Vv : (c : Dev nD) → (b : Ref sig .tc) → Buf (Elt F) ((c : Thread nD τ).loc b)) (c : Dev nD) (t : Fin cfg3.N) (d) : (dat3V Vv c).before 3 t d = iblk3 Vv c 3 t :=
  before3_3_of Vv (dat3V Vv c) (A_eq3 Vv c 3) (after3_3 Vv c) t d
theorem before3_4 (Vv : (c : Dev nD) → (b : Ref sig .tc) → Buf (Elt F) ((c : Thread nD τ).loc b)) (c : Dev nD) (t : Fin cfg3.N) (d) : (dat3V Vv c).before 4 t d = iblk3 Vv c 4 t :=
  before3_4_of Vv (dat3V Vv c) (A_eq3 Vv c 4) (after3_4 Vv c) t d
theorem before3_5 (Vv : (c : Dev nD) → (b : Ref sig .tc) → Buf (Elt F) ((c : Thread nD τ).loc b)) (c : Dev nD) (t : Fin cfg3.N) (d) : (dat3V Vv c).before 5 t d = iblk3 Vv c 5 t :=
  before3_5_of Vv (dat3V Vv c) (A_eq3 Vv c 5) (after3_5 Vv c) t d

/-! ## The three conditions at the five points, and the body obligation -/

theorem c1_0 : k3c1 (grid3.coords t3_0) = 1#1 := by decide +kernel
theorem c2_0 : ¬ k3c2 (grid3.coords t3_0) = 1#1 := by decide +kernel
theorem c3_0 : ¬ k3_cond3 (grid3.coords t3_0) = 1#1 := by decide +kernel
theorem c1_1 : ¬ k3c1 (grid3.coords t3_1) = 1#1 := by decide +kernel
theorem c2_1 : k3c2 (grid3.coords t3_1) = 1#1 := by decide +kernel
theorem c3_1 : ¬ k3_cond3 (grid3.coords t3_1) = 1#1 := by decide +kernel
theorem c1_2 : ¬ k3c1 (grid3.coords t3_2) = 1#1 := by decide +kernel
theorem c2_2 : k3c2 (grid3.coords t3_2) = 1#1 := by decide +kernel
theorem c3_2 : ¬ k3_cond3 (grid3.coords t3_2) = 1#1 := by decide +kernel
theorem c1_3 : ¬ k3c1 (grid3.coords t3_3) = 1#1 := by decide +kernel
theorem c2_3 : k3c2 (grid3.coords t3_3) = 1#1 := by decide +kernel
theorem c3_3 : ¬ k3_cond3 (grid3.coords t3_3) = 1#1 := by decide +kernel
theorem c1_4 : ¬ k3c1 (grid3.coords t3_4) = 1#1 := by decide +kernel
theorem c2_4 : k3c2 (grid3.coords t3_4) = 1#1 := by decide +kernel
theorem c3_4 : k3_cond3 (grid3.coords t3_4) = 1#1 := by decide +kernel

theorem sound_body3V_0 (Vv : (c : Dev nD) → (b : Ref sig .tc) → Buf (Elt F) ((c : Thread nD τ).loc b)) (c : Dev nD) :
    iprop((dat3V Vv c).Φ t3_0.castSucc ∗ (dat3V Vv c).owesAt (none : HIx 2) t3_0.castSucc
    ∗ (∃ d, owns (c : Thread nD τ) (st3_0 t3_0) fullShare ((dat3V Vv c).before 0 t3_0 d))
    ∗ (∃ d, owns (c : Thread nD τ) (st3_1 t3_0) fullShare ((dat3V Vv c).before 1 t3_0 d))
    ∗ (∃ d, owns (c : Thread nD τ) (st3_2 t3_0) fullShare ((dat3V Vv c).before 2 t3_0 d))
    ∗ (∃ d, owns (c : Thread nD τ) (st3_3 t3_0) fullShare ((dat3V Vv c).before 3 t3_0 d))
    ∗ (∃ d, owns (c : Thread nD τ) (st3_4 t3_0) fullShare ((dat3V Vv c).before 4 t3_0 d))
    ∗ (∃ d, owns (c : Thread nD τ) (st3_5 t3_0) fullShare ((dat3V Vv c).before 5 t3_0 d))
    ∗ (∃ d, owns (c : Thread nD τ) (st3_6 t3_0) fullShare ((dat3V Vv c).before 6 t3_0 d)))
      ⊢ wp frame (wpE (defs₀ (F := F)) Variants.none c none) Set.univ (bodyAt3 t3_0) fun _ =>
        iprop((dat3V Vv c).Φ t3_0.succ ∗ (dat3V Vv c).owesAt (none : HIx 2) t3_0.succ
      ∗ owns (c : Thread nD τ) (st3_0 t3_0) fullShare ((dat3V Vv c).after 0 t3_0)
      ∗ owns (c : Thread nD τ) (st3_1 t3_0) fullShare ((dat3V Vv c).after 1 t3_0)
      ∗ owns (c : Thread nD τ) (st3_2 t3_0) fullShare ((dat3V Vv c).after 2 t3_0)
      ∗ owns (c : Thread nD τ) (st3_3 t3_0) fullShare ((dat3V Vv c).after 3 t3_0)
      ∗ owns (c : Thread nD τ) (st3_4 t3_0) fullShare ((dat3V Vv c).after 4 t3_0)
      ∗ owns (c : Thread nD τ) (st3_5 t3_0) fullShare ((dat3V Vv c).after 5 t3_0)
      ∗ (∃ d, owns (c : Thread nD τ) (st3_6 t3_0) fullShare ((dat3V Vv c).before 6 t3_0 d))) := by
  simp only [before3_0, before3_1, before3_2, before3_3, before3_4, before3_5]
  rw [show (dat3V Vv c).Φ t3_0.castSucc = iprop(Φ3rest (F := F) c ∗ ∃ s, scrAt c s) from rfl, show (dat3V Vv c).Φ t3_0.succ = iprop(Φ3rest (F := F) c ∗ scrAt c (pool1 Vv c)) from rfl,
    show (dat3V Vv c).owesAt (none : HIx 2) t3_0.succ = (dat3V Vv c).owesAt (none : HIx 2) t3_0.castSucc from rfl,
    after3_0, after3_1, after3_2, after3_3, after3_4, after3_5]
  unfold bodyAt3
  iintro ⟨⟨Hrest, Hscr⟩, Ho, ⟨%d0, H0⟩, ⟨%d1, H1⟩, ⟨%d2, H2⟩, ⟨%d3, H3⟩, ⟨%d4, H4⟩, ⟨%d5, H5⟩, ⟨%d6, H6⟩⟩
  iapply (sound_kernel3_first (F := F) c Set.univ (grid3.coords t3_0) _ _ _ _ _ _ _ _ _ _ _ _ _ _ (iblk3 Vv c 0 t3_0) (iblk3 Vv c 1 t3_0) (iblk3 Vv c 2 t3_0) (iblk3 Vv c 3 t3_0) (iblk3 Vv c 4 t3_0) (iblk3 Vv c 5 t3_0) ((dat3V Vv c).before 6 t3_0 d6) c1_0 c2_0 c3_0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hrest Hscr]
  · isplitl [Hrest]; · iexact Hrest
    iexact Hscr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

theorem sound_body3V_1 (Vv : (c : Dev nD) → (b : Ref sig .tc) → Buf (Elt F) ((c : Thread nD τ).loc b)) (c : Dev nD) :
    iprop((dat3V Vv c).Φ t3_1.castSucc ∗ (dat3V Vv c).owesAt (none : HIx 2) t3_1.castSucc
    ∗ (∃ d, owns (c : Thread nD τ) (st3_0 t3_1) fullShare ((dat3V Vv c).before 0 t3_1 d))
    ∗ (∃ d, owns (c : Thread nD τ) (st3_1 t3_1) fullShare ((dat3V Vv c).before 1 t3_1 d))
    ∗ (∃ d, owns (c : Thread nD τ) (st3_2 t3_1) fullShare ((dat3V Vv c).before 2 t3_1 d))
    ∗ (∃ d, owns (c : Thread nD τ) (st3_3 t3_1) fullShare ((dat3V Vv c).before 3 t3_1 d))
    ∗ (∃ d, owns (c : Thread nD τ) (st3_4 t3_1) fullShare ((dat3V Vv c).before 4 t3_1 d))
    ∗ (∃ d, owns (c : Thread nD τ) (st3_5 t3_1) fullShare ((dat3V Vv c).before 5 t3_1 d))
    ∗ (∃ d, owns (c : Thread nD τ) (st3_6 t3_1) fullShare ((dat3V Vv c).before 6 t3_1 d)))
      ⊢ wp frame (wpE (defs₀ (F := F)) Variants.none c none) Set.univ (bodyAt3 t3_1) fun _ =>
        iprop((dat3V Vv c).Φ t3_1.succ ∗ (dat3V Vv c).owesAt (none : HIx 2) t3_1.succ
      ∗ owns (c : Thread nD τ) (st3_0 t3_1) fullShare ((dat3V Vv c).after 0 t3_1)
      ∗ owns (c : Thread nD τ) (st3_1 t3_1) fullShare ((dat3V Vv c).after 1 t3_1)
      ∗ owns (c : Thread nD τ) (st3_2 t3_1) fullShare ((dat3V Vv c).after 2 t3_1)
      ∗ owns (c : Thread nD τ) (st3_3 t3_1) fullShare ((dat3V Vv c).after 3 t3_1)
      ∗ owns (c : Thread nD τ) (st3_4 t3_1) fullShare ((dat3V Vv c).after 4 t3_1)
      ∗ owns (c : Thread nD τ) (st3_5 t3_1) fullShare ((dat3V Vv c).after 5 t3_1)
      ∗ (∃ d, owns (c : Thread nD τ) (st3_6 t3_1) fullShare ((dat3V Vv c).before 6 t3_1 d))) := by
  simp only [before3_0, before3_1, before3_2, before3_3, before3_4, before3_5]
  rw [show (dat3V Vv c).Φ t3_1.castSucc = iprop(Φ3rest (F := F) c ∗ scrAt c (pool1 Vv c)) from rfl, show (dat3V Vv c).Φ t3_1.succ = iprop(Φ3rest (F := F) c ∗ scrAt c (pool2 Vv c)) from rfl,
    show (dat3V Vv c).owesAt (none : HIx 2) t3_1.succ = (dat3V Vv c).owesAt (none : HIx 2) t3_1.castSucc from rfl,
    after3_0, after3_1, after3_2, after3_3, after3_4, after3_5]
  unfold bodyAt3
  iintro ⟨⟨Hrest, Hscr⟩, Ho, ⟨%d0, H0⟩, ⟨%d1, H1⟩, ⟨%d2, H2⟩, ⟨%d3, H3⟩, ⟨%d4, H4⟩, ⟨%d5, H5⟩, ⟨%d6, H6⟩⟩
  iapply (sound_kernel3_mid (F := F) c Set.univ (grid3.coords t3_1) _ _ _ _ _ _ _ _ _ _ _ _ _ _ (iblk3 Vv c 0 t3_1) (iblk3 Vv c 1 t3_1) (iblk3 Vv c 2 t3_1) (iblk3 Vv c 3 t3_1) (iblk3 Vv c 4 t3_1) (iblk3 Vv c 5 t3_1) ((dat3V Vv c).before 6 t3_1 d6) (pool1 Vv c) c1_1 c2_1 c3_1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hrest Hscr]
  · isplitl [Hrest]; · iexact Hrest
    iexact Hscr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

theorem sound_body3V_2 (Vv : (c : Dev nD) → (b : Ref sig .tc) → Buf (Elt F) ((c : Thread nD τ).loc b)) (c : Dev nD) :
    iprop((dat3V Vv c).Φ t3_2.castSucc ∗ (dat3V Vv c).owesAt (none : HIx 2) t3_2.castSucc
    ∗ (∃ d, owns (c : Thread nD τ) (st3_0 t3_2) fullShare ((dat3V Vv c).before 0 t3_2 d))
    ∗ (∃ d, owns (c : Thread nD τ) (st3_1 t3_2) fullShare ((dat3V Vv c).before 1 t3_2 d))
    ∗ (∃ d, owns (c : Thread nD τ) (st3_2 t3_2) fullShare ((dat3V Vv c).before 2 t3_2 d))
    ∗ (∃ d, owns (c : Thread nD τ) (st3_3 t3_2) fullShare ((dat3V Vv c).before 3 t3_2 d))
    ∗ (∃ d, owns (c : Thread nD τ) (st3_4 t3_2) fullShare ((dat3V Vv c).before 4 t3_2 d))
    ∗ (∃ d, owns (c : Thread nD τ) (st3_5 t3_2) fullShare ((dat3V Vv c).before 5 t3_2 d))
    ∗ (∃ d, owns (c : Thread nD τ) (st3_6 t3_2) fullShare ((dat3V Vv c).before 6 t3_2 d)))
      ⊢ wp frame (wpE (defs₀ (F := F)) Variants.none c none) Set.univ (bodyAt3 t3_2) fun _ =>
        iprop((dat3V Vv c).Φ t3_2.succ ∗ (dat3V Vv c).owesAt (none : HIx 2) t3_2.succ
      ∗ owns (c : Thread nD τ) (st3_0 t3_2) fullShare ((dat3V Vv c).after 0 t3_2)
      ∗ owns (c : Thread nD τ) (st3_1 t3_2) fullShare ((dat3V Vv c).after 1 t3_2)
      ∗ owns (c : Thread nD τ) (st3_2 t3_2) fullShare ((dat3V Vv c).after 2 t3_2)
      ∗ owns (c : Thread nD τ) (st3_3 t3_2) fullShare ((dat3V Vv c).after 3 t3_2)
      ∗ owns (c : Thread nD τ) (st3_4 t3_2) fullShare ((dat3V Vv c).after 4 t3_2)
      ∗ owns (c : Thread nD τ) (st3_5 t3_2) fullShare ((dat3V Vv c).after 5 t3_2)
      ∗ (∃ d, owns (c : Thread nD τ) (st3_6 t3_2) fullShare ((dat3V Vv c).before 6 t3_2 d))) := by
  simp only [before3_0, before3_1, before3_2, before3_3, before3_4, before3_5]
  rw [show (dat3V Vv c).Φ t3_2.castSucc = iprop(Φ3rest (F := F) c ∗ scrAt c (pool2 Vv c)) from rfl, show (dat3V Vv c).Φ t3_2.succ = iprop(Φ3rest (F := F) c ∗ scrAt c (pool3 Vv c)) from rfl,
    show (dat3V Vv c).owesAt (none : HIx 2) t3_2.succ = (dat3V Vv c).owesAt (none : HIx 2) t3_2.castSucc from rfl,
    after3_0, after3_1, after3_2, after3_3, after3_4, after3_5]
  unfold bodyAt3
  iintro ⟨⟨Hrest, Hscr⟩, Ho, ⟨%d0, H0⟩, ⟨%d1, H1⟩, ⟨%d2, H2⟩, ⟨%d3, H3⟩, ⟨%d4, H4⟩, ⟨%d5, H5⟩, ⟨%d6, H6⟩⟩
  iapply (sound_kernel3_mid (F := F) c Set.univ (grid3.coords t3_2) _ _ _ _ _ _ _ _ _ _ _ _ _ _ (iblk3 Vv c 0 t3_2) (iblk3 Vv c 1 t3_2) (iblk3 Vv c 2 t3_2) (iblk3 Vv c 3 t3_2) (iblk3 Vv c 4 t3_2) (iblk3 Vv c 5 t3_2) ((dat3V Vv c).before 6 t3_2 d6) (pool2 Vv c) c1_2 c2_2 c3_2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hrest Hscr]
  · isplitl [Hrest]; · iexact Hrest
    iexact Hscr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

theorem sound_body3V_3 (Vv : (c : Dev nD) → (b : Ref sig .tc) → Buf (Elt F) ((c : Thread nD τ).loc b)) (c : Dev nD) :
    iprop((dat3V Vv c).Φ t3_3.castSucc ∗ (dat3V Vv c).owesAt (none : HIx 2) t3_3.castSucc
    ∗ (∃ d, owns (c : Thread nD τ) (st3_0 t3_3) fullShare ((dat3V Vv c).before 0 t3_3 d))
    ∗ (∃ d, owns (c : Thread nD τ) (st3_1 t3_3) fullShare ((dat3V Vv c).before 1 t3_3 d))
    ∗ (∃ d, owns (c : Thread nD τ) (st3_2 t3_3) fullShare ((dat3V Vv c).before 2 t3_3 d))
    ∗ (∃ d, owns (c : Thread nD τ) (st3_3 t3_3) fullShare ((dat3V Vv c).before 3 t3_3 d))
    ∗ (∃ d, owns (c : Thread nD τ) (st3_4 t3_3) fullShare ((dat3V Vv c).before 4 t3_3 d))
    ∗ (∃ d, owns (c : Thread nD τ) (st3_5 t3_3) fullShare ((dat3V Vv c).before 5 t3_3 d))
    ∗ (∃ d, owns (c : Thread nD τ) (st3_6 t3_3) fullShare ((dat3V Vv c).before 6 t3_3 d)))
      ⊢ wp frame (wpE (defs₀ (F := F)) Variants.none c none) Set.univ (bodyAt3 t3_3) fun _ =>
        iprop((dat3V Vv c).Φ t3_3.succ ∗ (dat3V Vv c).owesAt (none : HIx 2) t3_3.succ
      ∗ owns (c : Thread nD τ) (st3_0 t3_3) fullShare ((dat3V Vv c).after 0 t3_3)
      ∗ owns (c : Thread nD τ) (st3_1 t3_3) fullShare ((dat3V Vv c).after 1 t3_3)
      ∗ owns (c : Thread nD τ) (st3_2 t3_3) fullShare ((dat3V Vv c).after 2 t3_3)
      ∗ owns (c : Thread nD τ) (st3_3 t3_3) fullShare ((dat3V Vv c).after 3 t3_3)
      ∗ owns (c : Thread nD τ) (st3_4 t3_3) fullShare ((dat3V Vv c).after 4 t3_3)
      ∗ owns (c : Thread nD τ) (st3_5 t3_3) fullShare ((dat3V Vv c).after 5 t3_3)
      ∗ (∃ d, owns (c : Thread nD τ) (st3_6 t3_3) fullShare ((dat3V Vv c).before 6 t3_3 d))) := by
  simp only [before3_0, before3_1, before3_2, before3_3, before3_4, before3_5]
  rw [show (dat3V Vv c).Φ t3_3.castSucc = iprop(Φ3rest (F := F) c ∗ scrAt c (pool3 Vv c)) from rfl, show (dat3V Vv c).Φ t3_3.succ = iprop(Φ3rest (F := F) c ∗ scrAt c (pool4 Vv c)) from rfl,
    show (dat3V Vv c).owesAt (none : HIx 2) t3_3.succ = (dat3V Vv c).owesAt (none : HIx 2) t3_3.castSucc from rfl,
    after3_0, after3_1, after3_2, after3_3, after3_4, after3_5]
  unfold bodyAt3
  iintro ⟨⟨Hrest, Hscr⟩, Ho, ⟨%d0, H0⟩, ⟨%d1, H1⟩, ⟨%d2, H2⟩, ⟨%d3, H3⟩, ⟨%d4, H4⟩, ⟨%d5, H5⟩, ⟨%d6, H6⟩⟩
  iapply (sound_kernel3_mid (F := F) c Set.univ (grid3.coords t3_3) _ _ _ _ _ _ _ _ _ _ _ _ _ _ (iblk3 Vv c 0 t3_3) (iblk3 Vv c 1 t3_3) (iblk3 Vv c 2 t3_3) (iblk3 Vv c 3 t3_3) (iblk3 Vv c 4 t3_3) (iblk3 Vv c 5 t3_3) ((dat3V Vv c).before 6 t3_3 d6) (pool3 Vv c) c1_3 c2_3 c3_3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hscr]; · iexact Hscr
  iintro ⟨H0, H1, H2, H3, H4, H5, H6, Hscr⟩
  isplitl [Hrest Hscr]
  · isplitl [Hrest]; · iexact Hrest
    iexact Hscr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

theorem sound_body3V_4 (Vv : (c : Dev nD) → (b : Ref sig .tc) → Buf (Elt F) ((c : Thread nD τ).loc b)) (c : Dev nD) :
    iprop((dat3V Vv c).Φ t3_4.castSucc ∗ (dat3V Vv c).owesAt (none : HIx 2) t3_4.castSucc
    ∗ (∃ d, owns (c : Thread nD τ) (st3_0 t3_4) fullShare ((dat3V Vv c).before 0 t3_4 d))
    ∗ (∃ d, owns (c : Thread nD τ) (st3_1 t3_4) fullShare ((dat3V Vv c).before 1 t3_4 d))
    ∗ (∃ d, owns (c : Thread nD τ) (st3_2 t3_4) fullShare ((dat3V Vv c).before 2 t3_4 d))
    ∗ (∃ d, owns (c : Thread nD τ) (st3_3 t3_4) fullShare ((dat3V Vv c).before 3 t3_4 d))
    ∗ (∃ d, owns (c : Thread nD τ) (st3_4 t3_4) fullShare ((dat3V Vv c).before 4 t3_4 d))
    ∗ (∃ d, owns (c : Thread nD τ) (st3_5 t3_4) fullShare ((dat3V Vv c).before 5 t3_4 d))
    ∗ (∃ d, owns (c : Thread nD τ) (st3_6 t3_4) fullShare ((dat3V Vv c).before 6 t3_4 d)))
      ⊢ wp frame (wpE (defs₀ (F := F)) Variants.none c none) Set.univ (bodyAt3 t3_4) fun _ =>
        iprop((dat3V Vv c).Φ t3_4.succ ∗ (dat3V Vv c).owesAt (none : HIx 2) t3_4.succ
      ∗ owns (c : Thread nD τ) (st3_0 t3_4) fullShare ((dat3V Vv c).after 0 t3_4)
      ∗ owns (c : Thread nD τ) (st3_1 t3_4) fullShare ((dat3V Vv c).after 1 t3_4)
      ∗ owns (c : Thread nD τ) (st3_2 t3_4) fullShare ((dat3V Vv c).after 2 t3_4)
      ∗ owns (c : Thread nD τ) (st3_3 t3_4) fullShare ((dat3V Vv c).after 3 t3_4)
      ∗ owns (c : Thread nD τ) (st3_4 t3_4) fullShare ((dat3V Vv c).after 4 t3_4)
      ∗ owns (c : Thread nD τ) (st3_5 t3_4) fullShare ((dat3V Vv c).after 5 t3_4)
      ∗ owns (c : Thread nD τ) (st3_6 t3_4) fullShare ((dat3V Vv c).after 6 t3_4)) := by
  simp only [before3_0, before3_1, before3_2, before3_3, before3_4, before3_5]
  rw [show (dat3V Vv c).Φ t3_4.castSucc = iprop(Φ3rest (F := F) c ∗ scrAt c (pool4 Vv c)) from rfl, show (dat3V Vv c).Φ t3_4.succ = iprop(Φ3rest (F := F) c ∗ scrAt c (pool5 Vv c)) from rfl,
    show (dat3V Vv c).owesAt (none : HIx 2) t3_4.succ = (dat3V Vv c).owesAt (none : HIx 2) t3_4.castSucc from rfl,
    after3_0, after3_1, after3_2, after3_3, after3_4, after3_5, after3_6]
  unfold bodyAt3
  iintro ⟨⟨Hrest, Hscr⟩, Ho, ⟨%d0, H0⟩, ⟨%d1, H1⟩, ⟨%d2, H2⟩, ⟨%d3, H3⟩, ⟨%d4, H4⟩, ⟨%d5, H5⟩, ⟨%d6, H6⟩⟩
  iapply (sound_kernel3_last (F := F) c Set.univ (grid3.coords t3_4) _ _ _ _ _ _ _ _ _ _ _ _ _ _ (iblk3 Vv c 0 t3_4) (iblk3 Vv c 1 t3_4) (iblk3 Vv c 2 t3_4) (iblk3 Vv c 3 t3_4) (iblk3 Vv c 4 t3_4) (iblk3 Vv c 5 t3_4) (pool4 Vv c) c1_4 c2_4 c3_4 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hscr]; · iexact Hscr
  iintro ⟨H0, H1, H2, H3, H4, H5, H6, Hscr⟩
  isplitl [Hrest Hscr]
  · isplitl [Hrest]; · iexact Hrest
    iexact Hscr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3V (Vv : (c : Dev nD) → (b : Ref sig .tc) → Buf (Elt F) ((c : Thread nD τ).loc b)) (c : Dev nD) :
    BodyObligation (dat3V (F := F) Vv c) (defs₀ (F := F)) Variants.none (none : HIx 2) Set.univ := fun t => by
  rw [bigSep_W3]
  try rw [bigSep_W3]
  rcases fin_N3 t with rfl | rfl | rfl | rfl | rfl
  · exact sound_body3V_0 Vv c
  · exact sound_body3V_1 Vv c
  · exact sound_body3V_2 Vv c
  · exact sound_body3V_3 Vv c
  · exact sound_body3V_4 Vv c

/-! ## The contents at the region's exit, the proof data family, the region -/

omit [FloatOps F] in
theorem scr_pts (c : Dev nD) (f : Buf (Elt F) ((c : Thread nD τ).loc cc3_scratch0)) :
    (((c : Thread nD τ).loc cc3_scratch0) ↦{fullShare} f : sProp 𝕄)
      = ((Memref.whole cc3_scratch0 : Memref sig .tc .vmem S256x1 .f32).view.loc (c : Thread nD τ) ↦[(Memref.whole cc3_scratch0 : Memref sig .tc .vmem S256x1 .f32).view.set]{fullShare} f) := by
  rw [show (Memref.whole cc3_scratch0 : Memref sig .tc .vmem S256x1 .f32).view.set = Finset.univ from View.set_whole _]

def r1W2 (Wc : Dev nD → Valuation τ sig (Elt F)) (c : Dev nD) : Valuation τ sig (Elt F) :=
  Pipeline.withArrays spec3 c (Wc c) fun w => (dat3V (r0V Wc) c).arrAt w cfg3.N
theorem r1W2_arr (Wc : Dev nD → Valuation τ sig (Elt F)) (c : Dev nD) (w : Fin cfg3.W) :
    r1W2 Wc c (Proc.devRef .tc (Pipeline.arrRef spec3 w)) = (dat3V (r0V Wc) c).arrAt w cfg3.N := by
  unfold r1W2; exact Pipeline.withArrays_arr spec3 launch3.win.arr_inj c _ _ w
theorem r1W2_of_ne (Wc : Dev nD → Valuation τ sig (Elt F)) (c : Dev nD) (b : Ref sig .tc) (hb : ∀ w, Pipeline.arrRef spec3 w ≠ b) :
    r1W2 Wc c (Proc.devRef .tc b) = Wc c (Proc.devRef .tc b) := by
  unfold r1W2; exact Pipeline.withArrays_of_ne spec3 c _ _ b hb
abbrev r1V2 (Wc : Dev nD → Valuation τ sig (Elt F)) : (c : Dev nD) → (b : Ref sig .tc) → Buf (Elt F) ((c : Thread nD τ).loc b) := fun c b => r1W2 Wc c b
theorem r1hF (Wc : Dev nD → Valuation τ sig (Elt F)) (c : Dev nD) (w : Fin cfg3.W) : (dat3V (r0V Wc) c).arrAt w cfg3.N = r1V2 Wc c (Pipeline.arrRef spec3 w) :=
  (r1W2_arr Wc c w).symm
theorem r1hrest (Wc : Dev nD → Valuation τ sig (Elt F)) (c : Dev nD) : ∀ b, b ∉ Finset.univ.image (Pipeline.arrRef spec3) → r1V2 Wc c b = r0V Wc c b :=
  fun b hb => r1W2_of_ne Wc c b fun w e => hb (Finset.mem_image.mpr ⟨w, Finset.mem_univ _, e⟩)

def r1pdatsV (Wc : Dev nD → Valuation τ sig (Elt F)) : (p : Fin 2) → (c : Dev nD) → Dat τ (Elt F) (HIx 2) ℕ UU ℕ (Pipeline.pin (pcfgs (F := F)) adm p) c
  | ⟨0, _⟩ => fun c => dat1 (r0V Wc) c
  | ⟨1, _⟩ => fun c => dat3V (r0V Wc) c

set_option backward.isDefEq.respectTransparency.types false in
/-- The head's region with values: entered from every unscoped buffer at `Wc`, left at `r1W2 Wc`. -/
def reg1V (Wc : Dev nD → Valuation τ sig (Elt F)) :
    Pipeline.RegionSeg (pcfgs (F := F)) adm (r1pdatsV Wc) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3V (r0V Wc) c).loose
  hwaits c := Pipeline.cellsWaits_of_cut (Pipeline.pin (pcfgs (F := F)) adm) (r1pdatsV Wc) (none : HIx 2) 1 c 16 ((K (F := F)).Otc c 2) (fun _ => rfl)
    (fun _ _ => Finset.mem_univ _) (fun _ _ => Nat.zero_le _)
    (fun g i h => ⟨Finset.mem_univ _, by have := SparseCore.Cfg.lev_of_Otc_pos (K := K (F := F)) h; omega⟩)
  pre c := iprop(StableHlo.held (c : Thread nD τ) (Pipeline.ucRefs τ sig) (Wc c) ∗ r1Ride (F := F) c)
  post c := iprop(StableHlo.held (c : Thread nD τ) (Pipeline.ucRefs τ sig) (r1W2 Wc c) ∗ r1Ride (F := F) c)
  X c := iprop(∃ r, prngReg c r)
  Y c := iprop(∃ r, prngReg c r)
  Z c := Pipeline.unscopedRest (Ix := HIx 2) (Name := ℕ) (U := UU) (Lvl := ℕ) spec3 c (r0V Wc c)
  hentry c := by
    rw [Pipeline.ownSems0_none]
    have hsplit := Pipeline.arrays_of_unscopedBufs (p := 1) (pcfgs (F := F)) adm (r1pdatsV Wc) launch3.win launch3.arr_whole c
      ((r1pdatsV Wc 1 c).share_full fun _ => rfl) (r0V Wc c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (r1pdatsV Wc 1 c).Φ 0 = iprop(Φ3rest (F := F) c ∗ ∃ s, scrAt c s) from rfl]
    show iprop((∃ r, prngReg c r) ∗ Pipeline.prefHeld (pcfgs (F := F) 1).pre c (fun _ => fullShare) (adm (F := F) 1).1 ∗ Pipeline.scopedRest (Ix := HIx 2) (Name := ℕ) (U := UU) (Lvl := ℕ) (Val := Elt F) spec3 c) ⊢ _
    rw [scopedRest3_eq]; unfold Φ3rest
    iintro ⟨Hp, -, Hr0, Hr1, Hr2, Hr3, Hr4, Hr5, Hr6, ⟨%f, Hscr⟩⟩
    isplitl [Hr0 Hr1 Hr2 Hr3 Hr4 Hr5 Hr6 Hp]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hp
    iexists ((Memref.whole cc3_scratch0 : Memref sig .tc .vmem S256x1 .f32).view.read (Elt F) f)
    unfold scrAt owns
    iexists f; isplitr; · ipureintro; rfl
    iapply (Entails.of_eq (scr_pts (F := F) c f)); iexact Hscr
  hout c := by
    rw [Pipeline.ownSems0_none, show (r1pdatsV Wc 1 c).Φ (Fin.last _) = iprop(Φ3rest (F := F) c ∗ scrAt c (pool5 (r0V Wc) c)) from rfl]
    show _ ⊢ iprop((∃ r, prngReg c r) ∗ BI.emp ∗ Pipeline.scopedRest (Ix := HIx 2) (Name := ℕ) (U := UU) (Lvl := ℕ) (Val := Elt F) spec3 c)
    rw [scopedRest3_eq]; unfold Φ3rest
    iintro ⟨⟨Hr0, Hr1, Hr2, Hr3, Hr4, Hr5, Hr6, Hp⟩, Hscr⟩
    isplitl [Hp]; · iexact Hp
    isplitr; · iempintro
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    unfold scrAt owns
    icases Hscr with ⟨%f, -, Hscr⟩
    iexists f
    iapply (Entails.of_eq (scr_pts (F := F) c f).symm); iexact Hscr
  hexit c := by
    have hjoin := Pipeline.unscopedBufs_of_arrays (p := 1) (pcfgs (F := F)) adm (Ix := HIx 2) (Name := ℕ) (U := UU) (Lvl := ℕ)
      launch3.win launch3.arr_whole c (r1pdatsV Wc) ((r1pdatsV Wc 1 c).share_full fun _ => rfl)
      (r0V Wc c) (r1V2 Wc c) ((r1pdatsV Wc 1 c).arrAt · cfg3.N) (r1hF Wc c) (r1hrest Wc c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ 8 * 2
        rw [SparseCore.Cfg.lev_none]; exact Nat.zero_le _
    · iexact HO

/-! ## The head's step over a definite valuation, and its result read at an index -/

/-- The TensorCore's buffers after the head's region, entered at `Wc`. -/
abbrev reg1Out (Wc : Valuation τ sig (Elt F)) (d : Dev nD) : Valuation τ sig (Elt F) := r1W2 (fun _ => Wc) d

theorem reg1Out_of_ne (Wc : Valuation τ sig (Elt F)) (d : Dev nD) (b : Ref sig .tc) (hb : ∀ w, Pipeline.arrRef spec3 w ≠ b) :
    reg1Out Wc d (Proc.devRef .tc b) = Wc (Proc.devRef .tc b) := r1W2_of_ne (fun _ => Wc) d b hb

theorem reg1Out_arr (Wc : Valuation τ sig (Elt F)) (d : Dev nD) (w : Fin cfg3.W) :
    reg1Out Wc d (Proc.devRef .tc (Pipeline.arrRef spec3 w)) = (dat3V (r0V fun _ => Wc) d).arrAt w cfg3.N := r1W2_arr (fun _ => Wc) d w

set_option backward.isDefEq.respectTransparency.types false in
theorem reg1_stepV (P' : (K (F := F)).Pay (nD := nD) (Val := Elt F) (Name := ℕ) (U := UU)) (κ : GSem nD τ sig → ℕ) (d : Dev nD) (Wc : Valuation τ sig (Elt F)) (Φ : PUnit → sProp 𝕄) :
    iprop((K (F := F)).ctx EH P' κ ∗ (K (F := F)).tcSt EH d 2 ∗ boundary (SparseCore.T d)
        ∗ StableHlo.held (SparseCore.T d) (Pipeline.ucRefs τ sig) Wc ∗ Aux (F := F) d ∗ ghost (F := F) 1 d
        ∗ (((K (F := F)).tcSt EH d 2 ∗ boundary (SparseCore.T d) ∗ StableHlo.held (SparseCore.T d) (Pipeline.ucRefs τ sig) (reg1Out Wc d) ∗ Aux (F := F) d) -∗ Φ ⟨⟩))
      ⊢ wp frame (wpE ((K (F := F)).defs (D (F := F))) 𝒱 (SparseCore.T d) none) Set.univ (Prog.lift (.customCall (SparseCore.inner (Pipeline.entry 1)) ())) Φ := by
  unfold Aux ghost SparseCore.Cfg.tcSt
  iintro ⟨#Hctx, ⟨HOw, Hst⟩, Hb, Hh, ⟨Hsems, Hp⟩, ⟨Hg, Ht⟩, Hk⟩
  ihave Hlv := (SparseCore.Cfg.ctx_levAts (K := K (F := F)) (EH := EH) (P := P') κ) $$ Hctx
  iapply ((K (F := F)).wp_liftProg (D (F := F)) 𝒱 (SparseCore.T d) Set.univ none (Prog.lift (.customCall (Pipeline.entry 1) ())) Φ)
  iapply (Pipeline.RegionSeg.wp (pcfgs (F := F)) adm (r1pdatsV (fun _ => Wc)) (none : HIx 2) cellOf_inj (EP (F := F)) defs₀ 𝒱₀ (K (F := F)).L (K (F := F)).lev
    (reg1V (F := F) (fun _ => Wc)) d none (fun u hu => nomatch hu) (fun _ => .ret ⟨⟩) Φ) $$ [HOw Hst Hb Hh Hsems Hp Hg Ht Hk Hlv]
  isplitl [Hst Hsems Hk]
  · iintro ⟨Hb, Hpost⟩
    ihave Hpost := (show ((reg1V (F := F) fun _ => Wc).post d : sProp 𝕄)
        ⊢ iprop(StableHlo.held (d : Thread nD τ) (Pipeline.ucRefs τ sig) (r1W2 (fun _ => Wc) d) ∗ r1Ride (F := F) d) from .rfl) $$ Hpost
    icases Hpost with ⟨Hh, Hp, HOw⟩
    rw [wp_ret]; imodintro
    iapply Hk
    isplitl [HOw Hst]
    · isplitl [HOw]; · iexact HOw
      iexact Hst
    isplitl [Hb]; · iexact Hb
    isplitl [Hh]; · iexact Hh
    isplitl [Hsems]; · iexact Hsems
    iexact Hp
  isplitl [Hb]; · iexact Hb
  isplitl [Hh Hp HOw]
  · iapply (show iprop(StableHlo.held (d : Thread nD τ) (Pipeline.ucRefs τ sig) Wc ∗ r1Ride (F := F) d)
        ⊢ ((reg1V (F := F) fun _ => Wc).pre d : sProp 𝕄) from .rfl)
    isplitl [Hh]; · iexact Hh
    isplitl [Hp]; · iexact Hp
    iexact HOw
  isplitr; · iexact Hlv
  isplitl [Hg]; · iexact Hg
  iexact Ht

/-- Only the last point writes the output block back, so no two flushing points' blocks meet. -/
theorem disjoint3_6 : ∀ t t' : Fin cfg3.N, (cfg3.win 6).flush t = true → (cfg3.win 6).flush t' = true → t ≠ t' →
    Disjoint ((cfg3.win 6).blk t).view.set ((cfg3.win 6).blk t').view.set := by
  intro t t' h h' hne
  have e := (flush3_6 t).mp h
  have e' := (flush3_6 t').mp h'
  have ht := t.isLt; have ht' := t'.isLt
  have hN : cfg3.N = 5 := N_3
  exact absurd (Fin.ext (by omega)) hne

/-- The class scores the region leaves: the last point's block, read back, is what it wrote. -/
theorem reg1Out_v20 (Wc : Valuation τ sig (Elt F)) (d : Dev nD) (l : Fin 16) :
    reg1Out Wc d (Proc.devRef .tc main_v20) (ix2 (0 : Fin 1) l) = outH (r0V fun _ => Wc) d (ix2 (0 : Fin 1) l) := by
  have e0 : reg1Out Wc d (Proc.devRef .tc main_v20) = (dat3V (r0V fun _ => Wc) d).arrAt 6 cfg3.N := reg1Out_arr Wc d 6
  have hb : ((cfg3.win 6).blk t3_4).view.read (Elt F) ((dat3V (r0V fun _ => Wc) d).arrAt 6 cfg3.N) = (dat3V (r0V fun _ => Wc) d).flushed 6 t3_4 :=
    (dat3V (r0V fun _ => Wc) d).read_blk_arrAt_eq_flushed 6 disjoint3_6 cfg3.N t3_4 t3_4.isLt ((flush3_6 t3_4).mpr (by decide))
  have hf : (dat3V (r0V fun _ => Wc) d).flushed 6 t3_4 = outH (r0V fun _ => Wc) d := by
    show (cfg3.win 6).cut (grid3.coords t3_4) ((dat3V (r0V fun _ => Wc) d).after 6 t3_4) = _
    rw [after3_6]; rfl
  rw [e0, ← hf, ← hb, View.read_apply, cast_eq]
  congr 1
  funext a
  apply Fin.ext
  match a with
  | ⟨0, _⟩ => rfl
  | ⟨1, _⟩ =>
    show l.val = win3_6.index t3_4 (1 : Fin 2) * 16 + 1 * l.val
    have e : win3_6.index t3_4 (1 : Fin 2) = 0 := by decide +kernel
    rw [e]; omega

/-- The pooled sums and the class scores, with the whole-block reads opened. -/
theorem pool1_eq (Vv : (c : Dev nD) → (b : Ref sig .tc) → Buf (Elt F) ((c : Thread nD τ).loc b)) (c : Dev nD) : pool1 Vv c = k3_pay2 (grid3.coords t3_0) (iblk3 Vv c 1 t3_0) (iblk3 Vv c 0 t3_0) (iblk3 Vv c 2 t3_0) (iblk3 Vv c 3 t3_0) := by
  unfold pool1 pool0
  rw [View.canon_unit_zero hz1]
  simp only [View.ld_unit_zero (S := S256x256) hz1, View.ld_unit_zero (S := S256x2048) hz1, View.ld_unit_zero (S := S256x1) hz1]
theorem pool2_eq (Vv : (c : Dev nD) → (b : Ref sig .tc) → Buf (Elt F) ((c : Thread nD τ).loc b)) (c : Dev nD) : pool2 Vv c = k3_pay3 (grid3.coords t3_1) (iblk3 Vv c 1 t3_1) (iblk3 Vv c 0 t3_1) (iblk3 Vv c 2 t3_1) (iblk3 Vv c 3 t3_1) (pool1 Vv c) := by
  unfold pool2 poolS
  rw [View.canon_unit_zero hz1]
  simp only [View.ld_unit_zero (S := S256x256) hz1, View.ld_unit_zero (S := S256x2048) hz1, View.ld_unit_zero (S := S256x1) hz1]
theorem pool3_eq (Vv : (c : Dev nD) → (b : Ref sig .tc) → Buf (Elt F) ((c : Thread nD τ).loc b)) (c : Dev nD) : pool3 Vv c = k3_pay3 (grid3.coords t3_2) (iblk3 Vv c 1 t3_2) (iblk3 Vv c 0 t3_2) (iblk3 Vv c 2 t3_2) (iblk3 Vv c 3 t3_2) (pool2 Vv c) := by
  unfold pool3 poolS
  rw [View.canon_unit_zero hz1]
  simp only [View.ld_unit_zero (S := S256x256) hz1, View.ld_unit_zero (S := S256x2048) hz1, View.ld_unit_zero (S := S256x1) hz1]
theorem pool4_eq (Vv : (c : Dev nD) → (b : Ref sig .tc) → Buf (Elt F) ((c : Thread nD τ).loc b)) (c : Dev nD) : pool4 Vv c = k3_pay3 (grid3.coords t3_3) (iblk3 Vv c 1 t3_3) (iblk3 Vv c 0 t3_3) (iblk3 Vv c 2 t3_3) (iblk3 Vv c 3 t3_3) (pool3 Vv c) := by
  unfold pool4 poolS
  rw [View.canon_unit_zero hz1]
  simp only [View.ld_unit_zero (S := S256x256) hz1, View.ld_unit_zero (S := S256x2048) hz1, View.ld_unit_zero (S := S256x1) hz1]
theorem pool5_eq (Vv : (c : Dev nD) → (b : Ref sig .tc) → Buf (Elt F) ((c : Thread nD τ).loc b)) (c : Dev nD) : pool5 Vv c = k3_pay3 (grid3.coords t3_4) (iblk3 Vv c 1 t3_4) (iblk3 Vv c 0 t3_4) (iblk3 Vv c 2 t3_4) (iblk3 Vv c 3 t3_4) (pool4 Vv c) := by
  unfold pool5 poolS
  rw [View.canon_unit_zero hz1]
  simp only [View.ld_unit_zero (S := S256x256) hz1, View.ld_unit_zero (S := S256x2048) hz1, View.ld_unit_zero (S := S256x1) hz1]
theorem outH_eq (Vv : (c : Dev nD) → (b : Ref sig .tc) → Buf (Elt F) ((c : Thread nD τ).loc b)) (c : Dev nD) : outH Vv c = k3_pay4 (pool5 Vv c) (iblk3 Vv c 4 t3_4) (iblk3 Vv c 5 t3_4) := by
  unfold outH head4
  rw [View.canon_unit_zero hz1]
  simp only [View.ld_unit_zero (S := S256x1) hz1, View.ld_unit_zero (S := S256x16) hz1, View.ld_unit_zero (S := S1x16) hz1]

end Cert.Proof.KernelIdealL

end
-- ==== Proof.KIReg1Read.lean ====
/-
  The head's input blocks read at an index: each is its array as the region found it — the aggregated features at
  column 2048 · t + c at point t; the weights, the bias and slope columns, the head's weights and its bias row whole.
-/
import proofs.«211848_g47218870452992_cont_8to1c4_747_2_alg».proof.Proof.KIReg1V
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Proof.KernelIdealL

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

open Idealize.ShloMosaic.ValueIdx

/-! ## The head's input blocks, read at an index -/

/-- The input windows' block indices at a point: the aggregated features' column block is the point; every other input is whole. -/
theorem idx3_in : ∀ t : Fin cfg3.N, win3_0.index t (0 : Fin 2) = 0 ∧ win3_0.index t (1 : Fin 2) = t.val
    ∧ win3_1.index t (0 : Fin 2) = 0 ∧ win3_1.index t (1 : Fin 2) = 0 ∧ win3_2.index t (0 : Fin 2) = 0 ∧ win3_2.index t (1 : Fin 2) = 0
    ∧ win3_3.index t (0 : Fin 2) = 0 ∧ win3_3.index t (1 : Fin 2) = 0 ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem colPt3_lt (t : Fin cfg3.N) (cc : Fin 2048) : 2048 * t.val + cc.val < 10240 := by
  have h : t.val < 5 := lt_of_lt_of_eq t.isLt N_3
  have := cc.isLt; omega

theorem iblk3_0_apply (Vv : (c : Dev nD) → (b : Ref sig .tc) → Buf (Elt F) ((c : Thread nD τ).loc b)) (c : Dev nD) (t : Fin cfg3.N) (r : Fin 256) (cc : Fin 2048) :
    iblk3 Vv c 0 t (ix2 r cc) = Vv c (Pipeline.arrRef spec3 0) (ix2 r ⟨2048 * t.val + cc.val, colPt3_lt t cc⟩) := by
  obtain ⟨i0, i1, -, -, -, -, -, -, -, -, -, -⟩ := idx3_in t
  unfold iblk3
  rw [View.read_apply, cast_eq]
  congr 1
  funext a
  apply Fin.ext
  match a with
  | ⟨0, _⟩ => show win3_0.index t (0 : Fin 2) * 256 + 1 * r.val = r.val; rw [i0]; omega
  | ⟨1, _⟩ => show win3_0.index t (1 : Fin 2) * 2048 + 1 * cc.val = 2048 * t.val + cc.val; rw [i1]; omega

theorem iblk3_1_apply (Vv : (c : Dev nD) → (b : Ref sig .tc) → Buf (Elt F) ((c : Thread nD τ).loc b)) (c : Dev nD) (t : Fin cfg3.N) (r : Fin 256) (cc : Fin 256) :
    iblk3 Vv c 1 t (ix2 r cc) = Vv c (Pipeline.arrRef spec3 1) (ix2 r cc) := by
  obtain ⟨-, -, i0, i1, -, -, -, -, -, -, -, -⟩ := idx3_in t
  unfold iblk3
  rw [View.read_apply, cast_eq]
  congr 1
  funext a
  apply Fin.ext
  match a with
  | ⟨0, _⟩ => show win3_1.index t (0 : Fin 2) * 256 + 1 * r.val = r.val; rw [i0]; omega
  | ⟨1, _⟩ => show win3_1.index t (1 : Fin 2) * 256 + 1 * cc.val = cc.val; rw [i1]; omega

theorem iblk3_2_apply (Vv : (c : Dev nD) → (b : Ref sig .tc) → Buf (Elt F) ((c : Thread nD τ).loc b)) (c : Dev nD) (t : Fin cfg3.N) (r : Fin 256) (cc : Fin 1) :
    iblk3 Vv c 2 t (ix2 r cc) = Vv c (Pipeline.arrRef spec3 2) (ix2 r cc) := by
  obtain ⟨-, -, -, -, i0, i1, -, -, -, -, -, -⟩ := idx3_in t
  unfold iblk3
  rw [View.read_apply, cast_eq]
  congr 1
  funext a
  apply Fin.ext
  match a with
  | ⟨0, _⟩ => show win3_2.index t (0 : Fin 2) * 256 + 1 * r.val = r.val; rw [i0]; omega
  | ⟨1, _⟩ => show win3_2.index t (1 : Fin 2) * 1 + 1 * cc.val = cc.val; rw [i1]; omega

theorem iblk3_3_apply (Vv : (c : Dev nD) → (b : Ref sig .tc) → Buf (Elt F) ((c : Thread nD τ).loc b)) (c : Dev nD) (t : Fin cfg3.N) (r : Fin 256) (cc : Fin 1) :
    iblk3 Vv c 3 t (ix2 r cc) = Vv c (Pipeline.arrRef spec3 3) (ix2 r cc) := by
  obtain ⟨-, -, -, -, -, -, i0, i1, -, -, -, -⟩ := idx3_in t
  unfold iblk3
  rw [View.read_apply, cast_eq]
  congr 1
  funext a
  apply Fin.ext
  match a with
  | ⟨0, _⟩ => show win3_3.index t (0 : Fin 2) * 256 + 1 * r.val = r.val; rw [i0]; omega
  | ⟨1, _⟩ => show win3_3.index t (1 : Fin 2) * 1 + 1 * cc.val = cc.val; rw [i1]; omega

theorem iblk3_4_apply (Vv : (c : Dev nD) → (b : Ref sig .tc) → Buf (Elt F) ((c : Thread nD τ).loc b)) (c : Dev nD) (t : Fin cfg3.N) (r : Fin 256) (cc : Fin 16) :
    iblk3 Vv c 4 t (ix2 r cc) = Vv c (Pipeline.arrRef spec3 4) (ix2 r cc) := by
  obtain ⟨-, -, -, -, -, -, -, -, i0, i1, -, -⟩ := idx3_in t
  unfold iblk3
  rw [View.read_apply, cast_eq]
  congr 1
  funext a
  apply Fin.ext
  match a with
  | ⟨0, _⟩ => show win3_4.index t (0 : Fin 2) * 256 + 1 * r.val = r.val; rw [i0]; omega
  | ⟨1, _⟩ => show win3_4.index t (1 : Fin 2) * 16 + 1 * cc.val = cc.val; rw [i1]; omega

theorem iblk3_5_apply (Vv : (c : Dev nD) → (b : Ref sig .tc) → Buf (Elt F) ((c : Thread nD τ).loc b)) (c : Dev nD) (t : Fin cfg3.N) (r : Fin 1) (cc : Fin 16) :
    iblk3 Vv c 5 t (ix2 r cc) = Vv c (Pipeline.arrRef spec3 5) (ix2 r cc) := by
  obtain ⟨-, -, -, -, -, -, -, -, -, -, i0, i1⟩ := idx3_in t
  unfold iblk3
  rw [View.read_apply, cast_eq]
  congr 1
  funext a
  apply Fin.ext
  match a with
  | ⟨0, _⟩ => show win3_5.index t (0 : Fin 2) * 1 + 1 * r.val = r.val; rw [i0]; omega
  | ⟨1, _⟩ => show win3_5.index t (1 : Fin 2) * 16 + 1 * cc.val = cc.val; rw [i1]; omega

end Cert.Proof.KernelIdealL

end
-- ==== Proof.KIHeadRead.lean ====
/-
  The head's region read out: the result row is the softmax of the logits of the pooled second layer. The region's exit
  holds at the result row what the last grid point stores — the head's payload of the pool scratch after the fifth point,
  the head's weights and its bias row —, and the pool scratch after the fifth point is the five-step fold of the
  second-layer-and-masked-column-sum payloads over the five blocks of 2048 columns of the second aggregation; each block the
  region stages is that stretch of the valuation's buffer, the other operands the buffers whole. With the fold read as the
  masked sum over all 10240 columns this is the read-out the final composition takes.
-/
import proofs.«211848_g47218870452992_cont_8to1c4_747_2_alg».proof.Proof.KIHeadMath
import proofs.«211848_g47218870452992_cont_8to1c4_747_2_alg».proof.Proof.KIReg1Read

set_option Elab.async false
set_option maxRecDepth 16384

noncomputable section

namespace Cert.Proof.KernelIdealL

open Cert.KernelIdeal Cert.KernelIdeal.Gen
open Idealize.ShloMosaic Idealize.ShloMosaic.TcCoe Idealize.ShloMosaic.ValueIdx Idealize.SL.Sem Idealize.ShloMosaic.StableHlo
open Cert.RefSpec (prelu softmax)
open scoped BigOperators

/-- The head's region's exit. -/
def R1c : Dev nD → Valuation τ sig (Elt Ideal) → Valuation τ sig (Elt Ideal) := fun d W => reg1Out (F := Ideal) W d

/-! ## The region's blocks are the valuation's buffers -/

theorem blk1_H (W : Valuation τ sig (Elt Ideal)) (d : Dev nD) (t : Fin cfg3.N) : iblk3 (F := Ideal) (r0V fun _ => W) d 1 t = w16 W :=
  funext fun idx => by
    have e : idx = ix2 (idx 0) (idx 1) := eq_ix2 (n0 := 256) (n1 := 256) idx
    exact (congrArg (iblk3 (F := Ideal) (r0V fun _ => W) d 1 t) e).trans ((iblk3_1_apply (F := Ideal) (r0V fun _ => W) d t (idx 0) (idx 1)).trans (congrArg (w16 W) e.symm))
theorem blk2_H (W : Valuation τ sig (Elt Ideal)) (d : Dev nD) (t : Fin cfg3.N) : iblk3 (F := Ideal) (r0V fun _ => W) d 2 t = w17 W :=
  funext fun idx => by
    have e : idx = ix2 (idx 0) (idx 1) := eq_ix2 (n0 := 256) (n1 := 1) idx
    exact (congrArg (iblk3 (F := Ideal) (r0V fun _ => W) d 2 t) e).trans ((iblk3_2_apply (F := Ideal) (r0V fun _ => W) d t (idx 0) (idx 1)).trans (congrArg (w17 W) e.symm))
theorem blk3_H (W : Valuation τ sig (Elt Ideal)) (d : Dev nD) (t : Fin cfg3.N) : iblk3 (F := Ideal) (r0V fun _ => W) d 3 t = w18 W :=
  funext fun idx => by
    have e : idx = ix2 (idx 0) (idx 1) := eq_ix2 (n0 := 256) (n1 := 1) idx
    exact (congrArg (iblk3 (F := Ideal) (r0V fun _ => W) d 3 t) e).trans ((iblk3_3_apply (F := Ideal) (r0V fun _ => W) d t (idx 0) (idx 1)).trans (congrArg (w18 W) e.symm))
theorem blk4_H (W : Valuation τ sig (Elt Ideal)) (d : Dev nD) (t : Fin cfg3.N) : iblk3 (F := Ideal) (r0V fun _ => W) d 4 t = wA8 W :=
  funext fun idx => by
    have e : idx = ix2 (idx 0) (idx 1) := eq_ix2 (n0 := 256) (n1 := 16) idx
    exact (congrArg (iblk3 (F := Ideal) (r0V fun _ => W) d 4 t) e).trans ((iblk3_4_apply (F := Ideal) (r0V fun _ => W) d t (idx 0) (idx 1)).trans (congrArg (wA8 W) e.symm))
theorem blk5_H (W : Valuation τ sig (Elt Ideal)) (d : Dev nD) (t : Fin cfg3.N) : iblk3 (F := Ideal) (r0V fun _ => W) d 5 t = w19 W :=
  funext fun idx => by
    have e : idx = ix2 (idx 0) (idx 1) := eq_ix2 (n0 := 1) (n1 := 16) idx
    exact (congrArg (iblk3 (F := Ideal) (r0V fun _ => W) d 5 t) e).trans ((iblk3_5_apply (F := Ideal) (r0V fun _ => W) d t (idx 0) (idx 1)).trans (congrArg (w19 W) e.symm))

theorem blk0_H (W : Valuation τ sig (Elt Ideal)) (d : Dev nD) (t : Fin cfg3.N) (b : Fin 5) (ht : t.val = b.val) :
    iblk3 (F := Ideal) (r0V fun _ => W) d 0 t = blkH W b :=
  funext fun idx => by
    have e : idx = ix2 (idx 0) (idx 1) := eq_ix2 (n0 := 256) (n1 := 2048) idx
    refine (congrArg (iblk3 (F := Ideal) (r0V fun _ => W) d 0 t) e).trans ((iblk3_0_apply (F := Ideal) (r0V fun _ => W) d t (idx 0) (idx 1)).trans ?_)
    unfold blkH
    show W (Proc.devRef .tc main_v15) _ = W (Proc.devRef .tc main_v15) _
    congr 1
    funext a
    match a with
    | ⟨0, _⟩ => rfl
    | ⟨1, _⟩ => exact Fin.ext (by show 2048 * t.val + _ = 2048 * b.val + _; rw [ht])

/-! ## The points are the blocks' grid points -/

theorem pt_H0 : grid3.coords t3_0 = ptH 0 := by decide +kernel
theorem pt_H1 : grid3.coords t3_1 = ptH ⟨1, by decide⟩ := by decide +kernel
theorem pt_H2 : grid3.coords t3_2 = ptH ⟨2, by decide⟩ := by decide +kernel
theorem pt_H3 : grid3.coords t3_3 = ptH ⟨3, by decide⟩ := by decide +kernel
theorem pt_H4 : grid3.coords t3_4 = ptH ⟨4, by decide⟩ := by decide +kernel

/-! ## The pooled sums are the pooled column block by block -/

theorem pool1_H (W : Valuation τ sig (Elt Ideal)) (d : Dev nD) : pool1 (F := Ideal) (r0V fun _ => W) d = poolH W 0 := by
  rw [pool1_eq, pt_H0, blk1_H, blk0_H W d t3_0 0 rfl, blk2_H, blk3_H]
  rfl
theorem pool2_H (W : Valuation τ sig (Elt Ideal)) (d : Dev nD) : pool2 (F := Ideal) (r0V fun _ => W) d = poolH W 1 := by
  rw [pool2_eq, pt_H1, blk1_H, blk0_H W d t3_1 ⟨1, by decide⟩ rfl, blk2_H, blk3_H, pool1_H]
  exact (poolH_succ W 0 (by decide)).symm
theorem pool3_H (W : Valuation τ sig (Elt Ideal)) (d : Dev nD) : pool3 (F := Ideal) (r0V fun _ => W) d = poolH W 2 := by
  rw [pool3_eq, pt_H2, blk1_H, blk0_H W d t3_2 ⟨2, by decide⟩ rfl, blk2_H, blk3_H, pool2_H]
  exact (poolH_succ W 1 (by decide)).symm
theorem pool4_H (W : Valuation τ sig (Elt Ideal)) (d : Dev nD) : pool4 (F := Ideal) (r0V fun _ => W) d = poolH W 3 := by
  rw [pool4_eq, pt_H3, blk1_H, blk0_H W d t3_3 ⟨3, by decide⟩ rfl, blk2_H, blk3_H, pool3_H]
  exact (poolH_succ W 2 (by decide)).symm
theorem pool5_H (W : Valuation τ sig (Elt Ideal)) (d : Dev nD) : pool5 (F := Ideal) (r0V fun _ => W) d = poolH W 4 := by
  rw [pool5_eq, pt_H4, blk1_H, blk0_H W d t3_4 ⟨4, by decide⟩ rfl, blk2_H, blk3_H, pool4_H]
  exact (poolH_succ W 3 (by decide)).symm

/-- The head's read-out. -/
theorem R1c_read : ReadHead R1c := by
  intro d W l
  show reg1Out (F := Ideal) W d (Proc.devRef .tc main_v20) (ix2 (0 : Fin 1) l) = _
  rw [reg1Out_v20, outH_eq, pool5_H, blk4_H, blk5_H]
  exact head_read W l

end Cert.Proof.KernelIdealL

end
-- ==== Proof.KIReg1Glue.lean ====
/-
  The head's region, as the value run takes it: its step over a definite valuation, at the exit whose read-out is the
  softmax of the logits of the pooled second layer.
-/
import proofs.«211848_g47218870452992_cont_8to1c4_747_2_alg».proof.Proof.KIHeadRead
import proofs.«211848_g47218870452992_cont_8to1c4_747_2_alg».proof.Proof.KIReg0Glue

set_option Elab.async false
set_option maxRecDepth 16384

noncomputable section

namespace Cert.Proof.KernelIdealL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-- The head's region's step, in the shape @main's proof with values takes. -/
theorem R1c_step (P' : (K (F := Ideal)).Pay (nD := nD) (Val := Elt Ideal) (Name := ℕ) (U := UU))
    (κ : GSem nD τ sig → ℕ) (d : Dev nD) (Wc : Valuation τ sig (Elt Ideal)) (Φ : PUnit → sProp 𝕄) :
    iprop((K (F := Ideal)).ctx EH P' κ ∗ (K (F := Ideal)).tcSt EH d 2 ∗ boundary (SparseCore.T d)
        ∗ StableHlo.held (SparseCore.T d) (Pipeline.ucRefs τ sig) Wc ∗ Aux (F := Ideal) d ∗ ghost (F := Ideal) 1 d
        ∗ (((K (F := Ideal)).tcSt EH d 2 ∗ boundary (SparseCore.T d) ∗ StableHlo.held (SparseCore.T d) (Pipeline.ucRefs τ sig) (R1c d Wc) ∗ Aux (F := Ideal) d) -∗ Φ ⟨⟩))
      ⊢ wp frame (wpE ((K (F := Ideal)).defs (D (F := Ideal))) 𝒱 (SparseCore.T d) none) Set.univ
          (Prog.lift (.customCall (SparseCore.inner (Pipeline.entry 1)) ())) Φ :=
  reg1_stepV (F := Ideal) P' κ d Wc Φ

end Cert.Proof.KernelIdealL

end
-- ==== Proof.lean ====
/-
  The proof of `Cert.Claim`: a two-layer graph network — each layer an aggregation over the edges (the sum, at every node,
  of its in-neighbours' feature rows) followed by a dense map, a bias and a leaky slope; then a sum over the nodes, a dense
  head and a softmax — computed by a kernel that aggregates FIRST, on the SparseCores' 32 tiles over a transposed and
  padded table, and applies the dense map after, on the TensorCore, against a reference that maps each edge's source row
  first and aggregates the products. The two agree on the extended reals because the dense map is linear and every
  input is finite; the softmax is the same function of equal logits.

  What is proved here, and from what:
  * the reference's frame — its run is a straight line of host operations (its calls inlined), none writing an argument;
  * `preserves` — the idealization rewrote no operation;
  * the kernel's frames (both instances, the same text) — the launch of its 35 threads per device: each aggregation's
    task as one tile's obligation (every copy awaited at once on a semaphore of its own; every computed index in range
    because every edge endpoint names a node, which is the precondition), @main on the TensorCore as five stretches of host
    operations around the four calls under one invariant, the tiles' shares dealt out and collected around each aggregation, each TensorCore layer by its region's step;
  * the value claim: the kernel's run with values ends with its result at the kernel's arrangement of the network
    (`kernel_value`); the reference's run is read index by index as its arrangement, the two arrangements are proved one function for finite inputs (the precondition),
    and the arguments end unchanged on both sides (the frames).
-/
import proofs.«211848_g47218870452992_cont_8to1c4_747_2_alg».proof.Defs
import proofs.«211848_g47218870452992_cont_8to1c4_747_2_alg».proof.Proof.Gen.Kernel
import proofs.«211848_g47218870452992_cont_8to1c4_747_2_alg».proof.Proof.Gen.Kernel.Skeleton
import proofs.«211848_g47218870452992_cont_8to1c4_747_2_alg».proof.Proof.Gen.Kernel.Launch
import proofs.«211848_g47218870452992_cont_8to1c4_747_2_alg».proof.Proof.Gen.Kernel.Regions
import proofs.«211848_g47218870452992_cont_8to1c4_747_2_alg».proof.Proof.Gen.Kernel.Points
import proofs.«211848_g47218870452992_cont_8to1c4_747_2_alg».proof.Proof.Gen.KernelIdeal
import proofs.«211848_g47218870452992_cont_8to1c4_747_2_alg».proof.Proof.Gen.KernelIdeal.Skeleton
import proofs.«211848_g47218870452992_cont_8to1c4_747_2_alg».proof.Proof.Gen.KernelIdeal.Launch
import proofs.«211848_g47218870452992_cont_8to1c4_747_2_alg».proof.Proof.Gen.KernelIdeal.Regions
import proofs.«211848_g47218870452992_cont_8to1c4_747_2_alg».proof.Proof.Gen.KernelIdeal.Points
import proofs.«211848_g47218870452992_cont_8to1c4_747_2_alg».proof.Proof.Gen.ReferenceIdeal
import proofs.«211848_g47218870452992_cont_8to1c4_747_2_alg».proof.Proof.Gen.Pre_input_domain
import proofs.«211848_g47218870452992_cont_8to1c4_747_2_alg».proof.Proof.RefFrame
import proofs.«211848_g47218870452992_cont_8to1c4_747_2_alg».proof.Proof.KIFrame
import proofs.«211848_g47218870452992_cont_8to1c4_747_2_alg».proof.Proof.KBFrame
import proofs.«211848_g47218870452992_cont_8to1c4_747_2_alg».proof.Proof.KIClaim
import proofs.«211848_g47218870452992_cont_8to1c4_747_2_alg».proof.Proof.KBClaim
import proofs.«211848_g47218870452992_cont_8to1c4_747_2_alg».proof.Proof.KIReg1
import proofs.«211848_g47218870452992_cont_8to1c4_747_2_alg».proof.Proof.KBReg1
import proofs.«211848_g47218870452992_cont_8to1c4_747_2_alg».proof.Proof.KIAlg
import proofs.«211848_g47218870452992_cont_8to1c4_747_2_alg».proof.Proof.RefValue
import proofs.«211848_g47218870452992_cont_8to1c4_747_2_alg».proof.Proof.KIReg0Glue
import proofs.«211848_g47218870452992_cont_8to1c4_747_2_alg».proof.Proof.KIOblV1
import proofs.«211848_g47218870452992_cont_8to1c4_747_2_alg».proof.Proof.KIReg1Glue
import Idealize.ShloMosaic.Adequacy
import Idealize.ShloMosaic.Init

noncomputable section

namespace Cert.Proof

open Idealize.ShloMosaic Idealize.SL.Sem

/-- The idealization rewrote nothing: its ledger is empty. -/
theorem preserves : Cert.preserves_Kernel_KernelIdeal := trivial

/-- The word-level kernel's frame. -/
theorem frame_k : Cert.frame_Kernel := fun m ρ hpre =>
  Cert.Proof.KernelL.run_of_reg1 (F := Bits) m ρ hpre (fun κ d Φ => Cert.Proof.KernelL.reg1_step m κ d Φ)

/-- The idealized kernel's frame. -/
theorem frame_ki : Cert.frame_KernelIdeal := fun m ρ hpre =>
  Cert.Proof.KernelIdealL.run_of_reg1 (F := Ideal) m ρ hpre (fun κ d Φ => Cert.Proof.KernelIdealL.reg1_step m κ d Φ)

open Cert.KernelIdeal Cert.KernelIdeal.Gen Cert.Proof.KernelIdealL in
open Idealize.ShloMosaic.SparseCore (S V T) in
open Idealize.SL Idealize.SL.RA Idealize.SL.BI Idealize.SL.BI.BIBase in
open scoped Idealize.SL.BI in
/-- The kernel's value: its result buffer ends at the kernel's arrangement of the network applied to the argument arrays.
    From the run with values — the launch at the value-carrying handshakes, @main over the fold of the buffer contents, both
    aggregations' tasks and both TensorCore regions with values — and the index-level reading of the final buffer. -/
theorem kernel_value (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v21) = Cert.Proof.Alg.kerVec m c) := by
  have hpg : PreG (F := Ideal) m := hpre
  have htile1 := tileOblV1 m R0c R0c_keep (src_lt m hpg) (dst_lt m hpg)
  exact kernel_value_of m g hpre R0c R1c R0c_keep R0c_read R1c_read (fun κ d Wc Φ => R0c_step _ κ d Wc Φ) (fun κ d Wc Φ => R1c_step _ κ d Wc Φ) htile1

/-- The value claim, from the kernel's value: the reference's run is its arrangement of the network (read index by index
    off its straight-line run), the two arrangements are one function for finite inputs, and both frames hold. -/
theorem algebraic : Cert.algebraic_KernelIdeal_ReferenceIdeal :=
  Cert.Proof.Alg.algebraic_of kernel_value frame_ki (fun V hei => Cert.ReferenceIdeal.RefValue.res_spec_fun V hei)

theorem claim : Cert.Claim := ⟨Cert.Kernel.Gen.facts, Cert.KernelIdeal.Gen.facts, Cert.ReferenceIdeal.Gen.facts, Cert.Pre_input_domain.Gen.facts,
  frame_k, frame_ki, Cert.Proof.RefClaims.frame_ri, preserves, algebraic⟩

end Cert.Proof

end
